-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S10000x8 : Shape := ⟨2, ![10000, 8]⟩
abbrev S10000x4x8 : Shape := ⟨3, ![10000, 4, 8]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10000x8 : S_.BroadcastsInDim S10000x8 (![] : Fin 0 → Fin S10000x8.rank)
  reducesTo_S10000x8_S_d0_1 : S10000x8.ReducesTo [0, 1] S_
  bcast_S_S10000x4x8 : S_.BroadcastsInDim S10000x4x8 (![] : Fin 0 → Fin S10000x4x8.rank)
  reducesTo_S10000x4x8_S_d0_1_2 : S10000x4x8.ReducesTo [0, 1, 2] S_

variable [Facts]

def fn_part1 {F : FTy → Type} [FloatOps F] (main_arg1 : IVec S10000x8 32) (main_arg2 : IVec S10000x4x8 32) (main_v13 : IVec S_ 1) (main_v15 : IVec S10000x8 1) (main_c_5 : IVec S_ 32) : IVec S_ 1 :=
  let main_v16 : IVec S10000x8 32 := broadcastInDim S10000x8 ![] bcast_S_S10000x8 main_c_5
  let main_v17 : IVec S10000x8 1 := cmpi .sle main_arg1 main_v16
  let main_v18 : IVec S10000x8 1 := andi main_v15 main_v17
  let main_c_6 : IVec S_ 1 := constantI S_ 1 1#1
  let main_v19 : IVec S_ 1 := (fun x v => Host.reduce IntOp.andi x v reducesTo_S10000x8_S_d0_1 h_S_) main_v18 main_c_6
  let main_v20 : IVec S_ 1 := andi main_v13 main_v19
  let main_c_7 : IVec S_ 32 := constantI S_ 32 0#32
  let main_v21 : IVec S10000x4x8 32 := broadcastInDim S10000x4x8 ![] bcast_S_S10000x4x8 main_c_7
  let main_v22 : IVec S10000x4x8 1 := cmpi .sge main_arg2 main_v21
  let main_c_8 : IVec S_ 32 := constantI S_ 32 99999#32
  let main_v23 : IVec S10000x4x8 32 := broadcastInDim S10000x4x8 ![] bcast_S_S10000x4x8 main_c_8
  let main_v24 : IVec S10000x4x8 1 := cmpi .sle main_arg2 main_v23
  let main_v25 : IVec S10000x4x8 1 := andi main_v22 main_v24
  let main_c_9 : IVec S_ 1 := constantI S_ 1 1#1
  let main_v26 : IVec S_ 1 := (fun x v => Host.reduce IntOp.andi x v reducesTo_S10000x4x8_S_d0_1_2 h_S_) main_v25 main_c_9
  let main_v27 : IVec S_ 1 := andi main_v20 main_v26
  main_v27

def fn {F : FTy → Type} [FloatOps F] (main_arg0 : FVec F S100000x128 .f32) (main_arg1 : IVec S10000x8 32) (main_arg2 : IVec S10000x4x8 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S10000x8 32 := broadcastInDim S10000x8 ![] bcast_S_S10000x8 main_c_4
  let main_v15 : IVec S10000x8 1 := cmpi .sge main_arg1 main_v14
  let main_c_5 : IVec S_ 32 := constantI S_ 32 99999#32
  fn_part1 (F := F) main_arg1 main_arg2 main_v13 main_v15 main_c_5
-- ==== Kernel.lean ====
abbrev S100000x128 : Shape := ⟨2, ![100000, 128]⟩
abbrev S10000x8 : Shape := ⟨2, ![10000, 8]⟩
abbrev S10000x4x8 : Shape := ⟨3, ![10000, 4, 8]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S10000x32 : Shape := ⟨2, ![10000, 32]⟩
abbrev S_ : Shape := ⟨0, ![]⟩
abbrev S10496x32 : Shape := ⟨2, ![10496, 32]⟩
abbrev S335872 : Shape := ⟨1, ![335872]⟩
abbrev S10240x128 : Shape := ⟨2, ![10240, 128]⟩
abbrev S14336 : Shape := ⟨1, ![14336]⟩
abbrev S256x128 : Shape := ⟨2, ![256, 128]⟩
abbrev S448x128 : Shape := ⟨2, ![448, 128]⟩
abbrev S1x16 : Shape := ⟨2, ![1, 16]⟩
abbrev S16 : Shape := ⟨1, ![16]⟩
abbrev S192x128 : Shape := ⟨2, ![192, 128]⟩
abbrev S10000x128 : Shape := ⟨2, ![10000, 128]⟩

abbrev nBuf : Table → Nat
  | .hbm => 15
  | .local .tc .vmem => 6
  | .local .scVector .vmem => 3
  | _ => 0

abbrev bufTy : (tb : Table) → Fin (nBuf tb) → BufTy
  | .hbm, ⟨0, _⟩ => ⟨S100000x128, .f32⟩
  | .hbm, ⟨1, _⟩ => ⟨S10000x8, .i32⟩
  | .hbm, ⟨2, _⟩ => ⟨S10000x4x8, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S100000x128, .f32⟩
  | .hbm, ⟨8, _⟩ => ⟨S10000x32, .i32⟩
  | .hbm, ⟨9, _⟩ => ⟨S_, .i32⟩
  | .hbm, ⟨10, _⟩ => ⟨S_, .i32⟩
  | .hbm, ⟨11, _⟩ => ⟨S10496x32, .i32⟩
  | .hbm, ⟨12, _⟩ => ⟨S335872, .i32⟩
  | .hbm, ⟨13, _⟩ => ⟨S10240x128, .f32⟩
  | .hbm, ⟨14, _⟩ => ⟨S10000x128, .f32⟩
  | .local .tc .vmem, ⟨0, _⟩ => ⟨S2000x128, .f32⟩
  | .local .tc .vmem, ⟨1, _⟩ => ⟨S2000x128, .f32⟩
  | .local .tc .vmem, ⟨2, _⟩ => ⟨S128x128, .f32⟩
  | .local .tc .vmem, ⟨3, _⟩ => ⟨S1x128, .f32⟩
  | .local .tc .vmem, ⟨4, _⟩ => ⟨S2000x128, .f32⟩
  | .local .tc .vmem, ⟨5, _⟩ => ⟨S2000x128, .f32⟩
  | .local .scVector .vmem, ⟨0, _⟩ => ⟨S14336, .i32⟩
  | .local .scVector .vmem, ⟨1, _⟩ => ⟨S256x128, .f32⟩
  | .local .scVector .vmem, ⟨2, _⟩ => ⟨S448x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v2_scv : Ref sig .scVector := ⟨.hbm, 7, rfl⟩
abbrev main_v5_scv : Ref sig .scVector := ⟨.hbm, 12, rfl⟩
abbrev main_v6_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c640_i32 : BitVec 32 := 640#32
  let v0 : BitVec 32 := Scalar.muli arg1 c640_i32
  let arg0 : BitVec 32 := BitVec.ofNat 32 (i 0).val
  let c448_i32 : BitVec 32 := 448#32
  let v1 : BitVec 32 := Scalar.muli arg0 c448_i32
  let v2 : BitVec 32 := Scalar.addi v0 v1
  let c32_i32_0 : BitVec 32 := 32#32
  let v5 : BitVec 32 := Scalar.muli v2 c32_i32_0
  ![v5.toNat]
@[reducible] def k1_t1_loop (i : grid1.Coords) : Scf.Loop 32 :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_2 : BitVec 32 := 1#32
  ⟨c0_i32_1, v10, c1_i32_2⟩
def k1_off2 (i : grid1.Coords) (k1_t1 : Fin (k1_t1_loop i).trips) : Fin 1 → Nat :=
  let c0_i32_1 : BitVec 32 := 0#32
  let c1_i32_2 : BitVec 32 := 1#32
  let arg10 : BitVec 32 := Scf.iv c0_i32_1 c1_i32_2 k1_t1
  let c256_i32 : BitVec 32 := 256#32
  let v17 : BitVec 32 := Scalar.muli arg10 c256_i32
  ![v17.toNat]
def k1_off3 (i : grid1.Coords) (k1_t1 : Fin (k1_t1_loop i).trips) : Fin 1 → Nat :=
  let c0_i32_1 : BitVec 32 := 0#32
  let c1_i32_2 : BitVec 32 := 1#32
  let arg10 : BitVec 32 := Scf.iv c0_i32_1 c1_i32_2 k1_t1
  let c256_i32_12 : BitVec 32 := 256#32
  let v21 : BitVec 32 := Scalar.muli arg10 c256_i32_12
  let c128_i32 : BitVec 32 := 128#32
  let v22 : BitVec 32 := Scalar.addi v21 c128_i32
  ![v22.toNat]
def k1_off4 (i : grid1.Coords) (k1_t1 : Fin (k1_t1_loop i).trips) (c0_i32_25 : BitVec 32) : Fin 2 → Nat :=
  let c0_i32_1 : BitVec 32 := 0#32
  let c1_i32_2 : BitVec 32 := 1#32
  let arg10 : BitVec 32 := Scf.iv c0_i32_1 c1_i32_2 k1_t1
  let c8_i32 : BitVec 32 := 8#32
  let v32 : BitVec 32 := Scalar.muli arg10 c8_i32
  let v33 : BitVec 32 := Scalar.addi v32 c0_i32_25
  let v163 : Index := Scalar.indexCast v33
  let c0_60 : Index := 0#32
  ![v163.toNat, 0]
def k1_off5 (i : grid1.Coords) (k1_t1 : Fin (k1_t1_loop i).trips) (c0_i32_25 : BitVec 32) : Fin 2 → Nat :=
  let c0_i32_1 : BitVec 32 := 0#32
  let c1_i32_2 : BitVec 32 := 1#32
  let arg10 : BitVec 32 := Scf.iv c0_i32_1 c1_i32_2 k1_t1
  let c8_i32 : BitVec 32 := 8#32
  let v32 : BitVec 32 := Scalar.muli arg10 c8_i32
  let v33 : BitVec 32 := Scalar.addi v32 c0_i32_25
  let v296 : Index := Scalar.indexCast v33
  let c16_125 : Index := 16#32
  ![v296.toNat, 16]
def k1_off6 (i : grid1.Coords) (k1_t1 : Fin (k1_t1_loop i).trips) (c0_i32_25 : BitVec 32) : Fin 2 → Nat :=
  let c0_i32_1 : BitVec 32 := 0#32
  let c1_i32_2 : BitVec 32 := 1#32
  let arg10 : BitVec 32 := Scf.iv c0_i32_1 c1_i32_2 k1_t1
  let c8_i32 : BitVec 32 := 8#32
  let v32 : BitVec 32 := Scalar.muli arg10 c8_i32
  let v33 : BitVec 32 := Scalar.addi v32 c0_i32_25
  let v429 : Index := Scalar.indexCast v33
  let c32_190 : Index := 32#32
  ![v429.toNat, 32]
def k1_off7 (i : grid1.Coords) (k1_t1 : Fin (k1_t1_loop i).trips) (c0_i32_25 : BitVec 32) : Fin 2 → Nat :=
  let c0_i32_1 : BitVec 32 := 0#32
  let c1_i32_2 : BitVec 32 := 1#32
  let arg10 : BitVec 32 := Scf.iv c0_i32_1 c1_i32_2 k1_t1
  let c8_i32 : BitVec 32 := 8#32
  let v32 : BitVec 32 := Scalar.muli arg10 c8_i32
  let v33 : BitVec 32 := Scalar.addi v32 c0_i32_25
  let v562 : Index := Scalar.indexCast v33
  let c48_255 : Index := 48#32
  ![v562.toNat, 48]
def k1_off8 (i : grid1.Coords) (k1_t1 : Fin (k1_t1_loop i).trips) (c0_i32_25 : BitVec 32) : Fin 2 → Nat :=
  let c0_i32_1 : BitVec 32 := 0#32
  let c1_i32_2 : BitVec 32 := 1#32
  let arg10 : BitVec 32 := Scf.iv c0_i32_1 c1_i32_2 k1_t1
  let c8_i32 : BitVec 32 := 8#32
  let v32 : BitVec 32 := Scalar.muli arg10 c8_i32
  let v33 : BitVec 32 := Scalar.addi v32 c0_i32_25
  let v695 : Index := Scalar.indexCast v33
  let c64_320 : Index := 64#32
  ![v695.toNat, 64]
def k1_off9 (i : grid1.Coords) (k1_t1 : Fin (k1_t1_loop i).trips) (c0_i32_25 : BitVec 32) : Fin 2 → Nat :=
  let c0_i32_1 : BitVec 32 := 0#32
  let c1_i32_2 : BitVec 32 := 1#32
  let arg10 : BitVec 32 := Scf.iv c0_i32_1 c1_i32_2 k1_t1
  let c8_i32 : BitVec 32 := 8#32
  let v32 : BitVec 32 := Scalar.muli arg10 c8_i32
  let v33 : BitVec 32 := Scalar.addi v32 c0_i32_25
  let v828 : Index := Scalar.indexCast v33
  let c80_385 : Index := 80#32
  ![v828.toNat, 80]
def k1_off10 (i : grid1.Coords) (k1_t1 : Fin (k1_t1_loop i).trips) (c0_i32_25 : BitVec 32) : Fin 2 → Nat :=
  let c0_i32_1 : BitVec 32 := 0#32
  let c1_i32_2 : BitVec 32 := 1#32
  let arg10 : BitVec 32 := Scf.iv c0_i32_1 c1_i32_2 k1_t1
  let c8_i32 : BitVec 32 := 8#32
  let v32 : BitVec 32 := Scalar.muli arg10 c8_i32
  let v33 : BitVec 32 := Scalar.addi v32 c0_i32_25
  let v961 : Index := Scalar.indexCast v33
  let c96_450 : Index := 96#32
  ![v961.toNat, 96]
def k1_off11 (i : grid1.Coords) (k1_t1 : Fin (k1_t1_loop i).trips) (c0_i32_25 : BitVec 32) : Fin 2 → Nat :=
  let c0_i32_1 : BitVec 32 := 0#32
  let c1_i32_2 : BitVec 32 := 1#32
  let arg10 : BitVec 32 := Scf.iv c0_i32_1 c1_i32_2 k1_t1
  let c8_i32 : BitVec 32 := 8#32
  let v32 : BitVec 32 := Scalar.muli arg10 c8_i32
  let v33 : BitVec 32 := Scalar.addi v32 c0_i32_25
  let v1094 : Index := Scalar.indexCast v33
  let c112_515 : Index := 112#32
  ![v1094.toNat, 112]
@[reducible] def k1_t2_loop (i : grid1.Coords) : Scf.Loop 32 :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let v7 : BitVec 32 := Scalar.addi c0_i32_1 v6
  let c1_i32_3 : BitVec 32 := 1#32
  ⟨v10, v7, c1_i32_3⟩
def k1_off12 (i : grid1.Coords) (k1_t2 : Fin (k1_t2_loop i).trips) : Fin 1 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c256_i32 : BitVec 32 := 256#32
  let v17 : BitVec 32 := Scalar.muli arg10 c256_i32
  ![v17.toNat]
def k1_off13 (i : grid1.Coords) (k1_t2 : Fin (k1_t2_loop i).trips) : Fin 1 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c256_i32_12 : BitVec 32 := 256#32
  let v21 : BitVec 32 := Scalar.muli arg10 c256_i32_12
  let c128_i32 : BitVec 32 := 128#32
  let v22 : BitVec 32 := Scalar.addi v21 c128_i32
  ![v22.toNat]
def k1_off14 (i : grid1.Coords) (k1_t2 : Fin (k1_t2_loop i).trips) (c0_i32_25 : BitVec 32) : Fin 2 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c8_i32 : BitVec 32 := 8#32
  let v32 : BitVec 32 := Scalar.muli arg10 c8_i32
  let v33 : BitVec 32 := Scalar.addi v32 c0_i32_25
  let v163 : Index := Scalar.indexCast v33
  let c0_60 : Index := 0#32
  ![v163.toNat, 0]
def k1_off15 (i : grid1.Coords) (k1_t2 : Fin (k1_t2_loop i).trips) (c0_i32_25 : BitVec 32) : Fin 2 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c8_i32 : BitVec 32 := 8#32
  let v32 : BitVec 32 := Scalar.muli arg10 c8_i32
  let v33 : BitVec 32 := Scalar.addi v32 c0_i32_25
  let v296 : Index := Scalar.indexCast v33
  let c16_125 : Index := 16#32
  ![v296.toNat, 16]
def k1_off16 (i : grid1.Coords) (k1_t2 : Fin (k1_t2_loop i).trips) (c0_i32_25 : BitVec 32) : Fin 2 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c8_i32 : BitVec 32 := 8#32
  let v32 : BitVec 32 := Scalar.muli arg10 c8_i32
  let v33 : BitVec 32 := Scalar.addi v32 c0_i32_25
  let v429 : Index := Scalar.indexCast v33
  let c32_190 : Index := 32#32
  ![v429.toNat, 32]
def k1_off17 (i : grid1.Coords) (k1_t2 : Fin (k1_t2_loop i).trips) (c0_i32_25 : BitVec 32) : Fin 2 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c8_i32 : BitVec 32 := 8#32
  let v32 : BitVec 32 := Scalar.muli arg10 c8_i32
  let v33 : BitVec 32 := Scalar.addi v32 c0_i32_25
  let v562 : Index := Scalar.indexCast v33
  let c48_255 : Index := 48#32
  ![v562.toNat, 48]
def k1_off18 (i : grid1.Coords) (k1_t2 : Fin (k1_t2_loop i).trips) (c0_i32_25 : BitVec 32) : Fin 2 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c8_i32 : BitVec 32 := 8#32
  let v32 : BitVec 32 := Scalar.muli arg10 c8_i32
  let v33 : BitVec 32 := Scalar.addi v32 c0_i32_25
  let v695 : Index := Scalar.indexCast v33
  let c64_320 : Index := 64#32
  ![v695.toNat, 64]
def k1_off19 (i : grid1.Coords) (k1_t2 : Fin (k1_t2_loop i).trips) (c0_i32_25 : BitVec 32) : Fin 2 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c8_i32 : BitVec 32 := 8#32
  let v32 : BitVec 32 := Scalar.muli arg10 c8_i32
  let v33 : BitVec 32 := Scalar.addi v32 c0_i32_25
  let v828 : Index := Scalar.indexCast v33
  let c80_385 : Index := 80#32
  ![v828.toNat, 80]
def k1_off20 (i : grid1.Coords) (k1_t2 : Fin (k1_t2_loop i).trips) (c0_i32_25 : BitVec 32) : Fin 2 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c8_i32 : BitVec 32 := 8#32
  let v32 : BitVec 32 := Scalar.muli arg10 c8_i32
  let v33 : BitVec 32 := Scalar.addi v32 c0_i32_25
  let v961 : Index := Scalar.indexCast v33
  let c96_450 : Index := 96#32
  ![v961.toNat, 96]
def k1_off21 (i : grid1.Coords) (k1_t2 : Fin (k1_t2_loop i).trips) (c0_i32_25 : BitVec 32) : Fin 2 → Nat :=
  let c0_i32_1 : BitVec 32 := 0#32
  let c56_i32 : BitVec 32 := 56#32
  let arg0 : BitVec 32 := BitVec.ofNat 32 (i 0).val
  let c32_i32 : BitVec 32 := 32#32
  let v3 : BitVec 32 := Scalar.muli arg0 c32_i32
  let v4 : BitVec 32 := Scalar.subi c56_i32 v3
  let v6 : BitVec 32 := Scalar.subi v4 c0_i32_1
  let c1_i32 : BitVec 32 := 1#32
  let v8 : BitVec 32 := Scalar.divsi v6 c1_i32
  let v9 : BitVec 32 := Scalar.muli v8 c1_i32
  let v10 : BitVec 32 := Scalar.addi c0_i32_1 v9
  let c1_i32_3 : BitVec 32 := 1#32
  let arg10 : BitVec 32 := Scf.iv v10 c1_i32_3 k1_t2
  let c8_i32 : BitVec 32 := 8#32
  let v32 : BitVec 32 := Scalar.muli arg10 c8_i32
  let v33 : BitVec 32 := Scalar.addi v32 c0_i32_25
  let v1094 : Index := Scalar.indexCast v33
  let c112_515 : Index := 112#32
  ![v1094.toNat, 112]
def k1_cond1 (i : grid1.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def k1_off22 (i : grid1.Coords) : Fin 2 → Nat :=
  let arg1 : BitVec 32 := BitVec.ofNat 32 (i 1).val
  let c640_i32 : BitVec 32 := 640#32
  let v0 : BitVec 32 := Scalar.muli arg1 c640_i32
  let arg0 : BitVec 32 := BitVec.ofNat 32 (i 0).val
  let c448_i32 : BitVec 32 := 448#32
  let v1 : BitVec 32 := Scalar.muli arg0 c448_i32
  let v2 : BitVec 32 := Scalar.addi v0 v1
  let c0_i32_8_r1 : BitVec 32 := 0#32
  ![v2.toNat, 0]
def k1_cond2 (i : grid1.Coords) : BitVec 1 :=
  let arg0 : BitVec 32 := BitVec.ofNat 32 (i 0).val
  let c1_i32_6 : BitVec 32 := 1#32
  let v14 : BitVec 1 := Scalar.cmpi .eq arg0 c1_i32_6
  let v15 : BitVec 32 := Scalar.extui v14
  let c0_i32_7 : BitVec 32 := 0#32
  let v16 : BitVec 1 := Scalar.cmpi .ne v15 c0_i32_7
  v16

def k1_off23 (i : grid1.Coords) : Fin 2 → Nat :=
  let arg1 : BitVec 32 := BitVec.ofNat 32 (i 1).val
  let c640_i32 : BitVec 32 := 640#32
  let v0 : BitVec 32 := Scalar.muli arg1 c640_i32
  let arg0 : BitVec 32 := BitVec.ofNat 32 (i 0).val
  let c448_i32 : BitVec 32 := 448#32
  let v1 : BitVec 32 := Scalar.muli arg0 c448_i32
  let v2 : BitVec 32 := Scalar.addi v0 v1
  let c0_i32_10_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)

class K1.Facts₀ : Prop where
  hcore1 : grid1.bound 0 ≤ τ.nSC
  hsub1 : grid1.bound 1 ≤ τ.nSub
  k1_off1_inb : ∀ i : grid1.Coords, ∀ a, (k1_off1 i) a + S14336.size a ≤ S335872.size a
  k1_t1_ok : ∀ i : grid1.Coords, (k1_t1_loop i).OK
  k1_off2_inb : ∀ (i : grid1.Coords) (k1_t1 : Fin (k1_t1_loop i).trips), ∀ a, (k1_off2 i k1_t1) a + S128.size a ≤ S14336.size a
  k1_off3_inb : ∀ (i : grid1.Coords) (k1_t1 : Fin (k1_t1_loop i).trips), ∀ a, (k1_off3 i k1_t1) a + S128.size a ≤ S14336.size a
  k1_off4_inb : ∀ (i : grid1.Coords) (k1_t1 : Fin (k1_t1_loop i).trips), ∀ (r : Fin 8), ∀ a, (k1_off4 i k1_t1 (BitVec.ofNat 32 r.val)) a + S1x16.size a ≤ S448x128.size a
  k1_off5_inb : ∀ (i : grid1.Coords) (k1_t1 : Fin (k1_t1_loop i).trips), ∀ (r : Fin 8), ∀ a, (k1_off5 i k1_t1 (BitVec.ofNat 32 r.val)) a + S1x16.size a ≤ S448x128.size a
  k1_off6_inb : ∀ (i : grid1.Coords) (k1_t1 : Fin (k1_t1_loop i).trips), ∀ (r : Fin 8), ∀ a, (k1_off6 i k1_t1 (BitVec.ofNat 32 r.val)) a + S1x16.size a ≤ S448x128.size a
  k1_off7_inb : ∀ (i : grid1.Coords) (k1_t1 : Fin (k1_t1_loop i).trips), ∀ (r : Fin 8), ∀ a, (k1_off7 i k1_t1 (BitVec.ofNat 32 r.val)) a + S1x16.size a ≤ S448x128.size a
  k1_off8_inb : ∀ (i : grid1.Coords) (k1_t1 : Fin (k1_t1_loop i).trips), ∀ (r : Fin 8), ∀ a, (k1_off8 i k1_t1 (BitVec.ofNat 32 r.val)) a + S1x16.size a ≤ S448x128.size a
  k1_off9_inb : ∀ (i : grid1.Coords) (k1_t1 : Fin (k1_t1_loop i).trips), ∀ (r : Fin 8), ∀ a, (k1_off9 i k1_t1 (BitVec.ofNat 32 r.val)) a + S1x16.size a ≤ S448x128.size a
  k1_off10_inb : ∀ (i : grid1.Coords) (k1_t1 : Fin (k1_t1_loop i).trips), ∀ (r : Fin 8), ∀ a, (k1_off10 i k1_t1 (BitVec.ofNat 32 r.val)) a + S1x16.size a ≤ S448x128.size a
  k1_off11_inb : ∀ (i : grid1.Coords) (k1_t1 : Fin (k1_t1_loop i).trips), ∀ (r : Fin 8), ∀ a, (k1_off11 i k1_t1 (BitVec.ofNat 32 r.val)) a + S1x16.size a ≤ S448x128.size a
  k1_t2_ok : ∀ i : grid1.Coords, (k1_t2_loop i).OK
  k1_off12_inb : ∀ (i : grid1.Coords) (k1_t2 : Fin (k1_t2_loop i).trips), ∀ a, (k1_off12 i k1_t2) a + S128.size a ≤ S14336.size a
  k1_off13_inb : ∀ (i : grid1.Coords) (k1_t2 : Fin (k1_t2_loop i).trips), ∀ a, (k1_off13 i k1_t2) a + S128.size a ≤ S14336.size a
  k1_off14_inb : ∀ (i : grid1.Coords) (k1_t2 : Fin (k1_t2_loop i).trips), ∀ (r : Fin 8), ∀ a, (k1_off14 i k1_t2 (BitVec.ofNat 32 r.val)) a + S1x16.size a ≤ S448x128.size a
  k1_off15_inb : ∀ (i : grid1.Coords) (k1_t2 : Fin (k1_t2_loop i).trips), ∀ (r : Fin 8), ∀ a, (k1_off15 i k1_t2 (BitVec.ofNat 32 r.val)) a + S1x16.size a ≤ S448x128.size a
  k1_off16_inb : ∀ (i : grid1.Coords) (k1_t2 : Fin (k1_t2_loop i).trips), ∀ (r : Fin 8), ∀ a, (k1_off16 i k1_t2 (BitVec.ofNat 32 r.val)) a + S1x16.size a ≤ S448x128.size a
  k1_off17_inb : ∀ (i : grid1.Coords) (k1_t2 : Fin (k1_t2_loop i).trips), ∀ (r : Fin 8), ∀ a, (k1_off17 i k1_t2 (BitVec.ofNat 32 r.val)) a + S1x16.size a ≤ S448x128.size a
  k1_off18_inb : ∀ (i : grid1.Coords) (k1_t2 : Fin (k1_t2_loop i).trips), ∀ (r : Fin 8), ∀ a, (k1_off18 i k1_t2 (BitVec.ofNat 32 r.val)) a + S1x16.size a ≤ S448x128.size a
  k1_off19_inb : ∀ (i : grid1.Coords) (k1_t2 : Fin (k1_t2_loop i).trips), ∀ (r : Fin 8), ∀ a, (k1_off19 i k1_t2 (BitVec.ofNat 32 r.val)) a + S1x16.size a ≤ S448x128.size a
  k1_off20_inb : ∀ (i : grid1.Coords) (k1_t2 : Fin (k1_t2_loop i).trips), ∀ (r : Fin 8), ∀ a, (k1_off20 i k1_t2 (BitVec.ofNat 32 r.val)) a + S1x16.size a ≤ S448x128.size a
  k1_off21_inb : ∀ (i : grid1.Coords) (k1_t2 : Fin (k1_t2_loop i).trips), ∀ (r : Fin 8), ∀ a, (k1_off21 i k1_t2 (BitVec.ofNat 32 r.val)) a + S1x16.size a ≤ S448x128.size a
  k1_off22_inb : ∀ i : grid1.Coords, ∀ (k1_h1 : k1_cond1 i = 1#1), ∀ a, (k1_off22 i) a + S448x128.size a ≤ S10240x128.size a
  k1_off23_inb : ∀ i : grid1.Coords, ∀ (k1_h2 : k1_cond2 i = 1#1), ∀ a, (k1_off23 i) a + S192x128.size a ≤ S10240x128.size a

class Shapes1.Facts₀ : Prop where
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S10000x4x8_S10000x32 : S10000x4x8.ShapeCasts S10000x32
  pads_S10000x32_S10496x32_04960_000 : S10000x32.Pads (![0, 0] : Fin 2 → Nat) ![496, 0] ![0, 0] S10496x32
  h_S_ : 0 < S_.numel
  shapeCasts_S10496x32_S335872 : S10496x32.ShapeCasts S335872
  inb_S256x128_S128x128_0_0 : ∀ a, (![0, 0] : Fin 2 → Nat) a + S128x128.size a ≤ S256x128.size a
  inb_S100000x128_S100000x128_0_0 : ∀ a, (![0, 0] : Fin 2 → Nat) a + S100000x128.size a ≤ S100000x128.size a
  gathers_S100000x128_S128x128 : S100000x128.Gathers 0 S128x128
  inb_S256x128_S128x128_128_0 : ∀ a, (![128, 0] : Fin 2 → Nat) a + S128x128.size a ≤ S256x128.size a
  inb_S256x128_S1x16_0_0 : ∀ a, (![0, 0] : Fin 2 → Nat) a + S1x16.size a ≤ S256x128.size a
  h_S1x16 : 0 < S1x16.numel
  shapeCasts_S1x16_S16 : S1x16.ShapeCasts S16
  inb_S256x128_S1x16_1_0 : ∀ a, (![1, 0] : Fin 2 → Nat) a + S1x16.size a ≤ S256x128.size a
  inb_S256x128_S1x16_2_0 : ∀ a, (![2, 0] : Fin 2 → Nat) a + S1x16.size a ≤ S256x128.size a
  inb_S256x128_S1x16_3_0 : ∀ a, (![3, 0] : Fin 2 → Nat) a + S1x16.size a ≤ S256x128.size a
  inb_S256x128_S1x16_4_0 : ∀ a, (![4, 0] : Fin 2 → Nat) a + S1x16.size a ≤ S256x128.size a
  inb_S256x128_S1x16_5_0 : ∀ a, (![5, 0] : Fin 2 → Nat) a + S1x16.size a ≤ S256x128.size a
  inb_S256x128_S1x16_6_0 : ∀ a, (![6, 0] : Fin 2 → Nat) a + S1x16.size a ≤ S256x128.size a
  inb_S256x128_S1x16_7_0 : ∀ a, (![7, 0] : Fin 2 → Nat) a + S1x16.size a ≤ S256x128.size a
  inb_S256x128_S1x16_8_0 : ∀ a, (![8, 0] : Fin 2 → Nat) a + S1x16.size a ≤ S256x128.size a
  inb_S256x128_S1x16_9_0 : ∀ a, (![9, 0] : Fin 2 → Nat) a + S1x16.size a ≤ S256x128.size a
  inb_S256x128_S1x16_10_0 : ∀ a, (![10, 0] : Fin 2 → Nat) a + S1x16.size a ≤ S256x128.size a
  inb_S256x128_S1x16_11_0 : ∀ a, (![11, 0] : Fin 2 → Nat) a + S1x16.size a ≤ S256x128.size a
  inb_S256x128_S1x16_12_0 : ∀ a, (![12, 0] : Fin 2 → Nat) a + S1x16.size a ≤ S256x128.size a
  inb_S256x128_S1x16_13_0 : ∀ a, (![13, 0] : Fin 2 → Nat) a + S1x16.size a ≤ S256x128.size a
  inb_S256x128_S1x16_14_0 : ∀ a, (![14, 0] : Fin 2 → Nat) a + S1x16.size a ≤ S256x128.size a
  inb_S256x128_S1x16_15_0 : ∀ a, (![15, 0] : Fin 2 → Nat) a + S1x16.size a ≤ S256x128.size a
  inb_S256x128_S1x16_16_0 : ∀ a, (![16, 0] : Fin 2 → Nat) a + S1x16.size a ≤ S256x128.size a
  inb_S256x128_S1x16_17_0 : ∀ a, (![17, 0] : Fin 2 → Nat) a + S1x16.size a ≤ S256x128.size a
  inb_S256x128_S1x16_18_0 : ∀ a, (![18, 0] : Fin 2 → Nat) a + S1x16.size a ≤ S256x128.size a
  inb_S256x128_S1x16_19_0 : ∀ a, (![19, 0] : Fin 2 → Nat) a + S1x16.size a ≤ S256x128.size a
  inb_S256x128_S1x16_20_0 : ∀ a, (![20, 0] : Fin 2 → Nat) a + S1x16.size a ≤ S256x128.size a
  inb_S256x128_S1x16_21_0 : ∀ a, (![21, 0] : Fin 2 → Nat) a + S1x16.size a ≤ S256x128.size a
  inb_S256x128_S1x16_22_0 : ∀ a, (![22, 0] : Fin 2 → Nat) a + S1x16.size a ≤ S256x128.size a
  inb_S256x128_S1x16_23_0 : ∀ a, (![23, 0] : Fin 2 → Nat) a + S1x16.size a ≤ S256x128.size a
  inb_S256x128_S1x16_24_0 : ∀ a, (![24, 0] : Fin 2 → Nat) a + S1x16.size a ≤ S256x128.size a
  inb_S256x128_S1x16_25_0 : ∀ a, (![25, 0] : Fin 2 → Nat) a + S1x16.size a ≤ S256x128.size a
  inb_S256x128_S1x16_26_0 : ∀ a, (![26, 0] : Fin 2 → Nat) a + S1x16.size a ≤ S256x128.size a
  inb_S256x128_S1x16_27_0 : ∀ a, (![27, 0] : Fin 2 → Nat) a + S1x16.size a ≤ S256x128.size a
  inb_S256x128_S1x16_28_0 : ∀ a, (![28, 0] : Fin 2 → Nat) a + S1x16.size a ≤ S256x128.size a
  inb_S256x128_S1x16_29_0 : ∀ a, (![29, 0] : Fin 2 → Nat) a + S1x16.size a ≤ S256x128.size a
  inb_S256x128_S1x16_30_0 : ∀ a, (![30, 0] : Fin 2 → Nat) a + S1x16.size a ≤ S256x128.size a
  inb_S256x128_S1x16_31_0 : ∀ a, (![31, 0] : Fin 2 → Nat) a + S1x16.size a ≤ S256x128.size a
  shapeCasts_S16_S1x16 : S16.ShapeCasts S1x16
  inb_S256x128_S1x16_0_16 : ∀ a, (![0, 16] : Fin 2 → Nat) a + S1x16.size a ≤ S256x128.size a
  inb_S256x128_S1x16_1_16 : ∀ a, (![1, 16] : Fin 2 → Nat) a + S1x16.size a ≤ S256x128.size a
  inb_S256x128_S1x16_2_16 : ∀ a, (![2, 16] : Fin 2 → Nat) a + S1x16.size a ≤ S256x128.size a
  inb_S256x128_S1x16_3_16 : ∀ a, (![3, 16] : Fin 2 → Nat) a + S1x16.size a ≤ S256x128.size a
  inb_S256x128_S1x16_4_16 : ∀ a, (![4, 16] : Fin 2 → Nat) a + S1x16.size a ≤ S256x128.size a
  inb_S256x128_S1x16_5_16 : ∀ a, (![5, 16] : Fin 2 → Nat) a + S1x16.size a ≤ S256x128.size a
  inb_S256x128_S1x16_6_16 : ∀ a, (![6, 16] : Fin 2 → Nat) a + S1x16.size a ≤ S256x128.size a
  inb_S256x128_S1x16_7_16 : ∀ a, (![7, 16] : Fin 2 → Nat) a + S1x16.size a ≤ S256x128.size a
  inb_S256x128_S1x16_8_16 : ∀ a, (![8, 16] : Fin 2 → Nat) a + S1x16.size a ≤ S256x128.size a
  inb_S256x128_S1x16_9_16 : ∀ a, (![9, 16] : Fin 2 → Nat) a + S1x16.size a ≤ S256x128.size a
  inb_S256x128_S1x16_10_16 : ∀ a, (![10, 16] : Fin 2 → Nat) a + S1x16.size a ≤ S256x128.size a
  inb_S256x128_S1x16_11_16 : ∀ a, (![11, 16] : Fin 2 → Nat) a + S1x16.size a ≤ S256x128.size a
  inb_S256x128_S1x16_12_16 : ∀ a, (![12, 16] : Fin 2 → Nat) a + S1x16.size a ≤ S256x128.size a
  inb_S256x128_S1x16_13_16 : ∀ a, (![13, 16] : Fin 2 → Nat) a + S1x16.size a ≤ S256x128.size a
  inb_S256x128_S1x16_14_16 : ∀ a, (![14, 16] : Fin 2 → Nat) a + S1x16.size a ≤ S256x128.size a
  inb_S256x128_S1x16_15_16 : ∀ a, (![15, 16] : Fin 2 → Nat) a + S1x16.size a ≤ S256x128.size a
  inb_S256x128_S1x16_16_16 : ∀ a, (![16, 16] : Fin 2 → Nat) a + S1x16.size a ≤ S256x128.size a
  inb_S256x128_S1x16_17_16 : ∀ a, (![17, 16] : Fin 2 → Nat) a + S1x16.size a ≤ S256x128.size a
  inb_S256x128_S1x16_18_16 : ∀ a, (![18, 16] : Fin 2 → Nat) a + S1x16.size a ≤ S256x128.size a
  inb_S256x128_S1x16_19_16 : ∀ a, (![19, 16] : Fin 2 → Nat) a + S1x16.size a ≤ S256x128.size a
  inb_S256x128_S1x16_20_16 : ∀ a, (![20, 16] : Fin 2 → Nat) a + S1x16.size a ≤ S256x128.size a
  inb_S256x128_S1x16_21_16 : ∀ a, (![21, 16] : Fin 2 → Nat) a + S1x16.size a ≤ S256x128.size a
  inb_S256x128_S1x16_22_16 : ∀ a, (![22, 16] : Fin 2 → Nat) a + S1x16.size a ≤ S256x128.size a
  inb_S256x128_S1x16_23_16 : ∀ a, (![23, 16] : Fin 2 → Nat) a + S1x16.size a ≤ S256x128.size a
  inb_S256x128_S1x16_24_16 : ∀ a, (![24, 16] : Fin 2 → Nat) a + S1x16.size a ≤ S256x128.size a
  inb_S256x128_S1x16_25_16 : ∀ a, (![25, 16] : Fin 2 → Nat) a + S1x16.size a ≤ S256x128.size a
  inb_S256x128_S1x16_26_16 : ∀ a, (![26, 16] : Fin 2 → Nat) a + S1x16.size a ≤ S256x128.size a
  inb_S256x128_S1x16_27_16 : ∀ a, (![27, 16] : Fin 2 → Nat) a + S1x16.size a ≤ S256x128.size a
  inb_S256x128_S1x16_28_16 : ∀ a, (![28, 16] : Fin 2 → Nat) a + S1x16.size a ≤ S256x128.size a
  inb_S256x128_S1x16_29_16 : ∀ a, (![29, 16] : Fin 2 → Nat) a + S1x16.size a ≤ S256x128.size a
  inb_S256x128_S1x16_30_16 : ∀ a, (![30, 16] : Fin 2 → Nat) a + S1x16.size a ≤ S256x128.size a
  inb_S256x128_S1x16_31_16 : ∀ a, (![31, 16] : Fin 2 → Nat) a + S1x16.size a ≤ S256x128.size a
  inb_S256x128_S1x16_0_32 : ∀ a, (![0, 32] : Fin 2 → Nat) a + S1x16.size a ≤ S256x128.size a
  inb_S256x128_S1x16_1_32 : ∀ a, (![1, 32] : Fin 2 → Nat) a + S1x16.size a ≤ S256x128.size a
  inb_S256x128_S1x16_2_32 : ∀ a, (![2, 32] : Fin 2 → Nat) a + S1x16.size a ≤ S256x128.size a
  inb_S256x128_S1x16_3_32 : ∀ a, (![3, 32] : Fin 2 → Nat) a + S1x16.size a ≤ S256x128.size a
  inb_S256x128_S1x16_4_32 : ∀ a, (![4, 32] : Fin 2 → Nat) a + S1x16.size a ≤ S256x128.size a
  inb_S256x128_S1x16_5_32 : ∀ a, (![5, 32] : Fin 2 → Nat) a + S1x16.size a ≤ S256x128.size a
  inb_S256x128_S1x16_6_32 : ∀ a, (![6, 32] : Fin 2 → Nat) a + S1x16.size a ≤ S256x128.size a
  inb_S256x128_S1x16_7_32 : ∀ a, (![7, 32] : Fin 2 → Nat) a + S1x16.size a ≤ S256x128.size a
  inb_S256x128_S1x16_8_32 : ∀ a, (![8, 32] : Fin 2 → Nat) a + S1x16.size a ≤ S256x128.size a
  inb_S256x128_S1x16_9_32 : ∀ a, (![9, 32] : Fin 2 → Nat) a + S1x16.size a ≤ S256x128.size a
  inb_S256x128_S1x16_10_32 : ∀ a, (![10, 32] : Fin 2 → Nat) a + S1x16.size a ≤ S256x128.size a
  inb_S256x128_S1x16_11_32 : ∀ a, (![11, 32] : Fin 2 → Nat) a + S1x16.size a ≤ S256x128.size a
  inb_S256x128_S1x16_12_32 : ∀ a, (![12, 32] : Fin 2 → Nat) a + S1x16.size a ≤ S256x128.size a
  inb_S256x128_S1x16_13_32 : ∀ a, (![13, 32] : Fin 2 → Nat) a + S1x16.size a ≤ S256x128.size a
  inb_S256x128_S1x16_14_32 : ∀ a, (![14, 32] : Fin 2 → Nat) a + S1x16.size a ≤ S256x128.size a
  inb_S256x128_S1x16_15_32 : ∀ a, (![15, 32] : Fin 2 → Nat) a + S1x16.size a ≤ S256x128.size a
  inb_S256x128_S1x16_16_32 : ∀ a, (![16, 32] : Fin 2 → Nat) a + S1x16.size a ≤ S256x128.size a
  inb_S256x128_S1x16_17_32 : ∀ a, (![17, 32] : Fin 2 → Nat) a + S1x16.size a ≤ S256x128.size a
  inb_S256x128_S1x16_18_32 : ∀ a, (![18, 32] : Fin 2 → Nat) a + S1x16.size a ≤ S256x128.size a
  inb_S256x128_S1x16_19_32 : ∀ a, (![19, 32] : Fin 2 → Nat) a + S1x16.size a ≤ S256x128.size a
  inb_S256x128_S1x16_20_32 : ∀ a, (![20, 32] : Fin 2 → Nat) a + S1x16.size a ≤ S256x128.size a
  inb_S256x128_S1x16_21_32 : ∀ a, (![21, 32] : Fin 2 → Nat) a + S1x16.size a ≤ S256x128.size a
  inb_S256x128_S1x16_22_32 : ∀ a, (![22, 32] : Fin 2 → Nat) a + S1x16.size a ≤ S256x128.size a
  inb_S256x128_S1x16_23_32 : ∀ a, (![23, 32] : Fin 2 → Nat) a + S1x16.size a ≤ S256x128.size a
  inb_S256x128_S1x16_24_32 : ∀ a, (![24, 32] : Fin 2 → Nat) a + S1x16.size a ≤ S256x128.size a
  inb_S256x128_S1x16_25_32 : ∀ a, (![25, 32] : Fin 2 → Nat) a + S1x16.size a ≤ S256x128.size a
  inb_S256x128_S1x16_26_32 : ∀ a, (![26, 32] : Fin 2 → Nat) a + S1x16.size a ≤ S256x128.size a
  inb_S256x128_S1x16_27_32 : ∀ a, (![27, 32] : Fin 2 → Nat) a + S1x16.size a ≤ S256x128.size a
  inb_S256x128_S1x16_28_32 : ∀ a, (![28, 32] : Fin 2 → Nat) a + S1x16.size a ≤ S256x128.size a
  inb_S256x128_S1x16_29_32 : ∀ a, (![29, 32] : Fin 2 → Nat) a + S1x16.size a ≤ S256x128.size a
  inb_S256x128_S1x16_30_32 : ∀ a, (![30, 32] : Fin 2 → Nat) a + S1x16.size a ≤ S256x128.size a
  inb_S256x128_S1x16_31_32 : ∀ a, (![31, 32] : Fin 2 → Nat) a + S1x16.size a ≤ S256x128.size a
  inb_S256x128_S1x16_0_48 : ∀ a, (![0, 48] : Fin 2 → Nat) a + S1x16.size a ≤ S256x128.size a
  inb_S256x128_S1x16_1_48 : ∀ a, (![1, 48] : Fin 2 → Nat) a + S1x16.size a ≤ S256x128.size a
  inb_S256x128_S1x16_2_48 : ∀ a, (![2, 48] : Fin 2 → Nat) a + S1x16.size a ≤ S256x128.size a
  inb_S256x128_S1x16_3_48 : ∀ a, (![3, 48] : Fin 2 → Nat) a + S1x16.size a ≤ S256x128.size a
  inb_S256x128_S1x16_4_48 : ∀ a, (![4, 48] : Fin 2 → Nat) a + S1x16.size a ≤ S256x128.size a
  inb_S256x128_S1x16_5_48 : ∀ a, (![5, 48] : Fin 2 → Nat) a + S1x16.size a ≤ S256x128.size a
  inb_S256x128_S1x16_6_48 : ∀ a, (![6, 48] : Fin 2 → Nat) a + S1x16.size a ≤ S256x128.size a
  inb_S256x128_S1x16_7_48 : ∀ a, (![7, 48] : Fin 2 → Nat) a + S1x16.size a ≤ S256x128.size a
  inb_S256x128_S1x16_8_48 : ∀ a, (![8, 48] : Fin 2 → Nat) a + S1x16.size a ≤ S256x128.size a
  inb_S256x128_S1x16_9_48 : ∀ a, (![9, 48] : Fin 2 → Nat) a + S1x16.size a ≤ S256x128.size a
  inb_S256x128_S1x16_10_48 : ∀ a, (![10, 48] : Fin 2 → Nat) a + S1x16.size a ≤ S256x128.size a
  inb_S256x128_S1x16_11_48 : ∀ a, (![11, 48] : Fin 2 → Nat) a + S1x16.size a ≤ S256x128.size a
  inb_S256x128_S1x16_12_48 : ∀ a, (![12, 48] : Fin 2 → Nat) a + S1x16.size a ≤ S256x128.size a
  inb_S256x128_S1x16_13_48 : ∀ a, (![13, 48] : Fin 2 → Nat) a + S1x16.size a ≤ S256x128.size a
  inb_S256x128_S1x16_14_48 : ∀ a, (![14, 48] : Fin 2 → Nat) a + S1x16.size a ≤ S256x128.size a
  inb_S256x128_S1x16_15_48 : ∀ a, (![15, 48] : Fin 2 → Nat) a + S1x16.size a ≤ S256x128.size a
  inb_S256x128_S1x16_16_48 : ∀ a, (![16, 48] : Fin 2 → Nat) a + S1x16.size a ≤ S256x128.size a
  inb_S256x128_S1x16_17_48 : ∀ a, (![17, 48] : Fin 2 → Nat) a + S1x16.size a ≤ S256x128.size a
  inb_S256x128_S1x16_18_48 : ∀ a, (![18, 48] : Fin 2 → Nat) a + S1x16.size a ≤ S256x128.size a
  inb_S256x128_S1x16_19_48 : ∀ a, (![19, 48] : Fin 2 → Nat) a + S1x16.size a ≤ S256x128.size a
  inb_S256x128_S1x16_20_48 : ∀ a, (![20, 48] : Fin 2 → Nat) a + S1x16.size a ≤ S256x128.size a
  inb_S256x128_S1x16_21_48 : ∀ a, (![21, 48] : Fin 2 → Nat) a + S1x16.size a ≤ S256x128.size a
  inb_S256x128_S1x16_22_48 : ∀ a, (![22, 48] : Fin 2 → Nat) a + S1x16.size a ≤ S256x128.size a
  inb_S256x128_S1x16_23_48 : ∀ a, (![23, 48] : Fin 2 → Nat) a + S1x16.size a ≤ S256x128.size a
  inb_S256x128_S1x16_24_48 : ∀ a, (![24, 48] : Fin 2 → Nat) a + S1x16.size a ≤ S256x128.size a
  inb_S256x128_S1x16_25_48 : ∀ a, (![25, 48] : Fin 2 → Nat) a + S1x16.size a ≤ S256x128.size a
  inb_S256x128_S1x16_26_48 : ∀ a, (![26, 48] : Fin 2 → Nat) a + S1x16.size a ≤ S256x128.size a
  inb_S256x128_S1x16_27_48 : ∀ a, (![27, 48] : Fin 2 → Nat) a + S1x16.size a ≤ S256x128.size a
  inb_S256x128_S1x16_28_48 : ∀ a, (![28, 48] : Fin 2 → Nat) a + S1x16.size a ≤ S256x128.size a
  inb_S256x128_S1x16_29_48 : ∀ a, (![29, 48] : Fin 2 → Nat) a + S1x16.size a ≤ S256x128.size a
  inb_S256x128_S1x16_30_48 : ∀ a, (![30, 48] : Fin 2 → Nat) a + S1x16.size a ≤ S256x128.size a
  inb_S256x128_S1x16_31_48 : ∀ a, (![31, 48] : Fin 2 → Nat) a + S1x16.size a ≤ S256x128.size a
  inb_S256x128_S1x16_0_64 : ∀ a, (![0, 64] : Fin 2 → Nat) a + S1x16.size a ≤ S256x128.size a
  inb_S256x128_S1x16_1_64 : ∀ a, (![1, 64] : Fin 2 → Nat) a + S1x16.size a ≤ S256x128.size a
  inb_S256x128_S1x16_2_64 : ∀ a, (![2, 64] : Fin 2 → Nat) a + S1x16.size a ≤ S256x128.size a
  inb_S256x128_S1x16_3_64 : ∀ a, (![3, 64] : Fin 2 → Nat) a + S1x16.size a ≤ S256x128.size a
  inb_S256x128_S1x16_4_64 : ∀ a, (![4, 64] : Fin 2 → Nat) a + S1x16.size a ≤ S256x128.size a
  inb_S256x128_S1x16_5_64 : ∀ a, (![5, 64] : Fin 2 → Nat) a + S1x16.size a ≤ S256x128.size a
  inb_S256x128_S1x16_6_64 : ∀ a, (![6, 64] : Fin 2 → Nat) a + S1x16.size a ≤ S256x128.size a
  inb_S256x128_S1x16_7_64 : ∀ a, (![7, 64] : Fin 2 → Nat) a + S1x16.size a ≤ S256x128.size a
  inb_S256x128_S1x16_8_64 : ∀ a, (![8, 64] : Fin 2 → Nat) a + S1x16.size a ≤ S256x128.size a
  inb_S256x128_S1x16_9_64 : ∀ a, (![9, 64] : Fin 2 → Nat) a + S1x16.size a ≤ S256x128.size a
  inb_S256x128_S1x16_10_64 : ∀ a, (![10, 64] : Fin 2 → Nat) a + S1x16.size a ≤ S256x128.size a
  inb_S256x128_S1x16_11_64 : ∀ a, (![11, 64] : Fin 2 → Nat) a + S1x16.size a ≤ S256x128.size a
  inb_S256x128_S1x16_12_64 : ∀ a, (![12, 64] : Fin 2 → Nat) a + S1x16.size a ≤ S256x128.size a
  inb_S256x128_S1x16_13_64 : ∀ a, (![13, 64] : Fin 2 → Nat) a + S1x16.size a ≤ S256x128.size a
  inb_S256x128_S1x16_14_64 : ∀ a, (![14, 64] : Fin 2 → Nat) a + S1x16.size a ≤ S256x128.size a
  inb_S256x128_S1x16_15_64 : ∀ a, (![15, 64] : Fin 2 → Nat) a + S1x16.size a ≤ S256x128.size a
  inb_S256x128_S1x16_16_64 : ∀ a, (![16, 64] : Fin 2 → Nat) a + S1x16.size a ≤ S256x128.size a
  inb_S256x128_S1x16_17_64 : ∀ a, (![17, 64] : Fin 2 → Nat) a + S1x16.size a ≤ S256x128.size a
  inb_S256x128_S1x16_18_64 : ∀ a, (![18, 64] : Fin 2 → Nat) a + S1x16.size a ≤ S256x128.size a
  inb_S256x128_S1x16_19_64 : ∀ a, (![19, 64] : Fin 2 → Nat) a + S1x16.size a ≤ S256x128.size a
  inb_S256x128_S1x16_20_64 : ∀ a, (![20, 64] : Fin 2 → Nat) a + S1x16.size a ≤ S256x128.size a
  inb_S256x128_S1x16_21_64 : ∀ a, (![21, 64] : Fin 2 → Nat) a + S1x16.size a ≤ S256x128.size a
  inb_S256x128_S1x16_22_64 : ∀ a, (![22, 64] : Fin 2 → Nat) a + S1x16.size a ≤ S256x128.size a
  inb_S256x128_S1x16_23_64 : ∀ a, (![23, 64] : Fin 2 → Nat) a + S1x16.size a ≤ S256x128.size a
  inb_S256x128_S1x16_24_64 : ∀ a, (![24, 64] : Fin 2 → Nat) a + S1x16.size a ≤ S256x128.size a
  inb_S256x128_S1x16_25_64 : ∀ a, (![25, 64] : Fin 2 → Nat) a + S1x16.size a ≤ S256x128.size a
  inb_S256x128_S1x16_26_64 : ∀ a, (![26, 64] : Fin 2 → Nat) a + S1x16.size a ≤ S256x128.size a
  inb_S256x128_S1x16_27_64 : ∀ a, (![27, 64] : Fin 2 → Nat) a + S1x16.size a ≤ S256x128.size a
  inb_S256x128_S1x16_28_64 : ∀ a, (![28, 64] : Fin 2 → Nat) a + S1x16.size a ≤ S256x128.size a
  inb_S256x128_S1x16_29_64 : ∀ a, (![29, 64] : Fin 2 → Nat) a + S1x16.size a ≤ S256x128.size a
  inb_S256x128_S1x16_30_64 : ∀ a, (![30, 64] : Fin 2 → Nat) a + S1x16.size a ≤ S256x128.size a
  inb_S256x128_S1x16_31_64 : ∀ a, (![31, 64] : Fin 2 → Nat) a + S1x16.size a ≤ S256x128.size a
  inb_S256x128_S1x16_0_80 : ∀ a, (![0, 80] : Fin 2 → Nat) a + S1x16.size a ≤ S256x128.size a
  inb_S256x128_S1x16_1_80 : ∀ a, (![1, 80] : Fin 2 → Nat) a + S1x16.size a ≤ S256x128.size a
  inb_S256x128_S1x16_2_80 : ∀ a, (![2, 80] : Fin 2 → Nat) a + S1x16.size a ≤ S256x128.size a
  inb_S256x128_S1x16_3_80 : ∀ a, (![3, 80] : Fin 2 → Nat) a + S1x16.size a ≤ S256x128.size a
  inb_S256x128_S1x16_4_80 : ∀ a, (![4, 80] : Fin 2 → Nat) a + S1x16.size a ≤ S256x128.size a
  inb_S256x128_S1x16_5_80 : ∀ a, (![5, 80] : Fin 2 → Nat) a + S1x16.size a ≤ S256x128.size a
  inb_S256x128_S1x16_6_80 : ∀ a, (![6, 80] : Fin 2 → Nat) a + S1x16.size a ≤ S256x128.size a
  inb_S256x128_S1x16_7_80 : ∀ a, (![7, 80] : Fin 2 → Nat) a + S1x16.size a ≤ S256x128.size a
  inb_S256x128_S1x16_8_80 : ∀ a, (![8, 80] : Fin 2 → Nat) a + S1x16.size a ≤ S256x128.size a
  inb_S256x128_S1x16_9_80 : ∀ a, (![9, 80] : Fin 2 → Nat) a + S1x16.size a ≤ S256x128.size a
  inb_S256x128_S1x16_10_80 : ∀ a, (![10, 80] : Fin 2 → Nat) a + S1x16.size a ≤ S256x128.size a
  inb_S256x128_S1x16_11_80 : ∀ a, (![11, 80] : Fin 2 → Nat) a + S1x16.size a ≤ S256x128.size a
  inb_S256x128_S1x16_12_80 : ∀ a, (![12, 80] : Fin 2 → Nat) a + S1x16.size a ≤ S256x128.size a
  inb_S256x128_S1x16_13_80 : ∀ a, (![13, 80] : Fin 2 → Nat) a + S1x16.size a ≤ S256x128.size a
  inb_S256x128_S1x16_14_80 : ∀ a, (![14, 80] : Fin 2 → Nat) a + S1x16.size a ≤ S256x128.size a
  inb_S256x128_S1x16_15_80 : ∀ a, (![15, 80] : Fin 2 → Nat) a + S1x16.size a ≤ S256x128.size a
  inb_S256x128_S1x16_16_80 : ∀ a, (![16, 80] : Fin 2 → Nat) a + S1x16.size a ≤ S256x128.size a
  inb_S256x128_S1x16_17_80 : ∀ a, (![17, 80] : Fin 2 → Nat) a + S1x16.size a ≤ S256x128.size a
  inb_S256x128_S1x16_18_80 : ∀ a, (![18, 80] : Fin 2 → Nat) a + S1x16.size a ≤ S256x128.size a
  inb_S256x128_S1x16_19_80 : ∀ a, (![19, 80] : Fin 2 → Nat) a + S1x16.size a ≤ S256x128.size a
  inb_S256x128_S1x16_20_80 : ∀ a, (![20, 80] : Fin 2 → Nat) a + S1x16.size a ≤ S256x128.size a
  inb_S256x128_S1x16_21_80 : ∀ a, (![21, 80] : Fin 2 → Nat) a + S1x16.size a ≤ S256x128.size a
  inb_S256x128_S1x16_22_80 : ∀ a, (![22, 80] : Fin 2 → Nat) a + S1x16.size a ≤ S256x128.size a
  inb_S256x128_S1x16_23_80 : ∀ a, (![23, 80] : Fin 2 → Nat) a + S1x16.size a ≤ S256x128.size a
  inb_S256x128_S1x16_24_80 : ∀ a, (![24, 80] : Fin 2 → Nat) a + S1x16.size a ≤ S256x128.size a
  inb_S256x128_S1x16_25_80 : ∀ a, (![25, 80] : Fin 2 → Nat) a + S1x16.size a ≤ S256x128.size a
  inb_S256x128_S1x16_26_80 : ∀ a, (![26, 80] : Fin 2 → Nat) a + S1x16.size a ≤ S256x128.size a
  inb_S256x128_S1x16_27_80 : ∀ a, (![27, 80] : Fin 2 → Nat) a + S1x16.size a ≤ S256x128.size a
  inb_S256x128_S1x16_28_80 : ∀ a, (![28, 80] : Fin 2 → Nat) a + S1x16.size a ≤ S256x128.size a
  inb_S256x128_S1x16_29_80 : ∀ a, (![29, 80] : Fin 2 → Nat) a + S1x16.size a ≤ S256x128.size a
  inb_S256x128_S1x16_30_80 : ∀ a, (![30, 80] : Fin 2 → Nat) a + S1x16.size a ≤ S256x128.size a
  inb_S256x128_S1x16_31_80 : ∀ a, (![31, 80] : Fin 2 → Nat) a + S1x16.size a ≤ S256x128.size a
  inb_S256x128_S1x16_0_96 : ∀ a, (![0, 96] : Fin 2 → Nat) a + S1x16.size a ≤ S256x128.size a
  inb_S256x128_S1x16_1_96 : ∀ a, (![1, 96] : Fin 2 → Nat) a + S1x16.size a ≤ S256x128.size a
  inb_S256x128_S1x16_2_96 : ∀ a, (![2, 96] : Fin 2 → Nat) a + S1x16.size a ≤ S256x128.size a
  inb_S256x128_S1x16_3_96 : ∀ a, (![3, 96] : Fin 2 → Nat) a + S1x16.size a ≤ S256x128.size a
  inb_S256x128_S1x16_4_96 : ∀ a, (![4, 96] : Fin 2 → Nat) a + S1x16.size a ≤ S256x128.size a
  inb_S256x128_S1x16_5_96 : ∀ a, (![5, 96] : Fin 2 → Nat) a + S1x16.size a ≤ S256x128.size a
  inb_S256x128_S1x16_6_96 : ∀ a, (![6, 96] : Fin 2 → Nat) a + S1x16.size a ≤ S256x128.size a
  inb_S256x128_S1x16_7_96 : ∀ a, (![7, 96] : Fin 2 → Nat) a + S1x16.size a ≤ S256x128.size a
  inb_S256x128_S1x16_8_96 : ∀ a, (![8, 96] : Fin 2 → Nat) a + S1x16.size a ≤ S256x128.size a
  inb_S256x128_S1x16_9_96 : ∀ a, (![9, 96] : Fin 2 → Nat) a + S1x16.size a ≤ S256x128.size a
  inb_S256x128_S1x16_10_96 : ∀ a, (![10, 96] : Fin 2 → Nat) a + S1x16.size a ≤ S256x128.size a
  inb_S256x128_S1x16_11_96 : ∀ a, (![11, 96] : Fin 2 → Nat) a + S1x16.size a ≤ S256x128.size a
  inb_S256x128_S1x16_12_96 : ∀ a, (![12, 96] : Fin 2 → Nat) a + S1x16.size a ≤ S256x128.size a
  inb_S256x128_S1x16_13_96 : ∀ a, (![13, 96] : Fin 2 → Nat) a + S1x16.size a ≤ S256x128.size a
  inb_S256x128_S1x16_14_96 : ∀ a, (![14, 96] : Fin 2 → Nat) a + S1x16.size a ≤ S256x128.size a
  inb_S256x128_S1x16_15_96 : ∀ a, (![15, 96] : Fin 2 → Nat) a + S1x16.size a ≤ S256x128.size a
  inb_S256x128_S1x16_16_96 : ∀ a, (![16, 96] : Fin 2 → Nat) a + S1x16.size a ≤ S256x128.size a
  inb_S256x128_S1x16_17_96 : ∀ a, (![17, 96] : Fin 2 → Nat) a + S1x16.size a ≤ S256x128.size a
  inb_S256x128_S1x16_18_96 : ∀ a, (![18, 96] : Fin 2 → Nat) a + S1x16.size a ≤ S256x128.size a
  inb_S256x128_S1x16_19_96 : ∀ a, (![19, 96] : Fin 2 → Nat) a + S1x16.size a ≤ S256x128.size a
  inb_S256x128_S1x16_20_96 : ∀ a, (![20, 96] : Fin 2 → Nat) a + S1x16.size a ≤ S256x128.size a
  inb_S256x128_S1x16_21_96 : ∀ a, (![21, 96] : Fin 2 → Nat) a + S1x16.size a ≤ S256x128.size a
  inb_S256x128_S1x16_22_96 : ∀ a, (![22, 96] : Fin 2 → Nat) a + S1x16.size a ≤ S256x128.size a
  inb_S256x128_S1x16_23_96 : ∀ a, (![23, 96] : Fin 2 → Nat) a + S1x16.size a ≤ S256x128.size a
  inb_S256x128_S1x16_24_96 : ∀ a, (![24, 96] : Fin 2 → Nat) a + S1x16.size a ≤ S256x128.size a
  inb_S256x128_S1x16_25_96 : ∀ a, (![25, 96] : Fin 2 → Nat) a + S1x16.size a ≤ S256x128.size a
  inb_S256x128_S1x16_26_96 : ∀ a, (![26, 96] : Fin 2 → Nat) a + S1x16.size a ≤ S256x128.size a
  inb_S256x128_S1x16_27_96 : ∀ a, (![27, 96] : Fin 2 → Nat) a + S1x16.size a ≤ S256x128.size a
  inb_S256x128_S1x16_28_96 : ∀ a, (![28, 96] : Fin 2 → Nat) a + S1x16.size a ≤ S256x128.size a
  inb_S256x128_S1x16_29_96 : ∀ a, (![29, 96] : Fin 2 → Nat) a + S1x16.size a ≤ S256x128.size a
  inb_S256x128_S1x16_30_96 : ∀ a, (![30, 96] : Fin 2 → Nat) a + S1x16.size a ≤ S256x128.size a
  inb_S256x128_S1x16_31_96 : ∀ a, (![31, 96] : Fin 2 → Nat) a + S1x16.size a ≤ S256x128.size a
  inb_S256x128_S1x16_0_112 : ∀ a, (![0, 112] : Fin 2 → Nat) a + S1x16.size a ≤ S256x128.size a
  inb_S256x128_S1x16_1_112 : ∀ a, (![1, 112] : Fin 2 → Nat) a + S1x16.size a ≤ S256x128.size a
  inb_S256x128_S1x16_2_112 : ∀ a, (![2, 112] : Fin 2 → Nat) a + S1x16.size a ≤ S256x128.size a
  inb_S256x128_S1x16_3_112 : ∀ a, (![3, 112] : Fin 2 → Nat) a + S1x16.size a ≤ S256x128.size a
  inb_S256x128_S1x16_4_112 : ∀ a, (![4, 112] : Fin 2 → Nat) a + S1x16.size a ≤ S256x128.size a
  inb_S256x128_S1x16_5_112 : ∀ a, (![5, 112] : Fin 2 → Nat) a + S1x16.size a ≤ S256x128.size a
  inb_S256x128_S1x16_6_112 : ∀ a, (![6, 112] : Fin 2 → Nat) a + S1x16.size a ≤ S256x128.size a
  inb_S256x128_S1x16_7_112 : ∀ a, (![7, 112] : Fin 2 → Nat) a + S1x16.size a ≤ S256x128.size a
  inb_S256x128_S1x16_8_112 : ∀ a, (![8, 112] : Fin 2 → Nat) a + S1x16.size a ≤ S256x128.size a
  inb_S256x128_S1x16_9_112 : ∀ a, (![9, 112] : Fin 2 → Nat) a + S1x16.size a ≤ S256x128.size a
  inb_S256x128_S1x16_10_112 : ∀ a, (![10, 112] : Fin 2 → Nat) a + S1x16.size a ≤ S256x128.size a
  inb_S256x128_S1x16_11_112 : ∀ a, (![11, 112] : Fin 2 → Nat) a + S1x16.size a ≤ S256x128.size a
  inb_S256x128_S1x16_12_112 : ∀ a, (![12, 112] : Fin 2 → Nat) a + S1x16.size a ≤ S256x128.size a
  inb_S256x128_S1x16_13_112 : ∀ a, (![13, 112] : Fin 2 → Nat) a + S1x16.size a ≤ S256x128.size a
  inb_S256x128_S1x16_14_112 : ∀ a, (![14, 112] : Fin 2 → Nat) a + S1x16.size a ≤ S256x128.size a
  inb_S256x128_S1x16_15_112 : ∀ a, (![15, 112] : Fin 2 → Nat) a + S1x16.size a ≤ S256x128.size a
  inb_S256x128_S1x16_16_112 : ∀ a, (![16, 112] : Fin 2 → Nat) a + S1x16.size a ≤ S256x128.size a
  inb_S256x128_S1x16_17_112 : ∀ a, (![17, 112] : Fin 2 → Nat) a + S1x16.size a ≤ S256x128.size a
  inb_S256x128_S1x16_18_112 : ∀ a, (![18, 112] : Fin 2 → Nat) a + S1x16.size a ≤ S256x128.size a
  inb_S256x128_S1x16_19_112 : ∀ a, (![19, 112] : Fin 2 → Nat) a + S1x16.size a ≤ S256x128.size a
  inb_S256x128_S1x16_20_112 : ∀ a, (![20, 112] : Fin 2 → Nat) a + S1x16.size a ≤ S256x128.size a
  inb_S256x128_S1x16_21_112 : ∀ a, (![21, 112] : Fin 2 → Nat) a + S1x16.size a ≤ S256x128.size a
  inb_S256x128_S1x16_22_112 : ∀ a, (![22, 112] : Fin 2 → Nat) a + S1x16.size a ≤ S256x128.size a
  inb_S256x128_S1x16_23_112 : ∀ a, (![23, 112] : Fin 2 → Nat) a + S1x16.size a ≤ S256x128.size a
  inb_S256x128_S1x16_24_112 : ∀ a, (![24, 112] : Fin 2 → Nat) a + S1x16.size a ≤ S256x128.size a
  inb_S256x128_S1x16_25_112 : ∀ a, (![25, 112] : Fin 2 → Nat) a + S1x16.size a ≤ S256x128.size a
  inb_S256x128_S1x16_26_112 : ∀ a, (![26, 112] : Fin 2 → Nat) a + S1x16.size a ≤ S256x128.size a
  inb_S256x128_S1x16_27_112 : ∀ a, (![27, 112] : Fin 2 → Nat) a + S1x16.size a ≤ S256x128.size a
  inb_S256x128_S1x16_28_112 : ∀ a, (![28, 112] : Fin 2 → Nat) a + S1x16.size a ≤ S256x128.size a
  inb_S256x128_S1x16_29_112 : ∀ a, (![29, 112] : Fin 2 → Nat) a + S1x16.size a ≤ S256x128.size a
  inb_S256x128_S1x16_30_112 : ∀ a, (![30, 112] : Fin 2 → Nat) a + S1x16.size a ≤ S256x128.size a
  inb_S256x128_S1x16_31_112 : ∀ a, (![31, 112] : Fin 2 → Nat) a + S1x16.size a ≤ S256x128.size a
  inb_S256x128_S1x16_32_0 : ∀ a, (![32, 0] : Fin 2 → Nat) a + S1x16.size a ≤ S256x128.size a
  inb_S256x128_S1x16_33_0 : ∀ a, (![33, 0] : Fin 2 → Nat) a + S1x16.size a ≤ S256x128.size a
  inb_S256x128_S1x16_34_0 : ∀ a, (![34, 0] : Fin 2 → Nat) a + S1x16.size a ≤ S256x128.size a
  inb_S256x128_S1x16_35_0 : ∀ a, (![35, 0] : Fin 2 → Nat) a + S1x16.size a ≤ S256x128.size a
  inb_S256x128_S1x16_36_0 : ∀ a, (![36, 0] : Fin 2 → Nat) a + S1x16.size a ≤ S256x128.size a
  inb_S256x128_S1x16_37_0 : ∀ a, (![37, 0] : Fin 2 → Nat) a + S1x16.size a ≤ S256x128.size a
  inb_S256x128_S1x16_38_0 : ∀ a, (![38, 0] : Fin 2 → Nat) a + S1x16.size a ≤ S256x128.size a
  inb_S256x128_S1x16_39_0 : ∀ a, (![39, 0] : Fin 2 → Nat) a + S1x16.size a ≤ S256x128.size a
  inb_S256x128_S1x16_40_0 : ∀ a, (![40, 0] : Fin 2 → Nat) a + S1x16.size a ≤ S256x128.size a
  inb_S256x128_S1x16_41_0 : ∀ a, (![41, 0] : Fin 2 → Nat) a + S1x16.size a ≤ S256x128.size a
  inb_S256x128_S1x16_42_0 : ∀ a, (![42, 0] : Fin 2 → Nat) a + S1x16.size a ≤ S256x128.size a
  inb_S256x128_S1x16_43_0 : ∀ a, (![43, 0] : Fin 2 → Nat) a + S1x16.size a ≤ S256x128.size a
  inb_S256x128_S1x16_44_0 : ∀ a, (![44, 0] : Fin 2 → Nat) a + S1x16.size a ≤ S256x128.size a
  inb_S256x128_S1x16_45_0 : ∀ a, (![45, 0] : Fin 2 → Nat) a + S1x16.size a ≤ S256x128.size a
  inb_S256x128_S1x16_46_0 : ∀ a, (![46, 0] : Fin 2 → Nat) a + S1x16.size a ≤ S256x128.size a
  inb_S256x128_S1x16_47_0 : ∀ a, (![47, 0] : Fin 2 → Nat) a + S1x16.size a ≤ S256x128.size a
  inb_S256x128_S1x16_48_0 : ∀ a, (![48, 0] : Fin 2 → Nat) a + S1x16.size a ≤ S256x128.size a
  inb_S256x128_S1x16_49_0 : ∀ a, (![49, 0] : Fin 2 → Nat) a + S1x16.size a ≤ S256x128.size a
  inb_S256x128_S1x16_50_0 : ∀ a, (![50, 0] : Fin 2 → Nat) a + S1x16.size a ≤ S256x128.size a
  inb_S256x128_S1x16_51_0 : ∀ a, (![51, 0] : Fin 2 → Nat) a + S1x16.size a ≤ S256x128.size a
  inb_S256x128_S1x16_52_0 : ∀ a, (![52, 0] : Fin 2 → Nat) a + S1x16.size a ≤ S256x128.size a
  inb_S256x128_S1x16_53_0 : ∀ a, (![53, 0] : Fin 2 → Nat) a + S1x16.size a ≤ S256x128.size a
  inb_S256x128_S1x16_54_0 : ∀ a, (![54, 0] : Fin 2 → Nat) a + S1x16.size a ≤ S256x128.size a
  inb_S256x128_S1x16_55_0 : ∀ a, (![55, 0] : Fin 2 → Nat) a + S1x16.size a ≤ S256x128.size a
  inb_S256x128_S1x16_56_0 : ∀ a, (![56, 0] : Fin 2 → Nat) a + S1x16.size a ≤ S256x128.size a
  inb_S256x128_S1x16_57_0 : ∀ a, (![57, 0] : Fin 2 → Nat) a + S1x16.size a ≤ S256x128.size a
  inb_S256x128_S1x16_58_0 : ∀ a, (![58, 0] : Fin 2 → Nat) a + S1x16.size a ≤ S256x128.size a
  inb_S256x128_S1x16_59_0 : ∀ a, (![59, 0] : Fin 2 → Nat) a + S1x16.size a ≤ S256x128.size a
  inb_S256x128_S1x16_60_0 : ∀ a, (![60, 0] : Fin 2 → Nat) a + S1x16.size a ≤ S256x128.size a
  inb_S256x128_S1x16_61_0 : ∀ a, (![61, 0] : Fin 2 → Nat) a + S1x16.size a ≤ S256x128.size a
  inb_S256x128_S1x16_62_0 : ∀ a, (![62, 0] : Fin 2 → Nat) a + S1x16.size a ≤ S256x128.size a
  inb_S256x128_S1x16_63_0 : ∀ a, (![63, 0] : Fin 2 → Nat) a + S1x16.size a ≤ S256x128.size a
  inb_S256x128_S1x16_32_16 : ∀ a, (![32, 16] : Fin 2 → Nat) a + S1x16.size a ≤ S256x128.size a
  inb_S256x128_S1x16_33_16 : ∀ a, (![33, 16] : Fin 2 → Nat) a + S1x16.size a ≤ S256x128.size a
  inb_S256x128_S1x16_34_16 : ∀ a, (![34, 16] : Fin 2 → Nat) a + S1x16.size a ≤ S256x128.size a
  inb_S256x128_S1x16_35_16 : ∀ a, (![35, 16] : Fin 2 → Nat) a + S1x16.size a ≤ S256x128.size a
  inb_S256x128_S1x16_36_16 : ∀ a, (![36, 16] : Fin 2 → Nat) a + S1x16.size a ≤ S256x128.size a
  inb_S256x128_S1x16_37_16 : ∀ a, (![37, 16] : Fin 2 → Nat) a + S1x16.size a ≤ S256x128.size a
  inb_S256x128_S1x16_38_16 : ∀ a, (![38, 16] : Fin 2 → Nat) a + S1x16.size a ≤ S256x128.size a
  inb_S256x128_S1x16_39_16 : ∀ a, (![39, 16] : Fin 2 → Nat) a + S1x16.size a ≤ S256x128.size a
  inb_S256x128_S1x16_40_16 : ∀ a, (![40, 16] : Fin 2 → Nat) a + S1x16.size a ≤ S256x128.size a
  inb_S256x128_S1x16_41_16 : ∀ a, (![41, 16] : Fin 2 → Nat) a + S1x16.size a ≤ S256x128.size a
  inb_S256x128_S1x16_42_16 : ∀ a, (![42, 16] : Fin 2 → Nat) a + S1x16.size a ≤ S256x128.size a
  inb_S256x128_S1x16_43_16 : ∀ a, (![43, 16] : Fin 2 → Nat) a + S1x16.size a ≤ S256x128.size a
  inb_S256x128_S1x16_44_16 : ∀ a, (![44, 16] : Fin 2 → Nat) a + S1x16.size a ≤ S256x128.size a
  inb_S256x128_S1x16_45_16 : ∀ a, (![45, 16] : Fin 2 → Nat) a + S1x16.size a ≤ S256x128.size a
  inb_S256x128_S1x16_46_16 : ∀ a, (![46, 16] : Fin 2 → Nat) a + S1x16.size a ≤ S256x128.size a
  inb_S256x128_S1x16_47_16 : ∀ a, (![47, 16] : Fin 2 → Nat) a + S1x16.size a ≤ S256x128.size a
  inb_S256x128_S1x16_48_16 : ∀ a, (![48, 16] : Fin 2 → Nat) a + S1x16.size a ≤ S256x128.size a
  inb_S256x128_S1x16_49_16 : ∀ a, (![49, 16] : Fin 2 → Nat) a + S1x16.size a ≤ S256x128.size a
  inb_S256x128_S1x16_50_16 : ∀ a, (![50, 16] : Fin 2 → Nat) a + S1x16.size a ≤ S256x128.size a
  inb_S256x128_S1x16_51_16 : ∀ a, (![51, 16] : Fin 2 → Nat) a + S1x16.size a ≤ S256x128.size a
  inb_S256x128_S1x16_52_16 : ∀ a, (![52, 16] : Fin 2 → Nat) a + S1x16.size a ≤ S256x128.size a
  inb_S256x128_S1x16_53_16 : ∀ a, (![53, 16] : Fin 2 → Nat) a + S1x16.size a ≤ S256x128.size a
  inb_S256x128_S1x16_54_16 : ∀ a, (![54, 16] : Fin 2 → Nat) a + S1x16.size a ≤ S256x128.size a
  inb_S256x128_S1x16_55_16 : ∀ a, (![55, 16] : Fin 2 → Nat) a + S1x16.size a ≤ S256x128.size a
  inb_S256x128_S1x16_56_16 : ∀ a, (![56, 16] : Fin 2 → Nat) a + S1x16.size a ≤ S256x128.size a
  inb_S256x128_S1x16_57_16 : ∀ a, (![57, 16] : Fin 2 → Nat) a + S1x16.size a ≤ S256x128.size a
  inb_S256x128_S1x16_58_16 : ∀ a, (![58, 16] : Fin 2 → Nat) a + S1x16.size a ≤ S256x128.size a
  inb_S256x128_S1x16_59_16 : ∀ a, (![59, 16] : Fin 2 → Nat) a + S1x16.size a ≤ S256x128.size a
  inb_S256x128_S1x16_60_16 : ∀ a, (![60, 16] : Fin 2 → Nat) a + S1x16.size a ≤ S256x128.size a
  inb_S256x128_S1x16_61_16 : ∀ a, (![61, 16] : Fin 2 → Nat) a + S1x16.size a ≤ S256x128.size a
  inb_S256x128_S1x16_62_16 : ∀ a, (![62, 16] : Fin 2 → Nat) a + S1x16.size a ≤ S256x128.size a
  inb_S256x128_S1x16_63_16 : ∀ a, (![63, 16] : Fin 2 → Nat) a + S1x16.size a ≤ S256x128.size a
  inb_S256x128_S1x16_32_32 : ∀ a, (![32, 32] : Fin 2 → Nat) a + S1x16.size a ≤ S256x128.size a
  inb_S256x128_S1x16_33_32 : ∀ a, (![33, 32] : Fin 2 → Nat) a + S1x16.size a ≤ S256x128.size a
  inb_S256x128_S1x16_34_32 : ∀ a, (![34, 32] : Fin 2 → Nat) a + S1x16.size a ≤ S256x128.size a
  inb_S256x128_S1x16_35_32 : ∀ a, (![35, 32] : Fin 2 → Nat) a + S1x16.size a ≤ S256x128.size a
  inb_S256x128_S1x16_36_32 : ∀ a, (![36, 32] : Fin 2 → Nat) a + S1x16.size a ≤ S256x128.size a
  inb_S256x128_S1x16_37_32 : ∀ a, (![37, 32] : Fin 2 → Nat) a + S1x16.size a ≤ S256x128.size a
  inb_S256x128_S1x16_38_32 : ∀ a, (![38, 32] : Fin 2 → Nat) a + S1x16.size a ≤ S256x128.size a
  inb_S256x128_S1x16_39_32 : ∀ a, (![39, 32] : Fin 2 → Nat) a + S1x16.size a ≤ S256x128.size a
  inb_S256x128_S1x16_40_32 : ∀ a, (![40, 32] : Fin 2 → Nat) a + S1x16.size a ≤ S256x128.size a
  inb_S256x128_S1x16_41_32 : ∀ a, (![41, 32] : Fin 2 → Nat) a + S1x16.size a ≤ S256x128.size a
  inb_S256x128_S1x16_42_32 : ∀ a, (![42, 32] : Fin 2 → Nat) a + S1x16.size a ≤ S256x128.size a
  inb_S256x128_S1x16_43_32 : ∀ a, (![43, 32] : Fin 2 → Nat) a + S1x16.size a ≤ S256x128.size a
  inb_S256x128_S1x16_44_32 : ∀ a, (![44, 32] : Fin 2 → Nat) a + S1x16.size a ≤ S256x128.size a
  inb_S256x128_S1x16_45_32 : ∀ a, (![45, 32] : Fin 2 → Nat) a + S1x16.size a ≤ S256x128.size a
  inb_S256x128_S1x16_46_32 : ∀ a, (![46, 32] : Fin 2 → Nat) a + S1x16.size a ≤ S256x128.size a
  inb_S256x128_S1x16_47_32 : ∀ a, (![47, 32] : Fin 2 → Nat) a + S1x16.size a ≤ S256x128.size a
  inb_S256x128_S1x16_48_32 : ∀ a, (![48, 32] : Fin 2 → Nat) a + S1x16.size a ≤ S256x128.size a
  inb_S256x128_S1x16_49_32 : ∀ a, (![49, 32] : Fin 2 → Nat) a + S1x16.size a ≤ S256x128.size a
  inb_S256x128_S1x16_50_32 : ∀ a, (![50, 32] : Fin 2 → Nat) a + S1x16.size a ≤ S256x128.size a
  inb_S256x128_S1x16_51_32 : ∀ a, (![51, 32] : Fin 2 → Nat) a + S1x16.size a ≤ S256x128.size a
  inb_S256x128_S1x16_52_32 : ∀ a, (![52, 32] : Fin 2 → Nat) a + S1x16.size a ≤ S256x128.size a
  inb_S256x128_S1x16_53_32 : ∀ a, (![53, 32] : Fin 2 → Nat) a + S1x16.size a ≤ S256x128.size a
  inb_S256x128_S1x16_54_32 : ∀ a, (![54, 32] : Fin 2 → Nat) a + S1x16.size a ≤ S256x128.size a
  inb_S256x128_S1x16_55_32 : ∀ a, (![55, 32] : Fin 2 → Nat) a + S1x16.size a ≤ S256x128.size a
  inb_S256x128_S1x16_56_32 : ∀ a, (![56, 32] : Fin 2 → Nat) a + S1x16.size a ≤ S256x128.size a
  inb_S256x128_S1x16_57_32 : ∀ a, (![57, 32] : Fin 2 → Nat) a + S1x16.size a ≤ S256x128.size a
  inb_S256x128_S1x16_58_32 : ∀ a, (![58, 32] : Fin 2 → Nat) a + S1x16.size a ≤ S256x128.size a
  inb_S256x128_S1x16_59_32 : ∀ a, (![59, 32] : Fin 2 → Nat) a + S1x16.size a ≤ S256x128.size a
  inb_S256x128_S1x16_60_32 : ∀ a, (![60, 32] : Fin 2 → Nat) a + S1x16.size a ≤ S256x128.size a
  inb_S256x128_S1x16_61_32 : ∀ a, (![61, 32] : Fin 2 → Nat) a + S1x16.size a ≤ S256x128.size a
  inb_S256x128_S1x16_62_32 : ∀ a, (![62, 32] : Fin 2 → Nat) a + S1x16.size a ≤ S256x128.size a
  inb_S256x128_S1x16_63_32 : ∀ a, (![63, 32] : Fin 2 → Nat) a + S1x16.size a ≤ S256x128.size a
  inb_S256x128_S1x16_32_48 : ∀ a, (![32, 48] : Fin 2 → Nat) a + S1x16.size a ≤ S256x128.size a
  inb_S256x128_S1x16_33_48 : ∀ a, (![33, 48] : Fin 2 → Nat) a + S1x16.size a ≤ S256x128.size a
  inb_S256x128_S1x16_34_48 : ∀ a, (![34, 48] : Fin 2 → Nat) a + S1x16.size a ≤ S256x128.size a
  inb_S256x128_S1x16_35_48 : ∀ a, (![35, 48] : Fin 2 → Nat) a + S1x16.size a ≤ S256x128.size a
  inb_S256x128_S1x16_36_48 : ∀ a, (![36, 48] : Fin 2 → Nat) a + S1x16.size a ≤ S256x128.size a
  inb_S256x128_S1x16_37_48 : ∀ a, (![37, 48] : Fin 2 → Nat) a + S1x16.size a ≤ S256x128.size a
  inb_S256x128_S1x16_38_48 : ∀ a, (![38, 48] : Fin 2 → Nat) a + S1x16.size a ≤ S256x128.size a
  inb_S256x128_S1x16_39_48 : ∀ a, (![39, 48] : Fin 2 → Nat) a + S1x16.size a ≤ S256x128.size a
  inb_S256x128_S1x16_40_48 : ∀ a, (![40, 48] : Fin 2 → Nat) a + S1x16.size a ≤ S256x128.size a
  inb_S256x128_S1x16_41_48 : ∀ a, (![41, 48] : Fin 2 → Nat) a + S1x16.size a ≤ S256x128.size a
  inb_S256x128_S1x16_42_48 : ∀ a, (![42, 48] : Fin 2 → Nat) a + S1x16.size a ≤ S256x128.size a
  inb_S256x128_S1x16_43_48 : ∀ a, (![43, 48] : Fin 2 → Nat) a + S1x16.size a ≤ S256x128.size a
  inb_S256x128_S1x16_44_48 : ∀ a, (![44, 48] : Fin 2 → Nat) a + S1x16.size a ≤ S256x128.size a
  inb_S256x128_S1x16_45_48 : ∀ a, (![45, 48] : Fin 2 → Nat) a + S1x16.size a ≤ S256x128.size a
  inb_S256x128_S1x16_46_48 : ∀ a, (![46, 48] : Fin 2 → Nat) a + S1x16.size a ≤ S256x128.size a
  inb_S256x128_S1x16_47_48 : ∀ a, (![47, 48] : Fin 2 → Nat) a + S1x16.size a ≤ S256x128.size a
  inb_S256x128_S1x16_48_48 : ∀ a, (![48, 48] : Fin 2 → Nat) a + S1x16.size a ≤ S256x128.size a
  inb_S256x128_S1x16_49_48 : ∀ a, (![49, 48] : Fin 2 → Nat) a + S1x16.size a ≤ S256x128.size a
  inb_S256x128_S1x16_50_48 : ∀ a, (![50, 48] : Fin 2 → Nat) a + S1x16.size a ≤ S256x128.size a
  inb_S256x128_S1x16_51_48 : ∀ a, (![51, 48] : Fin 2 → Nat) a + S1x16.size a ≤ S256x128.size a
  inb_S256x128_S1x16_52_48 : ∀ a, (![52, 48] : Fin 2 → Nat) a + S1x16.size a ≤ S256x128.size a
  inb_S256x128_S1x16_53_48 : ∀ a, (![53, 48] : Fin 2 → Nat) a + S1x16.size a ≤ S256x128.size a
  inb_S256x128_S1x16_54_48 : ∀ a, (![54, 48] : Fin 2 → Nat) a + S1x16.size a ≤ S256x128.size a
  inb_S256x128_S1x16_55_48 : ∀ a, (![55, 48] : Fin 2 → Nat) a + S1x16.size a ≤ S256x128.size a
  inb_S256x128_S1x16_56_48 : ∀ a, (![56, 48] : Fin 2 → Nat) a + S1x16.size a ≤ S256x128.size a
  inb_S256x128_S1x16_57_48 : ∀ a, (![57, 48] : Fin 2 → Nat) a + S1x16.size a ≤ S256x128.size a
  inb_S256x128_S1x16_58_48 : ∀ a, (![58, 48] : Fin 2 → Nat) a + S1x16.size a ≤ S256x128.size a
  inb_S256x128_S1x16_59_48 : ∀ a, (![59, 48] : Fin 2 → Nat) a + S1x16.size a ≤ S256x128.size a
  inb_S256x128_S1x16_60_48 : ∀ a, (![60, 48] : Fin 2 → Nat) a + S1x16.size a ≤ S256x128.size a
  inb_S256x128_S1x16_61_48 : ∀ a, (![61, 48] : Fin 2 → Nat) a + S1x16.size a ≤ S256x128.size a
  inb_S256x128_S1x16_62_48 : ∀ a, (![62, 48] : Fin 2 → Nat) a + S1x16.size a ≤ S256x128.size a
  inb_S256x128_S1x16_63_48 : ∀ a, (![63, 48] : Fin 2 → Nat) a + S1x16.size a ≤ S256x128.size a
  inb_S256x128_S1x16_32_64 : ∀ a, (![32, 64] : Fin 2 → Nat) a + S1x16.size a ≤ S256x128.size a
  inb_S256x128_S1x16_33_64 : ∀ a, (![33, 64] : Fin 2 → Nat) a + S1x16.size a ≤ S256x128.size a
  inb_S256x128_S1x16_34_64 : ∀ a, (![34, 64] : Fin 2 → Nat) a + S1x16.size a ≤ S256x128.size a
  inb_S256x128_S1x16_35_64 : ∀ a, (![35, 64] : Fin 2 → Nat) a + S1x16.size a ≤ S256x128.size a
  inb_S256x128_S1x16_36_64 : ∀ a, (![36, 64] : Fin 2 → Nat) a + S1x16.size a ≤ S256x128.size a
  inb_S256x128_S1x16_37_64 : ∀ a, (![37, 64] : Fin 2 → Nat) a + S1x16.size a ≤ S256x128.size a
  inb_S256x128_S1x16_38_64 : ∀ a, (![38, 64] : Fin 2 → Nat) a + S1x16.size a ≤ S256x128.size a
  inb_S256x128_S1x16_39_64 : ∀ a, (![39, 64] : Fin 2 → Nat) a + S1x16.size a ≤ S256x128.size a
  inb_S256x128_S1x16_40_64 : ∀ a, (![40, 64] : Fin 2 → Nat) a + S1x16.size a ≤ S256x128.size a
  inb_S256x128_S1x16_41_64 : ∀ a, (![41, 64] : Fin 2 → Nat) a + S1x16.size a ≤ S256x128.size a
  inb_S256x128_S1x16_42_64 : ∀ a, (![42, 64] : Fin 2 → Nat) a + S1x16.size a ≤ S256x128.size a
  inb_S256x128_S1x16_43_64 : ∀ a, (![43, 64] : Fin 2 → Nat) a + S1x16.size a ≤ S256x128.size a
  inb_S256x128_S1x16_44_64 : ∀ a, (![44, 64] : Fin 2 → Nat) a + S1x16.size a ≤ S256x128.size a
  inb_S256x128_S1x16_45_64 : ∀ a, (![45, 64] : Fin 2 → Nat) a + S1x16.size a ≤ S256x128.size a
  inb_S256x128_S1x16_46_64 : ∀ a, (![46, 64] : Fin 2 → Nat) a + S1x16.size a ≤ S256x128.size a
  inb_S256x128_S1x16_47_64 : ∀ a, (![47, 64] : Fin 2 → Nat) a + S1x16.size a ≤ S256x128.size a
  inb_S256x128_S1x16_48_64 : ∀ a, (![48, 64] : Fin 2 → Nat) a + S1x16.size a ≤ S256x128.size a
  inb_S256x128_S1x16_49_64 : ∀ a, (![49, 64] : Fin 2 → Nat) a + S1x16.size a ≤ S256x128.size a
  inb_S256x128_S1x16_50_64 : ∀ a, (![50, 64] : Fin 2 → Nat) a + S1x16.size a ≤ S256x128.size a
  inb_S256x128_S1x16_51_64 : ∀ a, (![51, 64] : Fin 2 → Nat) a + S1x16.size a ≤ S256x128.size a
  inb_S256x128_S1x16_52_64 : ∀ a, (![52, 64] : Fin 2 → Nat) a + S1x16.size a ≤ S256x128.size a
  inb_S256x128_S1x16_53_64 : ∀ a, (![53, 64] : Fin 2 → Nat) a + S1x16.size a ≤ S256x128.size a
  inb_S256x128_S1x16_54_64 : ∀ a, (![54, 64] : Fin 2 → Nat) a + S1x16.size a ≤ S256x128.size a
  inb_S256x128_S1x16_55_64 : ∀ a, (![55, 64] : Fin 2 → Nat) a + S1x16.size a ≤ S256x128.size a
  inb_S256x128_S1x16_56_64 : ∀ a, (![56, 64] : Fin 2 → Nat) a + S1x16.size a ≤ S256x128.size a
  inb_S256x128_S1x16_57_64 : ∀ a, (![57, 64] : Fin 2 → Nat) a + S1x16.size a ≤ S256x128.size a
  inb_S256x128_S1x16_58_64 : ∀ a, (![58, 64] : Fin 2 → Nat) a + S1x16.size a ≤ S256x128.size a
  inb_S256x128_S1x16_59_64 : ∀ a, (![59, 64] : Fin 2 → Nat) a + S1x16.size a ≤ S256x128.size a
  inb_S256x128_S1x16_60_64 : ∀ a, (![60, 64] : Fin 2 → Nat) a + S1x16.size a ≤ S256x128.size a
  inb_S256x128_S1x16_61_64 : ∀ a, (![61, 64] : Fin 2 → Nat) a + S1x16.size a ≤ S256x128.size a
  inb_S256x128_S1x16_62_64 : ∀ a, (![62, 64] : Fin 2 → Nat) a + S1x16.size a ≤ S256x128.size a
  inb_S256x128_S1x16_63_64 : ∀ a, (![63, 64] : Fin 2 → Nat) a + S1x16.size a ≤ S256x128.size a
  inb_S256x128_S1x16_32_80 : ∀ a, (![32, 80] : Fin 2 → Nat) a + S1x16.size a ≤ S256x128.size a
  inb_S256x128_S1x16_33_80 : ∀ a, (![33, 80] : Fin 2 → Nat) a + S1x16.size a ≤ S256x128.size a
  inb_S256x128_S1x16_34_80 : ∀ a, (![34, 80] : Fin 2 → Nat) a + S1x16.size a ≤ S256x128.size a
  inb_S256x128_S1x16_35_80 : ∀ a, (![35, 80] : Fin 2 → Nat) a + S1x16.size a ≤ S256x128.size a
  inb_S256x128_S1x16_36_80 : ∀ a, (![36, 80] : Fin 2 → Nat) a + S1x16.size a ≤ S256x128.size a
  inb_S256x128_S1x16_37_80 : ∀ a, (![37, 80] : Fin 2 → Nat) a + S1x16.size a ≤ S256x128.size a
  inb_S256x128_S1x16_38_80 : ∀ a, (![38, 80] : Fin 2 → Nat) a + S1x16.size a ≤ S256x128.size a
  inb_S256x128_S1x16_39_80 : ∀ a, (![39, 80] : Fin 2 → Nat) a + S1x16.size a ≤ S256x128.size a
  inb_S256x128_S1x16_40_80 : ∀ a, (![40, 80] : Fin 2 → Nat) a + S1x16.size a ≤ S256x128.size a
  inb_S256x128_S1x16_41_80 : ∀ a, (![41, 80] : Fin 2 → Nat) a + S1x16.size a ≤ S256x128.size a
  inb_S256x128_S1x16_42_80 : ∀ a, (![42, 80] : Fin 2 → Nat) a + S1x16.size a ≤ S256x128.size a
  inb_S256x128_S1x16_43_80 : ∀ a, (![43, 80] : Fin 2 → Nat) a + S1x16.size a ≤ S256x128.size a
  inb_S256x128_S1x16_44_80 : ∀ a, (![44, 80] : Fin 2 → Nat) a + S1x16.size a ≤ S256x128.size a
  inb_S256x128_S1x16_45_80 : ∀ a, (![45, 80] : Fin 2 → Nat) a + S1x16.size a ≤ S256x128.size a
  inb_S256x128_S1x16_46_80 : ∀ a, (![46, 80] : Fin 2 → Nat) a + S1x16.size a ≤ S256x128.size a
  inb_S256x128_S1x16_47_80 : ∀ a, (![47, 80] : Fin 2 → Nat) a + S1x16.size a ≤ S256x128.size a
  inb_S256x128_S1x16_48_80 : ∀ a, (![48, 80] : Fin 2 → Nat) a + S1x16.size a ≤ S256x128.size a
  inb_S256x128_S1x16_49_80 : ∀ a, (![49, 80] : Fin 2 → Nat) a + S1x16.size a ≤ S256x128.size a
  inb_S256x128_S1x16_50_80 : ∀ a, (![50, 80] : Fin 2 → Nat) a + S1x16.size a ≤ S256x128.size a
  inb_S256x128_S1x16_51_80 : ∀ a, (![51, 80] : Fin 2 → Nat) a + S1x16.size a ≤ S256x128.size a
  inb_S256x128_S1x16_52_80 : ∀ a, (![52, 80] : Fin 2 → Nat) a + S1x16.size a ≤ S256x128.size a
  inb_S256x128_S1x16_53_80 : ∀ a, (![53, 80] : Fin 2 → Nat) a + S1x16.size a ≤ S256x128.size a
  inb_S256x128_S1x16_54_80 : ∀ a, (![54, 80] : Fin 2 → Nat) a + S1x16.size a ≤ S256x128.size a
  inb_S256x128_S1x16_55_80 : ∀ a, (![55, 80] : Fin 2 → Nat) a + S1x16.size a ≤ S256x128.size a
  inb_S256x128_S1x16_56_80 : ∀ a, (![56, 80] : Fin 2 → Nat) a + S1x16.size a ≤ S256x128.size a
  inb_S256x128_S1x16_57_80 : ∀ a, (![57, 80] : Fin 2 → Nat) a + S1x16.size a ≤ S256x128.size a
  inb_S256x128_S1x16_58_80 : ∀ a, (![58, 80] : Fin 2 → Nat) a + S1x16.size a ≤ S256x128.size a
  inb_S256x128_S1x16_59_80 : ∀ a, (![59, 80] : Fin 2 → Nat) a + S1x16.size a ≤ S256x128.size a
  inb_S256x128_S1x16_60_80 : ∀ a, (![60, 80] : Fin 2 → Nat) a + S1x16.size a ≤ S256x128.size a
  inb_S256x128_S1x16_61_80 : ∀ a, (![61, 80] : Fin 2 → Nat) a + S1x16.size a ≤ S256x128.size a
  inb_S256x128_S1x16_62_80 : ∀ a, (![62, 80] : Fin 2 → Nat) a + S1x16.size a ≤ S256x128.size a
  inb_S256x128_S1x16_63_80 : ∀ a, (![63, 80] : Fin 2 → Nat) a + S1x16.size a ≤ S256x128.size a
  inb_S256x128_S1x16_32_96 : ∀ a, (![32, 96] : Fin 2 → Nat) a + S1x16.size a ≤ S256x128.size a
  inb_S256x128_S1x16_33_96 : ∀ a, (![33, 96] : Fin 2 → Nat) a + S1x16.size a ≤ S256x128.size a
  inb_S256x128_S1x16_34_96 : ∀ a, (![34, 96] : Fin 2 → Nat) a + S1x16.size a ≤ S256x128.size a
  inb_S256x128_S1x16_35_96 : ∀ a, (![35, 96] : Fin 2 → Nat) a + S1x16.size a ≤ S256x128.size a
  inb_S256x128_S1x16_36_96 : ∀ a, (![36, 96] : Fin 2 → Nat) a + S1x16.size a ≤ S256x128.size a
  inb_S256x128_S1x16_37_96 : ∀ a, (![37, 96] : Fin 2 → Nat) a + S1x16.size a ≤ S256x128.size a
  inb_S256x128_S1x16_38_96 : ∀ a, (![38, 96] : Fin 2 → Nat) a + S1x16.size a ≤ S256x128.size a
  inb_S256x128_S1x16_39_96 : ∀ a, (![39, 96] : Fin 2 → Nat) a + S1x16.size a ≤ S256x128.size a
  inb_S256x128_S1x16_40_96 : ∀ a, (![40, 96] : Fin 2 → Nat) a + S1x16.size a ≤ S256x128.size a
  inb_S256x128_S1x16_41_96 : ∀ a, (![41, 96] : Fin 2 → Nat) a + S1x16.size a ≤ S256x128.size a
  inb_S256x128_S1x16_42_96 : ∀ a, (![42, 96] : Fin 2 → Nat) a + S1x16.size a ≤ S256x128.size a
  inb_S256x128_S1x16_43_96 : ∀ a, (![43, 96] : Fin 2 → Nat) a + S1x16.size a ≤ S256x128.size a
  inb_S256x128_S1x16_44_96 : ∀ a, (![44, 96] : Fin 2 → Nat) a + S1x16.size a ≤ S256x128.size a
  inb_S256x128_S1x16_45_96 : ∀ a, (![45, 96] : Fin 2 → Nat) a + S1x16.size a ≤ S256x128.size a
  inb_S256x128_S1x16_46_96 : ∀ a, (![46, 96] : Fin 2 → Nat) a + S1x16.size a ≤ S256x128.size a
  inb_S256x128_S1x16_47_96 : ∀ a, (![47, 96] : Fin 2 → Nat) a + S1x16.size a ≤ S256x128.size a
  inb_S256x128_S1x16_48_96 : ∀ a, (![48, 96] : Fin 2 → Nat) a + S1x16.size a ≤ S256x128.size a
  inb_S256x128_S1x16_49_96 : ∀ a, (![49, 96] : Fin 2 → Nat) a + S1x16.size a ≤ S256x128.size a
  inb_S256x128_S1x16_50_96 : ∀ a, (![50, 96] : Fin 2 → Nat) a + S1x16.size a ≤ S256x128.size a
  inb_S256x128_S1x16_51_96 : ∀ a, (![51, 96] : Fin 2 → Nat) a + S1x16.size a ≤ S256x128.size a
  inb_S256x128_S1x16_52_96 : ∀ a, (![52, 96] : Fin 2 → Nat) a + S1x16.size a ≤ S256x128.size a
  inb_S256x128_S1x16_53_96 : ∀ a, (![53, 96] : Fin 2 → Nat) a + S1x16.size a ≤ S256x128.size a
  inb_S256x128_S1x16_54_96 : ∀ a, (![54, 96] : Fin 2 → Nat) a + S1x16.size a ≤ S256x128.size a
  inb_S256x128_S1x16_55_96 : ∀ a, (![55, 96] : Fin 2 → Nat) a + S1x16.size a ≤ S256x128.size a
  inb_S256x128_S1x16_56_96 : ∀ a, (![56, 96] : Fin 2 → Nat) a + S1x16.size a ≤ S256x128.size a
  inb_S256x128_S1x16_57_96 : ∀ a, (![57, 96] : Fin 2 → Nat) a + S1x16.size a ≤ S256x128.size a
  inb_S256x128_S1x16_58_96 : ∀ a, (![58, 96] : Fin 2 → Nat) a + S1x16.size a ≤ S256x128.size a
  inb_S256x128_S1x16_59_96 : ∀ a, (![59, 96] : Fin 2 → Nat) a + S1x16.size a ≤ S256x128.size a
  inb_S256x128_S1x16_60_96 : ∀ a, (![60, 96] : Fin 2 → Nat) a + S1x16.size a ≤ S256x128.size a
  inb_S256x128_S1x16_61_96 : ∀ a, (![61, 96] : Fin 2 → Nat) a + S1x16.size a ≤ S256x128.size a
  inb_S256x128_S1x16_62_96 : ∀ a, (![62, 96] : Fin 2 → Nat) a + S1x16.size a ≤ S256x128.size a
  inb_S256x128_S1x16_63_96 : ∀ a, (![63, 96] : Fin 2 → Nat) a + S1x16.size a ≤ S256x128.size a
  inb_S256x128_S1x16_32_112 : ∀ a, (![32, 112] : Fin 2 → Nat) a + S1x16.size a ≤ S256x128.size a
  inb_S256x128_S1x16_33_112 : ∀ a, (![33, 112] : Fin 2 → Nat) a + S1x16.size a ≤ S256x128.size a
  inb_S256x128_S1x16_34_112 : ∀ a, (![34, 112] : Fin 2 → Nat) a + S1x16.size a ≤ S256x128.size a
  inb_S256x128_S1x16_35_112 : ∀ a, (![35, 112] : Fin 2 → Nat) a + S1x16.size a ≤ S256x128.size a
  inb_S256x128_S1x16_36_112 : ∀ a, (![36, 112] : Fin 2 → Nat) a + S1x16.size a ≤ S256x128.size a
  inb_S256x128_S1x16_37_112 : ∀ a, (![37, 112] : Fin 2 → Nat) a + S1x16.size a ≤ S256x128.size a
  inb_S256x128_S1x16_38_112 : ∀ a, (![38, 112] : Fin 2 → Nat) a + S1x16.size a ≤ S256x128.size a
  inb_S256x128_S1x16_39_112 : ∀ a, (![39, 112] : Fin 2 → Nat) a + S1x16.size a ≤ S256x128.size a
  inb_S256x128_S1x16_40_112 : ∀ a, (![40, 112] : Fin 2 → Nat) a + S1x16.size a ≤ S256x128.size a
  inb_S256x128_S1x16_41_112 : ∀ a, (![41, 112] : Fin 2 → Nat) a + S1x16.size a ≤ S256x128.size a
  inb_S256x128_S1x16_42_112 : ∀ a, (![42, 112] : Fin 2 → Nat) a + S1x16.size a ≤ S256x128.size a
  inb_S256x128_S1x16_43_112 : ∀ a, (![43, 112] : Fin 2 → Nat) a + S1x16.size a ≤ S256x128.size a
  inb_S256x128_S1x16_44_112 : ∀ a, (![44, 112] : Fin 2 → Nat) a + S1x16.size a ≤ S256x128.size a
  inb_S256x128_S1x16_45_112 : ∀ a, (![45, 112] : Fin 2 → Nat) a + S1x16.size a ≤ S256x128.size a
  inb_S256x128_S1x16_46_112 : ∀ a, (![46, 112] : Fin 2 → Nat) a + S1x16.size a ≤ S256x128.size a
  inb_S256x128_S1x16_47_112 : ∀ a, (![47, 112] : Fin 2 → Nat) a + S1x16.size a ≤ S256x128.size a
  inb_S256x128_S1x16_48_112 : ∀ a, (![48, 112] : Fin 2 → Nat) a + S1x16.size a ≤ S256x128.size a
  inb_S256x128_S1x16_49_112 : ∀ a, (![49, 112] : Fin 2 → Nat) a + S1x16.size a ≤ S256x128.size a
  inb_S256x128_S1x16_50_112 : ∀ a, (![50, 112] : Fin 2 → Nat) a + S1x16.size a ≤ S256x128.size a
  inb_S256x128_S1x16_51_112 : ∀ a, (![51, 112] : Fin 2 → Nat) a + S1x16.size a ≤ S256x128.size a
  inb_S256x128_S1x16_52_112 : ∀ a, (![52, 112] : Fin 2 → Nat) a + S1x16.size a ≤ S256x128.size a
  inb_S256x128_S1x16_53_112 : ∀ a, (![53, 112] : Fin 2 → Nat) a + S1x16.size a ≤ S256x128.size a
  inb_S256x128_S1x16_54_112 : ∀ a, (![54, 112] : Fin 2 → Nat) a + S1x16.size a ≤ S256x128.size a
  inb_S256x128_S1x16_55_112 : ∀ a, (![55, 112] : Fin 2 → Nat) a + S1x16.size a ≤ S256x128.size a
  inb_S256x128_S1x16_56_112 : ∀ a, (![56, 112] : Fin 2 → Nat) a + S1x16.size a ≤ S256x128.size a
  inb_S256x128_S1x16_57_112 : ∀ a, (![57, 112] : Fin 2 → Nat) a + S1x16.size a ≤ S256x128.size a
  inb_S256x128_S1x16_58_112 : ∀ a, (![58, 112] : Fin 2 → Nat) a + S1x16.size a ≤ S256x128.size a
  inb_S256x128_S1x16_59_112 : ∀ a, (![59, 112] : Fin 2 → Nat) a + S1x16.size a ≤ S256x128.size a
  inb_S256x128_S1x16_60_112 : ∀ a, (![60, 112] : Fin 2 → Nat) a + S1x16.size a ≤ S256x128.size a
  inb_S256x128_S1x16_61_112 : ∀ a, (![61, 112] : Fin 2 → Nat) a + S1x16.size a ≤ S256x128.size a
  inb_S256x128_S1x16_62_112 : ∀ a, (![62, 112] : Fin 2 → Nat) a + S1x16.size a ≤ S256x128.size a
  inb_S256x128_S1x16_63_112 : ∀ a, (![63, 112] : Fin 2 → Nat) a + S1x16.size a ≤ S256x128.size a
  inb_S256x128_S1x16_64_0 : ∀ a, (![64, 0] : Fin 2 → Nat) a + S1x16.size a ≤ S256x128.size a
  inb_S256x128_S1x16_65_0 : ∀ a, (![65, 0] : Fin 2 → Nat) a + S1x16.size a ≤ S256x128.size a
  inb_S256x128_S1x16_66_0 : ∀ a, (![66, 0] : Fin 2 → Nat) a + S1x16.size a ≤ S256x128.size a
  inb_S256x128_S1x16_67_0 : ∀ a, (![67, 0] : Fin 2 → Nat) a + S1x16.size a ≤ S256x128.size a
  inb_S256x128_S1x16_68_0 : ∀ a, (![68, 0] : Fin 2 → Nat) a + S1x16.size a ≤ S256x128.size a
  inb_S256x128_S1x16_69_0 : ∀ a, (![69, 0] : Fin 2 → Nat) a + S1x16.size a ≤ S256x128.size a
  inb_S256x128_S1x16_70_0 : ∀ a, (![70, 0] : Fin 2 → Nat) a + S1x16.size a ≤ S256x128.size a
  inb_S256x128_S1x16_71_0 : ∀ a, (![71, 0] : Fin 2 → Nat) a + S1x16.size a ≤ S256x128.size a
  inb_S256x128_S1x16_72_0 : ∀ a, (![72, 0] : Fin 2 → Nat) a + S1x16.size a ≤ S256x128.size a
  inb_S256x128_S1x16_73_0 : ∀ a, (![73, 0] : Fin 2 → Nat) a + S1x16.size a ≤ S256x128.size a
  inb_S256x128_S1x16_74_0 : ∀ a, (![74, 0] : Fin 2 → Nat) a + S1x16.size a ≤ S256x128.size a
  inb_S256x128_S1x16_75_0 : ∀ a, (![75, 0] : Fin 2 → Nat) a + S1x16.size a ≤ S256x128.size a
  inb_S256x128_S1x16_76_0 : ∀ a, (![76, 0] : Fin 2 → Nat) a + S1x16.size a ≤ S256x128.size a
  inb_S256x128_S1x16_77_0 : ∀ a, (![77, 0] : Fin 2 → Nat) a + S1x16.size a ≤ S256x128.size a
  inb_S256x128_S1x16_78_0 : ∀ a, (![78, 0] : Fin 2 → Nat) a + S1x16.size a ≤ S256x128.size a
  inb_S256x128_S1x16_79_0 : ∀ a, (![79, 0] : Fin 2 → Nat) a + S1x16.size a ≤ S256x128.size a
  inb_S256x128_S1x16_80_0 : ∀ a, (![80, 0] : Fin 2 → Nat) a + S1x16.size a ≤ S256x128.size a
  inb_S256x128_S1x16_81_0 : ∀ a, (![81, 0] : Fin 2 → Nat) a + S1x16.size a ≤ S256x128.size a
  inb_S256x128_S1x16_82_0 : ∀ a, (![82, 0] : Fin 2 → Nat) a + S1x16.size a ≤ S256x128.size a
  inb_S256x128_S1x16_83_0 : ∀ a, (![83, 0] : Fin 2 → Nat) a + S1x16.size a ≤ S256x128.size a
  inb_S256x128_S1x16_84_0 : ∀ a, (![84, 0] : Fin 2 → Nat) a + S1x16.size a ≤ S256x128.size a
  inb_S256x128_S1x16_85_0 : ∀ a, (![85, 0] : Fin 2 → Nat) a + S1x16.size a ≤ S256x128.size a
  inb_S256x128_S1x16_86_0 : ∀ a, (![86, 0] : Fin 2 → Nat) a + S1x16.size a ≤ S256x128.size a
  inb_S256x128_S1x16_87_0 : ∀ a, (![87, 0] : Fin 2 → Nat) a + S1x16.size a ≤ S256x128.size a
  inb_S256x128_S1x16_88_0 : ∀ a, (![88, 0] : Fin 2 → Nat) a + S1x16.size a ≤ S256x128.size a
  inb_S256x128_S1x16_89_0 : ∀ a, (![89, 0] : Fin 2 → Nat) a + S1x16.size a ≤ S256x128.size a
  inb_S256x128_S1x16_90_0 : ∀ a, (![90, 0] : Fin 2 → Nat) a + S1x16.size a ≤ S256x128.size a
  inb_S256x128_S1x16_91_0 : ∀ a, (![91, 0] : Fin 2 → Nat) a + S1x16.size a ≤ S256x128.size a
  inb_S256x128_S1x16_92_0 : ∀ a, (![92, 0] : Fin 2 → Nat) a + S1x16.size a ≤ S256x128.size a
  inb_S256x128_S1x16_93_0 : ∀ a, (![93, 0] : Fin 2 → Nat) a + S1x16.size a ≤ S256x128.size a
  inb_S256x128_S1x16_94_0 : ∀ a, (![94, 0] : Fin 2 → Nat) a + S1x16.size a ≤ S256x128.size a
  inb_S256x128_S1x16_95_0 : ∀ a, (![95, 0] : Fin 2 → Nat) a + S1x16.size a ≤ S256x128.size a
  inb_S256x128_S1x16_64_16 : ∀ a, (![64, 16] : Fin 2 → Nat) a + S1x16.size a ≤ S256x128.size a
  inb_S256x128_S1x16_65_16 : ∀ a, (![65, 16] : Fin 2 → Nat) a + S1x16.size a ≤ S256x128.size a
  inb_S256x128_S1x16_66_16 : ∀ a, (![66, 16] : Fin 2 → Nat) a + S1x16.size a ≤ S256x128.size a
  inb_S256x128_S1x16_67_16 : ∀ a, (![67, 16] : Fin 2 → Nat) a + S1x16.size a ≤ S256x128.size a
  inb_S256x128_S1x16_68_16 : ∀ a, (![68, 16] : Fin 2 → Nat) a + S1x16.size a ≤ S256x128.size a
  inb_S256x128_S1x16_69_16 : ∀ a, (![69, 16] : Fin 2 → Nat) a + S1x16.size a ≤ S256x128.size a
  inb_S256x128_S1x16_70_16 : ∀ a, (![70, 16] : Fin 2 → Nat) a + S1x16.size a ≤ S256x128.size a
  inb_S256x128_S1x16_71_16 : ∀ a, (![71, 16] : Fin 2 → Nat) a + S1x16.size a ≤ S256x128.size a
  inb_S256x128_S1x16_72_16 : ∀ a, (![72, 16] : Fin 2 → Nat) a + S1x16.size a ≤ S256x128.size a
  inb_S256x128_S1x16_73_16 : ∀ a, (![73, 16] : Fin 2 → Nat) a + S1x16.size a ≤ S256x128.size a
  inb_S256x128_S1x16_74_16 : ∀ a, (![74, 16] : Fin 2 → Nat) a + S1x16.size a ≤ S256x128.size a
  inb_S256x128_S1x16_75_16 : ∀ a, (![75, 16] : Fin 2 → Nat) a + S1x16.size a ≤ S256x128.size a
  inb_S256x128_S1x16_76_16 : ∀ a, (![76, 16] : Fin 2 → Nat) a + S1x16.size a ≤ S256x128.size a
  inb_S256x128_S1x16_77_16 : ∀ a, (![77, 16] : Fin 2 → Nat) a + S1x16.size a ≤ S256x128.size a
  inb_S256x128_S1x16_78_16 : ∀ a, (![78, 16] : Fin 2 → Nat) a + S1x16.size a ≤ S256x128.size a
  inb_S256x128_S1x16_79_16 : ∀ a, (![79, 16] : Fin 2 → Nat) a + S1x16.size a ≤ S256x128.size a
  inb_S256x128_S1x16_80_16 : ∀ a, (![80, 16] : Fin 2 → Nat) a + S1x16.size a ≤ S256x128.size a
  inb_S256x128_S1x16_81_16 : ∀ a, (![81, 16] : Fin 2 → Nat) a + S1x16.size a ≤ S256x128.size a
  inb_S256x128_S1x16_82_16 : ∀ a, (![82, 16] : Fin 2 → Nat) a + S1x16.size a ≤ S256x128.size a
  inb_S256x128_S1x16_83_16 : ∀ a, (![83, 16] : Fin 2 → Nat) a + S1x16.size a ≤ S256x128.size a
  inb_S256x128_S1x16_84_16 : ∀ a, (![84, 16] : Fin 2 → Nat) a + S1x16.size a ≤ S256x128.size a
  inb_S256x128_S1x16_85_16 : ∀ a, (![85, 16] : Fin 2 → Nat) a + S1x16.size a ≤ S256x128.size a
  inb_S256x128_S1x16_86_16 : ∀ a, (![86, 16] : Fin 2 → Nat) a + S1x16.size a ≤ S256x128.size a
  inb_S256x128_S1x16_87_16 : ∀ a, (![87, 16] : Fin 2 → Nat) a + S1x16.size a ≤ S256x128.size a
  inb_S256x128_S1x16_88_16 : ∀ a, (![88, 16] : Fin 2 → Nat) a + S1x16.size a ≤ S256x128.size a
  inb_S256x128_S1x16_89_16 : ∀ a, (![89, 16] : Fin 2 → Nat) a + S1x16.size a ≤ S256x128.size a
  inb_S256x128_S1x16_90_16 : ∀ a, (![90, 16] : Fin 2 → Nat) a + S1x16.size a ≤ S256x128.size a
  inb_S256x128_S1x16_91_16 : ∀ a, (![91, 16] : Fin 2 → Nat) a + S1x16.size a ≤ S256x128.size a
  inb_S256x128_S1x16_92_16 : ∀ a, (![92, 16] : Fin 2 → Nat) a + S1x16.size a ≤ S256x128.size a
  inb_S256x128_S1x16_93_16 : ∀ a, (![93, 16] : Fin 2 → Nat) a + S1x16.size a ≤ S256x128.size a
  inb_S256x128_S1x16_94_16 : ∀ a, (![94, 16] : Fin 2 → Nat) a + S1x16.size a ≤ S256x128.size a
  inb_S256x128_S1x16_95_16 : ∀ a, (![95, 16] : Fin 2 → Nat) a + S1x16.size a ≤ S256x128.size a
  inb_S256x128_S1x16_64_32 : ∀ a, (![64, 32] : Fin 2 → Nat) a + S1x16.size a ≤ S256x128.size a
  inb_S256x128_S1x16_65_32 : ∀ a, (![65, 32] : Fin 2 → Nat) a + S1x16.size a ≤ S256x128.size a
  inb_S256x128_S1x16_66_32 : ∀ a, (![66, 32] : Fin 2 → Nat) a + S1x16.size a ≤ S256x128.size a
  inb_S256x128_S1x16_67_32 : ∀ a, (![67, 32] : Fin 2 → Nat) a + S1x16.size a ≤ S256x128.size a
  inb_S256x128_S1x16_68_32 : ∀ a, (![68, 32] : Fin 2 → Nat) a + S1x16.size a ≤ S256x128.size a
  inb_S256x128_S1x16_69_32 : ∀ a, (![69, 32] : Fin 2 → Nat) a + S1x16.size a ≤ S256x128.size a
  inb_S256x128_S1x16_70_32 : ∀ a, (![70, 32] : Fin 2 → Nat) a + S1x16.size a ≤ S256x128.size a
  inb_S256x128_S1x16_71_32 : ∀ a, (![71, 32] : Fin 2 → Nat) a + S1x16.size a ≤ S256x128.size a
  inb_S256x128_S1x16_72_32 : ∀ a, (![72, 32] : Fin 2 → Nat) a + S1x16.size a ≤ S256x128.size a
  inb_S256x128_S1x16_73_32 : ∀ a, (![73, 32] : Fin 2 → Nat) a + S1x16.size a ≤ S256x128.size a
  inb_S256x128_S1x16_74_32 : ∀ a, (![74, 32] : Fin 2 → Nat) a + S1x16.size a ≤ S256x128.size a
  inb_S256x128_S1x16_75_32 : ∀ a, (![75, 32] : Fin 2 → Nat) a + S1x16.size a ≤ S256x128.size a
  inb_S256x128_S1x16_76_32 : ∀ a, (![76, 32] : Fin 2 → Nat) a + S1x16.size a ≤ S256x128.size a
  inb_S256x128_S1x16_77_32 : ∀ a, (![77, 32] : Fin 2 → Nat) a + S1x16.size a ≤ S256x128.size a
  inb_S256x128_S1x16_78_32 : ∀ a, (![78, 32] : Fin 2 → Nat) a + S1x16.size a ≤ S256x128.size a
  inb_S256x128_S1x16_79_32 : ∀ a, (![79, 32] : Fin 2 → Nat) a + S1x16.size a ≤ S256x128.size a
  inb_S256x128_S1x16_80_32 : ∀ a, (![80, 32] : Fin 2 → Nat) a + S1x16.size a ≤ S256x128.size a
  inb_S256x128_S1x16_81_32 : ∀ a, (![81, 32] : Fin 2 → Nat) a + S1x16.size a ≤ S256x128.size a
  inb_S256x128_S1x16_82_32 : ∀ a, (![82, 32] : Fin 2 → Nat) a + S1x16.size a ≤ S256x128.size a
  inb_S256x128_S1x16_83_32 : ∀ a, (![83, 32] : Fin 2 → Nat) a + S1x16.size a ≤ S256x128.size a
  inb_S256x128_S1x16_84_32 : ∀ a, (![84, 32] : Fin 2 → Nat) a + S1x16.size a ≤ S256x128.size a
  inb_S256x128_S1x16_85_32 : ∀ a, (![85, 32] : Fin 2 → Nat) a + S1x16.size a ≤ S256x128.size a
  inb_S256x128_S1x16_86_32 : ∀ a, (![86, 32] : Fin 2 → Nat) a + S1x16.size a ≤ S256x128.size a
  inb_S256x128_S1x16_87_32 : ∀ a, (![87, 32] : Fin 2 → Nat) a + S1x16.size a ≤ S256x128.size a
  inb_S256x128_S1x16_88_32 : ∀ a, (![88, 32] : Fin 2 → Nat) a + S1x16.size a ≤ S256x128.size a
  inb_S256x128_S1x16_89_32 : ∀ a, (![89, 32] : Fin 2 → Nat) a + S1x16.size a ≤ S256x128.size a
  inb_S256x128_S1x16_90_32 : ∀ a, (![90, 32] : Fin 2 → Nat) a + S1x16.size a ≤ S256x128.size a
  inb_S256x128_S1x16_91_32 : ∀ a, (![91, 32] : Fin 2 → Nat) a + S1x16.size a ≤ S256x128.size a
  inb_S256x128_S1x16_92_32 : ∀ a, (![92, 32] : Fin 2 → Nat) a + S1x16.size a ≤ S256x128.size a
  inb_S256x128_S1x16_93_32 : ∀ a, (![93, 32] : Fin 2 → Nat) a + S1x16.size a ≤ S256x128.size a
  inb_S256x128_S1x16_94_32 : ∀ a, (![94, 32] : Fin 2 → Nat) a + S1x16.size a ≤ S256x128.size a
  inb_S256x128_S1x16_95_32 : ∀ a, (![95, 32] : Fin 2 → Nat) a + S1x16.size a ≤ S256x128.size a
  inb_S256x128_S1x16_64_48 : ∀ a, (![64, 48] : Fin 2 → Nat) a + S1x16.size a ≤ S256x128.size a
  inb_S256x128_S1x16_65_48 : ∀ a, (![65, 48] : Fin 2 → Nat) a + S1x16.size a ≤ S256x128.size a
  inb_S256x128_S1x16_66_48 : ∀ a, (![66, 48] : Fin 2 → Nat) a + S1x16.size a ≤ S256x128.size a
  inb_S256x128_S1x16_67_48 : ∀ a, (![67, 48] : Fin 2 → Nat) a + S1x16.size a ≤ S256x128.size a
  inb_S256x128_S1x16_68_48 : ∀ a, (![68, 48] : Fin 2 → Nat) a + S1x16.size a ≤ S256x128.size a
  inb_S256x128_S1x16_69_48 : ∀ a, (![69, 48] : Fin 2 → Nat) a + S1x16.size a ≤ S256x128.size a
  inb_S256x128_S1x16_70_48 : ∀ a, (![70, 48] : Fin 2 → Nat) a + S1x16.size a ≤ S256x128.size a
  inb_S256x128_S1x16_71_48 : ∀ a, (![71, 48] : Fin 2 → Nat) a + S1x16.size a ≤ S256x128.size a
  inb_S256x128_S1x16_72_48 : ∀ a, (![72, 48] : Fin 2 → Nat) a + S1x16.size a ≤ S256x128.size a
  inb_S256x128_S1x16_73_48 : ∀ a, (![73, 48] : Fin 2 → Nat) a + S1x16.size a ≤ S256x128.size a
  inb_S256x128_S1x16_74_48 : ∀ a, (![74, 48] : Fin 2 → Nat) a + S1x16.size a ≤ S256x128.size a
  inb_S256x128_S1x16_75_48 : ∀ a, (![75, 48] : Fin 2 → Nat) a + S1x16.size a ≤ S256x128.size a
  inb_S256x128_S1x16_76_48 : ∀ a, (![76, 48] : Fin 2 → Nat) a + S1x16.size a ≤ S256x128.size a
  inb_S256x128_S1x16_77_48 : ∀ a, (![77, 48] : Fin 2 → Nat) a + S1x16.size a ≤ S256x128.size a
  inb_S256x128_S1x16_78_48 : ∀ a, (![78, 48] : Fin 2 → Nat) a + S1x16.size a ≤ S256x128.size a
  inb_S256x128_S1x16_79_48 : ∀ a, (![79, 48] : Fin 2 → Nat) a + S1x16.size a ≤ S256x128.size a
  inb_S256x128_S1x16_80_48 : ∀ a, (![80, 48] : Fin 2 → Nat) a + S1x16.size a ≤ S256x128.size a
  inb_S256x128_S1x16_81_48 : ∀ a, (![81, 48] : Fin 2 → Nat) a + S1x16.size a ≤ S256x128.size a
  inb_S256x128_S1x16_82_48 : ∀ a, (![82, 48] : Fin 2 → Nat) a + S1x16.size a ≤ S256x128.size a
  inb_S256x128_S1x16_83_48 : ∀ a, (![83, 48] : Fin 2 → Nat) a + S1x16.size a ≤ S256x128.size a
  inb_S256x128_S1x16_84_48 : ∀ a, (![84, 48] : Fin 2 → Nat) a + S1x16.size a ≤ S256x128.size a
  inb_S256x128_S1x16_85_48 : ∀ a, (![85, 48] : Fin 2 → Nat) a + S1x16.size a ≤ S256x128.size a
  inb_S256x128_S1x16_86_48 : ∀ a, (![86, 48] : Fin 2 → Nat) a + S1x16.size a ≤ S256x128.size a
  inb_S256x128_S1x16_87_48 : ∀ a, (![87, 48] : Fin 2 → Nat) a + S1x16.size a ≤ S256x128.size a
  inb_S256x128_S1x16_88_48 : ∀ a, (![88, 48] : Fin 2 → Nat) a + S1x16.size a ≤ S256x128.size a
  inb_S256x128_S1x16_89_48 : ∀ a, (![89, 48] : Fin 2 → Nat) a + S1x16.size a ≤ S256x128.size a
  inb_S256x128_S1x16_90_48 : ∀ a, (![90, 48] : Fin 2 → Nat) a + S1x16.size a ≤ S256x128.size a
  inb_S256x128_S1x16_91_48 : ∀ a, (![91, 48] : Fin 2 → Nat) a + S1x16.size a ≤ S256x128.size a
  inb_S256x128_S1x16_92_48 : ∀ a, (![92, 48] : Fin 2 → Nat) a + S1x16.size a ≤ S256x128.size a
  inb_S256x128_S1x16_93_48 : ∀ a, (![93, 48] : Fin 2 → Nat) a + S1x16.size a ≤ S256x128.size a
  inb_S256x128_S1x16_94_48 : ∀ a, (![94, 48] : Fin 2 → Nat) a + S1x16.size a ≤ S256x128.size a
  inb_S256x128_S1x16_95_48 : ∀ a, (![95, 48] : Fin 2 → Nat) a + S1x16.size a ≤ S256x128.size a
  inb_S256x128_S1x16_64_64 : ∀ a, (![64, 64] : Fin 2 → Nat) a + S1x16.size a ≤ S256x128.size a
  inb_S256x128_S1x16_65_64 : ∀ a, (![65, 64] : Fin 2 → Nat) a + S1x16.size a ≤ S256x128.size a
  inb_S256x128_S1x16_66_64 : ∀ a, (![66, 64] : Fin 2 → Nat) a + S1x16.size a ≤ S256x128.size a
  inb_S256x128_S1x16_67_64 : ∀ a, (![67, 64] : Fin 2 → Nat) a + S1x16.size a ≤ S256x128.size a
  inb_S256x128_S1x16_68_64 : ∀ a, (![68, 64] : Fin 2 → Nat) a + S1x16.size a ≤ S256x128.size a
  inb_S256x128_S1x16_69_64 : ∀ a, (![69, 64] : Fin 2 → Nat) a + S1x16.size a ≤ S256x128.size a
  inb_S256x128_S1x16_70_64 : ∀ a, (![70, 64] : Fin 2 → Nat) a + S1x16.size a ≤ S256x128.size a
  inb_S256x128_S1x16_71_64 : ∀ a, (![71, 64] : Fin 2 → Nat) a + S1x16.size a ≤ S256x128.size a
  inb_S256x128_S1x16_72_64 : ∀ a, (![72, 64] : Fin 2 → Nat) a + S1x16.size a ≤ S256x128.size a
  inb_S256x128_S1x16_73_64 : ∀ a, (![73, 64] : Fin 2 → Nat) a + S1x16.size a ≤ S256x128.size a
  inb_S256x128_S1x16_74_64 : ∀ a, (![74, 64] : Fin 2 → Nat) a + S1x16.size a ≤ S256x128.size a
  inb_S256x128_S1x16_75_64 : ∀ a, (![75, 64] : Fin 2 → Nat) a + S1x16.size a ≤ S256x128.size a
  inb_S256x128_S1x16_76_64 : ∀ a, (![76, 64] : Fin 2 → Nat) a + S1x16.size a ≤ S256x128.size a
  inb_S256x128_S1x16_77_64 : ∀ a, (![77, 64] : Fin 2 → Nat) a + S1x16.size a ≤ S256x128.size a
  inb_S256x128_S1x16_78_64 : ∀ a, (![78, 64] : Fin 2 → Nat) a + S1x16.size a ≤ S256x128.size a
  inb_S256x128_S1x16_79_64 : ∀ a, (![79, 64] : Fin 2 → Nat) a + S1x16.size a ≤ S256x128.size a
  inb_S256x128_S1x16_80_64 : ∀ a, (![80, 64] : Fin 2 → Nat) a + S1x16.size a ≤ S256x128.size a
  inb_S256x128_S1x16_81_64 : ∀ a, (![81, 64] : Fin 2 → Nat) a + S1x16.size a ≤ S256x128.size a
  inb_S256x128_S1x16_82_64 : ∀ a, (![82, 64] : Fin 2 → Nat) a + S1x16.size a ≤ S256x128.size a
  inb_S256x128_S1x16_83_64 : ∀ a, (![83, 64] : Fin 2 → Nat) a + S1x16.size a ≤ S256x128.size a
  inb_S256x128_S1x16_84_64 : ∀ a, (![84, 64] : Fin 2 → Nat) a + S1x16.size a ≤ S256x128.size a
  inb_S256x128_S1x16_85_64 : ∀ a, (![85, 64] : Fin 2 → Nat) a + S1x16.size a ≤ S256x128.size a
  inb_S256x128_S1x16_86_64 : ∀ a, (![86, 64] : Fin 2 → Nat) a + S1x16.size a ≤ S256x128.size a
  inb_S256x128_S1x16_87_64 : ∀ a, (![87, 64] : Fin 2 → Nat) a + S1x16.size a ≤ S256x128.size a
  inb_S256x128_S1x16_88_64 : ∀ a, (![88, 64] : Fin 2 → Nat) a + S1x16.size a ≤ S256x128.size a
  inb_S256x128_S1x16_89_64 : ∀ a, (![89, 64] : Fin 2 → Nat) a + S1x16.size a ≤ S256x128.size a
  inb_S256x128_S1x16_90_64 : ∀ a, (![90, 64] : Fin 2 → Nat) a + S1x16.size a ≤ S256x128.size a
  inb_S256x128_S1x16_91_64 : ∀ a, (![91, 64] : Fin 2 → Nat) a + S1x16.size a ≤ S256x128.size a
  inb_S256x128_S1x16_92_64 : ∀ a, (![92, 64] : Fin 2 → Nat) a + S1x16.size a ≤ S256x128.size a
  inb_S256x128_S1x16_93_64 : ∀ a, (![93, 64] : Fin 2 → Nat) a + S1x16.size a ≤ S256x128.size a
  inb_S256x128_S1x16_94_64 : ∀ a, (![94, 64] : Fin 2 → Nat) a + S1x16.size a ≤ S256x128.size a
  inb_S256x128_S1x16_95_64 : ∀ a, (![95, 64] : Fin 2 → Nat) a + S1x16.size a ≤ S256x128.size a
  inb_S256x128_S1x16_64_80 : ∀ a, (![64, 80] : Fin 2 → Nat) a + S1x16.size a ≤ S256x128.size a
  inb_S256x128_S1x16_65_80 : ∀ a, (![65, 80] : Fin 2 → Nat) a + S1x16.size a ≤ S256x128.size a
  inb_S256x128_S1x16_66_80 : ∀ a, (![66, 80] : Fin 2 → Nat) a + S1x16.size a ≤ S256x128.size a
  inb_S256x128_S1x16_67_80 : ∀ a, (![67, 80] : Fin 2 → Nat) a + S1x16.size a ≤ S256x128.size a
  inb_S256x128_S1x16_68_80 : ∀ a, (![68, 80] : Fin 2 → Nat) a + S1x16.size a ≤ S256x128.size a
  inb_S256x128_S1x16_69_80 : ∀ a, (![69, 80] : Fin 2 → Nat) a + S1x16.size a ≤ S256x128.size a
  inb_S256x128_S1x16_70_80 : ∀ a, (![70, 80] : Fin 2 → Nat) a + S1x16.size a ≤ S256x128.size a
  inb_S256x128_S1x16_71_80 : ∀ a, (![71, 80] : Fin 2 → Nat) a + S1x16.size a ≤ S256x128.size a
  inb_S256x128_S1x16_72_80 : ∀ a, (![72, 80] : Fin 2 → Nat) a + S1x16.size a ≤ S256x128.size a
  inb_S256x128_S1x16_73_80 : ∀ a, (![73, 80] : Fin 2 → Nat) a + S1x16.size a ≤ S256x128.size a
  inb_S256x128_S1x16_74_80 : ∀ a, (![74, 80] : Fin 2 → Nat) a + S1x16.size a ≤ S256x128.size a
  inb_S256x128_S1x16_75_80 : ∀ a, (![75, 80] : Fin 2 → Nat) a + S1x16.size a ≤ S256x128.size a
  inb_S256x128_S1x16_76_80 : ∀ a, (![76, 80] : Fin 2 → Nat) a + S1x16.size a ≤ S256x128.size a
  inb_S256x128_S1x16_77_80 : ∀ a, (![77, 80] : Fin 2 → Nat) a + S1x16.size a ≤ S256x128.size a
  inb_S256x128_S1x16_78_80 : ∀ a, (![78, 80] : Fin 2 → Nat) a + S1x16.size a ≤ S256x128.size a
  inb_S256x128_S1x16_79_80 : ∀ a, (![79, 80] : Fin 2 → Nat) a + S1x16.size a ≤ S256x128.size a
  inb_S256x128_S1x16_80_80 : ∀ a, (![80, 80] : Fin 2 → Nat) a + S1x16.size a ≤ S256x128.size a
  inb_S256x128_S1x16_81_80 : ∀ a, (![81, 80] : Fin 2 → Nat) a + S1x16.size a ≤ S256x128.size a
  inb_S256x128_S1x16_82_80 : ∀ a, (![82, 80] : Fin 2 → Nat) a + S1x16.size a ≤ S256x128.size a
  inb_S256x128_S1x16_83_80 : ∀ a, (![83, 80] : Fin 2 → Nat) a + S1x16.size a ≤ S256x128.size a
  inb_S256x128_S1x16_84_80 : ∀ a, (![84, 80] : Fin 2 → Nat) a + S1x16.size a ≤ S256x128.size a
  inb_S256x128_S1x16_85_80 : ∀ a, (![85, 80] : Fin 2 → Nat) a + S1x16.size a ≤ S256x128.size a
  inb_S256x128_S1x16_86_80 : ∀ a, (![86, 80] : Fin 2 → Nat) a + S1x16.size a ≤ S256x128.size a
  inb_S256x128_S1x16_87_80 : ∀ a, (![87, 80] : Fin 2 → Nat) a + S1x16.size a ≤ S256x128.size a
  inb_S256x128_S1x16_88_80 : ∀ a, (![88, 80] : Fin 2 → Nat) a + S1x16.size a ≤ S256x128.size a
  inb_S256x128_S1x16_89_80 : ∀ a, (![89, 80] : Fin 2 → Nat) a + S1x16.size a ≤ S256x128.size a
  inb_S256x128_S1x16_90_80 : ∀ a, (![90, 80] : Fin 2 → Nat) a + S1x16.size a ≤ S256x128.size a
  inb_S256x128_S1x16_91_80 : ∀ a, (![91, 80] : Fin 2 → Nat) a + S1x16.size a ≤ S256x128.size a
  inb_S256x128_S1x16_92_80 : ∀ a, (![92, 80] : Fin 2 → Nat) a + S1x16.size a ≤ S256x128.size a
  inb_S256x128_S1x16_93_80 : ∀ a, (![93, 80] : Fin 2 → Nat) a + S1x16.size a ≤ S256x128.size a
  inb_S256x128_S1x16_94_80 : ∀ a, (![94, 80] : Fin 2 → Nat) a + S1x16.size a ≤ S256x128.size a
  inb_S256x128_S1x16_95_80 : ∀ a, (![95, 80] : Fin 2 → Nat) a + S1x16.size a ≤ S256x128.size a
  inb_S256x128_S1x16_64_96 : ∀ a, (![64, 96] : Fin 2 → Nat) a + S1x16.size a ≤ S256x128.size a
  inb_S256x128_S1x16_65_96 : ∀ a, (![65, 96] : Fin 2 → Nat) a + S1x16.size a ≤ S256x128.size a
  inb_S256x128_S1x16_66_96 : ∀ a, (![66, 96] : Fin 2 → Nat) a + S1x16.size a ≤ S256x128.size a
  inb_S256x128_S1x16_67_96 : ∀ a, (![67, 96] : Fin 2 → Nat) a + S1x16.size a ≤ S256x128.size a
  inb_S256x128_S1x16_68_96 : ∀ a, (![68, 96] : Fin 2 → Nat) a + S1x16.size a ≤ S256x128.size a
  inb_S256x128_S1x16_69_96 : ∀ a, (![69, 96] : Fin 2 → Nat) a + S1x16.size a ≤ S256x128.size a
  inb_S256x128_S1x16_70_96 : ∀ a, (![70, 96] : Fin 2 → Nat) a + S1x16.size a ≤ S256x128.size a
  inb_S256x128_S1x16_71_96 : ∀ a, (![71, 96] : Fin 2 → Nat) a + S1x16.size a ≤ S256x128.size a
  inb_S256x128_S1x16_72_96 : ∀ a, (![72, 96] : Fin 2 → Nat) a + S1x16.size a ≤ S256x128.size a
  inb_S256x128_S1x16_73_96 : ∀ a, (![73, 96] : Fin 2 → Nat) a + S1x16.size a ≤ S256x128.size a
  inb_S256x128_S1x16_74_96 : ∀ a, (![74, 96] : Fin 2 → Nat) a + S1x16.size a ≤ S256x128.size a
  inb_S256x128_S1x16_75_96 : ∀ a, (![75, 96] : Fin 2 → Nat) a + S1x16.size a ≤ S256x128.size a
  inb_S256x128_S1x16_76_96 : ∀ a, (![76, 96] : Fin 2 → Nat) a + S1x16.size a ≤ S256x128.size a
  inb_S256x128_S1x16_77_96 : ∀ a, (![77, 96] : Fin 2 → Nat) a + S1x16.size a ≤ S256x128.size a
  inb_S256x128_S1x16_78_96 : ∀ a, (![78, 96] : Fin 2 → Nat) a + S1x16.size a ≤ S256x128.size a
  inb_S256x128_S1x16_79_96 : ∀ a, (![79, 96] : Fin 2 → Nat) a + S1x16.size a ≤ S256x128.size a
  inb_S256x128_S1x16_80_96 : ∀ a, (![80, 96] : Fin 2 → Nat) a + S1x16.size a ≤ S256x128.size a
  inb_S256x128_S1x16_81_96 : ∀ a, (![81, 96] : Fin 2 → Nat) a + S1x16.size a ≤ S256x128.size a
  inb_S256x128_S1x16_82_96 : ∀ a, (![82, 96] : Fin 2 → Nat) a + S1x16.size a ≤ S256x128.size a
  inb_S256x128_S1x16_83_96 : ∀ a, (![83, 96] : Fin 2 → Nat) a + S1x16.size a ≤ S256x128.size a
  inb_S256x128_S1x16_84_96 : ∀ a, (![84, 96] : Fin 2 → Nat) a + S1x16.size a ≤ S256x128.size a
  inb_S256x128_S1x16_85_96 : ∀ a, (![85, 96] : Fin 2 → Nat) a + S1x16.size a ≤ S256x128.size a
  inb_S256x128_S1x16_86_96 : ∀ a, (![86, 96] : Fin 2 → Nat) a + S1x16.size a ≤ S256x128.size a
  inb_S256x128_S1x16_87_96 : ∀ a, (![87, 96] : Fin 2 → Nat) a + S1x16.size a ≤ S256x128.size a
  inb_S256x128_S1x16_88_96 : ∀ a, (![88, 96] : Fin 2 → Nat) a + S1x16.size a ≤ S256x128.size a
  inb_S256x128_S1x16_89_96 : ∀ a, (![89, 96] : Fin 2 → Nat) a + S1x16.size a ≤ S256x128.size a
  inb_S256x128_S1x16_90_96 : ∀ a, (![90, 96] : Fin 2 → Nat) a + S1x16.size a ≤ S256x128.size a
  inb_S256x128_S1x16_91_96 : ∀ a, (![91, 96] : Fin 2 → Nat) a + S1x16.size a ≤ S256x128.size a
  inb_S256x128_S1x16_92_96 : ∀ a, (![92, 96] : Fin 2 → Nat) a + S1x16.size a ≤ S256x128.size a
  inb_S256x128_S1x16_93_96 : ∀ a, (![93, 96] : Fin 2 → Nat) a + S1x16.size a ≤ S256x128.size a
  inb_S256x128_S1x16_94_96 : ∀ a, (![94, 96] : Fin 2 → Nat) a + S1x16.size a ≤ S256x128.size a
  inb_S256x128_S1x16_95_96 : ∀ a, (![95, 96] : Fin 2 → Nat) a + S1x16.size a ≤ S256x128.size a
  inb_S256x128_S1x16_64_112 : ∀ a, (![64, 112] : Fin 2 → Nat) a + S1x16.size a ≤ S256x128.size a
  inb_S256x128_S1x16_65_112 : ∀ a, (![65, 112] : Fin 2 → Nat) a + S1x16.size a ≤ S256x128.size a
  inb_S256x128_S1x16_66_112 : ∀ a, (![66, 112] : Fin 2 → Nat) a + S1x16.size a ≤ S256x128.size a
  inb_S256x128_S1x16_67_112 : ∀ a, (![67, 112] : Fin 2 → Nat) a + S1x16.size a ≤ S256x128.size a
  inb_S256x128_S1x16_68_112 : ∀ a, (![68, 112] : Fin 2 → Nat) a + S1x16.size a ≤ S256x128.size a
  inb_S256x128_S1x16_69_112 : ∀ a, (![69, 112] : Fin 2 → Nat) a + S1x16.size a ≤ S256x128.size a
  inb_S256x128_S1x16_70_112 : ∀ a, (![70, 112] : Fin 2 → Nat) a + S1x16.size a ≤ S256x128.size a
  inb_S256x128_S1x16_71_112 : ∀ a, (![71, 112] : Fin 2 → Nat) a + S1x16.size a ≤ S256x128.size a
  inb_S256x128_S1x16_72_112 : ∀ a, (![72, 112] : Fin 2 → Nat) a + S1x16.size a ≤ S256x128.size a
  inb_S256x128_S1x16_73_112 : ∀ a, (![73, 112] : Fin 2 → Nat) a + S1x16.size a ≤ S256x128.size a
  inb_S256x128_S1x16_74_112 : ∀ a, (![74, 112] : Fin 2 → Nat) a + S1x16.size a ≤ S256x128.size a
  inb_S256x128_S1x16_75_112 : ∀ a, (![75, 112] : Fin 2 → Nat) a + S1x16.size a ≤ S256x128.size a
  inb_S256x128_S1x16_76_112 : ∀ a, (![76, 112] : Fin 2 → Nat) a + S1x16.size a ≤ S256x128.size a
  inb_S256x128_S1x16_77_112 : ∀ a, (![77, 112] : Fin 2 → Nat) a + S1x16.size a ≤ S256x128.size a
  inb_S256x128_S1x16_78_112 : ∀ a, (![78, 112] : Fin 2 → Nat) a + S1x16.size a ≤ S256x128.size a
  inb_S256x128_S1x16_79_112 : ∀ a, (![79, 112] : Fin 2 → Nat) a + S1x16.size a ≤ S256x128.size a
  inb_S256x128_S1x16_80_112 : ∀ a, (![80, 112] : Fin 2 → Nat) a + S1x16.size a ≤ S256x128.size a
  inb_S256x128_S1x16_81_112 : ∀ a, (![81, 112] : Fin 2 → Nat) a + S1x16.size a ≤ S256x128.size a
  inb_S256x128_S1x16_82_112 : ∀ a, (![82, 112] : Fin 2 → Nat) a + S1x16.size a ≤ S256x128.size a
  inb_S256x128_S1x16_83_112 : ∀ a, (![83, 112] : Fin 2 → Nat) a + S1x16.size a ≤ S256x128.size a
  inb_S256x128_S1x16_84_112 : ∀ a, (![84, 112] : Fin 2 → Nat) a + S1x16.size a ≤ S256x128.size a
  inb_S256x128_S1x16_85_112 : ∀ a, (![85, 112] : Fin 2 → Nat) a + S1x16.size a ≤ S256x128.size a
  inb_S256x128_S1x16_86_112 : ∀ a, (![86, 112] : Fin 2 → Nat) a + S1x16.size a ≤ S256x128.size a
  inb_S256x128_S1x16_87_112 : ∀ a, (![87, 112] : Fin 2 → Nat) a + S1x16.size a ≤ S256x128.size a
  inb_S256x128_S1x16_88_112 : ∀ a, (![88, 112] : Fin 2 → Nat) a + S1x16.size a ≤ S256x128.size a
  inb_S256x128_S1x16_89_112 : ∀ a, (![89, 112] : Fin 2 → Nat) a + S1x16.size a ≤ S256x128.size a
  inb_S256x128_S1x16_90_112 : ∀ a, (![90, 112] : Fin 2 → Nat) a + S1x16.size a ≤ S256x128.size a
  inb_S256x128_S1x16_91_112 : ∀ a, (![91, 112] : Fin 2 → Nat) a + S1x16.size a ≤ S256x128.size a
  inb_S256x128_S1x16_92_112 : ∀ a, (![92, 112] : Fin 2 → Nat) a + S1x16.size a ≤ S256x128.size a
  inb_S256x128_S1x16_93_112 : ∀ a, (![93, 112] : Fin 2 → Nat) a + S1x16.size a ≤ S256x128.size a
  inb_S256x128_S1x16_94_112 : ∀ a, (![94, 112] : Fin 2 → Nat) a + S1x16.size a ≤ S256x128.size a
  inb_S256x128_S1x16_95_112 : ∀ a, (![95, 112] : Fin 2 → Nat) a + S1x16.size a ≤ S256x128.size a
  inb_S256x128_S1x16_96_0 : ∀ a, (![96, 0] : Fin 2 → Nat) a + S1x16.size a ≤ S256x128.size a
  inb_S256x128_S1x16_97_0 : ∀ a, (![97, 0] : Fin 2 → Nat) a + S1x16.size a ≤ S256x128.size a
  inb_S256x128_S1x16_98_0 : ∀ a, (![98, 0] : Fin 2 → Nat) a + S1x16.size a ≤ S256x128.size a
  inb_S256x128_S1x16_99_0 : ∀ a, (![99, 0] : Fin 2 → Nat) a + S1x16.size a ≤ S256x128.size a
  inb_S256x128_S1x16_100_0 : ∀ a, (![100, 0] : Fin 2 → Nat) a + S1x16.size a ≤ S256x128.size a
  inb_S256x128_S1x16_101_0 : ∀ a, (![101, 0] : Fin 2 → Nat) a + S1x16.size a ≤ S256x128.size a
  inb_S256x128_S1x16_102_0 : ∀ a, (![102, 0] : Fin 2 → Nat) a + S1x16.size a ≤ S256x128.size a
  inb_S256x128_S1x16_103_0 : ∀ a, (![103, 0] : Fin 2 → Nat) a + S1x16.size a ≤ S256x128.size a
  inb_S256x128_S1x16_104_0 : ∀ a, (![104, 0] : Fin 2 → Nat) a + S1x16.size a ≤ S256x128.size a
  inb_S256x128_S1x16_105_0 : ∀ a, (![105, 0] : Fin 2 → Nat) a + S1x16.size a ≤ S256x128.size a
  inb_S256x128_S1x16_106_0 : ∀ a, (![106, 0] : Fin 2 → Nat) a + S1x16.size a ≤ S256x128.size a
  inb_S256x128_S1x16_107_0 : ∀ a, (![107, 0] : Fin 2 → Nat) a + S1x16.size a ≤ S256x128.size a
  inb_S256x128_S1x16_108_0 : ∀ a, (![108, 0] : Fin 2 → Nat) a + S1x16.size a ≤ S256x128.size a
  inb_S256x128_S1x16_109_0 : ∀ a, (![109, 0] : Fin 2 → Nat) a + S1x16.size a ≤ S256x128.size a
  inb_S256x128_S1x16_110_0 : ∀ a, (![110, 0] : Fin 2 → Nat) a + S1x16.size a ≤ S256x128.size a
  inb_S256x128_S1x16_111_0 : ∀ a, (![111, 0] : Fin 2 → Nat) a + S1x16.size a ≤ S256x128.size a
  inb_S256x128_S1x16_112_0 : ∀ a, (![112, 0] : Fin 2 → Nat) a + S1x16.size a ≤ S256x128.size a
  inb_S256x128_S1x16_113_0 : ∀ a, (![113, 0] : Fin 2 → Nat) a + S1x16.size a ≤ S256x128.size a
  inb_S256x128_S1x16_114_0 : ∀ a, (![114, 0] : Fin 2 → Nat) a + S1x16.size a ≤ S256x128.size a
  inb_S256x128_S1x16_115_0 : ∀ a, (![115, 0] : Fin 2 → Nat) a + S1x16.size a ≤ S256x128.size a
  inb_S256x128_S1x16_116_0 : ∀ a, (![116, 0] : Fin 2 → Nat) a + S1x16.size a ≤ S256x128.size a
  inb_S256x128_S1x16_117_0 : ∀ a, (![117, 0] : Fin 2 → Nat) a + S1x16.size a ≤ S256x128.size a
  inb_S256x128_S1x16_118_0 : ∀ a, (![118, 0] : Fin 2 → Nat) a + S1x16.size a ≤ S256x128.size a
  inb_S256x128_S1x16_119_0 : ∀ a, (![119, 0] : Fin 2 → Nat) a + S1x16.size a ≤ S256x128.size a
  inb_S256x128_S1x16_120_0 : ∀ a, (![120, 0] : Fin 2 → Nat) a + S1x16.size a ≤ S256x128.size a
  inb_S256x128_S1x16_121_0 : ∀ a, (![121, 0] : Fin 2 → Nat) a + S1x16.size a ≤ S256x128.size a
  inb_S256x128_S1x16_122_0 : ∀ a, (![122, 0] : Fin 2 → Nat) a + S1x16.size a ≤ S256x128.size a
  inb_S256x128_S1x16_123_0 : ∀ a, (![123, 0] : Fin 2 → Nat) a + S1x16.size a ≤ S256x128.size a
  inb_S256x128_S1x16_124_0 : ∀ a, (![124, 0] : Fin 2 → Nat) a + S1x16.size a ≤ S256x128.size a
  inb_S256x128_S1x16_125_0 : ∀ a, (![125, 0] : Fin 2 → Nat) a + S1x16.size a ≤ S256x128.size a
  inb_S256x128_S1x16_126_0 : ∀ a, (![126, 0] : Fin 2 → Nat) a + S1x16.size a ≤ S256x128.size a
  inb_S256x128_S1x16_127_0 : ∀ a, (![127, 0] : Fin 2 → Nat) a + S1x16.size a ≤ S256x128.size a
  inb_S256x128_S1x16_96_16 : ∀ a, (![96, 16] : Fin 2 → Nat) a + S1x16.size a ≤ S256x128.size a
  inb_S256x128_S1x16_97_16 : ∀ a, (![97, 16] : Fin 2 → Nat) a + S1x16.size a ≤ S256x128.size a
  inb_S256x128_S1x16_98_16 : ∀ a, (![98, 16] : Fin 2 → Nat) a + S1x16.size a ≤ S256x128.size a
  inb_S256x128_S1x16_99_16 : ∀ a, (![99, 16] : Fin 2 → Nat) a + S1x16.size a ≤ S256x128.size a
  inb_S256x128_S1x16_100_16 : ∀ a, (![100, 16] : Fin 2 → Nat) a + S1x16.size a ≤ S256x128.size a
  inb_S256x128_S1x16_101_16 : ∀ a, (![101, 16] : Fin 2 → Nat) a + S1x16.size a ≤ S256x128.size a
  inb_S256x128_S1x16_102_16 : ∀ a, (![102, 16] : Fin 2 → Nat) a + S1x16.size a ≤ S256x128.size a
  inb_S256x128_S1x16_103_16 : ∀ a, (![103, 16] : Fin 2 → Nat) a + S1x16.size a ≤ S256x128.size a
  inb_S256x128_S1x16_104_16 : ∀ a, (![104, 16] : Fin 2 → Nat) a + S1x16.size a ≤ S256x128.size a
  inb_S256x128_S1x16_105_16 : ∀ a, (![105, 16] : Fin 2 → Nat) a + S1x16.size a ≤ S256x128.size a
  inb_S256x128_S1x16_106_16 : ∀ a, (![106, 16] : Fin 2 → Nat) a + S1x16.size a ≤ S256x128.size a
  inb_S256x128_S1x16_107_16 : ∀ a, (![107, 16] : Fin 2 → Nat) a + S1x16.size a ≤ S256x128.size a
  inb_S256x128_S1x16_108_16 : ∀ a, (![108, 16] : Fin 2 → Nat) a + S1x16.size a ≤ S256x128.size a
  inb_S256x128_S1x16_109_16 : ∀ a, (![109, 16] : Fin 2 → Nat) a + S1x16.size a ≤ S256x128.size a
  inb_S256x128_S1x16_110_16 : ∀ a, (![110, 16] : Fin 2 → Nat) a + S1x16.size a ≤ S256x128.size a
  inb_S256x128_S1x16_111_16 : ∀ a, (![111, 16] : Fin 2 → Nat) a + S1x16.size a ≤ S256x128.size a
  inb_S256x128_S1x16_112_16 : ∀ a, (![112, 16] : Fin 2 → Nat) a + S1x16.size a ≤ S256x128.size a
  inb_S256x128_S1x16_113_16 : ∀ a, (![113, 16] : Fin 2 → Nat) a + S1x16.size a ≤ S256x128.size a
  inb_S256x128_S1x16_114_16 : ∀ a, (![114, 16] : Fin 2 → Nat) a + S1x16.size a ≤ S256x128.size a
  inb_S256x128_S1x16_115_16 : ∀ a, (![115, 16] : Fin 2 → Nat) a + S1x16.size a ≤ S256x128.size a
  inb_S256x128_S1x16_116_16 : ∀ a, (![116, 16] : Fin 2 → Nat) a + S1x16.size a ≤ S256x128.size a
  inb_S256x128_S1x16_117_16 : ∀ a, (![117, 16] : Fin 2 → Nat) a + S1x16.size a ≤ S256x128.size a
  inb_S256x128_S1x16_118_16 : ∀ a, (![118, 16] : Fin 2 → Nat) a + S1x16.size a ≤ S256x128.size a
  inb_S256x128_S1x16_119_16 : ∀ a, (![119, 16] : Fin 2 → Nat) a + S1x16.size a ≤ S256x128.size a
  inb_S256x128_S1x16_120_16 : ∀ a, (![120, 16] : Fin 2 → Nat) a + S1x16.size a ≤ S256x128.size a
  inb_S256x128_S1x16_121_16 : ∀ a, (![121, 16] : Fin 2 → Nat) a + S1x16.size a ≤ S256x128.size a
  inb_S256x128_S1x16_122_16 : ∀ a, (![122, 16] : Fin 2 → Nat) a + S1x16.size a ≤ S256x128.size a
  inb_S256x128_S1x16_123_16 : ∀ a, (![123, 16] : Fin 2 → Nat) a + S1x16.size a ≤ S256x128.size a
  inb_S256x128_S1x16_124_16 : ∀ a, (![124, 16] : Fin 2 → Nat) a + S1x16.size a ≤ S256x128.size a
  inb_S256x128_S1x16_125_16 : ∀ a, (![125, 16] : Fin 2 → Nat) a + S1x16.size a ≤ S256x128.size a
  inb_S256x128_S1x16_126_16 : ∀ a, (![126, 16] : Fin 2 → Nat) a + S1x16.size a ≤ S256x128.size a
  inb_S256x128_S1x16_127_16 : ∀ a, (![127, 16] : Fin 2 → Nat) a + S1x16.size a ≤ S256x128.size a
  inb_S256x128_S1x16_96_32 : ∀ a, (![96, 32] : Fin 2 → Nat) a + S1x16.size a ≤ S256x128.size a
  inb_S256x128_S1x16_97_32 : ∀ a, (![97, 32] : Fin 2 → Nat) a + S1x16.size a ≤ S256x128.size a
  inb_S256x128_S1x16_98_32 : ∀ a, (![98, 32] : Fin 2 → Nat) a + S1x16.size a ≤ S256x128.size a
  inb_S256x128_S1x16_99_32 : ∀ a, (![99, 32] : Fin 2 → Nat) a + S1x16.size a ≤ S256x128.size a
  inb_S256x128_S1x16_100_32 : ∀ a, (![100, 32] : Fin 2 → Nat) a + S1x16.size a ≤ S256x128.size a
  inb_S256x128_S1x16_101_32 : ∀ a, (![101, 32] : Fin 2 → Nat) a + S1x16.size a ≤ S256x128.size a
  inb_S256x128_S1x16_102_32 : ∀ a, (![102, 32] : Fin 2 → Nat) a + S1x16.size a ≤ S256x128.size a
  inb_S256x128_S1x16_103_32 : ∀ a, (![103, 32] : Fin 2 → Nat) a + S1x16.size a ≤ S256x128.size a
  inb_S256x128_S1x16_104_32 : ∀ a, (![104, 32] : Fin 2 → Nat) a + S1x16.size a ≤ S256x128.size a
  inb_S256x128_S1x16_105_32 : ∀ a, (![105, 32] : Fin 2 → Nat) a + S1x16.size a ≤ S256x128.size a
  inb_S256x128_S1x16_106_32 : ∀ a, (![106, 32] : Fin 2 → Nat) a + S1x16.size a ≤ S256x128.size a
  inb_S256x128_S1x16_107_32 : ∀ a, (![107, 32] : Fin 2 → Nat) a + S1x16.size a ≤ S256x128.size a
  inb_S256x128_S1x16_108_32 : ∀ a, (![108, 32] : Fin 2 → Nat) a + S1x16.size a ≤ S256x128.size a
  inb_S256x128_S1x16_109_32 : ∀ a, (![109, 32] : Fin 2 → Nat) a + S1x16.size a ≤ S256x128.size a
  inb_S256x128_S1x16_110_32 : ∀ a, (![110, 32] : Fin 2 → Nat) a + S1x16.size a ≤ S256x128.size a
  inb_S256x128_S1x16_111_32 : ∀ a, (![111, 32] : Fin 2 → Nat) a + S1x16.size a ≤ S256x128.size a
  inb_S256x128_S1x16_112_32 : ∀ a, (![112, 32] : Fin 2 → Nat) a + S1x16.size a ≤ S256x128.size a
  inb_S256x128_S1x16_113_32 : ∀ a, (![113, 32] : Fin 2 → Nat) a + S1x16.size a ≤ S256x128.size a
  inb_S256x128_S1x16_114_32 : ∀ a, (![114, 32] : Fin 2 → Nat) a + S1x16.size a ≤ S256x128.size a
  inb_S256x128_S1x16_115_32 : ∀ a, (![115, 32] : Fin 2 → Nat) a + S1x16.size a ≤ S256x128.size a
  inb_S256x128_S1x16_116_32 : ∀ a, (![116, 32] : Fin 2 → Nat) a + S1x16.size a ≤ S256x128.size a
  inb_S256x128_S1x16_117_32 : ∀ a, (![117, 32] : Fin 2 → Nat) a + S1x16.size a ≤ S256x128.size a
  inb_S256x128_S1x16_118_32 : ∀ a, (![118, 32] : Fin 2 → Nat) a + S1x16.size a ≤ S256x128.size a
  inb_S256x128_S1x16_119_32 : ∀ a, (![119, 32] : Fin 2 → Nat) a + S1x16.size a ≤ S256x128.size a
  inb_S256x128_S1x16_120_32 : ∀ a, (![120, 32] : Fin 2 → Nat) a + S1x16.size a ≤ S256x128.size a
  inb_S256x128_S1x16_121_32 : ∀ a, (![121, 32] : Fin 2 → Nat) a + S1x16.size a ≤ S256x128.size a
  inb_S256x128_S1x16_122_32 : ∀ a, (![122, 32] : Fin 2 → Nat) a + S1x16.size a ≤ S256x128.size a
  inb_S256x128_S1x16_123_32 : ∀ a, (![123, 32] : Fin 2 → Nat) a + S1x16.size a ≤ S256x128.size a
  inb_S256x128_S1x16_124_32 : ∀ a, (![124, 32] : Fin 2 → Nat) a + S1x16.size a ≤ S256x128.size a
  inb_S256x128_S1x16_125_32 : ∀ a, (![125, 32] : Fin 2 → Nat) a + S1x16.size a ≤ S256x128.size a
  inb_S256x128_S1x16_126_32 : ∀ a, (![126, 32] : Fin 2 → Nat) a + S1x16.size a ≤ S256x128.size a
  inb_S256x128_S1x16_127_32 : ∀ a, (![127, 32] : Fin 2 → Nat) a + S1x16.size a ≤ S256x128.size a
  inb_S256x128_S1x16_96_48 : ∀ a, (![96, 48] : Fin 2 → Nat) a + S1x16.size a ≤ S256x128.size a
  inb_S256x128_S1x16_97_48 : ∀ a, (![97, 48] : Fin 2 → Nat) a + S1x16.size a ≤ S256x128.size a
  inb_S256x128_S1x16_98_48 : ∀ a, (![98, 48] : Fin 2 → Nat) a + S1x16.size a ≤ S256x128.size a
  inb_S256x128_S1x16_99_48 : ∀ a, (![99, 48] : Fin 2 → Nat) a + S1x16.size a ≤ S256x128.size a
  inb_S256x128_S1x16_100_48 : ∀ a, (![100, 48] : Fin 2 → Nat) a + S1x16.size a ≤ S256x128.size a
  inb_S256x128_S1x16_101_48 : ∀ a, (![101, 48] : Fin 2 → Nat) a + S1x16.size a ≤ S256x128.size a
  inb_S256x128_S1x16_102_48 : ∀ a, (![102, 48] : Fin 2 → Nat) a + S1x16.size a ≤ S256x128.size a
  inb_S256x128_S1x16_103_48 : ∀ a, (![103, 48] : Fin 2 → Nat) a + S1x16.size a ≤ S256x128.size a
  inb_S256x128_S1x16_104_48 : ∀ a, (![104, 48] : Fin 2 → Nat) a + S1x16.size a ≤ S256x128.size a
  inb_S256x128_S1x16_105_48 : ∀ a, (![105, 48] : Fin 2 → Nat) a + S1x16.size a ≤ S256x128.size a
  inb_S256x128_S1x16_106_48 : ∀ a, (![106, 48] : Fin 2 → Nat) a + S1x16.size a ≤ S256x128.size a
  inb_S256x128_S1x16_107_48 : ∀ a, (![107, 48] : Fin 2 → Nat) a + S1x16.size a ≤ S256x128.size a
  inb_S256x128_S1x16_108_48 : ∀ a, (![108, 48] : Fin 2 → Nat) a + S1x16.size a ≤ S256x128.size a
  inb_S256x128_S1x16_109_48 : ∀ a, (![109, 48] : Fin 2 → Nat) a + S1x16.size a ≤ S256x128.size a
  inb_S256x128_S1x16_110_48 : ∀ a, (![110, 48] : Fin 2 → Nat) a + S1x16.size a ≤ S256x128.size a
  inb_S256x128_S1x16_111_48 : ∀ a, (![111, 48] : Fin 2 → Nat) a + S1x16.size a ≤ S256x128.size a
  inb_S256x128_S1x16_112_48 : ∀ a, (![112, 48] : Fin 2 → Nat) a + S1x16.size a ≤ S256x128.size a
  inb_S256x128_S1x16_113_48 : ∀ a, (![113, 48] : Fin 2 → Nat) a + S1x16.size a ≤ S256x128.size a
  inb_S256x128_S1x16_114_48 : ∀ a, (![114, 48] : Fin 2 → Nat) a + S1x16.size a ≤ S256x128.size a
  inb_S256x128_S1x16_115_48 : ∀ a, (![115, 48] : Fin 2 → Nat) a + S1x16.size a ≤ S256x128.size a
  inb_S256x128_S1x16_116_48 : ∀ a, (![116, 48] : Fin 2 → Nat) a + S1x16.size a ≤ S256x128.size a
  inb_S256x128_S1x16_117_48 : ∀ a, (![117, 48] : Fin 2 → Nat) a + S1x16.size a ≤ S256x128.size a
  inb_S256x128_S1x16_118_48 : ∀ a, (![118, 48] : Fin 2 → Nat) a + S1x16.size a ≤ S256x128.size a
  inb_S256x128_S1x16_119_48 : ∀ a, (![119, 48] : Fin 2 → Nat) a + S1x16.size a ≤ S256x128.size a
  inb_S256x128_S1x16_120_48 : ∀ a, (![120, 48] : Fin 2 → Nat) a + S1x16.size a ≤ S256x128.size a
  inb_S256x128_S1x16_121_48 : ∀ a, (![121, 48] : Fin 2 → Nat) a + S1x16.size a ≤ S256x128.size a
  inb_S256x128_S1x16_122_48 : ∀ a, (![122, 48] : Fin 2 → Nat) a + S1x16.size a ≤ S256x128.size a
  inb_S256x128_S1x16_123_48 : ∀ a, (![123, 48] : Fin 2 → Nat) a + S1x16.size a ≤ S256x128.size a
  inb_S256x128_S1x16_124_48 : ∀ a, (![124, 48] : Fin 2 → Nat) a + S1x16.size a ≤ S256x128.size a
  inb_S256x128_S1x16_125_48 : ∀ a, (![125, 48] : Fin 2 → Nat) a + S1x16.size a ≤ S256x128.size a
  inb_S256x128_S1x16_126_48 : ∀ a, (![126, 48] : Fin 2 → Nat) a + S1x16.size a ≤ S256x128.size a
  inb_S256x128_S1x16_127_48 : ∀ a, (![127, 48] : Fin 2 → Nat) a + S1x16.size a ≤ S256x128.size a
  inb_S256x128_S1x16_96_64 : ∀ a, (![96, 64] : Fin 2 → Nat) a + S1x16.size a ≤ S256x128.size a
  inb_S256x128_S1x16_97_64 : ∀ a, (![97, 64] : Fin 2 → Nat) a + S1x16.size a ≤ S256x128.size a
  inb_S256x128_S1x16_98_64 : ∀ a, (![98, 64] : Fin 2 → Nat) a + S1x16.size a ≤ S256x128.size a
  inb_S256x128_S1x16_99_64 : ∀ a, (![99, 64] : Fin 2 → Nat) a + S1x16.size a ≤ S256x128.size a
  inb_S256x128_S1x16_100_64 : ∀ a, (![100, 64] : Fin 2 → Nat) a + S1x16.size a ≤ S256x128.size a
  inb_S256x128_S1x16_101_64 : ∀ a, (![101, 64] : Fin 2 → Nat) a + S1x16.size a ≤ S256x128.size a
  inb_S256x128_S1x16_102_64 : ∀ a, (![102, 64] : Fin 2 → Nat) a + S1x16.size a ≤ S256x128.size a
  inb_S256x128_S1x16_103_64 : ∀ a, (![103, 64] : Fin 2 → Nat) a + S1x16.size a ≤ S256x128.size a
  inb_S256x128_S1x16_104_64 : ∀ a, (![104, 64] : Fin 2 → Nat) a + S1x16.size a ≤ S256x128.size a
  inb_S256x128_S1x16_105_64 : ∀ a, (![105, 64] : Fin 2 → Nat) a + S1x16.size a ≤ S256x128.size a
  inb_S256x128_S1x16_106_64 : ∀ a, (![106, 64] : Fin 2 → Nat) a + S1x16.size a ≤ S256x128.size a
  inb_S256x128_S1x16_107_64 : ∀ a, (![107, 64] : Fin 2 → Nat) a + S1x16.size a ≤ S256x128.size a
  inb_S256x128_S1x16_108_64 : ∀ a, (![108, 64] : Fin 2 → Nat) a + S1x16.size a ≤ S256x128.size a
  inb_S256x128_S1x16_109_64 : ∀ a, (![109, 64] : Fin 2 → Nat) a + S1x16.size a ≤ S256x128.size a
  inb_S256x128_S1x16_110_64 : ∀ a, (![110, 64] : Fin 2 → Nat) a + S1x16.size a ≤ S256x128.size a
  inb_S256x128_S1x16_111_64 : ∀ a, (![111, 64] : Fin 2 → Nat) a + S1x16.size a ≤ S256x128.size a
  inb_S256x128_S1x16_112_64 : ∀ a, (![112, 64] : Fin 2 → Nat) a + S1x16.size a ≤ S256x128.size a
  inb_S256x128_S1x16_113_64 : ∀ a, (![113, 64] : Fin 2 → Nat) a + S1x16.size a ≤ S256x128.size a
  inb_S256x128_S1x16_114_64 : ∀ a, (![114, 64] : Fin 2 → Nat) a + S1x16.size a ≤ S256x128.size a
  inb_S256x128_S1x16_115_64 : ∀ a, (![115, 64] : Fin 2 → Nat) a + S1x16.size a ≤ S256x128.size a
  inb_S256x128_S1x16_116_64 : ∀ a, (![116, 64] : Fin 2 → Nat) a + S1x16.size a ≤ S256x128.size a
  inb_S256x128_S1x16_117_64 : ∀ a, (![117, 64] : Fin 2 → Nat) a + S1x16.size a ≤ S256x128.size a
  inb_S256x128_S1x16_118_64 : ∀ a, (![118, 64] : Fin 2 → Nat) a + S1x16.size a ≤ S256x128.size a
  inb_S256x128_S1x16_119_64 : ∀ a, (![119, 64] : Fin 2 → Nat) a + S1x16.size a ≤ S256x128.size a
  inb_S256x128_S1x16_120_64 : ∀ a, (![120, 64] : Fin 2 → Nat) a + S1x16.size a ≤ S256x128.size a
  inb_S256x128_S1x16_121_64 : ∀ a, (![121, 64] : Fin 2 → Nat) a + S1x16.size a ≤ S256x128.size a
  inb_S256x128_S1x16_122_64 : ∀ a, (![122, 64] : Fin 2 → Nat) a + S1x16.size a ≤ S256x128.size a
  inb_S256x128_S1x16_123_64 : ∀ a, (![123, 64] : Fin 2 → Nat) a + S1x16.size a ≤ S256x128.size a
  inb_S256x128_S1x16_124_64 : ∀ a, (![124, 64] : Fin 2 → Nat) a + S1x16.size a ≤ S256x128.size a
  inb_S256x128_S1x16_125_64 : ∀ a, (![125, 64] : Fin 2 → Nat) a + S1x16.size a ≤ S256x128.size a
  inb_S256x128_S1x16_126_64 : ∀ a, (![126, 64] : Fin 2 → Nat) a + S1x16.size a ≤ S256x128.size a
  inb_S256x128_S1x16_127_64 : ∀ a, (![127, 64] : Fin 2 → Nat) a + S1x16.size a ≤ S256x128.size a
  inb_S256x128_S1x16_96_80 : ∀ a, (![96, 80] : Fin 2 → Nat) a + S1x16.size a ≤ S256x128.size a
  inb_S256x128_S1x16_97_80 : ∀ a, (![97, 80] : Fin 2 → Nat) a + S1x16.size a ≤ S256x128.size a
  inb_S256x128_S1x16_98_80 : ∀ a, (![98, 80] : Fin 2 → Nat) a + S1x16.size a ≤ S256x128.size a
  inb_S256x128_S1x16_99_80 : ∀ a, (![99, 80] : Fin 2 → Nat) a + S1x16.size a ≤ S256x128.size a
  inb_S256x128_S1x16_100_80 : ∀ a, (![100, 80] : Fin 2 → Nat) a + S1x16.size a ≤ S256x128.size a
  inb_S256x128_S1x16_101_80 : ∀ a, (![101, 80] : Fin 2 → Nat) a + S1x16.size a ≤ S256x128.size a
  inb_S256x128_S1x16_102_80 : ∀ a, (![102, 80] : Fin 2 → Nat) a + S1x16.size a ≤ S256x128.size a
  inb_S256x128_S1x16_103_80 : ∀ a, (![103, 80] : Fin 2 → Nat) a + S1x16.size a ≤ S256x128.size a
  inb_S256x128_S1x16_104_80 : ∀ a, (![104, 80] : Fin 2 → Nat) a + S1x16.size a ≤ S256x128.size a
  inb_S256x128_S1x16_105_80 : ∀ a, (![105, 80] : Fin 2 → Nat) a + S1x16.size a ≤ S256x128.size a
  inb_S256x128_S1x16_106_80 : ∀ a, (![106, 80] : Fin 2 → Nat) a + S1x16.size a ≤ S256x128.size a
  inb_S256x128_S1x16_107_80 : ∀ a, (![107, 80] : Fin 2 → Nat) a + S1x16.size a ≤ S256x128.size a
  inb_S256x128_S1x16_108_80 : ∀ a, (![108, 80] : Fin 2 → Nat) a + S1x16.size a ≤ S256x128.size a
  inb_S256x128_S1x16_109_80 : ∀ a, (![109, 80] : Fin 2 → Nat) a + S1x16.size a ≤ S256x128.size a
  inb_S256x128_S1x16_110_80 : ∀ a, (![110, 80] : Fin 2 → Nat) a + S1x16.size a ≤ S256x128.size a
  inb_S256x128_S1x16_111_80 : ∀ a, (![111, 80] : Fin 2 → Nat) a + S1x16.size a ≤ S256x128.size a
  inb_S256x128_S1x16_112_80 : ∀ a, (![112, 80] : Fin 2 → Nat) a + S1x16.size a ≤ S256x128.size a
  inb_S256x128_S1x16_113_80 : ∀ a, (![113, 80] : Fin 2 → Nat) a + S1x16.size a ≤ S256x128.size a
  inb_S256x128_S1x16_114_80 : ∀ a, (![114, 80] : Fin 2 → Nat) a + S1x16.size a ≤ S256x128.size a
  inb_S256x128_S1x16_115_80 : ∀ a, (![115, 80] : Fin 2 → Nat) a + S1x16.size a ≤ S256x128.size a
  inb_S256x128_S1x16_116_80 : ∀ a, (![116, 80] : Fin 2 → Nat) a + S1x16.size a ≤ S256x128.size a
  inb_S256x128_S1x16_117_80 : ∀ a, (![117, 80] : Fin 2 → Nat) a + S1x16.size a ≤ S256x128.size a
  inb_S256x128_S1x16_118_80 : ∀ a, (![118, 80] : Fin 2 → Nat) a + S1x16.size a ≤ S256x128.size a
  inb_S256x128_S1x16_119_80 : ∀ a, (![119, 80] : Fin 2 → Nat) a + S1x16.size a ≤ S256x128.size a
  inb_S256x128_S1x16_120_80 : ∀ a, (![120, 80] : Fin 2 → Nat) a + S1x16.size a ≤ S256x128.size a
  inb_S256x128_S1x16_121_80 : ∀ a, (![121, 80] : Fin 2 → Nat) a + S1x16.size a ≤ S256x128.size a
  inb_S256x128_S1x16_122_80 : ∀ a, (![122, 80] : Fin 2 → Nat) a + S1x16.size a ≤ S256x128.size a
  inb_S256x128_S1x16_123_80 : ∀ a, (![123, 80] : Fin 2 → Nat) a + S1x16.size a ≤ S256x128.size a
  inb_S256x128_S1x16_124_80 : ∀ a, (![124, 80] : Fin 2 → Nat) a + S1x16.size a ≤ S256x128.size a
  inb_S256x128_S1x16_125_80 : ∀ a, (![125, 80] : Fin 2 → Nat) a + S1x16.size a ≤ S256x128.size a
  inb_S256x128_S1x16_126_80 : ∀ a, (![126, 80] : Fin 2 → Nat) a + S1x16.size a ≤ S256x128.size a
  inb_S256x128_S1x16_127_80 : ∀ a, (![127, 80] : Fin 2 → Nat) a + S1x16.size a ≤ S256x128.size a
  inb_S256x128_S1x16_96_96 : ∀ a, (![96, 96] : Fin 2 → Nat) a + S1x16.size a ≤ S256x128.size a
  inb_S256x128_S1x16_97_96 : ∀ a, (![97, 96] : Fin 2 → Nat) a + S1x16.size a ≤ S256x128.size a
  inb_S256x128_S1x16_98_96 : ∀ a, (![98, 96] : Fin 2 → Nat) a + S1x16.size a ≤ S256x128.size a
  inb_S256x128_S1x16_99_96 : ∀ a, (![99, 96] : Fin 2 → Nat) a + S1x16.size a ≤ S256x128.size a
  inb_S256x128_S1x16_100_96 : ∀ a, (![100, 96] : Fin 2 → Nat) a + S1x16.size a ≤ S256x128.size a
  inb_S256x128_S1x16_101_96 : ∀ a, (![101, 96] : Fin 2 → Nat) a + S1x16.size a ≤ S256x128.size a
  inb_S256x128_S1x16_102_96 : ∀ a, (![102, 96] : Fin 2 → Nat) a + S1x16.size a ≤ S256x128.size a
  inb_S256x128_S1x16_103_96 : ∀ a, (![103, 96] : Fin 2 → Nat) a + S1x16.size a ≤ S256x128.size a
  inb_S256x128_S1x16_104_96 : ∀ a, (![104, 96] : Fin 2 → Nat) a + S1x16.size a ≤ S256x128.size a
  inb_S256x128_S1x16_105_96 : ∀ a, (![105, 96] : Fin 2 → Nat) a + S1x16.size a ≤ S256x128.size a
  inb_S256x128_S1x16_106_96 : ∀ a, (![106, 96] : Fin 2 → Nat) a + S1x16.size a ≤ S256x128.size a
  inb_S256x128_S1x16_107_96 : ∀ a, (![107, 96] : Fin 2 → Nat) a + S1x16.size a ≤ S256x128.size a
  inb_S256x128_S1x16_108_96 : ∀ a, (![108, 96] : Fin 2 → Nat) a + S1x16.size a ≤ S256x128.size a
  inb_S256x128_S1x16_109_96 : ∀ a, (![109, 96] : Fin 2 → Nat) a + S1x16.size a ≤ S256x128.size a
  inb_S256x128_S1x16_110_96 : ∀ a, (![110, 96] : Fin 2 → Nat) a + S1x16.size a ≤ S256x128.size a
  inb_S256x128_S1x16_111_96 : ∀ a, (![111, 96] : Fin 2 → Nat) a + S1x16.size a ≤ S256x128.size a
  inb_S256x128_S1x16_112_96 : ∀ a, (![112, 96] : Fin 2 → Nat) a + S1x16.size a ≤ S256x128.size a

class Shapes2.Facts₀ : Prop where
  inb_S256x128_S1x16_113_96 : ∀ a, (![113, 96] : Fin 2 → Nat) a + S1x16.size a ≤ S256x128.size a
  inb_S256x128_S1x16_114_96 : ∀ a, (![114, 96] : Fin 2 → Nat) a + S1x16.size a ≤ S256x128.size a
  inb_S256x128_S1x16_115_96 : ∀ a, (![115, 96] : Fin 2 → Nat) a + S1x16.size a ≤ S256x128.size a
  inb_S256x128_S1x16_116_96 : ∀ a, (![116, 96] : Fin 2 → Nat) a + S1x16.size a ≤ S256x128.size a
  inb_S256x128_S1x16_117_96 : ∀ a, (![117, 96] : Fin 2 → Nat) a + S1x16.size a ≤ S256x128.size a
  inb_S256x128_S1x16_118_96 : ∀ a, (![118, 96] : Fin 2 → Nat) a + S1x16.size a ≤ S256x128.size a
  inb_S256x128_S1x16_119_96 : ∀ a, (![119, 96] : Fin 2 → Nat) a + S1x16.size a ≤ S256x128.size a
  inb_S256x128_S1x16_120_96 : ∀ a, (![120, 96] : Fin 2 → Nat) a + S1x16.size a ≤ S256x128.size a
  inb_S256x128_S1x16_121_96 : ∀ a, (![121, 96] : Fin 2 → Nat) a + S1x16.size a ≤ S256x128.size a
  inb_S256x128_S1x16_122_96 : ∀ a, (![122, 96] : Fin 2 → Nat) a + S1x16.size a ≤ S256x128.size a
  inb_S256x128_S1x16_123_96 : ∀ a, (![123, 96] : Fin 2 → Nat) a + S1x16.size a ≤ S256x128.size a
  inb_S256x128_S1x16_124_96 : ∀ a, (![124, 96] : Fin 2 → Nat) a + S1x16.size a ≤ S256x128.size a
  inb_S256x128_S1x16_125_96 : ∀ a, (![125, 96] : Fin 2 → Nat) a + S1x16.size a ≤ S256x128.size a
  inb_S256x128_S1x16_126_96 : ∀ a, (![126, 96] : Fin 2 → Nat) a + S1x16.size a ≤ S256x128.size a
  inb_S256x128_S1x16_127_96 : ∀ a, (![127, 96] : Fin 2 → Nat) a + S1x16.size a ≤ S256x128.size a
  inb_S256x128_S1x16_96_112 : ∀ a, (![96, 112] : Fin 2 → Nat) a + S1x16.size a ≤ S256x128.size a
  inb_S256x128_S1x16_97_112 : ∀ a, (![97, 112] : Fin 2 → Nat) a + S1x16.size a ≤ S256x128.size a
  inb_S256x128_S1x16_98_112 : ∀ a, (![98, 112] : Fin 2 → Nat) a + S1x16.size a ≤ S256x128.size a
  inb_S256x128_S1x16_99_112 : ∀ a, (![99, 112] : Fin 2 → Nat) a + S1x16.size a ≤ S256x128.size a
  inb_S256x128_S1x16_100_112 : ∀ a, (![100, 112] : Fin 2 → Nat) a + S1x16.size a ≤ S256x128.size a
  inb_S256x128_S1x16_101_112 : ∀ a, (![101, 112] : Fin 2 → Nat) a + S1x16.size a ≤ S256x128.size a
  inb_S256x128_S1x16_102_112 : ∀ a, (![102, 112] : Fin 2 → Nat) a + S1x16.size a ≤ S256x128.size a
  inb_S256x128_S1x16_103_112 : ∀ a, (![103, 112] : Fin 2 → Nat) a + S1x16.size a ≤ S256x128.size a
  inb_S256x128_S1x16_104_112 : ∀ a, (![104, 112] : Fin 2 → Nat) a + S1x16.size a ≤ S256x128.size a
  inb_S256x128_S1x16_105_112 : ∀ a, (![105, 112] : Fin 2 → Nat) a + S1x16.size a ≤ S256x128.size a
  inb_S256x128_S1x16_106_112 : ∀ a, (![106, 112] : Fin 2 → Nat) a + S1x16.size a ≤ S256x128.size a
  inb_S256x128_S1x16_107_112 : ∀ a, (![107, 112] : Fin 2 → Nat) a + S1x16.size a ≤ S256x128.size a
  inb_S256x128_S1x16_108_112 : ∀ a, (![108, 112] : Fin 2 → Nat) a + S1x16.size a ≤ S256x128.size a
  inb_S256x128_S1x16_109_112 : ∀ a, (![109, 112] : Fin 2 → Nat) a + S1x16.size a ≤ S256x128.size a
  inb_S256x128_S1x16_110_112 : ∀ a, (![110, 112] : Fin 2 → Nat) a + S1x16.size a ≤ S256x128.size a
  inb_S256x128_S1x16_111_112 : ∀ a, (![111, 112] : Fin 2 → Nat) a + S1x16.size a ≤ S256x128.size a
  inb_S256x128_S1x16_112_112 : ∀ a, (![112, 112] : Fin 2 → Nat) a + S1x16.size a ≤ S256x128.size a
  inb_S256x128_S1x16_113_112 : ∀ a, (![113, 112] : Fin 2 → Nat) a + S1x16.size a ≤ S256x128.size a
  inb_S256x128_S1x16_114_112 : ∀ a, (![114, 112] : Fin 2 → Nat) a + S1x16.size a ≤ S256x128.size a
  inb_S256x128_S1x16_115_112 : ∀ a, (![115, 112] : Fin 2 → Nat) a + S1x16.size a ≤ S256x128.size a
  inb_S256x128_S1x16_116_112 : ∀ a, (![116, 112] : Fin 2 → Nat) a + S1x16.size a ≤ S256x128.size a
  inb_S256x128_S1x16_117_112 : ∀ a, (![117, 112] : Fin 2 → Nat) a + S1x16.size a ≤ S256x128.size a
  inb_S256x128_S1x16_118_112 : ∀ a, (![118, 112] : Fin 2 → Nat) a + S1x16.size a ≤ S256x128.size a
  inb_S256x128_S1x16_119_112 : ∀ a, (![119, 112] : Fin 2 → Nat) a + S1x16.size a ≤ S256x128.size a
  inb_S256x128_S1x16_120_112 : ∀ a, (![120, 112] : Fin 2 → Nat) a + S1x16.size a ≤ S256x128.size a
  inb_S256x128_S1x16_121_112 : ∀ a, (![121, 112] : Fin 2 → Nat) a + S1x16.size a ≤ S256x128.size a
  inb_S256x128_S1x16_122_112 : ∀ a, (![122, 112] : Fin 2 → Nat) a + S1x16.size a ≤ S256x128.size a
  inb_S256x128_S1x16_123_112 : ∀ a, (![123, 112] : Fin 2 → Nat) a + S1x16.size a ≤ S256x128.size a
  inb_S256x128_S1x16_124_112 : ∀ a, (![124, 112] : Fin 2 → Nat) a + S1x16.size a ≤ S256x128.size a
  inb_S256x128_S1x16_125_112 : ∀ a, (![125, 112] : Fin 2 → Nat) a + S1x16.size a ≤ S256x128.size a
  inb_S256x128_S1x16_126_112 : ∀ a, (![126, 112] : Fin 2 → Nat) a + S1x16.size a ≤ S256x128.size a
  inb_S256x128_S1x16_127_112 : ∀ a, (![127, 112] : Fin 2 → Nat) a + S1x16.size a ≤ S256x128.size a
  inb_S256x128_S1x16_128_0 : ∀ a, (![128, 0] : Fin 2 → Nat) a + S1x16.size a ≤ S256x128.size a
  inb_S256x128_S1x16_129_0 : ∀ a, (![129, 0] : Fin 2 → Nat) a + S1x16.size a ≤ S256x128.size a
  inb_S256x128_S1x16_130_0 : ∀ a, (![130, 0] : Fin 2 → Nat) a + S1x16.size a ≤ S256x128.size a
  inb_S256x128_S1x16_131_0 : ∀ a, (![131, 0] : Fin 2 → Nat) a + S1x16.size a ≤ S256x128.size a
  inb_S256x128_S1x16_132_0 : ∀ a, (![132, 0] : Fin 2 → Nat) a + S1x16.size a ≤ S256x128.size a
  inb_S256x128_S1x16_133_0 : ∀ a, (![133, 0] : Fin 2 → Nat) a + S1x16.size a ≤ S256x128.size a
  inb_S256x128_S1x16_134_0 : ∀ a, (![134, 0] : Fin 2 → Nat) a + S1x16.size a ≤ S256x128.size a
  inb_S256x128_S1x16_135_0 : ∀ a, (![135, 0] : Fin 2 → Nat) a + S1x16.size a ≤ S256x128.size a
  inb_S256x128_S1x16_136_0 : ∀ a, (![136, 0] : Fin 2 → Nat) a + S1x16.size a ≤ S256x128.size a
  inb_S256x128_S1x16_137_0 : ∀ a, (![137, 0] : Fin 2 → Nat) a + S1x16.size a ≤ S256x128.size a
  inb_S256x128_S1x16_138_0 : ∀ a, (![138, 0] : Fin 2 → Nat) a + S1x16.size a ≤ S256x128.size a
  inb_S256x128_S1x16_139_0 : ∀ a, (![139, 0] : Fin 2 → Nat) a + S1x16.size a ≤ S256x128.size a
  inb_S256x128_S1x16_140_0 : ∀ a, (![140, 0] : Fin 2 → Nat) a + S1x16.size a ≤ S256x128.size a
  inb_S256x128_S1x16_141_0 : ∀ a, (![141, 0] : Fin 2 → Nat) a + S1x16.size a ≤ S256x128.size a
  inb_S256x128_S1x16_142_0 : ∀ a, (![142, 0] : Fin 2 → Nat) a + S1x16.size a ≤ S256x128.size a
  inb_S256x128_S1x16_143_0 : ∀ a, (![143, 0] : Fin 2 → Nat) a + S1x16.size a ≤ S256x128.size a
  inb_S256x128_S1x16_144_0 : ∀ a, (![144, 0] : Fin 2 → Nat) a + S1x16.size a ≤ S256x128.size a
  inb_S256x128_S1x16_145_0 : ∀ a, (![145, 0] : Fin 2 → Nat) a + S1x16.size a ≤ S256x128.size a
  inb_S256x128_S1x16_146_0 : ∀ a, (![146, 0] : Fin 2 → Nat) a + S1x16.size a ≤ S256x128.size a
  inb_S256x128_S1x16_147_0 : ∀ a, (![147, 0] : Fin 2 → Nat) a + S1x16.size a ≤ S256x128.size a
  inb_S256x128_S1x16_148_0 : ∀ a, (![148, 0] : Fin 2 → Nat) a + S1x16.size a ≤ S256x128.size a
  inb_S256x128_S1x16_149_0 : ∀ a, (![149, 0] : Fin 2 → Nat) a + S1x16.size a ≤ S256x128.size a
  inb_S256x128_S1x16_150_0 : ∀ a, (![150, 0] : Fin 2 → Nat) a + S1x16.size a ≤ S256x128.size a
  inb_S256x128_S1x16_151_0 : ∀ a, (![151, 0] : Fin 2 → Nat) a + S1x16.size a ≤ S256x128.size a
  inb_S256x128_S1x16_152_0 : ∀ a, (![152, 0] : Fin 2 → Nat) a + S1x16.size a ≤ S256x128.size a
  inb_S256x128_S1x16_153_0 : ∀ a, (![153, 0] : Fin 2 → Nat) a + S1x16.size a ≤ S256x128.size a
  inb_S256x128_S1x16_154_0 : ∀ a, (![154, 0] : Fin 2 → Nat) a + S1x16.size a ≤ S256x128.size a
  inb_S256x128_S1x16_155_0 : ∀ a, (![155, 0] : Fin 2 → Nat) a + S1x16.size a ≤ S256x128.size a
  inb_S256x128_S1x16_156_0 : ∀ a, (![156, 0] : Fin 2 → Nat) a + S1x16.size a ≤ S256x128.size a
  inb_S256x128_S1x16_157_0 : ∀ a, (![157, 0] : Fin 2 → Nat) a + S1x16.size a ≤ S256x128.size a
  inb_S256x128_S1x16_158_0 : ∀ a, (![158, 0] : Fin 2 → Nat) a + S1x16.size a ≤ S256x128.size a
  inb_S256x128_S1x16_159_0 : ∀ a, (![159, 0] : Fin 2 → Nat) a + S1x16.size a ≤ S256x128.size a
  inb_S256x128_S1x16_128_16 : ∀ a, (![128, 16] : Fin 2 → Nat) a + S1x16.size a ≤ S256x128.size a
  inb_S256x128_S1x16_129_16 : ∀ a, (![129, 16] : Fin 2 → Nat) a + S1x16.size a ≤ S256x128.size a
  inb_S256x128_S1x16_130_16 : ∀ a, (![130, 16] : Fin 2 → Nat) a + S1x16.size a ≤ S256x128.size a
  inb_S256x128_S1x16_131_16 : ∀ a, (![131, 16] : Fin 2 → Nat) a + S1x16.size a ≤ S256x128.size a
  inb_S256x128_S1x16_132_16 : ∀ a, (![132, 16] : Fin 2 → Nat) a + S1x16.size a ≤ S256x128.size a
  inb_S256x128_S1x16_133_16 : ∀ a, (![133, 16] : Fin 2 → Nat) a + S1x16.size a ≤ S256x128.size a
  inb_S256x128_S1x16_134_16 : ∀ a, (![134, 16] : Fin 2 → Nat) a + S1x16.size a ≤ S256x128.size a
  inb_S256x128_S1x16_135_16 : ∀ a, (![135, 16] : Fin 2 → Nat) a + S1x16.size a ≤ S256x128.size a
  inb_S256x128_S1x16_136_16 : ∀ a, (![136, 16] : Fin 2 → Nat) a + S1x16.size a ≤ S256x128.size a
  inb_S256x128_S1x16_137_16 : ∀ a, (![137, 16] : Fin 2 → Nat) a + S1x16.size a ≤ S256x128.size a
  inb_S256x128_S1x16_138_16 : ∀ a, (![138, 16] : Fin 2 → Nat) a + S1x16.size a ≤ S256x128.size a
  inb_S256x128_S1x16_139_16 : ∀ a, (![139, 16] : Fin 2 → Nat) a + S1x16.size a ≤ S256x128.size a
  inb_S256x128_S1x16_140_16 : ∀ a, (![140, 16] : Fin 2 → Nat) a + S1x16.size a ≤ S256x128.size a
  inb_S256x128_S1x16_141_16 : ∀ a, (![141, 16] : Fin 2 → Nat) a + S1x16.size a ≤ S256x128.size a
  inb_S256x128_S1x16_142_16 : ∀ a, (![142, 16] : Fin 2 → Nat) a + S1x16.size a ≤ S256x128.size a
  inb_S256x128_S1x16_143_16 : ∀ a, (![143, 16] : Fin 2 → Nat) a + S1x16.size a ≤ S256x128.size a
  inb_S256x128_S1x16_144_16 : ∀ a, (![144, 16] : Fin 2 → Nat) a + S1x16.size a ≤ S256x128.size a
  inb_S256x128_S1x16_145_16 : ∀ a, (![145, 16] : Fin 2 → Nat) a + S1x16.size a ≤ S256x128.size a
  inb_S256x128_S1x16_146_16 : ∀ a, (![146, 16] : Fin 2 → Nat) a + S1x16.size a ≤ S256x128.size a
  inb_S256x128_S1x16_147_16 : ∀ a, (![147, 16] : Fin 2 → Nat) a + S1x16.size a ≤ S256x128.size a
  inb_S256x128_S1x16_148_16 : ∀ a, (![148, 16] : Fin 2 → Nat) a + S1x16.size a ≤ S256x128.size a
  inb_S256x128_S1x16_149_16 : ∀ a, (![149, 16] : Fin 2 → Nat) a + S1x16.size a ≤ S256x128.size a
  inb_S256x128_S1x16_150_16 : ∀ a, (![150, 16] : Fin 2 → Nat) a + S1x16.size a ≤ S256x128.size a
  inb_S256x128_S1x16_151_16 : ∀ a, (![151, 16] : Fin 2 → Nat) a + S1x16.size a ≤ S256x128.size a
  inb_S256x128_S1x16_152_16 : ∀ a, (![152, 16] : Fin 2 → Nat) a + S1x16.size a ≤ S256x128.size a
  inb_S256x128_S1x16_153_16 : ∀ a, (![153, 16] : Fin 2 → Nat) a + S1x16.size a ≤ S256x128.size a
  inb_S256x128_S1x16_154_16 : ∀ a, (![154, 16] : Fin 2 → Nat) a + S1x16.size a ≤ S256x128.size a
  inb_S256x128_S1x16_155_16 : ∀ a, (![155, 16] : Fin 2 → Nat) a + S1x16.size a ≤ S256x128.size a
  inb_S256x128_S1x16_156_16 : ∀ a, (![156, 16] : Fin 2 → Nat) a + S1x16.size a ≤ S256x128.size a
  inb_S256x128_S1x16_157_16 : ∀ a, (![157, 16] : Fin 2 → Nat) a + S1x16.size a ≤ S256x128.size a
  inb_S256x128_S1x16_158_16 : ∀ a, (![158, 16] : Fin 2 → Nat) a + S1x16.size a ≤ S256x128.size a
  inb_S256x128_S1x16_159_16 : ∀ a, (![159, 16] : Fin 2 → Nat) a + S1x16.size a ≤ S256x128.size a
  inb_S256x128_S1x16_128_32 : ∀ a, (![128, 32] : Fin 2 → Nat) a + S1x16.size a ≤ S256x128.size a
  inb_S256x128_S1x16_129_32 : ∀ a, (![129, 32] : Fin 2 → Nat) a + S1x16.size a ≤ S256x128.size a
  inb_S256x128_S1x16_130_32 : ∀ a, (![130, 32] : Fin 2 → Nat) a + S1x16.size a ≤ S256x128.size a
  inb_S256x128_S1x16_131_32 : ∀ a, (![131, 32] : Fin 2 → Nat) a + S1x16.size a ≤ S256x128.size a
  inb_S256x128_S1x16_132_32 : ∀ a, (![132, 32] : Fin 2 → Nat) a + S1x16.size a ≤ S256x128.size a
  inb_S256x128_S1x16_133_32 : ∀ a, (![133, 32] : Fin 2 → Nat) a + S1x16.size a ≤ S256x128.size a
  inb_S256x128_S1x16_134_32 : ∀ a, (![134, 32] : Fin 2 → Nat) a + S1x16.size a ≤ S256x128.size a
  inb_S256x128_S1x16_135_32 : ∀ a, (![135, 32] : Fin 2 → Nat) a + S1x16.size a ≤ S256x128.size a
  inb_S256x128_S1x16_136_32 : ∀ a, (![136, 32] : Fin 2 → Nat) a + S1x16.size a ≤ S256x128.size a
  inb_S256x128_S1x16_137_32 : ∀ a, (![137, 32] : Fin 2 → Nat) a + S1x16.size a ≤ S256x128.size a
  inb_S256x128_S1x16_138_32 : ∀ a, (![138, 32] : Fin 2 → Nat) a + S1x16.size a ≤ S256x128.size a
  inb_S256x128_S1x16_139_32 : ∀ a, (![139, 32] : Fin 2 → Nat) a + S1x16.size a ≤ S256x128.size a
  inb_S256x128_S1x16_140_32 : ∀ a, (![140, 32] : Fin 2 → Nat) a + S1x16.size a ≤ S256x128.size a
  inb_S256x128_S1x16_141_32 : ∀ a, (![141, 32] : Fin 2 → Nat) a + S1x16.size a ≤ S256x128.size a
  inb_S256x128_S1x16_142_32 : ∀ a, (![142, 32] : Fin 2 → Nat) a + S1x16.size a ≤ S256x128.size a
  inb_S256x128_S1x16_143_32 : ∀ a, (![143, 32] : Fin 2 → Nat) a + S1x16.size a ≤ S256x128.size a
  inb_S256x128_S1x16_144_32 : ∀ a, (![144, 32] : Fin 2 → Nat) a + S1x16.size a ≤ S256x128.size a
  inb_S256x128_S1x16_145_32 : ∀ a, (![145, 32] : Fin 2 → Nat) a + S1x16.size a ≤ S256x128.size a
  inb_S256x128_S1x16_146_32 : ∀ a, (![146, 32] : Fin 2 → Nat) a + S1x16.size a ≤ S256x128.size a
  inb_S256x128_S1x16_147_32 : ∀ a, (![147, 32] : Fin 2 → Nat) a + S1x16.size a ≤ S256x128.size a
  inb_S256x128_S1x16_148_32 : ∀ a, (![148, 32] : Fin 2 → Nat) a + S1x16.size a ≤ S256x128.size a
  inb_S256x128_S1x16_149_32 : ∀ a, (![149, 32] : Fin 2 → Nat) a + S1x16.size a ≤ S256x128.size a
  inb_S256x128_S1x16_150_32 : ∀ a, (![150, 32] : Fin 2 → Nat) a + S1x16.size a ≤ S256x128.size a
  inb_S256x128_S1x16_151_32 : ∀ a, (![151, 32] : Fin 2 → Nat) a + S1x16.size a ≤ S256x128.size a
  inb_S256x128_S1x16_152_32 : ∀ a, (![152, 32] : Fin 2 → Nat) a + S1x16.size a ≤ S256x128.size a
  inb_S256x128_S1x16_153_32 : ∀ a, (![153, 32] : Fin 2 → Nat) a + S1x16.size a ≤ S256x128.size a
  inb_S256x128_S1x16_154_32 : ∀ a, (![154, 32] : Fin 2 → Nat) a + S1x16.size a ≤ S256x128.size a
  inb_S256x128_S1x16_155_32 : ∀ a, (![155, 32] : Fin 2 → Nat) a + S1x16.size a ≤ S256x128.size a
  inb_S256x128_S1x16_156_32 : ∀ a, (![156, 32] : Fin 2 → Nat) a + S1x16.size a ≤ S256x128.size a
  inb_S256x128_S1x16_157_32 : ∀ a, (![157, 32] : Fin 2 → Nat) a + S1x16.size a ≤ S256x128.size a
  inb_S256x128_S1x16_158_32 : ∀ a, (![158, 32] : Fin 2 → Nat) a + S1x16.size a ≤ S256x128.size a
  inb_S256x128_S1x16_159_32 : ∀ a, (![159, 32] : Fin 2 → Nat) a + S1x16.size a ≤ S256x128.size a
  inb_S256x128_S1x16_128_48 : ∀ a, (![128, 48] : Fin 2 → Nat) a + S1x16.size a ≤ S256x128.size a
  inb_S256x128_S1x16_129_48 : ∀ a, (![129, 48] : Fin 2 → Nat) a + S1x16.size a ≤ S256x128.size a
  inb_S256x128_S1x16_130_48 : ∀ a, (![130, 48] : Fin 2 → Nat) a + S1x16.size a ≤ S256x128.size a
  inb_S256x128_S1x16_131_48 : ∀ a, (![131, 48] : Fin 2 → Nat) a + S1x16.size a ≤ S256x128.size a
  inb_S256x128_S1x16_132_48 : ∀ a, (![132, 48] : Fin 2 → Nat) a + S1x16.size a ≤ S256x128.size a
  inb_S256x128_S1x16_133_48 : ∀ a, (![133, 48] : Fin 2 → Nat) a + S1x16.size a ≤ S256x128.size a
  inb_S256x128_S1x16_134_48 : ∀ a, (![134, 48] : Fin 2 → Nat) a + S1x16.size a ≤ S256x128.size a
  inb_S256x128_S1x16_135_48 : ∀ a, (![135, 48] : Fin 2 → Nat) a + S1x16.size a ≤ S256x128.size a
  inb_S256x128_S1x16_136_48 : ∀ a, (![136, 48] : Fin 2 → Nat) a + S1x16.size a ≤ S256x128.size a
  inb_S256x128_S1x16_137_48 : ∀ a, (![137, 48] : Fin 2 → Nat) a + S1x16.size a ≤ S256x128.size a
  inb_S256x128_S1x16_138_48 : ∀ a, (![138, 48] : Fin 2 → Nat) a + S1x16.size a ≤ S256x128.size a
  inb_S256x128_S1x16_139_48 : ∀ a, (![139, 48] : Fin 2 → Nat) a + S1x16.size a ≤ S256x128.size a
  inb_S256x128_S1x16_140_48 : ∀ a, (![140, 48] : Fin 2 → Nat) a + S1x16.size a ≤ S256x128.size a
  inb_S256x128_S1x16_141_48 : ∀ a, (![141, 48] : Fin 2 → Nat) a + S1x16.size a ≤ S256x128.size a
  inb_S256x128_S1x16_142_48 : ∀ a, (![142, 48] : Fin 2 → Nat) a + S1x16.size a ≤ S256x128.size a
  inb_S256x128_S1x16_143_48 : ∀ a, (![143, 48] : Fin 2 → Nat) a + S1x16.size a ≤ S256x128.size a
  inb_S256x128_S1x16_144_48 : ∀ a, (![144, 48] : Fin 2 → Nat) a + S1x16.size a ≤ S256x128.size a
  inb_S256x128_S1x16_145_48 : ∀ a, (![145, 48] : Fin 2 → Nat) a + S1x16.size a ≤ S256x128.size a
  inb_S256x128_S1x16_146_48 : ∀ a, (![146, 48] : Fin 2 → Nat) a + S1x16.size a ≤ S256x128.size a
  inb_S256x128_S1x16_147_48 : ∀ a, (![147, 48] : Fin 2 → Nat) a + S1x16.size a ≤ S256x128.size a
  inb_S256x128_S1x16_148_48 : ∀ a, (![148, 48] : Fin 2 → Nat) a + S1x16.size a ≤ S256x128.size a
  inb_S256x128_S1x16_149_48 : ∀ a, (![149, 48] : Fin 2 → Nat) a + S1x16.size a ≤ S256x128.size a
  inb_S256x128_S1x16_150_48 : ∀ a, (![150, 48] : Fin 2 → Nat) a + S1x16.size a ≤ S256x128.size a
  inb_S256x128_S1x16_151_48 : ∀ a, (![151, 48] : Fin 2 → Nat) a + S1x16.size a ≤ S256x128.size a
  inb_S256x128_S1x16_152_48 : ∀ a, (![152, 48] : Fin 2 → Nat) a + S1x16.size a ≤ S256x128.size a
  inb_S256x128_S1x16_153_48 : ∀ a, (![153, 48] : Fin 2 → Nat) a + S1x16.size a ≤ S256x128.size a
  inb_S256x128_S1x16_154_48 : ∀ a, (![154, 48] : Fin 2 → Nat) a + S1x16.size a ≤ S256x128.size a
  inb_S256x128_S1x16_155_48 : ∀ a, (![155, 48] : Fin 2 → Nat) a + S1x16.size a ≤ S256x128.size a
  inb_S256x128_S1x16_156_48 : ∀ a, (![156, 48] : Fin 2 → Nat) a + S1x16.size a ≤ S256x128.size a
  inb_S256x128_S1x16_157_48 : ∀ a, (![157, 48] : Fin 2 → Nat) a + S1x16.size a ≤ S256x128.size a
  inb_S256x128_S1x16_158_48 : ∀ a, (![158, 48] : Fin 2 → Nat) a + S1x16.size a ≤ S256x128.size a
  inb_S256x128_S1x16_159_48 : ∀ a, (![159, 48] : Fin 2 → Nat) a + S1x16.size a ≤ S256x128.size a
  inb_S256x128_S1x16_128_64 : ∀ a, (![128, 64] : Fin 2 → Nat) a + S1x16.size a ≤ S256x128.size a
  inb_S256x128_S1x16_129_64 : ∀ a, (![129, 64] : Fin 2 → Nat) a + S1x16.size a ≤ S256x128.size a
  inb_S256x128_S1x16_130_64 : ∀ a, (![130, 64] : Fin 2 → Nat) a + S1x16.size a ≤ S256x128.size a
  inb_S256x128_S1x16_131_64 : ∀ a, (![131, 64] : Fin 2 → Nat) a + S1x16.size a ≤ S256x128.size a
  inb_S256x128_S1x16_132_64 : ∀ a, (![132, 64] : Fin 2 → Nat) a + S1x16.size a ≤ S256x128.size a
  inb_S256x128_S1x16_133_64 : ∀ a, (![133, 64] : Fin 2 → Nat) a + S1x16.size a ≤ S256x128.size a
  inb_S256x128_S1x16_134_64 : ∀ a, (![134, 64] : Fin 2 → Nat) a + S1x16.size a ≤ S256x128.size a
  inb_S256x128_S1x16_135_64 : ∀ a, (![135, 64] : Fin 2 → Nat) a + S1x16.size a ≤ S256x128.size a
  inb_S256x128_S1x16_136_64 : ∀ a, (![136, 64] : Fin 2 → Nat) a + S1x16.size a ≤ S256x128.size a
  inb_S256x128_S1x16_137_64 : ∀ a, (![137, 64] : Fin 2 → Nat) a + S1x16.size a ≤ S256x128.size a
  inb_S256x128_S1x16_138_64 : ∀ a, (![138, 64] : Fin 2 → Nat) a + S1x16.size a ≤ S256x128.size a
  inb_S256x128_S1x16_139_64 : ∀ a, (![139, 64] : Fin 2 → Nat) a + S1x16.size a ≤ S256x128.size a
  inb_S256x128_S1x16_140_64 : ∀ a, (![140, 64] : Fin 2 → Nat) a + S1x16.size a ≤ S256x128.size a
  inb_S256x128_S1x16_141_64 : ∀ a, (![141, 64] : Fin 2 → Nat) a + S1x16.size a ≤ S256x128.size a
  inb_S256x128_S1x16_142_64 : ∀ a, (![142, 64] : Fin 2 → Nat) a + S1x16.size a ≤ S256x128.size a
  inb_S256x128_S1x16_143_64 : ∀ a, (![143, 64] : Fin 2 → Nat) a + S1x16.size a ≤ S256x128.size a
  inb_S256x128_S1x16_144_64 : ∀ a, (![144, 64] : Fin 2 → Nat) a + S1x16.size a ≤ S256x128.size a
  inb_S256x128_S1x16_145_64 : ∀ a, (![145, 64] : Fin 2 → Nat) a + S1x16.size a ≤ S256x128.size a
  inb_S256x128_S1x16_146_64 : ∀ a, (![146, 64] : Fin 2 → Nat) a + S1x16.size a ≤ S256x128.size a
  inb_S256x128_S1x16_147_64 : ∀ a, (![147, 64] : Fin 2 → Nat) a + S1x16.size a ≤ S256x128.size a
  inb_S256x128_S1x16_148_64 : ∀ a, (![148, 64] : Fin 2 → Nat) a + S1x16.size a ≤ S256x128.size a
  inb_S256x128_S1x16_149_64 : ∀ a, (![149, 64] : Fin 2 → Nat) a + S1x16.size a ≤ S256x128.size a
  inb_S256x128_S1x16_150_64 : ∀ a, (![150, 64] : Fin 2 → Nat) a + S1x16.size a ≤ S256x128.size a
  inb_S256x128_S1x16_151_64 : ∀ a, (![151, 64] : Fin 2 → Nat) a + S1x16.size a ≤ S256x128.size a
  inb_S256x128_S1x16_152_64 : ∀ a, (![152, 64] : Fin 2 → Nat) a + S1x16.size a ≤ S256x128.size a
  inb_S256x128_S1x16_153_64 : ∀ a, (![153, 64] : Fin 2 → Nat) a + S1x16.size a ≤ S256x128.size a
  inb_S256x128_S1x16_154_64 : ∀ a, (![154, 64] : Fin 2 → Nat) a + S1x16.size a ≤ S256x128.size a
  inb_S256x128_S1x16_155_64 : ∀ a, (![155, 64] : Fin 2 → Nat) a + S1x16.size a ≤ S256x128.size a
  inb_S256x128_S1x16_156_64 : ∀ a, (![156, 64] : Fin 2 → Nat) a + S1x16.size a ≤ S256x128.size a
  inb_S256x128_S1x16_157_64 : ∀ a, (![157, 64] : Fin 2 → Nat) a + S1x16.size a ≤ S256x128.size a
  inb_S256x128_S1x16_158_64 : ∀ a, (![158, 64] : Fin 2 → Nat) a + S1x16.size a ≤ S256x128.size a
  inb_S256x128_S1x16_159_64 : ∀ a, (![159, 64] : Fin 2 → Nat) a + S1x16.size a ≤ S256x128.size a
  inb_S256x128_S1x16_128_80 : ∀ a, (![128, 80] : Fin 2 → Nat) a + S1x16.size a ≤ S256x128.size a
  inb_S256x128_S1x16_129_80 : ∀ a, (![129, 80] : Fin 2 → Nat) a + S1x16.size a ≤ S256x128.size a
  inb_S256x128_S1x16_130_80 : ∀ a, (![130, 80] : Fin 2 → Nat) a + S1x16.size a ≤ S256x128.size a
  inb_S256x128_S1x16_131_80 : ∀ a, (![131, 80] : Fin 2 → Nat) a + S1x16.size a ≤ S256x128.size a
  inb_S256x128_S1x16_132_80 : ∀ a, (![132, 80] : Fin 2 → Nat) a + S1x16.size a ≤ S256x128.size a
  inb_S256x128_S1x16_133_80 : ∀ a, (![133, 80] : Fin 2 → Nat) a + S1x16.size a ≤ S256x128.size a
  inb_S256x128_S1x16_134_80 : ∀ a, (![134, 80] : Fin 2 → Nat) a + S1x16.size a ≤ S256x128.size a
  inb_S256x128_S1x16_135_80 : ∀ a, (![135, 80] : Fin 2 → Nat) a + S1x16.size a ≤ S256x128.size a
  inb_S256x128_S1x16_136_80 : ∀ a, (![136, 80] : Fin 2 → Nat) a + S1x16.size a ≤ S256x128.size a
  inb_S256x128_S1x16_137_80 : ∀ a, (![137, 80] : Fin 2 → Nat) a + S1x16.size a ≤ S256x128.size a
  inb_S256x128_S1x16_138_80 : ∀ a, (![138, 80] : Fin 2 → Nat) a + S1x16.size a ≤ S256x128.size a
  inb_S256x128_S1x16_139_80 : ∀ a, (![139, 80] : Fin 2 → Nat) a + S1x16.size a ≤ S256x128.size a
  inb_S256x128_S1x16_140_80 : ∀ a, (![140, 80] : Fin 2 → Nat) a + S1x16.size a ≤ S256x128.size a
  inb_S256x128_S1x16_141_80 : ∀ a, (![141, 80] : Fin 2 → Nat) a + S1x16.size a ≤ S256x128.size a
  inb_S256x128_S1x16_142_80 : ∀ a, (![142, 80] : Fin 2 → Nat) a + S1x16.size a ≤ S256x128.size a
  inb_S256x128_S1x16_143_80 : ∀ a, (![143, 80] : Fin 2 → Nat) a + S1x16.size a ≤ S256x128.size a
  inb_S256x128_S1x16_144_80 : ∀ a, (![144, 80] : Fin 2 → Nat) a + S1x16.size a ≤ S256x128.size a
  inb_S256x128_S1x16_145_80 : ∀ a, (![145, 80] : Fin 2 → Nat) a + S1x16.size a ≤ S256x128.size a
  inb_S256x128_S1x16_146_80 : ∀ a, (![146, 80] : Fin 2 → Nat) a + S1x16.size a ≤ S256x128.size a
  inb_S256x128_S1x16_147_80 : ∀ a, (![147, 80] : Fin 2 → Nat) a + S1x16.size a ≤ S256x128.size a
  inb_S256x128_S1x16_148_80 : ∀ a, (![148, 80] : Fin 2 → Nat) a + S1x16.size a ≤ S256x128.size a
  inb_S256x128_S1x16_149_80 : ∀ a, (![149, 80] : Fin 2 → Nat) a + S1x16.size a ≤ S256x128.size a
  inb_S256x128_S1x16_150_80 : ∀ a, (![150, 80] : Fin 2 → Nat) a + S1x16.size a ≤ S256x128.size a
  inb_S256x128_S1x16_151_80 : ∀ a, (![151, 80] : Fin 2 → Nat) a + S1x16.size a ≤ S256x128.size a
  inb_S256x128_S1x16_152_80 : ∀ a, (![152, 80] : Fin 2 → Nat) a + S1x16.size a ≤ S256x128.size a
  inb_S256x128_S1x16_153_80 : ∀ a, (![153, 80] : Fin 2 → Nat) a + S1x16.size a ≤ S256x128.size a
  inb_S256x128_S1x16_154_80 : ∀ a, (![154, 80] : Fin 2 → Nat) a + S1x16.size a ≤ S256x128.size a
  inb_S256x128_S1x16_155_80 : ∀ a, (![155, 80] : Fin 2 → Nat) a + S1x16.size a ≤ S256x128.size a
  inb_S256x128_S1x16_156_80 : ∀ a, (![156, 80] : Fin 2 → Nat) a + S1x16.size a ≤ S256x128.size a
  inb_S256x128_S1x16_157_80 : ∀ a, (![157, 80] : Fin 2 → Nat) a + S1x16.size a ≤ S256x128.size a
  inb_S256x128_S1x16_158_80 : ∀ a, (![158, 80] : Fin 2 → Nat) a + S1x16.size a ≤ S256x128.size a
  inb_S256x128_S1x16_159_80 : ∀ a, (![159, 80] : Fin 2 → Nat) a + S1x16.size a ≤ S256x128.size a
  inb_S256x128_S1x16_128_96 : ∀ a, (![128, 96] : Fin 2 → Nat) a + S1x16.size a ≤ S256x128.size a
  inb_S256x128_S1x16_129_96 : ∀ a, (![129, 96] : Fin 2 → Nat) a + S1x16.size a ≤ S256x128.size a
  inb_S256x128_S1x16_130_96 : ∀ a, (![130, 96] : Fin 2 → Nat) a + S1x16.size a ≤ S256x128.size a
  inb_S256x128_S1x16_131_96 : ∀ a, (![131, 96] : Fin 2 → Nat) a + S1x16.size a ≤ S256x128.size a
  inb_S256x128_S1x16_132_96 : ∀ a, (![132, 96] : Fin 2 → Nat) a + S1x16.size a ≤ S256x128.size a
  inb_S256x128_S1x16_133_96 : ∀ a, (![133, 96] : Fin 2 → Nat) a + S1x16.size a ≤ S256x128.size a
  inb_S256x128_S1x16_134_96 : ∀ a, (![134, 96] : Fin 2 → Nat) a + S1x16.size a ≤ S256x128.size a
  inb_S256x128_S1x16_135_96 : ∀ a, (![135, 96] : Fin 2 → Nat) a + S1x16.size a ≤ S256x128.size a
  inb_S256x128_S1x16_136_96 : ∀ a, (![136, 96] : Fin 2 → Nat) a + S1x16.size a ≤ S256x128.size a
  inb_S256x128_S1x16_137_96 : ∀ a, (![137, 96] : Fin 2 → Nat) a + S1x16.size a ≤ S256x128.size a
  inb_S256x128_S1x16_138_96 : ∀ a, (![138, 96] : Fin 2 → Nat) a + S1x16.size a ≤ S256x128.size a
  inb_S256x128_S1x16_139_96 : ∀ a, (![139, 96] : Fin 2 → Nat) a + S1x16.size a ≤ S256x128.size a
  inb_S256x128_S1x16_140_96 : ∀ a, (![140, 96] : Fin 2 → Nat) a + S1x16.size a ≤ S256x128.size a
  inb_S256x128_S1x16_141_96 : ∀ a, (![141, 96] : Fin 2 → Nat) a + S1x16.size a ≤ S256x128.size a
  inb_S256x128_S1x16_142_96 : ∀ a, (![142, 96] : Fin 2 → Nat) a + S1x16.size a ≤ S256x128.size a
  inb_S256x128_S1x16_143_96 : ∀ a, (![143, 96] : Fin 2 → Nat) a + S1x16.size a ≤ S256x128.size a
  inb_S256x128_S1x16_144_96 : ∀ a, (![144, 96] : Fin 2 → Nat) a + S1x16.size a ≤ S256x128.size a
  inb_S256x128_S1x16_145_96 : ∀ a, (![145, 96] : Fin 2 → Nat) a + S1x16.size a ≤ S256x128.size a
  inb_S256x128_S1x16_146_96 : ∀ a, (![146, 96] : Fin 2 → Nat) a + S1x16.size a ≤ S256x128.size a
  inb_S256x128_S1x16_147_96 : ∀ a, (![147, 96] : Fin 2 → Nat) a + S1x16.size a ≤ S256x128.size a
  inb_S256x128_S1x16_148_96 : ∀ a, (![148, 96] : Fin 2 → Nat) a + S1x16.size a ≤ S256x128.size a
  inb_S256x128_S1x16_149_96 : ∀ a, (![149, 96] : Fin 2 → Nat) a + S1x16.size a ≤ S256x128.size a
  inb_S256x128_S1x16_150_96 : ∀ a, (![150, 96] : Fin 2 → Nat) a + S1x16.size a ≤ S256x128.size a
  inb_S256x128_S1x16_151_96 : ∀ a, (![151, 96] : Fin 2 → Nat) a + S1x16.size a ≤ S256x128.size a
  inb_S256x128_S1x16_152_96 : ∀ a, (![152, 96] : Fin 2 → Nat) a + S1x16.size a ≤ S256x128.size a
  inb_S256x128_S1x16_153_96 : ∀ a, (![153, 96] : Fin 2 → Nat) a + S1x16.size a ≤ S256x128.size a
  inb_S256x128_S1x16_154_96 : ∀ a, (![154, 96] : Fin 2 → Nat) a + S1x16.size a ≤ S256x128.size a
  inb_S256x128_S1x16_155_96 : ∀ a, (![155, 96] : Fin 2 → Nat) a + S1x16.size a ≤ S256x128.size a
  inb_S256x128_S1x16_156_96 : ∀ a, (![156, 96] : Fin 2 → Nat) a + S1x16.size a ≤ S256x128.size a
  inb_S256x128_S1x16_157_96 : ∀ a, (![157, 96] : Fin 2 → Nat) a + S1x16.size a ≤ S256x128.size a
  inb_S256x128_S1x16_158_96 : ∀ a, (![158, 96] : Fin 2 → Nat) a + S1x16.size a ≤ S256x128.size a
  inb_S256x128_S1x16_159_96 : ∀ a, (![159, 96] : Fin 2 → Nat) a + S1x16.size a ≤ S256x128.size a
  inb_S256x128_S1x16_128_112 : ∀ a, (![128, 112] : Fin 2 → Nat) a + S1x16.size a ≤ S256x128.size a
  inb_S256x128_S1x16_129_112 : ∀ a, (![129, 112] : Fin 2 → Nat) a + S1x16.size a ≤ S256x128.size a
  inb_S256x128_S1x16_130_112 : ∀ a, (![130, 112] : Fin 2 → Nat) a + S1x16.size a ≤ S256x128.size a
  inb_S256x128_S1x16_131_112 : ∀ a, (![131, 112] : Fin 2 → Nat) a + S1x16.size a ≤ S256x128.size a
  inb_S256x128_S1x16_132_112 : ∀ a, (![132, 112] : Fin 2 → Nat) a + S1x16.size a ≤ S256x128.size a
  inb_S256x128_S1x16_133_112 : ∀ a, (![133, 112] : Fin 2 → Nat) a + S1x16.size a ≤ S256x128.size a
  inb_S256x128_S1x16_134_112 : ∀ a, (![134, 112] : Fin 2 → Nat) a + S1x16.size a ≤ S256x128.size a
  inb_S256x128_S1x16_135_112 : ∀ a, (![135, 112] : Fin 2 → Nat) a + S1x16.size a ≤ S256x128.size a
  inb_S256x128_S1x16_136_112 : ∀ a, (![136, 112] : Fin 2 → Nat) a + S1x16.size a ≤ S256x128.size a
  inb_S256x128_S1x16_137_112 : ∀ a, (![137, 112] : Fin 2 → Nat) a + S1x16.size a ≤ S256x128.size a
  inb_S256x128_S1x16_138_112 : ∀ a, (![138, 112] : Fin 2 → Nat) a + S1x16.size a ≤ S256x128.size a
  inb_S256x128_S1x16_139_112 : ∀ a, (![139, 112] : Fin 2 → Nat) a + S1x16.size a ≤ S256x128.size a
  inb_S256x128_S1x16_140_112 : ∀ a, (![140, 112] : Fin 2 → Nat) a + S1x16.size a ≤ S256x128.size a
  inb_S256x128_S1x16_141_112 : ∀ a, (![141, 112] : Fin 2 → Nat) a + S1x16.size a ≤ S256x128.size a
  inb_S256x128_S1x16_142_112 : ∀ a, (![142, 112] : Fin 2 → Nat) a + S1x16.size a ≤ S256x128.size a
  inb_S256x128_S1x16_143_112 : ∀ a, (![143, 112] : Fin 2 → Nat) a + S1x16.size a ≤ S256x128.size a
  inb_S256x128_S1x16_144_112 : ∀ a, (![144, 112] : Fin 2 → Nat) a + S1x16.size a ≤ S256x128.size a
  inb_S256x128_S1x16_145_112 : ∀ a, (![145, 112] : Fin 2 → Nat) a + S1x16.size a ≤ S256x128.size a
  inb_S256x128_S1x16_146_112 : ∀ a, (![146, 112] : Fin 2 → Nat) a + S1x16.size a ≤ S256x128.size a
  inb_S256x128_S1x16_147_112 : ∀ a, (![147, 112] : Fin 2 → Nat) a + S1x16.size a ≤ S256x128.size a
  inb_S256x128_S1x16_148_112 : ∀ a, (![148, 112] : Fin 2 → Nat) a + S1x16.size a ≤ S256x128.size a
  inb_S256x128_S1x16_149_112 : ∀ a, (![149, 112] : Fin 2 → Nat) a + S1x16.size a ≤ S256x128.size a
  inb_S256x128_S1x16_150_112 : ∀ a, (![150, 112] : Fin 2 → Nat) a + S1x16.size a ≤ S256x128.size a
  inb_S256x128_S1x16_151_112 : ∀ a, (![151, 112] : Fin 2 → Nat) a + S1x16.size a ≤ S256x128.size a
  inb_S256x128_S1x16_152_112 : ∀ a, (![152, 112] : Fin 2 → Nat) a + S1x16.size a ≤ S256x128.size a
  inb_S256x128_S1x16_153_112 : ∀ a, (![153, 112] : Fin 2 → Nat) a + S1x16.size a ≤ S256x128.size a
  inb_S256x128_S1x16_154_112 : ∀ a, (![154, 112] : Fin 2 → Nat) a + S1x16.size a ≤ S256x128.size a
  inb_S256x128_S1x16_155_112 : ∀ a, (![155, 112] : Fin 2 → Nat) a + S1x16.size a ≤ S256x128.size a
  inb_S256x128_S1x16_156_112 : ∀ a, (![156, 112] : Fin 2 → Nat) a + S1x16.size a ≤ S256x128.size a
  inb_S256x128_S1x16_157_112 : ∀ a, (![157, 112] : Fin 2 → Nat) a + S1x16.size a ≤ S256x128.size a
  inb_S256x128_S1x16_158_112 : ∀ a, (![158, 112] : Fin 2 → Nat) a + S1x16.size a ≤ S256x128.size a
  inb_S256x128_S1x16_159_112 : ∀ a, (![159, 112] : Fin 2 → Nat) a + S1x16.size a ≤ S256x128.size a
  inb_S256x128_S1x16_160_0 : ∀ a, (![160, 0] : Fin 2 → Nat) a + S1x16.size a ≤ S256x128.size a
  inb_S256x128_S1x16_161_0 : ∀ a, (![161, 0] : Fin 2 → Nat) a + S1x16.size a ≤ S256x128.size a
  inb_S256x128_S1x16_162_0 : ∀ a, (![162, 0] : Fin 2 → Nat) a + S1x16.size a ≤ S256x128.size a
  inb_S256x128_S1x16_163_0 : ∀ a, (![163, 0] : Fin 2 → Nat) a + S1x16.size a ≤ S256x128.size a
  inb_S256x128_S1x16_164_0 : ∀ a, (![164, 0] : Fin 2 → Nat) a + S1x16.size a ≤ S256x128.size a
  inb_S256x128_S1x16_165_0 : ∀ a, (![165, 0] : Fin 2 → Nat) a + S1x16.size a ≤ S256x128.size a
  inb_S256x128_S1x16_166_0 : ∀ a, (![166, 0] : Fin 2 → Nat) a + S1x16.size a ≤ S256x128.size a
  inb_S256x128_S1x16_167_0 : ∀ a, (![167, 0] : Fin 2 → Nat) a + S1x16.size a ≤ S256x128.size a
  inb_S256x128_S1x16_168_0 : ∀ a, (![168, 0] : Fin 2 → Nat) a + S1x16.size a ≤ S256x128.size a
  inb_S256x128_S1x16_169_0 : ∀ a, (![169, 0] : Fin 2 → Nat) a + S1x16.size a ≤ S256x128.size a
  inb_S256x128_S1x16_170_0 : ∀ a, (![170, 0] : Fin 2 → Nat) a + S1x16.size a ≤ S256x128.size a
  inb_S256x128_S1x16_171_0 : ∀ a, (![171, 0] : Fin 2 → Nat) a + S1x16.size a ≤ S256x128.size a
  inb_S256x128_S1x16_172_0 : ∀ a, (![172, 0] : Fin 2 → Nat) a + S1x16.size a ≤ S256x128.size a
  inb_S256x128_S1x16_173_0 : ∀ a, (![173, 0] : Fin 2 → Nat) a + S1x16.size a ≤ S256x128.size a
  inb_S256x128_S1x16_174_0 : ∀ a, (![174, 0] : Fin 2 → Nat) a + S1x16.size a ≤ S256x128.size a
  inb_S256x128_S1x16_175_0 : ∀ a, (![175, 0] : Fin 2 → Nat) a + S1x16.size a ≤ S256x128.size a
  inb_S256x128_S1x16_176_0 : ∀ a, (![176, 0] : Fin 2 → Nat) a + S1x16.size a ≤ S256x128.size a
  inb_S256x128_S1x16_177_0 : ∀ a, (![177, 0] : Fin 2 → Nat) a + S1x16.size a ≤ S256x128.size a
  inb_S256x128_S1x16_178_0 : ∀ a, (![178, 0] : Fin 2 → Nat) a + S1x16.size a ≤ S256x128.size a
  inb_S256x128_S1x16_179_0 : ∀ a, (![179, 0] : Fin 2 → Nat) a + S1x16.size a ≤ S256x128.size a
  inb_S256x128_S1x16_180_0 : ∀ a, (![180, 0] : Fin 2 → Nat) a + S1x16.size a ≤ S256x128.size a
  inb_S256x128_S1x16_181_0 : ∀ a, (![181, 0] : Fin 2 → Nat) a + S1x16.size a ≤ S256x128.size a
  inb_S256x128_S1x16_182_0 : ∀ a, (![182, 0] : Fin 2 → Nat) a + S1x16.size a ≤ S256x128.size a
  inb_S256x128_S1x16_183_0 : ∀ a, (![183, 0] : Fin 2 → Nat) a + S1x16.size a ≤ S256x128.size a
  inb_S256x128_S1x16_184_0 : ∀ a, (![184, 0] : Fin 2 → Nat) a + S1x16.size a ≤ S256x128.size a
  inb_S256x128_S1x16_185_0 : ∀ a, (![185, 0] : Fin 2 → Nat) a + S1x16.size a ≤ S256x128.size a
  inb_S256x128_S1x16_186_0 : ∀ a, (![186, 0] : Fin 2 → Nat) a + S1x16.size a ≤ S256x128.size a
  inb_S256x128_S1x16_187_0 : ∀ a, (![187, 0] : Fin 2 → Nat) a + S1x16.size a ≤ S256x128.size a
  inb_S256x128_S1x16_188_0 : ∀ a, (![188, 0] : Fin 2 → Nat) a + S1x16.size a ≤ S256x128.size a
  inb_S256x128_S1x16_189_0 : ∀ a, (![189, 0] : Fin 2 → Nat) a + S1x16.size a ≤ S256x128.size a
  inb_S256x128_S1x16_190_0 : ∀ a, (![190, 0] : Fin 2 → Nat) a + S1x16.size a ≤ S256x128.size a
  inb_S256x128_S1x16_191_0 : ∀ a, (![191, 0] : Fin 2 → Nat) a + S1x16.size a ≤ S256x128.size a
  inb_S256x128_S1x16_160_16 : ∀ a, (![160, 16] : Fin 2 → Nat) a + S1x16.size a ≤ S256x128.size a
  inb_S256x128_S1x16_161_16 : ∀ a, (![161, 16] : Fin 2 → Nat) a + S1x16.size a ≤ S256x128.size a
  inb_S256x128_S1x16_162_16 : ∀ a, (![162, 16] : Fin 2 → Nat) a + S1x16.size a ≤ S256x128.size a
  inb_S256x128_S1x16_163_16 : ∀ a, (![163, 16] : Fin 2 → Nat) a + S1x16.size a ≤ S256x128.size a
  inb_S256x128_S1x16_164_16 : ∀ a, (![164, 16] : Fin 2 → Nat) a + S1x16.size a ≤ S256x128.size a
  inb_S256x128_S1x16_165_16 : ∀ a, (![165, 16] : Fin 2 → Nat) a + S1x16.size a ≤ S256x128.size a
  inb_S256x128_S1x16_166_16 : ∀ a, (![166, 16] : Fin 2 → Nat) a + S1x16.size a ≤ S256x128.size a
  inb_S256x128_S1x16_167_16 : ∀ a, (![167, 16] : Fin 2 → Nat) a + S1x16.size a ≤ S256x128.size a
  inb_S256x128_S1x16_168_16 : ∀ a, (![168, 16] : Fin 2 → Nat) a + S1x16.size a ≤ S256x128.size a
  inb_S256x128_S1x16_169_16 : ∀ a, (![169, 16] : Fin 2 → Nat) a + S1x16.size a ≤ S256x128.size a
  inb_S256x128_S1x16_170_16 : ∀ a, (![170, 16] : Fin 2 → Nat) a + S1x16.size a ≤ S256x128.size a
  inb_S256x128_S1x16_171_16 : ∀ a, (![171, 16] : Fin 2 → Nat) a + S1x16.size a ≤ S256x128.size a
  inb_S256x128_S1x16_172_16 : ∀ a, (![172, 16] : Fin 2 → Nat) a + S1x16.size a ≤ S256x128.size a
  inb_S256x128_S1x16_173_16 : ∀ a, (![173, 16] : Fin 2 → Nat) a + S1x16.size a ≤ S256x128.size a
  inb_S256x128_S1x16_174_16 : ∀ a, (![174, 16] : Fin 2 → Nat) a + S1x16.size a ≤ S256x128.size a
  inb_S256x128_S1x16_175_16 : ∀ a, (![175, 16] : Fin 2 → Nat) a + S1x16.size a ≤ S256x128.size a
  inb_S256x128_S1x16_176_16 : ∀ a, (![176, 16] : Fin 2 → Nat) a + S1x16.size a ≤ S256x128.size a
  inb_S256x128_S1x16_177_16 : ∀ a, (![177, 16] : Fin 2 → Nat) a + S1x16.size a ≤ S256x128.size a
  inb_S256x128_S1x16_178_16 : ∀ a, (![178, 16] : Fin 2 → Nat) a + S1x16.size a ≤ S256x128.size a
  inb_S256x128_S1x16_179_16 : ∀ a, (![179, 16] : Fin 2 → Nat) a + S1x16.size a ≤ S256x128.size a
  inb_S256x128_S1x16_180_16 : ∀ a, (![180, 16] : Fin 2 → Nat) a + S1x16.size a ≤ S256x128.size a
  inb_S256x128_S1x16_181_16 : ∀ a, (![181, 16] : Fin 2 → Nat) a + S1x16.size a ≤ S256x128.size a
  inb_S256x128_S1x16_182_16 : ∀ a, (![182, 16] : Fin 2 → Nat) a + S1x16.size a ≤ S256x128.size a
  inb_S256x128_S1x16_183_16 : ∀ a, (![183, 16] : Fin 2 → Nat) a + S1x16.size a ≤ S256x128.size a
  inb_S256x128_S1x16_184_16 : ∀ a, (![184, 16] : Fin 2 → Nat) a + S1x16.size a ≤ S256x128.size a
  inb_S256x128_S1x16_185_16 : ∀ a, (![185, 16] : Fin 2 → Nat) a + S1x16.size a ≤ S256x128.size a
  inb_S256x128_S1x16_186_16 : ∀ a, (![186, 16] : Fin 2 → Nat) a + S1x16.size a ≤ S256x128.size a
  inb_S256x128_S1x16_187_16 : ∀ a, (![187, 16] : Fin 2 → Nat) a + S1x16.size a ≤ S256x128.size a
  inb_S256x128_S1x16_188_16 : ∀ a, (![188, 16] : Fin 2 → Nat) a + S1x16.size a ≤ S256x128.size a
  inb_S256x128_S1x16_189_16 : ∀ a, (![189, 16] : Fin 2 → Nat) a + S1x16.size a ≤ S256x128.size a
  inb_S256x128_S1x16_190_16 : ∀ a, (![190, 16] : Fin 2 → Nat) a + S1x16.size a ≤ S256x128.size a
  inb_S256x128_S1x16_191_16 : ∀ a, (![191, 16] : Fin 2 → Nat) a + S1x16.size a ≤ S256x128.size a
  inb_S256x128_S1x16_160_32 : ∀ a, (![160, 32] : Fin 2 → Nat) a + S1x16.size a ≤ S256x128.size a
  inb_S256x128_S1x16_161_32 : ∀ a, (![161, 32] : Fin 2 → Nat) a + S1x16.size a ≤ S256x128.size a
  inb_S256x128_S1x16_162_32 : ∀ a, (![162, 32] : Fin 2 → Nat) a + S1x16.size a ≤ S256x128.size a
  inb_S256x128_S1x16_163_32 : ∀ a, (![163, 32] : Fin 2 → Nat) a + S1x16.size a ≤ S256x128.size a
  inb_S256x128_S1x16_164_32 : ∀ a, (![164, 32] : Fin 2 → Nat) a + S1x16.size a ≤ S256x128.size a
  inb_S256x128_S1x16_165_32 : ∀ a, (![165, 32] : Fin 2 → Nat) a + S1x16.size a ≤ S256x128.size a
  inb_S256x128_S1x16_166_32 : ∀ a, (![166, 32] : Fin 2 → Nat) a + S1x16.size a ≤ S256x128.size a
  inb_S256x128_S1x16_167_32 : ∀ a, (![167, 32] : Fin 2 → Nat) a + S1x16.size a ≤ S256x128.size a
  inb_S256x128_S1x16_168_32 : ∀ a, (![168, 32] : Fin 2 → Nat) a + S1x16.size a ≤ S256x128.size a
  inb_S256x128_S1x16_169_32 : ∀ a, (![169, 32] : Fin 2 → Nat) a + S1x16.size a ≤ S256x128.size a
  inb_S256x128_S1x16_170_32 : ∀ a, (![170, 32] : Fin 2 → Nat) a + S1x16.size a ≤ S256x128.size a
  inb_S256x128_S1x16_171_32 : ∀ a, (![171, 32] : Fin 2 → Nat) a + S1x16.size a ≤ S256x128.size a
  inb_S256x128_S1x16_172_32 : ∀ a, (![172, 32] : Fin 2 → Nat) a + S1x16.size a ≤ S256x128.size a
  inb_S256x128_S1x16_173_32 : ∀ a, (![173, 32] : Fin 2 → Nat) a + S1x16.size a ≤ S256x128.size a
  inb_S256x128_S1x16_174_32 : ∀ a, (![174, 32] : Fin 2 → Nat) a + S1x16.size a ≤ S256x128.size a
  inb_S256x128_S1x16_175_32 : ∀ a, (![175, 32] : Fin 2 → Nat) a + S1x16.size a ≤ S256x128.size a
  inb_S256x128_S1x16_176_32 : ∀ a, (![176, 32] : Fin 2 → Nat) a + S1x16.size a ≤ S256x128.size a
  inb_S256x128_S1x16_177_32 : ∀ a, (![177, 32] : Fin 2 → Nat) a + S1x16.size a ≤ S256x128.size a
  inb_S256x128_S1x16_178_32 : ∀ a, (![178, 32] : Fin 2 → Nat) a + S1x16.size a ≤ S256x128.size a
  inb_S256x128_S1x16_179_32 : ∀ a, (![179, 32] : Fin 2 → Nat) a + S1x16.size a ≤ S256x128.size a
  inb_S256x128_S1x16_180_32 : ∀ a, (![180, 32] : Fin 2 → Nat) a + S1x16.size a ≤ S256x128.size a
  inb_S256x128_S1x16_181_32 : ∀ a, (![181, 32] : Fin 2 → Nat) a + S1x16.size a ≤ S256x128.size a
  inb_S256x128_S1x16_182_32 : ∀ a, (![182, 32] : Fin 2 → Nat) a + S1x16.size a ≤ S256x128.size a
  inb_S256x128_S1x16_183_32 : ∀ a, (![183, 32] : Fin 2 → Nat) a + S1x16.size a ≤ S256x128.size a
  inb_S256x128_S1x16_184_32 : ∀ a, (![184, 32] : Fin 2 → Nat) a + S1x16.size a ≤ S256x128.size a
  inb_S256x128_S1x16_185_32 : ∀ a, (![185, 32] : Fin 2 → Nat) a + S1x16.size a ≤ S256x128.size a
  inb_S256x128_S1x16_186_32 : ∀ a, (![186, 32] : Fin 2 → Nat) a + S1x16.size a ≤ S256x128.size a
  inb_S256x128_S1x16_187_32 : ∀ a, (![187, 32] : Fin 2 → Nat) a + S1x16.size a ≤ S256x128.size a
  inb_S256x128_S1x16_188_32 : ∀ a, (![188, 32] : Fin 2 → Nat) a + S1x16.size a ≤ S256x128.size a
  inb_S256x128_S1x16_189_32 : ∀ a, (![189, 32] : Fin 2 → Nat) a + S1x16.size a ≤ S256x128.size a
  inb_S256x128_S1x16_190_32 : ∀ a, (![190, 32] : Fin 2 → Nat) a + S1x16.size a ≤ S256x128.size a
  inb_S256x128_S1x16_191_32 : ∀ a, (![191, 32] : Fin 2 → Nat) a + S1x16.size a ≤ S256x128.size a
  inb_S256x128_S1x16_160_48 : ∀ a, (![160, 48] : Fin 2 → Nat) a + S1x16.size a ≤ S256x128.size a
  inb_S256x128_S1x16_161_48 : ∀ a, (![161, 48] : Fin 2 → Nat) a + S1x16.size a ≤ S256x128.size a
  inb_S256x128_S1x16_162_48 : ∀ a, (![162, 48] : Fin 2 → Nat) a + S1x16.size a ≤ S256x128.size a
  inb_S256x128_S1x16_163_48 : ∀ a, (![163, 48] : Fin 2 → Nat) a + S1x16.size a ≤ S256x128.size a
  inb_S256x128_S1x16_164_48 : ∀ a, (![164, 48] : Fin 2 → Nat) a + S1x16.size a ≤ S256x128.size a
  inb_S256x128_S1x16_165_48 : ∀ a, (![165, 48] : Fin 2 → Nat) a + S1x16.size a ≤ S256x128.size a
  inb_S256x128_S1x16_166_48 : ∀ a, (![166, 48] : Fin 2 → Nat) a + S1x16.size a ≤ S256x128.size a
  inb_S256x128_S1x16_167_48 : ∀ a, (![167, 48] : Fin 2 → Nat) a + S1x16.size a ≤ S256x128.size a
  inb_S256x128_S1x16_168_48 : ∀ a, (![168, 48] : Fin 2 → Nat) a + S1x16.size a ≤ S256x128.size a
  inb_S256x128_S1x16_169_48 : ∀ a, (![169, 48] : Fin 2 → Nat) a + S1x16.size a ≤ S256x128.size a
  inb_S256x128_S1x16_170_48 : ∀ a, (![170, 48] : Fin 2 → Nat) a + S1x16.size a ≤ S256x128.size a
  inb_S256x128_S1x16_171_48 : ∀ a, (![171, 48] : Fin 2 → Nat) a + S1x16.size a ≤ S256x128.size a
  inb_S256x128_S1x16_172_48 : ∀ a, (![172, 48] : Fin 2 → Nat) a + S1x16.size a ≤ S256x128.size a
  inb_S256x128_S1x16_173_48 : ∀ a, (![173, 48] : Fin 2 → Nat) a + S1x16.size a ≤ S256x128.size a
  inb_S256x128_S1x16_174_48 : ∀ a, (![174, 48] : Fin 2 → Nat) a + S1x16.size a ≤ S256x128.size a
  inb_S256x128_S1x16_175_48 : ∀ a, (![175, 48] : Fin 2 → Nat) a + S1x16.size a ≤ S256x128.size a
  inb_S256x128_S1x16_176_48 : ∀ a, (![176, 48] : Fin 2 → Nat) a + S1x16.size a ≤ S256x128.size a
  inb_S256x128_S1x16_177_48 : ∀ a, (![177, 48] : Fin 2 → Nat) a + S1x16.size a ≤ S256x128.size a
  inb_S256x128_S1x16_178_48 : ∀ a, (![178, 48] : Fin 2 → Nat) a + S1x16.size a ≤ S256x128.size a
  inb_S256x128_S1x16_179_48 : ∀ a, (![179, 48] : Fin 2 → Nat) a + S1x16.size a ≤ S256x128.size a
  inb_S256x128_S1x16_180_48 : ∀ a, (![180, 48] : Fin 2 → Nat) a + S1x16.size a ≤ S256x128.size a
  inb_S256x128_S1x16_181_48 : ∀ a, (![181, 48] : Fin 2 → Nat) a + S1x16.size a ≤ S256x128.size a
  inb_S256x128_S1x16_182_48 : ∀ a, (![182, 48] : Fin 2 → Nat) a + S1x16.size a ≤ S256x128.size a
  inb_S256x128_S1x16_183_48 : ∀ a, (![183, 48] : Fin 2 → Nat) a + S1x16.size a ≤ S256x128.size a
  inb_S256x128_S1x16_184_48 : ∀ a, (![184, 48] : Fin 2 → Nat) a + S1x16.size a ≤ S256x128.size a
  inb_S256x128_S1x16_185_48 : ∀ a, (![185, 48] : Fin 2 → Nat) a + S1x16.size a ≤ S256x128.size a
  inb_S256x128_S1x16_186_48 : ∀ a, (![186, 48] : Fin 2 → Nat) a + S1x16.size a ≤ S256x128.size a
  inb_S256x128_S1x16_187_48 : ∀ a, (![187, 48] : Fin 2 → Nat) a + S1x16.size a ≤ S256x128.size a
  inb_S256x128_S1x16_188_48 : ∀ a, (![188, 48] : Fin 2 → Nat) a + S1x16.size a ≤ S256x128.size a
  inb_S256x128_S1x16_189_48 : ∀ a, (![189, 48] : Fin 2 → Nat) a + S1x16.size a ≤ S256x128.size a
  inb_S256x128_S1x16_190_48 : ∀ a, (![190, 48] : Fin 2 → Nat) a + S1x16.size a ≤ S256x128.size a
  inb_S256x128_S1x16_191_48 : ∀ a, (![191, 48] : Fin 2 → Nat) a + S1x16.size a ≤ S256x128.size a
  inb_S256x128_S1x16_160_64 : ∀ a, (![160, 64] : Fin 2 → Nat) a + S1x16.size a ≤ S256x128.size a
  inb_S256x128_S1x16_161_64 : ∀ a, (![161, 64] : Fin 2 → Nat) a + S1x16.size a ≤ S256x128.size a
  inb_S256x128_S1x16_162_64 : ∀ a, (![162, 64] : Fin 2 → Nat) a + S1x16.size a ≤ S256x128.size a
  inb_S256x128_S1x16_163_64 : ∀ a, (![163, 64] : Fin 2 → Nat) a + S1x16.size a ≤ S256x128.size a
  inb_S256x128_S1x16_164_64 : ∀ a, (![164, 64] : Fin 2 → Nat) a + S1x16.size a ≤ S256x128.size a
  inb_S256x128_S1x16_165_64 : ∀ a, (![165, 64] : Fin 2 → Nat) a + S1x16.size a ≤ S256x128.size a
  inb_S256x128_S1x16_166_64 : ∀ a, (![166, 64] : Fin 2 → Nat) a + S1x16.size a ≤ S256x128.size a
  inb_S256x128_S1x16_167_64 : ∀ a, (![167, 64] : Fin 2 → Nat) a + S1x16.size a ≤ S256x128.size a
  inb_S256x128_S1x16_168_64 : ∀ a, (![168, 64] : Fin 2 → Nat) a + S1x16.size a ≤ S256x128.size a
  inb_S256x128_S1x16_169_64 : ∀ a, (![169, 64] : Fin 2 → Nat) a + S1x16.size a ≤ S256x128.size a
  inb_S256x128_S1x16_170_64 : ∀ a, (![170, 64] : Fin 2 → Nat) a + S1x16.size a ≤ S256x128.size a
  inb_S256x128_S1x16_171_64 : ∀ a, (![171, 64] : Fin 2 → Nat) a + S1x16.size a ≤ S256x128.size a
  inb_S256x128_S1x16_172_64 : ∀ a, (![172, 64] : Fin 2 → Nat) a + S1x16.size a ≤ S256x128.size a
  inb_S256x128_S1x16_173_64 : ∀ a, (![173, 64] : Fin 2 → Nat) a + S1x16.size a ≤ S256x128.size a
  inb_S256x128_S1x16_174_64 : ∀ a, (![174, 64] : Fin 2 → Nat) a + S1x16.size a ≤ S256x128.size a
  inb_S256x128_S1x16_175_64 : ∀ a, (![175, 64] : Fin 2 → Nat) a + S1x16.size a ≤ S256x128.size a
  inb_S256x128_S1x16_176_64 : ∀ a, (![176, 64] : Fin 2 → Nat) a + S1x16.size a ≤ S256x128.size a
  inb_S256x128_S1x16_177_64 : ∀ a, (![177, 64] : Fin 2 → Nat) a + S1x16.size a ≤ S256x128.size a
  inb_S256x128_S1x16_178_64 : ∀ a, (![178, 64] : Fin 2 → Nat) a + S1x16.size a ≤ S256x128.size a
  inb_S256x128_S1x16_179_64 : ∀ a, (![179, 64] : Fin 2 → Nat) a + S1x16.size a ≤ S256x128.size a
  inb_S256x128_S1x16_180_64 : ∀ a, (![180, 64] : Fin 2 → Nat) a + S1x16.size a ≤ S256x128.size a
  inb_S256x128_S1x16_181_64 : ∀ a, (![181, 64] : Fin 2 → Nat) a + S1x16.size a ≤ S256x128.size a
  inb_S256x128_S1x16_182_64 : ∀ a, (![182, 64] : Fin 2 → Nat) a + S1x16.size a ≤ S256x128.size a
  inb_S256x128_S1x16_183_64 : ∀ a, (![183, 64] : Fin 2 → Nat) a + S1x16.size a ≤ S256x128.size a
  inb_S256x128_S1x16_184_64 : ∀ a, (![184, 64] : Fin 2 → Nat) a + S1x16.size a ≤ S256x128.size a
  inb_S256x128_S1x16_185_64 : ∀ a, (![185, 64] : Fin 2 → Nat) a + S1x16.size a ≤ S256x128.size a
  inb_S256x128_S1x16_186_64 : ∀ a, (![186, 64] : Fin 2 → Nat) a + S1x16.size a ≤ S256x128.size a
  inb_S256x128_S1x16_187_64 : ∀ a, (![187, 64] : Fin 2 → Nat) a + S1x16.size a ≤ S256x128.size a
  inb_S256x128_S1x16_188_64 : ∀ a, (![188, 64] : Fin 2 → Nat) a + S1x16.size a ≤ S256x128.size a
  inb_S256x128_S1x16_189_64 : ∀ a, (![189, 64] : Fin 2 → Nat) a + S1x16.size a ≤ S256x128.size a
  inb_S256x128_S1x16_190_64 : ∀ a, (![190, 64] : Fin 2 → Nat) a + S1x16.size a ≤ S256x128.size a
  inb_S256x128_S1x16_191_64 : ∀ a, (![191, 64] : Fin 2 → Nat) a + S1x16.size a ≤ S256x128.size a
  inb_S256x128_S1x16_160_80 : ∀ a, (![160, 80] : Fin 2 → Nat) a + S1x16.size a ≤ S256x128.size a
  inb_S256x128_S1x16_161_80 : ∀ a, (![161, 80] : Fin 2 → Nat) a + S1x16.size a ≤ S256x128.size a
  inb_S256x128_S1x16_162_80 : ∀ a, (![162, 80] : Fin 2 → Nat) a + S1x16.size a ≤ S256x128.size a
  inb_S256x128_S1x16_163_80 : ∀ a, (![163, 80] : Fin 2 → Nat) a + S1x16.size a ≤ S256x128.size a
  inb_S256x128_S1x16_164_80 : ∀ a, (![164, 80] : Fin 2 → Nat) a + S1x16.size a ≤ S256x128.size a
  inb_S256x128_S1x16_165_80 : ∀ a, (![165, 80] : Fin 2 → Nat) a + S1x16.size a ≤ S256x128.size a
  inb_S256x128_S1x16_166_80 : ∀ a, (![166, 80] : Fin 2 → Nat) a + S1x16.size a ≤ S256x128.size a
  inb_S256x128_S1x16_167_80 : ∀ a, (![167, 80] : Fin 2 → Nat) a + S1x16.size a ≤ S256x128.size a
  inb_S256x128_S1x16_168_80 : ∀ a, (![168, 80] : Fin 2 → Nat) a + S1x16.size a ≤ S256x128.size a
  inb_S256x128_S1x16_169_80 : ∀ a, (![169, 80] : Fin 2 → Nat) a + S1x16.size a ≤ S256x128.size a
  inb_S256x128_S1x16_170_80 : ∀ a, (![170, 80] : Fin 2 → Nat) a + S1x16.size a ≤ S256x128.size a
  inb_S256x128_S1x16_171_80 : ∀ a, (![171, 80] : Fin 2 → Nat) a + S1x16.size a ≤ S256x128.size a
  inb_S256x128_S1x16_172_80 : ∀ a, (![172, 80] : Fin 2 → Nat) a + S1x16.size a ≤ S256x128.size a
  inb_S256x128_S1x16_173_80 : ∀ a, (![173, 80] : Fin 2 → Nat) a + S1x16.size a ≤ S256x128.size a
  inb_S256x128_S1x16_174_80 : ∀ a, (![174, 80] : Fin 2 → Nat) a + S1x16.size a ≤ S256x128.size a
  inb_S256x128_S1x16_175_80 : ∀ a, (![175, 80] : Fin 2 → Nat) a + S1x16.size a ≤ S256x128.size a
  inb_S256x128_S1x16_176_80 : ∀ a, (![176, 80] : Fin 2 → Nat) a + S1x16.size a ≤ S256x128.size a
  inb_S256x128_S1x16_177_80 : ∀ a, (![177, 80] : Fin 2 → Nat) a + S1x16.size a ≤ S256x128.size a
  inb_S256x128_S1x16_178_80 : ∀ a, (![178, 80] : Fin 2 → Nat) a + S1x16.size a ≤ S256x128.size a
  inb_S256x128_S1x16_179_80 : ∀ a, (![179, 80] : Fin 2 → Nat) a + S1x16.size a ≤ S256x128.size a
  inb_S256x128_S1x16_180_80 : ∀ a, (![180, 80] : Fin 2 → Nat) a + S1x16.size a ≤ S256x128.size a
  inb_S256x128_S1x16_181_80 : ∀ a, (![181, 80] : Fin 2 → Nat) a + S1x16.size a ≤ S256x128.size a
  inb_S256x128_S1x16_182_80 : ∀ a, (![182, 80] : Fin 2 → Nat) a + S1x16.size a ≤ S256x128.size a
  inb_S256x128_S1x16_183_80 : ∀ a, (![183, 80] : Fin 2 → Nat) a + S1x16.size a ≤ S256x128.size a
  inb_S256x128_S1x16_184_80 : ∀ a, (![184, 80] : Fin 2 → Nat) a + S1x16.size a ≤ S256x128.size a
  inb_S256x128_S1x16_185_80 : ∀ a, (![185, 80] : Fin 2 → Nat) a + S1x16.size a ≤ S256x128.size a
  inb_S256x128_S1x16_186_80 : ∀ a, (![186, 80] : Fin 2 → Nat) a + S1x16.size a ≤ S256x128.size a
  inb_S256x128_S1x16_187_80 : ∀ a, (![187, 80] : Fin 2 → Nat) a + S1x16.size a ≤ S256x128.size a
  inb_S256x128_S1x16_188_80 : ∀ a, (![188, 80] : Fin 2 → Nat) a + S1x16.size a ≤ S256x128.size a
  inb_S256x128_S1x16_189_80 : ∀ a, (![189, 80] : Fin 2 → Nat) a + S1x16.size a ≤ S256x128.size a
  inb_S256x128_S1x16_190_80 : ∀ a, (![190, 80] : Fin 2 → Nat) a + S1x16.size a ≤ S256x128.size a
  inb_S256x128_S1x16_191_80 : ∀ a, (![191, 80] : Fin 2 → Nat) a + S1x16.size a ≤ S256x128.size a
  inb_S256x128_S1x16_160_96 : ∀ a, (![160, 96] : Fin 2 → Nat) a + S1x16.size a ≤ S256x128.size a
  inb_S256x128_S1x16_161_96 : ∀ a, (![161, 96] : Fin 2 → Nat) a + S1x16.size a ≤ S256x128.size a
  inb_S256x128_S1x16_162_96 : ∀ a, (![162, 96] : Fin 2 → Nat) a + S1x16.size a ≤ S256x128.size a
  inb_S256x128_S1x16_163_96 : ∀ a, (![163, 96] : Fin 2 → Nat) a + S1x16.size a ≤ S256x128.size a
  inb_S256x128_S1x16_164_96 : ∀ a, (![164, 96] : Fin 2 → Nat) a + S1x16.size a ≤ S256x128.size a
  inb_S256x128_S1x16_165_96 : ∀ a, (![165, 96] : Fin 2 → Nat) a + S1x16.size a ≤ S256x128.size a
  inb_S256x128_S1x16_166_96 : ∀ a, (![166, 96] : Fin 2 → Nat) a + S1x16.size a ≤ S256x128.size a
  inb_S256x128_S1x16_167_96 : ∀ a, (![167, 96] : Fin 2 → Nat) a + S1x16.size a ≤ S256x128.size a
  inb_S256x128_S1x16_168_96 : ∀ a, (![168, 96] : Fin 2 → Nat) a + S1x16.size a ≤ S256x128.size a
  inb_S256x128_S1x16_169_96 : ∀ a, (![169, 96] : Fin 2 → Nat) a + S1x16.size a ≤ S256x128.size a
  inb_S256x128_S1x16_170_96 : ∀ a, (![170, 96] : Fin 2 → Nat) a + S1x16.size a ≤ S256x128.size a
  inb_S256x128_S1x16_171_96 : ∀ a, (![171, 96] : Fin 2 → Nat) a + S1x16.size a ≤ S256x128.size a
  inb_S256x128_S1x16_172_96 : ∀ a, (![172, 96] : Fin 2 → Nat) a + S1x16.size a ≤ S256x128.size a
  inb_S256x128_S1x16_173_96 : ∀ a, (![173, 96] : Fin 2 → Nat) a + S1x16.size a ≤ S256x128.size a
  inb_S256x128_S1x16_174_96 : ∀ a, (![174, 96] : Fin 2 → Nat) a + S1x16.size a ≤ S256x128.size a
  inb_S256x128_S1x16_175_96 : ∀ a, (![175, 96] : Fin 2 → Nat) a + S1x16.size a ≤ S256x128.size a
  inb_S256x128_S1x16_176_96 : ∀ a, (![176, 96] : Fin 2 → Nat) a + S1x16.size a ≤ S256x128.size a
  inb_S256x128_S1x16_177_96 : ∀ a, (![177, 96] : Fin 2 → Nat) a + S1x16.size a ≤ S256x128.size a
  inb_S256x128_S1x16_178_96 : ∀ a, (![178, 96] : Fin 2 → Nat) a + S1x16.size a ≤ S256x128.size a
  inb_S256x128_S1x16_179_96 : ∀ a, (![179, 96] : Fin 2 → Nat) a + S1x16.size a ≤ S256x128.size a
  inb_S256x128_S1x16_180_96 : ∀ a, (![180, 96] : Fin 2 → Nat) a + S1x16.size a ≤ S256x128.size a
  inb_S256x128_S1x16_181_96 : ∀ a, (![181, 96] : Fin 2 → Nat) a + S1x16.size a ≤ S256x128.size a
  inb_S256x128_S1x16_182_96 : ∀ a, (![182, 96] : Fin 2 → Nat) a + S1x16.size a ≤ S256x128.size a
  inb_S256x128_S1x16_183_96 : ∀ a, (![183, 96] : Fin 2 → Nat) a + S1x16.size a ≤ S256x128.size a
  inb_S256x128_S1x16_184_96 : ∀ a, (![184, 96] : Fin 2 → Nat) a + S1x16.size a ≤ S256x128.size a
  inb_S256x128_S1x16_185_96 : ∀ a, (![185, 96] : Fin 2 → Nat) a + S1x16.size a ≤ S256x128.size a
  inb_S256x128_S1x16_186_96 : ∀ a, (![186, 96] : Fin 2 → Nat) a + S1x16.size a ≤ S256x128.size a
  inb_S256x128_S1x16_187_96 : ∀ a, (![187, 96] : Fin 2 → Nat) a + S1x16.size a ≤ S256x128.size a
  inb_S256x128_S1x16_188_96 : ∀ a, (![188, 96] : Fin 2 → Nat) a + S1x16.size a ≤ S256x128.size a
  inb_S256x128_S1x16_189_96 : ∀ a, (![189, 96] : Fin 2 → Nat) a + S1x16.size a ≤ S256x128.size a
  inb_S256x128_S1x16_190_96 : ∀ a, (![190, 96] : Fin 2 → Nat) a + S1x16.size a ≤ S256x128.size a
  inb_S256x128_S1x16_191_96 : ∀ a, (![191, 96] : Fin 2 → Nat) a + S1x16.size a ≤ S256x128.size a
  inb_S256x128_S1x16_160_112 : ∀ a, (![160, 112] : Fin 2 → Nat) a + S1x16.size a ≤ S256x128.size a
  inb_S256x128_S1x16_161_112 : ∀ a, (![161, 112] : Fin 2 → Nat) a + S1x16.size a ≤ S256x128.size a
  inb_S256x128_S1x16_162_112 : ∀ a, (![162, 112] : Fin 2 → Nat) a + S1x16.size a ≤ S256x128.size a
  inb_S256x128_S1x16_163_112 : ∀ a, (![163, 112] : Fin 2 → Nat) a + S1x16.size a ≤ S256x128.size a
  inb_S256x128_S1x16_164_112 : ∀ a, (![164, 112] : Fin 2 → Nat) a + S1x16.size a ≤ S256x128.size a
  inb_S256x128_S1x16_165_112 : ∀ a, (![165, 112] : Fin 2 → Nat) a + S1x16.size a ≤ S256x128.size a
  inb_S256x128_S1x16_166_112 : ∀ a, (![166, 112] : Fin 2 → Nat) a + S1x16.size a ≤ S256x128.size a
  inb_S256x128_S1x16_167_112 : ∀ a, (![167, 112] : Fin 2 → Nat) a + S1x16.size a ≤ S256x128.size a
  inb_S256x128_S1x16_168_112 : ∀ a, (![168, 112] : Fin 2 → Nat) a + S1x16.size a ≤ S256x128.size a
  inb_S256x128_S1x16_169_112 : ∀ a, (![169, 112] : Fin 2 → Nat) a + S1x16.size a ≤ S256x128.size a
  inb_S256x128_S1x16_170_112 : ∀ a, (![170, 112] : Fin 2 → Nat) a + S1x16.size a ≤ S256x128.size a
  inb_S256x128_S1x16_171_112 : ∀ a, (![171, 112] : Fin 2 → Nat) a + S1x16.size a ≤ S256x128.size a
  inb_S256x128_S1x16_172_112 : ∀ a, (![172, 112] : Fin 2 → Nat) a + S1x16.size a ≤ S256x128.size a
  inb_S256x128_S1x16_173_112 : ∀ a, (![173, 112] : Fin 2 → Nat) a + S1x16.size a ≤ S256x128.size a
  inb_S256x128_S1x16_174_112 : ∀ a, (![174, 112] : Fin 2 → Nat) a + S1x16.size a ≤ S256x128.size a
  inb_S256x128_S1x16_175_112 : ∀ a, (![175, 112] : Fin 2 → Nat) a + S1x16.size a ≤ S256x128.size a
  inb_S256x128_S1x16_176_112 : ∀ a, (![176, 112] : Fin 2 → Nat) a + S1x16.size a ≤ S256x128.size a
  inb_S256x128_S1x16_177_112 : ∀ a, (![177, 112] : Fin 2 → Nat) a + S1x16.size a ≤ S256x128.size a
  inb_S256x128_S1x16_178_112 : ∀ a, (![178, 112] : Fin 2 → Nat) a + S1x16.size a ≤ S256x128.size a
  inb_S256x128_S1x16_179_112 : ∀ a, (![179, 112] : Fin 2 → Nat) a + S1x16.size a ≤ S256x128.size a
  inb_S256x128_S1x16_180_112 : ∀ a, (![180, 112] : Fin 2 → Nat) a + S1x16.size a ≤ S256x128.size a
  inb_S256x128_S1x16_181_112 : ∀ a, (![181, 112] : Fin 2 → Nat) a + S1x16.size a ≤ S256x128.size a
  inb_S256x128_S1x16_182_112 : ∀ a, (![182, 112] : Fin 2 → Nat) a + S1x16.size a ≤ S256x128.size a
  inb_S256x128_S1x16_183_112 : ∀ a, (![183, 112] : Fin 2 → Nat) a + S1x16.size a ≤ S256x128.size a
  inb_S256x128_S1x16_184_112 : ∀ a, (![184, 112] : Fin 2 → Nat) a + S1x16.size a ≤ S256x128.size a
  inb_S256x128_S1x16_185_112 : ∀ a, (![185, 112] : Fin 2 → Nat) a + S1x16.size a ≤ S256x128.size a
  inb_S256x128_S1x16_186_112 : ∀ a, (![186, 112] : Fin 2 → Nat) a + S1x16.size a ≤ S256x128.size a
  inb_S256x128_S1x16_187_112 : ∀ a, (![187, 112] : Fin 2 → Nat) a + S1x16.size a ≤ S256x128.size a
  inb_S256x128_S1x16_188_112 : ∀ a, (![188, 112] : Fin 2 → Nat) a + S1x16.size a ≤ S256x128.size a
  inb_S256x128_S1x16_189_112 : ∀ a, (![189, 112] : Fin 2 → Nat) a + S1x16.size a ≤ S256x128.size a
  inb_S256x128_S1x16_190_112 : ∀ a, (![190, 112] : Fin 2 → Nat) a + S1x16.size a ≤ S256x128.size a
  inb_S256x128_S1x16_191_112 : ∀ a, (![191, 112] : Fin 2 → Nat) a + S1x16.size a ≤ S256x128.size a
  inb_S256x128_S1x16_192_0 : ∀ a, (![192, 0] : Fin 2 → Nat) a + S1x16.size a ≤ S256x128.size a
  inb_S256x128_S1x16_193_0 : ∀ a, (![193, 0] : Fin 2 → Nat) a + S1x16.size a ≤ S256x128.size a
  inb_S256x128_S1x16_194_0 : ∀ a, (![194, 0] : Fin 2 → Nat) a + S1x16.size a ≤ S256x128.size a
  inb_S256x128_S1x16_195_0 : ∀ a, (![195, 0] : Fin 2 → Nat) a + S1x16.size a ≤ S256x128.size a
  inb_S256x128_S1x16_196_0 : ∀ a, (![196, 0] : Fin 2 → Nat) a + S1x16.size a ≤ S256x128.size a
  inb_S256x128_S1x16_197_0 : ∀ a, (![197, 0] : Fin 2 → Nat) a + S1x16.size a ≤ S256x128.size a
  inb_S256x128_S1x16_198_0 : ∀ a, (![198, 0] : Fin 2 → Nat) a + S1x16.size a ≤ S256x128.size a
  inb_S256x128_S1x16_199_0 : ∀ a, (![199, 0] : Fin 2 → Nat) a + S1x16.size a ≤ S256x128.size a
  inb_S256x128_S1x16_200_0 : ∀ a, (![200, 0] : Fin 2 → Nat) a + S1x16.size a ≤ S256x128.size a
  inb_S256x128_S1x16_201_0 : ∀ a, (![201, 0] : Fin 2 → Nat) a + S1x16.size a ≤ S256x128.size a
  inb_S256x128_S1x16_202_0 : ∀ a, (![202, 0] : Fin 2 → Nat) a + S1x16.size a ≤ S256x128.size a
  inb_S256x128_S1x16_203_0 : ∀ a, (![203, 0] : Fin 2 → Nat) a + S1x16.size a ≤ S256x128.size a
  inb_S256x128_S1x16_204_0 : ∀ a, (![204, 0] : Fin 2 → Nat) a + S1x16.size a ≤ S256x128.size a
  inb_S256x128_S1x16_205_0 : ∀ a, (![205, 0] : Fin 2 → Nat) a + S1x16.size a ≤ S256x128.size a
  inb_S256x128_S1x16_206_0 : ∀ a, (![206, 0] : Fin 2 → Nat) a + S1x16.size a ≤ S256x128.size a
  inb_S256x128_S1x16_207_0 : ∀ a, (![207, 0] : Fin 2 → Nat) a + S1x16.size a ≤ S256x128.size a
  inb_S256x128_S1x16_208_0 : ∀ a, (![208, 0] : Fin 2 → Nat) a + S1x16.size a ≤ S256x128.size a
  inb_S256x128_S1x16_209_0 : ∀ a, (![209, 0] : Fin 2 → Nat) a + S1x16.size a ≤ S256x128.size a
  inb_S256x128_S1x16_210_0 : ∀ a, (![210, 0] : Fin 2 → Nat) a + S1x16.size a ≤ S256x128.size a
  inb_S256x128_S1x16_211_0 : ∀ a, (![211, 0] : Fin 2 → Nat) a + S1x16.size a ≤ S256x128.size a
  inb_S256x128_S1x16_212_0 : ∀ a, (![212, 0] : Fin 2 → Nat) a + S1x16.size a ≤ S256x128.size a
  inb_S256x128_S1x16_213_0 : ∀ a, (![213, 0] : Fin 2 → Nat) a + S1x16.size a ≤ S256x128.size a
  inb_S256x128_S1x16_214_0 : ∀ a, (![214, 0] : Fin 2 → Nat) a + S1x16.size a ≤ S256x128.size a
  inb_S256x128_S1x16_215_0 : ∀ a, (![215, 0] : Fin 2 → Nat) a + S1x16.size a ≤ S256x128.size a
  inb_S256x128_S1x16_216_0 : ∀ a, (![216, 0] : Fin 2 → Nat) a + S1x16.size a ≤ S256x128.size a
  inb_S256x128_S1x16_217_0 : ∀ a, (![217, 0] : Fin 2 → Nat) a + S1x16.size a ≤ S256x128.size a
  inb_S256x128_S1x16_218_0 : ∀ a, (![218, 0] : Fin 2 → Nat) a + S1x16.size a ≤ S256x128.size a
  inb_S256x128_S1x16_219_0 : ∀ a, (![219, 0] : Fin 2 → Nat) a + S1x16.size a ≤ S256x128.size a
  inb_S256x128_S1x16_220_0 : ∀ a, (![220, 0] : Fin 2 → Nat) a + S1x16.size a ≤ S256x128.size a
  inb_S256x128_S1x16_221_0 : ∀ a, (![221, 0] : Fin 2 → Nat) a + S1x16.size a ≤ S256x128.size a
  inb_S256x128_S1x16_222_0 : ∀ a, (![222, 0] : Fin 2 → Nat) a + S1x16.size a ≤ S256x128.size a
  inb_S256x128_S1x16_223_0 : ∀ a, (![223, 0] : Fin 2 → Nat) a + S1x16.size a ≤ S256x128.size a
  inb_S256x128_S1x16_192_16 : ∀ a, (![192, 16] : Fin 2 → Nat) a + S1x16.size a ≤ S256x128.size a
  inb_S256x128_S1x16_193_16 : ∀ a, (![193, 16] : Fin 2 → Nat) a + S1x16.size a ≤ S256x128.size a
  inb_S256x128_S1x16_194_16 : ∀ a, (![194, 16] : Fin 2 → Nat) a + S1x16.size a ≤ S256x128.size a
  inb_S256x128_S1x16_195_16 : ∀ a, (![195, 16] : Fin 2 → Nat) a + S1x16.size a ≤ S256x128.size a
  inb_S256x128_S1x16_196_16 : ∀ a, (![196, 16] : Fin 2 → Nat) a + S1x16.size a ≤ S256x128.size a
  inb_S256x128_S1x16_197_16 : ∀ a, (![197, 16] : Fin 2 → Nat) a + S1x16.size a ≤ S256x128.size a
  inb_S256x128_S1x16_198_16 : ∀ a, (![198, 16] : Fin 2 → Nat) a + S1x16.size a ≤ S256x128.size a
  inb_S256x128_S1x16_199_16 : ∀ a, (![199, 16] : Fin 2 → Nat) a + S1x16.size a ≤ S256x128.size a
  inb_S256x128_S1x16_200_16 : ∀ a, (![200, 16] : Fin 2 → Nat) a + S1x16.size a ≤ S256x128.size a
  inb_S256x128_S1x16_201_16 : ∀ a, (![201, 16] : Fin 2 → Nat) a + S1x16.size a ≤ S256x128.size a
  inb_S256x128_S1x16_202_16 : ∀ a, (![202, 16] : Fin 2 → Nat) a + S1x16.size a ≤ S256x128.size a
  inb_S256x128_S1x16_203_16 : ∀ a, (![203, 16] : Fin 2 → Nat) a + S1x16.size a ≤ S256x128.size a
  inb_S256x128_S1x16_204_16 : ∀ a, (![204, 16] : Fin 2 → Nat) a + S1x16.size a ≤ S256x128.size a
  inb_S256x128_S1x16_205_16 : ∀ a, (![205, 16] : Fin 2 → Nat) a + S1x16.size a ≤ S256x128.size a
  inb_S256x128_S1x16_206_16 : ∀ a, (![206, 16] : Fin 2 → Nat) a + S1x16.size a ≤ S256x128.size a
  inb_S256x128_S1x16_207_16 : ∀ a, (![207, 16] : Fin 2 → Nat) a + S1x16.size a ≤ S256x128.size a
  inb_S256x128_S1x16_208_16 : ∀ a, (![208, 16] : Fin 2 → Nat) a + S1x16.size a ≤ S256x128.size a
  inb_S256x128_S1x16_209_16 : ∀ a, (![209, 16] : Fin 2 → Nat) a + S1x16.size a ≤ S256x128.size a
  inb_S256x128_S1x16_210_16 : ∀ a, (![210, 16] : Fin 2 → Nat) a + S1x16.size a ≤ S256x128.size a
  inb_S256x128_S1x16_211_16 : ∀ a, (![211, 16] : Fin 2 → Nat) a + S1x16.size a ≤ S256x128.size a
  inb_S256x128_S1x16_212_16 : ∀ a, (![212, 16] : Fin 2 → Nat) a + S1x16.size a ≤ S256x128.size a
  inb_S256x128_S1x16_213_16 : ∀ a, (![213, 16] : Fin 2 → Nat) a + S1x16.size a ≤ S256x128.size a
  inb_S256x128_S1x16_214_16 : ∀ a, (![214, 16] : Fin 2 → Nat) a + S1x16.size a ≤ S256x128.size a
  inb_S256x128_S1x16_215_16 : ∀ a, (![215, 16] : Fin 2 → Nat) a + S1x16.size a ≤ S256x128.size a
  inb_S256x128_S1x16_216_16 : ∀ a, (![216, 16] : Fin 2 → Nat) a + S1x16.size a ≤ S256x128.size a
  inb_S256x128_S1x16_217_16 : ∀ a, (![217, 16] : Fin 2 → Nat) a + S1x16.size a ≤ S256x128.size a
  inb_S256x128_S1x16_218_16 : ∀ a, (![218, 16] : Fin 2 → Nat) a + S1x16.size a ≤ S256x128.size a
  inb_S256x128_S1x16_219_16 : ∀ a, (![219, 16] : Fin 2 → Nat) a + S1x16.size a ≤ S256x128.size a
  inb_S256x128_S1x16_220_16 : ∀ a, (![220, 16] : Fin 2 → Nat) a + S1x16.size a ≤ S256x128.size a
  inb_S256x128_S1x16_221_16 : ∀ a, (![221, 16] : Fin 2 → Nat) a + S1x16.size a ≤ S256x128.size a
  inb_S256x128_S1x16_222_16 : ∀ a, (![222, 16] : Fin 2 → Nat) a + S1x16.size a ≤ S256x128.size a
  inb_S256x128_S1x16_223_16 : ∀ a, (![223, 16] : Fin 2 → Nat) a + S1x16.size a ≤ S256x128.size a
  inb_S256x128_S1x16_192_32 : ∀ a, (![192, 32] : Fin 2 → Nat) a + S1x16.size a ≤ S256x128.size a
  inb_S256x128_S1x16_193_32 : ∀ a, (![193, 32] : Fin 2 → Nat) a + S1x16.size a ≤ S256x128.size a
  inb_S256x128_S1x16_194_32 : ∀ a, (![194, 32] : Fin 2 → Nat) a + S1x16.size a ≤ S256x128.size a
  inb_S256x128_S1x16_195_32 : ∀ a, (![195, 32] : Fin 2 → Nat) a + S1x16.size a ≤ S256x128.size a
  inb_S256x128_S1x16_196_32 : ∀ a, (![196, 32] : Fin 2 → Nat) a + S1x16.size a ≤ S256x128.size a
  inb_S256x128_S1x16_197_32 : ∀ a, (![197, 32] : Fin 2 → Nat) a + S1x16.size a ≤ S256x128.size a
  inb_S256x128_S1x16_198_32 : ∀ a, (![198, 32] : Fin 2 → Nat) a + S1x16.size a ≤ S256x128.size a
  inb_S256x128_S1x16_199_32 : ∀ a, (![199, 32] : Fin 2 → Nat) a + S1x16.size a ≤ S256x128.size a
  inb_S256x128_S1x16_200_32 : ∀ a, (![200, 32] : Fin 2 → Nat) a + S1x16.size a ≤ S256x128.size a
  inb_S256x128_S1x16_201_32 : ∀ a, (![201, 32] : Fin 2 → Nat) a + S1x16.size a ≤ S256x128.size a
  inb_S256x128_S1x16_202_32 : ∀ a, (![202, 32] : Fin 2 → Nat) a + S1x16.size a ≤ S256x128.size a
  inb_S256x128_S1x16_203_32 : ∀ a, (![203, 32] : Fin 2 → Nat) a + S1x16.size a ≤ S256x128.size a
  inb_S256x128_S1x16_204_32 : ∀ a, (![204, 32] : Fin 2 → Nat) a + S1x16.size a ≤ S256x128.size a
  inb_S256x128_S1x16_205_32 : ∀ a, (![205, 32] : Fin 2 → Nat) a + S1x16.size a ≤ S256x128.size a
  inb_S256x128_S1x16_206_32 : ∀ a, (![206, 32] : Fin 2 → Nat) a + S1x16.size a ≤ S256x128.size a
  inb_S256x128_S1x16_207_32 : ∀ a, (![207, 32] : Fin 2 → Nat) a + S1x16.size a ≤ S256x128.size a
  inb_S256x128_S1x16_208_32 : ∀ a, (![208, 32] : Fin 2 → Nat) a + S1x16.size a ≤ S256x128.size a
  inb_S256x128_S1x16_209_32 : ∀ a, (![209, 32] : Fin 2 → Nat) a + S1x16.size a ≤ S256x128.size a
  inb_S256x128_S1x16_210_32 : ∀ a, (![210, 32] : Fin 2 → Nat) a + S1x16.size a ≤ S256x128.size a
  inb_S256x128_S1x16_211_32 : ∀ a, (![211, 32] : Fin 2 → Nat) a + S1x16.size a ≤ S256x128.size a
  inb_S256x128_S1x16_212_32 : ∀ a, (![212, 32] : Fin 2 → Nat) a + S1x16.size a ≤ S256x128.size a
  inb_S256x128_S1x16_213_32 : ∀ a, (![213, 32] : Fin 2 → Nat) a + S1x16.size a ≤ S256x128.size a
  inb_S256x128_S1x16_214_32 : ∀ a, (![214, 32] : Fin 2 → Nat) a + S1x16.size a ≤ S256x128.size a
  inb_S256x128_S1x16_215_32 : ∀ a, (![215, 32] : Fin 2 → Nat) a + S1x16.size a ≤ S256x128.size a
  inb_S256x128_S1x16_216_32 : ∀ a, (![216, 32] : Fin 2 → Nat) a + S1x16.size a ≤ S256x128.size a
  inb_S256x128_S1x16_217_32 : ∀ a, (![217, 32] : Fin 2 → Nat) a + S1x16.size a ≤ S256x128.size a
  inb_S256x128_S1x16_218_32 : ∀ a, (![218, 32] : Fin 2 → Nat) a + S1x16.size a ≤ S256x128.size a
  inb_S256x128_S1x16_219_32 : ∀ a, (![219, 32] : Fin 2 → Nat) a + S1x16.size a ≤ S256x128.size a
  inb_S256x128_S1x16_220_32 : ∀ a, (![220, 32] : Fin 2 → Nat) a + S1x16.size a ≤ S256x128.size a
  inb_S256x128_S1x16_221_32 : ∀ a, (![221, 32] : Fin 2 → Nat) a + S1x16.size a ≤ S256x128.size a
  inb_S256x128_S1x16_222_32 : ∀ a, (![222, 32] : Fin 2 → Nat) a + S1x16.size a ≤ S256x128.size a
  inb_S256x128_S1x16_223_32 : ∀ a, (![223, 32] : Fin 2 → Nat) a + S1x16.size a ≤ S256x128.size a
  inb_S256x128_S1x16_192_48 : ∀ a, (![192, 48] : Fin 2 → Nat) a + S1x16.size a ≤ S256x128.size a
  inb_S256x128_S1x16_193_48 : ∀ a, (![193, 48] : Fin 2 → Nat) a + S1x16.size a ≤ S256x128.size a
  inb_S256x128_S1x16_194_48 : ∀ a, (![194, 48] : Fin 2 → Nat) a + S1x16.size a ≤ S256x128.size a
  inb_S256x128_S1x16_195_48 : ∀ a, (![195, 48] : Fin 2 → Nat) a + S1x16.size a ≤ S256x128.size a
  inb_S256x128_S1x16_196_48 : ∀ a, (![196, 48] : Fin 2 → Nat) a + S1x16.size a ≤ S256x128.size a
  inb_S256x128_S1x16_197_48 : ∀ a, (![197, 48] : Fin 2 → Nat) a + S1x16.size a ≤ S256x128.size a
  inb_S256x128_S1x16_198_48 : ∀ a, (![198, 48] : Fin 2 → Nat) a + S1x16.size a ≤ S256x128.size a
  inb_S256x128_S1x16_199_48 : ∀ a, (![199, 48] : Fin 2 → Nat) a + S1x16.size a ≤ S256x128.size a
  inb_S256x128_S1x16_200_48 : ∀ a, (![200, 48] : Fin 2 → Nat) a + S1x16.size a ≤ S256x128.size a
  inb_S256x128_S1x16_201_48 : ∀ a, (![201, 48] : Fin 2 → Nat) a + S1x16.size a ≤ S256x128.size a
  inb_S256x128_S1x16_202_48 : ∀ a, (![202, 48] : Fin 2 → Nat) a + S1x16.size a ≤ S256x128.size a
  inb_S256x128_S1x16_203_48 : ∀ a, (![203, 48] : Fin 2 → Nat) a + S1x16.size a ≤ S256x128.size a
  inb_S256x128_S1x16_204_48 : ∀ a, (![204, 48] : Fin 2 → Nat) a + S1x16.size a ≤ S256x128.size a
  inb_S256x128_S1x16_205_48 : ∀ a, (![205, 48] : Fin 2 → Nat) a + S1x16.size a ≤ S256x128.size a
  inb_S256x128_S1x16_206_48 : ∀ a, (![206, 48] : Fin 2 → Nat) a + S1x16.size a ≤ S256x128.size a
  inb_S256x128_S1x16_207_48 : ∀ a, (![207, 48] : Fin 2 → Nat) a + S1x16.size a ≤ S256x128.size a
  inb_S256x128_S1x16_208_48 : ∀ a, (![208, 48] : Fin 2 → Nat) a + S1x16.size a ≤ S256x128.size a
  inb_S256x128_S1x16_209_48 : ∀ a, (![209, 48] : Fin 2 → Nat) a + S1x16.size a ≤ S256x128.size a
  inb_S256x128_S1x16_210_48 : ∀ a, (![210, 48] : Fin 2 → Nat) a + S1x16.size a ≤ S256x128.size a
  inb_S256x128_S1x16_211_48 : ∀ a, (![211, 48] : Fin 2 → Nat) a + S1x16.size a ≤ S256x128.size a
  inb_S256x128_S1x16_212_48 : ∀ a, (![212, 48] : Fin 2 → Nat) a + S1x16.size a ≤ S256x128.size a
  inb_S256x128_S1x16_213_48 : ∀ a, (![213, 48] : Fin 2 → Nat) a + S1x16.size a ≤ S256x128.size a
  inb_S256x128_S1x16_214_48 : ∀ a, (![214, 48] : Fin 2 → Nat) a + S1x16.size a ≤ S256x128.size a
  inb_S256x128_S1x16_215_48 : ∀ a, (![215, 48] : Fin 2 → Nat) a + S1x16.size a ≤ S256x128.size a
  inb_S256x128_S1x16_216_48 : ∀ a, (![216, 48] : Fin 2 → Nat) a + S1x16.size a ≤ S256x128.size a
  inb_S256x128_S1x16_217_48 : ∀ a, (![217, 48] : Fin 2 → Nat) a + S1x16.size a ≤ S256x128.size a
  inb_S256x128_S1x16_218_48 : ∀ a, (![218, 48] : Fin 2 → Nat) a + S1x16.size a ≤ S256x128.size a
  inb_S256x128_S1x16_219_48 : ∀ a, (![219, 48] : Fin 2 → Nat) a + S1x16.size a ≤ S256x128.size a
  inb_S256x128_S1x16_220_48 : ∀ a, (![220, 48] : Fin 2 → Nat) a + S1x16.size a ≤ S256x128.size a
  inb_S256x128_S1x16_221_48 : ∀ a, (![221, 48] : Fin 2 → Nat) a + S1x16.size a ≤ S256x128.size a
  inb_S256x128_S1x16_222_48 : ∀ a, (![222, 48] : Fin 2 → Nat) a + S1x16.size a ≤ S256x128.size a
  inb_S256x128_S1x16_223_48 : ∀ a, (![223, 48] : Fin 2 → Nat) a + S1x16.size a ≤ S256x128.size a
  inb_S256x128_S1x16_192_64 : ∀ a, (![192, 64] : Fin 2 → Nat) a + S1x16.size a ≤ S256x128.size a
  inb_S256x128_S1x16_193_64 : ∀ a, (![193, 64] : Fin 2 → Nat) a + S1x16.size a ≤ S256x128.size a
  inb_S256x128_S1x16_194_64 : ∀ a, (![194, 64] : Fin 2 → Nat) a + S1x16.size a ≤ S256x128.size a
  inb_S256x128_S1x16_195_64 : ∀ a, (![195, 64] : Fin 2 → Nat) a + S1x16.size a ≤ S256x128.size a
  inb_S256x128_S1x16_196_64 : ∀ a, (![196, 64] : Fin 2 → Nat) a + S1x16.size a ≤ S256x128.size a
  inb_S256x128_S1x16_197_64 : ∀ a, (![197, 64] : Fin 2 → Nat) a + S1x16.size a ≤ S256x128.size a
  inb_S256x128_S1x16_198_64 : ∀ a, (![198, 64] : Fin 2 → Nat) a + S1x16.size a ≤ S256x128.size a
  inb_S256x128_S1x16_199_64 : ∀ a, (![199, 64] : Fin 2 → Nat) a + S1x16.size a ≤ S256x128.size a
  inb_S256x128_S1x16_200_64 : ∀ a, (![200, 64] : Fin 2 → Nat) a + S1x16.size a ≤ S256x128.size a
  inb_S256x128_S1x16_201_64 : ∀ a, (![201, 64] : Fin 2 → Nat) a + S1x16.size a ≤ S256x128.size a
  inb_S256x128_S1x16_202_64 : ∀ a, (![202, 64] : Fin 2 → Nat) a + S1x16.size a ≤ S256x128.size a
  inb_S256x128_S1x16_203_64 : ∀ a, (![203, 64] : Fin 2 → Nat) a + S1x16.size a ≤ S256x128.size a
  inb_S256x128_S1x16_204_64 : ∀ a, (![204, 64] : Fin 2 → Nat) a + S1x16.size a ≤ S256x128.size a
  inb_S256x128_S1x16_205_64 : ∀ a, (![205, 64] : Fin 2 → Nat) a + S1x16.size a ≤ S256x128.size a
  inb_S256x128_S1x16_206_64 : ∀ a, (![206, 64] : Fin 2 → Nat) a + S1x16.size a ≤ S256x128.size a
  inb_S256x128_S1x16_207_64 : ∀ a, (![207, 64] : Fin 2 → Nat) a + S1x16.size a ≤ S256x128.size a
  inb_S256x128_S1x16_208_64 : ∀ a, (![208, 64] : Fin 2 → Nat) a + S1x16.size a ≤ S256x128.size a
  inb_S256x128_S1x16_209_64 : ∀ a, (![209, 64] : Fin 2 → Nat) a + S1x16.size a ≤ S256x128.size a
  inb_S256x128_S1x16_210_64 : ∀ a, (![210, 64] : Fin 2 → Nat) a + S1x16.size a ≤ S256x128.size a
  inb_S256x128_S1x16_211_64 : ∀ a, (![211, 64] : Fin 2 → Nat) a + S1x16.size a ≤ S256x128.size a
  inb_S256x128_S1x16_212_64 : ∀ a, (![212, 64] : Fin 2 → Nat) a + S1x16.size a ≤ S256x128.size a
  inb_S256x128_S1x16_213_64 : ∀ a, (![213, 64] : Fin 2 → Nat) a + S1x16.size a ≤ S256x128.size a
  inb_S256x128_S1x16_214_64 : ∀ a, (![214, 64] : Fin 2 → Nat) a + S1x16.size a ≤ S256x128.size a
  inb_S256x128_S1x16_215_64 : ∀ a, (![215, 64] : Fin 2 → Nat) a + S1x16.size a ≤ S256x128.size a
  inb_S256x128_S1x16_216_64 : ∀ a, (![216, 64] : Fin 2 → Nat) a + S1x16.size a ≤ S256x128.size a
  inb_S256x128_S1x16_217_64 : ∀ a, (![217, 64] : Fin 2 → Nat) a + S1x16.size a ≤ S256x128.size a
  inb_S256x128_S1x16_218_64 : ∀ a, (![218, 64] : Fin 2 → Nat) a + S1x16.size a ≤ S256x128.size a
  inb_S256x128_S1x16_219_64 : ∀ a, (![219, 64] : Fin 2 → Nat) a + S1x16.size a ≤ S256x128.size a
  inb_S256x128_S1x16_220_64 : ∀ a, (![220, 64] : Fin 2 → Nat) a + S1x16.size a ≤ S256x128.size a
  inb_S256x128_S1x16_221_64 : ∀ a, (![221, 64] : Fin 2 → Nat) a + S1x16.size a ≤ S256x128.size a
  inb_S256x128_S1x16_222_64 : ∀ a, (![222, 64] : Fin 2 → Nat) a + S1x16.size a ≤ S256x128.size a
  inb_S256x128_S1x16_223_64 : ∀ a, (![223, 64] : Fin 2 → Nat) a + S1x16.size a ≤ S256x128.size a
  inb_S256x128_S1x16_192_80 : ∀ a, (![192, 80] : Fin 2 → Nat) a + S1x16.size a ≤ S256x128.size a
  inb_S256x128_S1x16_193_80 : ∀ a, (![193, 80] : Fin 2 → Nat) a + S1x16.size a ≤ S256x128.size a
  inb_S256x128_S1x16_194_80 : ∀ a, (![194, 80] : Fin 2 → Nat) a + S1x16.size a ≤ S256x128.size a
  inb_S256x128_S1x16_195_80 : ∀ a, (![195, 80] : Fin 2 → Nat) a + S1x16.size a ≤ S256x128.size a
  inb_S256x128_S1x16_196_80 : ∀ a, (![196, 80] : Fin 2 → Nat) a + S1x16.size a ≤ S256x128.size a
  inb_S256x128_S1x16_197_80 : ∀ a, (![197, 80] : Fin 2 → Nat) a + S1x16.size a ≤ S256x128.size a
  inb_S256x128_S1x16_198_80 : ∀ a, (![198, 80] : Fin 2 → Nat) a + S1x16.size a ≤ S256x128.size a
  inb_S256x128_S1x16_199_80 : ∀ a, (![199, 80] : Fin 2 → Nat) a + S1x16.size a ≤ S256x128.size a
  inb_S256x128_S1x16_200_80 : ∀ a, (![200, 80] : Fin 2 → Nat) a + S1x16.size a ≤ S256x128.size a
  inb_S256x128_S1x16_201_80 : ∀ a, (![201, 80] : Fin 2 → Nat) a + S1x16.size a ≤ S256x128.size a
  inb_S256x128_S1x16_202_80 : ∀ a, (![202, 80] : Fin 2 → Nat) a + S1x16.size a ≤ S256x128.size a
  inb_S256x128_S1x16_203_80 : ∀ a, (![203, 80] : Fin 2 → Nat) a + S1x16.size a ≤ S256x128.size a
  inb_S256x128_S1x16_204_80 : ∀ a, (![204, 80] : Fin 2 → Nat) a + S1x16.size a ≤ S256x128.size a
  inb_S256x128_S1x16_205_80 : ∀ a, (![205, 80] : Fin 2 → Nat) a + S1x16.size a ≤ S256x128.size a
  inb_S256x128_S1x16_206_80 : ∀ a, (![206, 80] : Fin 2 → Nat) a + S1x16.size a ≤ S256x128.size a
  inb_S256x128_S1x16_207_80 : ∀ a, (![207, 80] : Fin 2 → Nat) a + S1x16.size a ≤ S256x128.size a
  inb_S256x128_S1x16_208_80 : ∀ a, (![208, 80] : Fin 2 → Nat) a + S1x16.size a ≤ S256x128.size a
  inb_S256x128_S1x16_209_80 : ∀ a, (![209, 80] : Fin 2 → Nat) a + S1x16.size a ≤ S256x128.size a
  inb_S256x128_S1x16_210_80 : ∀ a, (![210, 80] : Fin 2 → Nat) a + S1x16.size a ≤ S256x128.size a
  inb_S256x128_S1x16_211_80 : ∀ a, (![211, 80] : Fin 2 → Nat) a + S1x16.size a ≤ S256x128.size a
  inb_S256x128_S1x16_212_80 : ∀ a, (![212, 80] : Fin 2 → Nat) a + S1x16.size a ≤ S256x128.size a
  inb_S256x128_S1x16_213_80 : ∀ a, (![213, 80] : Fin 2 → Nat) a + S1x16.size a ≤ S256x128.size a
  inb_S256x128_S1x16_214_80 : ∀ a, (![214, 80] : Fin 2 → Nat) a + S1x16.size a ≤ S256x128.size a
  inb_S256x128_S1x16_215_80 : ∀ a, (![215, 80] : Fin 2 → Nat) a + S1x16.size a ≤ S256x128.size a
  inb_S256x128_S1x16_216_80 : ∀ a, (![216, 80] : Fin 2 → Nat) a + S1x16.size a ≤ S256x128.size a
  inb_S256x128_S1x16_217_80 : ∀ a, (![217, 80] : Fin 2 → Nat) a + S1x16.size a ≤ S256x128.size a
  inb_S256x128_S1x16_218_80 : ∀ a, (![218, 80] : Fin 2 → Nat) a + S1x16.size a ≤ S256x128.size a
  inb_S256x128_S1x16_219_80 : ∀ a, (![219, 80] : Fin 2 → Nat) a + S1x16.size a ≤ S256x128.size a
  inb_S256x128_S1x16_220_80 : ∀ a, (![220, 80] : Fin 2 → Nat) a + S1x16.size a ≤ S256x128.size a
  inb_S256x128_S1x16_221_80 : ∀ a, (![221, 80] : Fin 2 → Nat) a + S1x16.size a ≤ S256x128.size a
  inb_S256x128_S1x16_222_80 : ∀ a, (![222, 80] : Fin 2 → Nat) a + S1x16.size a ≤ S256x128.size a
  inb_S256x128_S1x16_223_80 : ∀ a, (![223, 80] : Fin 2 → Nat) a + S1x16.size a ≤ S256x128.size a
  inb_S256x128_S1x16_192_96 : ∀ a, (![192, 96] : Fin 2 → Nat) a + S1x16.size a ≤ S256x128.size a
  inb_S256x128_S1x16_193_96 : ∀ a, (![193, 96] : Fin 2 → Nat) a + S1x16.size a ≤ S256x128.size a
  inb_S256x128_S1x16_194_96 : ∀ a, (![194, 96] : Fin 2 → Nat) a + S1x16.size a ≤ S256x128.size a
  inb_S256x128_S1x16_195_96 : ∀ a, (![195, 96] : Fin 2 → Nat) a + S1x16.size a ≤ S256x128.size a
  inb_S256x128_S1x16_196_96 : ∀ a, (![196, 96] : Fin 2 → Nat) a + S1x16.size a ≤ S256x128.size a
  inb_S256x128_S1x16_197_96 : ∀ a, (![197, 96] : Fin 2 → Nat) a + S1x16.size a ≤ S256x128.size a
  inb_S256x128_S1x16_198_96 : ∀ a, (![198, 96] : Fin 2 → Nat) a + S1x16.size a ≤ S256x128.size a
  inb_S256x128_S1x16_199_96 : ∀ a, (![199, 96] : Fin 2 → Nat) a + S1x16.size a ≤ S256x128.size a
  inb_S256x128_S1x16_200_96 : ∀ a, (![200, 96] : Fin 2 → Nat) a + S1x16.size a ≤ S256x128.size a
  inb_S256x128_S1x16_201_96 : ∀ a, (![201, 96] : Fin 2 → Nat) a + S1x16.size a ≤ S256x128.size a
  inb_S256x128_S1x16_202_96 : ∀ a, (![202, 96] : Fin 2 → Nat) a + S1x16.size a ≤ S256x128.size a
  inb_S256x128_S1x16_203_96 : ∀ a, (![203, 96] : Fin 2 → Nat) a + S1x16.size a ≤ S256x128.size a
  inb_S256x128_S1x16_204_96 : ∀ a, (![204, 96] : Fin 2 → Nat) a + S1x16.size a ≤ S256x128.size a
  inb_S256x128_S1x16_205_96 : ∀ a, (![205, 96] : Fin 2 → Nat) a + S1x16.size a ≤ S256x128.size a
  inb_S256x128_S1x16_206_96 : ∀ a, (![206, 96] : Fin 2 → Nat) a + S1x16.size a ≤ S256x128.size a
  inb_S256x128_S1x16_207_96 : ∀ a, (![207, 96] : Fin 2 → Nat) a + S1x16.size a ≤ S256x128.size a
  inb_S256x128_S1x16_208_96 : ∀ a, (![208, 96] : Fin 2 → Nat) a + S1x16.size a ≤ S256x128.size a
  inb_S256x128_S1x16_209_96 : ∀ a, (![209, 96] : Fin 2 → Nat) a + S1x16.size a ≤ S256x128.size a
  inb_S256x128_S1x16_210_96 : ∀ a, (![210, 96] : Fin 2 → Nat) a + S1x16.size a ≤ S256x128.size a
  inb_S256x128_S1x16_211_96 : ∀ a, (![211, 96] : Fin 2 → Nat) a + S1x16.size a ≤ S256x128.size a
  inb_S256x128_S1x16_212_96 : ∀ a, (![212, 96] : Fin 2 → Nat) a + S1x16.size a ≤ S256x128.size a
  inb_S256x128_S1x16_213_96 : ∀ a, (![213, 96] : Fin 2 → Nat) a + S1x16.size a ≤ S256x128.size a
  inb_S256x128_S1x16_214_96 : ∀ a, (![214, 96] : Fin 2 → Nat) a + S1x16.size a ≤ S256x128.size a
  inb_S256x128_S1x16_215_96 : ∀ a, (![215, 96] : Fin 2 → Nat) a + S1x16.size a ≤ S256x128.size a
  inb_S256x128_S1x16_216_96 : ∀ a, (![216, 96] : Fin 2 → Nat) a + S1x16.size a ≤ S256x128.size a
  inb_S256x128_S1x16_217_96 : ∀ a, (![217, 96] : Fin 2 → Nat) a + S1x16.size a ≤ S256x128.size a
  inb_S256x128_S1x16_218_96 : ∀ a, (![218, 96] : Fin 2 → Nat) a + S1x16.size a ≤ S256x128.size a
  inb_S256x128_S1x16_219_96 : ∀ a, (![219, 96] : Fin 2 → Nat) a + S1x16.size a ≤ S256x128.size a
  inb_S256x128_S1x16_220_96 : ∀ a, (![220, 96] : Fin 2 → Nat) a + S1x16.size a ≤ S256x128.size a
  inb_S256x128_S1x16_221_96 : ∀ a, (![221, 96] : Fin 2 → Nat) a + S1x16.size a ≤ S256x128.size a
  inb_S256x128_S1x16_222_96 : ∀ a, (![222, 96] : Fin 2 → Nat) a + S1x16.size a ≤ S256x128.size a
  inb_S256x128_S1x16_223_96 : ∀ a, (![223, 96] : Fin 2 → Nat) a + S1x16.size a ≤ S256x128.size a
  inb_S256x128_S1x16_192_112 : ∀ a, (![192, 112] : Fin 2 → Nat) a + S1x16.size a ≤ S256x128.size a
  inb_S256x128_S1x16_193_112 : ∀ a, (![193, 112] : Fin 2 → Nat) a + S1x16.size a ≤ S256x128.size a
  inb_S256x128_S1x16_194_112 : ∀ a, (![194, 112] : Fin 2 → Nat) a + S1x16.size a ≤ S256x128.size a
  inb_S256x128_S1x16_195_112 : ∀ a, (![195, 112] : Fin 2 → Nat) a + S1x16.size a ≤ S256x128.size a
  inb_S256x128_S1x16_196_112 : ∀ a, (![196, 112] : Fin 2 → Nat) a + S1x16.size a ≤ S256x128.size a
  inb_S256x128_S1x16_197_112 : ∀ a, (![197, 112] : Fin 2 → Nat) a + S1x16.size a ≤ S256x128.size a
  inb_S256x128_S1x16_198_112 : ∀ a, (![198, 112] : Fin 2 → Nat) a + S1x16.size a ≤ S256x128.size a
  inb_S256x128_S1x16_199_112 : ∀ a, (![199, 112] : Fin 2 → Nat) a + S1x16.size a ≤ S256x128.size a
  inb_S256x128_S1x16_200_112 : ∀ a, (![200, 112] : Fin 2 → Nat) a + S1x16.size a ≤ S256x128.size a
  inb_S256x128_S1x16_201_112 : ∀ a, (![201, 112] : Fin 2 → Nat) a + S1x16.size a ≤ S256x128.size a
  inb_S256x128_S1x16_202_112 : ∀ a, (![202, 112] : Fin 2 → Nat) a + S1x16.size a ≤ S256x128.size a
  inb_S256x128_S1x16_203_112 : ∀ a, (![203, 112] : Fin 2 → Nat) a + S1x16.size a ≤ S256x128.size a
  inb_S256x128_S1x16_204_112 : ∀ a, (![204, 112] : Fin 2 → Nat) a + S1x16.size a ≤ S256x128.size a
  inb_S256x128_S1x16_205_112 : ∀ a, (![205, 112] : Fin 2 → Nat) a + S1x16.size a ≤ S256x128.size a
  inb_S256x128_S1x16_206_112 : ∀ a, (![206, 112] : Fin 2 → Nat) a + S1x16.size a ≤ S256x128.size a
  inb_S256x128_S1x16_207_112 : ∀ a, (![207, 112] : Fin 2 → Nat) a + S1x16.size a ≤ S256x128.size a
  inb_S256x128_S1x16_208_112 : ∀ a, (![208, 112] : Fin 2 → Nat) a + S1x16.size a ≤ S256x128.size a
  inb_S256x128_S1x16_209_112 : ∀ a, (![209, 112] : Fin 2 → Nat) a + S1x16.size a ≤ S256x128.size a
  inb_S256x128_S1x16_210_112 : ∀ a, (![210, 112] : Fin 2 → Nat) a + S1x16.size a ≤ S256x128.size a
  inb_S256x128_S1x16_211_112 : ∀ a, (![211, 112] : Fin 2 → Nat) a + S1x16.size a ≤ S256x128.size a
  inb_S256x128_S1x16_212_112 : ∀ a, (![212, 112] : Fin 2 → Nat) a + S1x16.size a ≤ S256x128.size a
  inb_S256x128_S1x16_213_112 : ∀ a, (![213, 112] : Fin 2 → Nat) a + S1x16.size a ≤ S256x128.size a
  inb_S256x128_S1x16_214_112 : ∀ a, (![214, 112] : Fin 2 → Nat) a + S1x16.size a ≤ S256x128.size a
  inb_S256x128_S1x16_215_112 : ∀ a, (![215, 112] : Fin 2 → Nat) a + S1x16.size a ≤ S256x128.size a
  inb_S256x128_S1x16_216_112 : ∀ a, (![216, 112] : Fin 2 → Nat) a + S1x16.size a ≤ S256x128.size a
  inb_S256x128_S1x16_217_112 : ∀ a, (![217, 112] : Fin 2 → Nat) a + S1x16.size a ≤ S256x128.size a
  inb_S256x128_S1x16_218_112 : ∀ a, (![218, 112] : Fin 2 → Nat) a + S1x16.size a ≤ S256x128.size a
  inb_S256x128_S1x16_219_112 : ∀ a, (![219, 112] : Fin 2 → Nat) a + S1x16.size a ≤ S256x128.size a
  inb_S256x128_S1x16_220_112 : ∀ a, (![220, 112] : Fin 2 → Nat) a + S1x16.size a ≤ S256x128.size a
  inb_S256x128_S1x16_221_112 : ∀ a, (![221, 112] : Fin 2 → Nat) a + S1x16.size a ≤ S256x128.size a
  inb_S256x128_S1x16_222_112 : ∀ a, (![222, 112] : Fin 2 → Nat) a + S1x16.size a ≤ S256x128.size a
  inb_S256x128_S1x16_223_112 : ∀ a, (![223, 112] : Fin 2 → Nat) a + S1x16.size a ≤ S256x128.size a
  inb_S256x128_S1x16_224_0 : ∀ a, (![224, 0] : Fin 2 → Nat) a + S1x16.size a ≤ S256x128.size a
  inb_S256x128_S1x16_225_0 : ∀ a, (![225, 0] : Fin 2 → Nat) a + S1x16.size a ≤ S256x128.size a
  inb_S256x128_S1x16_226_0 : ∀ a, (![226, 0] : Fin 2 → Nat) a + S1x16.size a ≤ S256x128.size a
  inb_S256x128_S1x16_227_0 : ∀ a, (![227, 0] : Fin 2 → Nat) a + S1x16.size a ≤ S256x128.size a
  inb_S256x128_S1x16_228_0 : ∀ a, (![228, 0] : Fin 2 → Nat) a + S1x16.size a ≤ S256x128.size a
  inb_S256x128_S1x16_229_0 : ∀ a, (![229, 0] : Fin 2 → Nat) a + S1x16.size a ≤ S256x128.size a
  inb_S256x128_S1x16_230_0 : ∀ a, (![230, 0] : Fin 2 → Nat) a + S1x16.size a ≤ S256x128.size a
  inb_S256x128_S1x16_231_0 : ∀ a, (![231, 0] : Fin 2 → Nat) a + S1x16.size a ≤ S256x128.size a
  inb_S256x128_S1x16_232_0 : ∀ a, (![232, 0] : Fin 2 → Nat) a + S1x16.size a ≤ S256x128.size a
  inb_S256x128_S1x16_233_0 : ∀ a, (![233, 0] : Fin 2 → Nat) a + S1x16.size a ≤ S256x128.size a
  inb_S256x128_S1x16_234_0 : ∀ a, (![234, 0] : Fin 2 → Nat) a + S1x16.size a ≤ S256x128.size a
  inb_S256x128_S1x16_235_0 : ∀ a, (![235, 0] : Fin 2 → Nat) a + S1x16.size a ≤ S256x128.size a
  inb_S256x128_S1x16_236_0 : ∀ a, (![236, 0] : Fin 2 → Nat) a + S1x16.size a ≤ S256x128.size a
  inb_S256x128_S1x16_237_0 : ∀ a, (![237, 0] : Fin 2 → Nat) a + S1x16.size a ≤ S256x128.size a
  inb_S256x128_S1x16_238_0 : ∀ a, (![238, 0] : Fin 2 → Nat) a + S1x16.size a ≤ S256x128.size a
  inb_S256x128_S1x16_239_0 : ∀ a, (![239, 0] : Fin 2 → Nat) a + S1x16.size a ≤ S256x128.size a
  inb_S256x128_S1x16_240_0 : ∀ a, (![240, 0] : Fin 2 → Nat) a + S1x16.size a ≤ S256x128.size a
  inb_S256x128_S1x16_241_0 : ∀ a, (![241, 0] : Fin 2 → Nat) a + S1x16.size a ≤ S256x128.size a
  inb_S256x128_S1x16_242_0 : ∀ a, (![242, 0] : Fin 2 → Nat) a + S1x16.size a ≤ S256x128.size a
  inb_S256x128_S1x16_243_0 : ∀ a, (![243, 0] : Fin 2 → Nat) a + S1x16.size a ≤ S256x128.size a
  inb_S256x128_S1x16_244_0 : ∀ a, (![244, 0] : Fin 2 → Nat) a + S1x16.size a ≤ S256x128.size a
  inb_S256x128_S1x16_245_0 : ∀ a, (![245, 0] : Fin 2 → Nat) a + S1x16.size a ≤ S256x128.size a
  inb_S256x128_S1x16_246_0 : ∀ a, (![246, 0] : Fin 2 → Nat) a + S1x16.size a ≤ S256x128.size a
  inb_S256x128_S1x16_247_0 : ∀ a, (![247, 0] : Fin 2 → Nat) a + S1x16.size a ≤ S256x128.size a
  inb_S256x128_S1x16_248_0 : ∀ a, (![248, 0] : Fin 2 → Nat) a + S1x16.size a ≤ S256x128.size a
  inb_S256x128_S1x16_249_0 : ∀ a, (![249, 0] : Fin 2 → Nat) a + S1x16.size a ≤ S256x128.size a
  inb_S256x128_S1x16_250_0 : ∀ a, (![250, 0] : Fin 2 → Nat) a + S1x16.size a ≤ S256x128.size a
  inb_S256x128_S1x16_251_0 : ∀ a, (![251, 0] : Fin 2 → Nat) a + S1x16.size a ≤ S256x128.size a
  inb_S256x128_S1x16_252_0 : ∀ a, (![252, 0] : Fin 2 → Nat) a + S1x16.size a ≤ S256x128.size a
  inb_S256x128_S1x16_253_0 : ∀ a, (![253, 0] : Fin 2 → Nat) a + S1x16.size a ≤ S256x128.size a
  inb_S256x128_S1x16_254_0 : ∀ a, (![254, 0] : Fin 2 → Nat) a + S1x16.size a ≤ S256x128.size a
  inb_S256x128_S1x16_255_0 : ∀ a, (![255, 0] : Fin 2 → Nat) a + S1x16.size a ≤ S256x128.size a
  inb_S256x128_S1x16_224_16 : ∀ a, (![224, 16] : Fin 2 → Nat) a + S1x16.size a ≤ S256x128.size a
  inb_S256x128_S1x16_225_16 : ∀ a, (![225, 16] : Fin 2 → Nat) a + S1x16.size a ≤ S256x128.size a
  inb_S256x128_S1x16_226_16 : ∀ a, (![226, 16] : Fin 2 → Nat) a + S1x16.size a ≤ S256x128.size a
  inb_S256x128_S1x16_227_16 : ∀ a, (![227, 16] : Fin 2 → Nat) a + S1x16.size a ≤ S256x128.size a
  inb_S256x128_S1x16_228_16 : ∀ a, (![228, 16] : Fin 2 → Nat) a + S1x16.size a ≤ S256x128.size a
  inb_S256x128_S1x16_229_16 : ∀ a, (![229, 16] : Fin 2 → Nat) a + S1x16.size a ≤ S256x128.size a
  inb_S256x128_S1x16_230_16 : ∀ a, (![230, 16] : Fin 2 → Nat) a + S1x16.size a ≤ S256x128.size a
  inb_S256x128_S1x16_231_16 : ∀ a, (![231, 16] : Fin 2 → Nat) a + S1x16.size a ≤ S256x128.size a
  inb_S256x128_S1x16_232_16 : ∀ a, (![232, 16] : Fin 2 → Nat) a + S1x16.size a ≤ S256x128.size a
  inb_S256x128_S1x16_233_16 : ∀ a, (![233, 16] : Fin 2 → Nat) a + S1x16.size a ≤ S256x128.size a
  inb_S256x128_S1x16_234_16 : ∀ a, (![234, 16] : Fin 2 → Nat) a + S1x16.size a ≤ S256x128.size a
  inb_S256x128_S1x16_235_16 : ∀ a, (![235, 16] : Fin 2 → Nat) a + S1x16.size a ≤ S256x128.size a
  inb_S256x128_S1x16_236_16 : ∀ a, (![236, 16] : Fin 2 → Nat) a + S1x16.size a ≤ S256x128.size a
  inb_S256x128_S1x16_237_16 : ∀ a, (![237, 16] : Fin 2 → Nat) a + S1x16.size a ≤ S256x128.size a
  inb_S256x128_S1x16_238_16 : ∀ a, (![238, 16] : Fin 2 → Nat) a + S1x16.size a ≤ S256x128.size a
  inb_S256x128_S1x16_239_16 : ∀ a, (![239, 16] : Fin 2 → Nat) a + S1x16.size a ≤ S256x128.size a
  inb_S256x128_S1x16_240_16 : ∀ a, (![240, 16] : Fin 2 → Nat) a + S1x16.size a ≤ S256x128.size a
  inb_S256x128_S1x16_241_16 : ∀ a, (![241, 16] : Fin 2 → Nat) a + S1x16.size a ≤ S256x128.size a
  inb_S256x128_S1x16_242_16 : ∀ a, (![242, 16] : Fin 2 → Nat) a + S1x16.size a ≤ S256x128.size a
  inb_S256x128_S1x16_243_16 : ∀ a, (![243, 16] : Fin 2 → Nat) a + S1x16.size a ≤ S256x128.size a
  inb_S256x128_S1x16_244_16 : ∀ a, (![244, 16] : Fin 2 → Nat) a + S1x16.size a ≤ S256x128.size a
  inb_S256x128_S1x16_245_16 : ∀ a, (![245, 16] : Fin 2 → Nat) a + S1x16.size a ≤ S256x128.size a
  inb_S256x128_S1x16_246_16 : ∀ a, (![246, 16] : Fin 2 → Nat) a + S1x16.size a ≤ S256x128.size a
  inb_S256x128_S1x16_247_16 : ∀ a, (![247, 16] : Fin 2 → Nat) a + S1x16.size a ≤ S256x128.size a
  inb_S256x128_S1x16_248_16 : ∀ a, (![248, 16] : Fin 2 → Nat) a + S1x16.size a ≤ S256x128.size a
  inb_S256x128_S1x16_249_16 : ∀ a, (![249, 16] : Fin 2 → Nat) a + S1x16.size a ≤ S256x128.size a
  inb_S256x128_S1x16_250_16 : ∀ a, (![250, 16] : Fin 2 → Nat) a + S1x16.size a ≤ S256x128.size a
  inb_S256x128_S1x16_251_16 : ∀ a, (![251, 16] : Fin 2 → Nat) a + S1x16.size a ≤ S256x128.size a
  inb_S256x128_S1x16_252_16 : ∀ a, (![252, 16] : Fin 2 → Nat) a + S1x16.size a ≤ S256x128.size a
  inb_S256x128_S1x16_253_16 : ∀ a, (![253, 16] : Fin 2 → Nat) a + S1x16.size a ≤ S256x128.size a
  inb_S256x128_S1x16_254_16 : ∀ a, (![254, 16] : Fin 2 → Nat) a + S1x16.size a ≤ S256x128.size a
  inb_S256x128_S1x16_255_16 : ∀ a, (![255, 16] : Fin 2 → Nat) a + S1x16.size a ≤ S256x128.size a
  inb_S256x128_S1x16_224_32 : ∀ a, (![224, 32] : Fin 2 → Nat) a + S1x16.size a ≤ S256x128.size a
  inb_S256x128_S1x16_225_32 : ∀ a, (![225, 32] : Fin 2 → Nat) a + S1x16.size a ≤ S256x128.size a
  inb_S256x128_S1x16_226_32 : ∀ a, (![226, 32] : Fin 2 → Nat) a + S1x16.size a ≤ S256x128.size a
  inb_S256x128_S1x16_227_32 : ∀ a, (![227, 32] : Fin 2 → Nat) a + S1x16.size a ≤ S256x128.size a
  inb_S256x128_S1x16_228_32 : ∀ a, (![228, 32] : Fin 2 → Nat) a + S1x16.size a ≤ S256x128.size a
  inb_S256x128_S1x16_229_32 : ∀ a, (![229, 32] : Fin 2 → Nat) a + S1x16.size a ≤ S256x128.size a
  inb_S256x128_S1x16_230_32 : ∀ a, (![230, 32] : Fin 2 → Nat) a + S1x16.size a ≤ S256x128.size a
  inb_S256x128_S1x16_231_32 : ∀ a, (![231, 32] : Fin 2 → Nat) a + S1x16.size a ≤ S256x128.size a
  inb_S256x128_S1x16_232_32 : ∀ a, (![232, 32] : Fin 2 → Nat) a + S1x16.size a ≤ S256x128.size a
  inb_S256x128_S1x16_233_32 : ∀ a, (![233, 32] : Fin 2 → Nat) a + S1x16.size a ≤ S256x128.size a
  inb_S256x128_S1x16_234_32 : ∀ a, (![234, 32] : Fin 2 → Nat) a + S1x16.size a ≤ S256x128.size a
  inb_S256x128_S1x16_235_32 : ∀ a, (![235, 32] : Fin 2 → Nat) a + S1x16.size a ≤ S256x128.size a
  inb_S256x128_S1x16_236_32 : ∀ a, (![236, 32] : Fin 2 → Nat) a + S1x16.size a ≤ S256x128.size a
  inb_S256x128_S1x16_237_32 : ∀ a, (![237, 32] : Fin 2 → Nat) a + S1x16.size a ≤ S256x128.size a
  inb_S256x128_S1x16_238_32 : ∀ a, (![238, 32] : Fin 2 → Nat) a + S1x16.size a ≤ S256x128.size a
  inb_S256x128_S1x16_239_32 : ∀ a, (![239, 32] : Fin 2 → Nat) a + S1x16.size a ≤ S256x128.size a
  inb_S256x128_S1x16_240_32 : ∀ a, (![240, 32] : Fin 2 → Nat) a + S1x16.size a ≤ S256x128.size a
  inb_S256x128_S1x16_241_32 : ∀ a, (![241, 32] : Fin 2 → Nat) a + S1x16.size a ≤ S256x128.size a
  inb_S256x128_S1x16_242_32 : ∀ a, (![242, 32] : Fin 2 → Nat) a + S1x16.size a ≤ S256x128.size a
  inb_S256x128_S1x16_243_32 : ∀ a, (![243, 32] : Fin 2 → Nat) a + S1x16.size a ≤ S256x128.size a
  inb_S256x128_S1x16_244_32 : ∀ a, (![244, 32] : Fin 2 → Nat) a + S1x16.size a ≤ S256x128.size a
  inb_S256x128_S1x16_245_32 : ∀ a, (![245, 32] : Fin 2 → Nat) a + S1x16.size a ≤ S256x128.size a
  inb_S256x128_S1x16_246_32 : ∀ a, (![246, 32] : Fin 2 → Nat) a + S1x16.size a ≤ S256x128.size a
  inb_S256x128_S1x16_247_32 : ∀ a, (![247, 32] : Fin 2 → Nat) a + S1x16.size a ≤ S256x128.size a
  inb_S256x128_S1x16_248_32 : ∀ a, (![248, 32] : Fin 2 → Nat) a + S1x16.size a ≤ S256x128.size a
  inb_S256x128_S1x16_249_32 : ∀ a, (![249, 32] : Fin 2 → Nat) a + S1x16.size a ≤ S256x128.size a
  inb_S256x128_S1x16_250_32 : ∀ a, (![250, 32] : Fin 2 → Nat) a + S1x16.size a ≤ S256x128.size a
  inb_S256x128_S1x16_251_32 : ∀ a, (![251, 32] : Fin 2 → Nat) a + S1x16.size a ≤ S256x128.size a
  inb_S256x128_S1x16_252_32 : ∀ a, (![252, 32] : Fin 2 → Nat) a + S1x16.size a ≤ S256x128.size a
  inb_S256x128_S1x16_253_32 : ∀ a, (![253, 32] : Fin 2 → Nat) a + S1x16.size a ≤ S256x128.size a
  inb_S256x128_S1x16_254_32 : ∀ a, (![254, 32] : Fin 2 → Nat) a + S1x16.size a ≤ S256x128.size a
  inb_S256x128_S1x16_255_32 : ∀ a, (![255, 32] : Fin 2 → Nat) a + S1x16.size a ≤ S256x128.size a
  inb_S256x128_S1x16_224_48 : ∀ a, (![224, 48] : Fin 2 → Nat) a + S1x16.size a ≤ S256x128.size a
  inb_S256x128_S1x16_225_48 : ∀ a, (![225, 48] : Fin 2 → Nat) a + S1x16.size a ≤ S256x128.size a
  inb_S256x128_S1x16_226_48 : ∀ a, (![226, 48] : Fin 2 → Nat) a + S1x16.size a ≤ S256x128.size a
  inb_S256x128_S1x16_227_48 : ∀ a, (![227, 48] : Fin 2 → Nat) a + S1x16.size a ≤ S256x128.size a
  inb_S256x128_S1x16_228_48 : ∀ a, (![228, 48] : Fin 2 → Nat) a + S1x16.size a ≤ S256x128.size a
  inb_S256x128_S1x16_229_48 : ∀ a, (![229, 48] : Fin 2 → Nat) a + S1x16.size a ≤ S256x128.size a
  inb_S256x128_S1x16_230_48 : ∀ a, (![230, 48] : Fin 2 → Nat) a + S1x16.size a ≤ S256x128.size a
  inb_S256x128_S1x16_231_48 : ∀ a, (![231, 48] : Fin 2 → Nat) a + S1x16.size a ≤ S256x128.size a
  inb_S256x128_S1x16_232_48 : ∀ a, (![232, 48] : Fin 2 → Nat) a + S1x16.size a ≤ S256x128.size a
  inb_S256x128_S1x16_233_48 : ∀ a, (![233, 48] : Fin 2 → Nat) a + S1x16.size a ≤ S256x128.size a
  inb_S256x128_S1x16_234_48 : ∀ a, (![234, 48] : Fin 2 → Nat) a + S1x16.size a ≤ S256x128.size a
  inb_S256x128_S1x16_235_48 : ∀ a, (![235, 48] : Fin 2 → Nat) a + S1x16.size a ≤ S256x128.size a
  inb_S256x128_S1x16_236_48 : ∀ a, (![236, 48] : Fin 2 → Nat) a + S1x16.size a ≤ S256x128.size a
  inb_S256x128_S1x16_237_48 : ∀ a, (![237, 48] : Fin 2 → Nat) a + S1x16.size a ≤ S256x128.size a
  inb_S256x128_S1x16_238_48 : ∀ a, (![238, 48] : Fin 2 → Nat) a + S1x16.size a ≤ S256x128.size a
  inb_S256x128_S1x16_239_48 : ∀ a, (![239, 48] : Fin 2 → Nat) a + S1x16.size a ≤ S256x128.size a
  inb_S256x128_S1x16_240_48 : ∀ a, (![240, 48] : Fin 2 → Nat) a + S1x16.size a ≤ S256x128.size a
  inb_S256x128_S1x16_241_48 : ∀ a, (![241, 48] : Fin 2 → Nat) a + S1x16.size a ≤ S256x128.size a
  inb_S256x128_S1x16_242_48 : ∀ a, (![242, 48] : Fin 2 → Nat) a + S1x16.size a ≤ S256x128.size a
  inb_S256x128_S1x16_243_48 : ∀ a, (![243, 48] : Fin 2 → Nat) a + S1x16.size a ≤ S256x128.size a
  inb_S256x128_S1x16_244_48 : ∀ a, (![244, 48] : Fin 2 → Nat) a + S1x16.size a ≤ S256x128.size a
  inb_S256x128_S1x16_245_48 : ∀ a, (![245, 48] : Fin 2 → Nat) a + S1x16.size a ≤ S256x128.size a
  inb_S256x128_S1x16_246_48 : ∀ a, (![246, 48] : Fin 2 → Nat) a + S1x16.size a ≤ S256x128.size a
  inb_S256x128_S1x16_247_48 : ∀ a, (![247, 48] : Fin 2 → Nat) a + S1x16.size a ≤ S256x128.size a
  inb_S256x128_S1x16_248_48 : ∀ a, (![248, 48] : Fin 2 → Nat) a + S1x16.size a ≤ S256x128.size a
  inb_S256x128_S1x16_249_48 : ∀ a, (![249, 48] : Fin 2 → Nat) a + S1x16.size a ≤ S256x128.size a
  inb_S256x128_S1x16_250_48 : ∀ a, (![250, 48] : Fin 2 → Nat) a + S1x16.size a ≤ S256x128.size a
  inb_S256x128_S1x16_251_48 : ∀ a, (![251, 48] : Fin 2 → Nat) a + S1x16.size a ≤ S256x128.size a
  inb_S256x128_S1x16_252_48 : ∀ a, (![252, 48] : Fin 2 → Nat) a + S1x16.size a ≤ S256x128.size a
  inb_S256x128_S1x16_253_48 : ∀ a, (![253, 48] : Fin 2 → Nat) a + S1x16.size a ≤ S256x128.size a
  inb_S256x128_S1x16_254_48 : ∀ a, (![254, 48] : Fin 2 → Nat) a + S1x16.size a ≤ S256x128.size a
  inb_S256x128_S1x16_255_48 : ∀ a, (![255, 48] : Fin 2 → Nat) a + S1x16.size a ≤ S256x128.size a
  inb_S256x128_S1x16_224_64 : ∀ a, (![224, 64] : Fin 2 → Nat) a + S1x16.size a ≤ S256x128.size a
  inb_S256x128_S1x16_225_64 : ∀ a, (![225, 64] : Fin 2 → Nat) a + S1x16.size a ≤ S256x128.size a
  inb_S256x128_S1x16_226_64 : ∀ a, (![226, 64] : Fin 2 → Nat) a + S1x16.size a ≤ S256x128.size a
  inb_S256x128_S1x16_227_64 : ∀ a, (![227, 64] : Fin 2 → Nat) a + S1x16.size a ≤ S256x128.size a
  inb_S256x128_S1x16_228_64 : ∀ a, (![228, 64] : Fin 2 → Nat) a + S1x16.size a ≤ S256x128.size a
  inb_S256x128_S1x16_229_64 : ∀ a, (![229, 64] : Fin 2 → Nat) a + S1x16.size a ≤ S256x128.size a
  inb_S256x128_S1x16_230_64 : ∀ a, (![230, 64] : Fin 2 → Nat) a + S1x16.size a ≤ S256x128.size a
  inb_S256x128_S1x16_231_64 : ∀ a, (![231, 64] : Fin 2 → Nat) a + S1x16.size a ≤ S256x128.size a
  inb_S256x128_S1x16_232_64 : ∀ a, (![232, 64] : Fin 2 → Nat) a + S1x16.size a ≤ S256x128.size a
  inb_S256x128_S1x16_233_64 : ∀ a, (![233, 64] : Fin 2 → Nat) a + S1x16.size a ≤ S256x128.size a
  inb_S256x128_S1x16_234_64 : ∀ a, (![234, 64] : Fin 2 → Nat) a + S1x16.size a ≤ S256x128.size a
  inb_S256x128_S1x16_235_64 : ∀ a, (![235, 64] : Fin 2 → Nat) a + S1x16.size a ≤ S256x128.size a
  inb_S256x128_S1x16_236_64 : ∀ a, (![236, 64] : Fin 2 → Nat) a + S1x16.size a ≤ S256x128.size a
  inb_S256x128_S1x16_237_64 : ∀ a, (![237, 64] : Fin 2 → Nat) a + S1x16.size a ≤ S256x128.size a
  inb_S256x128_S1x16_238_64 : ∀ a, (![238, 64] : Fin 2 → Nat) a + S1x16.size a ≤ S256x128.size a
  inb_S256x128_S1x16_239_64 : ∀ a, (![239, 64] : Fin 2 → Nat) a + S1x16.size a ≤ S256x128.size a
  inb_S256x128_S1x16_240_64 : ∀ a, (![240, 64] : Fin 2 → Nat) a + S1x16.size a ≤ S256x128.size a
  inb_S256x128_S1x16_241_64 : ∀ a, (![241, 64] : Fin 2 → Nat) a + S1x16.size a ≤ S256x128.size a
  inb_S256x128_S1x16_242_64 : ∀ a, (![242, 64] : Fin 2 → Nat) a + S1x16.size a ≤ S256x128.size a
  inb_S256x128_S1x16_243_64 : ∀ a, (![243, 64] : Fin 2 → Nat) a + S1x16.size a ≤ S256x128.size a
  inb_S256x128_S1x16_244_64 : ∀ a, (![244, 64] : Fin 2 → Nat) a + S1x16.size a ≤ S256x128.size a
  inb_S256x128_S1x16_245_64 : ∀ a, (![245, 64] : Fin 2 → Nat) a + S1x16.size a ≤ S256x128.size a
  inb_S256x128_S1x16_246_64 : ∀ a, (![246, 64] : Fin 2 → Nat) a + S1x16.size a ≤ S256x128.size a
  inb_S256x128_S1x16_247_64 : ∀ a, (![247, 64] : Fin 2 → Nat) a + S1x16.size a ≤ S256x128.size a
  inb_S256x128_S1x16_248_64 : ∀ a, (![248, 64] : Fin 2 → Nat) a + S1x16.size a ≤ S256x128.size a
  inb_S256x128_S1x16_249_64 : ∀ a, (![249, 64] : Fin 2 → Nat) a + S1x16.size a ≤ S256x128.size a
  inb_S256x128_S1x16_250_64 : ∀ a, (![250, 64] : Fin 2 → Nat) a + S1x16.size a ≤ S256x128.size a
  inb_S256x128_S1x16_251_64 : ∀ a, (![251, 64] : Fin 2 → Nat) a + S1x16.size a ≤ S256x128.size a
  inb_S256x128_S1x16_252_64 : ∀ a, (![252, 64] : Fin 2 → Nat) a + S1x16.size a ≤ S256x128.size a
  inb_S256x128_S1x16_253_64 : ∀ a, (![253, 64] : Fin 2 → Nat) a + S1x16.size a ≤ S256x128.size a
  inb_S256x128_S1x16_254_64 : ∀ a, (![254, 64] : Fin 2 → Nat) a + S1x16.size a ≤ S256x128.size a
  inb_S256x128_S1x16_255_64 : ∀ a, (![255, 64] : Fin 2 → Nat) a + S1x16.size a ≤ S256x128.size a
  inb_S256x128_S1x16_224_80 : ∀ a, (![224, 80] : Fin 2 → Nat) a + S1x16.size a ≤ S256x128.size a
  inb_S256x128_S1x16_225_80 : ∀ a, (![225, 80] : Fin 2 → Nat) a + S1x16.size a ≤ S256x128.size a
  inb_S256x128_S1x16_226_80 : ∀ a, (![226, 80] : Fin 2 → Nat) a + S1x16.size a ≤ S256x128.size a
  inb_S256x128_S1x16_227_80 : ∀ a, (![227, 80] : Fin 2 → Nat) a + S1x16.size a ≤ S256x128.size a
  inb_S256x128_S1x16_228_80 : ∀ a, (![228, 80] : Fin 2 → Nat) a + S1x16.size a ≤ S256x128.size a
  inb_S256x128_S1x16_229_80 : ∀ a, (![229, 80] : Fin 2 → Nat) a + S1x16.size a ≤ S256x128.size a
  inb_S256x128_S1x16_230_80 : ∀ a, (![230, 80] : Fin 2 → Nat) a + S1x16.size a ≤ S256x128.size a
  inb_S256x128_S1x16_231_80 : ∀ a, (![231, 80] : Fin 2 → Nat) a + S1x16.size a ≤ S256x128.size a
  inb_S256x128_S1x16_232_80 : ∀ a, (![232, 80] : Fin 2 → Nat) a + S1x16.size a ≤ S256x128.size a
  inb_S256x128_S1x16_233_80 : ∀ a, (![233, 80] : Fin 2 → Nat) a + S1x16.size a ≤ S256x128.size a
  inb_S256x128_S1x16_234_80 : ∀ a, (![234, 80] : Fin 2 → Nat) a + S1x16.size a ≤ S256x128.size a
  inb_S256x128_S1x16_235_80 : ∀ a, (![235, 80] : Fin 2 → Nat) a + S1x16.size a ≤ S256x128.size a
  inb_S256x128_S1x16_236_80 : ∀ a, (![236, 80] : Fin 2 → Nat) a + S1x16.size a ≤ S256x128.size a
  inb_S256x128_S1x16_237_80 : ∀ a, (![237, 80] : Fin 2 → Nat) a + S1x16.size a ≤ S256x128.size a
  inb_S256x128_S1x16_238_80 : ∀ a, (![238, 80] : Fin 2 → Nat) a + S1x16.size a ≤ S256x128.size a
  inb_S256x128_S1x16_239_80 : ∀ a, (![239, 80] : Fin 2 → Nat) a + S1x16.size a ≤ S256x128.size a
  inb_S256x128_S1x16_240_80 : ∀ a, (![240, 80] : Fin 2 → Nat) a + S1x16.size a ≤ S256x128.size a
  inb_S256x128_S1x16_241_80 : ∀ a, (![241, 80] : Fin 2 → Nat) a + S1x16.size a ≤ S256x128.size a
  inb_S256x128_S1x16_242_80 : ∀ a, (![242, 80] : Fin 2 → Nat) a + S1x16.size a ≤ S256x128.size a
  inb_S256x128_S1x16_243_80 : ∀ a, (![243, 80] : Fin 2 → Nat) a + S1x16.size a ≤ S256x128.size a
  inb_S256x128_S1x16_244_80 : ∀ a, (![244, 80] : Fin 2 → Nat) a + S1x16.size a ≤ S256x128.size a
  inb_S256x128_S1x16_245_80 : ∀ a, (![245, 80] : Fin 2 → Nat) a + S1x16.size a ≤ S256x128.size a
  inb_S256x128_S1x16_246_80 : ∀ a, (![246, 80] : Fin 2 → Nat) a + S1x16.size a ≤ S256x128.size a
  inb_S256x128_S1x16_247_80 : ∀ a, (![247, 80] : Fin 2 → Nat) a + S1x16.size a ≤ S256x128.size a
  inb_S256x128_S1x16_248_80 : ∀ a, (![248, 80] : Fin 2 → Nat) a + S1x16.size a ≤ S256x128.size a

class Shapes3.Facts₀ : Prop where
  inb_S256x128_S1x16_249_80 : ∀ a, (![249, 80] : Fin 2 → Nat) a + S1x16.size a ≤ S256x128.size a
  inb_S256x128_S1x16_250_80 : ∀ a, (![250, 80] : Fin 2 → Nat) a + S1x16.size a ≤ S256x128.size a
  inb_S256x128_S1x16_251_80 : ∀ a, (![251, 80] : Fin 2 → Nat) a + S1x16.size a ≤ S256x128.size a
  inb_S256x128_S1x16_252_80 : ∀ a, (![252, 80] : Fin 2 → Nat) a + S1x16.size a ≤ S256x128.size a
  inb_S256x128_S1x16_253_80 : ∀ a, (![253, 80] : Fin 2 → Nat) a + S1x16.size a ≤ S256x128.size a
  inb_S256x128_S1x16_254_80 : ∀ a, (![254, 80] : Fin 2 → Nat) a + S1x16.size a ≤ S256x128.size a
  inb_S256x128_S1x16_255_80 : ∀ a, (![255, 80] : Fin 2 → Nat) a + S1x16.size a ≤ S256x128.size a
  inb_S256x128_S1x16_224_96 : ∀ a, (![224, 96] : Fin 2 → Nat) a + S1x16.size a ≤ S256x128.size a
  inb_S256x128_S1x16_225_96 : ∀ a, (![225, 96] : Fin 2 → Nat) a + S1x16.size a ≤ S256x128.size a
  inb_S256x128_S1x16_226_96 : ∀ a, (![226, 96] : Fin 2 → Nat) a + S1x16.size a ≤ S256x128.size a
  inb_S256x128_S1x16_227_96 : ∀ a, (![227, 96] : Fin 2 → Nat) a + S1x16.size a ≤ S256x128.size a
  inb_S256x128_S1x16_228_96 : ∀ a, (![228, 96] : Fin 2 → Nat) a + S1x16.size a ≤ S256x128.size a
  inb_S256x128_S1x16_229_96 : ∀ a, (![229, 96] : Fin 2 → Nat) a + S1x16.size a ≤ S256x128.size a
  inb_S256x128_S1x16_230_96 : ∀ a, (![230, 96] : Fin 2 → Nat) a + S1x16.size a ≤ S256x128.size a
  inb_S256x128_S1x16_231_96 : ∀ a, (![231, 96] : Fin 2 → Nat) a + S1x16.size a ≤ S256x128.size a
  inb_S256x128_S1x16_232_96 : ∀ a, (![232, 96] : Fin 2 → Nat) a + S1x16.size a ≤ S256x128.size a
  inb_S256x128_S1x16_233_96 : ∀ a, (![233, 96] : Fin 2 → Nat) a + S1x16.size a ≤ S256x128.size a
  inb_S256x128_S1x16_234_96 : ∀ a, (![234, 96] : Fin 2 → Nat) a + S1x16.size a ≤ S256x128.size a
  inb_S256x128_S1x16_235_96 : ∀ a, (![235, 96] : Fin 2 → Nat) a + S1x16.size a ≤ S256x128.size a
  inb_S256x128_S1x16_236_96 : ∀ a, (![236, 96] : Fin 2 → Nat) a + S1x16.size a ≤ S256x128.size a
  inb_S256x128_S1x16_237_96 : ∀ a, (![237, 96] : Fin 2 → Nat) a + S1x16.size a ≤ S256x128.size a
  inb_S256x128_S1x16_238_96 : ∀ a, (![238, 96] : Fin 2 → Nat) a + S1x16.size a ≤ S256x128.size a
  inb_S256x128_S1x16_239_96 : ∀ a, (![239, 96] : Fin 2 → Nat) a + S1x16.size a ≤ S256x128.size a
  inb_S256x128_S1x16_240_96 : ∀ a, (![240, 96] : Fin 2 → Nat) a + S1x16.size a ≤ S256x128.size a
  inb_S256x128_S1x16_241_96 : ∀ a, (![241, 96] : Fin 2 → Nat) a + S1x16.size a ≤ S256x128.size a
  inb_S256x128_S1x16_242_96 : ∀ a, (![242, 96] : Fin 2 → Nat) a + S1x16.size a ≤ S256x128.size a
  inb_S256x128_S1x16_243_96 : ∀ a, (![243, 96] : Fin 2 → Nat) a + S1x16.size a ≤ S256x128.size a
  inb_S256x128_S1x16_244_96 : ∀ a, (![244, 96] : Fin 2 → Nat) a + S1x16.size a ≤ S256x128.size a
  inb_S256x128_S1x16_245_96 : ∀ a, (![245, 96] : Fin 2 → Nat) a + S1x16.size a ≤ S256x128.size a
  inb_S256x128_S1x16_246_96 : ∀ a, (![246, 96] : Fin 2 → Nat) a + S1x16.size a ≤ S256x128.size a
  inb_S256x128_S1x16_247_96 : ∀ a, (![247, 96] : Fin 2 → Nat) a + S1x16.size a ≤ S256x128.size a
  inb_S256x128_S1x16_248_96 : ∀ a, (![248, 96] : Fin 2 → Nat) a + S1x16.size a ≤ S256x128.size a
  inb_S256x128_S1x16_249_96 : ∀ a, (![249, 96] : Fin 2 → Nat) a + S1x16.size a ≤ S256x128.size a
  inb_S256x128_S1x16_250_96 : ∀ a, (![250, 96] : Fin 2 → Nat) a + S1x16.size a ≤ S256x128.size a
  inb_S256x128_S1x16_251_96 : ∀ a, (![251, 96] : Fin 2 → Nat) a + S1x16.size a ≤ S256x128.size a
  inb_S256x128_S1x16_252_96 : ∀ a, (![252, 96] : Fin 2 → Nat) a + S1x16.size a ≤ S256x128.size a
  inb_S256x128_S1x16_253_96 : ∀ a, (![253, 96] : Fin 2 → Nat) a + S1x16.size a ≤ S256x128.size a
  inb_S256x128_S1x16_254_96 : ∀ a, (![254, 96] : Fin 2 → Nat) a + S1x16.size a ≤ S256x128.size a
  inb_S256x128_S1x16_255_96 : ∀ a, (![255, 96] : Fin 2 → Nat) a + S1x16.size a ≤ S256x128.size a
  inb_S256x128_S1x16_224_112 : ∀ a, (![224, 112] : Fin 2 → Nat) a + S1x16.size a ≤ S256x128.size a
  inb_S256x128_S1x16_225_112 : ∀ a, (![225, 112] : Fin 2 → Nat) a + S1x16.size a ≤ S256x128.size a
  inb_S256x128_S1x16_226_112 : ∀ a, (![226, 112] : Fin 2 → Nat) a + S1x16.size a ≤ S256x128.size a
  inb_S256x128_S1x16_227_112 : ∀ a, (![227, 112] : Fin 2 → Nat) a + S1x16.size a ≤ S256x128.size a
  inb_S256x128_S1x16_228_112 : ∀ a, (![228, 112] : Fin 2 → Nat) a + S1x16.size a ≤ S256x128.size a
  inb_S256x128_S1x16_229_112 : ∀ a, (![229, 112] : Fin 2 → Nat) a + S1x16.size a ≤ S256x128.size a
  inb_S256x128_S1x16_230_112 : ∀ a, (![230, 112] : Fin 2 → Nat) a + S1x16.size a ≤ S256x128.size a
  inb_S256x128_S1x16_231_112 : ∀ a, (![231, 112] : Fin 2 → Nat) a + S1x16.size a ≤ S256x128.size a
  inb_S256x128_S1x16_232_112 : ∀ a, (![232, 112] : Fin 2 → Nat) a + S1x16.size a ≤ S256x128.size a
  inb_S256x128_S1x16_233_112 : ∀ a, (![233, 112] : Fin 2 → Nat) a + S1x16.size a ≤ S256x128.size a
  inb_S256x128_S1x16_234_112 : ∀ a, (![234, 112] : Fin 2 → Nat) a + S1x16.size a ≤ S256x128.size a
  inb_S256x128_S1x16_235_112 : ∀ a, (![235, 112] : Fin 2 → Nat) a + S1x16.size a ≤ S256x128.size a
  inb_S256x128_S1x16_236_112 : ∀ a, (![236, 112] : Fin 2 → Nat) a + S1x16.size a ≤ S256x128.size a
  inb_S256x128_S1x16_237_112 : ∀ a, (![237, 112] : Fin 2 → Nat) a + S1x16.size a ≤ S256x128.size a
  inb_S256x128_S1x16_238_112 : ∀ a, (![238, 112] : Fin 2 → Nat) a + S1x16.size a ≤ S256x128.size a
  inb_S256x128_S1x16_239_112 : ∀ a, (![239, 112] : Fin 2 → Nat) a + S1x16.size a ≤ S256x128.size a
  inb_S256x128_S1x16_240_112 : ∀ a, (![240, 112] : Fin 2 → Nat) a + S1x16.size a ≤ S256x128.size a
  inb_S256x128_S1x16_241_112 : ∀ a, (![241, 112] : Fin 2 → Nat) a + S1x16.size a ≤ S256x128.size a
  inb_S256x128_S1x16_242_112 : ∀ a, (![242, 112] : Fin 2 → Nat) a + S1x16.size a ≤ S256x128.size a
  inb_S256x128_S1x16_243_112 : ∀ a, (![243, 112] : Fin 2 → Nat) a + S1x16.size a ≤ S256x128.size a
  inb_S256x128_S1x16_244_112 : ∀ a, (![244, 112] : Fin 2 → Nat) a + S1x16.size a ≤ S256x128.size a
  inb_S256x128_S1x16_245_112 : ∀ a, (![245, 112] : Fin 2 → Nat) a + S1x16.size a ≤ S256x128.size a
  inb_S256x128_S1x16_246_112 : ∀ a, (![246, 112] : Fin 2 → Nat) a + S1x16.size a ≤ S256x128.size a
  inb_S256x128_S1x16_247_112 : ∀ a, (![247, 112] : Fin 2 → Nat) a + S1x16.size a ≤ S256x128.size a
  inb_S256x128_S1x16_248_112 : ∀ a, (![248, 112] : Fin 2 → Nat) a + S1x16.size a ≤ S256x128.size a
  inb_S256x128_S1x16_249_112 : ∀ a, (![249, 112] : Fin 2 → Nat) a + S1x16.size a ≤ S256x128.size a
  inb_S256x128_S1x16_250_112 : ∀ a, (![250, 112] : Fin 2 → Nat) a + S1x16.size a ≤ S256x128.size a
  inb_S256x128_S1x16_251_112 : ∀ a, (![251, 112] : Fin 2 → Nat) a + S1x16.size a ≤ S256x128.size a
  inb_S256x128_S1x16_252_112 : ∀ a, (![252, 112] : Fin 2 → Nat) a + S1x16.size a ≤ S256x128.size a
  inb_S256x128_S1x16_253_112 : ∀ a, (![253, 112] : Fin 2 → Nat) a + S1x16.size a ≤ S256x128.size a
  inb_S256x128_S1x16_254_112 : ∀ a, (![254, 112] : Fin 2 → Nat) a + S1x16.size a ≤ S256x128.size a
  inb_S256x128_S1x16_255_112 : ∀ a, (![255, 112] : Fin 2 → Nat) a + S1x16.size a ≤ S256x128.size a
  inb_S448x128_S192x128_0_0 : ∀ a, (![0, 0] : Fin 2 → Nat) a + S192x128.size a ≤ S448x128.size a
  slices_S10240x128_S10000x128_0_0 : S10240x128.Slices ![0, 0] S10000x128
  dot_S2000x128_S128x128_S2000x128_1_0_0_1_n_n_wf : DotDims.WF S2000x128 S128x128 S2000x128 [1] [0] [0] [1] [] []
  hcc1_scratch3 : 6 + S_.numel ≤ 11
  hcc1_scratch4 : 7 + S_.numel ≤ 11
  hcc1_scoped0 : 8 + S_.numel ≤ 11
  hcc1_scoped1 : 9 + S_.numel ≤ 11
  hcc1_scoped2 : 10 + S_.numel ≤ 11
  hscKind : ∀ q, scKind q ≠ .tc
  hscCore : ∀ q, scNCore q ≤ τ.nSC
  hscSub : ∀ q, scNSub q ≤ τ.nSub

class Facts₀ : Prop where
  k0 : K0.Facts₀
  k1 : K1.Facts₀
  shapes1 : Shapes1.Facts₀
  shapes2 : Shapes2.Facts₀
  shapes3 : Shapes3.Facts₀
attribute [instance] Facts₀.k0 Facts₀.k1 Facts₀.shapes1 Facts₀.shapes2 Facts₀.shapes3

variable [Facts₀]

abbrev cc1_scratch3 : DmaSems sig S_ := SemArray.consecutive 6 S_ hcc1_scratch3
abbrev cc1_scratch4 : DmaSems sig S_ := SemArray.consecutive 7 S_ hcc1_scratch4
abbrev cc1_scoped0 : DmaSems sig S_ := SemArray.consecutive 8 S_ hcc1_scoped0
abbrev cc1_scoped1 : DmaSems sig S_ := SemArray.consecutive 9 S_ hcc1_scoped1
abbrev cc1_scoped2 : DmaSems sig S_ := SemArray.consecutive 10 S_ hcc1_scoped2
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S10000x8 : Shape := ⟨2, ![10000, 8]⟩
abbrev S10000x4x8 : Shape := ⟨3, ![10000, 4, 8]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000x4x8x1 : Shape := ⟨4, ![10000, 4, 8, 1]⟩
abbrev S1 : Shape := ⟨1, ![1]⟩
abbrev S1x1x1x1 : Shape := ⟨4, ![1, 1, 1, 1]⟩
abbrev S10000x4x8x128 : Shape := ⟨4, ![10000, 4, 8, 128]⟩
abbrev S10000x4x128 : Shape := ⟨3, ![10000, 4, 128]⟩
abbrev S10000x128 : Shape := ⟨2, ![10000, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S10000x8, .i32⟩
  | .hbm, ⟨2, _⟩ => ⟨S10000x4x8, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .f32⟩
  | .hbm, ⟨13, _⟩ => ⟨S_, .i32⟩
  | .hbm, ⟨14, _⟩ => ⟨S10000x4x8, .i32⟩
  | .hbm, ⟨15, _⟩ => ⟨S10000x4x8, .i1⟩
  | .hbm, ⟨16, _⟩ => ⟨S_, .i32⟩
  | .hbm, ⟨17, _⟩ => ⟨S10000x4x8, .i32⟩
  | .hbm, ⟨18, _⟩ => ⟨S10000x4x8, .i32⟩
  | .hbm, ⟨19, _⟩ => ⟨S10000x4x8, .i32⟩
  | .hbm, ⟨20, _⟩ => ⟨S10000x4x8x1, .i32⟩
  | .hbm, ⟨21, _⟩ => ⟨S1, .i32⟩
  | .hbm, ⟨22, _⟩ => ⟨S_, .i32⟩
  | .hbm, ⟨23, _⟩ => ⟨S10000x4x8x1, .i32⟩
  | .hbm, ⟨24, _⟩ => ⟨S10000x4x8x1, .i1⟩
  | .hbm, ⟨25, _⟩ => ⟨S1x1x1x1, .i32⟩
  | .hbm, ⟨26, _⟩ => ⟨S10000x4x8x1, .i32⟩
  | .hbm, ⟨27, _⟩ => ⟨S10000x4x8x1, .i1⟩
  | .hbm, ⟨28, _⟩ => ⟨S10000x4x8x1, .i1⟩
  | .hbm, ⟨29, _⟩ => ⟨S_, .i1⟩
  | .hbm, ⟨30, _⟩ => ⟨S10000x4x8, .i1⟩
  | .hbm, ⟨31, _⟩ => ⟨S10000x4x8x128, .f32⟩
  | .hbm, ⟨32, _⟩ => ⟨S10000x4x8x128, .i1⟩
  | .hbm, ⟨33, _⟩ => ⟨S_, .f32⟩
  | .hbm, ⟨34, _⟩ => ⟨S10000x4x8x128, .f32⟩
  | .hbm, ⟨35, _⟩ => ⟨S10000x4x8x128, .f32⟩
  | .hbm, ⟨36, _⟩ => ⟨S_, .f32⟩
  | .hbm, ⟨37, _⟩ => ⟨S10000x4x128, .f32⟩
  | .hbm, ⟨38, _⟩ => ⟨S_, .f32⟩
  | .hbm, ⟨39, _⟩ => ⟨S10000x4x128, .f32⟩
  | .hbm, ⟨40, _⟩ => ⟨S10000x4x128, .f32⟩
  | .hbm, ⟨41, _⟩ => ⟨S_, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S10000x4x8 : S_.BroadcastsInDim S10000x4x8 (![] : Fin 0 → Fin S10000x4x8.rank)
  bcast_S10000x4x8_S10000x4x8x1_0_1_2 : S10000x4x8.BroadcastsInDim S10000x4x8x1 (![0, 1, 2] : Fin 3 → Fin S10000x4x8x1.rank)
  bcast_S_S10000x4x8x1 : S_.BroadcastsInDim S10000x4x8x1 (![] : Fin 0 → Fin S10000x4x8x1.rank)
  bcast_S1_S1x1x1x1_3 : S1.BroadcastsInDim S1x1x1x1 (![3] : Fin 1 → Fin S1x1x1x1.rank)
  bcast_S1x1x1x1_S10000x4x8x1_0_1_2_3 : S1x1x1x1.BroadcastsInDim S10000x4x8x1 (![0, 1, 2, 3] : Fin 4 → Fin S10000x4x8x1.rank)
  reducesTo_S10000x4x8x1_S10000x4x8_d3 : S10000x4x8x1.ReducesTo [3] S10000x4x8
  h_S_ : 0 < S_.numel
  bcast_S10000x4x8_S10000x4x8x128_0_1_2 : S10000x4x8.BroadcastsInDim S10000x4x8x128 (![0, 1, 2] : Fin 3 → Fin S10000x4x8x128.rank)
  bcast_S_S10000x4x8x128 : S_.BroadcastsInDim S10000x4x8x128 (![] : Fin 0 → Fin S10000x4x8x128.rank)
  reducesTo_S10000x4x8x128_S10000x4x128_d2 : S10000x4x8x128.ReducesTo [2] S10000x4x128
  bcast_S_S10000x4x128 : S_.BroadcastsInDim S10000x4x128 (![] : Fin 0 → Fin S10000x4x128.rank)
  reducesTo_S10000x4x128_S10000x128_d1 : S10000x4x128.ReducesTo [1] S10000x128
  bcast_S_S10000x128 : S_.BroadcastsInDim S10000x128 (![] : Fin 0 → Fin S10000x128.rank)
  dot_S100000x128_S128x128_S100000x128_1_0_0_1_n_n_wf : DotDims.WF S100000x128 S128x128 S100000x128 [1] [0] [0] [1] [] []
  gather_S100000x128_S10000x4x8x1_S10000x4x8x128_3_0_n_n_0_3_1128_wf : GatherDims.WF S100000x128 S10000x4x8x1 S10000x4x8x128 [3] [0] [] [0] [] 3 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S10000x4x8x1_S10000x4x8x128_3_0_n_n_0_3_1128 : GatherDims S100000x128 S10000x4x8x1 S10000x4x8x128 where
  offsetDims := [3]
  collapsedSliceDims := [0]
  operandBatchingDims := []
  startIndicesBatchingDims := []
  startIndexMap := [0]
  indexVectorDim := 3
  sliceSizes := ![1, 128]
  wf := gather_S100000x128_S10000x4x8x1_S10000x4x8x128_3_0_n_n_0_3_1128_wf

class Facts : Prop extends Facts₀ where

variable [Facts]
-- ==== Proof.Common.lean ====
/-
  The program as the SparseCore launch theorem reads it: the call table, the body table beneath it, the
  processors' variants, and the three HBM arrays the SparseCore kernel is called with — the transformed
  embeddings (100000 rows of 128), the flat list of row numbers (10496 hyperedge slots of 32, the last 496
  padding), and the padded output (10240 rows of 128).  Tile (c, s) owns output rows
  [640 s + 448 c, 640 s + 448 c + (448 − 256 c)): 448 rows on SparseCore 0, 192 on SparseCore 1, and the
  thirty-two intervals tile the 10240 rows.
-/
import proofs.«219373_g11218454577211_week1_w3_1378_31_alg».proof.Defs
import proofs.«219373_g11218454577211_week1_w3_1378_31_alg».proof.Proof.Gen.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are four unscoped regular semaphores, no SparseCore buffer is reassigned per task, and the
    one call has a single body. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra

Three components side by side: the launch handshakes' rounds (duties numbered), the TensorCore pipeline's staging
cells' rounds (duties unnamed), and the local transfers' counters. -/

abbrev UH : Type := URounds (GSem nD τ sig) ℕ
abbrev UP : Type := UR sig nD τ
abbrev UU : Type := UH × (UP × Counters)

/-- The handshakes' component: the left factor. -/
abbrev EH : Emb UH (MT nD τ sig (HIx 1) (Elt F) ℕ UU ℕ) := embL
/-- The pipeline's component: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The three arrays of the SparseCore call, where the TensorCore's thread names them -/

abbrev xLoc (d : Dev nD) : Loc nD τ sig := (SparseCore.T d).loc main_v2
abbrev iLoc (d : Dev nD) : Loc nD τ sig := (SparseCore.T d).loc main_v5
abbrev oLoc (d : Dev nD) : Loc nD τ sig := (SparseCore.T d).loc main_v6

end Cert.Proof.KI

end
-- ==== Proof.HostOps.lean ====
/-
  @main's host operations around the two calls, as operations on the TensorCore's fifteen HBM arrays held whole:
  the weight transposed, the bias as a row, the hyperedge table as 10000 rows of 32 row numbers, padded by 496 rows
  of zeros and flattened, and the first 10000 rows of the padded output.
-/
import proofs.«219373_g11218454577211_week1_w3_1378_31_alg».proof.Proof.Common

noncomputable section

namespace Cert.Proof.KI

open Cert.KernelIdeal
open Cert.KernelIdeal.Shapes1.Facts₀ Cert.KernelIdeal.Shapes3.Facts₀

open Idealize.ShloMosaic
open Idealize.ShloMosaic.SparseCore (S V T)
open Idealize.ShloMosaic.StableHlo (held held_split held_sub_split held_congr held_sdiff_result wp_hlo_within)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev c' : DevRef τ sig := Proc.devRef .tc (main_c : Ref sig .tc)
abbrev cv' : DevRef τ sig := Proc.devRef .tc (main_call0_v0 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- The TensorCore's arrays that no region scopes: the five arguments and the ten values of @main. -/
abbrev S15 : Finset (DevRef τ sig) := {a0', a1', a2', a3', a4', v0', v1', v2', v3', c', cv', v4', v5', v6', v7'}

/-! ## The operations -/

abbrev opT : HloOp τ sig (Elt F) :=
  StableHlo.unary main_arg3 main_v0 ((transpose S128x128 [1, 0] · transposes_S128x128_S128x128_1_0) : (⟨S128x128, .f32⟩ : BufTy).Contents (Elt F) → (⟨S128x128, .f32⟩ : BufTy).Contents (Elt F))
abbrev opB : HloOp τ sig (Elt F) := StableHlo.reshape main_arg4 main_v1 rfl shapeCasts_S128_S1x128
abbrev opH : HloOp τ sig (Elt F) := StableHlo.reshape main_arg2 main_v3 rfl shapeCasts_S10000x4x8_S10000x32
abbrev opC : HloOp τ sig (Elt F) := StableHlo.nullary main_c (constantI S_ 32 0#32)
abbrev padRows : StableHlo.TRef sig ⟨S10000x32, .i32⟩ := .of main_v3
abbrev padZero : StableHlo.TRef sig ⟨S_, .i32⟩ := .of main_c
abbrev opCv : HloOp τ sig (Elt F) := StableHlo.TRef.unary padZero main_call0.v0 id
abbrev opP : HloOp τ sig (Elt F) :=
  StableHlo.TRef.binary padRows main_call0.v0 main_call0.v1 (fun x v => pad S10496x32 ![0, 0] ![496, 0] ![0, 0] x v pads_S10000x32_S10496x32_04960_000 h_S_)
abbrev opI : HloOp τ sig (Elt F) := StableHlo.reshape main_v4 main_v5 rfl shapeCasts_S10496x32_S335872
abbrev opO : HloOp τ sig (Elt F) :=
  StableHlo.unary main_v6 main_v7 ((extractStridedSlice S10000x128 ![0, 0] · slices_S10240x128_S10000x128_0_0) : (⟨S10240x128, .f32⟩ : BufTy).Contents (Elt F) → (⟨S10000x128, .f32⟩ : BufTy).Contents (Elt F))

theorem hT : (opT (F := F)).bufs ⊆ S15 := show ({a3', v0'} : Finset (DevRef τ sig)) ⊆ S15 by decide
theorem hB : (opB (F := F)).bufs ⊆ S15 := show ({a4', v1'} : Finset (DevRef τ sig)) ⊆ S15 by decide
theorem hH : (opH (F := F)).bufs ⊆ S15 := show ({a2', v3'} : Finset (DevRef τ sig)) ⊆ S15 by decide
theorem hC : (opC (F := F)).bufs ⊆ S15 := show ({c'} : Finset (DevRef τ sig)) ⊆ S15 by decide
theorem hCv : (opCv (F := F)).bufs ⊆ S15 := show ({c', cv'} : Finset (DevRef τ sig)) ⊆ S15 by decide
theorem hP : (opP (F := F)).bufs ⊆ S15 := show ({v3', cv', v4'} : Finset (DevRef τ sig)) ⊆ S15 by decide
theorem hI : (opI (F := F)).bufs ⊆ S15 := show ({v4', v5'} : Finset (DevRef τ sig)) ⊆ S15 by decide
theorem hO : (opO (F := F)).bufs ⊆ S15 := show ({v6', v7'} : Finset (DevRef τ sig)) ⊆ S15 by decide

end Cert.Proof.KI

end
-- ==== Proof.Pay.lean ====
/-
  What the launch handshakes carry.  The TensorCore hands each SparseCore a read share of the transformed
  embeddings and of the list of row numbers, and the rows of the padded output its sixteen tiles will write;
  the sequencer hands each tile a read share of its own shares and that tile's rows.  Each comes back as it went,
  the output rows now holding the hyperedge means.  Read shares split n ways leave a remainder, which waits with
  the splitter and is joined again when the parts return; the output splits along pairwise disjoint row sets.
-/
import proofs.«219373_g11218454577211_week1_w3_1378_31_alg».proof.Proof.Common
import Idealize.ShloMosaic.Lib.Transfers

noncomputable section

namespace Cert.Proof.KI

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

/-- How the 10240 × 128 output is dealt: a set of entries per SparseCore and tile, pairwise disjoint, together
    everything. -/
structure Tiling (tile : Fin 2 → Fin 16 → Finset S10240x128.Idx) : Prop where
  tiles_disjoint : ∀ c, ∀ i ∈ (Finset.univ : Finset (Fin 16)), ∀ j ∈ (Finset.univ : Finset (Fin 16)), i ≠ j → Disjoint (tile c i) (tile c j)
  cores_disjoint : ∀ c ∈ (Finset.univ : Finset (Fin 2)), ∀ c' ∈ (Finset.univ : Finset (Fin 2)), c ≠ c' →
    Disjoint ((Finset.univ : Finset (Fin 16)).biUnion (tile c)) ((Finset.univ : Finset (Fin 16)).biUnion (tile c'))
  cover : (Finset.univ : Finset (Fin 2)).biUnion (fun c => (Finset.univ : Finset (Fin 16)).biUnion (tile c)) = Finset.univ

variable (tile : Fin 2 → Fin 16 → Finset S10240x128.Idx)

/-- The entries SparseCore `c`'s tiles write. -/
abbrev coreSet (c : Fin 2) : Finset S10240x128.Idx := (Finset.univ : Finset (Fin 16)).biUnion (tile c)

/-- SparseCore `c`'s read share of a table, and tile `i`'s share of that. -/
abbrev qC (c : Fin 2) : PosShare TreeShare := shareTok fullShare 2 c
abbrev qT (c : Fin 2) (i : Fin 16) : PosShare TreeShare := shareTok (qC c) 16 i

abbrev cC (c : Fin ((K (F := F)).nCore 0)) : Fin 2 := Fin.cast nCore_zero c
abbrev iT (i : Fin ((K (F := F)).nSub 0)) : Fin 16 := Fin.cast nSub_zero i

variable (fx : (d : Dev nD) → Buf (Elt F) (xLoc d)) (fi : (d : Dev nD) → Buf (Elt F) (iLoc d))
variable (fo fr : (d : Dev nD) → Buf (Elt F) (oLoc d))

def P : (K (F := F)).Pay (nD := nD) (Val := Elt F) (Name := ℕ) (U := UU) where
  st := fun q d c => match q with
    | 0 => iprop((xLoc d ↦{qC (cC c)} fx d) ∗ (iLoc d ↦{qC (cC c)} fi d) ∗ oLoc d ↦[coreSet tile (cC c)]{fullShare} fo d)
  dn := fun q d c => match q with
    | 0 => iprop((xLoc d ↦{qC (cC c)} fx d) ∗ (iLoc d ↦{qC (cC c)} fi d) ∗ oLoc d ↦[coreSet tile (cC c)]{fullShare} fr d)
  go := fun q d c i => match q with
    | 0 => iprop((xLoc d ↦{qT (cC c) (iT i)} fx d) ∗ (iLoc d ↦{qT (cC c) (iT i)} fi d) ∗ oLoc d ↦[tile (cC c) (iT i)]{fullShare} fo d)
  td := fun q d c i => match q with
    | 0 => iprop((xLoc d ↦{qT (cC c) (iT i)} fx d) ∗ (iLoc d ↦{qT (cC c) (iT i)} fi d) ∗ oLoc d ↦[tile (cC c) (iT i)]{fullShare} fr d)
  x := fun _ _ => iprop(emp)

/-! ## The payloads can be stored in a cell's invariant -/

instance P_storable : (P (F := F) tile fx fi fo fr).IsStorable where
  st q d c := match q with
    | 0 => (inferInstance : BI.Storable (upEmb : UEmb _ 𝕄)
      iprop((xLoc d ↦{qC (cC c)} fx d) ∗ (iLoc d ↦{qC (cC c)} fi d) ∗ oLoc d ↦[coreSet tile (cC c)]{fullShare} fo d))
  dn q d c := match q with
    | 0 => (inferInstance : BI.Storable (upEmb : UEmb _ 𝕄)
      iprop((xLoc d ↦{qC (cC c)} fx d) ∗ (iLoc d ↦{qC (cC c)} fi d) ∗ oLoc d ↦[coreSet tile (cC c)]{fullShare} fr d))
  go q d c i := match q with
    | 0 => (inferInstance : BI.Storable (upEmb : UEmb _ 𝕄)
      iprop((xLoc d ↦{qT (cC c) (iT i)} fx d) ∗ (iLoc d ↦{qT (cC c) (iT i)} fi d) ∗ oLoc d ↦[tile (cC c) (iT i)]{fullShare} fo d))
  td q d c i := match q with
    | 0 => (inferInstance : BI.Storable (upEmb : UEmb _ 𝕄)
      iprop((xLoc d ↦{qT (cC c) (iT i)} fx d) ∗ (iLoc d ↦{qT (cC c) (iT i)} fi d) ∗ oLoc d ↦[tile (cC c) (iT i)]{fullShare} fr d))

/-! ## A SparseCore's holdings split among its sixteen tiles, and gathered again -/

theorem bigSep_tasks (Φ : Fin 16 → sProp 𝕄) :
    (bigSep Finset.univ fun i : Fin ((K (F := F)).nSub 0) => Φ (iT i)) = bigSep Finset.univ Φ :=
  bigSep_congr fun _ _ => congrArg Φ (Fin.ext rfl)

theorem vecSplit (ht : Tiling tile) : (K (F := F)).VecSplit' (P tile fx fi fo fr) 0 := by
  intro d c
  show iprop((xLoc d ↦{qC (cC c)} fx d) ∗ (iLoc d ↦{qC (cC c)} fi d) ∗ oLoc d ↦[coreSet tile (cC c)]{fullShare} fo d) ⊢ |={Set.univ}=> iprop(
      (bigSep Finset.univ fun i : Fin ((K (F := F)).nSub 0) =>
        iprop((xLoc d ↦{qT (cC c) (iT i)} fx d) ∗ (iLoc d ↦{qT (cC c) (iT i)} fi d) ∗ oLoc d ↦[tile (cC c) (iT i)]{fullShare} fo d))
      ∗ ((bigSep Finset.univ fun i : Fin ((K (F := F)).nSub 0) =>
          iprop((xLoc d ↦{qT (cC c) (iT i)} fx d) ∗ (iLoc d ↦{qT (cC c) (iT i)} fi d) ∗ oLoc d ↦[tile (cC c) (iT i)]{fullShare} fr d))
          -∗ iprop((xLoc d ↦{qC (cC c)} fx d) ∗ (iLoc d ↦{qC (cC c)} fi d) ∗ oLoc d ↦[coreSet tile (cC c)]{fullShare} fr d)))
  rw [bigSep_tasks (F := F) (fun i => iprop((xLoc d ↦{qT (cC c) i} fx d) ∗ (iLoc d ↦{qT (cC c) i} fi d) ∗ oLoc d ↦[tile (cC c) i]{fullShare} fo d)),
    bigSep_tasks (F := F) (fun i => iprop((xLoc d ↦{qT (cC c) i} fx d) ∗ (iLoc d ↦{qT (cC c) i} fi d) ∗ oLoc d ↦[tile (cC c) i]{fullShare} fr d)),
    bigSep_sep', bigSep_sep', bigSep_sep', bigSep_sep']
  rw [pointsTo_biUnion Finset.univ (ℓ := oLoc d) (f := fo d) (tile (cC c)) (ht.tiles_disjoint (cC c)),
    pointsTo_biUnion Finset.univ (ℓ := oLoc d) (f := fr d) (tile (cC c)) (ht.tiles_disjoint (cC c))]
  iintro ⟨Hx, Hi, Ho⟩
  ihave Hx' := (pointsTo_toks_split (ℓ := xLoc d) (f := fx d) (qC (cC c)) 16) $$ Hx
  icases Hx' with ⟨Hxd, Hxs⟩
  ihave Hi' := (pointsTo_toks_split (ℓ := iLoc d) (f := fi d) (qC (cC c)) 16) $$ Hi
  icases Hi' with ⟨Hid, His⟩
  imodintro
  isplitl [Hxs His Ho]
  · isplitl [Hxs]; · iexact Hxs
    isplitl [His]; · iexact His
    iexact Ho
  iintro ⟨Hxs, His, Ho⟩
  isplitl [Hxd Hxs]
  · iapply (pointsTo_toks_join (ℓ := xLoc d) (f := fx d) (qC (cC c)) 16)
    isplitl [Hxd]; · iexact Hxd
    iexact Hxs
  isplitl [Hid His]
  · iapply (pointsTo_toks_join (ℓ := iLoc d) (f := fi d) (qC (cC c)) 16)
    isplitl [Hid]; · iexact Hid
    iexact His
  iexact Ho

/-! ## The call's operands dealt to the two SparseCores, and gathered again -/

theorem bigSep_cores (Φ : Fin 2 → sProp 𝕄) :
    (bigSep Finset.univ fun c : Fin ((K (F := F)).nCore 0) => Φ (cC c)) = bigSep Finset.univ Φ :=
  bigSep_congr fun _ _ => congrArg Φ (Fin.ext rfl)

theorem st_intro (ht : Tiling tile) (d : Dev nD) :
    iprop((xLoc d ↦{fullShare} fx d) ∗ (iLoc d ↦{fullShare} fi d) ∗ oLoc d ↦{fullShare} fo d)
      ⊢ iprop((bigSep Finset.univ fun c : Fin ((K (F := F)).nCore 0) => (P tile fx fi fo fr).st 0 d c)
          ∗ (xLoc d ↦{shareDrop fullShare 2} fx d) ∗ (iLoc d ↦{shareDrop fullShare 2} fi d)) := by
  show _ ⊢ iprop((bigSep Finset.univ fun c : Fin ((K (F := F)).nCore 0) =>
      iprop((xLoc d ↦{qC (cC c)} fx d) ∗ (iLoc d ↦{qC (cC c)} fi d) ∗ oLoc d ↦[coreSet tile (cC c)]{fullShare} fo d)) ∗ _ ∗ _)
  rw [bigSep_cores (F := F) (fun c => iprop((xLoc d ↦{qC c} fx d) ∗ (iLoc d ↦{qC c} fi d) ∗ oLoc d ↦[coreSet tile c]{fullShare} fo d)),
    bigSep_sep', bigSep_sep']
  rw [← pointsTo_biUnion Finset.univ (ℓ := oLoc d) (f := fo d) (coreSet tile) ht.cores_disjoint, ht.cover]
  iintro ⟨Hx, Hi, Ho⟩
  ihave Hx' := (pointsTo_toks_split (ℓ := xLoc d) (f := fx d) fullShare 2) $$ Hx
  icases Hx' with ⟨Hxd, Hxs⟩
  ihave Hi' := (pointsTo_toks_split (ℓ := iLoc d) (f := fi d) fullShare 2) $$ Hi
  icases Hi' with ⟨Hid, His⟩
  isplitl [Hxs His Ho]
  · isplitl [Hxs]; · iexact Hxs
    isplitl [His]; · iexact His
    iexact Ho
  isplitl [Hxd]; · iexact Hxd
  iexact Hid

theorem dn_elim (ht : Tiling tile) (d : Dev nD) :
    iprop((bigSep Finset.univ fun c : Fin ((K (F := F)).nCore 0) => (P tile fx fi fo fr).dn 0 d c)
        ∗ (xLoc d ↦{shareDrop fullShare 2} fx d) ∗ (iLoc d ↦{shareDrop fullShare 2} fi d))
      ⊢ iprop((xLoc d ↦{fullShare} fx d) ∗ (iLoc d ↦{fullShare} fi d) ∗ oLoc d ↦{fullShare} fr d) := by
  show iprop((bigSep Finset.univ fun c : Fin ((K (F := F)).nCore 0) =>
      iprop((xLoc d ↦{qC (cC c)} fx d) ∗ (iLoc d ↦{qC (cC c)} fi d) ∗ oLoc d ↦[coreSet tile (cC c)]{fullShare} fr d)) ∗ _ ∗ _) ⊢ _
  rw [bigSep_cores (F := F) (fun c => iprop((xLoc d ↦{qC c} fx d) ∗ (iLoc d ↦{qC c} fi d) ∗ oLoc d ↦[coreSet tile c]{fullShare} fr d)),
    bigSep_sep', bigSep_sep']
  rw [← pointsTo_biUnion Finset.univ (ℓ := oLoc d) (f := fr d) (coreSet tile) ht.cores_disjoint, ht.cover]
  iintro ⟨⟨Hxs, His, Ho⟩, Hxd, Hid⟩
  isplitl [Hxd Hxs]
  · iapply (pointsTo_toks_join (ℓ := xLoc d) (f := fx d) fullShare 2)
    isplitl [Hxd]; · iexact Hxd
    iexact Hxs
  isplitl [Hid His]
  · iapply (pointsTo_toks_join (ℓ := iLoc d) (f := fi d) fullShare 2)
    isplitl [Hid]; · iexact Hid
    iexact His
  iexact Ho

end Cert.Proof.KI

end
-- ==== Proof.MainTC.lean ====
/-
  @main on the TensorCore, through the SparseCore launch: the two host operations before the matmul region, the
  region, the five host operations that lay the row numbers out, the SparseCore call, the final slice.
-/
import proofs.«219373_g11218454577211_week1_w3_1378_31_alg».proof.Proof.HostOps
import proofs.«219373_g11218454577211_week1_w3_1378_31_alg».proof.Proof.Pay
import Idealize.ShloMosaic.Lib.Pipeline.Frame

noncomputable section

namespace Cert.Proof.KI

open Cert.KernelIdeal

open Idealize.ShloMosaic
open Idealize.ShloMosaic.SparseCore (S V T)
open Idealize.ShloMosaic.SparseCore.Cfg (HIx Pay)
open Idealize.ShloMosaic.StableHlo (held held_split held_sub_split held_congr held_sdiff_result wp_hlo_within)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

/-- The TensorCore owes nothing at the index its own waits are recorded at. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

theorem uT : (opT (F := F)).bufs ⊆ ucRefs τ sig := sub_ucRefs _ (show ({a3', v0'} : Finset (DevRef τ sig)) ⊆ StableHlo.tcRefs τ sig by decide)
theorem uB : (opB (F := F)).bufs ⊆ ucRefs τ sig := sub_ucRefs _ (show ({a4', v1'} : Finset (DevRef τ sig)) ⊆ StableHlo.tcRefs τ sig by decide)
theorem uH : (opH (F := F)).bufs ⊆ ucRefs τ sig := sub_ucRefs _ (show ({a2', v3'} : Finset (DevRef τ sig)) ⊆ StableHlo.tcRefs τ sig by decide)
theorem uC : (opC (F := F)).bufs ⊆ ucRefs τ sig := sub_ucRefs _ (show ({c'} : Finset (DevRef τ sig)) ⊆ StableHlo.tcRefs τ sig by decide)
theorem uCv : (opCv (F := F)).bufs ⊆ ucRefs τ sig := sub_ucRefs _ (show ({c', cv'} : Finset (DevRef τ sig)) ⊆ StableHlo.tcRefs τ sig by decide)
theorem uP : (opP (F := F)).bufs ⊆ ucRefs τ sig := sub_ucRefs _ (show ({v3', cv', v4'} : Finset (DevRef τ sig)) ⊆ StableHlo.tcRefs τ sig by decide)
theorem uI : (opI (F := F)).bufs ⊆ ucRefs τ sig := sub_ucRefs _ (show ({v4', v5'} : Finset (DevRef τ sig)) ⊆ StableHlo.tcRefs τ sig by decide)
theorem uO : (opO (F := F)).bufs ⊆ ucRefs τ sig := sub_ucRefs _ (show ({v6', v7'} : Finset (DevRef τ sig)) ⊆ StableHlo.tcRefs τ sig by decide)

variable (m : (ℓ : Loc nD τ sig) → Buf (Elt F) ℓ) (ρ : Dev nD → PrngReg)

/-- The launch valuation, and the valuation the matmul region finds. -/
abbrev V0 (d : Dev nD) : Valuation τ sig (Elt F) := fun b => m (d, b)
abbrev V2 (d : Dev nD) : Valuation τ sig (Elt F) := (opB (F := F)).result ((opT (F := F)).result (V0 m d))

variable (XF : (d : Dev nD) → Valuation τ sig (Elt F) → v2'.ty.Contents (Elt F))
variable (AG : (d : Dev nD) → Buf (Elt F) (xLoc d) → Buf (Elt F) (iLoc d) → Buf (Elt F) (oLoc d))
variable (tile : Fin 2 → Fin 16 → Finset S10240x128.Idx)

/-- After the matmul region; before the SparseCore call; after it; at the end. -/
abbrev V3 (d : Dev nD) : Valuation τ sig (Elt F) := Function.update (V2 m d) v2' (XF d (V2 m d))
abbrev V8 (d : Dev nD) : Valuation τ sig (Elt F) :=
  (opI (F := F)).result ((opP (F := F)).result ((opCv (F := F)).result ((opC (F := F)).result ((opH (F := F)).result (V3 m XF d)))))
abbrev fxv (d : Dev nD) : Buf (Elt F) (xLoc d) := V8 m XF d v2'
abbrev fiv (d : Dev nD) : Buf (Elt F) (iLoc d) := V8 m XF d v5'
abbrev fov (d : Dev nD) : Buf (Elt F) (oLoc d) := V8 m XF d v6'
abbrev frv (d : Dev nD) : Buf (Elt F) (oLoc d) := AG d (fxv m XF d) (fiv m XF d)
abbrev V9 (d : Dev nD) : Valuation τ sig (Elt F) := Function.update (V8 m XF d) v6' (frv m XF AG d)
abbrev V10 (d : Dev nD) : Valuation τ sig (Elt F) := (opO (F := F)).result (V9 m XF AG d)

abbrev PP : (K (F := F)).Pay (nD := nD) (Val := Elt F) (Name := ℕ) (U := UU) :=
  P tile (fxv m XF) (fiv m XF) (fov m XF) (frv m XF AG)

/-- The TensorCore's state before a call: what it owes, and the rest. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_split (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := rfl

abbrev T3 : Finset (DevRef τ sig) := {v2', v5', v6'}
theorem T3_sub : T3 ⊆ ucRefs τ sig := by decide

omit [FloatOps F] in
theorem held_T3 (d : Dev nD) (W : Valuation τ sig (Elt F)) :
    (held (SparseCore.T d) T3 W : sProp 𝕄) = iprop((xLoc d ↦{fullShare} W v2') ∗ (iLoc d ↦{fullShare} W v5') ∗ oLoc d ↦{fullShare} W v6') := by
  unfold held T3
  rw [SparseCore.bigSep_insert' (by decide), SparseCore.bigSep_insert' (by decide), bigSep_singleton]

/-- What the matmul region's proof supplies: from the staging cells' ghost state, the region boundary, every
    unscoped array held whole and what the TensorCore owes before call 0, the region runs and gives them back with the
    fourth array at `XF` of what it found. -/
def RegionRule : Prop :=
  ∀ (d : Dev nD) (W : Valuation τ sig (Elt F)) (Φ : PUnit → sProp 𝕄),
    iprop(levAts (K (F := F)).L (K (F := F)).lev ∗ boundary (SparseCore.T d) ∗ held (SparseCore.T d) (ucRefs τ sig) W
        ∗ (∃ Wt, ⌜(K (F := F)).WBelow (SparseCore.T d) Wt (8 * 0)⌝ ∗ owes (SparseCore.T d) ((K (F := F)).Otc d 0) Wt)
        ∗ Pipeline.cellsGhost cfgs EP 0 d ∗ Pipeline.toksInit cfgs EP 0 d
        ∗ (iprop(boundary (SparseCore.T d) ∗ held (SparseCore.T d) (ucRefs τ sig) (Function.update W v2' (XF d W))
            ∗ (∃ Wt, ⌜(K (F := F)).WBelow (SparseCore.T d) Wt (8 * 0)⌝ ∗ owes (SparseCore.T d) ((K (F := F)).Otc d 0) Wt)) -∗ Φ ⟨⟩))
      ⊢ wp frame (wpE ((K (F := F)).defs (D (F := F))) 𝒱 (SparseCore.T d) none) Set.univ (Prog.lift (.customCall (SparseCore.inner (Pipeline.entry 0)) ())) Φ

/-- After the call the three arrays of the call sit among the rest again, the output now at the tiles' result. -/
theorem held_V9 (d : Dev nD) :
    (held (SparseCore.T d) (ucRefs τ sig) (V9 m XF AG d) : sProp 𝕄)
      = iprop(((xLoc d ↦{fullShare} fxv m XF d) ∗ (iLoc d ↦{fullShare} fiv m XF d) ∗ oLoc d ↦{fullShare} frv m XF AG d)
          ∗ held (SparseCore.T d) (ucRefs τ sig \ T3) (V8 m XF d)) := by
  rw [held_sub_split (SparseCore.T d) T3_sub (V9 m XF AG d), held_T3,
    held_congr (SparseCore.T d) (S := ucRefs τ sig \ T3) (V := V9 m XF AG d) (V' := V8 m XF d)
      (fun b hb => by
        have hne : b ≠ v6' := fun e => (Finset.mem_sdiff.mp hb).2 (by rw [e]; exact (by decide : v6' ∈ T3))
        exact Function.update_of_ne hne _ _)]
  dsimp only [V9]
  rw [Function.update_of_ne (show v2' ≠ v6' by decide), Function.update_of_ne (show v5' ≠ v6' by decide), Function.update_self]

/-- @main on device `d`'s TensorCore, from what the launch deals it and its pipeline's funded cells: the weight
    transposed and the bias laid as a row, the matmul region, the row numbers laid out, the SparseCore call over the three
    arrays dealt to the SparseCores and gathered again, the first 10000 rows sliced off; every array ends at the final
    valuation. -/
theorem hmain (hreg : RegionRule (F := F) XF) (ht : Tiling tile) (κ : GSem nD τ sig → ℕ) (d : Dev nD) :
    iprop((K (F := F)).ctx EH (PP m XF AG tile) κ ∗ (K (F := F)).tcSt EH d 0 ∗ (K (F := F)).tcRes m ρ d
        ∗ (Pipeline.cellsGhost cfgs EP 0 d ∗ Pipeline.toksInit cfgs EP 0 d))
      ⊢ wp frame (wpE ((K (F := F)).defs (D (F := F))) 𝒱 (SparseCore.T d) none) Set.univ (main d)
          fun _ => iprop((K (F := F)).tcSt EH d 1 ∗ held (SparseCore.T d) (ucRefs τ sig) (V10 m XF AG d)) := by
  unfold SparseCore.Cfg.tcRes
  rw [show (fun b : Ref sig .tc => m ((SparseCore.T d).loc b)) = fun b : Ref sig .tc => V0 m d b from rfl, unscopedBufs_held, tcSt_split]
  simp only [main, fn_pad.body, wp_bind, wp_pure]
  iintro ⟨#Hctx, ⟨HO, Hrest⟩, ⟨Hb, Hheld, -, -⟩, ⟨Hcg, Htk⟩⟩
  iapply (wp_hlo_within 𝒱 (SparseCore.T d) none Set.univ (op := opT) (S := ucRefs τ sig) uT (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opB) (S := ucRefs τ sig) uB (V := (opT (F := F)).result (V0 m d))) $$ [Hb Hheld]
  · isplitl [Hb]; · iexact Hb
    iexact Hheld
  iintro ⟨Hb, Hheld⟩
  rw [wp_ret]; imodintro
  -- the matmul region
  ihave Hlev := (SparseCore.Cfg.ctx_levAts κ) $$ Hctx
  iapply (hreg d (V2 m d) _) $$ [Hlev Hb Hheld HO Hcg Htk Hrest]
  isplitl [Hlev]; · iexact Hlev
  isplitl [Hb]; · iexact Hb
  isplitl [Hheld]; · iexact Hheld
  isplitl [HO]; · iexact HO
  isplitl [Hcg]; · iexact Hcg
  isplitl [Htk]; · iexact Htk
  iintro ⟨Hb, Hheld, HO⟩
  -- the row numbers laid out: 10000 rows of 32, 496 rows of zeros appended, flattened
  iapply (wp_hlo_within 𝒱 (SparseCore.T d) none Set.univ (op := opH) (S := ucRefs τ sig) uH (V := V3 m XF d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := ucRefs τ sig) uC (V := (opH (F := F)).result (V3 m XF d))) $$ [Hb Hheld]
  · isplitl [Hb]; · iexact Hb
    iexact Hheld
  iintro ⟨Hb, Hheld⟩
  rw [wp_ret]; imodintro
  iapply (wp_hlo_within 𝒱 (SparseCore.T d) none Set.univ (op := opCv) (S := ucRefs τ sig) uCv
      (V := (opC (F := F)).result ((opH (F := F)).result (V3 m XF d)))) $$ [Hb Hheld]
  · isplitl [Hb]; · iexact Hb
    iexact Hheld
  iintro ⟨Hb, Hheld⟩
  rw [wp_ret]; imodintro
  iapply (wp_hlo_within 𝒱 (SparseCore.T d) none Set.univ (op := opP) (S := ucRefs τ sig) uP
      (V := (opCv (F := F)).result ((opC (F := F)).result ((opH (F := F)).result (V3 m XF d))))) $$ [Hb Hheld]
  · isplitl [Hb]; · iexact Hb
    iexact Hheld
  iintro ⟨Hb, Hheld⟩
  rw [wp_ret]; imodintro; imodintro
  iapply (wp_hlo_within 𝒱 (SparseCore.T d) none Set.univ (op := opI) (S := ucRefs τ sig) uI
      (V := (opP (F := F)).result ((opCv (F := F)).result ((opC (F := F)).result ((opH (F := F)).result (V3 m XF d)))))) $$ [Hb Hheld]
  · isplitl [Hb]; · iexact Hb
    iexact Hheld
  iintro ⟨Hb, Hheld⟩
  rw [wp_ret]; imodintro
  -- the SparseCore call: the three arrays dealt to the two SparseCores and gathered again
  ihave Hh := (Entails.of_eq (held_sub_split (SparseCore.T d) T3_sub (V8 m XF d))) $$ Hheld
  icases Hh with ⟨H3, Hrst⟩
  ihave H3' := (Entails.of_eq (held_T3 (F := F) d (V8 m XF d))) $$ H3
  ihave Hst := (st_intro (F := F) tile (fxv m XF) (fiv m XF) (fov m XF) (frv m XF AG) ht d) $$ H3'
  icases Hst with ⟨Hst, Hxd, Hid⟩
  iapply ((K (F := F)).wp_run (D (F := F)) 𝒱 (EH := EH) (P := PP m XF AG tile) κ d 0) $$ [HO Hrest Hst Hb Hrst Hxd Hid]
  isplitr; · iexact Hctx
  isplitl [HO Hrest]
  · rw [tcSt_split]; isplitl [HO]; · iexact HO
    iexact Hrest
  isplitl [Hst]; · iexact Hst
  iintro ⟨Hst1, Hdn⟩
  ihave H3 := (dn_elim (F := F) tile (fxv m XF) (fiv m XF) (fov m XF) (frv m XF AG) ht d) $$ [Hdn Hxd Hid]
  · isplitl [Hdn]; · iexact Hdn
    isplitl [Hxd]; · iexact Hxd
    iexact Hid
  ihave Hheld := (Entails.of_eq (held_V9 (F := F) m XF AG d).symm) $$ [H3 Hrst]
  · isplitl [H3]; · iexact H3
    iexact Hrst
  -- the first 10000 rows of the padded output
  iapply (wp_hlo_within 𝒱 (SparseCore.T d) none Set.univ (op := opO) (S := ucRefs τ sig) uO (V := V9 m XF AG d)) $$ [Hb Hheld]
  · isplitl [Hb]; · iexact Hb
    iexact Hheld
  iintro ⟨Hb, Hheld⟩
  rw [wp_ret]; imodintro; imodintro
  isplitl [Hst1]; · iexact Hst1
  iexact Hheld

/-! ## Reading the claim off the final memory -/

abbrev T6 : Finset (DevRef τ sig) := {a0', a1', a2', a3', a4', v7'}
theorem T6_sub : T6 ⊆ ucRefs τ sig := by decide

omit [FloatOps F] in
theorem held_T6 (d : Dev nD) (W : Valuation τ sig (Elt F)) :
    (held (SparseCore.T d) T6 W : sProp 𝕄)
      = iprop(((SparseCore.T d).loc main_arg0 ↦{fullShare} W a0') ∗ ((SparseCore.T d).loc main_arg1 ↦{fullShare} W a1')
          ∗ ((SparseCore.T d).loc main_arg2 ↦{fullShare} W a2') ∗ ((SparseCore.T d).loc main_arg3 ↦{fullShare} W a3')
          ∗ ((SparseCore.T d).loc main_arg4 ↦{fullShare} W a4') ∗ (SparseCore.T d).loc main_v7 ↦{fullShare} W v7') := by
  unfold held T6
  rw [SparseCore.bigSep_insert' (by decide), SparseCore.bigSep_insert' (by decide), SparseCore.bigSep_insert' (by decide),
    SparseCore.bigSep_insert' (by decide), SparseCore.bigSep_insert' (by decide), bigSep_singleton]

/-- What the final memory holds at the five arguments and the result. -/
def fq (W : Dev nD → Valuation τ sig (Elt F)) (d : Dev nD) (s' : Phys nD τ sig (Elt F)) : Prop :=
  s'.mem.mem ((SparseCore.T d).loc main_arg0) = W d a0' ∧ s'.mem.mem ((SparseCore.T d).loc main_arg1) = W d a1'
    ∧ s'.mem.mem ((SparseCore.T d).loc main_arg2) = W d a2' ∧ s'.mem.mem ((SparseCore.T d).loc main_arg3) = W d a3'
    ∧ s'.mem.mem ((SparseCore.T d).loc main_arg4) = W d a4' ∧ s'.mem.mem ((SparseCore.T d).loc main_v7) = W d v7'

set_option maxRecDepth 16384 in
theorem hfin (W : Dev nD → Valuation τ sig (Elt F)) (d : Dev nD) (s' : Phys nD τ sig (Elt F)) :
    iprop(held (SparseCore.T d) (ucRefs τ sig) (W d) ∗ SI s') ⊢ (⌜fq W d s'⌝ : sProp 𝕄) := by
  rw [held_sub_split (SparseCore.T d) T6_sub (W d), held_T6]
  iintro ⟨⟨⟨H0, H1, H2, H3, H4, H7⟩, -⟩, HSI⟩
  ihave H := (persistent_entails_right (SI_pointsTo_agree (st := s') (ℓ := (SparseCore.T d).loc main_arg0) (I := Finset.univ) (q := fullShare) (f := W d a0'))) $$ [HSI H0]
  · isplitl [HSI]; · iexact HSI
    iexact H0
  icases H with ⟨%h0, HSI, -⟩
  ihave H := (persistent_entails_right (SI_pointsTo_agree (st := s') (ℓ := (SparseCore.T d).loc main_arg1) (I := Finset.univ) (q := fullShare) (f := W d a1'))) $$ [HSI H1]
  · isplitl [HSI]; · iexact HSI
    iexact H1
  icases H with ⟨%h1, HSI, -⟩
  ihave H := (persistent_entails_right (SI_pointsTo_agree (st := s') (ℓ := (SparseCore.T d).loc main_arg2) (I := Finset.univ) (q := fullShare) (f := W d a2'))) $$ [HSI H2]
  · isplitl [HSI]; · iexact HSI
    iexact H2
  icases H with ⟨%h2, HSI, -⟩
  ihave H := (persistent_entails_right (SI_pointsTo_agree (st := s') (ℓ := (SparseCore.T d).loc main_arg3) (I := Finset.univ) (q := fullShare) (f := W d a3'))) $$ [HSI H3]
  · isplitl [HSI]; · iexact HSI
    iexact H3
  icases H with ⟨%h3, HSI, -⟩
  ihave H := (persistent_entails_right (SI_pointsTo_agree (st := s') (ℓ := (SparseCore.T d).loc main_arg4) (I := Finset.univ) (q := fullShare) (f := W d a4'))) $$ [HSI H4]
  · isplitl [HSI]; · iexact HSI
    iexact H4
  icases H with ⟨%h4, HSI, -⟩
  ihave H := (SI_pointsTo_agree (st := s') (ℓ := (SparseCore.T d).loc main_v7) (I := Finset.univ) (q := fullShare) (f := W d v7')) $$ [HSI H7]
  · isplitl [HSI]; · iexact HSI
    iexact H7
  icases H with %h7
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h7 i (Finset.mem_univ i)⟩

end Cert.Proof.KI

end
-- ==== Proof.LaunchElem.lean ====
/-
  The launch element of the ghost state: the handshakes' rounds at their initial positions, the TensorCore
  pipeline's staging cells at theirs, and the transfers' counters empty.  The first goes to the launch theorem, the
  second funds each device's staging cells and their launch tokens, which the matmul region consumes.
-/
import proofs.«219373_g11218454577211_week1_w3_1378_31_alg».proof.Proof.Pay
import proofs.«219373_g11218454577211_week1_w3_1378_31_alg».proof.Proof.Gen.KernelIdeal.Launch
import Idealize.ShloMosaic.Lib.Pipeline.Sound

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

def u₀ : UU :=
  (initOf (K (F := F)).hsCells (K (F := F)).hsToks,
    (initOf (Pipeline.cells (nD := nD) (τ := τ) cfgs cellOf_inj) (Pipeline.launchToks (nD := nD) (τ := τ) cfgs cellOf_inj), (1 : Counters)))

/-- What the matmul region on device `d` starts from: its staging cells' ghost state and launch tokens. -/
abbrev GG (d : Dev nD) : sProp 𝕄 := iprop(Pipeline.cellsGhost cfgs (EP (F := F)) 0 d ∗ Pipeline.toksInit cfgs (EP (F := F)) 0 d)

theorem EP_eq : (EP (F := F)) = (Emb.inl : Emb UP (UP × Counters)).trans (embR (A := UH) (B := UP × Counters)) := rfl

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : P.x = fun _ _ => iprop(emp)) :
    (ownU (u₀ (F := F)) : sProp 𝕄)
      ⊢ |={Set.univ}=> iprop(BI.own (EH (initOf (K (F := F)).hsCells (K (F := F)).hsToks)) ∗ (bigSep Finset.univ fun d : Dev nD => GG (F := F) d)
          ∗ bigSep Finset.univ fun thr : Thread nD τ => bigSep Finset.univ fun q : Fin 1 => P.x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)) : UP × Counters)) $$ Hu
  icases H with ⟨HH, HR⟩
  ihave H2 := (own_pair_emb (embR (A := UH) (B := UP × Counters))
    (initOf (Pipeline.cells (nD := nD) (τ := τ) cfgs cellOf_inj) (Pipeline.launchToks (nD := nD) (τ := τ) cfgs cellOf_inj)) (1 : Counters)) $$ HR
  icases H2 with ⟨HP, -⟩
  rw [← EP_eq]
  imod (Pipeline.fund_ghost cfgs (EP (F := F)) cellOf_inj) $$ HP with ⟨Hcg, Htk⟩
  imodintro
  isplitl [HH]; · iexact HH
  isplitl [Hcg Htk]
  · rw [bigSep_sep']
    isplitl [Hcg]
    · iapply (Entails.of_eq (bigSep_congr fun (c : Dev nD) _ => bigSep_univ_of_subsingleton (Φ := fun p : Fin 1 => Pipeline.cellsGhost cfgs (EP (F := F)) p c) (0 : Fin 1))); iexact Hcg
    · iapply (Entails.of_eq (bigSep_congr fun (c : Dev nD) _ => bigSep_univ_of_subsingleton (Φ := fun p : Fin 1 => Pipeline.toksInit cfgs (EP (F := F)) p c) (0 : Fin 1))); iexact Htk
  rw [hx, show (bigSep Finset.univ fun thr : Thread nD τ => bigSep Finset.univ fun q : Fin 1 => (iprop(emp) : sProp 𝕄)) = bigSep Finset.univ fun _ => iprop(emp) from
    bigSep_congr fun _ _ => bigSep_univ_of_subsingleton (0 : Fin 1), bigSep_emp']
  iempintro

end Cert.Proof.KI

end
-- ==== Proof.RunKI.lean ====
/-
  The program's run, by the SparseCore launch theorem: from the tile's task, the split of a SparseCore's holdings
  among its tiles, the launch element and @main's proof, every weakly fair execution of the thirty-five threads
  terminates without a fault and leaves the five arguments and the result at the final valuation — which at the
  arguments is the launch memory, since no operation writes them.
-/
import proofs.«219373_g11218454577211_week1_w3_1378_31_alg».proof.Proof.MainTC
import proofs.«219373_g11218454577211_week1_w3_1378_31_alg».proof.Proof.LaunchElem

noncomputable section

namespace Cert.Proof.KI

open Cert.KernelIdeal

open Idealize.ShloMosaic
open Idealize.ShloMosaic.SparseCore (S V T)
open Idealize.ShloMosaic.SparseCore.Cfg (HIx Pay)
open Idealize.ShloMosaic.StableHlo (held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)
variable (XF : (d : Dev nD) → Valuation τ sig (Elt F) → v2'.ty.Contents (Elt F))
variable (AG : (d : Dev nD) → Buf (Elt F) (xLoc d) → Buf (Elt F) (iLoc d) → Buf (Elt F) (oLoc d))
variable (tile : Fin 2 → Fin 16 → Finset S10240x128.Idx)

/-- Every execution ends with the five arguments and the result at the final valuation. -/
def QC : PUnit × MemSt nD τ sig (Elt F) → Prop := fun r => ∀ c : Dev nD,
  r.2.mem ((SparseCore.T c).loc main_arg0) = V10 m XF AG c a0' ∧ r.2.mem ((SparseCore.T c).loc main_arg1) = V10 m XF AG c a1'
    ∧ r.2.mem ((SparseCore.T c).loc main_arg2) = V10 m XF AG c a2' ∧ r.2.mem ((SparseCore.T c).loc main_arg3) = V10 m XF AG c a3'
    ∧ r.2.mem ((SparseCore.T c).loc main_arg4) = V10 m XF AG c a4' ∧ r.2.mem ((SparseCore.T c).loc main_v7) = V10 m XF AG c v7'

theorem run_main [∀ e, Nonempty (Elt F e)] (hreg : RegionRule (F := F) XF) (ht : Tiling tile)
    (htile : (K (F := F)).TileObl (D (F := F)) 𝒱 (PP m XF AG tile) v₀ 0) :
    θ_run (Cert.KernelIdeal.defs (F := F)) (Cert.KernelIdeal.threads (F := F)) ⟨m, fun _ => 0, ρ⟩ (QC m XF AG) :=
  SparseCore.Cfg.θ_run_sc (K := K (F := F)) (D := D (F := F)) (𝒱 := 𝒱) (EH := EH) (P := PP m XF AG tile) facts v₀
    (fun q hq => match q with | 0 => nomatch hq)
    (fun q _ => match q with | 0 => htile)
    (fun q _ => match q with | 0 => SparseCore.Cfg.VecSplit.of_plain (vecSplit tile (fxv m XF) (fiv m XF) (fov m XF) (frv m XF AG) ht))
    m ρ main (fun d => GG (F := F) d) (fun d => held (SparseCore.T d) (ucRefs τ sig) (V10 m XF AG d)) (u₀ (F := F))
    (sep_elim_left.trans (hu₀ (PP m XF AG tile) rfl))
    (hmain m ρ XF AG tile hreg ht)
    (fq (V10 m XF AG)) (hfin (V10 m XF AG)) (QC m XF AG) (fun _ h => h)

end Cert.Proof.KI

end
-- ==== Proof.Vals.lean ====
/-
  The valuations of @main read at one array: an array no operation writes ends at its launch contents; the result is
  the first 10000 rows of what the tiles wrote; the row numbers the tiles read are the hyperedge table reshaped,
  padded and flattened; the embeddings they read are the matmul region's output of the launch embeddings, the
  transposed weight and the bias row.
-/
import proofs.«219373_g11218454577211_week1_w3_1378_31_alg».proof.Proof.RunKI

noncomputable section

namespace Cert.Proof.KI

open Cert.KernelIdeal
open Cert.KernelIdeal.Shapes1.Facts₀ Cert.KernelIdeal.Shapes3.Facts₀
open Idealize.ShloMosaic
open Idealize.ShloMosaic.TcCoe

variable {F : FTy → Type} [FloatOps F]
variable (m : (ℓ : Loc nD τ sig) → Buf (Elt F) ℓ)
variable (XF : (d : Dev nD) → Valuation τ sig (Elt F) → v2'.ty.Contents (Elt F))
variable (AG : (d : Dev nD) → Buf (Elt F) (xLoc d) → Buf (Elt F) (iLoc d) → Buf (Elt F) (oLoc d))

/-- An array none of @main's operations writes ends at its launch contents. -/
theorem V10_keep (d : Dev nD) (b : DevRef τ sig)
    (h : b ∉ ({v0', v1', v2', v3', c', cv', v4', v5', v6', v7'} : Finset (DevRef τ sig))) :
    V10 m XF AG d b = m (d, b) := by
  have hv0 : b ∉ ({v0'} : Finset (DevRef τ sig)) := fun e => h (by rw [Finset.mem_singleton.mp e]; decide)
  have hv1 : b ∉ ({v1'} : Finset (DevRef τ sig)) := fun e => h (by rw [Finset.mem_singleton.mp e]; decide)
  have hv2 : b ≠ v2' := fun e => h (by rw [e]; decide)
  have hv3 : b ∉ ({v3'} : Finset (DevRef τ sig)) := fun e => h (by rw [Finset.mem_singleton.mp e]; decide)
  have hc : b ∉ ({c'} : Finset (DevRef τ sig)) := fun e => h (by rw [Finset.mem_singleton.mp e]; decide)
  have hcv : b ∉ ({cv'} : Finset (DevRef τ sig)) := fun e => h (by rw [Finset.mem_singleton.mp e]; decide)
  have hv4 : b ∉ ({v4'} : Finset (DevRef τ sig)) := fun e => h (by rw [Finset.mem_singleton.mp e]; decide)
  have hv5 : b ∉ ({v5'} : Finset (DevRef τ sig)) := fun e => h (by rw [Finset.mem_singleton.mp e]; decide)
  have hv6 : b ≠ v6' := fun e => h (by rw [e]; decide)
  have hv7 : b ∉ ({v7'} : Finset (DevRef τ sig)) := fun e => h (by rw [Finset.mem_singleton.mp e]; decide)
  unfold V10 V9 V8 V3 V2
  rw [(opO (F := F)).result_of_not_mem _ hv7, Function.update_of_ne hv6, (opI (F := F)).result_of_not_mem _ hv5,
    (opP (F := F)).result_of_not_mem _ hv4, (opCv (F := F)).result_of_not_mem _ hcv, (opC (F := F)).result_of_not_mem _ hc,
    (opH (F := F)).result_of_not_mem _ hv3, Function.update_of_ne hv2, (opB (F := F)).result_of_not_mem _ hv1,
    (opT (F := F)).result_of_not_mem _ hv0]

theorem V10_a0 (d : Dev nD) : V10 m XF AG d a0' = m ((SparseCore.T d).loc main_arg0) := V10_keep m XF AG d a0' (by decide)
theorem V10_a1 (d : Dev nD) : V10 m XF AG d a1' = m ((SparseCore.T d).loc main_arg1) := V10_keep m XF AG d a1' (by decide)
theorem V10_a2 (d : Dev nD) : V10 m XF AG d a2' = m ((SparseCore.T d).loc main_arg2) := V10_keep m XF AG d a2' (by decide)
theorem V10_a3 (d : Dev nD) : V10 m XF AG d a3' = m ((SparseCore.T d).loc main_arg3) := V10_keep m XF AG d a3' (by decide)
theorem V10_a4 (d : Dev nD) : V10 m XF AG d a4' = m ((SparseCore.T d).loc main_arg4) := V10_keep m XF AG d a4' (by decide)

/-- The result array is the first 10000 rows of what the tiles wrote. -/
theorem V10_v7 (d : Dev nD) :
    V10 m XF AG d v7' = extractStridedSlice S10000x128 ![0, 0] (frv m XF AG d) slices_S10240x128_S10000x128_0_0 := by
  unfold V10 V9
  first
  | rfl
  | (simp (disch := decide) only [StableHlo.unary_result', Function.update_self])

/-- The row numbers the tiles read: the hyperedge table as 10000 rows of 32, 496 rows of zeros appended, flattened. -/
theorem fiv_eq (d : Dev nD) :
    fiv m XF d = shapeCast S335872 (pad S10496x32 ![0, 0] ![496, 0] ![0, 0]
      (shapeCast S10000x32 (m ((SparseCore.T d).loc main_arg2)) shapeCasts_S10000x4x8_S10000x32)
      (id (constantI S_ 32 0#32)) pads_S10000x32_S10496x32_04960_000 h_S_) shapeCasts_S10496x32_S335872 := by
  unfold fiv V8 V3 V2
  first
  | rfl
  | (simp (disch := decide) only [StableHlo.unary_result', StableHlo.binary_result', StableHlo.nullary_result', StableHlo.reshape_result',
      StableHlo.unary_result_ne', StableHlo.binary_result_ne', StableHlo.nullary_result_ne', StableHlo.reshape_result_ne',
      Function.update_of_ne, Function.update_self]; rfl)

/-- The embeddings the tiles read are the matmul region's output of what it found. -/
theorem fxv_eq (d : Dev nD) : fxv m XF d = XF d (V2 m d) := by
  unfold fxv V8 V3
  rw [(opI (F := F)).result_of_not_mem _ (show v2' ∉ ({v5'} : Finset (DevRef τ sig)) by decide),
    (opP (F := F)).result_of_not_mem _ (show v2' ∉ ({v4'} : Finset (DevRef τ sig)) by decide),
    (opCv (F := F)).result_of_not_mem _ (show v2' ∉ ({cv'} : Finset (DevRef τ sig)) by decide),
    (opC (F := F)).result_of_not_mem _ (show v2' ∉ ({c'} : Finset (DevRef τ sig)) by decide),
    (opH (F := F)).result_of_not_mem _ (show v2' ∉ ({v3'} : Finset (DevRef τ sig)) by decide), Function.update_self]

/-- What the matmul region finds at its three inputs. -/
theorem V2_a0 (d : Dev nD) : V2 m d a0' = m ((SparseCore.T d).loc main_arg0) := by
  unfold V2
  rw [(opB (F := F)).result_of_not_mem _ (show a0' ∉ ({v1'} : Finset (DevRef τ sig)) by decide),
    (opT (F := F)).result_of_not_mem _ (show a0' ∉ ({v0'} : Finset (DevRef τ sig)) by decide)]
theorem V2_v0 (d : Dev nD) :
    V2 m d v0' = transpose S128x128 [1, 0] (m ((SparseCore.T d).loc main_arg3)) transposes_S128x128_S128x128_1_0 := by
  unfold V2
  rw [(opB (F := F)).result_of_not_mem _ (show v0' ∉ ({v1'} : Finset (DevRef τ sig)) by decide)]
  first
  | rfl
  | (simp (disch := decide) only [StableHlo.unary_result']; rfl)
theorem V2_v1 (d : Dev nD) : V2 m d v1' = shapeCast S1x128 (m ((SparseCore.T d).loc main_arg4)) shapeCasts_S128_S1x128 := by
  unfold V2
  first
  | rfl
  | (simp (disch := decide) only [StableHlo.reshape_result']; rfl)

end Cert.Proof.KI

end
-- ==== Proof.MmBody.lean ====
/-
  The matmul region's kernel body, once, at a symbolic grid point.

  The TensorCore call tiles the 100000 x 128 embedding array into 50 blocks of 2000 rows; at every grid point
  the body reads the current 2000 x 128 block x, the whole 128 x 128 transposed weight w and the 1 x 128 bias
  row b, and overwrites the whole output block with

      max (x_bf16 · w_bf16 + broadcast b, 0)

  (both factors rounded to bf16, products accumulated in f32 from zero).  The output block is written by ONE
  store through the full rectangle, so what the staging buffer holds after the body is a function of the three
  input blocks alone, whatever it held before.  This module names that function, proves the body's triple, and
  packs it as the pipeline library's proof data: after point t each input buffer still holds its block, the
  output buffer holds the function of the three blocks at t.
-/
import proofs.«219373_g11218454577211_week1_w3_1378_31_alg».proof.Proof.Gen.KernelIdeal.Launch
import proofs.«219373_g11218454577211_week1_w3_1378_31_alg».proof.Proof.Gen.KernelIdeal.Points
import Idealize.ShloMosaic.Lib.Pipeline.FrameBody
import Idealize.ShloMosaic.Lib.SparseCore.Cells
import Idealize.ShloMosaic.Lib.Tactic

set_option maxRecDepth 16384

noncomputable section

namespace Cert.Proof.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]
variable {Name : Type} [DecidableEq Name] {U : Type} [URA U]

local notation "𝕄" => MT nD τ sig (HIx 1) (Elt F) Name U ℕ

/-! ## What the body computes -/

/-- The full rectangle of a 2000 x 128 block, of the weight, of the bias row. -/
abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The block the body stores, from the three values it loads: relu of the bf16 product plus the bias row. -/
def mmPay (v0 : Vec F S2000x128 .f32) (v2 : Vec F S128x128 .f32) (v6 : Vec F S1x128 .f32) : FVec F S2000x128 .f32 :=
  maximumf
    (addf
      (matmul dot_S2000x128_S128x128_S2000x128_1_0_0_1_n_n none
        (truncf .bf16 v0 bitsLt_bf16_f32)
        (truncf .bf16 (shapeCast S128x128 v2 shapeCasts_S128x128_S128x128) bitsLt_bf16_f32)
        (constant S2000x128 .f32 0x00000000#32))
      (broadcastTo S2000x128 (shapeCast S1x128 v6 shapeCasts_S1x128_S1x128) broadcasts_S1x128_S2000x128))
    (broadcast S2000x128 (Scalar.ofBits .f32 0x00000000#32))

/-- What the output window's staging buffer holds after the body, from the input windows' blocks: its one store. -/
def out3 (x0 : Vec F S2000x128 .f32) (x1 : Vec F S128x128 .f32) (x2 : Vec F S1x128 .f32) : Vec F S2000x128 .f32 :=
  View.canon [⟨rX, mmPay (View.ld x0 rX) (View.ld x1 rW) (View.ld x2 rB)⟩]

/-- The one store covers the buffer. -/
theorem cover3 (p0 : Vec F S2000x128 .f32) (y : S2000x128.Idx) :
    ∃ pc ∈ ([⟨rX, p0⟩] : List (View.Piece (Elt F) S2000x128 .f32)), y ∈ pc.1.set :=
  View.cover_of_tiled [⟨rX, p0⟩] S2000x128.size (by rfl) y

/-! ## The body's triple -/

set_option maxHeartbeats 1000000 in
/-- The body on whole staging memrefs: the three inputs' at read contents, the output's at anything; it returns the
    inputs' as they were and the output's at `out3` of the inputs'. -/
theorem mm_kernel (𝒱₀ : Variants) (c : Dev nD) (E : Set Name) (i : grid0.Coords)
    (a1 : Memref sig .tc .vmem S2000x128 .f32) (h1 : a1.IsWhole) (a2 : Memref sig .tc .vmem S128x128 .f32) (h2 : a2.IsWhole)
    (a3 : Memref sig .tc .vmem S1x128 .f32) (h3 : a3.IsWhole) (a4 : Memref sig .tc .vmem S2000x128 .f32) (h4 : a4.IsWhole)
    (x0 : Vec F S2000x128 .f32) (x1 : Vec F S128x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out3 x0 x1 x2)) -∗ K ⟨⟩))
      ⊢ wp frame (wpE (defs₀ (F := F)) 𝒱₀ c none) E (cc0__mm_body i a1 h1 a2 h2 a3 h3 a4 h4) K := by
  unfold cc0__mm_body
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

section Data

/- The TensorCores' unscoped buffers when the region is entered, device by device; what each TensorCore owes the other
    processors throughout the region; a bound on the waits it has recorded. The region reads the first, passes the
    other two through. -/
variable (V : (c : Dev nD) → (b : Ref sig .tc) → Buf (Elt F) ((c : Thread nD τ).loc b))
variable (O : Dev nD → CellTallies nD τ sig (HIx 1)) (R : Dev nD → Set (SemLoc sig × HIx 1))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data on core `c`: the arrays as the region finds them; after the body at point `t` each input's buffer at
    its block and the output's at `out3` of the three input blocks; the invariant is the scoped buffers no window
    stages; full shares; the tallies owed and the bound on recorded waits constant. -/
def dats (_ : Fin 1) (c : Dev nD) : Dat τ (Elt F) (HIx 1) Name U ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.scopedRest (Ix := HIx 1) (Name := Name) (U := U) (Lvl := ℕ) (Val := Elt F) spec0 c
  q _ := fullShare
  owed _ := O c
  recorded _ := R c

theorem A_eq (c : Dev nD) (w : Fin cfg0.W) : (dats (Name := Name) (U := U) V O R 0 c).A w = V c (Pipeline.arrRef spec0 w) := by
  dsimp only [dats]

theorem after0 (c : Dev nD) (t : Fin cfg0.N) : (dats (Name := Name) (U := U) V O R 0 c).after 0 t = iblk V c 0 t := by dsimp only [dats]
theorem after1 (c : Dev nD) (t : Fin cfg0.N) : (dats (Name := Name) (U := U) V O R 0 c).after 1 t = iblk V c 1 t := by dsimp only [dats]
theorem after2 (c : Dev nD) (t : Fin cfg0.N) : (dats (Name := Name) (U := U) V O R 0 c).after 2 t = iblk V c 2 t := by dsimp only [dats]
theorem after3 (c : Dev nD) (t : Fin cfg0.N) :
    (dats (Name := Name) (U := U) V O R 0 c).after 3 t = out3 (iblk V c 0 t) (iblk V c 1 t) (iblk V c 2 t) := by dsimp only [dats]

/-- Each input's current staging buffer holds its block at every point, fetched there or not: an unfetched window's
    block index has not moved since the point that fetched it. -/
theorem before0 (c : Dev nD) (t : Fin cfg0.N) (d) : (dats (Name := Name) (U := U) V O R 0 c).before 0 t d = iblk V c 0 t :=
  ((dats (Name := Name) (U := U) V O R 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats (Name := Name) (U := U) V O R 0 c).before 1 t d = iblk V c 1 t :=
  ((dats (Name := Name) (U := U) V O R 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats (Name := Name) (U := U) V O R 0 c).before 2 t d = iblk V c 2 t :=
  ((dats (Name := Name) (U := U) V O R 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation, at a symbolic point -/

/-- What the body is called with at point `t`, the windows one by one, -/
def bodyPre (c : Dev nD) (t : Fin cfg0.N) : sProp 𝕄 :=
  iprop((dats (Name := Name) (U := U) V O R 0 c).Φ t.castSucc ∗ (dats (Name := Name) (U := U) V O R 0 c).owesAt none t.castSucc
    ∗ (∃ d, owns (c : Thread nD τ) (st0_0 t) fullShare ((dats (Name := Name) (U := U) V O R 0 c).before 0 t d))
    ∗ (∃ d, owns (c : Thread nD τ) (st0_1 t) fullShare ((dats (Name := Name) (U := U) V O R 0 c).before 1 t d))
    ∗ (∃ d, owns (c : Thread nD τ) (st0_2 t) fullShare ((dats (Name := Name) (U := U) V O R 0 c).before 2 t d))
    ∗ (∃ d, owns (c : Thread nD τ) (st0_3 t) fullShare ((dats (Name := Name) (U := U) V O R 0 c).before 3 t d)))

/-- and what it returns. -/
def bodyPost (c : Dev nD) (t : Fin cfg0.N) : sProp 𝕄 :=
  iprop((dats (Name := Name) (U := U) V O R 0 c).Φ t.succ ∗ (dats (Name := Name) (U := U) V O R 0 c).owesAt none t.succ
    ∗ owns (c : Thread nD τ) (st0_0 t) fullShare ((dats (Name := Name) (U := U) V O R 0 c).after 0 t)
    ∗ owns (c : Thread nD τ) (st0_1 t) fullShare ((dats (Name := Name) (U := U) V O R 0 c).after 1 t)
    ∗ owns (c : Thread nD τ) (st0_2 t) fullShare ((dats (Name := Name) (U := U) V O R 0 c).after 2 t)
    ∗ owns (c : Thread nD τ) (st0_3 t) fullShare ((dats (Name := Name) (U := U) V O R 0 c).after 3 t))

/-- The body at any point: the inputs' buffers hold their blocks, so the triple applies; the invariant and what the core
    owes pass through unread. -/
theorem sound_body (𝒱₀ : Variants) (c : Dev nD) (t : Fin cfg0.N) :
    bodyPre (Name := Name) (U := U) V O R c t
      ⊢ wp frame (wpE (defs₀ (F := F)) 𝒱₀ c none) Set.univ (bodyAt0 t) (fun _ => bodyPost (Name := Name) (U := U) V O R c t) := by
  unfold bodyPre bodyPost bodyAt0
  simp only [before0, before1, before2]
  rw [show (dats (Name := Name) (U := U) V O R 0 c).Φ t.succ = (dats (Name := Name) (U := U) V O R 0 c).Φ t.castSucc from rfl,
    show (dats (Name := Name) (U := U) V O R 0 c).owesAt none t.succ = (dats (Name := Name) (U := U) V O R 0 c).owesAt none t.castSucc from rfl,
    after0, after1, after2, after3]
  iintro ⟨HΦ, Ho, ⟨%d0, H0⟩, ⟨%d1, H1⟩, ⟨%d2, H2⟩, ⟨%d3, H3⟩⟩
  iapply (mm_kernel 𝒱₀ c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (𝒱₀ : Variants) (c : Dev nD) :
    BodyObligation (dats (Name := Name) (U := U) V O R 0 c) (defs₀ (F := F)) 𝒱₀ none Set.univ := fun t => by
  rw [bigSep_W0, bigSep_W0]
  exact sound_body V O R 𝒱₀ c t

end Data

end Cert.Proof.KernelIdeal.Region

end
-- ==== Proof.Region.lean ====
/-
  The TensorCore's matmul region inside the SparseCore program: the one line of @main that enters the pipelined
  call, as a step of the TensorCore thread's weakest precondition.

  Before the line the TensorCore holds its region-boundary holdings (scoped staging buffers at anything, scoped
  semaphores at zero), its unscoped buffers at a valuation `V`, what it owes the SparseCores (start signals, all
  at a call's index, none at the kernels' own index), and the pipeline's staging-cell ghost state.  After the line
  it holds the same, the unscoped buffers at the valuation that differs from `V` at the call's result alone: there
  it is the array the pipeline library computes, block after block, from the body's output term.  The pipeline's
  own waits are at the kernels' index, below everything the TensorCore owes.
-/
import proofs.«219373_g11218454577211_week1_w3_1378_31_alg».proof.Proof.MmBody
import Idealize.ShloMosaic.Lib.Pipeline.RegionsLoop
import Idealize.ShloMosaic.Lib.SparseCore.Threads

noncomputable section

namespace Cert.Proof.KernelIdeal.Region

open Cert.KernelIdeal Cert.KernelIdeal.Gen
open Idealize.ShloMosaic Idealize.ShloMosaic.TcCoe Idealize.ShloMosaic.Tactic
open Idealize.ShloMosaic.SparseCore (T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

set_option Elab.async false

variable {F : FTy → Type} [FloatOps F]
variable {Name : Type} [DecidableEq Name] [Infinite Name] {U : Type} [URA U]

local notation "𝕄" => MT nD τ sig (HIx 1) (Elt F) Name U ℕ

/-- The prefetched tables' admissible contents: the call has no table. -/
abbrev adm : (p : Fin 1) → (pcfgs (F := F) p).Adm := fun p => (cfgs p).toPCfg_adm

section Seg

variable (EP : Emb (URounds (GSem nD τ sig) Unit) (MT nD τ sig (HIx 1) (Elt F) Name U ℕ))
variable (𝒱₀ : Variants)
variable (lv : GSem nD τ sig → HIx 1 → ℕ) (hlv : (sc (F := F)).Refines lv)
variable (V : (c : Dev nD) → (b : Ref sig .tc) → Buf (Elt F) ((c : Thread nD τ).loc b))
variable (O : Dev nD → CellTallies nD τ sig (HIx 1)) (hO : ∀ c g, O c g none = 0) (b : ℕ)

/-- The waits a TensorCore may have recorded: those at or below level `b`. -/
def recB (c : Dev nD) : Set (SemLoc sig × HIx 1) := {p | (sc (F := F)).lev (T c, p.1) p.2 ≤ b}

/-- What the TensorCore owes, its recorded waits at or below `b`. -/
def owesSt (c : Dev nD) : sProp 𝕄 := iprop(∃ W, ⌜(sc (F := F)).WBelow (T c) W b⌝ ∗ owes (T c) (O c) W)

/-- The call's result after the region: the array the pipeline library computes from the proof data. -/
def XF (c : Dev nD) : Buf (Elt F) ((c : Thread nD τ).loc main_v2) :=
  (dats (Name := Name) (U := U) V O (recB (F := F) b) 0 c).arrAt 3 cfg0.N

/-- The valuation the region leaves: `V` but at the call's result. -/
def Vout (c : Dev nD) : (r : Ref sig .tc) → Buf (Elt F) ((c : Thread nD τ).loc r) :=
  fun r => if h : r = main_v2 then h ▸ XF (Name := Name) (U := U) V O b c else V c r

theorem Vout_result (c : Dev nD) : Vout (Name := Name) (U := U) V O b c main_v2 = XF (Name := Name) (U := U) V O b c := by
  unfold Vout; rw [dif_pos rfl]

theorem Vout_other (c : Dev nD) (r : Ref sig .tc) (h : r ≠ main_v2) : Vout (Name := Name) (U := U) V O b c r = V c r := by
  unfold Vout; rw [dif_neg h]

/-- The proof data at the recorded-waits bound. -/
abbrev rdats : (p : Fin 1) → (c : Dev nD) → Dat τ (Elt F) (HIx 1) Name U ℕ cfg0 c :=
  dats (Name := Name) (U := U) V O (recB (F := F) b)

theorem share_eq (c : Dev nD) (w : Fin cfg0.W) : (rdats (Name := Name) (U := U) V O b 0 c).share w = fullShare :=
  (rdats (Name := Name) (U := U) V O b 0 c).share_full (fun _ => rfl) w

/-- The invariant between the region's ends: the scoped buffers no window stages. -/
theorem Φ_eq (c : Dev nD) (t : Fin (cfg0.N + 1)) :
    (rdats (Name := Name) (U := U) V O b 0 c).Φ t
      = Pipeline.scopedRest (Ix := HIx 1) (Name := Name) (U := U) (Lvl := ℕ) (Val := Elt F) spec0 c := rfl

/-- Windows 0, 1, 2 are inputs, and only window 3's array is the call's result. -/
theorem arrRef_ne : ∀ w : Fin cfg0.W, w ≠ 3 → Pipeline.arrRef spec0 w ≠ main_v2 := by decide
theorem isIn : ∀ w : Fin cfg0.W, w ≠ 3 → (cfg0.win w).isOut = false := by decide

/-- The three input arrays are never written: after the region they are what the region found. -/
theorem arrAt_input (c : Dev nD) (w : Fin cfg0.W) (hw : (cfg0.win w).isOut = false) :
    (rdats (Name := Name) (U := U) V O b 0 c).arrAt w cfg0.N = V c (Pipeline.arrRef spec0 w) :=
  ((rdats (Name := Name) (U := U) V O b 0 c).arrAt_in w hw _).trans (A_eq V O _ c w)

/-- The arrays after the region are the valuation the region leaves, read at the windows' arrays. -/
theorem arrAt_Vout (c : Dev nD) (w : Fin cfg0.W) :
    (rdats (Name := Name) (U := U) V O b 0 c).arrAt w cfg0.N = Vout (Name := Name) (U := U) V O b c (Pipeline.arrRef spec0 w) := by
  by_cases h : w = 3
  · subst h; exact (Vout_result V O b c).symm
  · rw [Vout_other V O b c _ (arrRef_ne w h)]; exact arrAt_input V O b c w (isIn w h)

-- the library's lemmas are stated over the pinned configuration: unifying it with the printed one unfolds plain
-- definitions in a metavariable's type
set_option backward.isDefEq.respectTransparency.types false in
/-- THE REGION as the library's record: the generated layout, no semaphore of the kernel's own, the body obligation,
    the pipeline's waits below what the TensorCore owes; entered from the unscoped buffers at `V` and what the core
    owes, left with the buffers at `Vout` and the same owed. -/
def reg0 : Pipeline.RegionSeg (pcfgs (F := F)) adm (rdats (Name := Name) (U := U) V O b) none defs₀ 𝒱₀ (sc (F := F)).L lv 0 where
  win := launch0.win.to₀
  block_pos := launch0.block_pos
  stage_whole := launch0.stage_whole
  K := PEmpty
  osem := fun k => k.elim
  ho := Pipeline.OwnSemFacts.none _
  hbody c := (body_obligation V O (recB (F := F) b) 𝒱₀ c).loose
  hwaits c := Pipeline.cellsWaits_intro _ _ none 0 c fun w s t =>
    (sc (F := F)).mayWait_none (thr := T c) _ (hO c) lv hlv
  pre c := iprop(unscopedBufs c (V c) ∗ owesSt (Name := Name) (U := U) O b c)
  post c := iprop(unscopedBufs c (Vout (Name := Name) (U := U) V O b c) ∗ owesSt (Name := Name) (U := U) O b c)
  X _ := iprop(emp)
  Y _ := iprop(emp)
  Z c := Pipeline.unscopedRest spec0 c (V c)
  hentry c := by
    have hsplit := Pipeline.arrays_of_unscopedBufs (pcfgs (F := F)) adm (rdats (Name := Name) (U := U) V O b) launch0.win launch0.arr_whole c
      (share_eq V O b c) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesSt Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [Φ_eq]
    iintro ⟨-, -, Hr⟩; iexact Hr
  hout c := by
    unfold Pipeline.ownSems0
    rw [show (Finset.univ : Finset PEmpty) = ∅ from rfl, BI.bigSep_empty, Φ_eq]
    iintro Hr
    isplitr; · iempintro
    isplitr; · iempintro
    iexact Hr
  hexit c := by
    have hjoin := Pipeline.unscopedBufs_of_arrays (pcfgs (F := F)) adm launch0.win launch0.arr_whole c (rdats (Name := Name) (U := U) V O b)
      (share_eq V O b c) (V c) (Vout (Name := Name) (U := U) V O b c) ((rdats (Name := Name) (U := U) V O b 0 c).arrAt · cfg0.N)
      (arrAt_Vout V O b c)
      (fun r hr => Vout_other V O b c r fun e => hr (Finset.mem_image.mpr ⟨3, Finset.mem_univ _, e.symm⟩))
    iintro ⟨Ha, HO, -, HZ⟩
    imodintro
    isplitl [Ha HZ]
    · iapply hjoin; isplitl [Ha] <;> iassumption
    · unfold owesSt Pipeline.Dat.owesAt Pipeline.owesWithin
      icases HO with ⟨%W, %hW, HO⟩; iexists W; isplitr
      · ipureintro
        intro p hp
        rcases hW hp with h | ⟨w, s, rfl⟩
        · exact h
        · exact Nat.zero_le _
      iexact HO

variable [EP.LandsIn (upEmb : UEmb _ (MT nD τ sig (HIx 1) (Elt F) Name U ℕ))]

include hlv hO in
set_option backward.isDefEq.respectTransparency.types false in
/-- THE LINE OF @main THAT ENTERS THE CALL, on TensorCore `d`: from the level facts, the region boundary, the unscoped
    buffers at `V d`, what the core owes, and the pipeline's staging-cell ghost state (consumed: the call is entered
    once), it runs to the boundary, the buffers at `Vout … d` and the same owed. -/
theorem region_wp (d : Dev nD) {Φ : PUnit → sProp 𝕄} :
    iprop(levAts (sc (F := F)).L lv ∗ boundary (T d) ∗ unscopedBufs d (V d) ∗ owesSt (Name := Name) (U := U) O b d
        ∗ Pipeline.cellsGhost cfgs EP 0 d ∗ Pipeline.toksInit cfgs EP 0 d
        ∗ (iprop(boundary (T d) ∗ unscopedBufs d (Vout (Name := Name) (U := U) V O b d) ∗ owesSt (Name := Name) (U := U) O b d) -∗ Φ ⟨⟩))
      ⊢ wp frame (wpE ((sc (F := F)).defs (Pipeline.defs pcfgs defs₀)) 𝒱₀.lift (T d) none) Set.univ
          (Prog.lift (.customCall (SparseCore.inner (Pipeline.entry 0)) ())) Φ := by
  have e : (SparseCore.liftProg (Q := 1) (Prog.lift (TpuEff.customCall (Pipeline.entry (0 : Fin 1)) ()) : Prog (TpuEff nD τ sig (Elt F) (Pipeline.Sig Λ₀ (Fin 1) fun p => (pcfgs (F := F) p).Adm) Proc.tc) PUnit))
      = Prog.lift (.customCall (SparseCore.inner (Pipeline.entry 0)) ()) := rfl
  rw [← e]
  refine BIBase.Entails.trans ?_ ((sc (F := F)).wp_liftProg (Pipeline.defs pcfgs defs₀) 𝒱₀.lift (T d) Set.univ none _ Φ)
  have h := Pipeline.RegionSeg.wp (pcfgs (F := F)) adm (rdats (Name := Name) (U := U) V O b) none cellOf_inj EP defs₀ 𝒱₀ (sc (F := F)).L lv
    (reg0 (Name := Name) (U := U) (𝒱₀ := 𝒱₀) (lv := lv) (hlv := hlv) (V := V) (O := O) (hO := hO) (b := b)) d none (fun _ h => nomatch h)
    (fun x => .ret x) Φ
  dsimp only [reg0] at h
  refine BIBase.Entails.trans ?_ h
  iintro ⟨Hlev, Hbd, Hub, HO, Hg, Ht, Hk⟩
  isplitl [Hk]
  · iintro ⟨Hbd, Hub, HO⟩
    rw [wp_ret]; imodintro; iapply Hk
    isplitl [Hbd]; · iexact Hbd
    isplitl [Hub] <;> iassumption
  isplitl [Hbd]; · iexact Hbd
  isplitl [Hub HO]; · isplitl [Hub] <;> iassumption
  isplitl [Hlev]; · iexact Hlev
  isplitl [Hg] <;> iassumption

/-! ## The same line over a valuation of the device's buffers -/

section Held

variable (W : Dev nD → Valuation τ sig (Elt F))

/-- A device-buffer valuation read at the TensorCore's references. -/
abbrev ofVal (c : Dev nD) : (r : Ref sig .tc) → Buf (Elt F) ((c : Thread nD τ).loc r) := fun r => W c r

/-- The valuation the region leaves: `W d` updated at the call's result. -/
def Wout (c : Dev nD) : Valuation τ sig (Elt F) :=
  Function.update (W c) (Proc.devRef .tc main_v2) (XF (Name := Name) (U := U) (ofVal W) O b c)

theorem Wout_result (c : Dev nD) :
    Wout (Name := Name) (U := U) O b W c (Proc.devRef .tc main_v2) = XF (Name := Name) (U := U) (ofVal W) O b c := by
  unfold Wout; exact Function.update_self _ _ _

theorem Wout_other (c : Dev nD) (r : DevRef τ sig) (h : r ≠ Proc.devRef .tc main_v2) :
    Wout (Name := Name) (U := U) O b W c r = W c r := by
  unfold Wout; exact Function.update_of_ne h _ _

theorem Vout_ofVal (c : Dev nD) :
    Vout (Name := Name) (U := U) (ofVal W) O b c
      = (fun r : Ref sig .tc => Wout (Name := Name) (U := U) O b W c (Proc.devRef .tc r) :
          (r : Ref sig .tc) → Buf (Elt F) ((c : Thread nD τ).loc r)) := by
  funext r
  by_cases h : r = main_v2
  · subst h; rw [Vout_result]; exact (Wout_result O b W c).symm
  · rw [Vout_other _ _ _ _ _ h]; exact (Wout_other O b W c _ (StableHlo.devRef_ne_of_ne h)).symm

include hlv hO in
/-- `region_wp` with the unscoped buffers held as a set at a valuation, the form host operations run over. -/
theorem region_wp_held (d : Dev nD) {Φ : PUnit → sProp 𝕄} :
    iprop(levAts (sc (F := F)).L lv ∗ boundary (T d) ∗ StableHlo.held (T d) (Pipeline.ucRefs τ sig) (W d)
        ∗ owesSt (Name := Name) (U := U) O b d
        ∗ Pipeline.cellsGhost cfgs EP 0 d ∗ Pipeline.toksInit cfgs EP 0 d
        ∗ (iprop(boundary (T d) ∗ StableHlo.held (T d) (Pipeline.ucRefs τ sig) (Wout (Name := Name) (U := U) O b W d)
            ∗ owesSt (Name := Name) (U := U) O b d) -∗ Φ ⟨⟩))
      ⊢ wp frame (wpE ((sc (F := F)).defs (Pipeline.defs pcfgs defs₀)) 𝒱₀.lift (T d) none) Set.univ
          (Prog.lift (.customCall (SparseCore.inner (Pipeline.entry 0)) ())) Φ := by
  rw [← Pipeline.unscopedBufs_held d (W d), ← Pipeline.unscopedBufs_held d (Wout (Name := Name) (U := U) O b W d), ← Vout_ofVal]
  exact region_wp EP 𝒱₀ lv hlv (ofVal W) O hO b d

end Held

end Seg

end Cert.Proof.KernelIdeal.Region

end
-- ==== Proof.InstRegion.lean ====
/-
  The matmul region's rule, from its proof: the region run from every unscoped array held whole leaves the fourth
  at the pipeline's own name for the output array after the last grid point, a function of the three inputs found.
-/
import proofs.«219373_g11218454577211_week1_w3_1378_31_alg».proof.Proof.RunKI
import proofs.«219373_g11218454577211_week1_w3_1378_31_alg».proof.Proof.Region

noncomputable section

namespace Cert.Proof.KI

open Cert.KernelIdeal
open Cert.Proof.KernelIdeal
open Idealize.ShloMosaic
open Idealize.ShloMosaic.TcCoe

variable {F : FTy → Type} [FloatOps F]

/-- The matmul region's output array, as a function of the valuation the region finds. -/
abbrev XFk (d : Dev nD) (W : Valuation τ sig (Elt F)) : v2'.ty.Contents (Elt F) :=
  Region.XF (F := F) (Name := ℕ) (U := UU) (Region.ofVal (fun _ => W)) (fun c => (K (F := F)).Otc c 0) (8 * 0) d

theorem regionRule : RegionRule (F := F) XFk := fun d W _ =>
  Region.region_wp_held (F := F) (Name := ℕ) (U := UU) EP 𝒱₀ (K (F := F)).lev (by sl_refines_lev) (fun c => (K (F := F)).Otc c 0)
    (fun c g => Otc_none c 0 g) (8 * 0) (fun _ => W) d

end Cert.Proof.KI

end
-- ==== Proof.Agg.lean ====
/-
  The value one SparseCore tile's body leaves in a row of the padded output: for output row j and lane e,
  the pairwise (five-level, neighbours-paired) sum over r < 32 of x at (row idx[32 j + r], lane e), times the
  scale word 0x3D000000 (the format's 1/32). Stated over any float instance, from the instance's own
  elementwise addition, multiplication and constant.
-/
import Idealize.ShloMosaic.PureOps.Float
import Idealize.ShloMosaic.PureOps.Values

namespace Cert.Proof.Agg

open Idealize.ShloMosaic

variable {F : FTy → Type} [FloatOps F]

/-- One level of the pairwise sum: neighbours added. -/
def lvl (v : ℕ → F .f32) : ℕ → F .f32 := fun i => FloatOps.addf (v (2 * i)) (v (2 * i + 1))

/-- The five-level pairwise sum of `v 0, …, v 31`. -/
def tree32 (v : ℕ → F .f32) : F .f32 := lvl (lvl (lvl (lvl (lvl v)))) 0

/-- The scale: the word 0x3D000000 read as a value. -/
def scale : F .f32 := FloatOps.ofBits .f32 0x3D000000#32

/-- Entry (row `j`, lane `e`) of the aggregate of the table `x` along the flat index list `ix`. -/
def entry (x : ℕ → ℕ → F .f32) (ix : ℕ → BitVec 32) (j e : ℕ) : F .f32 :=
  FloatOps.mulf (tree32 fun r => x (ix (32 * j + r)).toNat e) scale

end Cert.Proof.Agg
-- ==== Proof.TileDefs.lean ====
/-
  What one SparseCore tile's body is stated over: the six buffers as the tile's thread addresses them, the block
  of output rows it copies out (448 rows from 640 s + 448 c on SparseCore 0, 192 rows from there on SparseCore 1),
  membership in that block by arithmetic, and the padded output as one function of the table and the index list.
-/
import proofs.«219373_g11218454577211_week1_w3_1378_31_alg».proof.Proof.Common
import proofs.«219373_g11218454577211_week1_w3_1378_31_alg».proof.Proof.Gen.KernelIdeal.Skeleton
import proofs.«219373_g11218454577211_week1_w3_1378_31_alg».proof.Proof.Agg

noncomputable section

namespace Cert.Proof.Tile

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev xV : Memref sig .scVector .hbm S100000x128 .f32 := Memref.whole main_v2_scv
abbrev iV : Memref sig .scVector .hbm S335872 .i32 := Memref.whole main_v5_scv
abbrev oV : Memref sig .scVector .hbm S10240x128 .f32 := Memref.whole main_v6_scv
abbrev sV : Memref sig .scVector .vmem S14336 .i32 := Memref.whole cc1_scratch0
abbrev bV : Memref sig .scVector .vmem S256x128 .f32 := Memref.whole cc1_scratch1
abbrev aV : Memref sig .scVector .vmem S448x128 .f32 := Memref.whole cc1_scratch2

abbrev cV (L : grid1.Coords) : Fin τ.nSC := (L 0).castLE hcore1
abbrev jV (L : grid1.Coords) : Fin τ.nSub := (L 1).castLE hsub1

/-- The block of the output the tile copies out when it is on SparseCore 0: 448 rows from its offset. -/
abbrev oBlk0 (L : grid1.Coords) (h : k1_cond1 L = 1#1) : Memref sig .scVector .hbm S448x128 .f32 :=
  (oV).slice (Rect.unit (s := S10240x128) (k1_off22 L) S448x128.size (k1_off22_inb L h)) (fun _ => rfl)
/-- The block it copies out when it is on SparseCore 1: 192 rows from its offset. -/
abbrev oBlk1 (L : grid1.Coords) (h : k1_cond2 L = 1#1) : Memref sig .scVector .hbm S192x128 .f32 :=
  (oV).slice (Rect.unit (s := S10240x128) (k1_off23 L) S192x128.size (k1_off23_inb L h)) (fun _ => rfl)

/-- The rows of the output a tile writes, as the program slices them. -/
def oSet (L : grid1.Coords) : Finset S10240x128.Idx :=
  if h : k1_cond1 L = 1#1 then (oBlk0 L h).view.set
  else if h' : k1_cond2 L = 1#1 then (oBlk1 L h').view.set else ∅

theorem cond1_iff : ∀ L : grid1.Coords, k1_cond1 L = 1#1 ↔ (L 0).val = 0 := by decide +kernel
theorem cond2_iff : ∀ L : grid1.Coords, k1_cond2 L = 1#1 ↔ (L 0).val = 1 := by decide +kernel

theorem mem_oSet (L : grid1.Coords) (j : S10240x128.Idx) :
    j ∈ oSet L ↔ 640 * (L 1).val + 448 * (L 0).val ≤ (j 0).val
      ∧ (j 0).val < 640 * (L 1).val + 448 * (L 0).val + (448 - 256 * (L 0).val) := by
  have hL0 : (L 0).val < 2 := (L 0).isLt
  have hj1 : (j 1).val < 128 := (j 1).isLt
  unfold oSet
  split
  · rename_i h
    have h0 := (cond1_iff L).mp h
    rw [View.set_slice_whole, Rect.mem_set_unit, k1_off22_eq]
    constructor
    · intro H; have := H 0; simp only [Matrix.cons_val_zero] at this; change _ ∧ _ < _ + 448 at this; omega
    · intro H a
      match a with
      | 0 => simp only [Matrix.cons_val_zero]; change _ ∧ _ < _ + 448; omega
      | 1 => simp only [Matrix.cons_val_one]; change 0 ≤ _ ∧ _ < 0 + 128; omega
  · rename_i h
    split
    · rename_i h'
      have h1 := (cond2_iff L).mp h'
      rw [View.set_slice_whole, Rect.mem_set_unit, k1_off23_eq]
      constructor
      · intro H; have := H 0; simp only [Matrix.cons_val_zero] at this; change _ ∧ _ < _ + 192 at this; omega
      · intro H a
        match a with
        | 0 => simp only [Matrix.cons_val_zero]; change _ ∧ _ < _ + 192; omega
        | 1 => simp only [Matrix.cons_val_one]; change 0 ≤ _ ∧ _ < 0 + 128; omega
    · rename_i h'
      have := (cond1_iff L).not.mp h; have := (cond2_iff L).not.mp h'
      omega

variable [FloatOps F]

/-- Row `a`, lane `e` of the table (both taken modulo the extents: total). -/
def xIx (a e : ℕ) : S100000x128.Idx :=
  fun | 0 => ⟨a % 100000, Nat.mod_lt _ (by decide : 0 < 100000)⟩ | 1 => ⟨e % 128, Nat.mod_lt _ (by decide : 0 < 128)⟩ | ⟨_ + 2, h⟩ => absurd h (Nat.not_lt.2 (Nat.le_add_left _ _))
/-- Word `n` of the flat index list (modulo its length: total). -/
def iIx (n : ℕ) : S335872.Idx :=
  fun | 0 => ⟨n % 335872, Nat.mod_lt _ (by decide : 0 < 335872)⟩ | ⟨_ + 1, h⟩ => absurd h (Nat.not_lt.2 (Nat.le_add_left _ _))

/-- The whole padded output as one function of the table `x` and the flat index list. -/
def AggBuf (d : Dev nD) (fx : Buf (Elt F) (xLoc d)) (fi : Buf (Elt F) (iLoc d)) : Buf (Elt F) (oLoc d) :=
  fun p => Agg.entry (F := F)
    (fun a e => fx (xIx a e)) (fun n => fi (iIx n)) (p 0).val (p 1).val

abbrev xPts (d : Dev nD) (q : PosShare TreeShare) (f : Buf (Elt F) (xLoc d)) : sProp 𝕄 := xLoc d ↦{q} f
abbrev iPts (d : Dev nD) (q : PosShare TreeShare) (f : Buf (Elt F) (iLoc d)) : sProp 𝕄 := iLoc d ↦{q} f
abbrev oPts (d : Dev nD) (L : grid1.Coords) (f : Buf (Elt F) (oLoc d)) : sProp 𝕄 := oLoc d ↦[oSet L]{fullShare} f

end Cert.Proof.Tile

end
-- ==== Proof.Tiles.lean ====
/-
  The thirty-two tiles' row intervals tile the padded output: tile (c, s) owns rows
  [640 s + 448 c, 640 s + 448 c + (448 − 256 c)), so within a SparseCore the intervals are 640 apart and at most 448
  long, SparseCore 1's interval of a pair follows SparseCore 0's, and row r lies in the pair r / 640, on
  SparseCore 0 exactly when r mod 640 < 448.
-/
import proofs.«219373_g11218454577211_week1_w3_1378_31_alg».proof.Proof.Pay
import proofs.«219373_g11218454577211_week1_w3_1378_31_alg».proof.Proof.TileDefs

noncomputable section

namespace Cert.Proof.KI

open Cert.KernelIdeal
open Idealize.ShloMosaic

/-- The grid point of SparseCore `c`, tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- The entries tile (c, s) writes. -/
def tile (c : Fin 2) (s : Fin 16) : Finset S10240x128.Idx := Cert.Proof.Tile.oSet (coordsV c s)

theorem mem_tile (c : Fin 2) (s : Fin 16) (j : S10240x128.Idx) :
    j ∈ tile c s ↔ 640 * s.val + 448 * c.val ≤ (j 0).val ∧ (j 0).val < 640 * s.val + 448 * c.val + (448 - 256 * c.val) :=
  Cert.Proof.Tile.mem_oSet (coordsV c s) j

theorem tiling : Tiling tile where
  tiles_disjoint := fun c i _ j _ hij => Finset.disjoint_left.mpr fun a hi hj => by
    rw [mem_tile] at hi hj
    have hc := c.isLt
    have : i.val ≠ j.val := fun e => hij (Fin.ext e)
    rcases Nat.lt_or_gt_of_ne this with h | h <;> omega
  cores_disjoint := fun c _ c' _ hcc => Finset.disjoint_left.mpr fun a hc hc' => by
    obtain ⟨i, -, hi⟩ := Finset.mem_biUnion.mp hc
    obtain ⟨j, -, hj⟩ := Finset.mem_biUnion.mp hc'
    rw [mem_tile] at hi hj
    have h1 := c.isLt
    have h2 := c'.isLt
    have : c.val ≠ c'.val := fun e => hcc (Fin.ext e)
    rcases Nat.lt_trichotomy i.val j.val with h | h | h <;> omega
  cover := Finset.eq_univ_of_forall fun a => by
    have ha : (a 0).val < 10240 := (a 0).isLt
    by_cases h : (a 0).val % 640 < 448
    · exact Finset.mem_biUnion.mpr ⟨0, Finset.mem_univ _, Finset.mem_biUnion.mpr ⟨⟨(a 0).val / 640, by omega⟩, Finset.mem_univ _, by
        rw [mem_tile]; show 640 * ((a 0).val / 640) + 448 * 0 ≤ _ ∧ _ < 640 * ((a 0).val / 640) + 448 * 0 + (448 - 256 * 0); omega⟩⟩
    · exact Finset.mem_biUnion.mpr ⟨1, Finset.mem_univ _, Finset.mem_biUnion.mpr ⟨⟨(a 0).val / 640, by omega⟩, Finset.mem_univ _, by
        rw [mem_tile]; show 640 * ((a 0).val / 640) + 448 * 1 ≤ _ ∧ _ < 640 * ((a 0).val / 640) + 448 * 1 + (448 - 256 * 1); omega⟩⟩

end Cert.Proof.KI

end
-- ==== Proof.SpecG.lean ====
/-
  The function both programs compute, stated with no program in sight: the affine layer with its
  rectifier, the row an index word names, and the mean of the thirty-two rows a hyperedge names.
-/
import Idealize.ShloMosaic.PureOps.Ideal
import Idealize.ShloMosaic.Lib.ValueIdx

noncomputable section

open scoped BigOperators

namespace Cert.Proof.Spec

open Idealize.ShloMosaic Idealize.ShloMosaic.ValueIdx

/-- The table row an index word names: the word read as a signed integer and clamped into
    `[0, 99999]`. Total; for a word below 100000 it is the word's own value (`rowOf_val`). -/
def rowOf (v : BitVec 32) : Fin 100000 := ⟨min v.toInt.toNat 99999, by omega⟩

/-- Below 100000 the word is non-negative as a signed integer and the clamp does nothing. -/
theorem rowOf_val {v : BitVec 32} (h : v.toNat < 100000) : (rowOf v).val = v.toNat := by
  have h31 : v.toNat < 2 ^ 31 := by omega
  have hi : v.toInt = (v.toNat : Int) := BitVec.toInt_eq_toNat_of_lt (by omega)
  show min v.toInt.toNat 99999 = v.toNat
  rw [hi, Int.toNat_natCast]
  omega

/-- The group (of four) and the slot (of eight) of the r-th of a hyperedge's thirty-two nodes. -/
def grp (r : Fin 32) : Fin 4 := ⟨r.val / 8, by omega⟩
def slot (r : Fin 32) : Fin 8 := ⟨r.val % 8, by omega⟩

/-- One entry of the transformed table: `max (∑ₖ ne[n,k] · W[e,k] + b[e]) 0` (the weight is used transposed). -/
def Xat (ne : FVec Ideal ⟨2, ![100000, 128]⟩ .f32) (W : FVec Ideal ⟨2, ![128, 128]⟩ .f32)
    (b : FVec Ideal ⟨1, ![128]⟩ .f32) (n : Fin 100000) (e : Fin 128) : EReal :=
  max ((∑ k : Fin 128, ne (ix2 n k) * W (ix2 e k)) + b (ix1 e)) 0

/-- The transformed table, `[100000, 128]`. -/
def X (ne : FVec Ideal ⟨2, ![100000, 128]⟩ .f32) (W : FVec Ideal ⟨2, ![128, 128]⟩ .f32)
    (b : FVec Ideal ⟨1, ![128]⟩ .f32) : FVec Ideal ⟨2, ![100000, 128]⟩ .f32 :=
  fun i => Xat ne W b (i 0) (i 1)

theorem X_apply (ne : FVec Ideal ⟨2, ![100000, 128]⟩ .f32) (W : FVec Ideal ⟨2, ![128, 128]⟩ .f32)
    (b : FVec Ideal ⟨1, ![128]⟩ .f32) (n : Fin 100000) (e : Fin 128) :
    X ne W b (ix2 n e) = max ((∑ k : Fin 128, ne (ix2 n k) * W (ix2 e k)) + b (ix1 e)) 0 := rfl

/-- One entry of the result: the sum over a hyperedge's thirty-two named rows of the transformed
    table, times one thirty-second. -/
def Gat (ne : FVec Ideal ⟨2, ![100000, 128]⟩ .f32) (hs : IVec ⟨3, ![10000, 4, 8]⟩ 32)
    (W : FVec Ideal ⟨2, ![128, 128]⟩ .f32) (b : FVec Ideal ⟨1, ![128]⟩ .f32) (j : Fin 10000) (e : Fin 128) : EReal :=
  (∑ r : Fin 32, X ne W b (ix2 (rowOf (hs (ix3 j (grp r) (slot r)))) e)) * ((1 / 32 : ℝ) : EReal)

/-- The result, `[10000, 128]`. -/
def G (ne : FVec Ideal ⟨2, ![100000, 128]⟩ .f32) (hs : IVec ⟨3, ![10000, 4, 8]⟩ 32)
    (W : FVec Ideal ⟨2, ![128, 128]⟩ .f32) (b : FVec Ideal ⟨1, ![128]⟩ .f32) : FVec Ideal ⟨2, ![10000, 128]⟩ .f32 :=
  fun i => Gat ne hs W b (i 0) (i 1)

theorem G_apply (ne : FVec Ideal ⟨2, ![100000, 128]⟩ .f32) (hs : IVec ⟨3, ![10000, 4, 8]⟩ 32)
    (W : FVec Ideal ⟨2, ![128, 128]⟩ .f32) (b : FVec Ideal ⟨1, ![128]⟩ .f32) (j : Fin 10000) (e : Fin 128) :
    G ne hs W b (ix2 j e)
      = (∑ r : Fin 32, X ne W b (ix2 (rowOf (hs (ix3 j (grp r) (slot r)))) e)) * ((1 / 32 : ℝ) : EReal) := rfl

end Cert.Proof.Spec

end
-- ==== Proof.LawMean.lean ====
/-
  Extended-real arithmetic behind the two programs' agreement: the float words that occur, sums
  of reals inside the extended reals, thirty-two terms summed as four groups of eight, the mean of
  four means of eight against one product with a thirty-second, and the finiteness of the affine
  layer's entries.
-/
import proofs.«219373_g11218454577211_week1_w3_1378_31_alg».proof.Proof.SpecG
import Idealize.ShloMosaic.PureOps.Ideal.Laws

noncomputable section

open scoped BigOperators

namespace Cert.Proof.Law

open Idealize.ShloMosaic Idealize.ShloMosaic.ValueIdx

/-! ## The words -/

/-- `0x41000000` is 8. -/
theorem ofBits_eight : Ideal.ofBits .f32 0x41000000#32 = ((8 : ℝ) : EReal) := by
  simp [Ideal.ofBits, Ideal.ieee, -EReal.coe_mul] <;> norm_num

/-- `0x40800000` is 4. -/
theorem ofBits_four : Ideal.ofBits .f32 0x40800000#32 = ((4 : ℝ) : EReal) := by
  simp [Ideal.ofBits, Ideal.ieee, -EReal.coe_mul] <;> norm_num

/-- `0x3D000000` is one thirty-second. -/
theorem ofBits_thirtysecond : Ideal.ofBits .f32 0x3D000000#32 = ((1 / 32 : ℝ) : EReal) := by
  simp [Ideal.ofBits, Ideal.ieee, -EReal.coe_mul] <;> norm_num

/-- `0x7F800000` is +∞. -/
theorem ofBits_inf : Ideal.ofBits .f32 0x7F800000#32 = ⊤ := by
  simp [Ideal.ofBits, Ideal.ieee]

/-! ## Sums of reals -/

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Thirty-two terms, the r-th indexed by its group r / 8 and its slot r % 8, are the four groups'
    eight terms each: r ↦ (r / 8, r % 8) is a bijection onto the pairs. -/
theorem sum32 {M : Type*} [AddCommMonoid M] (f : Fin 4 → Fin 8 → M) :
    ∑ r : Fin 32, f (Spec.grp r) (Spec.slot r) = ∑ g : Fin 4, ∑ s : Fin 8, f g s := by
  rw [← Fintype.sum_prod_type']
  exact Fintype.sum_equiv (finProdFinEquiv (m := 4) (n := 8)).symm _ _ (fun r => rfl)

/-! ## The mean of means -/

/-- For reals: the mean over four groups of the means over eight slots — each a sum from zero and a
    division, as the host computes them — is the sum of all thirty-two times one thirty-second. -/
theorem mean_law (x : Fin 4 → Fin 8 → ℝ) :
    Ideal.div (0 + ∑ g : Fin 4, Ideal.div (0 + ∑ s : Fin 8, ((x g s : ℝ) : EReal)) ((8 : ℝ) : EReal)) ((4 : ℝ) : EReal)
      = (∑ r : Fin 32, ((x (Spec.grp r) (Spec.slot r) : ℝ) : EReal)) * ((1 / 32 : ℝ) : EReal) := by
  have h8 : ∀ g : Fin 4, Ideal.div (0 + ∑ s : Fin 8, ((x g s : ℝ) : EReal)) ((8 : ℝ) : EReal)
      = (((∑ s : Fin 8, x g s) * (1 / 8) : ℝ) : EReal) := fun g => by
    rw [zero_add, Ideal.div_coe (by norm_num), coe_sum, ← EReal.coe_mul]
  rw [Finset.sum_congr rfl fun g _ => h8 g, zero_add, Ideal.div_coe (by norm_num), coe_sum, ← EReal.coe_mul,
    coe_sum, ← EReal.coe_mul, EReal.coe_eq_coe_iff, sum32 (fun g s => x g s), ← Finset.sum_mul]
  ring

/-! ## The affine layer's entries are real -/

/-- With every entry of the three float arguments a real, every entry of the transformed table is. -/
theorem Xat_real (ne : FVec Ideal ⟨2, ![100000, 128]⟩ .f32) (W : FVec Ideal ⟨2, ![128, 128]⟩ .f32)
    (b : FVec Ideal ⟨1, ![128]⟩ .f32) (hne : ∀ i, ∃ r : ℝ, ne i = (r : EReal)) (hW : ∀ i, ∃ r : ℝ, W i = (r : EReal))
    (hb : ∀ i, ∃ r : ℝ, b i = (r : EReal)) (n : Fin 100000) (e : Fin 128) :
    ∃ r : ℝ, Spec.Xat ne W b n e = (r : EReal) := by
  choose fne hfne using hne
  choose fW hfW using hW
  choose fb hfb using hb
  refine ⟨max ((∑ k : Fin 128, fne (ix2 n k) * fW (ix2 e k)) + fb (ix1 e)) 0, ?_⟩
  have h1 : (∑ k : Fin 128, ne (ix2 n k) * W (ix2 e k))
      = ((∑ k : Fin 128, fne (ix2 n k) * fW (ix2 e k) : ℝ) : EReal) := by
    rw [← coe_sum]
    exact Finset.sum_congr rfl fun k _ => by rw [hfne, hfW, EReal.coe_mul]
  unfold Spec.Xat
  rw [h1, hfb, ← EReal.coe_add, ← EReal.coe_zero]
  exact (EReal.coe_strictMono.monotone.map_max).symm

/-- The same of the table as an array. -/
theorem X_real (ne : FVec Ideal ⟨2, ![100000, 128]⟩ .f32) (W : FVec Ideal ⟨2, ![128, 128]⟩ .f32)
    (b : FVec Ideal ⟨1, ![128]⟩ .f32) (hne : ∀ i, ∃ r : ℝ, ne i = (r : EReal)) (hW : ∀ i, ∃ r : ℝ, W i = (r : EReal))
    (hb : ∀ i, ∃ r : ℝ, b i = (r : EReal)) (i : (⟨2, ![100000, 128]⟩ : Shape).Idx) :
    ∃ r : ℝ, Spec.X ne W b i = (r : EReal) :=
  Xat_real ne W b hne hW hb (i 0) (i 1)

end Cert.Proof.Law

end
-- ==== Proof.LawAgg.lean ====
/-
  The balanced five-level tree of additions over thirty-two extended reals is their sum (addition of
  extended reals commutes and associates, with no finiteness needed), the scale word is one
  thirty-second, and so a tile's entry is the sum of the thirty-two named table entries times one
  thirty-second.
-/
import proofs.«219373_g11218454577211_week1_w3_1378_31_alg».proof.Proof.Agg
import proofs.«219373_g11218454577211_week1_w3_1378_31_alg».proof.Proof.LawMean

noncomputable section

open scoped BigOperators

namespace Cert.Proof.Law

open Idealize.ShloMosaic

/-- The pairwise tree sum of `v 0, …, v 31` is `∑ r, v r`. -/
theorem tree32_eq (v : ℕ → EReal) : Agg.tree32 (F := Ideal) v = ∑ r : Fin 32, v r.val := by
  rw [Fin.sum_univ_eq_sum_range (fun i => v i) 32]
  simp only [Agg.tree32, Agg.lvl, Ideal.addf_def, Finset.sum_range_succ, Finset.sum_range_zero, zero_add]
  norm_num
  abel

/-- The scale word is one thirty-second. -/
theorem scale_eq : Agg.scale (F := Ideal) = ((1 / 32 : ℝ) : EReal) := ofBits_thirtysecond

/-- A tile's entry: the sum over the thirty-two index words of the table entries they name, times one thirty-second. -/
theorem entry_eq (x : ℕ → ℕ → EReal) (ix : ℕ → BitVec 32) (j e : ℕ) :
    Agg.entry (F := Ideal) x ix j e = (∑ r : Fin 32, x (ix (32 * j + r.val)).toNat e) * ((1 / 32 : ℝ) : EReal) := by
  unfold Agg.entry
  rw [Ideal.mulf_def, tree32_eq (fun r => x (ix (32 * j + r)).toNat e), scale_eq]

end Cert.Proof.Law

end
-- ==== Proof.KBridge.lean ====
/-
  The kernel's result as a term of its arguments, against the specification. The host side of the kernel
  turns the hyperedge table into a flat list of row numbers — 10000 rows of 32, 496 rows of zeros after
  them, flattened — and keeps the first 10000 rows of the padded output; each output row's entry is the
  pairwise sum of the thirty-two named table entries times the scale word. Word 32 j + r of the flat list is
  the table's word (j, r / 8, r % 8); every word of the list is a row number; and so the kept rows are
  the specification's array.
-/
import proofs.«219373_g11218454577211_week1_w3_1378_31_alg».proof.Proof.SpecG
import proofs.«219373_g11218454577211_week1_w3_1378_31_alg».proof.Proof.LawAgg
import Idealize.ShloMosaic.Lib.Pipeline.Value
import Idealize.ShloMosaic.Lib.KernelVsHost

noncomputable section

open scoped BigOperators

namespace Cert.Proof.KBridge

open Idealize.ShloMosaic Idealize.ShloMosaic.ValueIdx

abbrev S100000x128 : Shape := ⟨2, ![100000, 128]⟩
abbrev S10000x4x8 : Shape := ⟨3, ![10000, 4, 8]⟩
abbrev S128x128 : Shape := ⟨2, ![128, 128]⟩
abbrev S128 : Shape := ⟨1, ![128]⟩
abbrev S1x128 : Shape := ⟨2, ![1, 128]⟩
abbrev S10000x32 : Shape := ⟨2, ![10000, 32]⟩
abbrev S10496x32 : Shape := ⟨2, ![10496, 32]⟩
abbrev S335872 : Shape := ⟨1, ![335872]⟩
abbrev S_ : Shape := ⟨0, ![]⟩
abbrev S10240x128 : Shape := ⟨2, ![10240, 128]⟩
abbrev S10000x128 : Shape := ⟨2, ![10000, 128]⟩

/-! ## The flat list of row numbers -/

section Flat
variable {α : Type} (hs : S10000x4x8.Idx → α) (v : S_.Idx → α)
  (hH : S10000x4x8.ShapeCasts S10000x32) (hPad : S10000x32.Pads ![0, 0] ![496, 0] ![0, 0] S10496x32)
  (hS : 0 < S_.numel) (hI : S10496x32.ShapeCasts S335872)

/-- Word `32 j + r` of the flat list, for `j < 10000`, is the table's word `(j, r / 8, r % 8)`: both reshapes
    keep the row-major position and the padding leaves the first 10000 rows alone. -/
theorem flat_apply (j : Fin 10000) (r : Fin 32) (n : S335872.Idx) (hn : (n 0).val = 32 * j.val + r.val) :
    shapeCast S335872 (pad S10496x32 ![0, 0] ![496, 0] ![0, 0] (shapeCast S10000x32 hs hH) v hPad hS) hI n
      = hs (ix3 j (Spec.grp r) (Spec.slot r)) := by
  have hj := j.isLt
  have hr := r.isLt
  rw [shapeCast_apply _ hI n (ix2 (⟨j.val, by omega⟩ : Fin 10496) r) (by
    rw [Shape.rowMajor_val_two, Shape.rowMajor_val_one]
    show j.val * 32 + r.val = (n 0).val
    omega)]
  rw [pad_apply_of_inside ![0, 0] ![496, 0] ![0, 0] _ v hPad hS _ (ix2 j r) (fun a => match a with
    | ⟨0, _⟩ => by show j.val = 0 + j.val * (0 + 1); omega
    | ⟨1, _⟩ => by show r.val = 0 + r.val * (0 + 1); omega)]
  rw [shapeCast_apply hs hH (ix2 j r) (ix3 j (Spec.grp r) (Spec.slot r)) (by
    rw [Shape.rowMajor_val_three, Shape.rowMajor_val_two]
    show (j.val * 4 + r.val / 8) * 8 + r.val % 8 = j.val * 32 + r.val
    omega)]

/-- A word of the flat list past the first 320000 is the padding value. -/
theorem flat_apply_pad (n : S335872.Idx) (hn : 320000 ≤ (n 0).val) :
    shapeCast S335872 (pad S10496x32 ![0, 0] ![496, 0] ![0, 0] (shapeCast S10000x32 hs hH) v hPad hS) hI n
      = v (Shape.Idx.first hS) := by
  have hlt : (n 0).val < 335872 := (n 0).isLt
  rw [shapeCast_apply _ hI n (ix2 (⟨(n 0).val / 32, by omega⟩ : Fin 10496) (⟨(n 0).val % 32, Nat.mod_lt _ (by decide)⟩ : Fin 32)) (by
    rw [Shape.rowMajor_val_two, Shape.rowMajor_val_one]
    show (n 0).val / 32 * 32 + (n 0).val % 32 = (n 0).val
    omega)]
  refine pad_apply_of_not_inside (s := S10000x32) (t := S10496x32) ![0, 0] ![496, 0] ![0, 0] (shapeCast S10000x32 hs hH) v hPad hS _ (0 : Fin 2) ?_
  intro h
  have h3 := h.2.2
  change ((n 0).val / 32 - 0) / (0 + 1) < 10000 at h3
  omega

end Flat

/-- (K1) Every word of the flat list is a row number: it is a word of the table or the padding zero. -/
theorem flat_lt (hs : IVec S10000x4x8 32) (v : IVec S_ 32) (hv : ∀ i, v i = 0#32)
    (hH : S10000x4x8.ShapeCasts S10000x32) (hPad : S10000x32.Pads ![0, 0] ![496, 0] ![0, 0] S10496x32)
    (hS : 0 < S_.numel) (hI : S10496x32.ShapeCasts S335872) (hidx : ∀ i, (hs i).toNat < 100000) (n : S335872.Idx) :
    (shapeCast S335872 (pad S10496x32 ![0, 0] ![496, 0] ![0, 0] (shapeCast S10000x32 hs hH) v hPad hS) hI n).toNat < 100000 := by
  by_cases hlt : (n 0).val < 320000
  · rw [flat_apply hs v hH hPad hS hI ⟨(n 0).val / 32, by omega⟩ ⟨(n 0).val % 32, Nat.mod_lt _ (by decide)⟩ n (by
      show (n 0).val = 32 * ((n 0).val / 32) + (n 0).val % 32
      omega)]
    exact hidx _
  · rw [flat_apply_pad hs v hH hPad hS hI n (by omega), hv]
    decide

/-! ## The table -/

/-- A table that is, entry by entry, the rectified affine layer written with the transposed weight and the bias
    as a one-row array, is the specification's table. -/
theorem x_eq_X (ne : FVec Ideal S100000x128 .f32) (W : FVec Ideal S128x128 .f32) (b : FVec Ideal S128 .f32)
    (hTr : S128x128.Transposes [1, 0] S128x128) (hB : S128.ShapeCasts S1x128) (x : FVec Ideal S100000x128 .f32)
    (hx : ∀ (n : Fin 100000) (e : Fin 128), x (ix2 n e)
      = max ((∑ k : Fin 128, ne (ix2 n k) * transpose S128x128 [1, 0] W hTr (ix2 k e)) + shapeCast S1x128 b hB (ix2 (0 : Fin 1) e)) 0)
    (n : Fin 100000) (e : Fin 128) : x (ix2 n e) = Spec.X ne W b (ix2 n e) := by
  have hb : shapeCast S1x128 b hB (ix2 (0 : Fin 1) e) = b (ix1 e) :=
    shapeCast_apply b hB (ix2 (0 : Fin 1) e) (ix1 e) (by
      rw [Shape.rowMajor_val_one, Shape.rowMajor_val_two]
      show e.val = 0 * 128 + e.val
      omega)
  have hsum : (∑ k : Fin 128, ne (ix2 n k) * transpose S128x128 [1, 0] W hTr (ix2 k e)) = ∑ k : Fin 128, ne (ix2 n k) * W (ix2 e k) :=
    Finset.sum_congr rfl fun k _ => by
      rw [transpose_apply [1, 0] W hTr (ix2 k e) (ix2 e k) (fun c => match c with | ⟨0, _⟩ => rfl | ⟨1, _⟩ => rfl)]
  rw [hx, Spec.X_apply, hsum, hb]

/-! ## The kept rows of the padded output -/

/-- (K2) The first 10000 rows of the padded output — each entry the pairwise sum, times the scale word, of the table
    entries named by the flat list's thirty-two words of that row — are the specification's array, when every word
    of the hyperedge table is a row number and the table is the rectified affine layer. -/
theorem kernel_value (ne : FVec Ideal S100000x128 .f32) (hs : IVec S10000x4x8 32) (W : FVec Ideal S128x128 .f32)
    (b : FVec Ideal S128 .f32) (v : IVec S_ 32) (hv : ∀ i, v i = 0#32)
    (hTr : S128x128.Transposes [1, 0] S128x128) (hB : S128.ShapeCasts S1x128)
    (hH : S10000x4x8.ShapeCasts S10000x32) (hPad : S10000x32.Pads ![0, 0] ![496, 0] ![0, 0] S10496x32)
    (hS : 0 < S_.numel) (hI : S10496x32.ShapeCasts S335872) (hSl : S10240x128.Slices ![0, 0] S10000x128)
    (x : FVec Ideal S100000x128 .f32)
    (hx : ∀ (n : Fin 100000) (e : Fin 128), x (ix2 n e)
      = max ((∑ k : Fin 128, ne (ix2 n k) * transpose S128x128 [1, 0] W hTr (ix2 k e)) + shapeCast S1x128 b hB (ix2 (0 : Fin 1) e)) 0)
    (xIx : ℕ → ℕ → S100000x128.Idx) (hxIx : ∀ a e, (xIx a e 0).val = a % 100000 ∧ (xIx a e 1).val = e % 128)
    (iIx : ℕ → S335872.Idx) (hiIx : ∀ n, (iIx n 0).val = n % 335872)
    (hidx : ∀ i, (hs i).toNat < 100000) :
    extractStridedSlice S10000x128 ![0, 0]
        (fun p : S10240x128.Idx => Agg.entry (F := Ideal) (fun a e => x (xIx a e))
          (fun n => shapeCast S335872 (pad S10496x32 ![0, 0] ![496, 0] ![0, 0] (shapeCast S10000x32 hs hH) v hPad hS) hI (iIx n))
          (p 0).val (p 1).val) hSl
      = Spec.G ne hs W b := by
  funext i
  obtain ⟨j, e, rfl⟩ : ∃ (j : Fin 10000) (e : Fin 128), i = ix2 j e := ⟨i 0, i 1, eq_ix2 i⟩
  have hj := j.isLt
  have he := e.isLt
  rw [extractStridedSlice_apply ![0, 0] _ hSl (ix2 j e) (ix2 (⟨j.val, by omega⟩ : Fin 10240) e) (fun a => match a with
    | ⟨0, _⟩ => by show j.val = 0 + j.val; omega
    | ⟨1, _⟩ => by show e.val = 0 + e.val; omega)]
  show Agg.entry (F := Ideal) _ _ j.val e.val = _
  rw [Law.entry_eq, Spec.G_apply]
  refine congrArg (· * ((1 / 32 : ℝ) : EReal)) (Finset.sum_congr rfl fun r _ => ?_)
  have hr := r.isLt
  have hw := flat_apply hs v hH hPad hS hI j r (iIx (32 * j.val + r.val)) (by rw [hiIx]; omega)
  have hrow := Spec.rowOf_val (hidx (ix3 j (Spec.grp r) (Spec.slot r)))
  have hlt := hidx (ix3 j (Spec.grp r) (Spec.slot r))
  have hix : xIx (hs (ix3 j (Spec.grp r) (Spec.slot r))).toNat e.val = ix2 (Spec.rowOf (hs (ix3 j (Spec.grp r) (Spec.slot r)))) e := by
    funext a
    refine Fin.ext ?_
    match a with
    | ⟨0, _⟩ =>
      show (xIx _ _ 0).val = (Spec.rowOf _).val
      rw [(hxIx _ _).1, hrow]
      omega
    | ⟨1, _⟩ =>
      show (xIx _ _ 1).val = e.val
      rw [(hxIx _ _).2]
      omega
  show x (xIx (shapeCast S335872 (pad S10496x32 ![0, 0] ![496, 0] ![0, 0] (shapeCast S10000x32 hs hH) v hPad hS) hI
    (iIx (32 * j.val + r.val))).toNat e.val) = _
  rw [hw, hix]
  exact x_eq_X ne W b hTr hB x hx _ e

end Cert.Proof.KBridge

end
-- ==== Proof.PreIdx.lean ====
/-
  The precondition read back: the printed predicate is a conjunction of five "every entry satisfies"
  tests, and its being all ones says, of the index array, that every word lies in [0, 99999]
  (for any float values), and, of the three float arrays, that every entry's absolute value is
  below +∞ (read at the extended reals in a second module).
-/
import proofs.«219373_g11218454577211_week1_w3_1378_31_alg».proof.Proof.Gen.Pre_input_domain
import Idealize.ShloMosaic.Lib.ReduceAll
import Idealize.ShloMosaic.Lib.ValueIdx

namespace Cert.Proof.Pre

open Idealize.ShloMosaic Idealize.ShloMosaic.ValueIdx Cert.Pre_input_domain

/-- The scalar shape has one index. -/
instance : Subsingleton S_.Idx := ⟨fun a b => funext fun d => d.elim0⟩

variable {F : FTy → Type} [FloatOps F] [hP : Cert.Pre_input_domain.Facts]

/-- The predicate's conjuncts that the proof uses, each at an entry: the three float arrays'
    entries compare below the pattern of +∞ in absolute value, and the index array's words
    compare at least 0 and at most 99999 as signed words. -/
theorem split (a0 : FVec F S100000x128 .f32) (a1 : IVec S10000x8 32) (a2 : IVec S10000x4x8 32)
    (a3 : FVec F S128x128 .f32) (a4 : FVec F S128 .f32)
    (h : fn (F := F) a0 a1 a2 a3 a4 = fun _ => 1#1) :
    (∀ i, FloatOps.cmpf .olt (FloatOps.hostAbsf (a0 i)) (FloatOps.ofBits .f32 0x7F800000#32 : F .f32) = 1#1)
    ∧ (∀ i, FloatOps.cmpf .olt (FloatOps.hostAbsf (a3 i)) (FloatOps.ofBits .f32 0x7F800000#32 : F .f32) = 1#1)
    ∧ (∀ i, FloatOps.cmpf .olt (FloatOps.hostAbsf (a4 i)) (FloatOps.ofBits .f32 0x7F800000#32 : F .f32) = 1#1)
    ∧ (∀ i, IntOp.cmpi .sge (a2 i) 0#32 = 1#1 ∧ IntOp.cmpi .sle (a2 i) 99999#32 = 1#1) := by
  have h0 := congrFun h ix0
  dsimp only [fn, fn_part1] at h0
  obtain ⟨h20, h26⟩ := IntOp.andi_eq_one.1 h0
  obtain ⟨h13, h19⟩ := IntOp.andi_eq_one.1 h20
  obtain ⟨h8, h12⟩ := IntOp.andi_eq_one.1 h13
  obtain ⟨h3, h7⟩ := IntOp.andi_eq_one.1 h8
  refine ⟨fun i => ?_, fun i => ?_, fun i => ?_, fun i => ?_⟩
  · exact Host.reduce_andi_all _ _ _ _ _ h3 i
  · exact Host.reduce_andi_all _ _ _ _ _ h7 i
  · exact Host.reduce_andi_all _ _ _ _ _ h12 i
  · exact IntOp.andi_eq_one.1 (Host.reduce_andi_all _ _ _ _ _ h26 i)

/-- Every index word, read signed, lies in [0, 99999]. -/
theorem idx_toInt (a0 : FVec F S100000x128 .f32) (a1 : IVec S10000x8 32) (a2 : IVec S10000x4x8 32)
    (a3 : FVec F S128x128 .f32) (a4 : FVec F S128 .f32)
    (h : fn (F := F) a0 a1 a2 a3 a4 = fun _ => 1#1) (i : S10000x4x8.Idx) :
    0 ≤ (a2 i).toInt ∧ (a2 i).toInt ≤ 99999 := by
  obtain ⟨hge, hle⟩ := (split a0 a1 a2 a3 a4 h).2.2.2 i
  have h1 := IntOp.cmpi_sge.1 hge
  have h2 := IntOp.cmpi_sle.1 hle
  rw [show (0#32 : BitVec 32).toInt = 0 from by decide] at h1
  rw [show (99999#32 : BitVec 32).toInt = 99999 from by decide] at h2
  exact ⟨h1, h2⟩

/-- Every index word, read unsigned, is below 100000: it names a row of the table. -/
theorem idx_lt (a0 : FVec F S100000x128 .f32) (a1 : IVec S10000x8 32) (a2 : IVec S10000x4x8 32)
    (a3 : FVec F S128x128 .f32) (a4 : FVec F S128 .f32)
    (h : fn (F := F) a0 a1 a2 a3 a4 = fun _ => 1#1) (i : S10000x4x8.Idx) :
    (a2 i).toNat < 100000 := by
  obtain ⟨h1, h2⟩ := idx_toInt a0 a1 a2 a3 a4 h i
  rw [BitVec.toInt_eq_toNat_cond] at h1 h2
  have := (a2 i).isLt
  split at h1 <;> omega

end Cert.Proof.Pre
-- ==== Proof.RunFull.lean ====
/-
  The whole program's run with its result named: under the precondition every word of the flat list of row
  numbers the tiles read is a row number, so the tiles' task is available; the launch then gives a run that ends
  with the result array at the final valuation and the five arguments at their launch contents.
-/
import proofs.«219373_g11218454577211_week1_w3_1378_31_alg».proof.Proof.Vals
import proofs.«219373_g11218454577211_week1_w3_1378_31_alg».proof.Proof.InstRegion
import proofs.«219373_g11218454577211_week1_w3_1378_31_alg».proof.Proof.Tiles
import proofs.«219373_g11218454577211_week1_w3_1378_31_alg».proof.Proof.KBridge
import proofs.«219373_g11218454577211_week1_w3_1378_31_alg».proof.Proof.PreIdx

noncomputable section

namespace Cert.Proof.KI

open Cert.KernelIdeal
open Idealize.ShloMosaic
open Idealize.ShloMosaic.SparseCore (S V T)
open Idealize.ShloMosaic.SparseCore.Cfg (HIx Pay)
open Idealize.SL.Sem
open Idealize.ShloMosaic.TcCoe

variable {F : FTy → Type} [FloatOps F]

/-- The precondition at a memory, spelt out: the input-domain predicate of the five argument arrays is all ones on
    every device. -/
abbrev PreM (m : (ℓ : Loc nD τ sig) → Buf (Elt F) ℓ) : Prop :=
  ∀ c : Dev nD,
    Cert.Pre_input_domain.fn (F := F) (m ((SparseCore.T c).loc main_arg0)) (m ((SparseCore.T c).loc main_arg1))
      (m ((SparseCore.T c).loc main_arg2)) (m ((SparseCore.T c).loc main_arg3)) (m ((SparseCore.T c).loc main_arg4)) = (fun _ => 1#1)

/-- Under the precondition every word of the flat list the tiles read is a row number. -/
theorem fiv_lt (m : (ℓ : Loc nD τ sig) → Buf (Elt F) ℓ) (hpre : PreM m) :
    ∀ d j, (fiv m XFk d j).toNat < 100000 := by
  intro d j
  rw [fiv_eq]
  exact KBridge.flat_lt _ _ (fun _ => rfl) _ _ _ _ (fun i => Pre.idx_lt _ _ _ _ _ (hpre d) i) j

/-- THE RUN: it terminates, nothing faulting; the result array ends at the final valuation, the five arguments at
    their launch contents. The tiles' task is a hypothesis, asked only of memories whose flat list holds row numbers. -/
theorem run_full [∀ e, Nonempty (Elt F e)] (m : (ℓ : Loc nD τ sig) → Buf (Elt F) ℓ) (ρ : Dev nD → PrngReg) (hpre : PreM m)
    (htile : ∀ m : (ℓ : Loc nD τ sig) → Buf (Elt F) ℓ, (∀ d j, (fiv m XFk d j).toNat < 100000) →
      (K (F := F)).TileObl (D (F := F)) 𝒱 (PP m XFk (fun d => Tile.AggBuf d) tile) v₀ 0) :
    θ_run (Cert.KernelIdeal.defs (F := F)) (Cert.KernelIdeal.threads (F := F)) ⟨m, fun _ => 0, ρ⟩ (fun r => ∀ c : Dev Cert.KernelIdeal.nD,
      r.2.mem ((c.tc : Thread Cert.KernelIdeal.nD Cert.KernelIdeal.τ).loc Cert.KernelIdeal.main_v7) = V10 m XFk (fun d => Tile.AggBuf d) c v7'
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := F)) _ _).mono
    (fun _ h c => ⟨(h c).2.2.2.2.2, (h c).1.trans (V10_a0 m XFk _ c), (h c).2.1.trans (V10_a1 m XFk _ c),
      (h c).2.2.1.trans (V10_a2 m XFk _ c), (h c).2.2.2.1.trans (V10_a3 m XFk _ c), (h c).2.2.2.2.1.trans (V10_a4 m XFk _ c)⟩)
    (run_main m ρ XFk (fun d => Tile.AggBuf d) tile regionRule tiling (htile m (fiv_lt m hpre)))

end Cert.Proof.KI

end
-- ==== Proof.RefRun.lean ====
/-
  The reference program's run. Its @main calls three outlined functions; with their bodies put in
  place of the calls it is one straight line of forty-one host operations, and the run of such a line
  ends with every buffer at the operations' composed value. The composed value of the result is
  named here stage by stage: the affine layer with its rectifier, the normalised index, the
  in-range mask, the gathered rows, and the two means.
-/
import proofs.«219373_g11218454577211_week1_w3_1378_31_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of the arguments -/

/-- The affine layer and the rectifier: `max (ne · Wᵀ + b) 0`. -/
def xr (a0 : FVec F S100000x128 .f32) (W : FVec F S128x128 .f32) (b : FVec F S128 .f32) : FVec F S100000x128 .f32 :=
  maximumf
    (addf (Host.dotGeneral dot_S100000x128_S128x128_S100000x128_1_0_0_1_n_n none a0 (transpose S128x128 [1, 0] W transposes_S128x128_S128x128_1_0))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The index normalised: a negative word has the table's length added. -/
def idxN (hs : IVec S10000x4x8 32) : IVec S10000x4x8 32 :=
  select (cmpi .slt hs (broadcastInDim S10000x4x8 ![] bcast_S_S10000x4x8 (constantI S_ 32 0#32)))
    (addi hs (broadcastInDim S10000x4x8 ![] bcast_S_S10000x4x8 (constantI S_ 32 100000#32))) hs

/-- The normalised index with a trailing unit axis: the gather's start indices. -/
def idx4 (hs : IVec S10000x4x8 32) : IVec S10000x4x8x1 32 :=
  broadcastInDim S10000x4x8x1 ![0, 1, 2] bcast_S10000x4x8_S10000x4x8x1_0_1_2 (idxN hs)

/-- The in-range mask: the normalised index is at least 0 and at most 99999. -/
def inRange (hs : IVec S10000x4x8 32) : IVec S10000x4x8 1 :=
  Host.reduce IntOp.andi
    (andi (cmpi .sge (idx4 hs) (broadcastInDim S10000x4x8x1 ![] bcast_S_S10000x4x8x1 (constantI S_ 32 0#32)))
      (cmpi .sle (idx4 hs) (broadcastInDim S10000x4x8x1 ![0, 1, 2, 3] bcast_S1x1x1x1_S10000x4x8x1_0_1_2_3
        (broadcastInDim S1x1x1x1 ![3] bcast_S1_S1x1x1x1_3 (constantI S1 32 99999#32)))))
    (constantI S_ 1 1#1) reducesTo_S10000x4x8x1_S10000x4x8_d3 h_S_

/-- The rows taken: the gathered row where the index is in range, the fill pattern elsewhere. -/
def taken (x : FVec F S100000x128 .f32) (hs : IVec S10000x4x8 32) : FVec F S10000x4x8x128 .f32 :=
  select (broadcastInDim S10000x4x8x128 ![0, 1, 2] bcast_S10000x4x8_S10000x4x8x128_0_1_2 (inRange hs))
    (Host.gather gather_S100000x128_S10000x4x8x1_S10000x4x8x128_3_0_n_n_0_3_1128 x (idx4 hs))
    (broadcastInDim S10000x4x8x128 ![] bcast_S_S10000x4x8x128 (constant S_ .f32 0x7FC00000#32))

/-- The mean over the eight nodes of a group: the sum from zero, divided by 8. -/
def mean8 (t : FVec F S10000x4x8x128 .f32) : FVec F S10000x4x128 .f32 :=
  Host.divf (Host.reduceAdd t (constant S_ .f32 0x00000000#32) reducesTo_S10000x4x8x128_S10000x4x128_d2 h_S_)
    (broadcastInDim S10000x4x128 ![] bcast_S_S10000x4x128 (constant S_ .f32 0x41000000#32))

/-- The mean over the four groups: the sum from zero, divided by 4. -/
def mean4 (t : FVec F S10000x4x128 .f32) : FVec F S10000x128 .f32 :=
  Host.divf (Host.reduceAdd t (constant S_ .f32 0x00000000#32) reducesTo_S10000x4x128_S10000x128_d1 h_S_)
    (broadcastInDim S10000x128 ![] bcast_S_S10000x128 (constant S_ .f32 0x40800000#32))

/-- The program's result as a function of its arguments. -/
def refOut (a0 : FVec F S100000x128 .f32) (hs : IVec S10000x4x8 32) (W : FVec F S128x128 .f32) (b : FVec F S128 .f32) :
    FVec F S10000x128 .f32 :=
  mean4 (mean8 (taken (xr a0 W b) hs))

/-! ## The line of operations and its run -/

/-- @main's forty-one operations, in order, the outlined functions' bodies in place of their calls. -/
abbrev ops : List (HloOp τ sig (Elt F)) :=
  [
    StableHlo.unary main_arg3 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S100000x128 ![0, 1] bcast_S1x128_S100000x128_0_1 : (⟨S1x128, .f32⟩ : BufTy).Contents (Elt F) → (⟨S100000x128, .f32⟩ : BufTy).Contents (Elt F)),
    StableHlo.binary main_v1 main_v3 main_v4 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (StableHlo.TRef.of main_v4 : StableHlo.TRef sig ⟨S100000x128, .f32⟩) main_call0.v0 main_call0.v1 maximumf,
    StableHlo.TRef.nullary main_call1.c (constantI S_ 32 0#32),
    StableHlo.TRef.unary main_call1.c main_call1.v0 (broadcastInDim S10000x4x8 ![] bcast_S_S10000x4x8),
    StableHlo.TRef.binary (StableHlo.TRef.of main_arg2 : StableHlo.TRef sig ⟨S10000x4x8, .i32⟩) main_call1.v0 main_call1.v1 (cmpi .slt),
    StableHlo.TRef.nullary main_call1.c_0 (constantI S_ 32 100000#32),
    StableHlo.TRef.unary main_call1.c_0 main_call1.v2 (broadcastInDim S10000x4x8 ![] bcast_S_S10000x4x8),
    StableHlo.TRef.binary (StableHlo.TRef.of main_arg2 : StableHlo.TRef sig ⟨S10000x4x8, .i32⟩) main_call1.v2 main_call1.v3 addi,
    StableHlo.TRef.ternary main_call1.v1 main_call1.v3 (StableHlo.TRef.of main_arg2 : StableHlo.TRef sig ⟨S10000x4x8, .i32⟩) main_call1.call0.v0 select,
    StableHlo.TRef.unary main_call1.call0.v0 main_call1.v5 (broadcastInDim S10000x4x8x1 ![0, 1, 2] bcast_S10000x4x8_S10000x4x8x1_0_1_2),
    StableHlo.TRef.nullary main_call1.c_1 (constantI S1 32 99999#32),
    StableHlo.TRef.nullary main_call1.c_2 (constantI S_ 32 0#32),
    StableHlo.TRef.unary main_call1.c_2 main_call1.v6 (broadcastInDim S10000x4x8x1 ![] bcast_S_S10000x4x8x1),
    StableHlo.TRef.binary main_call1.v5 main_call1.v6 main_call1.v7 (cmpi .sge),
    StableHlo.TRef.unary main_call1.c_1 main_call1.v8 (broadcastInDim S1x1x1x1 ![3] bcast_S1_S1x1x1x1_3),
    StableHlo.TRef.unary main_call1.v8 main_call1.v9 (broadcastInDim S10000x4x8x1 ![0, 1, 2, 3] bcast_S1x1x1x1_S10000x4x8x1_0_1_2_3),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S10000x4x8x1_S10000x4x8_d3 h_S_),
    StableHlo.TRef.binary (StableHlo.TRef.of main_v5 : StableHlo.TRef sig ⟨S100000x128, .f32⟩) main_call1.v5 main_call1.v13 (fun x i => Host.gather gather_S100000x128_S10000x4x8x1_S10000x4x8x128_3_0_n_n_0_3_1128 x i),
    StableHlo.TRef.unary main_call1.v12 main_call1.v14 (broadcastInDim S10000x4x8x128 ![0, 1, 2] bcast_S10000x4x8_S10000x4x8x128_0_1_2),
    StableHlo.TRef.nullary main_call1.cst (constant S_ .f32 0x7FC00000#32),
    StableHlo.TRef.unary main_call1.cst main_call1.v15 (broadcastInDim S10000x4x8x128 ![] bcast_S_S10000x4x8x128),
    StableHlo.TRef.ternary main_call1.v14 main_call1.v13 main_call1.v15 main_call1.v16 select,
    StableHlo.nullary main_cst (constant S_ .f32 0x00000000#32),
    StableHlo.binary main_v6 main_cst main_v7 ((fun x v => Host.reduceAdd x v reducesTo_S10000x4x8x128_S10000x4x128_d2 h_S_) : (⟨S10000x4x8x128, .f32⟩ : BufTy).Contents (Elt F) → (⟨S_, .f32⟩ : BufTy).Contents (Elt F) → (⟨S10000x4x128, .f32⟩ : BufTy).Contents (Elt F)),
    StableHlo.nullary main_cst_0 (constant S_ .f32 0x41000000#32),
    StableHlo.unary main_cst_0 main_v8 (broadcastInDim S10000x4x128 ![] bcast_S_S10000x4x128 : (⟨S_, .f32⟩ : BufTy).Contents (Elt F) → (⟨S10000x4x128, .f32⟩ : BufTy).Contents (Elt F)),
    StableHlo.binary main_v7 main_v8 main_v9 (Host.divf : (⟨S10000x4x128, .f32⟩ : BufTy).Contents (Elt F) → (⟨S10000x4x128, .f32⟩ : BufTy).Contents (Elt F) → (⟨S10000x4x128, .f32⟩ : BufTy).Contents (Elt F)),
    StableHlo.nullary main_cst_1 (constant S_ .f32 0x00000000#32),
    StableHlo.binary main_v9 main_cst_1 main_v10 ((fun x v => Host.reduceAdd x v reducesTo_S10000x4x128_S10000x128_d1 h_S_) : (⟨S10000x4x128, .f32⟩ : BufTy).Contents (Elt F) → (⟨S_, .f32⟩ : BufTy).Contents (Elt F) → (⟨S10000x128, .f32⟩ : BufTy).Contents (Elt F)),
    StableHlo.nullary main_cst_2 (constant S_ .f32 0x40800000#32),
    StableHlo.unary main_cst_2 main_v11 (broadcastInDim S10000x128 ![] bcast_S_S10000x128 : (⟨S_, .f32⟩ : BufTy).Contents (Elt F) → (⟨S10000x128, .f32⟩ : BufTy).Contents (Elt F)),
    StableHlo.binary main_v10 main_v11 main_v12 (Host.divf : (⟨S10000x128, .f32⟩ : BufTy).Contents (Elt F) → (⟨S10000x128, .f32⟩ : BufTy).Contents (Elt F) → (⟨S10000x128, .f32⟩ : BufTy).Contents (Elt F)) ]

set_option maxRecDepth 2048 in
/-- @main is that line: the functions unfolded at their calls, sequencing reassociated. -/
theorem main_eq (c : Dev nD) : main (F := F) c = seq ops := by
  simp only [main, fn_relu.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., nullary_bufs_sub .., binary_bufs_sub .., nullary_bufs_sub .., unary_bufs_sub .., binary_bufs_sub ..⟩

/-- Every buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.reduceAdd Host.divf broadcastInDim transpose in
set_option maxRecDepth 16384 in
/-- The fold at the result buffer is the composed stages: each operation's result read at its own buffer, the typed
    references' transports the identity at these literal references. -/
theorem out_eq (V : Valuation τ sig (Elt F)) :
    after ops V (main_v12 : DevRef τ sig)
      = refOut (V (main_arg0 : DevRef τ sig)) (V (main_arg2 : DevRef τ sig)) (V (main_arg3 : DevRef τ sig)) (V (main_arg4 : DevRef τ sig)) := by
  after_results_simp
  rfl

set_option maxRecDepth 4096 in
theorem arg0_eq (V : Valuation τ sig (Elt F)) : after ops V (main_arg0 : DevRef τ sig) = V (main_arg0 : DevRef τ sig) := by
  after_results_simp
set_option maxRecDepth 4096 in
theorem arg1_eq (V : Valuation τ sig (Elt F)) : after ops V (main_arg1 : DevRef τ sig) = V (main_arg1 : DevRef τ sig) := by
  after_results_simp
set_option maxRecDepth 4096 in
theorem arg2_eq (V : Valuation τ sig (Elt F)) : after ops V (main_arg2 : DevRef τ sig) = V (main_arg2 : DevRef τ sig) := by
  after_results_simp
set_option maxRecDepth 4096 in
theorem arg3_eq (V : Valuation τ sig (Elt F)) : after ops V (main_arg3 : DevRef τ sig) = V (main_arg3 : DevRef τ sig) := by
  after_results_simp
set_option maxRecDepth 4096 in
theorem arg4_eq (V : Valuation τ sig (Elt F)) : after ops V (main_arg4 : DevRef τ sig) = V (main_arg4 : DevRef τ sig) := by
  after_results_simp

/-- The run: the result is the composed stages of the arguments, the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = refOut (m ((c.tc : Thread nD τ).loc main_arg0)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v12).trans (out_eq _), (h c main_arg0).trans (arg0_eq _),
      (h c main_arg1).trans (arg1_eq _), (h c main_arg2).trans (arg2_eq _), (h c main_arg3).trans (arg3_eq _),
      (h c main_arg4).trans (arg4_eq _)⟩)
    (run_after m ρ)

end Cert.Proof.RefRun

end
-- ==== Proof.RefValX.lean ====
/-
  The reference's first stage read at an entry: the host's product of the node table with the
  transposed weight, plus the bias spread over the rows, under the rectifier, is the
  specification's transformed table.
-/
import proofs.«219373_g11218454577211_week1_w3_1378_31_alg».proof.Proof.RefRun
import proofs.«219373_g11218454577211_week1_w3_1378_31_alg».proof.Proof.SpecG
import Idealize.ShloMosaic.Lib.StackMember
import Idealize.ShloMosaic.Lib.Pipeline.Value

noncomputable section

open scoped BigOperators

namespace Cert.Proof.RefVal

open Cert.ReferenceIdeal Cert.ReferenceIdeal.Gen Idealize.ShloMosaic Idealize.ShloMosaic.ValueIdx

/-- The product with the transposed weight, at an entry: `∑ₖ ne[n,k] · W[e,k]`. -/
theorem dot_apply (a0 : FVec Ideal S100000x128 .f32) (W : FVec Ideal S128x128 .f32) (n : Fin 100000) (e : Fin 128) :
    Host.dotGeneral dot_S100000x128_S128x128_S100000x128_1_0_0_1_n_n none a0
        (transpose S128x128 [1, 0] W transposes_S128x128_S128x128_1_0) (ix2 n e)
      = ∑ k : Fin 128, a0 (ix2 n k) * W (ix2 e k) := by
  refine (StackMember.dotGeneral_plain_apply (m := 100000) (n := 128) (k := 128) none a0
    (transpose S128x128 [1, 0] W transposes_S128x128_S128x128_1_0) n e).trans ?_
  refine Finset.sum_congr rfl fun k _ => ?_
  rw [transpose_apply [1, 0] W transposes_S128x128_S128x128_1_0 (ix2 k e) (ix2 e k)
    (fun b => match b with | ⟨0, _⟩ => rfl | ⟨1, _⟩ => rfl)]

/-- The bias spread over the rows, at an entry. -/
theorem bias_apply (b : FVec Ideal S128 .f32) (n : Fin 100000) (e : Fin 128) :
    broadcastInDim S100000x128 ![0, 1] bcast_S1x128_S100000x128_0_1 (broadcastInDim S1x128 ![1] bcast_S128_S1x128_1 b) (ix2 n e)
      = b (ix1 e) := by
  rw [broadcastInDim_apply ![0, 1] bcast_S1x128_S100000x128_0_1 _ (ix2 n e) (ix2 (0 : Fin 1) e)
      (fun a => match a with | ⟨0, _⟩ => rfl | ⟨1, _⟩ => rfl),
    broadcastInDim_apply ![1] bcast_S128_S1x128_1 b (ix2 (0 : Fin 1) e) (ix1 e)
      (fun a => match a with | ⟨0, _⟩ => rfl)]

/-- The first stage is the specification's table. -/
theorem xr_apply (a0 : FVec Ideal S100000x128 .f32) (W : FVec Ideal S128x128 .f32) (b : FVec Ideal S128 .f32)
    (n : Fin 100000) (e : Fin 128) :
    RefRun.xr (F := Ideal) a0 W b (ix2 n e) = Spec.X a0 W b (ix2 n e) := by
  rw [Spec.X_apply]
  unfold RefRun.xr
  rw [maximumf_apply, addf_apply, dot_apply, bias_apply]
  show max _ (Ideal.ofBits .f32 0x00000000#32) = _
  rw [Ideal.ofBits_zero_f32]

theorem xr_eq (a0 : FVec Ideal S100000x128 .f32) (W : FVec Ideal S128x128 .f32) (b : FVec Ideal S128 .f32) :
    RefRun.xr (F := Ideal) a0 W b = Spec.X a0 W b := by
  funext i
  obtain ⟨n, e, rfl⟩ : ∃ (n : Fin 100000) (e : Fin 128), i = ix2 n e := ⟨i 0, i 1, eq_ix2 i⟩
  exact xr_apply a0 W b n e

end Cert.Proof.RefVal

end
-- ==== Proof.RefValT.lean ====
/-
  The reference's second stage read at an entry: the index normalisation keeps a non-negative word, the
  in-range mask is all ones when every word lies in [0, 99999], and the gather reads the row the word
  names — so the rows taken are the named rows of the table.
-/
import proofs.«219373_g11218454577211_week1_w3_1378_31_alg».proof.Proof.RefRun
import proofs.«219373_g11218454577211_week1_w3_1378_31_alg».proof.Proof.SpecG
import Idealize.ShloMosaic.Lib.Pipeline.Value
import Idealize.ShloMosaic.Lib.Affine
import Idealize.ShloMosaic.PureOps.Reduce

noncomputable section

open scoped BigOperators

namespace Cert.Proof.RefVal

open Cert.ReferenceIdeal Cert.ReferenceIdeal.Gen Idealize.ShloMosaic Idealize.ShloMosaic.ValueIdx

/-! ## A reduction by `and` of all ones -/

/-- A reduce by `and` from 1 over elements that are all 1 is 1. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  have key : ∀ l : List s.Idx, l.foldl (fun r i => IntOp.andi r (x i)) 1#1 = 1#1 := by
    intro l
    induction l with
    | nil => rfl
    | cons a l ih => rw [List.foldl_cons, hx a, show IntOp.andi 1#1 1#1 = 1#1 from by decide]; exact ih
  exact key _

/-! ## The gather of whole rows -/

/-- The dimension numbers of taking whole rows of a `[100000, 128]` table at a `[10000, 4, 8, 1]` array of row numbers. -/
abbrev rowDims (wf : GatherDims.WF S100000x128 S10000x4x8x1 S10000x4x8x128 [3] [0] [] [0] [] 3 ![1, 128]) :
    GatherDims S100000x128 S10000x4x8x1 S10000x4x8x128 where
  offsetDims := [3]
  collapsedSliceDims := [0]
  operandBatchingDims := []
  startIndicesBatchingDims := []
  startIndexMap := [0]
  indexVectorDim := 3
  sliceSizes := ![1, 128]
  wf := wf

/-- The gather read at `(j, g, s, e)`: lane `e` of the row whose number is the start index at `(j, g, s)`, read signed
    and clamped into `[0, 99999]`. -/
theorem gather_rows_apply {α : Type} (wf : GatherDims.WF S100000x128 S10000x4x8x1 S10000x4x8x128 [3] [0] [] [0] [] 3 ![1, 128])
    (x : S100000x128.Idx → α) (idx : IVec S10000x4x8x1 32) (j : Fin 10000) (g : Fin 4) (s : Fin 8) (e : Fin 128) :
    Host.gather (rowDims wf) x idx (ix4 j g s e) = x (ix2 (Spec.rowOf (idx (ix4 j g s (0 : Fin 1)))) e) := by
  unfold Host.gather
  congr 1
  funext a
  refine Fin.ext ?_
  match a with
  | ⟨0, _⟩ =>
    show (rowDims wf).start (ix4 j g s e) idx 0 + (rowDims wf).batchCoord (ix4 j g s e) 0 + (rowDims wf).offCoord (ix4 j g s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix4 j g s e) ⟨List.idxOf (0 : Fin 2) (rowDims wf).startIndexMap,
        List.idxOf_lt_length_iff.2 (List.mem_singleton.mpr rfl)⟩ = ix4 j g s (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (rowDims wf).start (ix4 j g s e) idx 1 + (rowDims wf).batchCoord (ix4 j g s e) 1 + (rowDims wf).offCoord (ix4 j g s e) 1 = e.val
    rw [GatherDims.batchCoord_eq_zero _ _ _ List.not_mem_nil]
    unfold GatherDims.start
    rw [dif_neg (show (1 : Fin 2) ∉ (rowDims wf).startIndexMap from (by decide : (1 : Fin 2) ∉ ([0] : List (Fin 2))))]
    unfold GatherDims.offCoord
    rw [dif_pos (show (1 : Fin 2) ∈ (rowDims wf).sKept from
      (GatherDims.mem_sKept _ _).mpr ⟨(by decide : (1 : Fin 2) ∉ ([0] : List (Fin 2))), List.not_mem_nil⟩)]
    simp only [Nat.zero_add, Nat.add_zero]
    rfl

/-! ## The index, the mask and the rows taken -/

/-- The normalisation keeps a non-negative word. -/
theorem idxN_apply (hs : IVec S10000x4x8 32) (i : S10000x4x8.Idx) (h0 : 0 ≤ (hs i).toInt) : RefRun.idxN hs i = hs i := by
  unfold RefRun.idxN
  rw [select_apply]
  have hc : ¬ cmpi .slt hs (broadcastInDim S10000x4x8 ![] bcast_S_S10000x4x8 (constantI S_ 32 0#32)) i = 1#1 := by
    show ¬ IntOp.cmpi .slt (hs i) 0#32 = 1#1
    rw [IntOp.cmpi_slt, show (0#32 : BitVec 32).toInt = 0 from by decide]
    omega
  rw [eq_zero_of_ne_one hc, select_zero]

/-- The start indices are the normalised index with a unit axis appended. -/
theorem idx4_apply (hs : IVec S10000x4x8 32) (j : Fin 10000) (g : Fin 4) (s : Fin 8) (z : Fin 1) :
    RefRun.idx4 hs (ix4 j g s z) = RefRun.idxN hs (ix3 j g s) := by
  unfold RefRun.idx4
  exact broadcastInDim_apply ![0, 1, 2] bcast_S10000x4x8_S10000x4x8x1_0_1_2 _ (ix4 j g s z) (ix3 j g s)
    (fun a => match a with | ⟨0, _⟩ => rfl | ⟨1, _⟩ => rfl | ⟨2, _⟩ => rfl)

/-- With every word in [0, 99999] the in-range mask is all ones. -/
theorem inRange_apply (hs : IVec S10000x4x8 32) (hidx : ∀ i, 0 ≤ (hs i).toInt ∧ (hs i).toInt ≤ 99999) (i : S10000x4x8.Idx) :
    RefRun.inRange hs i = 1#1 := by
  unfold RefRun.inRange
  refine reduce_andi_of_all _ _ _ _ _ rfl fun k => ?_
  obtain ⟨j, g, s, z, rfl⟩ : ∃ (j : Fin 10000) (g : Fin 4) (s : Fin 8) (z : Fin 1), k = ix4 j g s z :=
    ⟨k 0, k 1, k 2, k 3, eq_ix4 k⟩
  show IntOp.andi (IntOp.cmpi .sge (RefRun.idx4 hs (ix4 j g s z)) 0#32) (IntOp.cmpi .sle (RefRun.idx4 hs (ix4 j g s z)) 99999#32) = 1#1
  rw [idx4_apply, idxN_apply hs _ (hidx _).1, IntOp.andi_eq_one, IntOp.cmpi_sge, IntOp.cmpi_sle,
    show (0#32 : BitVec 32).toInt = 0 from by decide, show (99999#32 : BitVec 32).toInt = 99999 from by decide]
  exact hidx _

/-- With every word in [0, 99999] the rows taken are the rows the words name. -/
theorem taken_apply {F : FTy → Type} [FloatOps F] (x : FVec F S100000x128 .f32) (hs : IVec S10000x4x8 32)
    (hidx : ∀ i, 0 ≤ (hs i).toInt ∧ (hs i).toInt ≤ 99999) (j : Fin 10000) (g : Fin 4) (s : Fin 8) (e : Fin 128) :
    RefRun.taken x hs (ix4 j g s e) = x (ix2 (Spec.rowOf (hs (ix3 j g s))) e) := by
  unfold RefRun.taken
  rw [select_apply]
  have hm : broadcastInDim S10000x4x8x128 ![0, 1, 2] bcast_S10000x4x8_S10000x4x8x128_0_1_2 (RefRun.inRange hs) (ix4 j g s e) = 1#1 := by
    rw [broadcastInDim_apply ![0, 1, 2] bcast_S10000x4x8_S10000x4x8x128_0_1_2 _ (ix4 j g s e) (ix3 j g s)
      (fun a => match a with | ⟨0, _⟩ => rfl | ⟨1, _⟩ => rfl | ⟨2, _⟩ => rfl)]
    exact inRange_apply hs hidx _
  rw [hm, select_one]
  have hd : gather_S100000x128_S10000x4x8x1_S10000x4x8x128_3_0_n_n_0_3_1128
      = rowDims gather_S100000x128_S10000x4x8x1_S10000x4x8x128_3_0_n_n_0_3_1128_wf := rfl
  rw [hd, gather_rows_apply, idx4_apply, idxN_apply hs _ (hidx _).1]

end Cert.Proof.RefVal

end
-- ==== Proof.RefValM.lean ====
/-
  The reference's last stages read at an entry — each mean a sum from zero over one axis and a division
  by the axis's length — and the whole result against the specification: under the precondition's
  decoded facts the program's composed stages are the specification's array.
-/
import proofs.«219373_g11218454577211_week1_w3_1378_31_alg».proof.Proof.RefValX
import proofs.«219373_g11218454577211_week1_w3_1378_31_alg».proof.Proof.RefValT
import proofs.«219373_g11218454577211_week1_w3_1378_31_alg».proof.Proof.LawMean

noncomputable section

open scoped BigOperators

namespace Cert.Proof.RefVal

open Cert.ReferenceIdeal Cert.ReferenceIdeal.Gen Idealize.ShloMosaic Idealize.ShloMosaic.ValueIdx

theorem red8 : S10000x4x8x128.Reduces [2] S10000x4x128 := by decide
theorem red4 : S10000x4x128.Reduces [1] S10000x128 := by decide

/-- The mean over the eight slots, at an entry. -/
theorem mean8_apply (t : FVec Ideal S10000x4x8x128 .f32) (j : Fin 10000) (g : Fin 4) (e : Fin 128) :
    RefRun.mean8 (F := Ideal) t (ix3 j g e) = Ideal.div (0 + ∑ s : Fin 8, t (ix4 j g s e)) ((8 : ℝ) : EReal) := by
  unfold RefRun.mean8
  show FloatOps.hostDivf (Host.reduceAdd t (constant S_ .f32 0x00000000#32) reducesTo_S10000x4x8x128_S10000x4x128_d2 h_S_ (ix3 j g e))
    (Ideal.ofBits .f32 0x41000000#32) = _
  rw [Ideal.hostDivf_def, Law.ofBits_eight]
  unfold Host.reduceAdd
  rw [Ideal.hostReduceAdd_def, Ideal.hostReduceAdd_single _ red8]
  show Ideal.div (Ideal.ofBits .f32 0x00000000#32 + ∑ s : Fin 8, t (red8.lift (ix3 j g e) s)) _ = _
  rw [Ideal.ofBits_zero_f32]
  refine congrArg (fun z => Ideal.div (0 + z) _) (Finset.sum_congr rfl fun s _ => congrArg t ?_)
  funext c
  exact Fin.ext (match c with | ⟨0, _⟩ => rfl | ⟨1, _⟩ => rfl | ⟨2, _⟩ => rfl | ⟨3, _⟩ => rfl)

/-- The mean over the four groups, at an entry. -/
theorem mean4_apply (t : FVec Ideal S10000x4x128 .f32) (j : Fin 10000) (e : Fin 128) :
    RefRun.mean4 (F := Ideal) t (ix2 j e) = Ideal.div (0 + ∑ g : Fin 4, t (ix3 j g e)) ((4 : ℝ) : EReal) := by
  unfold RefRun.mean4
  show FloatOps.hostDivf (Host.reduceAdd t (constant S_ .f32 0x00000000#32) reducesTo_S10000x4x128_S10000x128_d1 h_S_ (ix2 j e))
    (Ideal.ofBits .f32 0x40800000#32) = _
  rw [Ideal.hostDivf_def, Law.ofBits_four]
  unfold Host.reduceAdd
  rw [Ideal.hostReduceAdd_def, Ideal.hostReduceAdd_single _ red4]
  show Ideal.div (Ideal.ofBits .f32 0x00000000#32 + ∑ g : Fin 4, t (red4.lift (ix2 j e) g)) _ = _
  rw [Ideal.ofBits_zero_f32]
  refine congrArg (fun z => Ideal.div (0 + z) _) (Finset.sum_congr rfl fun g _ => congrArg t ?_)
  funext c
  exact Fin.ext (match c with | ⟨0, _⟩ => rfl | ⟨1, _⟩ => rfl | ⟨2, _⟩ => rfl)

/-- THE REFERENCE'S VALUE: with every entry of the three float arguments a real and every index word in
    [0, 99999], the program's composed stages are the specification's array. -/
theorem refOut_eq_G (a0 : FVec Ideal S100000x128 .f32) (hs : IVec S10000x4x8 32) (W : FVec Ideal S128x128 .f32)
    (b : FVec Ideal S128 .f32) (h0 : ∀ i, ∃ r : ℝ, a0 i = (r : EReal)) (hW : ∀ i, ∃ r : ℝ, W i = (r : EReal))
    (hb : ∀ i, ∃ r : ℝ, b i = (r : EReal)) (hidx : ∀ i, 0 ≤ (hs i).toInt ∧ (hs i).toInt ≤ 99999) :
    RefRun.refOut (F := Ideal) a0 hs W b = Spec.G a0 hs W b := by
  funext i
  obtain ⟨j, e, rfl⟩ : ∃ (j : Fin 10000) (e : Fin 128), i = ix2 j e := ⟨i 0, i 1, eq_ix2 i⟩
  rw [Spec.G_apply]
  unfold RefRun.refOut
  rw [mean4_apply]
  simp only [mean8_apply, taken_apply _ hs hidx, xr_eq]
  choose f hf using fun (g : Fin 4) (s : Fin 8) => Law.X_real a0 W b h0 hW hb (ix2 (Spec.rowOf (hs (ix3 j g s))) e)
  simp only [hf]
  exact Law.mean_law f

end Cert.Proof.RefVal

end
-- ==== Proof.PreReal.lean ====
/-
  The precondition read at the extended reals: an entry whose absolute value compares below +∞ is a
  real, so every entry of the three float arguments is one.
-/
import proofs.«219373_g11218454577211_week1_w3_1378_31_alg».proof.Proof.PreIdx
import proofs.«219373_g11218454577211_week1_w3_1378_31_alg».proof.Proof.LawMean

noncomputable section

namespace Cert.Proof.Pre

open Idealize.ShloMosaic Idealize.ShloMosaic.ValueIdx Cert.Pre_input_domain

/-- An extended real whose absolute value is below +∞ is a real: neither infinity's is. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  rw [Ideal.cmpf_def, Ideal.hostAbsf_def, Ideal.absf_def, Ideal.ofBits_def, Law.ofBits_inf] at h
  induction x using EReal.rec with
  | bot => simp [Ideal.cmp] at h
  | top => simp [Ideal.cmp] at h
  | coe r => exact ⟨r, rfl⟩

variable [hP : Cert.Pre_input_domain.Facts]

/-- Under the precondition, at the extended reals, every entry of the node table, of the weight and of the bias is a real. -/
theorem reals (a0 : FVec Ideal S100000x128 .f32) (a1 : IVec S10000x8 32) (a2 : IVec S10000x4x8 32)
    (a3 : FVec Ideal S128x128 .f32) (a4 : FVec Ideal S128 .f32)
    (h : fn (F := Ideal) a0 a1 a2 a3 a4 = fun _ => 1#1) :
    (∀ i, ∃ r : ℝ, a0 i = (r : EReal)) ∧ (∀ i, ∃ r : ℝ, a3 i = (r : EReal)) ∧ (∀ i, ∃ r : ℝ, a4 i = (r : EReal)) := by
  obtain ⟨h0, h3, h4, -⟩ := split a0 a1 a2 a3 a4 h
  exact ⟨fun i => real_of_abs_lt_inf _ (h0 i), fun i => real_of_abs_lt_inf _ (h3 i), fun i => real_of_abs_lt_inf _ (h4 i)⟩

end Cert.Proof.Pre

end
-- ==== Proof.RefG.lean ====
/-
  The reference program's run with its result named by the specification: under the precondition every
  weakly fair execution ends with the result buffer at the specification's array of the arguments, and the
  arguments unchanged; the frame is that run with the value dropped.
-/
import proofs.«219373_g11218454577211_week1_w3_1378_31_alg».proof.Proof.RefRun
import proofs.«219373_g11218454577211_week1_w3_1378_31_alg».proof.Proof.RefValM
import proofs.«219373_g11218454577211_week1_w3_1378_31_alg».proof.Proof.PreReal

noncomputable section

namespace Cert.Proof.RefG

open Cert.ReferenceIdeal Cert.ReferenceIdeal.Gen Idealize.ShloMosaic Idealize.ShloMosaic.TcCoe Idealize.SL.Sem

/-- The precondition of the reference program at a memory, spelt out: the input-domain predicate of the five
    argument arrays is all ones on every device. -/
abbrev Pre (m : (ℓ : Loc nD τ sig) → Buf (Elt Ideal) ℓ) : Prop :=
  ∀ c : Dev nD,
    Cert.Pre_input_domain.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = (fun _ => 1#1)

/-- Under the precondition the result is the specification's array of the arguments. -/
theorem value (m : (ℓ : Loc nD τ sig) → Buf (Elt Ideal) ℓ) (hpre : Pre m) (c : Dev nD) :
    RefRun.refOut (F := Ideal) (m ((c.tc : Thread nD τ).loc main_arg0)) (m ((c.tc : Thread nD τ).loc main_arg2)) (m ((c.tc : Thread nD τ).loc main_arg3)) (m ((c.tc : Thread nD τ).loc main_arg4))
      = Spec.G (m ((c.tc : Thread nD τ).loc main_arg0)) (m ((c.tc : Thread nD τ).loc main_arg2)) (m ((c.tc : Thread nD τ).loc main_arg3)) (m ((c.tc : Thread nD τ).loc main_arg4)) := by
  obtain ⟨r0, r3, r4⟩ := Pre.reals _ _ _ _ _ (hpre c)
  exact RefVal.refOut_eq_G _ _ _ _ r0 r3 r4 (Pre.idx_toInt _ _ _ _ _ (hpre c))

/-- THE REFERENCE'S RUN: it terminates, nothing faulting, the result the specification's array, the arguments unchanged. -/
theorem ref_run_G (m' : (ℓ : Loc nD τ sig) → Buf (Elt Ideal) ℓ) (g' : Dev nD → PrngReg) (hpre : Pre m') :
    θ_run (defs (F := Ideal)) (onTc (τ := τ) (main (F := Ideal))) ⟨m', fun _ => 0, g'⟩ (fun r => ∀ c : Dev nD,
      r.2.mem ((c.tc : Thread nD τ).loc main_v12)
        = Spec.G (m' ((c.tc : Thread nD τ).loc main_arg0)) (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run (defs (F := Ideal)) _ _).mono (fun _ h c => ⟨(h c).1.trans (value m' hpre c), (h c).2⟩) (RefRun.run m' g')

/-- THE REFERENCE'S FRAME: it terminates, nothing faulting, the arguments unchanged. -/
theorem frame (m : (ℓ : Loc nD τ sig) → Buf (Elt Ideal) ℓ) (g : Dev nD → PrngReg) (hpre : Pre m) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => (h c).2) (RefRun.run m g)

end Cert.Proof.RefG

end
-- ==== Proof.MmValue.lean ====
/-
  The matmul region's result at the ideal values, index by index.

  Over the extended reals the body's block is, at row p and column e of the block,

      max (Σ_{k<128} x[p,k] · w[k,e] + b[0,e]) 0

  (the bf16 roundings are the identity there and the accumulator starts at 0).  Grid point t writes rows
  [2000 t, 2000 t + 2000) of the result, reading rows [2000 t, 2000 t + 2000) of the first operand and the whole
  of the other two; the fifty blocks tile the 100000 rows.  So the array the pipeline leaves is ONE function of the
  three operand arrays, whatever the result's buffer held before.
-/
import proofs.«219373_g11218454577211_week1_w3_1378_31_alg».proof.Proof.Region
import Idealize.ShloMosaic.Lib.Pipeline.Value
import Idealize.ShloMosaic.Lib.ValueIdx
import Idealize.ShloMosaic.Lib.ValueLayout
import Idealize.ShloMosaic.PureOps.Ideal.Laws

noncomputable section

namespace Cert.Proof.KernelIdeal.Region

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat)
open Idealize.ShloMosaic.SparseCore.Cfg (HIx)
open scoped BigOperators

variable {Name : Type} [DecidableEq Name] {U : Type} [URA U]

/-! ## The body's block at an index -/

/-- The stored block at row `p`, column `e`: the rectified affine form of row `p` of the block. -/
theorem mmPay_apply (x0 : FVec Ideal S2000x128 .f32) (x1 : FVec Ideal S128x128 .f32) (x2 : FVec Ideal S1x128 .f32)
    (p : Fin 2000) (e : Fin 128) :
    mmPay (F := Ideal) x0 x1 x2 (ix2 p e) = max ((∑ k : Fin 128, x0 (ix2 p k) * x1 (ix2 k e)) + x2 (ix2 (0 : Fin 1) e)) 0 := by
  unfold mmPay
  rw [maximumf_apply, addf_apply]
  simp only [matmul]
  rw [Ideal.matmul_constant_zero_apply]
  rw [broadcast_apply, broadcastTo_1b_ab_apply, shapeCast_self, shapeCast_self]
  rw [show (FloatOps.ofBits FTy.f32 0#32 : Ideal .f32) = 0 from Ideal.ofBits_zero_f32]
  congr 2
  rw [← Equiv.sum_comp (contrEquiv1 dot_S2000x128_S128x128_S2000x128_1_0_0_1_n_n 128 rfl rfl).symm]
  refine Finset.sum_congr rfl fun k _ => ?_
  rw [truncf_apply, truncf_apply]
  have hl : dot_S2000x128_S128x128_S2000x128_1_0_0_1_n_n.lhsIdx (ix2 p e)
      ((contrEquiv1 dot_S2000x128_S128x128_S2000x128_1_0_0_1_n_n 128 rfl rfl).symm k) = ix2 p k := by
    funext a
    match a with
    | ⟨0, _⟩ => exact Fin.ext rfl
    | ⟨1, _⟩ => exact Fin.ext ((DotDims.lhsIdx_val_of_single _ rfl _ _).trans (contrEquiv1_symm_val _ 128 rfl rfl k))
  have hr : dot_S2000x128_S128x128_S2000x128_1_0_0_1_n_n.rhsIdx (ix2 p e)
      ((contrEquiv1 dot_S2000x128_S128x128_S2000x128_1_0_0_1_n_n 128 rfl rfl).symm k) = ix2 k e := by
    funext a
    match a with
    | ⟨0, _⟩ => exact Fin.ext ((DotDims.rhsIdx_val_of_single _ rfl _ _).trans (contrEquiv1_symm_val _ 128 rfl rfl k))
    | ⟨1, _⟩ => exact Fin.ext rfl
  rw [hl, hr]

/-! ## The result array as one function of the operands -/

/-- The rectified affine layer over whole arrays: row `n` of the first operand against the second, plus the bias row. -/
def XI (ne : FVec Ideal S100000x128 .f32) (wt : FVec Ideal S128x128 .f32) (b1 : FVec Ideal S1x128 .f32) :
    FVec Ideal S100000x128 .f32 :=
  fun i => max ((∑ k : Fin 128, ne (ix2 (i 0) k) * wt (ix2 k (i 1))) + b1 (ix2 (0 : Fin 1) (i 1))) 0

theorem XI_apply (ne : FVec Ideal S100000x128 .f32) (wt : FVec Ideal S128x128 .f32) (b1 : FVec Ideal S1x128 .f32)
    (n : Fin 100000) (e : Fin 128) :
    XI ne wt b1 (ix2 n e) = max ((∑ k : Fin 128, ne (ix2 n k) * wt (ix2 k e)) + b1 (ix2 (0 : Fin 1) e)) 0 := rfl

section Blocks

variable (V : (c : Dev nD) → (b : Ref sig .tc) → Buf (Elt Ideal) ((c : Thread nD τ).loc b))
variable (O : Dev nD → CellTallies nD τ sig (HIx 1)) (R : Dev nD → Set (SemLoc sig × HIx 1))

theorem zero_offsets : (![0, 0] : Fin 2 → Nat) = fun _ => 0 := funext fun a => by fin_cases a <;> rfl

/-- The printed index maps, decided over the grid: the first operand's and the result's blocks are block `t` of the
    rows, the other two operands' the whole arrays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `XI` of the operand arrays as the region finds them. -/
theorem flushed3_eq (c : Dev nD) (t : Fin cfg0.N) :
    (dats (Name := Name) (U := U) V O R 0 c).flushed 3 t
      = ((cfg0.win 3).blk t).view.read (Elt Ideal) (XI (V c main_arg0) (V c main_v0) (V c main_v1)) := by
  show (cfg0.win 3).cut (grid0.coords t) ((dats (Name := Name) (U := U) V O R 0 c).after 3 t) = _
  rw [after3]
  unfold out3
  rw [View.canon_unit_zero zero_offsets]
  simp only [View.ld_unit_zero (S := S2000x128) zero_offsets, View.ld_unit_zero (S := S128x128) zero_offsets,
    View.ld_unit_zero (S := S1x128) zero_offsets]
  obtain ⟨e00, e01, e10, e11, e20, e21, e30, e31⟩ := index_facts t
  have ht : t.val < 50 := lt_of_lt_of_eq t.isLt N_0
  funext (j : S2000x128.Idx)
  obtain ⟨p, e, rfl⟩ : ∃ (p : Fin 2000) (e : Fin 128), j = ix2 p e := ⟨j 0, j 1, eq_ix2 j⟩
  show mmPay (F := Ideal) (iblk V c 0 t) (iblk V c 1 t) (iblk V c 2 t) (ix2 p e)
    = XI (V c main_arg0) (V c main_v0) (V c main_v1) (((cfg0.win 3).blk t).view.emb (ix2 p e))
  rw [mmPay_apply]
  have hp : p.val < 2000 := p.isLt
  have hemb : ((cfg0.win 3).blk t).view.emb (ix2 p e) = (ix2 (⟨t.val * 2000 + p.val, by omega⟩ : Fin 100000) e : S100000x128.Idx) := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * e.val = e.val; omega
  rw [hemb, XI_apply]
  congr 2
  · refine Finset.sum_congr rfl fun k _ => ?_
    congr 1
    · show V c main_arg0 (((cfg0.win 0).blk t).view.emb (ix2 p k)) = V c main_arg0 (ix2 (⟨t.val * 2000 + p.val, by omega⟩ : Fin 100000) k)
      congr 1; funext a; apply Fin.ext
      match a with
      | ⟨0, _⟩ => show win0_0.index t (0 : Fin 2) * 2000 + 1 * p.val = t.val * 2000 + p.val; omega
      | ⟨1, _⟩ => show win0_0.index t (1 : Fin 2) * 128 + 1 * k.val = k.val; omega
    · show V c main_v0 (((cfg0.win 1).blk t).view.emb (ix2 k e)) = V c main_v0 (ix2 k e)
      congr 1; funext a; apply Fin.ext
      match a with
      | ⟨0, _⟩ => show win0_1.index t (0 : Fin 2) * 128 + 1 * k.val = k.val; omega
      | ⟨1, _⟩ => show win0_1.index t (1 : Fin 2) * 128 + 1 * e.val = e.val; omega
  · show V c main_v1 (((cfg0.win 2).blk t).view.emb (ix2 (0 : Fin 1) e)) = V c main_v1 (ix2 (0 : Fin 1) e)
    congr 1; funext a; apply Fin.ext
    match a with
    | ⟨0, _⟩ => show win0_2.index t (0 : Fin 2) * 1 + 1 * 0 = 0; omega
    | ⟨1, _⟩ => show win0_2.index t (1 : Fin 2) * 128 + 1 * e.val = e.val; omega

/-- An index of the result is in point `t`'s block iff each coordinate is in the block's range on its axis. -/
theorem mem_blk3 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v2).slice (win0_3.rect t)).set ↔ _
  rw [View.set_slice_whole, Rect.mem_set_unit]
  exact Iff.rfl

/-- THE BLOCKS TILE THE ROWS: row `r` of the result is in the block of point `r / 2000`. -/
theorem rows_covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have hq : (i 0).val / 2000 < cfg0.N := by rw [hN]; omega
  obtain ⟨-, -, -, -, -, -, e30, e31⟩ := index_facts ⟨(i 0).val / 2000, hq⟩
  refine ⟨⟨(i 0).val / 2000, hq⟩, flush0_3 _, ?_⟩
  rw [mem_blk3]
  intro a
  match a with
  | ⟨0, _⟩ =>
    show win0_3.index ⟨(i 0).val / 2000, hq⟩ (0 : Fin 2) * 2000 ≤ (i 0).val
      ∧ (i 0).val < win0_3.index ⟨(i 0).val / 2000, hq⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hq⟩ (1 : Fin 2) * 128 ≤ (i 1).val
      ∧ (i 1).val < win0_3.index ⟨(i 0).val / 2000, hq⟩ (1 : Fin 2) * 128 + 128
    omega

/-- THE RESULT ARRAY after the region: `XI` of the three operand arrays as the region found them. -/
theorem arrAt3_eq (c : Dev nD) :
    (dats (Name := Name) (U := U) V O R 0 c).arrAt 3 cfg0.N = XI (V c main_arg0) (V c main_v0) (V c main_v1) :=
  (dats (Name := Name) (U := U) V O R 0 c).arrAt_eq_of_cover 3 _ (fun t _ => flushed3_eq V O R c t) rows_covered

end Blocks

/-! ## The region's named result, read -/

/-- The call's result as the region leaves it (`XF`) is the rectified affine layer of the operands. -/
theorem XF_ideal (V : (c : Dev nD) → (b : Ref sig .tc) → Buf (Elt Ideal) ((c : Thread nD τ).loc b))
    (O : Dev nD → CellTallies nD τ sig (HIx 1)) (b : ℕ) (c : Dev nD) :
    XF (F := Ideal) (Name := Name) (U := U) V O b c = XI (V c main_arg0) (V c main_v0) (V c main_v1) :=
  arrAt3_eq V O _ c

end Cert.Proof.KernelIdeal.Region

end
-- ==== Proof.ClaimsKI.lean ====
/-
  The idealized kernel's claims assembled: its frame is its run with the value dropped; its result, the first
  10000 rows of what the tiles wrote, is the specification's array of the arguments; and so it and the idealized
  reference, run from memories that agree on the arguments, end with equal results and unchanged arguments.
-/
import proofs.«219373_g11218454577211_week1_w3_1378_31_alg».proof.Proof.RunFull
import proofs.«219373_g11218454577211_week1_w3_1378_31_alg».proof.Proof.RefG
import proofs.«219373_g11218454577211_week1_w3_1378_31_alg».proof.Proof.MmValue

noncomputable section

namespace Cert.Proof.KI

open Cert.KernelIdeal
open Idealize.ShloMosaic
open Idealize.ShloMosaic.SparseCore (S V T)
open Idealize.ShloMosaic.SparseCore.Cfg (HIx Pay)
open Idealize.SL.Sem
open Idealize.ShloMosaic.TcCoe
open Idealize.ShloMosaic.ValueIdx

open scoped BigOperators

/-- The tiles' task at the extended reals, for every memory whose flat list holds row numbers. -/
abbrev TileHyp : Prop :=
  ∀ m : (ℓ : Loc nD τ sig) → Buf (Elt Ideal) ℓ, (∀ d j, (fiv m XFk d j).toNat < 100000) →
    (K (F := Ideal)).TileObl (D (F := Ideal)) 𝒱 (PP m XFk (fun d => Tile.AggBuf d) tile) v₀ 0

/-- The matmul region's output is the rectified affine layer of the three arrays it finds. -/
theorem XFk_eq (d : Dev nD) (W : Valuation τ sig (Elt Ideal)) :
    XFk d W = Cert.Proof.KernelIdeal.Region.XI (W a0') (W v0') (W v1') :=
  Cert.Proof.KernelIdeal.Region.XF_ideal (Name := ℕ) (U := UU) (Cert.Proof.KernelIdeal.Region.ofVal (fun _ => W))
    (fun c => (K (F := Ideal)).Otc c 0) (8 * 0) d

/-- THE FRAME: the run with the value dropped. -/
theorem frame_ki (htile : TileHyp) : Cert.frame_KernelIdeal :=
  fun m g hpre => (θ_run (Cert.KernelIdeal.defs (F := Ideal)) _ _).mono (fun _ h c => (h c).2) (run_full m g hpre htile)

/-- THE VALUE: the result array is the specification's array of the arguments. -/
theorem kout_eq_G (m : (ℓ : Loc nD τ sig) → Buf (Elt Ideal) ℓ) (hpre : PreM m) (c : Dev nD) :
    V10 m XFk (fun d => Tile.AggBuf d) c v7'
      = Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [V10_v7]
  show extractStridedSlice S10000x128 ![0, 0] (fun p : S10240x128.Idx => Agg.entry (F := Ideal)
      (fun a e => fxv m XFk c (Tile.xIx a e)) (fun n => fiv m XFk c (Tile.iIx n)) (p 0).val (p 1).val) _ = _
  rw [fiv_eq, fxv_eq]
  exact KBridge.kernel_value _ _ _ _ _ (fun _ => rfl) _ _ _ _ _ _ _ (XFk c (V2 m c))
    (fun n e => by rw [XFk_eq, Cert.Proof.KernelIdeal.Region.XI_apply, V2_a0, V2_v0, V2_v1]) Tile.xIx (fun _ _ => ⟨rfl, rfl⟩) Tile.iIx (fun _ => rfl)
    (fun i => Pre.idx_lt _ _ _ _ _ (hpre c) i)

/-- THE EQUIVALENCE at the extended reals. -/
theorem algebraic_ki (htile : TileHyp) : Cert.algebraic_KernelIdeal_ReferenceIdeal := by
  intro m g m' g' hpre hagree
  have hpre' : RefG.Pre m' := fun c => by
    have h := hpre c
    rw [← (hagree c).1, ← (hagree c).2.1, ← (hagree c).2.2.1, ← (hagree c).2.2.2.1, ← (hagree c).2.2.2.2] at h
    exact h
  refine ⟨fun c => Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run (Cert.KernelIdeal.defs (F := Ideal)) _ _).mono
      (fun _ h c => ⟨(h c).1.trans (kout_eq_G m hpre c), (h c).2⟩) (run_full m g hpre htile)
  · exact (θ_run (Cert.ReferenceIdeal.defs (F := Ideal)) _ _).mono
      (fun _ h c => ⟨by rw [(h c).1, (hagree c).1, (hagree c).2.2.1, (hagree c).2.2.2.1, (hagree c).2.2.2.2], (h c).2⟩)
      (RefG.ref_run_G m' g' hpre')

end Cert.Proof.KI

end
-- ==== Proof.TileObl.lean ====
/-
  The tile's task as the launch theorem asks for it: the body table's row for a vector subcore is the kernel function
  at the subcore's grid point on the whole arrays and its own scratch, so the task's obligation — from the tile's
  shares and rows to the rows written — is the body's triple at that point.
-/
import proofs.«219373_g11218454577211_week1_w3_1378_31_alg».proof.Proof.Tiles
import proofs.«219373_g11218454577211_week1_w3_1378_31_alg».proof.Proof.MainTC

noncomputable section

namespace Cert.Proof.KI

open Cert.KernelIdeal Cert.KernelIdeal.Gen
open Cert.Proof.Tile (xV iV oV sV bV aV cV jV oSet AggBuf xPts iPts oPts)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The body's triple at a grid point: from a read share of the embeddings and of the row numbers (every word a row
    number) and the tile's own output rows, its scratch and semaphores, the body ends with the same and the rows at
    the hyperedge means, its semaphores back at zero, nothing more owed. -/
def TileRule : Prop :=
  ∀ (d : Dev nD) (L : grid1.Coords) (qx qi : PosShare TreeShare)
    (fx : Buf (Elt F) (xLoc d)) (fi : Buf (Elt F) (iLoc d)) (fo : Buf (Elt F) (oLoc d))
    (_ : ∀ j, (fi j).toNat < 100000) (O : CellTallies nD τ sig (HIx 1)) (W : Waits sig (HIx 1)) (_ : ∀ g, O g none = 0),
    iprop(levAts (K (F := F)).L (K (F := F)).lev ∗ emp
        ∗ (xPts (F := F) d qx fx ∗ iPts (F := F) d qi fi ∗ oPts (F := F) d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) iV (Memref.isWhole_whole _) oV (Memref.isWhole_whole _)
            sV (Memref.isWhole_whole _) bV (Memref.isWhole_whole _) aV (Memref.isWhole_whole _)
            cc1_scratch3 cc1_scratch4 cc1_scoped0 cc1_scoped1 cc1_scoped2)
          fun _ => iprop((xPts (F := F) d qx fx ∗ iPts (F := F) d qi fi ∗ oPts (F := F) d L (AggBuf (F := F) d fx fi))
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 ()
      = SparseCore.onTile hcore1 hsub1 (fun c s => cc1__sc_body (coordsV c s)
          xV (Memref.isWhole_whole _) iV (Memref.isWhole_whole _) oV (Memref.isWhole_whole _)
          sV (Memref.isWhole_whole _) bV (Memref.isWhole_whole _) aV (Memref.isWhole_whole _)
          cc1_scratch3 cc1_scratch4 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ)
variable (XF : (d : Dev nD) → Valuation τ sig (Elt F) → v2'.ty.Contents (Elt F))

set_option maxRecDepth 16384 in
theorem tileObl (hbody : TileRule (F := F)) (hidx : ∀ d j, (fiv m XF d j).toNat < 100000) :
    (K (F := F)).TileObl (D (F := F)) 𝒱 (PP m XF (fun d => AggBuf (F := F) d) tile) v₀ 0 := by
  intro d c i O W hO _ _
  simp only [show (PP m XF (fun d => AggBuf (F := F) d) tile).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) _ _ (fxv m XF d) (fiv m XF d) (fov m XF d) (hidx d) O W hO).trans
    (wp_mono frame _ _ fun _ => obl_post)

end Cert.Proof.KI

end
-- ==== Proof.TileSetup.lean ====
/-
  The resources a tile's thread owns when its body starts, laid out: its five DMA semaphores at zero (the two the
  gathers complete on, the three of the index fetch and the two copy-outs) and its three scratch buffers (the index
  list, the gathered rows, the reduced rows), each beside the rest of what it owns.
-/
import proofs.«219373_g11218454577211_week1_w3_1378_31_alg».proof.Proof.TileDefs

noncomputable section

namespace Cert.Proof.Tile

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Body

variable (d : Dev nD) (L : grid1.Coords)

/-- The tile's thread. -/
abbrev thr : Thread nD τ := V d (cV L) (jV L)

/-- The tile's five DMA semaphores: the two the gathers complete on, the three of the copies. -/
abbrev cellG0 : GSem nD τ sig := (thr d L, .dma cc1_scratch3.sem)
abbrev cellG1 : GSem nD τ sig := (thr d L, .dma cc1_scratch4.sem)
abbrev cellC0 : GSem nD τ sig := (thr d L, .dma cc1_scoped0.sem)
abbrev cellC1 : GSem nD τ sig := (thr d L, .dma cc1_scoped1.sem)
abbrev cellC2 : GSem nD τ sig := (thr d L, .dma cc1_scoped2.sem)

theorem scoped_dma (s : DmaSem sig) (h : (SemLoc.dma s : SemLoc sig).isScoped .scVector = true) :
    ((thr d L, SemLoc.dma s) : GSem nD τ sig) ∈ ownCells (thr d L) := (mem_ownCells (g := (thr d L, SemLoc.dma s))).mpr ⟨rfl, h⟩

/-- The tile's own semaphores at zero: the five it names, and the rest. -/
theorem ownSems0_V :
    (ownSems0 (thr d L) : sProp 𝕄)
      = iprop(semVal (cellG0 d L) 0 ∗ semVal (cellG1 d L) 0 ∗ semVal (cellC0 d L) 0 ∗ semVal (cellC1 d L) 0 ∗ semVal (cellC2 d L) 0
          ∗ bigSep (((((ownCells (thr d L)).erase (cellG0 d L)).erase (cellG1 d L)).erase (cellC0 d L)).erase (cellC1 d L) |>.erase (cellC2 d L)) fun g => semVal g 0) := by
  unfold SparseCore.Cfg.ownSems0
  have ne : ∀ {a b : DmaSem sig}, a ≠ b → ((thr d L, SemLoc.dma a) : GSem nD τ sig) ≠ (thr d L, SemLoc.dma b) := by
    intro a b hab e; exact hab (by injection e with _ e2; injection e2)
  rw [SparseCore.bigSep_erase' (scoped_dma d L cc1_scratch3.sem (by decide)),
    SparseCore.bigSep_erase' (Finset.mem_erase.mpr ⟨ne (by decide), scoped_dma d L cc1_scratch4.sem (by decide)⟩),
    SparseCore.bigSep_erase' (Finset.mem_erase.mpr ⟨ne (by decide), Finset.mem_erase.mpr ⟨ne (by decide), scoped_dma d L cc1_scoped0.sem (by decide)⟩⟩),
    SparseCore.bigSep_erase' (Finset.mem_erase.mpr ⟨ne (by decide), Finset.mem_erase.mpr ⟨ne (by decide), Finset.mem_erase.mpr ⟨ne (by decide), scoped_dma d L cc1_scoped1.sem (by decide)⟩⟩⟩),
    SparseCore.bigSep_erase' (Finset.mem_erase.mpr ⟨ne (by decide), Finset.mem_erase.mpr ⟨ne (by decide), Finset.mem_erase.mpr ⟨ne (by decide), Finset.mem_erase.mpr ⟨ne (by decide), scoped_dma d L cc1_scoped2.sem (by decide)⟩⟩⟩⟩)]

theorem own_ref0 : (Proc.scVector (cV L) (jV L)).devRef cc1_scratch0 ∈ ownRefs (τ := τ) (sig := sig) (.scVector (cV L) (jV L)) :=
  SparseCore.Cfg.mem_ownRefs_of_owner (p := Proc.scVector (cV L) (jV L)) (b := (Proc.scVector (cV L) (jV L)).devRef cc1_scratch0) rfl
theorem own_ref1 : (Proc.scVector (cV L) (jV L)).devRef cc1_scratch1 ∈ ownRefs (τ := τ) (sig := sig) (.scVector (cV L) (jV L)) :=
  SparseCore.Cfg.mem_ownRefs_of_owner (p := Proc.scVector (cV L) (jV L)) (b := (Proc.scVector (cV L) (jV L)).devRef cc1_scratch1) rfl
theorem own_ref2 : (Proc.scVector (cV L) (jV L)).devRef cc1_scratch2 ∈ ownRefs (τ := τ) (sig := sig) (.scVector (cV L) (jV L)) :=
  SparseCore.Cfg.mem_ownRefs_of_owner (p := Proc.scVector (cV L) (jV L)) (b := (Proc.scVector (cV L) (jV L)).devRef cc1_scratch2) rfl

/-- The tile's own buffers: the index scratch, the row buffer, the output scratch, each at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  have ne : ∀ {a b : Ref sig .scVector}, a ≠ b → (Proc.scVector (cV L) (jV L)).devRef a ≠ (Proc.scVector (cV L) (jV L)).devRef b :=
    fun hab e => hab (Proc.devRef_injective _ e)
  refine (SparseCore.bigSep_erase' (own_ref0 L)).trans ?_
  rw [SparseCore.bigSep_erase' (Finset.mem_erase.mpr ⟨ne (by decide), own_ref1 L⟩),
    SparseCore.bigSep_erase' (Finset.mem_erase.mpr ⟨ne (by decide), Finset.mem_erase.mpr ⟨ne (by decide), own_ref2 L⟩⟩)]

end Body

end Cert.Proof.Tile

end
-- ==== Proof.TripRun.lean ====
/-
  One trip of a tile's loop, run once at a symbolic trip: from the table at two read shares, the index scratch
  at words in range, the row buffer and the output scratch at any contents and the gathers' two semaphores at zero,
  the trip's two gathers, their waits and its sixty-four reductions leave the output scratch at its former contents
  overwritten by sixty-four row pieces — eight rows of eight lane groups — whose values are terms of the table and
  the index words alone (the row buffer's former contents are covered by the two gathers before anything reads it).
  The list of pieces is read off the run, not written down.
-/
import proofs.«219373_g11218454577211_week1_w3_1378_31_alg».proof.Proof.TileSetup

noncomputable section

namespace Cert.Proof.Tile

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-- The two windows of the index scratch a trip's gathers read their row numbers from. -/
abbrev win2 (k : Fin (k1_t1_loop L).trips) : Memref sig .scVector .vmem S128 .i32 :=
  (sV).slice (Rect.unit (s := S14336) (k1_off2 L k) S128.size (k1_off2_inb L k)) (fun _ => rfl)
abbrev win3 (k : Fin (k1_t1_loop L).trips) : Memref sig .scVector .vmem S128 .i32 :=
  (sV).slice (Rect.unit (s := S14336) (k1_off3 L k) S128.size (k1_off3_inb L k)) (fun _ => rfl)

/-- What a trip starts from. -/
abbrev TripPre (qa qb : PosShare TreeShare) (fx : Buf (Elt F) (xLoc d)) (O : CellTallies nD τ sig (HIx 1)) (W' : Waits sig (HIx 1))
    (g : Buf (Elt F) ((sV).view.loc (V d (cV L) (jV L)))) (fb : Buf (Elt F) ((bV).view.loc (V d (cV L) (jV L))))
    (fa : Buf (Elt F) ((aV).view.loc (V d (cV L) (jV L)))) : sProp 𝕄 :=
  iprop(Transfers.MayWaits (V d (cV L) (jV L)) (default : HIx 1) O
      ∗ ((xV).view.loc (V d (cV L) (jV L)) ↦{qa} fx)
      ∗ ((xV).view.loc (V d (cV L) (jV L)) ↦{qb} fx)
      ∗ ((sV).view.loc (V d (cV L) (jV L)) ↦{fullShare} g)
      ∗ ((bV).view.loc (V d (cV L) (jV L)) ↦{fullShare} fb)
      ∗ ((aV).view.loc (V d (cV L) (jV L)) ↦{fullShare} fa)
      ∗ semVal (cellG0 d L) 0 ∗ semVal (cellG1 d L) 0
      ∗ owes (V d (cV L) (jV L)) O W')

/-- What it ends with: the output scratch overwritten by the pieces `P`. -/
abbrev TripPost (qa qb : PosShare TreeShare) (fx : Buf (Elt F) (xLoc d)) (O : CellTallies nD τ sig (HIx 1)) (W' : Waits sig (HIx 1))
    (g : Buf (Elt F) ((sV).view.loc (V d (cV L) (jV L))))
    (fa : Buf (Elt F) ((aV).view.loc (V d (cV L) (jV L)))) (P : List (View.Piece (Elt F) S448x128 .f32)) : sProp 𝕄 :=
  iprop(((xV).view.loc (V d (cV L) (jV L)) ↦{qa} fx)
      ∗ ((xV).view.loc (V d (cV L) (jV L)) ↦{qb} fx)
      ∗ ((sV).view.loc (V d (cV L) (jV L)) ↦{fullShare} g)
      ∗ (∃ f, (bV).view.loc (V d (cV L) (jV L)) ↦{fullShare} f)
      ∗ ((aV).view.loc (V d (cV L) (jV L)) ↦{fullShare} (aV).view.writes (Elt F) fa P)
      ∗ semVal (cellG0 d L) 0 ∗ semVal (cellG1 d L) 0
      ∗ ∃ W'', ⌜∀ p ∈ W'', p ∈ W' ∨ p.2 = none⌝ ∗ owes (V d (cV L) (jV L)) O W'')

set_option maxHeartbeats 4000000 in
/-- The trip's run: the pieces it stores, and the triple. -/
def trip (qa qb : PosShare TreeShare) (fx : Buf (Elt F) (xLoc d)) (O : CellTallies nD τ sig (HIx 1))
    (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000) :
    Σ' P : List (View.Piece (Elt F) S448x128 .f32), ∀ (W' : Waits sig (HIx 1))
      (fb : Buf (Elt F) ((bV).view.loc (V d (cV L) (jV L)))) (fa : Buf (Elt F) ((aV).view.loc (V d (cV L) (jV L)))),
      TripPre d L qa qb fx O W' g fb fa
        ⊢ wp frame (wpE (defs₀ (F := F)) 𝒱₀ (V d (cV L) (jV L)) none) Set.univ
            (k1_t1_body L xV (Memref.isWhole_whole _) iV (Memref.isWhole_whole _) oV (Memref.isWhole_whole _)
              sV (Memref.isWhole_whole _) bV (Memref.isWhole_whole _) aV (Memref.isWhole_whole _)
              cc1_scratch3 cc1_scratch4 cc1_scoped0 cc1_scoped1 cc1_scoped2 k ())
            fun _ => TripPost d L qa qb fx O W' g fa P := by
  refine ⟨?P, fun W' fb fa => ?run⟩
  case run =>
    iintro ⟨#Hmw, HxA, HxB, Hs, Hb, Ha, HsG0, HsG1, HO⟩
    unfold k1_t1_body
    sl_exec_parts
    sl_step
    isplitl [HxA]; · iexact HxA
    isplitl [HxB]; · iexact HxB
    isplitl [Hs]; · iexact Hs
    isplitl [Hb]; · iexists _; iexact Hb
    isplitl [Ha]; · iexact Ha
    isplitl [HsG0]; · iexact HsG0
    isplitl [HsG1]; · iexact HsG1
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp

end Cert.Proof.Tile

end
-- ==== Proof.TileLeaf.lean ====
/-
  Leaf facts of one SparseCore tile's body: how many chunks it runs, which word of the flat index list lands in
  which word of its index scratch, and which table row each gathered row is.

  Tile (c, s) starts at hyperedge slot off = 640 s + 448 c and runs 56 - 32 c chunks.  It copies words
  [32 off, 32 off + 14336) of the flat list into its scratch, so scratch word j is list word 32 off + j.  In chunk k
  the first gather fills rows 0..127 of the row buffer from the table rows named by scratch words 256 k .. 256 k + 127,
  the second rows 128..255 from the words 256 k + 128 .. 256 k + 255: gathered row x is the table row whose number is
  the scratch word, lane by lane.
-/
import proofs.«219373_g11218454577211_week1_w3_1378_31_alg».proof.Proof.TileDefs

noncomputable section

namespace Cert.Proof.Tile

open Cert.KernelIdeal Cert.KernelIdeal.Gen Cert.Proof.KI Idealize.ShloMosaic

variable {F : FTy → Type}

/-- Word `n` of the index scratch (modulo its length: total). -/
def sIx (n : ℕ) : S14336.Idx := fun | 0 => ⟨n % 14336, Nat.mod_lt _ (by decide : 0 < 14336)⟩ | ⟨_ + 1, h⟩ => absurd h (Nat.not_lt.2 (Nat.le_add_left _ _))
/-- The first hyperedge slot of the tile at grid coordinates `L`. -/
def off (L : grid1.Coords) : ℕ := 640 * (L 1).val + 448 * (L 0).val

/-- The tile on SparseCore `c` runs `56 - 32 c` chunks. -/
theorem trips_eq : ∀ L : grid1.Coords, (k1_t1_loop L).trips = 56 - 32 * (L 0).val := by decide +kernel

/-- Word `j` of the slice of the flat list the tile copies in is list word `32 off + j`. -/
theorem fetch_eq (L : grid1.Coords) (fi : S335872.Idx → BitVec 32) (j : S14336.Idx) :
    ((iV).slice (Rect.unit (s := S335872) (k1_off1 L) S14336.size (k1_off1_inb L)) (fun _ => rfl)).view.read (Elt F) fi j
      = fi (iIx (32 * off L + (j 0).val)) := by
  have hL0 : (L 0).val < 2 := (L 0).isLt
  have hL1 : (L 1).val < 16 := (L 1).isLt
  have hj : (j 0).val < 14336 := (j 0).isLt
  show fi (((iV).slice (Rect.unit (s := S335872) (k1_off1 L) S14336.size (k1_off1_inb L)) (fun _ => rfl)).view.emb j) = _
  congr 1
  funext a
  apply Fin.ext
  match a with
  | ⟨0, _⟩ =>
    show k1_off1 L 0 + 1 * (j 0).val = (32 * off L + (j 0).val) % 335872
    rw [k1_off1_eq]
    show 20480 * (L 1).val + 14336 * (L 0).val + 1 * (j 0).val = (32 * (640 * (L 1).val + 448 * (L 0).val) + (j 0).val) % 335872
    omega

/-- Row `x 0` of the first gather's destination is the table row whose number is scratch word `256 k + x 0`, lane by lane. -/
theorem gather0_eq (fx : S100000x128.Idx → F .f32) (g : S14336.Idx → BitVec 32) (L : grid1.Coords) (k : Fin (k1_t1_loop L).trips)
    (hin : ∀ x, (((sV).slice (Rect.unit (s := S14336) (k1_off2 L k) S128.size (k1_off2_inb L k)) (fun _ => rfl)).view.read (Elt F) g x).toNat < 100000)
    (x : S128x128.Idx) :
    SparseCore.gatherPayload gathers_S100000x128_S128x128
        (View.read (Elt F) ((xV).slice (Rect.unit (s := S100000x128) ![0, 0] S100000x128.size inb_S100000x128_S100000x128_0_0) (fun _ => rfl)).view fx)
        (SparseCore.rows (View.read (Elt F) ((sV).slice (Rect.unit (s := S14336) (k1_off2 L k) S128.size (k1_off2_inb L k)) (fun _ => rfl)).view g) rfl hin) x
      = fx (xIx (g (sIx (256 * k.val + (x 0).val))).toNat (x 1).val) := by
  have hk : k.val < 56 := lt_of_lt_of_le k.isLt (by rw [trips_eq]; omega)
  have hx0 : (x 0).val < 128 := (x 0).isLt
  have hx1 : (x 1).val < 128 := (x 1).isLt
  -- the scratch word a destination row's offset names
  have hword : ∀ y : S128.Idx, (y 0).val = (x 0).val →
      ((sV).slice (Rect.unit (s := S14336) (k1_off2 L k) S128.size (k1_off2_inb L k)) (fun _ => rfl)).view.read (Elt F) g y
        = g (sIx (256 * k.val + (x 0).val)) := by
    intro y hy
    show g (((sV).slice (Rect.unit (s := S14336) (k1_off2 L k) S128.size (k1_off2_inb L k)) (fun _ => rfl)).view.emb y) = _
    congr 1
    funext a
    apply Fin.ext
    match a with
    | ⟨0, _⟩ =>
      show k1_off2 L k 0 + 1 * (y 0).val = (256 * k.val + (x 0).val) % 14336
      rw [k1_off2_eq, hy]
      show 256 * k.val + 1 * (x 0).val = (256 * k.val + (x 0).val) % 14336
      omega
  have hy0 : ((S128.rowMajor.symm (((x 0).cast (by decide : S128x128.size 0 = S128.numel)))) 0).val = (x 0).val := by
    have := Shape.rowMajor_val_one (S128.rowMajor.symm (((x 0).cast (by decide : S128x128.size 0 = S128.numel))))
    rw [Equiv.apply_symm_apply] at this
    exact this.symm
  have hlt : (g (sIx (256 * k.val + (x 0).val))).toNat < 100000 := by
    have := hin (S128.rowMajor.symm (((x 0).cast (by decide : S128x128.size 0 = S128.numel))))
    rwa [hword _ hy0] at this
  unfold SparseCore.gatherPayload
  show fx (((xV).slice (Rect.unit (s := S100000x128) ![0, 0] S100000x128.size inb_S100000x128_S100000x128_0_0) (fun _ => rfl)).view.emb _) = _
  congr 1
  funext b
  apply Fin.ext
  match b with
  | ⟨0, _⟩ =>
    show 0 + 1 * ((gathers_S100000x128_S128x128.idx _ x) 0).val = (g (sIx (256 * k.val + (x 0).val))).toNat % 100000
    rw [show (gathers_S100000x128_S128x128.idx _ x) 0 = _ from Shape.Gathers.idx_axis gathers_S100000x128_S128x128 _ x]
    show 0 + 1 * (((sV).slice (Rect.unit (s := S14336) (k1_off2 L k) S128.size (k1_off2_inb L k)) (fun _ => rfl)).view.read (Elt F) g
      (S128.rowMajor.symm (((x 0).cast (by decide : S128x128.size 0 = S128.numel))))).toNat = _
    rw [hword _ hy0]
    omega
  | ⟨1, _⟩ =>
    show 0 + 1 * ((gathers_S100000x128_S128x128.idx _ x) 1).val = (x 1).val % 128
    rw [Shape.Gathers.idx_of_ne gathers_S100000x128_S128x128 _ x 1 (by decide)]
    show 0 + 1 * (x 1).val = (x 1).val % 128
    omega

/-- Row `x 0` of the second gather's destination is the table row whose number is scratch word `256 k + 128 + x 0`, lane by lane. -/
theorem gather1_eq (fx : S100000x128.Idx → F .f32) (g : S14336.Idx → BitVec 32) (L : grid1.Coords) (k : Fin (k1_t1_loop L).trips)
    (hin : ∀ x, (((sV).slice (Rect.unit (s := S14336) (k1_off3 L k) S128.size (k1_off3_inb L k)) (fun _ => rfl)).view.read (Elt F) g x).toNat < 100000)
    (x : S128x128.Idx) :
    SparseCore.gatherPayload gathers_S100000x128_S128x128
        (View.read (Elt F) ((xV).slice (Rect.unit (s := S100000x128) ![0, 0] S100000x128.size inb_S100000x128_S100000x128_0_0) (fun _ => rfl)).view fx)
        (SparseCore.rows (View.read (Elt F) ((sV).slice (Rect.unit (s := S14336) (k1_off3 L k) S128.size (k1_off3_inb L k)) (fun _ => rfl)).view g) rfl hin) x
      = fx (xIx (g (sIx (256 * k.val + 128 + (x 0).val))).toNat (x 1).val) := by
  have hk : k.val < 56 := lt_of_lt_of_le k.isLt (by rw [trips_eq]; omega)
  have hx0 : (x 0).val < 128 := (x 0).isLt
  have hx1 : (x 1).val < 128 := (x 1).isLt
  -- the scratch word a destination row's offset names
  have hword : ∀ y : S128.Idx, (y 0).val = (x 0).val →
      ((sV).slice (Rect.unit (s := S14336) (k1_off3 L k) S128.size (k1_off3_inb L k)) (fun _ => rfl)).view.read (Elt F) g y
        = g (sIx (256 * k.val + 128 + (x 0).val)) := by
    intro y hy
    show g (((sV).slice (Rect.unit (s := S14336) (k1_off3 L k) S128.size (k1_off3_inb L k)) (fun _ => rfl)).view.emb y) = _
    congr 1
    funext a
    apply Fin.ext
    match a with
    | ⟨0, _⟩ =>
      show k1_off3 L k 0 + 1 * (y 0).val = (256 * k.val + 128 + (x 0).val) % 14336
      rw [k1_off3_eq, hy]
      show 256 * k.val + 128 + 1 * (x 0).val = (256 * k.val + 128 + (x 0).val) % 14336
      omega
  have hy0 : ((S128.rowMajor.symm (((x 0).cast (by decide : S128x128.size 0 = S128.numel)))) 0).val = (x 0).val := by
    have := Shape.rowMajor_val_one (S128.rowMajor.symm (((x 0).cast (by decide : S128x128.size 0 = S128.numel))))
    rw [Equiv.apply_symm_apply] at this
    exact this.symm
  have hlt : (g (sIx (256 * k.val + 128 + (x 0).val))).toNat < 100000 := by
    have := hin (S128.rowMajor.symm (((x 0).cast (by decide : S128x128.size 0 = S128.numel))))
    rwa [hword _ hy0] at this
  unfold SparseCore.gatherPayload
  show fx (((xV).slice (Rect.unit (s := S100000x128) ![0, 0] S100000x128.size inb_S100000x128_S100000x128_0_0) (fun _ => rfl)).view.emb _) = _
  congr 1
  funext b
  apply Fin.ext
  match b with
  | ⟨0, _⟩ =>
    show 0 + 1 * ((gathers_S100000x128_S128x128.idx _ x) 0).val = (g (sIx (256 * k.val + 128 + (x 0).val))).toNat % 100000
    rw [show (gathers_S100000x128_S128x128.idx _ x) 0 = _ from Shape.Gathers.idx_axis gathers_S100000x128_S128x128 _ x]
    show 0 + 1 * (((sV).slice (Rect.unit (s := S14336) (k1_off3 L k) S128.size (k1_off3_inb L k)) (fun _ => rfl)).view.read (Elt F) g
      (S128.rowMajor.symm (((x 0).cast (by decide : S128x128.size 0 = S128.numel))))).toNat = _
    rw [hword _ hy0]
    omega
  | ⟨1, _⟩ =>
    show 0 + 1 * ((gathers_S100000x128_S128x128.idx _ x) 1).val = (x 1).val % 128
    rw [Shape.Gathers.idx_of_ne gathers_S100000x128_S128x128 _ x 1 (by decide)]
    show 0 + 1 * (x 1).val = (x 1).val % 128
    omega

end Cert.Proof.Tile

end
-- ==== Proof.TripDefs.lean ====
/-
  Names for what a trip leaves: the row buffer after the trip's two gathers as the run lists it, sixteen lanes of
  one of its rows as a vector, the value an entry of the output must have (the aggregate's entry at the tile's
  offset), and the sixty-four row pieces a trip stores, in the order the run lists them (last stored first).
-/
import proofs.«219373_g11218454577211_week1_w3_1378_31_alg».proof.Proof.TripRun
import proofs.«219373_g11218454577211_week1_w3_1378_31_alg».proof.Proof.TileLeaf

noncomputable section

namespace Cert.Proof.Tile

open Cert.KernelIdeal Cert.KernelIdeal.Gen Cert.Proof.KI
open Idealize.ShloMosaic
open Idealize.ShloMosaic.SparseCore (S V T)

variable {F : FTy → Type} [FloatOps F] (d : Dev nD) (L : grid1.Coords)

/-- The row buffer after a trip's two gathers, as the run lists it: rows 128–255, then rows 0–127. -/
abbrev bufPieces (fx : Buf (Elt F) (xLoc d)) (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000) : List (View.Piece (Elt F) S256x128 .f32) :=
  [⟨Rect.unit (s := S256x128) ![128, 0] S128x128.size inb_S256x128_S128x128_128_0, trip.sl.gather1 d L fx k g hin3⟩,
    ⟨Rect.unit (s := S256x128) ![0, 0] S128x128.size inb_S256x128_S128x128_0_0, trip.sl.gather0 d L fx k g hin2⟩]

omit [FloatOps F] in
theorem inb_leaf (ρ c : ℕ) : ∀ a, (![ρ % 256, c % 113] : Fin 2 → ℕ) a + S1x16.size a ≤ S256x128.size a := by
  intro a
  have h1 := Nat.mod_lt ρ (by decide : 0 < 256)
  have h2 := Nat.mod_lt c (by decide : 0 < 113)
  match a with
  | 0 => show ρ % 256 + 1 ≤ 256; omega
  | 1 => show c % 113 + 16 ≤ 128; omega

/-- Lanes `c … c+16` of row `ρ` of the row buffer after the two gathers, as a vector of sixteen (row and first lane
    taken modulo their ranges: total). -/
def leaf (fx : Buf (Elt F) (xLoc d)) (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000) (ρ c : ℕ) : FVec F S16 .f32 :=
  shapeCast S16 ((bV).view.readCov (bufPieces d L fx k g hin2 hin3)
    (Rect.unit (s := S256x128) ![ρ % 256, c % 113] S1x16.size (inb_leaf ρ c)).toLoadRect) shapeCasts_S1x16_S16

/-- Entry (row `j`, lane `e`) of the aggregate of the table along the index list. -/
def ent (fx : Buf (Elt F) (xLoc d)) (fi : Buf (Elt F) (iLoc d)) (j e : ℕ) : F .f32 :=
  Agg.entry (F := F) (fun a e => fx (xIx a e)) (fun n => fi (iIx n)) j e

theorem AggBuf_apply (fx : Buf (Elt F) (xLoc d)) (fi : Buf (Elt F) (iLoc d)) (p : S10240x128.Idx) :
    AggBuf d fx fi p = ent d fx fi (p 0).val (p 1).val := rfl

/-- What row `y 0` of the tile's output scratch must hold: the aggregate's row at the tile's offset. -/
def Gout (fx : Buf (Elt F) (xLoc d)) (fi : Buf (Elt F) (iLoc d)) : S448x128.Idx → F .f32 :=
  fun y => ent d fx fi (off L + (y 0).val) (y 1).val

omit [FloatOps F] in
theorem inb_piece (k : Fin (k1_t1_loop L).trips) (n : ℕ) :
    ∀ a, (![(8 * k.val + n / 8) % 448, 16 * (n % 8)] : Fin 2 → ℕ) a + S1x16.size a ≤ S448x128.size a := by
  intro a
  have h1 := Nat.mod_lt (8 * k.val + n / 8) (by decide : 0 < 448)
  have h2 := Nat.mod_lt n (by decide : 0 < 8)
  match a with
  | 0 => show (8 * k.val + n / 8) % 448 + 1 ≤ 448; omega
  | 1 => show 16 * (n % 8) + 16 ≤ 128; omega

/-- The rectangle of the piece numbered `n = 8 h + dd`: row `8 k + h` of the output scratch, lanes `16 dd … 16 dd + 16`. -/
def pieceRect (k : Fin (k1_t1_loop L).trips) (n : ℕ) : Rect S448x128 :=
  Rect.unit (s := S448x128) ![(8 * k.val + n / 8) % 448, 16 * (n % 8)] S1x16.size (inb_piece L k n)

/-- The sixty-four rectangles in the run's order: the last stored (number 63) first. -/
def rectList (k : Fin (k1_t1_loop L).trips) : List (Rect S448x128) :=
  (List.range 64).reverse.map (pieceRect L k)

end Cert.Proof.Tile

end
-- ==== Proof.TripRects.lean ====
/-
  The sixty-four rectangles a trip stores through, in closed form: the store of row digit r through the rectangle
  at lane group dd is the piece numbered 8 r + dd (row 8 k + r of the output scratch, lanes 16 dd … 16 dd + 16),
  and the value the output must have there is the aggregate's entry at row (tile offset + 8 k + r).
-/
import proofs.«219373_g11218454577211_week1_w3_1378_31_alg».proof.Proof.TripDefs

noncomputable section

namespace Cert.Proof.Tile

open Cert.KernelIdeal Cert.KernelIdeal.Gen Cert.Proof.KI
open Idealize.ShloMosaic
open Idealize.ShloMosaic.SparseCore (S V T)

variable {F : FTy → Type} [FloatOps F] (d : Dev nD) (L : grid1.Coords)

omit [FloatOps F] in
theorem rect_unit_congr {s : Shape} {off off' size : Fin s.rank → ℕ} {inb : ∀ a, off a + size a ≤ s.size a}
    {inb' : ∀ a, off' a + size a ≤ s.size a} (e : off = off') : Rect.unit off size inb = Rect.unit off' size inb' := by
  subst e; rfl

omit [FloatOps F] in
theorem rect_off4 (k : Fin (k1_t1_loop L).trips) (r : Fin 8) :
    Rect.unit (s := S448x128) (k1_off4 L k (BitVec.ofNat 32 r.val)) S1x16.size (k1_off4_inb L k r) = pieceRect L k (8 * r.val + 0) := by
  unfold pieceRect
  have hk : k.val < 56 := lt_of_lt_of_le k.isLt (k1_t1_abs L).2.1
  have hr := r.isLt
  have h1 : (8 * r.val + 0) / 8 = r.val := by omega
  have h2 : (8 * r.val + 0) % 8 = 0 := by omega
  have h3 : (8 * k.val + r.val) % 448 = 8 * k.val + r.val := Nat.mod_eq_of_lt (by omega)
  refine rect_unit_congr ?_
  rw [k1_off4_eq L k r, h1, h2, h3]

theorem gout_off4 (fx : Buf (Elt F) (xLoc d)) (fi : Buf (Elt F) (iLoc d)) (k : Fin (k1_t1_loop L).trips) (r : Fin 8) (x : S1x16.Idx) :
    Gout d L fx fi ((Rect.unit (s := S448x128) (k1_off4 L k (BitVec.ofNat 32 r.val)) S1x16.size (k1_off4_inb L k r)).emb x)
      = ent d fx fi (off L + (8 * k.val + r.val)) (16 * 0 + (x 1).val) := by
  unfold Gout
  have h0 : (x 0).val = 0 := by have := (x 0).isLt; change (x 0).val < 1 at this; omega
  rw [Rect.emb_apply, Rect.emb_apply]
  simp only [Rect.off_unit, Rect.stride_unit, k1_off4_eq L k r, Matrix.cons_val_zero, Matrix.cons_val_one, Nat.one_mul, h0, Nat.add_zero]

omit [FloatOps F] in
theorem rect_off5 (k : Fin (k1_t1_loop L).trips) (r : Fin 8) :
    Rect.unit (s := S448x128) (k1_off5 L k (BitVec.ofNat 32 r.val)) S1x16.size (k1_off5_inb L k r) = pieceRect L k (8 * r.val + 1) := by
  unfold pieceRect
  have hk : k.val < 56 := lt_of_lt_of_le k.isLt (k1_t1_abs L).2.1
  have hr := r.isLt
  have h1 : (8 * r.val + 1) / 8 = r.val := by omega
  have h2 : (8 * r.val + 1) % 8 = 1 := by omega
  have h3 : (8 * k.val + r.val) % 448 = 8 * k.val + r.val := Nat.mod_eq_of_lt (by omega)
  refine rect_unit_congr ?_
  rw [k1_off5_eq L k r, h1, h2, h3]

theorem gout_off5 (fx : Buf (Elt F) (xLoc d)) (fi : Buf (Elt F) (iLoc d)) (k : Fin (k1_t1_loop L).trips) (r : Fin 8) (x : S1x16.Idx) :
    Gout d L fx fi ((Rect.unit (s := S448x128) (k1_off5 L k (BitVec.ofNat 32 r.val)) S1x16.size (k1_off5_inb L k r)).emb x)
      = ent d fx fi (off L + (8 * k.val + r.val)) (16 * 1 + (x 1).val) := by
  unfold Gout
  have h0 : (x 0).val = 0 := by have := (x 0).isLt; change (x 0).val < 1 at this; omega
  rw [Rect.emb_apply, Rect.emb_apply]
  simp only [Rect.off_unit, Rect.stride_unit, k1_off5_eq L k r, Matrix.cons_val_zero, Matrix.cons_val_one, Nat.one_mul, h0, Nat.add_zero]

omit [FloatOps F] in
theorem rect_off6 (k : Fin (k1_t1_loop L).trips) (r : Fin 8) :
    Rect.unit (s := S448x128) (k1_off6 L k (BitVec.ofNat 32 r.val)) S1x16.size (k1_off6_inb L k r) = pieceRect L k (8 * r.val + 2) := by
  unfold pieceRect
  have hk : k.val < 56 := lt_of_lt_of_le k.isLt (k1_t1_abs L).2.1
  have hr := r.isLt
  have h1 : (8 * r.val + 2) / 8 = r.val := by omega
  have h2 : (8 * r.val + 2) % 8 = 2 := by omega
  have h3 : (8 * k.val + r.val) % 448 = 8 * k.val + r.val := Nat.mod_eq_of_lt (by omega)
  refine rect_unit_congr ?_
  rw [k1_off6_eq L k r, h1, h2, h3]

theorem gout_off6 (fx : Buf (Elt F) (xLoc d)) (fi : Buf (Elt F) (iLoc d)) (k : Fin (k1_t1_loop L).trips) (r : Fin 8) (x : S1x16.Idx) :
    Gout d L fx fi ((Rect.unit (s := S448x128) (k1_off6 L k (BitVec.ofNat 32 r.val)) S1x16.size (k1_off6_inb L k r)).emb x)
      = ent d fx fi (off L + (8 * k.val + r.val)) (16 * 2 + (x 1).val) := by
  unfold Gout
  have h0 : (x 0).val = 0 := by have := (x 0).isLt; change (x 0).val < 1 at this; omega
  rw [Rect.emb_apply, Rect.emb_apply]
  simp only [Rect.off_unit, Rect.stride_unit, k1_off6_eq L k r, Matrix.cons_val_zero, Matrix.cons_val_one, Nat.one_mul, h0, Nat.add_zero]

omit [FloatOps F] in
theorem rect_off7 (k : Fin (k1_t1_loop L).trips) (r : Fin 8) :
    Rect.unit (s := S448x128) (k1_off7 L k (BitVec.ofNat 32 r.val)) S1x16.size (k1_off7_inb L k r) = pieceRect L k (8 * r.val + 3) := by
  unfold pieceRect
  have hk : k.val < 56 := lt_of_lt_of_le k.isLt (k1_t1_abs L).2.1
  have hr := r.isLt
  have h1 : (8 * r.val + 3) / 8 = r.val := by omega
  have h2 : (8 * r.val + 3) % 8 = 3 := by omega
  have h3 : (8 * k.val + r.val) % 448 = 8 * k.val + r.val := Nat.mod_eq_of_lt (by omega)
  refine rect_unit_congr ?_
  rw [k1_off7_eq L k r, h1, h2, h3]

theorem gout_off7 (fx : Buf (Elt F) (xLoc d)) (fi : Buf (Elt F) (iLoc d)) (k : Fin (k1_t1_loop L).trips) (r : Fin 8) (x : S1x16.Idx) :
    Gout d L fx fi ((Rect.unit (s := S448x128) (k1_off7 L k (BitVec.ofNat 32 r.val)) S1x16.size (k1_off7_inb L k r)).emb x)
      = ent d fx fi (off L + (8 * k.val + r.val)) (16 * 3 + (x 1).val) := by
  unfold Gout
  have h0 : (x 0).val = 0 := by have := (x 0).isLt; change (x 0).val < 1 at this; omega
  rw [Rect.emb_apply, Rect.emb_apply]
  simp only [Rect.off_unit, Rect.stride_unit, k1_off7_eq L k r, Matrix.cons_val_zero, Matrix.cons_val_one, Nat.one_mul, h0, Nat.add_zero]

omit [FloatOps F] in
theorem rect_off8 (k : Fin (k1_t1_loop L).trips) (r : Fin 8) :
    Rect.unit (s := S448x128) (k1_off8 L k (BitVec.ofNat 32 r.val)) S1x16.size (k1_off8_inb L k r) = pieceRect L k (8 * r.val + 4) := by
  unfold pieceRect
  have hk : k.val < 56 := lt_of_lt_of_le k.isLt (k1_t1_abs L).2.1
  have hr := r.isLt
  have h1 : (8 * r.val + 4) / 8 = r.val := by omega
  have h2 : (8 * r.val + 4) % 8 = 4 := by omega
  have h3 : (8 * k.val + r.val) % 448 = 8 * k.val + r.val := Nat.mod_eq_of_lt (by omega)
  refine rect_unit_congr ?_
  rw [k1_off8_eq L k r, h1, h2, h3]

theorem gout_off8 (fx : Buf (Elt F) (xLoc d)) (fi : Buf (Elt F) (iLoc d)) (k : Fin (k1_t1_loop L).trips) (r : Fin 8) (x : S1x16.Idx) :
    Gout d L fx fi ((Rect.unit (s := S448x128) (k1_off8 L k (BitVec.ofNat 32 r.val)) S1x16.size (k1_off8_inb L k r)).emb x)
      = ent d fx fi (off L + (8 * k.val + r.val)) (16 * 4 + (x 1).val) := by
  unfold Gout
  have h0 : (x 0).val = 0 := by have := (x 0).isLt; change (x 0).val < 1 at this; omega
  rw [Rect.emb_apply, Rect.emb_apply]
  simp only [Rect.off_unit, Rect.stride_unit, k1_off8_eq L k r, Matrix.cons_val_zero, Matrix.cons_val_one, Nat.one_mul, h0, Nat.add_zero]

omit [FloatOps F] in
theorem rect_off9 (k : Fin (k1_t1_loop L).trips) (r : Fin 8) :
    Rect.unit (s := S448x128) (k1_off9 L k (BitVec.ofNat 32 r.val)) S1x16.size (k1_off9_inb L k r) = pieceRect L k (8 * r.val + 5) := by
  unfold pieceRect
  have hk : k.val < 56 := lt_of_lt_of_le k.isLt (k1_t1_abs L).2.1
  have hr := r.isLt
  have h1 : (8 * r.val + 5) / 8 = r.val := by omega
  have h2 : (8 * r.val + 5) % 8 = 5 := by omega
  have h3 : (8 * k.val + r.val) % 448 = 8 * k.val + r.val := Nat.mod_eq_of_lt (by omega)
  refine rect_unit_congr ?_
  rw [k1_off9_eq L k r, h1, h2, h3]

theorem gout_off9 (fx : Buf (Elt F) (xLoc d)) (fi : Buf (Elt F) (iLoc d)) (k : Fin (k1_t1_loop L).trips) (r : Fin 8) (x : S1x16.Idx) :
    Gout d L fx fi ((Rect.unit (s := S448x128) (k1_off9 L k (BitVec.ofNat 32 r.val)) S1x16.size (k1_off9_inb L k r)).emb x)
      = ent d fx fi (off L + (8 * k.val + r.val)) (16 * 5 + (x 1).val) := by
  unfold Gout
  have h0 : (x 0).val = 0 := by have := (x 0).isLt; change (x 0).val < 1 at this; omega
  rw [Rect.emb_apply, Rect.emb_apply]
  simp only [Rect.off_unit, Rect.stride_unit, k1_off9_eq L k r, Matrix.cons_val_zero, Matrix.cons_val_one, Nat.one_mul, h0, Nat.add_zero]

omit [FloatOps F] in
theorem rect_off10 (k : Fin (k1_t1_loop L).trips) (r : Fin 8) :
    Rect.unit (s := S448x128) (k1_off10 L k (BitVec.ofNat 32 r.val)) S1x16.size (k1_off10_inb L k r) = pieceRect L k (8 * r.val + 6) := by
  unfold pieceRect
  have hk : k.val < 56 := lt_of_lt_of_le k.isLt (k1_t1_abs L).2.1
  have hr := r.isLt
  have h1 : (8 * r.val + 6) / 8 = r.val := by omega
  have h2 : (8 * r.val + 6) % 8 = 6 := by omega
  have h3 : (8 * k.val + r.val) % 448 = 8 * k.val + r.val := Nat.mod_eq_of_lt (by omega)
  refine rect_unit_congr ?_
  rw [k1_off10_eq L k r, h1, h2, h3]

theorem gout_off10 (fx : Buf (Elt F) (xLoc d)) (fi : Buf (Elt F) (iLoc d)) (k : Fin (k1_t1_loop L).trips) (r : Fin 8) (x : S1x16.Idx) :
    Gout d L fx fi ((Rect.unit (s := S448x128) (k1_off10 L k (BitVec.ofNat 32 r.val)) S1x16.size (k1_off10_inb L k r)).emb x)
      = ent d fx fi (off L + (8 * k.val + r.val)) (16 * 6 + (x 1).val) := by
  unfold Gout
  have h0 : (x 0).val = 0 := by have := (x 0).isLt; change (x 0).val < 1 at this; omega
  rw [Rect.emb_apply, Rect.emb_apply]
  simp only [Rect.off_unit, Rect.stride_unit, k1_off10_eq L k r, Matrix.cons_val_zero, Matrix.cons_val_one, Nat.one_mul, h0, Nat.add_zero]

omit [FloatOps F] in
theorem rect_off11 (k : Fin (k1_t1_loop L).trips) (r : Fin 8) :
    Rect.unit (s := S448x128) (k1_off11 L k (BitVec.ofNat 32 r.val)) S1x16.size (k1_off11_inb L k r) = pieceRect L k (8 * r.val + 7) := by
  unfold pieceRect
  have hk : k.val < 56 := lt_of_lt_of_le k.isLt (k1_t1_abs L).2.1
  have hr := r.isLt
  have h1 : (8 * r.val + 7) / 8 = r.val := by omega
  have h2 : (8 * r.val + 7) % 8 = 7 := by omega
  have h3 : (8 * k.val + r.val) % 448 = 8 * k.val + r.val := Nat.mod_eq_of_lt (by omega)
  refine rect_unit_congr ?_
  rw [k1_off11_eq L k r, h1, h2, h3]

theorem gout_off11 (fx : Buf (Elt F) (xLoc d)) (fi : Buf (Elt F) (iLoc d)) (k : Fin (k1_t1_loop L).trips) (r : Fin 8) (x : S1x16.Idx) :
    Gout d L fx fi ((Rect.unit (s := S448x128) (k1_off11 L k (BitVec.ofNat 32 r.val)) S1x16.size (k1_off11_inb L k r)).emb x)
      = ent d fx fi (off L + (8 * k.val + r.val)) (16 * 7 + (x 1).val) := by
  unfold Gout
  have h0 : (x 0).val = 0 := by have := (x 0).isLt; change (x 0).val < 1 at this; omega
  rw [Rect.emb_apply, Rect.emb_apply]
  simp only [Rect.off_unit, Rect.stride_unit, k1_off11_eq L k r, Matrix.cons_val_zero, Matrix.cons_val_one, Nat.one_mul, h0, Nat.add_zero]

end Cert.Proof.Tile

end
-- ==== Proof.TripPieces.lean ====
/-
  The pieces a trip stores, read off its run: their rectangles are the sixty-four of the closed form, in order, and
  each piece's value at a lane is the five-level pairwise sum of the thirty-two gathered rows of its group at that
  lane times the scale word — by unfolding the run's named values — hence, given that such a sum is the aggregate's
  entry, each piece is a block of the one function the output scratch must hold.
-/
import proofs.«219373_g11218454577211_week1_w3_1378_31_alg».proof.Proof.TripRects

set_option maxRecDepth 65536

noncomputable section

namespace Cert.Proof.Tile

open Cert.KernelIdeal Cert.KernelIdeal.Gen Cert.Proof.KI
open Idealize.ShloMosaic
open Idealize.ShloMosaic.SparseCore (S V T)
open Idealize.ShloMosaic.SparseCore.Cfg (HIx)
open Idealize.SL Idealize.SL.RA

variable {F : FTy → Type} [FloatOps F] (d : Dev nD) (L : grid1.Coords)

set_option maxHeartbeats 4000000 in
theorem rects_eq (qa qb : PosShare TreeShare) (fx : Buf (Elt F) (xLoc d)) (O : CellTallies nD τ sig (HIx 1))
    (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000) :
    (trip d L qa qb fx O k g hin2 hin3).1.map (fun p => p.1) = rectList L k := by
  rw [show rectList L k = [pieceRect L k 63, pieceRect L k 62, pieceRect L k 61, pieceRect L k 60, pieceRect L k 59, pieceRect L k 58, pieceRect L k 57, pieceRect L k 56, pieceRect L k 55, pieceRect L k 54, pieceRect L k 53, pieceRect L k 52, pieceRect L k 51, pieceRect L k 50, pieceRect L k 49, pieceRect L k 48, pieceRect L k 47, pieceRect L k 46, pieceRect L k 45, pieceRect L k 44, pieceRect L k 43, pieceRect L k 42, pieceRect L k 41, pieceRect L k 40, pieceRect L k 39, pieceRect L k 38, pieceRect L k 37, pieceRect L k 36, pieceRect L k 35, pieceRect L k 34, pieceRect L k 33, pieceRect L k 32, pieceRect L k 31, pieceRect L k 30, pieceRect L k 29, pieceRect L k 28, pieceRect L k 27, pieceRect L k 26, pieceRect L k 25, pieceRect L k 24, pieceRect L k 23, pieceRect L k 22, pieceRect L k 21, pieceRect L k 20, pieceRect L k 19, pieceRect L k 18, pieceRect L k 17, pieceRect L k 16, pieceRect L k 15, pieceRect L k 14, pieceRect L k 13, pieceRect L k 12, pieceRect L k 11, pieceRect L k 10, pieceRect L k 9, pieceRect L k 8, pieceRect L k 7, pieceRect L k 6, pieceRect L k 5, pieceRect L k 4, pieceRect L k 3, pieceRect L k 2, pieceRect L k 1, pieceRect L k 0] from rfl]
  refine List.cons_eq_cons.mpr ⟨rect_off11 L k ⟨7, by decide⟩, ?_⟩
  refine List.cons_eq_cons.mpr ⟨rect_off10 L k ⟨7, by decide⟩, ?_⟩
  refine List.cons_eq_cons.mpr ⟨rect_off9 L k ⟨7, by decide⟩, ?_⟩
  refine List.cons_eq_cons.mpr ⟨rect_off8 L k ⟨7, by decide⟩, ?_⟩
  refine List.cons_eq_cons.mpr ⟨rect_off7 L k ⟨7, by decide⟩, ?_⟩
  refine List.cons_eq_cons.mpr ⟨rect_off6 L k ⟨7, by decide⟩, ?_⟩
  refine List.cons_eq_cons.mpr ⟨rect_off5 L k ⟨7, by decide⟩, ?_⟩
  refine List.cons_eq_cons.mpr ⟨rect_off4 L k ⟨7, by decide⟩, ?_⟩
  refine List.cons_eq_cons.mpr ⟨rect_off11 L k ⟨6, by decide⟩, ?_⟩
  refine List.cons_eq_cons.mpr ⟨rect_off10 L k ⟨6, by decide⟩, ?_⟩
  refine List.cons_eq_cons.mpr ⟨rect_off9 L k ⟨6, by decide⟩, ?_⟩
  refine List.cons_eq_cons.mpr ⟨rect_off8 L k ⟨6, by decide⟩, ?_⟩
  refine List.cons_eq_cons.mpr ⟨rect_off7 L k ⟨6, by decide⟩, ?_⟩
  refine List.cons_eq_cons.mpr ⟨rect_off6 L k ⟨6, by decide⟩, ?_⟩
  refine List.cons_eq_cons.mpr ⟨rect_off5 L k ⟨6, by decide⟩, ?_⟩
  refine List.cons_eq_cons.mpr ⟨rect_off4 L k ⟨6, by decide⟩, ?_⟩
  refine List.cons_eq_cons.mpr ⟨rect_off11 L k ⟨5, by decide⟩, ?_⟩
  refine List.cons_eq_cons.mpr ⟨rect_off10 L k ⟨5, by decide⟩, ?_⟩
  refine List.cons_eq_cons.mpr ⟨rect_off9 L k ⟨5, by decide⟩, ?_⟩
  refine List.cons_eq_cons.mpr ⟨rect_off8 L k ⟨5, by decide⟩, ?_⟩
  refine List.cons_eq_cons.mpr ⟨rect_off7 L k ⟨5, by decide⟩, ?_⟩
  refine List.cons_eq_cons.mpr ⟨rect_off6 L k ⟨5, by decide⟩, ?_⟩
  refine List.cons_eq_cons.mpr ⟨rect_off5 L k ⟨5, by decide⟩, ?_⟩
  refine List.cons_eq_cons.mpr ⟨rect_off4 L k ⟨5, by decide⟩, ?_⟩
  refine List.cons_eq_cons.mpr ⟨rect_off11 L k ⟨4, by decide⟩, ?_⟩
  refine List.cons_eq_cons.mpr ⟨rect_off10 L k ⟨4, by decide⟩, ?_⟩
  refine List.cons_eq_cons.mpr ⟨rect_off9 L k ⟨4, by decide⟩, ?_⟩
  refine List.cons_eq_cons.mpr ⟨rect_off8 L k ⟨4, by decide⟩, ?_⟩
  refine List.cons_eq_cons.mpr ⟨rect_off7 L k ⟨4, by decide⟩, ?_⟩
  refine List.cons_eq_cons.mpr ⟨rect_off6 L k ⟨4, by decide⟩, ?_⟩
  refine List.cons_eq_cons.mpr ⟨rect_off5 L k ⟨4, by decide⟩, ?_⟩
  refine List.cons_eq_cons.mpr ⟨rect_off4 L k ⟨4, by decide⟩, ?_⟩
  refine List.cons_eq_cons.mpr ⟨rect_off11 L k ⟨3, by decide⟩, ?_⟩
  refine List.cons_eq_cons.mpr ⟨rect_off10 L k ⟨3, by decide⟩, ?_⟩
  refine List.cons_eq_cons.mpr ⟨rect_off9 L k ⟨3, by decide⟩, ?_⟩
  refine List.cons_eq_cons.mpr ⟨rect_off8 L k ⟨3, by decide⟩, ?_⟩
  refine List.cons_eq_cons.mpr ⟨rect_off7 L k ⟨3, by decide⟩, ?_⟩
  refine List.cons_eq_cons.mpr ⟨rect_off6 L k ⟨3, by decide⟩, ?_⟩
  refine List.cons_eq_cons.mpr ⟨rect_off5 L k ⟨3, by decide⟩, ?_⟩
  refine List.cons_eq_cons.mpr ⟨rect_off4 L k ⟨3, by decide⟩, ?_⟩
  refine List.cons_eq_cons.mpr ⟨rect_off11 L k ⟨2, by decide⟩, ?_⟩
  refine List.cons_eq_cons.mpr ⟨rect_off10 L k ⟨2, by decide⟩, ?_⟩
  refine List.cons_eq_cons.mpr ⟨rect_off9 L k ⟨2, by decide⟩, ?_⟩
  refine List.cons_eq_cons.mpr ⟨rect_off8 L k ⟨2, by decide⟩, ?_⟩
  refine List.cons_eq_cons.mpr ⟨rect_off7 L k ⟨2, by decide⟩, ?_⟩
  refine List.cons_eq_cons.mpr ⟨rect_off6 L k ⟨2, by decide⟩, ?_⟩
  refine List.cons_eq_cons.mpr ⟨rect_off5 L k ⟨2, by decide⟩, ?_⟩
  refine List.cons_eq_cons.mpr ⟨rect_off4 L k ⟨2, by decide⟩, ?_⟩
  refine List.cons_eq_cons.mpr ⟨rect_off11 L k ⟨1, by decide⟩, ?_⟩
  refine List.cons_eq_cons.mpr ⟨rect_off10 L k ⟨1, by decide⟩, ?_⟩
  refine List.cons_eq_cons.mpr ⟨rect_off9 L k ⟨1, by decide⟩, ?_⟩
  refine List.cons_eq_cons.mpr ⟨rect_off8 L k ⟨1, by decide⟩, ?_⟩
  refine List.cons_eq_cons.mpr ⟨rect_off7 L k ⟨1, by decide⟩, ?_⟩
  refine List.cons_eq_cons.mpr ⟨rect_off6 L k ⟨1, by decide⟩, ?_⟩
  refine List.cons_eq_cons.mpr ⟨rect_off5 L k ⟨1, by decide⟩, ?_⟩
  refine List.cons_eq_cons.mpr ⟨rect_off4 L k ⟨1, by decide⟩, ?_⟩
  refine List.cons_eq_cons.mpr ⟨rect_off11 L k ⟨0, by decide⟩, ?_⟩
  refine List.cons_eq_cons.mpr ⟨rect_off10 L k ⟨0, by decide⟩, ?_⟩
  refine List.cons_eq_cons.mpr ⟨rect_off9 L k ⟨0, by decide⟩, ?_⟩
  refine List.cons_eq_cons.mpr ⟨rect_off8 L k ⟨0, by decide⟩, ?_⟩
  refine List.cons_eq_cons.mpr ⟨rect_off7 L k ⟨0, by decide⟩, ?_⟩
  refine List.cons_eq_cons.mpr ⟨rect_off6 L k ⟨0, by decide⟩, ?_⟩
  refine List.cons_eq_cons.mpr ⟨rect_off5 L k ⟨0, by decide⟩, ?_⟩
  refine List.cons_eq_cons.mpr ⟨rect_off4 L k ⟨0, by decide⟩, ?_⟩
  rfl

set_option maxHeartbeats 4000000 in
theorem pieces_ok (qa qb : PosShare TreeShare) (fx : Buf (Elt F) (xLoc d)) (fi : Buf (Elt F) (iLoc d)) (O : CellTallies nD τ sig (HIx 1))
    (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000)
    (TL : ∀ (h dd : ℕ), h < 8 → dd < 8 → ∀ x : S1x16.Idx,
      FloatOps.mulf (Agg.tree32 fun r => leaf d L fx k g hin2 hin3 (32 * h + r) (16 * dd) (Shape.reshapeEquiv shapeCasts_S16_S1x16 x)) Agg.scale
        = ent d fx fi (off L + (8 * k.val + h)) (16 * dd + (x 1).val)) :
    ∀ p ∈ (trip d L qa qb fx O k g hin2 hin3).1, ∀ x : p.1.shape.Idx, p.2 x = Gout d L fx fi (p.1.emb x) := by
  intro p hp
  rcases List.mem_cons.mp hp with rfl | hp
  · intro (x : S1x16.Idx)
    exact ((rfl : _ = FloatOps.mulf (Agg.tree32 fun r => leaf d L fx k g hin2 hin3 (32 * 7 + r) (16 * 7) (Shape.reshapeEquiv shapeCasts_S16_S1x16 x)) Agg.scale).trans
      (TL 7 7 (by decide) (by decide) x)).trans (gout_off11 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 6) (Shape.reshapeEquiv shapeCasts_S16_S1x16 x)) Agg.scale).trans
      (TL 7 6 (by decide) (by decide) x)).trans (gout_off10 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 5) (Shape.reshapeEquiv shapeCasts_S16_S1x16 x)) Agg.scale).trans
      (TL 7 5 (by decide) (by decide) x)).trans (gout_off9 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 4) (Shape.reshapeEquiv shapeCasts_S16_S1x16 x)) Agg.scale).trans
      (TL 7 4 (by decide) (by decide) x)).trans (gout_off8 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 3) (Shape.reshapeEquiv shapeCasts_S16_S1x16 x)) Agg.scale).trans
      (TL 7 3 (by decide) (by decide) x)).trans (gout_off7 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 2) (Shape.reshapeEquiv shapeCasts_S16_S1x16 x)) Agg.scale).trans
      (TL 7 2 (by decide) (by decide) x)).trans (gout_off6 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 1) (Shape.reshapeEquiv shapeCasts_S16_S1x16 x)) Agg.scale).trans
      (TL 7 1 (by decide) (by decide) x)).trans (gout_off5 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 0) (Shape.reshapeEquiv shapeCasts_S16_S1x16 x)) Agg.scale).trans
      (TL 7 0 (by decide) (by decide) x)).trans (gout_off4 d L fx fi k ⟨7, by decide⟩ x).symm
  rcases List.mem_cons.mp hp with rfl | hp
  · intro (x : S1x16.Idx)
    exact ((rfl : _ = FloatOps.mulf (Agg.tree32 fun r => leaf d L fx k g hin2 hin3 (32 * 6 + r) (16 * 7) (Shape.reshapeEquiv shapeCasts_S16_S1x16 x)) Agg.scale).trans
      (TL 6 7 (by decide) (by decide) x)).trans (gout_off11 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 6) (Shape.reshapeEquiv shapeCasts_S16_S1x16 x)) Agg.scale).trans
      (TL 6 6 (by decide) (by decide) x)).trans (gout_off10 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 5) (Shape.reshapeEquiv shapeCasts_S16_S1x16 x)) Agg.scale).trans
      (TL 6 5 (by decide) (by decide) x)).trans (gout_off9 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 4) (Shape.reshapeEquiv shapeCasts_S16_S1x16 x)) Agg.scale).trans
      (TL 6 4 (by decide) (by decide) x)).trans (gout_off8 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 3) (Shape.reshapeEquiv shapeCasts_S16_S1x16 x)) Agg.scale).trans
      (TL 6 3 (by decide) (by decide) x)).trans (gout_off7 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 2) (Shape.reshapeEquiv shapeCasts_S16_S1x16 x)) Agg.scale).trans
      (TL 6 2 (by decide) (by decide) x)).trans (gout_off6 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 1) (Shape.reshapeEquiv shapeCasts_S16_S1x16 x)) Agg.scale).trans
      (TL 6 1 (by decide) (by decide) x)).trans (gout_off5 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 0) (Shape.reshapeEquiv shapeCasts_S16_S1x16 x)) Agg.scale).trans
      (TL 6 0 (by decide) (by decide) x)).trans (gout_off4 d L fx fi k ⟨6, by decide⟩ x).symm
  rcases List.mem_cons.mp hp with rfl | hp
  · intro (x : S1x16.Idx)
    exact ((rfl : _ = FloatOps.mulf (Agg.tree32 fun r => leaf d L fx k g hin2 hin3 (32 * 5 + r) (16 * 7) (Shape.reshapeEquiv shapeCasts_S16_S1x16 x)) Agg.scale).trans
      (TL 5 7 (by decide) (by decide) x)).trans (gout_off11 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 6) (Shape.reshapeEquiv shapeCasts_S16_S1x16 x)) Agg.scale).trans
      (TL 5 6 (by decide) (by decide) x)).trans (gout_off10 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 5) (Shape.reshapeEquiv shapeCasts_S16_S1x16 x)) Agg.scale).trans
      (TL 5 5 (by decide) (by decide) x)).trans (gout_off9 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 4) (Shape.reshapeEquiv shapeCasts_S16_S1x16 x)) Agg.scale).trans
      (TL 5 4 (by decide) (by decide) x)).trans (gout_off8 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 3) (Shape.reshapeEquiv shapeCasts_S16_S1x16 x)) Agg.scale).trans
      (TL 5 3 (by decide) (by decide) x)).trans (gout_off7 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 2) (Shape.reshapeEquiv shapeCasts_S16_S1x16 x)) Agg.scale).trans
      (TL 5 2 (by decide) (by decide) x)).trans (gout_off6 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 1) (Shape.reshapeEquiv shapeCasts_S16_S1x16 x)) Agg.scale).trans
      (TL 5 1 (by decide) (by decide) x)).trans (gout_off5 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 0) (Shape.reshapeEquiv shapeCasts_S16_S1x16 x)) Agg.scale).trans
      (TL 5 0 (by decide) (by decide) x)).trans (gout_off4 d L fx fi k ⟨5, by decide⟩ x).symm
  rcases List.mem_cons.mp hp with rfl | hp
  · intro (x : S1x16.Idx)
    exact ((rfl : _ = FloatOps.mulf (Agg.tree32 fun r => leaf d L fx k g hin2 hin3 (32 * 4 + r) (16 * 7) (Shape.reshapeEquiv shapeCasts_S16_S1x16 x)) Agg.scale).trans
      (TL 4 7 (by decide) (by decide) x)).trans (gout_off11 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 6) (Shape.reshapeEquiv shapeCasts_S16_S1x16 x)) Agg.scale).trans
      (TL 4 6 (by decide) (by decide) x)).trans (gout_off10 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 5) (Shape.reshapeEquiv shapeCasts_S16_S1x16 x)) Agg.scale).trans
      (TL 4 5 (by decide) (by decide) x)).trans (gout_off9 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 4) (Shape.reshapeEquiv shapeCasts_S16_S1x16 x)) Agg.scale).trans
      (TL 4 4 (by decide) (by decide) x)).trans (gout_off8 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 3) (Shape.reshapeEquiv shapeCasts_S16_S1x16 x)) Agg.scale).trans
      (TL 4 3 (by decide) (by decide) x)).trans (gout_off7 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 2) (Shape.reshapeEquiv shapeCasts_S16_S1x16 x)) Agg.scale).trans
      (TL 4 2 (by decide) (by decide) x)).trans (gout_off6 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 1) (Shape.reshapeEquiv shapeCasts_S16_S1x16 x)) Agg.scale).trans
      (TL 4 1 (by decide) (by decide) x)).trans (gout_off5 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 0) (Shape.reshapeEquiv shapeCasts_S16_S1x16 x)) Agg.scale).trans
      (TL 4 0 (by decide) (by decide) x)).trans (gout_off4 d L fx fi k ⟨4, by decide⟩ x).symm
  rcases List.mem_cons.mp hp with rfl | hp
  · intro (x : S1x16.Idx)
    exact ((rfl : _ = FloatOps.mulf (Agg.tree32 fun r => leaf d L fx k g hin2 hin3 (32 * 3 + r) (16 * 7) (Shape.reshapeEquiv shapeCasts_S16_S1x16 x)) Agg.scale).trans
      (TL 3 7 (by decide) (by decide) x)).trans (gout_off11 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 6) (Shape.reshapeEquiv shapeCasts_S16_S1x16 x)) Agg.scale).trans
      (TL 3 6 (by decide) (by decide) x)).trans (gout_off10 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 5) (Shape.reshapeEquiv shapeCasts_S16_S1x16 x)) Agg.scale).trans
      (TL 3 5 (by decide) (by decide) x)).trans (gout_off9 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 4) (Shape.reshapeEquiv shapeCasts_S16_S1x16 x)) Agg.scale).trans
      (TL 3 4 (by decide) (by decide) x)).trans (gout_off8 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 3) (Shape.reshapeEquiv shapeCasts_S16_S1x16 x)) Agg.scale).trans
      (TL 3 3 (by decide) (by decide) x)).trans (gout_off7 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 2) (Shape.reshapeEquiv shapeCasts_S16_S1x16 x)) Agg.scale).trans
      (TL 3 2 (by decide) (by decide) x)).trans (gout_off6 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 1) (Shape.reshapeEquiv shapeCasts_S16_S1x16 x)) Agg.scale).trans
      (TL 3 1 (by decide) (by decide) x)).trans (gout_off5 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 0) (Shape.reshapeEquiv shapeCasts_S16_S1x16 x)) Agg.scale).trans
      (TL 3 0 (by decide) (by decide) x)).trans (gout_off4 d L fx fi k ⟨3, by decide⟩ x).symm
  rcases List.mem_cons.mp hp with rfl | hp
  · intro (x : S1x16.Idx)
    exact ((rfl : _ = FloatOps.mulf (Agg.tree32 fun r => leaf d L fx k g hin2 hin3 (32 * 2 + r) (16 * 7) (Shape.reshapeEquiv shapeCasts_S16_S1x16 x)) Agg.scale).trans
      (TL 2 7 (by decide) (by decide) x)).trans (gout_off11 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 6) (Shape.reshapeEquiv shapeCasts_S16_S1x16 x)) Agg.scale).trans
      (TL 2 6 (by decide) (by decide) x)).trans (gout_off10 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 5) (Shape.reshapeEquiv shapeCasts_S16_S1x16 x)) Agg.scale).trans
      (TL 2 5 (by decide) (by decide) x)).trans (gout_off9 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 4) (Shape.reshapeEquiv shapeCasts_S16_S1x16 x)) Agg.scale).trans
      (TL 2 4 (by decide) (by decide) x)).trans (gout_off8 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 3) (Shape.reshapeEquiv shapeCasts_S16_S1x16 x)) Agg.scale).trans
      (TL 2 3 (by decide) (by decide) x)).trans (gout_off7 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 2) (Shape.reshapeEquiv shapeCasts_S16_S1x16 x)) Agg.scale).trans
      (TL 2 2 (by decide) (by decide) x)).trans (gout_off6 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 1) (Shape.reshapeEquiv shapeCasts_S16_S1x16 x)) Agg.scale).trans
      (TL 2 1 (by decide) (by decide) x)).trans (gout_off5 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 0) (Shape.reshapeEquiv shapeCasts_S16_S1x16 x)) Agg.scale).trans
      (TL 2 0 (by decide) (by decide) x)).trans (gout_off4 d L fx fi k ⟨2, by decide⟩ x).symm
  rcases List.mem_cons.mp hp with rfl | hp
  · intro (x : S1x16.Idx)
    exact ((rfl : _ = FloatOps.mulf (Agg.tree32 fun r => leaf d L fx k g hin2 hin3 (32 * 1 + r) (16 * 7) (Shape.reshapeEquiv shapeCasts_S16_S1x16 x)) Agg.scale).trans
      (TL 1 7 (by decide) (by decide) x)).trans (gout_off11 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 6) (Shape.reshapeEquiv shapeCasts_S16_S1x16 x)) Agg.scale).trans
      (TL 1 6 (by decide) (by decide) x)).trans (gout_off10 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 5) (Shape.reshapeEquiv shapeCasts_S16_S1x16 x)) Agg.scale).trans
      (TL 1 5 (by decide) (by decide) x)).trans (gout_off9 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 4) (Shape.reshapeEquiv shapeCasts_S16_S1x16 x)) Agg.scale).trans
      (TL 1 4 (by decide) (by decide) x)).trans (gout_off8 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 3) (Shape.reshapeEquiv shapeCasts_S16_S1x16 x)) Agg.scale).trans
      (TL 1 3 (by decide) (by decide) x)).trans (gout_off7 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 2) (Shape.reshapeEquiv shapeCasts_S16_S1x16 x)) Agg.scale).trans
      (TL 1 2 (by decide) (by decide) x)).trans (gout_off6 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 1) (Shape.reshapeEquiv shapeCasts_S16_S1x16 x)) Agg.scale).trans
      (TL 1 1 (by decide) (by decide) x)).trans (gout_off5 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 0) (Shape.reshapeEquiv shapeCasts_S16_S1x16 x)) Agg.scale).trans
      (TL 1 0 (by decide) (by decide) x)).trans (gout_off4 d L fx fi k ⟨1, by decide⟩ x).symm
  rcases List.mem_cons.mp hp with rfl | hp
  · intro (x : S1x16.Idx)
    exact ((rfl : _ = FloatOps.mulf (Agg.tree32 fun r => leaf d L fx k g hin2 hin3 (32 * 0 + r) (16 * 7) (Shape.reshapeEquiv shapeCasts_S16_S1x16 x)) Agg.scale).trans
      (TL 0 7 (by decide) (by decide) x)).trans (gout_off11 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 6) (Shape.reshapeEquiv shapeCasts_S16_S1x16 x)) Agg.scale).trans
      (TL 0 6 (by decide) (by decide) x)).trans (gout_off10 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 5) (Shape.reshapeEquiv shapeCasts_S16_S1x16 x)) Agg.scale).trans
      (TL 0 5 (by decide) (by decide) x)).trans (gout_off9 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 4) (Shape.reshapeEquiv shapeCasts_S16_S1x16 x)) Agg.scale).trans
      (TL 0 4 (by decide) (by decide) x)).trans (gout_off8 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 3) (Shape.reshapeEquiv shapeCasts_S16_S1x16 x)) Agg.scale).trans
      (TL 0 3 (by decide) (by decide) x)).trans (gout_off7 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 2) (Shape.reshapeEquiv shapeCasts_S16_S1x16 x)) Agg.scale).trans
      (TL 0 2 (by decide) (by decide) x)).trans (gout_off6 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 1) (Shape.reshapeEquiv shapeCasts_S16_S1x16 x)) Agg.scale).trans
      (TL 0 1 (by decide) (by decide) x)).trans (gout_off5 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 0) (Shape.reshapeEquiv shapeCasts_S16_S1x16 x)) Agg.scale).trans
      (TL 0 0 (by decide) (by decide) x)).trans (gout_off4 d L fx fi k ⟨0, by decide⟩ x).symm
  exact absurd hp List.not_mem_nil

end Cert.Proof.Tile

end
-- ==== Proof.TripValue.lean ====
/-
  What a trip's stores hold, as values: one stored group of sixteen lanes is the aggregate's entry, and the
  sixty-four stores of a trip read back as rows of one function.

  After a trip's two gathers, row ρ of the row buffer is the table row whose number is scratch word 256 k + ρ, lane by
  lane.  The group stored at row 8 k + h, lanes 16 dd .. 16 dd + 16 is the pairwise sum over r < 32 of the buffer's rows
  32 h + r at those lanes, times the scale word; the scratch holds words 32 off .. of the flat list, so these are the
  thirty-two table rows that hyperedge slot off + 8 k + h names: the aggregate's entry there.
-/
import proofs.«219373_g11218454577211_week1_w3_1378_31_alg».proof.Proof.TripDefs

noncomputable section

namespace Cert.Proof.Tile

open Cert.KernelIdeal Cert.KernelIdeal.Gen Cert.Proof.KI
open Idealize.ShloMosaic
open Idealize.ShloMosaic.SparseCore (S V T)

variable {F : FTy → Type} [FloatOps F] (d : Dev nD) (L : grid1.Coords)

/-! ## The pairwise sum reads its thirty-two arguments only -/

theorem lvl_congr {v v' : ℕ → F .f32} {n : ℕ} (h : ∀ i < 2 * n, v i = v' i) : ∀ i < n, Agg.lvl v i = Agg.lvl v' i := by
  intro i hi
  unfold Agg.lvl
  rw [h (2 * i) (by omega), h (2 * i + 1) (by omega)]

theorem tree32_congr {v v' : ℕ → F .f32} (h : ∀ r < 32, v r = v' r) : Agg.tree32 v = Agg.tree32 v' := by
  unfold Agg.tree32
  exact lvl_congr (n := 1) (lvl_congr (n := 2) (lvl_congr (n := 4) (lvl_congr (n := 8) (lvl_congr (n := 16) h)))) 0 Nat.one_pos

/-! ## The row buffer after a trip's two gathers -/

/-- Row `y 0`, lane `y 1` of the row buffer after trip `k`'s gathers: the table row scratch word `256 k + y 0` names. -/
def bufG (fx : Buf (Elt F) (xLoc d)) (k : Fin (k1_t1_loop L).trips) (g : Buf (Elt F) ((sV).view.loc (V d (cV L) (jV L)))) :
    S256x128.Idx → F .f32 :=
  fun y => fx (xIx (g (sIx (256 * k.val + (y 0).val))).toNat (y 1).val)

theorem bufPieces_agree (fx : Buf (Elt F) (xLoc d)) (k : Fin (k1_t1_loop L).trips) (g : Buf (Elt F) ((sV).view.loc (V d (cV L) (jV L))))
    (hin2 : ∀ x, ((win2 L k).view.read (Elt F) g x).toNat < 100000) (hin3 : ∀ x, ((win3 L k).view.read (Elt F) g x).toNat < 100000) :
    ∀ p ∈ bufPieces d L fx k g hin2 hin3, ∀ x : p.1.shape.Idx, p.2 x = bufG d L fx k g (p.1.emb x) := by
  intro p hp
  rcases List.mem_cons.mp hp with rfl | hp
  · intro (x : S128x128.Idx)
    show trip.sl.gather1 d L fx k g hin3 x = _
    refine (gather1_eq fx g L k hin3 x).trans ?_
    show _ = fx (xIx (g (sIx (256 * k.val + (128 + 1 * (x 0).val)))).toNat (0 + 1 * (x 1).val))
    rw [show 256 * k.val + (128 + 1 * (x 0).val) = 256 * k.val + 128 + (x 0).val from by omega,
      show 0 + 1 * (x 1).val = (x 1).val from by omega]
  · rcases List.mem_cons.mp hp with rfl | hp
    · intro (x : S128x128.Idx)
      show trip.sl.gather0 d L fx k g hin2 x = _
      refine (gather0_eq fx g L k hin2 x).trans ?_
      show _ = fx (xIx (g (sIx (256 * k.val + (0 + 1 * (x 0).val)))).toNat (0 + 1 * (x 1).val))
      rw [show 256 * k.val + (0 + 1 * (x 0).val) = 256 * k.val + (x 0).val from by omega,
        show 0 + 1 * (x 1).val = (x 1).val from by omega]
    · exact absurd hp List.not_mem_nil

/-- Sixteen lanes of a row of the row buffer after the gathers, lane by lane: the named table row's. -/
theorem leaf_apply (fx : Buf (Elt F) (xLoc d)) (k : Fin (k1_t1_loop L).trips) (g : Buf (Elt F) ((sV).view.loc (V d (cV L) (jV L))))
    (hin2 : ∀ x, ((win2 L k).view.read (Elt F) g x).toNat < 100000) (hin3 : ∀ x, ((win3 L k).view.read (Elt F) g x).toNat < 100000)
    (ρ c : ℕ) (hρ : ρ < 256) (hc : c < 113) (x : S1x16.Idx) :
    leaf d L fx k g hin2 hin3 ρ c (Shape.reshapeEquiv shapeCasts_S16_S1x16 x)
      = fx (xIx (g (sIx (256 * k.val + ρ))).toNat (c + (x 1).val)) := by
  have hx0 : (x 0).val < 1 := (x 0).isLt
  have hx1 : (x 1).val < 16 := (x 1).isLt
  unfold leaf shapeCast
  rw [Shape.reshapeEquiv_reshapeEquiv, Shape.reshapeEquiv_self]
  unfold View.readCov
  rw [View.readAt_apply]
  have hρm : ρ % 256 = ρ := Nat.mod_eq_of_lt hρ
  have hcm : c % 113 = c := Nat.mod_eq_of_lt hc
  have hy0 : ((Rect.unit (s := S256x128) ![ρ % 256, c % 113] S1x16.size (inb_leaf ρ c)).idx x 0).val = ρ := by
    show ρ % 256 + 1 * (x 0).val = ρ; omega
  have hy1 : ((Rect.unit (s := S256x128) ![ρ % 256, c % 113] S1x16.size (inb_leaf ρ c)).idx x 1).val = c + (x 1).val := by
    show c % 113 + 1 * (x 1).val = c + (x 1).val; omega
  have hcover : ∃ p ∈ bufPieces d L fx k g hin2 hin3,
      (Rect.unit (s := S256x128) ![ρ % 256, c % 113] S1x16.size (inb_leaf ρ c)).idx x ∈ p.1.set := by
    by_cases hlo : ρ < 128
    · refine ⟨_, List.mem_cons_of_mem _ List.mem_cons_self, ?_⟩
      rw [Rect.mem_set_unit]
      intro a
      match a with
      | ⟨0, _⟩ => show 0 ≤ ρ % 256 + 1 * (x 0).val ∧ ρ % 256 + 1 * (x 0).val < 0 + 128; omega
      | ⟨1, _⟩ => show 0 ≤ c % 113 + 1 * (x 1).val ∧ c % 113 + 1 * (x 1).val < 0 + 128; omega
    · refine ⟨_, List.mem_cons_self, ?_⟩
      rw [Rect.mem_set_unit]
      intro a
      match a with
      | ⟨0, _⟩ => show 128 ≤ ρ % 256 + 1 * (x 0).val ∧ ρ % 256 + 1 * (x 0).val < 128 + 128; omega
      | ⟨1, _⟩ => show 0 ≤ c % 113 + 1 * (x 1).val ∧ c % 113 + 1 * (x 1).val < 0 + 128; omega
  refine (View.read_writes_apply_of_pieces _ _ (bufG d L fx k g) _ (bufPieces_agree d L fx k g hin2 hin3) _ hcover).trans ?_
  unfold bufG
  rw [hy0, hy1]

/-- THE VALUE OF ONE STORED GROUP: the scaled pairwise sum over the thirty-two buffer rows `32 h + r`, at lanes
    `16 dd ..`, is the aggregate's entry at hyperedge slot `off + 8 k + h`, the scratch holding list words `32 off ..`. -/
theorem tree_leaf_eq (fx : Buf (Elt F) (xLoc d)) (fi : Buf (Elt F) (iLoc d)) (k : Fin (k1_t1_loop L).trips)
    (g : Buf (Elt F) ((sV).view.loc (V d (cV L) (jV L))))
    (hin2 : ∀ x, ((win2 L k).view.read (Elt F) g x).toNat < 100000) (hin3 : ∀ x, ((win3 L k).view.read (Elt F) g x).toNat < 100000)
    (hgv : ∀ j : S14336.Idx, g j = fi (iIx (32 * off L + (j 0).val)))
    (h dd : ℕ) (hh : h < 8) (hd : dd < 8) (x : S1x16.Idx) :
    FloatOps.mulf (Agg.tree32 fun r => leaf d L fx k g hin2 hin3 (32 * h + r) (16 * dd) (Shape.reshapeEquiv shapeCasts_S16_S1x16 x)) Agg.scale
      = ent d fx fi (off L + (8 * k.val + h)) (16 * dd + (x 1).val) := by
  have hk : k.val < 56 := lt_of_lt_of_le k.isLt (k1_t1_abs L).2.1
  unfold ent Agg.entry
  refine congrArg (fun t => FloatOps.mulf t Agg.scale) (tree32_congr fun r hr => ?_)
  rw [leaf_apply d L fx k g hin2 hin3 (32 * h + r) (16 * dd) (by omega) (by omega) x, hgv]
  have e : 32 * off L + ((sIx (256 * k.val + (32 * h + r))) 0).val = 32 * (off L + (8 * k.val + h)) + r := by
    show 32 * off L + (256 * k.val + (32 * h + r)) % 14336 = _
    omega
  rw [e]

/-! ## Sixty-four stores read back as rows of one function -/

/-- SIXTY-FOUR STORES READ BACK AS ONE FUNCTION: a list of pieces on the trip's sixty-four rectangles whose payloads
    are `Gout` there, written over contents that are `Gout` below row `8 k`, leaves `Gout` below row `8 (k + 1)`. -/
theorem writes_value (fx : Buf (Elt F) (xLoc d)) (fi : Buf (Elt F) (iLoc d)) (k : Fin (k1_t1_loop L).trips) (hk : k.val < 56)
    (P : List (View.Piece (Elt F) S448x128 .f32)) (hrect : P.map (fun p => p.1) = rectList L k)
    (hpay : ∀ p ∈ P, ∀ x : p.1.shape.Idx, p.2 x = Gout d L fx fi (p.1.emb x))
    (fa : S448x128.Idx → F .f32) (hfa : ∀ y : S448x128.Idx, (y 0).val < 8 * k.val → fa y = Gout d L fx fi y) :
    ∀ y : S448x128.Idx, (y 0).val < 8 * (k.val + 1) → (aV).view.writes (Elt F) fa P y = Gout d L fx fi y := by
  intro y hy
  have hy1 : (y 1).val < 128 := (y 1).isLt
  -- every piece sits on one of the sixty-four rectangles
  have hrects : ∀ p ∈ P, ∃ n, n < 64 ∧ p.1 = pieceRect L k n := by
    intro p hp
    have hm : p.1 ∈ rectList L k := hrect ▸ List.mem_map_of_mem (f := fun p : View.Piece (Elt F) S448x128 .f32 => p.1) hp
    unfold rectList at hm
    obtain ⟨n, hn, e⟩ := List.mem_map.mp hm
    exact ⟨n, List.mem_range.mp (List.mem_reverse.mp hn), e.symm⟩
  show (aV).view.read (Elt F) ((aV).view.writes (Elt F) fa P) y = _
  by_cases hlo : (y 0).val < 8 * k.val
  · rw [View.read_writes_apply_of_forall_not_mem _ _ y P ?_]
    · exact hfa y hlo
    · intro p hp hmem
      obtain ⟨n, hn, e⟩ := hrects p hp
      rw [e] at hmem
      unfold pieceRect at hmem
      rw [Rect.mem_set_unit] at hmem
      have h0 := hmem 0
      change (8 * k.val + n / 8) % 448 ≤ (y 0).val ∧ (y 0).val < (8 * k.val + n / 8) % 448 + 1 at h0
      omega
  · obtain ⟨n, hnd⟩ : ∃ n, n = 8 * ((y 0).val - 8 * k.val) + (y 1).val / 16 := ⟨_, rfl⟩
    have hn : n < 64 := by omega
    have hmemR : pieceRect L k n ∈ rectList L k := by
      unfold rectList
      exact List.mem_map.mpr ⟨n, List.mem_reverse.mpr (List.mem_range.mpr hn), rfl⟩
    rw [← hrect] at hmemR
    obtain ⟨p, hp, e⟩ := List.mem_map.mp hmemR
    refine View.read_writes_apply_of_pieces _ _ (Gout d L fx fi) P hpay y ⟨p, hp, ?_⟩
    rw [e]
    unfold pieceRect
    rw [Rect.mem_set_unit]
    intro a
    match a with
    | ⟨0, _⟩ =>
      show (8 * k.val + n / 8) % 448 ≤ (y 0).val ∧ (y 0).val < (8 * k.val + n / 8) % 448 + 1
      omega
    | ⟨1, _⟩ =>
      show 16 * (n % 8) ≤ (y 1).val ∧ (y 1).val < 16 * (n % 8) + 16
      omega

end Cert.Proof.Tile

end
-- ==== Proof.CopyoutValue.lean ====
/-
  What the tile's copy-out leaves in its block of the padded output: the aggregate's rows.

  The output scratch holds, row y, the aggregate's row off + y (`Gout`).  On SparseCore 0 the whole scratch (448 rows)
  is copied to output rows off .. off + 448, on SparseCore 1 its first 192 rows to rows off .. off + 192: row off + y of
  the output then holds the aggregate's row off + y, which is what the padded output must hold everywhere.
-/
import proofs.«219373_g11218454577211_week1_w3_1378_31_alg».proof.Proof.TripDefs
import Idealize.ShloMosaic.Lib.Pipeline.Value

noncomputable section

namespace Cert.Proof.Tile

open Cert.KernelIdeal Cert.KernelIdeal.Gen Cert.Proof.KI
open Idealize.ShloMosaic
open Idealize.ShloMosaic.SparseCore (S V T)

variable {F : FTy → Type} [FloatOps F] (d : Dev nD) (L : grid1.Coords)

/-- On SparseCore 0: the whole scratch copied onto the tile's 448 output rows. -/
theorem copyout0_value (h1 : k1_cond1 L = 1#1) (fx : Buf (Elt F) (xLoc d)) (fi : Buf (Elt F) (iLoc d)) (fo : Buf (Elt F) (oLoc d))
    (fa2 : S448x128.Idx → F .f32) (hfa2 : ∀ y : S448x128.Idx, fa2 y = Gout d L fx fi y) :
    ∀ i ∈ (oBlk0 L h1).view.set,
      ((oBlk0 L h1).view.writes (Elt F) fo [⟨Rect.whole S448x128, (aV).view.read (Elt F) fa2⟩]) i = AggBuf d fx fi i := by
  intro i hi
  obtain ⟨x, rfl⟩ := View.exists_emb_of_mem_set (oBlk0 L h1).view hi
  have hw := View.read_writes_cons_emb (oBlk0 L h1).view fo (Rect.whole S448x128) ((aV).view.read (Elt F) fa2) [] x
  rw [Rect.emb_whole_apply] at hw
  refine Eq.trans ?_ (hw.trans ?_)
  · rw [View.read_apply]; rfl
  show fa2 x = _
  rw [hfa2, AggBuf_apply]
  unfold Gout
  have e0 : ((oBlk0 L h1).view.emb x 0).val = off L + (x 0).val := by
    show k1_off22 L 0 + 1 * (x 0).val = 640 * (L 1).val + 448 * (L 0).val + (x 0).val
    rw [k1_off22_eq]
    show 640 * (L 1).val + 448 * (L 0).val + 1 * (x 0).val = _
    omega
  have e1 : ((oBlk0 L h1).view.emb x 1).val = (x 1).val := by
    show k1_off22 L 1 + 1 * (x 1).val = (x 1).val
    rw [k1_off22_eq]
    show 0 + 1 * (x 1).val = _
    omega
  rw [e0, e1]

/-- On SparseCore 1: the scratch's first 192 rows copied onto the tile's 192 output rows. -/
theorem copyout1_value (h2 : k1_cond2 L = 1#1) (fx : Buf (Elt F) (xLoc d)) (fi : Buf (Elt F) (iLoc d)) (fo : Buf (Elt F) (oLoc d))
    (fa2 : S448x128.Idx → F .f32) (hfa2 : ∀ y : S448x128.Idx, (y 0).val < 192 → fa2 y = Gout d L fx fi y) :
    ∀ i ∈ (oBlk1 L h2).view.set,
      ((oBlk1 L h2).view.writes (Elt F) fo [⟨Rect.whole S192x128, ((aV).slice (Rect.unit (s := S448x128) ![0, 0] S192x128.size inb_S448x128_S192x128_0_0) (fun _ => rfl)).view.read (Elt F) fa2⟩]) i = AggBuf d fx fi i := by
  intro i hi
  obtain ⟨x, rfl⟩ := View.exists_emb_of_mem_set (oBlk1 L h2).view hi
  have hx0 : (x 0).val < 192 := (x 0).isLt
  have hw := View.read_writes_cons_emb (oBlk1 L h2).view fo (Rect.whole S192x128) (((aV).slice (Rect.unit (s := S448x128) ![0, 0] S192x128.size inb_S448x128_S192x128_0_0) (fun _ => rfl)).view.read (Elt F) fa2) [] x
  rw [Rect.emb_whole_apply] at hw
  refine Eq.trans ?_ (hw.trans ?_)
  · rw [View.read_apply]; rfl
  show fa2 (((aV).slice (Rect.unit (s := S448x128) ![0, 0] S192x128.size inb_S448x128_S192x128_0_0) (fun _ => rfl)).view.emb x) = _
  have ey0 : ((((aV).slice (Rect.unit (s := S448x128) ![0, 0] S192x128.size inb_S448x128_S192x128_0_0) (fun _ => rfl)).view.emb x) 0).val = (x 0).val := by
    show 0 + 1 * (x 0).val = _; omega
  have ey1 : ((((aV).slice (Rect.unit (s := S448x128) ![0, 0] S192x128.size inb_S448x128_S192x128_0_0) (fun _ => rfl)).view.emb x) 1).val = (x 1).val := by
    show 0 + 1 * (x 1).val = _; omega
  rw [hfa2 _ (by rw [ey0]; exact hx0), AggBuf_apply]
  unfold Gout
  have e0 : ((oBlk1 L h2).view.emb x 0).val = off L + (x 0).val := by
    show k1_off23 L 0 + 1 * (x 0).val = 640 * (L 1).val + 448 * (L 0).val + (x 0).val
    rw [k1_off23_eq]
    show 640 * (L 1).val + 448 * (L 0).val + 1 * (x 0).val = _
    omega
  have e1 : ((oBlk1 L h2).view.emb x 1).val = (x 1).val := by
    show k1_off23 L 1 + 1 * (x 1).val = (x 1).val
    rw [k1_off23_eq]
    show 0 + 1 * (x 1).val = _
    omega
  rw [e0, e1, ey0, ey1]

end Cert.Proof.Tile

end
-- ==== Proof.Tile.lean ====
/-
  One SparseCore tile's body, at a symbolic tile and for any float instance: it runs to its end, faults nowhere,
  waits for nothing that does not come, and gives back what it was handed — the table and the index list unchanged
  at the shares they came with, its block of the output at some contents, its scratch buffers and semaphores as it
  found them. The index words are in range (below 100000), so every row the two gathers of a trip name exists; the
  two gathers are in flight together on two different semaphores and each is waited for before the row buffer is
  read; the remainder loop has no trip; exactly one of the two copy-outs runs (448 rows on SparseCore 0, 192 on
  SparseCore 1).
-/
import proofs.«219373_g11218454577211_week1_w3_1378_31_alg».proof.Proof.TileSetup

noncomputable section

namespace Cert.Proof.Tile

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-- An index word read through a window of the index scratch is one of the scratch's words. -/
theorem read_lt (r : Rect S14336) (hr : ∀ a, r.stride a = 1) (g : S14336.Idx → BitVec 32)
    (hg : ∀ j, (g j).toNat < 100000) : ∀ x, (((sV).slice r hr).view.read (Elt F) g x).toNat < 100000 := by
  intro x
  rw [View.read_apply]
  exact (cast_eq _ _).symm ▸ hg _

/-- A word of the index list read through a window of it is one of its words. -/
theorem readI_lt (r : Rect S335872) (hr : ∀ a, r.stride a = 1) (fi : S335872.Idx → BitVec 32)
    (hidx : ∀ j, (fi j).toNat < 100000) : ∀ x, (((iV).slice r hr).view.read (Elt F) fi x).toNat < 100000 := by
  intro x
  rw [View.read_apply]
  exact (cast_eq _ _).symm ▸ hidx _

/-- The index scratch overwritten whole holds what was written. -/
theorem write_univ_lt (fs pay : S14336.Idx → BitVec 32) (h : ∀ j, (pay j).toNat < 100000) :
    ∀ j, ((View.write (Elt F) (sV).view fs pay Finset.univ) j).toNat < 100000 := by
  intro j
  have e : View.write (Elt F) (sV).view fs pay Finset.univ = pay :=
    View.write_whole_univ (Val := Elt F) cc1_scratch0 fs pay
  rw [e]; exact h j

/-- The tile's share of the output, as the copy-out on SparseCore 0 addresses it. -/
theorem oPts_blk0 (h1 : k1_cond1 L = 1#1) (f : Buf (Elt F) (oLoc d)) :
    (oPts d L f : sProp 𝕄) = ((oBlk0 L h1).view.loc (V d (cV L) (jV L)) ↦[(oBlk0 L h1).view.set]{fullShare} f) := by
  show (oLoc d ↦[oSet L]{fullShare} f : sProp 𝕄) = _
  unfold oSet; rw [dif_pos h1]
/-- The tile's share of the output, as the copy-out on SparseCore 1 addresses it. -/
theorem oPts_blk1 (h1 : ¬ k1_cond1 L = 1#1) (h2 : k1_cond2 L = 1#1) (f : Buf (Elt F) (oLoc d)) :
    (oPts d L f : sProp 𝕄) = ((oBlk1 L h2).view.loc (V d (cV L) (jV L)) ↦[(oBlk1 L h2).view.set]{fullShare} f) := by
  show (oLoc d ↦[oSet L]{fullShare} f : sProp 𝕄) = _
  unfold oSet; rw [dif_neg h1, dif_pos h2]

/-- What every trip of the loop starts from and ends with: the table at two read shares (one per gather in flight),
    the index scratch at words all in range, the row buffer and the output scratch at some contents, the gathers'
    two semaphores at zero, and the thread's account. -/
def inv (qx : PosShare TreeShare) (fx : Buf (Elt F) (xLoc d)) (O : CellTallies nD τ sig (HIx 1)) (W : Waits sig (HIx 1))
    (_ : Nat) (_ : Unit) : sProp 𝕄 :=
  iprop(Transfers.MayWaits (V d (cV L) (jV L)) (default : HIx 1) O
    ∗ ((xV).view.loc (V d (cV L) (jV L)) ↦{qx.left} fx)
    ∗ ((xV).view.loc (V d (cV L) (jV L)) ↦{qx.right} fx)
    ∗ (∃ g, ⌜∀ j, (g j).toNat < 100000⌝ ∗ (sV).view.loc (V d (cV L) (jV L)) ↦{fullShare} g)
    ∗ (∃ f, (bV).view.loc (V d (cV L) (jV L)) ↦{fullShare} f)
    ∗ (∃ f, (aV).view.loc (V d (cV L) (jV L)) ↦{fullShare} f)
    ∗ semVal (cellG0 d L) 0 ∗ semVal (cellG1 d L) 0
    ∗ ∃ W', ⌜∀ p ∈ W', p ∈ W ∨ p.2 = none⌝ ∗ owes (V d (cV L) (jV L)) O W')

set_option maxHeartbeats 4000000 in
theorem tile_frame (qx qi : PosShare TreeShare)
    (fx : Buf (Elt F) (xLoc d)) (fi : Buf (Elt F) (iLoc d)) (fo : Buf (Elt F) (oLoc d))
    (hidx : ∀ j, (fi j).toNat < 100000) (hF : (K (F := F)).Facts)
    (O : CellTallies nD τ sig (HIx 1)) (W : Waits sig (HIx 1)) (hO : ∀ g, O g none = 0) :
    iprop(levAts (K (F := F)).L (K (F := F)).lev ∗ emp
        ∗ (xPts d qx fx ∗ iPts d qi fi ∗ oPts d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) iV (Memref.isWhole_whole _) oV (Memref.isWhole_whole _)
            sV (Memref.isWhole_whole _) bV (Memref.isWhole_whole _) aV (Memref.isWhole_whole _)
            cc1_scratch3 cc1_scratch4 cc1_scoped0 cc1_scoped1 cc1_scoped2)
          fun _ => iprop((xPts d qx fx ∗ iPts d qi fi ∗ ∃ f, oPts d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fb, Hb⟩, ⟨%fa, Ha⟩, Hbufs⟩, ⟨HsG0, HsG1, HsC0, HsC1, HsC2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xPts d qx fx : sProp 𝕄) = ((xV).view.loc (V d (cV L) (jV L)) ↦{qx} fx) from rfl)) $$ Hx
  ihave Hi' := (Entails.of_eq (show (iPts d qi fi : sProp 𝕄) = ((iV).view.loc (V d (cV L) (jV L)) ↦{qi} fi) from rfl)) $$ Hi
  ihave Hs' := (Entails.of_eq (show ((V d (cV L) (jV L)).loc cc1_scratch0 ↦{fullShare} fs : sProp 𝕄) = ((sV).view.loc (V d (cV L) (jV L)) ↦{fullShare} fs) from rfl)) $$ Hs
  ihave Hb' := (Entails.of_eq (show ((V d (cV L) (jV L)).loc cc1_scratch1 ↦{fullShare} fb : sProp 𝕄) = ((bV).view.loc (V d (cV L) (jV L)) ↦{fullShare} fb) from rfl)) $$ Hb
  ihave Ha' := (Entails.of_eq (show ((V d (cV L) (jV L)).loc cc1_scratch2 ↦{fullShare} fa : sProp 𝕄) = ((aV).view.loc (V d (cV L) (jV L)) ↦{fullShare} fa) from rfl)) $$ Ha
  sl_exec_parts
  ihave Hx2 := (pointsTo_share (PosShare.mem_left_op_right qx)).1 $$ Hx'
  icases Hx2 with ⟨HxA, HxB⟩
  sl_for (inv d L qx fx O W) $$ [Hmw HxA HxB Hs' Hb' Ha' HsG0 HsG1 HO]
  case region =>
    intro k _
    unfold inv
    iintro ⟨Hmw, HxA, HxB, ⟨%g, %hg, Hs⟩, ⟨%fb', Hb⟩, ⟨%fa', Ha⟩, HsG0, HsG1, %W', %hW', HO⟩
    have hin2 := read_lt (F := F) (Rect.unit (s := S14336) (k1_off2 L k) S128.size (k1_off2_inb L k)) (fun _ => rfl) g hg
    have hin3 := read_lt (F := F) (Rect.unit (s := S14336) (k1_off3 L k) S128.size (k1_off3_inb L k)) (fun _ => rfl) g hg
    sl_exec_parts
    sl_step
    isplitl [Hmw]; · iexact Hmw
    isplitl [HxA]; · iexact HxA
    isplitl [HxB]; · iexact HxB
    isplitl [Hs]
    · iexists g; isplitr
      · ipureintro; exact hg
      · iexact Hs
    isplitl [Hb]; · iexists _; iexact Hb
    isplitl [Ha]; · iexists _; iexact Ha
    isplitl [HsG0]; · iexact HsG0
    isplitl [HsG1]; · iexact HsG1
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [HxA]; · iexact HxA
    isplitl [HxB]; · iexact HxB
    isplitl [Hs']
    · iexists _; isplitr
      swap; · iexact Hs'
      ipureintro; intro j
      exact write_univ_lt (F := F) _ _
        (readI_lt (F := F) (Rect.unit (s := S335872) (k1_off1 L) S14336.size (k1_off1_inb L)) (fun _ => rfl) fi hidx) j
    isplitl [Hb']; · iexists _; iexact Hb'
    isplitl [Ha']; · iexists _; iexact Ha'
    isplitl [HsG0]; · iexact HsG0
    isplitl [HsG1]; · iexact HsG1
    iexists _; isplitr
    swap; · iexact HO
    ipureintro; intro p hp
    rcases Finset.mem_insert.mp hp with hp | hp; · exact .inr (hp ▸ rfl)
    exact .inl hp
  iintro %_ HI
  unfold inv
  icases HI with ⟨-, HxA, HxB, ⟨%g, %hg, Hs⟩, ⟨%fb', Hb⟩, ⟨%fa', Ha⟩, HsG0, HsG1, %W', %hW', HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv d L qx fx O W) $$ [Hmw HxA HxB Hs Hb Ha HsG0 HsG1 HO]
  case region =>
    intro k _
    exact absurd k.isLt (Nat.not_lt.2 (Nat.le_trans (k1_t2_abs L).2.1 (Nat.zero_le _)))
  · unfold inv
    isplitl [Hmw]; · iexact Hmw
    isplitl [HxA]; · iexact HxA
    isplitl [HxB]; · iexact HxB
    isplitl [Hs]
    · iexists g; isplitr
      · ipureintro; exact hg
      · iexact Hs
    isplitl [Hb]; · iexists _; iexact Hb
    isplitl [Ha]; · iexists _; iexact Ha
    isplitl [HsG0]; · iexact HsG0
    isplitl [HsG1]; · iexact HsG1
    iexists _; isplitr
    swap; · iexact HO
    ipureintro; exact hW'
  iintro %_ HI
  unfold inv
  icases HI with ⟨-, HxA, HxB, ⟨%g2, %hg2, Hs⟩, ⟨%fb2, Hb⟩, ⟨%fa2, Ha⟩, HsG0, HsG1, %W2, %hW2, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  by_cases h1 : k1_cond1 L = 1#1
  · have h2 : ¬ k1_cond2 L = 1#1 := fun h => by
      have := (cond1_iff L).mp h1; have := (cond2_iff L).mp h; omega
    ihave Ho' := (Entails.of_eq (oPts_blk0 (F := F) d L h1 fo)) $$ Ho
    sl_exec
    sl_step
    ihave Hx := (pointsTo_share (PosShare.mem_left_op_right qx)).2 $$ [HxA HxB]
    · isplitl [HxA] <;> iassumption
    isplitl [Hx Hi' Ho']
    · isplitl [Hx]; · iexact Hx
      isplitl [Hi']; · iexact Hi'
      iexists _; iapply (Entails.of_eq (oPts_blk0 (F := F) d L h1 _).symm); iexact Ho'
    isplitl [Hs Hb Ha Hbufs]
    · isplitl [Hs]; · iexists _; iexact Hs
      isplitl [Hb]; · iexists _; iexact Hb
      isplitl [Ha]; · iexists _; iexact Ha
      iexact Hbufs
    isplitl [HsG0 HsG1 HsC0 HsC1 HsC2 Hsems]
    · isplitl [HsG0]; · iexact HsG0
      isplitl [HsG1]; · iexact HsG1
      isplitl [HsC0]; · iexact HsC0
      isplitl [HsC1]; · iexact HsC1
      isplitl [HsC2]; · iexact HsC2
      iexact Hsems
    iexists _; isplitr
    swap; · iexact HO
    ipureintro; intro p hp
    rcases Finset.mem_insert.mp hp with hp | hp; · exact .inr (hp ▸ rfl)
    exact hW2 p hp
  · have h2 : k1_cond2 L = 1#1 := (cond2_iff L).mpr (by
      have := (cond1_iff L).not.mp h1; have := (L 0).isLt; change (L 0).val < 2 at this; omega)
    ihave Ho' := (Entails.of_eq (oPts_blk1 (F := F) d L h1 h2 fo)) $$ Ho
    sl_exec
    sl_step
    ihave Hx := (pointsTo_share (PosShare.mem_left_op_right qx)).2 $$ [HxA HxB]
    · isplitl [HxA] <;> iassumption
    isplitl [Hx Hi' Ho']
    · isplitl [Hx]; · iexact Hx
      isplitl [Hi']; · iexact Hi'
      iexists _; iapply (Entails.of_eq (oPts_blk1 (F := F) d L h1 h2 _).symm); iexact Ho'
    isplitl [Hs Hb Ha Hbufs]
    · isplitl [Hs]; · iexists _; iexact Hs
      isplitl [Hb]; · iexists _; iexact Hb
      isplitl [Ha]; · iexists _; iexact Ha
      iexact Hbufs
    isplitl [HsG0 HsG1 HsC0 HsC1 HsC2 Hsems]
    · isplitl [HsG0]; · iexact HsG0
      isplitl [HsG1]; · iexact HsG1
      isplitl [HsC0]; · iexact HsC0
      isplitl [HsC1]; · iexact HsC1
      isplitl [HsC2]; · iexact HsC2
      iexact Hsems
    iexists _; isplitr
    swap; · iexact HO
    ipureintro; intro p hp
    rcases Finset.mem_insert.mp hp with hp | hp; · exact .inr (hp ▸ rfl)
    exact hW2 p hp

end Cert.Proof.Tile

end
-- ==== Proof.TileBody.lean ====
/-
  One SparseCore tile's body with its value, at a symbolic tile and for any float instance: besides running to its
  end and giving back what it was handed, it leaves in its block of the padded output the aggregate of the table
  along the index list — entry (row j, lane e) is the five-level pairwise sum over r < 32 of the table at
  (row idx[32 j + r], lane e), times the scale word. The index fetch lands the tile's 14336 words of the list in
  its index scratch (word n of the scratch is word 32·offset + n of the list); trip k's two gathers bring rows
  idx[32·offset + 256 k + ρ], ρ < 256, of the table into the row buffer, and its sixty-four stores write rows
  8 k … 8 k + 7 of the output scratch with the aggregate's rows offset + 8 k + h; so before trip k the rows below
  8 k hold the aggregate's rows, and after the last trip (56 on SparseCore 0, 24 on SparseCore 1) every row that
  is copied out does. The copy-out then writes exactly the tile's block.
-/
import proofs.«219373_g11218454577211_week1_w3_1378_31_alg».proof.Proof.TripPieces
import proofs.«219373_g11218454577211_week1_w3_1378_31_alg».proof.Proof.TripValue
import proofs.«219373_g11218454577211_week1_w3_1378_31_alg».proof.Proof.CopyoutValue
import proofs.«219373_g11218454577211_week1_w3_1378_31_alg».proof.Proof.Tile

noncomputable section

namespace Cert.Proof.Tile

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-- The loop's invariant with the values: as the frame's, and the index scratch holds the tile's 14336 words of the
    list, and the rows of the output scratch below the bound hold the aggregate's rows at the tile's offset. -/
def invV (qx : PosShare TreeShare) (fx : Buf (Elt F) (xLoc d)) (fi : Buf (Elt F) (iLoc d))
    (O : CellTallies nD τ sig (HIx 1)) (W : Waits sig (HIx 1)) (B : ℕ → ℕ)
    (kk : Nat) (_ : Unit) : sProp 𝕄 :=
  iprop(Transfers.MayWaits (V d (cV L) (jV L)) (default : HIx 1) O
    ∗ ((xV).view.loc (V d (cV L) (jV L)) ↦{qx.left} fx)
    ∗ ((xV).view.loc (V d (cV L) (jV L)) ↦{qx.right} fx)
    ∗ (∃ g, ⌜∀ j : S14336.Idx, g j = fi (iIx (32 * off L + (j 0).val))⌝ ∗ (sV).view.loc (V d (cV L) (jV L)) ↦{fullShare} g)
    ∗ (∃ f, (bV).view.loc (V d (cV L) (jV L)) ↦{fullShare} f)
    ∗ (∃ f, ⌜∀ y : S448x128.Idx, (y 0).val < B kk → f y = Gout d L fx fi y⌝ ∗ (aV).view.loc (V d (cV L) (jV L)) ↦{fullShare} f)
    ∗ semVal (cellG0 d L) 0 ∗ semVal (cellG1 d L) 0
    ∗ ∃ W', ⌜∀ p ∈ W', p ∈ W ∨ p.2 = none⌝ ∗ owes (V d (cV L) (jV L)) O W')

set_option maxHeartbeats 4000000 in
theorem tile_body (qx qi : PosShare TreeShare)
    (fx : Buf (Elt F) (xLoc d)) (fi : Buf (Elt F) (iLoc d)) (fo : Buf (Elt F) (oLoc d))
    (hidx : ∀ j, (fi j).toNat < 100000) (hF : (K (F := F)).Facts)
    (O : CellTallies nD τ sig (HIx 1)) (W : Waits sig (HIx 1)) (hO : ∀ g, O g none = 0) :
    iprop(levAts (K (F := F)).L (K (F := F)).lev ∗ emp
        ∗ (xPts d qx fx ∗ iPts d qi fi ∗ oPts d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) iV (Memref.isWhole_whole _) oV (Memref.isWhole_whole _)
            sV (Memref.isWhole_whole _) bV (Memref.isWhole_whole _) aV (Memref.isWhole_whole _)
            cc1_scratch3 cc1_scratch4 cc1_scoped0 cc1_scoped1 cc1_scoped2)
          fun _ => iprop((xPts d qx fx ∗ iPts d qi fi ∗ oPts d L (AggBuf d fx fi))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fb, Hb⟩, ⟨%fa, Ha⟩, Hbufs⟩, ⟨HsG0, HsG1, HsC0, HsC1, HsC2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xPts d qx fx : sProp 𝕄) = ((xV).view.loc (V d (cV L) (jV L)) ↦{qx} fx) from rfl)) $$ Hx
  ihave Hi' := (Entails.of_eq (show (iPts d qi fi : sProp 𝕄) = ((iV).view.loc (V d (cV L) (jV L)) ↦{qi} fi) from rfl)) $$ Hi
  ihave Hs' := (Entails.of_eq (show ((V d (cV L) (jV L)).loc cc1_scratch0 ↦{fullShare} fs : sProp 𝕄) = ((sV).view.loc (V d (cV L) (jV L)) ↦{fullShare} fs) from rfl)) $$ Hs
  ihave Hb' := (Entails.of_eq (show ((V d (cV L) (jV L)).loc cc1_scratch1 ↦{fullShare} fb : sProp 𝕄) = ((bV).view.loc (V d (cV L) (jV L)) ↦{fullShare} fb) from rfl)) $$ Hb
  ihave Ha' := (Entails.of_eq (show ((V d (cV L) (jV L)).loc cc1_scratch2 ↦{fullShare} fa : sProp 𝕄) = ((aV).view.loc (V d (cV L) (jV L)) ↦{fullShare} fa) from rfl)) $$ Ha
  sl_exec_parts
  ihave Hx2 := (pointsTo_share (PosShare.mem_left_op_right qx)).1 $$ Hx'
  icases Hx2 with ⟨HxA, HxB⟩
  sl_for (invV d L qx fx fi O W (fun kk => 8 * kk)) $$ [Hmw HxA HxB Hs' Hb' Ha' HsG0 HsG1 HO]
  case region =>
    intro k acc
    unfold invV
    iintro ⟨#Hmw, HxA, HxB, ⟨%g, %hgv, Hs⟩, ⟨%fb', Hb⟩, ⟨%fa', %hfa, Ha⟩, HsG0, HsG1, %W', %hW', HO⟩
    have hk56 : k.val < 56 := lt_of_lt_of_le k.isLt (k1_t1_abs L).2.1
    have hg : ∀ j, (g j).toNat < 100000 := fun j => by rw [hgv j]; exact hidx _
    have hin2 : ∀ x, ((win2 L k).view.read (Elt F) g x).toNat < 100000 :=
      read_lt (F := F) (Rect.unit (s := S14336) (k1_off2 L k) S128.size (k1_off2_inb L k)) (fun _ => rfl) g hg
    have hin3 : ∀ x, ((win3 L k).view.read (Elt F) g x).toNat < 100000 :=
      read_lt (F := F) (Rect.unit (s := S14336) (k1_off3 L k) S128.size (k1_off3_inb L k)) (fun _ => rfl) g hg
    ihave H := ((trip d L qx.left qx.right fx O k g hin2 hin3).2 W' fb' fa') $$ [HxA HxB Hs Hb Ha HsG0 HsG1 HO]
    · isplitl []; · iexact Hmw
      isplitl [HxA]; · iexact HxA
      isplitl [HxB]; · iexact HxB
      isplitl [Hs]; · iexact Hs
      isplitl [Hb]; · iexact Hb
      isplitl [Ha]; · iexact Ha
      isplitl [HsG0]; · iexact HsG0
      isplitl [HsG1]; · iexact HsG1
      iexact HO
    iapply (wp_wand frame _ _) $$ [H]
    · iexact H
    iintro %a HP
    icases HP with ⟨HxA, HxB, Hs, ⟨%fb2, Hb⟩, Ha, HsG0, HsG1, %W2, %hW2, HO⟩
    isplitl []; · iexact Hmw
    isplitl [HxA]; · iexact HxA
    isplitl [HxB]; · iexact HxB
    isplitl [Hs]
    · iexists g; isplitr
      · ipureintro; exact hgv
      · iexact Hs
    isplitl [Hb]; · iexists _; iexact Hb
    isplitl [Ha]
    · iexists _; isplitr
      swap; · iexact Ha
      ipureintro
      exact writes_value d L fx fi k hk56 _ (rects_eq d L qx.left qx.right fx O k g hin2 hin3)
        (pieces_ok d L qx.left qx.right fx fi O k g hin2 hin3 (tree_leaf_eq d L fx fi k g hin2 hin3 hgv)) fa' hfa
    isplitl [HsG0]; · iexact HsG0
    isplitl [HsG1]; · iexact HsG1
    iexists W2; isplitr
    · ipureintro; intro p hp
      rcases hW2 p hp with h | h
      · exact hW' p h
      · exact .inr h
    · iexact HO
  · unfold invV
    isplitl [Hmw]; · iexact Hmw
    isplitl [HxA]; · iexact HxA
    isplitl [HxB]; · iexact HxB
    isplitl [Hs']
    · iexists _; isplitr
      swap; · iexact Hs'
      ipureintro; intro j
      exact (congrFun (View.write_whole_univ (Val := Elt F) cc1_scratch0 fs _) j).trans (fetch_eq (F := F) L fi j)
    isplitl [Hb']; · iexists _; iexact Hb'
    isplitl [Ha']
    · iexists _; isplitr
      swap; · iexact Ha'
      ipureintro; intro y hy; exact absurd hy (Nat.not_lt_zero _)
    isplitl [HsG0]; · iexact HsG0
    isplitl [HsG1]; · iexact HsG1
    iexists _; isplitr
    swap; · iexact HO
    ipureintro; intro p hp
    rcases Finset.mem_insert.mp hp with hp | hp; · exact .inr (hp ▸ rfl)
    exact .inl hp
  iintro %_ HI
  unfold invV
  icases HI with ⟨-, HxA, HxB, ⟨%g, %hgv, Hs⟩, ⟨%fb', Hb⟩, ⟨%fa', %hfa, Ha⟩, HsG0, HsG1, %W', %hW', HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (invV d L qx fx fi O W (fun _ => 8 * (k1_t1_loop L).trips)) $$ [Hmw HxA HxB Hs Hb Ha HsG0 HsG1 HO]
  case region =>
    intro k _
    exact absurd k.isLt (Nat.not_lt.2 (Nat.le_trans (k1_t2_abs L).2.1 (Nat.zero_le _)))
  · unfold invV
    isplitl [Hmw]; · iexact Hmw
    isplitl [HxA]; · iexact HxA
    isplitl [HxB]; · iexact HxB
    isplitl [Hs]
    · iexists g; isplitr
      · ipureintro; exact hgv
      · iexact Hs
    isplitl [Hb]; · iexists _; iexact Hb
    isplitl [Ha]
    · iexists fa'; isplitr
      · ipureintro; exact hfa
      · iexact Ha
    isplitl [HsG0]; · iexact HsG0
    isplitl [HsG1]; · iexact HsG1
    iexists _; isplitr
    swap; · iexact HO
    ipureintro; exact hW'
  iintro %_ HI
  unfold invV
  icases HI with ⟨-, HxA, HxB, ⟨%g2, %hgv2, Hs⟩, ⟨%fb2, Hb⟩, ⟨%fa2, %hfa2, Ha⟩, HsG0, HsG1, %W2, %hW2, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  by_cases h1 : k1_cond1 L = 1#1
  · have h2 : ¬ k1_cond2 L = 1#1 := fun h => by
      have := (cond1_iff L).mp h1; have := (cond2_iff L).mp h; omega
    ihave Ho' := (Entails.of_eq (oPts_blk0 (F := F) d L h1 fo)) $$ Ho
    have hall : ∀ y : S448x128.Idx, fa2 y = Gout d L fx fi y := fun y => hfa2 y (by
      have := (trips_eq L).trans (by rw [(cond1_iff L).mp h1] : 56 - 32 * (L 0).val = 56)
      have hy := (y 0).isLt; change (y 0).val < 448 at hy
      show (y 0).val < 8 * (k1_t1_loop L).trips; omega)
    sl_exec
    sl_step
    ihave Hx := (pointsTo_share (PosShare.mem_left_op_right qx)).2 $$ [HxA HxB]
    · isplitl [HxA] <;> iassumption
    isplitl [Hx Hi' Ho']
    · isplitl [Hx]; · iexact Hx
      isplitl [Hi']; · iexact Hi'
      iapply (Entails.of_eq (oPts_blk0 (F := F) d L h1 _).symm)
      iapply (Entails.of_eq (pointsTo_congr (copyout0_value d L h1 fx fi fo fa2 hall))); iexact Ho'
    isplitl [Hs Hb Ha Hbufs]
    · isplitl [Hs]; · iexists _; iexact Hs
      isplitl [Hb]; · iexists _; iexact Hb
      isplitl [Ha]; · iexists _; iexact Ha
      iexact Hbufs
    isplitl [HsG0 HsG1 HsC0 HsC1 HsC2 Hsems]
    · isplitl [HsG0]; · iexact HsG0
      isplitl [HsG1]; · iexact HsG1
      isplitl [HsC0]; · iexact HsC0
      isplitl [HsC1]; · iexact HsC1
      isplitl [HsC2]; · iexact HsC2
      iexact Hsems
    iexists _; isplitr
    swap; · iexact HO
    ipureintro; intro p hp
    rcases Finset.mem_insert.mp hp with hp | hp; · exact .inr (hp ▸ rfl)
    exact hW2 p hp
  · have h2 : k1_cond2 L = 1#1 := (cond2_iff L).mpr (by
      have := (cond1_iff L).not.mp h1; have := (L 0).isLt; change (L 0).val < 2 at this; omega)
    ihave Ho' := (Entails.of_eq (oPts_blk1 (F := F) d L h1 h2 fo)) $$ Ho
    have h192 : ∀ y : S448x128.Idx, (y 0).val < 192 → fa2 y = Gout d L fx fi y := fun y hy => hfa2 y (by
      have := (trips_eq L).trans (by rw [(cond2_iff L).mp h2] : 56 - 32 * (L 0).val = 24)
      show (y 0).val < 8 * (k1_t1_loop L).trips; omega)
    sl_exec
    sl_step
    ihave Hx := (pointsTo_share (PosShare.mem_left_op_right qx)).2 $$ [HxA HxB]
    · isplitl [HxA] <;> iassumption
    isplitl [Hx Hi' Ho']
    · isplitl [Hx]; · iexact Hx
      isplitl [Hi']; · iexact Hi'
      iapply (Entails.of_eq (oPts_blk1 (F := F) d L h1 h2 _).symm)
      iapply (Entails.of_eq (pointsTo_congr (copyout1_value d L h2 fx fi fo fa2 h192))); iexact Ho'
    isplitl [Hs Hb Ha Hbufs]
    · isplitl [Hs]; · iexists _; iexact Hs
      isplitl [Hb]; · iexists _; iexact Hb
      isplitl [Ha]; · iexists _; iexact Ha
      iexact Hbufs
    isplitl [HsG0 HsG1 HsC0 HsC1 HsC2 Hsems]
    · isplitl [HsG0]; · iexact HsG0
      isplitl [HsG1]; · iexact HsG1
      isplitl [HsC0]; · iexact HsC0
      isplitl [HsC1]; · iexact HsC1
      isplitl [HsC2]; · iexact HsC2
      iexact Hsems
    iexists _; isplitr
    swap; · iexact HO
    ipureintro; intro p hp
    rcases Finset.mem_insert.mp hp with hp | hp; · exact .inr (hp ▸ rfl)
    exact hW2 p hp

/-- The same, with the program's facts supplied: the form the launch's per-tile obligation is stated in. -/
theorem tile_rule (qx qi : PosShare TreeShare)
    (fx : Buf (Elt F) (xLoc d)) (fi : Buf (Elt F) (iLoc d)) (fo : Buf (Elt F) (oLoc d))
    (hidx : ∀ j, (fi j).toNat < 100000)
    (O : CellTallies nD τ sig (HIx 1)) (W : Waits sig (HIx 1)) (hO : ∀ g, O g none = 0) :
    iprop(levAts (K (F := F)).L (K (F := F)).lev ∗ emp
        ∗ (xPts d qx fx ∗ iPts d qi fi ∗ oPts d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) iV (Memref.isWhole_whole _) oV (Memref.isWhole_whole _)
            sV (Memref.isWhole_whole _) bV (Memref.isWhole_whole _) aV (Memref.isWhole_whole _)
            cc1_scratch3 cc1_scratch4 cc1_scoped0 cc1_scoped1 cc1_scoped2)
          fun _ => iprop((xPts d qx fx ∗ iPts d qi fi ∗ oPts d L (AggBuf d fx fi))
            ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body d L qx qi fx fi fo hidx (facts (F := F)) O W hO

end Cert.Proof.Tile

end
-- ==== Proof.InstTile.lean ====
/-
  The tile rule, from the body's proof at a symbolic tile.
-/
import proofs.«219373_g11218454577211_week1_w3_1378_31_alg».proof.Proof.TileObl
import proofs.«219373_g11218454577211_week1_w3_1378_31_alg».proof.Proof.TileBody

noncomputable section

namespace Cert.Proof.KI

open Cert.KernelIdeal
open Idealize.ShloMosaic

variable {F : FTy → Type} [FloatOps F]

theorem tileRule : TileRule (F := F) := fun d L qx qi fx fi fo hidx O W hO =>
  Cert.Proof.Tile.tile_body d L qx qi fx fi fo hidx facts O W hO

end Cert.Proof.KI

end
-- ==== Proof.Bits.Common.lean ====
/-
  The program as the SparseCore launch theorem reads it: the call table, the body table beneath it, the
  processors' variants, and the three HBM arrays the SparseCore kernel is called with — the transformed
  embeddings (100000 rows of 128), the flat list of row numbers (10496 hyperedge slots of 32, the last 496
  padding), and the padded output (10240 rows of 128).  Tile (c, s) owns output rows
  [640 s + 448 c, 640 s + 448 c + (448 − 256 c)): 448 rows on SparseCore 0, 192 on SparseCore 1, and the
  thirty-two intervals tile the 10240 rows.
-/
import proofs.«219373_g11218454577211_week1_w3_1378_31_alg».proof.Defs
import proofs.«219373_g11218454577211_week1_w3_1378_31_alg».proof.Proof.Gen.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are four unscoped regular semaphores, no SparseCore buffer is reassigned per task, and the
    one call has a single body. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra

Three components side by side: the launch handshakes' rounds (duties numbered), the TensorCore pipeline's staging
cells' rounds (duties unnamed), and the local transfers' counters. -/

abbrev UH : Type := URounds (GSem nD τ sig) ℕ
abbrev UP : Type := UR sig nD τ
abbrev UU : Type := UH × (UP × Counters)

/-- The handshakes' component: the left factor. -/
abbrev EH : Emb UH (MT nD τ sig (HIx 1) (Elt F) ℕ UU ℕ) := embL
/-- The pipeline's component: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The three arrays of the SparseCore call, where the TensorCore's thread names them -/

abbrev xLoc (d : Dev nD) : Loc nD τ sig := (SparseCore.T d).loc main_v2
abbrev iLoc (d : Dev nD) : Loc nD τ sig := (SparseCore.T d).loc main_v5
abbrev oLoc (d : Dev nD) : Loc nD τ sig := (SparseCore.T d).loc main_v6

end Cert.Proof.KB

end
-- ==== Proof.Bits.HostOps.lean ====
/-
  @main's host operations around the two calls, as operations on the TensorCore's fifteen HBM arrays held whole:
  the weight transposed, the bias as a row, the hyperedge table as 10000 rows of 32 row numbers, padded by 496 rows
  of zeros and flattened, and the first 10000 rows of the padded output.
-/
import proofs.«219373_g11218454577211_week1_w3_1378_31_alg».proof.Proof.Bits.Common

noncomputable section

namespace Cert.Proof.KB

open Cert.Kernel
open Cert.Kernel.Shapes1.Facts₀ Cert.Kernel.Shapes3.Facts₀

open Idealize.ShloMosaic
open Idealize.ShloMosaic.SparseCore (S V T)
open Idealize.ShloMosaic.StableHlo (held held_split held_sub_split held_congr held_sdiff_result wp_hlo_within)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev c' : DevRef τ sig := Proc.devRef .tc (main_c : Ref sig .tc)
abbrev cv' : DevRef τ sig := Proc.devRef .tc (main_call0_v0 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- The TensorCore's arrays that no region scopes: the five arguments and the ten values of @main. -/
abbrev S15 : Finset (DevRef τ sig) := {a0', a1', a2', a3', a4', v0', v1', v2', v3', c', cv', v4', v5', v6', v7'}

/-! ## The operations -/

abbrev opT : HloOp τ sig (Elt F) :=
  StableHlo.unary main_arg3 main_v0 ((transpose S128x128 [1, 0] · transposes_S128x128_S128x128_1_0) : (⟨S128x128, .f32⟩ : BufTy).Contents (Elt F) → (⟨S128x128, .f32⟩ : BufTy).Contents (Elt F))
abbrev opB : HloOp τ sig (Elt F) := StableHlo.reshape main_arg4 main_v1 rfl shapeCasts_S128_S1x128
abbrev opH : HloOp τ sig (Elt F) := StableHlo.reshape main_arg2 main_v3 rfl shapeCasts_S10000x4x8_S10000x32
abbrev opC : HloOp τ sig (Elt F) := StableHlo.nullary main_c (constantI S_ 32 0#32)
abbrev padRows : StableHlo.TRef sig ⟨S10000x32, .i32⟩ := .of main_v3
abbrev padZero : StableHlo.TRef sig ⟨S_, .i32⟩ := .of main_c
abbrev opCv : HloOp τ sig (Elt F) := StableHlo.TRef.unary padZero main_call0.v0 id
abbrev opP : HloOp τ sig (Elt F) :=
  StableHlo.TRef.binary padRows main_call0.v0 main_call0.v1 (fun x v => pad S10496x32 ![0, 0] ![496, 0] ![0, 0] x v pads_S10000x32_S10496x32_04960_000 h_S_)
abbrev opI : HloOp τ sig (Elt F) := StableHlo.reshape main_v4 main_v5 rfl shapeCasts_S10496x32_S335872
abbrev opO : HloOp τ sig (Elt F) :=
  StableHlo.unary main_v6 main_v7 ((extractStridedSlice S10000x128 ![0, 0] · slices_S10240x128_S10000x128_0_0) : (⟨S10240x128, .f32⟩ : BufTy).Contents (Elt F) → (⟨S10000x128, .f32⟩ : BufTy).Contents (Elt F))

theorem hT : (opT (F := F)).bufs ⊆ S15 := show ({a3', v0'} : Finset (DevRef τ sig)) ⊆ S15 by decide
theorem hB : (opB (F := F)).bufs ⊆ S15 := show ({a4', v1'} : Finset (DevRef τ sig)) ⊆ S15 by decide
theorem hH : (opH (F := F)).bufs ⊆ S15 := show ({a2', v3'} : Finset (DevRef τ sig)) ⊆ S15 by decide
theorem hC : (opC (F := F)).bufs ⊆ S15 := show ({c'} : Finset (DevRef τ sig)) ⊆ S15 by decide
theorem hCv : (opCv (F := F)).bufs ⊆ S15 := show ({c', cv'} : Finset (DevRef τ sig)) ⊆ S15 by decide
theorem hP : (opP (F := F)).bufs ⊆ S15 := show ({v3', cv', v4'} : Finset (DevRef τ sig)) ⊆ S15 by decide
theorem hI : (opI (F := F)).bufs ⊆ S15 := show ({v4', v5'} : Finset (DevRef τ sig)) ⊆ S15 by decide
theorem hO : (opO (F := F)).bufs ⊆ S15 := show ({v6', v7'} : Finset (DevRef τ sig)) ⊆ S15 by decide

end Cert.Proof.KB

end
-- ==== Proof.Bits.Pay.lean ====
/-
  What the launch handshakes carry.  The TensorCore hands each SparseCore a read share of the transformed
  embeddings and of the list of row numbers, and the rows of the padded output its sixteen tiles will write;
  the sequencer hands each tile a read share of its own shares and that tile's rows.  Each comes back as it went,
  the output rows now holding the hyperedge means.  Read shares split n ways leave a remainder, which waits with
  the splitter and is joined again when the parts return; the output splits along pairwise disjoint row sets.
-/
import proofs.«219373_g11218454577211_week1_w3_1378_31_alg».proof.Proof.Bits.Common
import Idealize.ShloMosaic.Lib.Transfers

noncomputable section

namespace Cert.Proof.KB

open Cert.Kernel

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

/-- How the 10240 × 128 output is dealt: a set of entries per SparseCore and tile, pairwise disjoint, together
    everything. -/
structure Tiling (tile : Fin 2 → Fin 16 → Finset S10240x128.Idx) : Prop where
  tiles_disjoint : ∀ c, ∀ i ∈ (Finset.univ : Finset (Fin 16)), ∀ j ∈ (Finset.univ : Finset (Fin 16)), i ≠ j → Disjoint (tile c i) (tile c j)
  cores_disjoint : ∀ c ∈ (Finset.univ : Finset (Fin 2)), ∀ c' ∈ (Finset.univ : Finset (Fin 2)), c ≠ c' →
    Disjoint ((Finset.univ : Finset (Fin 16)).biUnion (tile c)) ((Finset.univ : Finset (Fin 16)).biUnion (tile c'))
  cover : (Finset.univ : Finset (Fin 2)).biUnion (fun c => (Finset.univ : Finset (Fin 16)).biUnion (tile c)) = Finset.univ

variable (tile : Fin 2 → Fin 16 → Finset S10240x128.Idx)

/-- The entries SparseCore `c`'s tiles write. -/
abbrev coreSet (c : Fin 2) : Finset S10240x128.Idx := (Finset.univ : Finset (Fin 16)).biUnion (tile c)

/-- SparseCore `c`'s read share of a table, and tile `i`'s share of that. -/
abbrev qC (c : Fin 2) : PosShare TreeShare := shareTok fullShare 2 c
abbrev qT (c : Fin 2) (i : Fin 16) : PosShare TreeShare := shareTok (qC c) 16 i

abbrev cC (c : Fin ((K (F := F)).nCore 0)) : Fin 2 := Fin.cast nCore_zero c
abbrev iT (i : Fin ((K (F := F)).nSub 0)) : Fin 16 := Fin.cast nSub_zero i

variable (fx : (d : Dev nD) → Buf (Elt F) (xLoc d)) (fi : (d : Dev nD) → Buf (Elt F) (iLoc d))
variable (fo fr : (d : Dev nD) → Buf (Elt F) (oLoc d))

def P : (K (F := F)).Pay (nD := nD) (Val := Elt F) (Name := ℕ) (U := UU) where
  st := fun q d c => match q with
    | 0 => iprop((xLoc d ↦{qC (cC c)} fx d) ∗ (iLoc d ↦{qC (cC c)} fi d) ∗ oLoc d ↦[coreSet tile (cC c)]{fullShare} fo d)
  dn := fun q d c => match q with
    | 0 => iprop((xLoc d ↦{qC (cC c)} fx d) ∗ (iLoc d ↦{qC (cC c)} fi d) ∗ oLoc d ↦[coreSet tile (cC c)]{fullShare} fr d)
  go := fun q d c i => match q with
    | 0 => iprop((xLoc d ↦{qT (cC c) (iT i)} fx d) ∗ (iLoc d ↦{qT (cC c) (iT i)} fi d) ∗ oLoc d ↦[tile (cC c) (iT i)]{fullShare} fo d)
  td := fun q d c i => match q with
    | 0 => iprop((xLoc d ↦{qT (cC c) (iT i)} fx d) ∗ (iLoc d ↦{qT (cC c) (iT i)} fi d) ∗ oLoc d ↦[tile (cC c) (iT i)]{fullShare} fr d)
  x := fun _ _ => iprop(emp)

/-! ## The payloads can be stored in a cell's invariant -/

instance P_storable : (P (F := F) tile fx fi fo fr).IsStorable where
  st q d c := match q with
    | 0 => (inferInstance : BI.Storable (upEmb : UEmb _ 𝕄)
      iprop((xLoc d ↦{qC (cC c)} fx d) ∗ (iLoc d ↦{qC (cC c)} fi d) ∗ oLoc d ↦[coreSet tile (cC c)]{fullShare} fo d))
  dn q d c := match q with
    | 0 => (inferInstance : BI.Storable (upEmb : UEmb _ 𝕄)
      iprop((xLoc d ↦{qC (cC c)} fx d) ∗ (iLoc d ↦{qC (cC c)} fi d) ∗ oLoc d ↦[coreSet tile (cC c)]{fullShare} fr d))
  go q d c i := match q with
    | 0 => (inferInstance : BI.Storable (upEmb : UEmb _ 𝕄)
      iprop((xLoc d ↦{qT (cC c) (iT i)} fx d) ∗ (iLoc d ↦{qT (cC c) (iT i)} fi d) ∗ oLoc d ↦[tile (cC c) (iT i)]{fullShare} fo d))
  td q d c i := match q with
    | 0 => (inferInstance : BI.Storable (upEmb : UEmb _ 𝕄)
      iprop((xLoc d ↦{qT (cC c) (iT i)} fx d) ∗ (iLoc d ↦{qT (cC c) (iT i)} fi d) ∗ oLoc d ↦[tile (cC c) (iT i)]{fullShare} fr d))

/-! ## A SparseCore's holdings split among its sixteen tiles, and gathered again -/

theorem bigSep_tasks (Φ : Fin 16 → sProp 𝕄) :
    (bigSep Finset.univ fun i : Fin ((K (F := F)).nSub 0) => Φ (iT i)) = bigSep Finset.univ Φ :=
  bigSep_congr fun _ _ => congrArg Φ (Fin.ext rfl)

theorem vecSplit (ht : Tiling tile) : (K (F := F)).VecSplit' (P tile fx fi fo fr) 0 := by
  intro d c
  show iprop((xLoc d ↦{qC (cC c)} fx d) ∗ (iLoc d ↦{qC (cC c)} fi d) ∗ oLoc d ↦[coreSet tile (cC c)]{fullShare} fo d) ⊢ |={Set.univ}=> iprop(
      (bigSep Finset.univ fun i : Fin ((K (F := F)).nSub 0) =>
        iprop((xLoc d ↦{qT (cC c) (iT i)} fx d) ∗ (iLoc d ↦{qT (cC c) (iT i)} fi d) ∗ oLoc d ↦[tile (cC c) (iT i)]{fullShare} fo d))
      ∗ ((bigSep Finset.univ fun i : Fin ((K (F := F)).nSub 0) =>
          iprop((xLoc d ↦{qT (cC c) (iT i)} fx d) ∗ (iLoc d ↦{qT (cC c) (iT i)} fi d) ∗ oLoc d ↦[tile (cC c) (iT i)]{fullShare} fr d))
          -∗ iprop((xLoc d ↦{qC (cC c)} fx d) ∗ (iLoc d ↦{qC (cC c)} fi d) ∗ oLoc d ↦[coreSet tile (cC c)]{fullShare} fr d)))
  rw [bigSep_tasks (F := F) (fun i => iprop((xLoc d ↦{qT (cC c) i} fx d) ∗ (iLoc d ↦{qT (cC c) i} fi d) ∗ oLoc d ↦[tile (cC c) i]{fullShare} fo d)),
    bigSep_tasks (F := F) (fun i => iprop((xLoc d ↦{qT (cC c) i} fx d) ∗ (iLoc d ↦{qT (cC c) i} fi d) ∗ oLoc d ↦[tile (cC c) i]{fullShare} fr d)),
    bigSep_sep', bigSep_sep', bigSep_sep', bigSep_sep']
  rw [pointsTo_biUnion Finset.univ (ℓ := oLoc d) (f := fo d) (tile (cC c)) (ht.tiles_disjoint (cC c)),
    pointsTo_biUnion Finset.univ (ℓ := oLoc d) (f := fr d) (tile (cC c)) (ht.tiles_disjoint (cC c))]
  iintro ⟨Hx, Hi, Ho⟩
  ihave Hx' := (pointsTo_toks_split (ℓ := xLoc d) (f := fx d) (qC (cC c)) 16) $$ Hx
  icases Hx' with ⟨Hxd, Hxs⟩
  ihave Hi' := (pointsTo_toks_split (ℓ := iLoc d) (f := fi d) (qC (cC c)) 16) $$ Hi
  icases Hi' with ⟨Hid, His⟩
  imodintro
  isplitl [Hxs His Ho]
  · isplitl [Hxs]; · iexact Hxs
    isplitl [His]; · iexact His
    iexact Ho
  iintro ⟨Hxs, His, Ho⟩
  isplitl [Hxd Hxs]
  · iapply (pointsTo_toks_join (ℓ := xLoc d) (f := fx d) (qC (cC c)) 16)
    isplitl [Hxd]; · iexact Hxd
    iexact Hxs
  isplitl [Hid His]
  · iapply (pointsTo_toks_join (ℓ := iLoc d) (f := fi d) (qC (cC c)) 16)
    isplitl [Hid]; · iexact Hid
    iexact His
  iexact Ho

/-! ## The call's operands dealt to the two SparseCores, and gathered again -/

theorem bigSep_cores (Φ : Fin 2 → sProp 𝕄) :
    (bigSep Finset.univ fun c : Fin ((K (F := F)).nCore 0) => Φ (cC c)) = bigSep Finset.univ Φ :=
  bigSep_congr fun _ _ => congrArg Φ (Fin.ext rfl)

theorem st_intro (ht : Tiling tile) (d : Dev nD) :
    iprop((xLoc d ↦{fullShare} fx d) ∗ (iLoc d ↦{fullShare} fi d) ∗ oLoc d ↦{fullShare} fo d)
      ⊢ iprop((bigSep Finset.univ fun c : Fin ((K (F := F)).nCore 0) => (P tile fx fi fo fr).st 0 d c)
          ∗ (xLoc d ↦{shareDrop fullShare 2} fx d) ∗ (iLoc d ↦{shareDrop fullShare 2} fi d)) := by
  show _ ⊢ iprop((bigSep Finset.univ fun c : Fin ((K (F := F)).nCore 0) =>
      iprop((xLoc d ↦{qC (cC c)} fx d) ∗ (iLoc d ↦{qC (cC c)} fi d) ∗ oLoc d ↦[coreSet tile (cC c)]{fullShare} fo d)) ∗ _ ∗ _)
  rw [bigSep_cores (F := F) (fun c => iprop((xLoc d ↦{qC c} fx d) ∗ (iLoc d ↦{qC c} fi d) ∗ oLoc d ↦[coreSet tile c]{fullShare} fo d)),
    bigSep_sep', bigSep_sep']
  rw [← pointsTo_biUnion Finset.univ (ℓ := oLoc d) (f := fo d) (coreSet tile) ht.cores_disjoint, ht.cover]
  iintro ⟨Hx, Hi, Ho⟩
  ihave Hx' := (pointsTo_toks_split (ℓ := xLoc d) (f := fx d) fullShare 2) $$ Hx
  icases Hx' with ⟨Hxd, Hxs⟩
  ihave Hi' := (pointsTo_toks_split (ℓ := iLoc d) (f := fi d) fullShare 2) $$ Hi
  icases Hi' with ⟨Hid, His⟩
  isplitl [Hxs His Ho]
  · isplitl [Hxs]; · iexact Hxs
    isplitl [His]; · iexact His
    iexact Ho
  isplitl [Hxd]; · iexact Hxd
  iexact Hid

theorem dn_elim (ht : Tiling tile) (d : Dev nD) :
    iprop((bigSep Finset.univ fun c : Fin ((K (F := F)).nCore 0) => (P tile fx fi fo fr).dn 0 d c)
        ∗ (xLoc d ↦{shareDrop fullShare 2} fx d) ∗ (iLoc d ↦{shareDrop fullShare 2} fi d))
      ⊢ iprop((xLoc d ↦{fullShare} fx d) ∗ (iLoc d ↦{fullShare} fi d) ∗ oLoc d ↦{fullShare} fr d) := by
  show iprop((bigSep Finset.univ fun c : Fin ((K (F := F)).nCore 0) =>
      iprop((xLoc d ↦{qC (cC c)} fx d) ∗ (iLoc d ↦{qC (cC c)} fi d) ∗ oLoc d ↦[coreSet tile (cC c)]{fullShare} fr d)) ∗ _ ∗ _) ⊢ _
  rw [bigSep_cores (F := F) (fun c => iprop((xLoc d ↦{qC c} fx d) ∗ (iLoc d ↦{qC c} fi d) ∗ oLoc d ↦[coreSet tile c]{fullShare} fr d)),
    bigSep_sep', bigSep_sep']
  rw [← pointsTo_biUnion Finset.univ (ℓ := oLoc d) (f := fr d) (coreSet tile) ht.cores_disjoint, ht.cover]
  iintro ⟨⟨Hxs, His, Ho⟩, Hxd, Hid⟩
  isplitl [Hxd Hxs]
  · iapply (pointsTo_toks_join (ℓ := xLoc d) (f := fx d) fullShare 2)
    isplitl [Hxd]; · iexact Hxd
    iexact Hxs
  isplitl [Hid His]
  · iapply (pointsTo_toks_join (ℓ := iLoc d) (f := fi d) fullShare 2)
    isplitl [Hid]; · iexact Hid
    iexact His
  iexact Ho

end Cert.Proof.KB

end
-- ==== Proof.Bits.MainTC.lean ====
/-
  @main on the TensorCore, through the SparseCore launch: the two host operations before the matmul region, the
  region, the five host operations that lay the row numbers out, the SparseCore call, the final slice.
-/
import proofs.«219373_g11218454577211_week1_w3_1378_31_alg».proof.Proof.Bits.HostOps
import proofs.«219373_g11218454577211_week1_w3_1378_31_alg».proof.Proof.Bits.Pay
import Idealize.ShloMosaic.Lib.Pipeline.Frame

noncomputable section

namespace Cert.Proof.KB

open Cert.Kernel

open Idealize.ShloMosaic
open Idealize.ShloMosaic.SparseCore (S V T)
open Idealize.ShloMosaic.SparseCore.Cfg (HIx Pay)
open Idealize.ShloMosaic.StableHlo (held held_split held_sub_split held_congr held_sdiff_result wp_hlo_within)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

/-- The TensorCore owes nothing at the index its own waits are recorded at. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

theorem uT : (opT (F := F)).bufs ⊆ ucRefs τ sig := sub_ucRefs _ (show ({a3', v0'} : Finset (DevRef τ sig)) ⊆ StableHlo.tcRefs τ sig by decide)
theorem uB : (opB (F := F)).bufs ⊆ ucRefs τ sig := sub_ucRefs _ (show ({a4', v1'} : Finset (DevRef τ sig)) ⊆ StableHlo.tcRefs τ sig by decide)
theorem uH : (opH (F := F)).bufs ⊆ ucRefs τ sig := sub_ucRefs _ (show ({a2', v3'} : Finset (DevRef τ sig)) ⊆ StableHlo.tcRefs τ sig by decide)
theorem uC : (opC (F := F)).bufs ⊆ ucRefs τ sig := sub_ucRefs _ (show ({c'} : Finset (DevRef τ sig)) ⊆ StableHlo.tcRefs τ sig by decide)
theorem uCv : (opCv (F := F)).bufs ⊆ ucRefs τ sig := sub_ucRefs _ (show ({c', cv'} : Finset (DevRef τ sig)) ⊆ StableHlo.tcRefs τ sig by decide)
theorem uP : (opP (F := F)).bufs ⊆ ucRefs τ sig := sub_ucRefs _ (show ({v3', cv', v4'} : Finset (DevRef τ sig)) ⊆ StableHlo.tcRefs τ sig by decide)
theorem uI : (opI (F := F)).bufs ⊆ ucRefs τ sig := sub_ucRefs _ (show ({v4', v5'} : Finset (DevRef τ sig)) ⊆ StableHlo.tcRefs τ sig by decide)
theorem uO : (opO (F := F)).bufs ⊆ ucRefs τ sig := sub_ucRefs _ (show ({v6', v7'} : Finset (DevRef τ sig)) ⊆ StableHlo.tcRefs τ sig by decide)

variable (m : (ℓ : Loc nD τ sig) → Buf (Elt F) ℓ) (ρ : Dev nD → PrngReg)

/-- The launch valuation, and the valuation the matmul region finds. -/
abbrev V0 (d : Dev nD) : Valuation τ sig (Elt F) := fun b => m (d, b)
abbrev V2 (d : Dev nD) : Valuation τ sig (Elt F) := (opB (F := F)).result ((opT (F := F)).result (V0 m d))

variable (XF : (d : Dev nD) → Valuation τ sig (Elt F) → v2'.ty.Contents (Elt F))
variable (AG : (d : Dev nD) → Buf (Elt F) (xLoc d) → Buf (Elt F) (iLoc d) → Buf (Elt F) (oLoc d))
variable (tile : Fin 2 → Fin 16 → Finset S10240x128.Idx)

/-- After the matmul region; before the SparseCore call; after it; at the end. -/
abbrev V3 (d : Dev nD) : Valuation τ sig (Elt F) := Function.update (V2 m d) v2' (XF d (V2 m d))
abbrev V8 (d : Dev nD) : Valuation τ sig (Elt F) :=
  (opI (F := F)).result ((opP (F := F)).result ((opCv (F := F)).result ((opC (F := F)).result ((opH (F := F)).result (V3 m XF d)))))
abbrev fxv (d : Dev nD) : Buf (Elt F) (xLoc d) := V8 m XF d v2'
abbrev fiv (d : Dev nD) : Buf (Elt F) (iLoc d) := V8 m XF d v5'
abbrev fov (d : Dev nD) : Buf (Elt F) (oLoc d) := V8 m XF d v6'
abbrev frv (d : Dev nD) : Buf (Elt F) (oLoc d) := AG d (fxv m XF d) (fiv m XF d)
abbrev V9 (d : Dev nD) : Valuation τ sig (Elt F) := Function.update (V8 m XF d) v6' (frv m XF AG d)
abbrev V10 (d : Dev nD) : Valuation τ sig (Elt F) := (opO (F := F)).result (V9 m XF AG d)

abbrev PP : (K (F := F)).Pay (nD := nD) (Val := Elt F) (Name := ℕ) (U := UU) :=
  P tile (fxv m XF) (fiv m XF) (fov m XF) (frv m XF AG)

/-- The TensorCore's state before a call: what it owes, and the rest. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_split (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := rfl

abbrev T3 : Finset (DevRef τ sig) := {v2', v5', v6'}
theorem T3_sub : T3 ⊆ ucRefs τ sig := by decide

omit [FloatOps F] in
theorem held_T3 (d : Dev nD) (W : Valuation τ sig (Elt F)) :
    (held (SparseCore.T d) T3 W : sProp 𝕄) = iprop((xLoc d ↦{fullShare} W v2') ∗ (iLoc d ↦{fullShare} W v5') ∗ oLoc d ↦{fullShare} W v6') := by
  unfold held T3
  rw [SparseCore.bigSep_insert' (by decide), SparseCore.bigSep_insert' (by decide), bigSep_singleton]

/-- What the matmul region's proof supplies: from the staging cells' ghost state, the region boundary, every
    unscoped array held whole and what the TensorCore owes before call 0, the region runs and gives them back with the
    fourth array at `XF` of what it found. -/
def RegionRule : Prop :=
  ∀ (d : Dev nD) (W : Valuation τ sig (Elt F)) (Φ : PUnit → sProp 𝕄),
    iprop(levAts (K (F := F)).L (K (F := F)).lev ∗ boundary (SparseCore.T d) ∗ held (SparseCore.T d) (ucRefs τ sig) W
        ∗ (∃ Wt, ⌜(K (F := F)).WBelow (SparseCore.T d) Wt (8 * 0)⌝ ∗ owes (SparseCore.T d) ((K (F := F)).Otc d 0) Wt)
        ∗ Pipeline.cellsGhost cfgs EP 0 d ∗ Pipeline.toksInit cfgs EP 0 d
        ∗ (iprop(boundary (SparseCore.T d) ∗ held (SparseCore.T d) (ucRefs τ sig) (Function.update W v2' (XF d W))
            ∗ (∃ Wt, ⌜(K (F := F)).WBelow (SparseCore.T d) Wt (8 * 0)⌝ ∗ owes (SparseCore.T d) ((K (F := F)).Otc d 0) Wt)) -∗ Φ ⟨⟩))
      ⊢ wp frame (wpE ((K (F := F)).defs (D (F := F))) 𝒱 (SparseCore.T d) none) Set.univ (Prog.lift (.customCall (SparseCore.inner (Pipeline.entry 0)) ())) Φ

/-- After the call the three arrays of the call sit among the rest again, the output now at the tiles' result. -/
theorem held_V9 (d : Dev nD) :
    (held (SparseCore.T d) (ucRefs τ sig) (V9 m XF AG d) : sProp 𝕄)
      = iprop(((xLoc d ↦{fullShare} fxv m XF d) ∗ (iLoc d ↦{fullShare} fiv m XF d) ∗ oLoc d ↦{fullShare} frv m XF AG d)
          ∗ held (SparseCore.T d) (ucRefs τ sig \ T3) (V8 m XF d)) := by
  rw [held_sub_split (SparseCore.T d) T3_sub (V9 m XF AG d), held_T3,
    held_congr (SparseCore.T d) (S := ucRefs τ sig \ T3) (V := V9 m XF AG d) (V' := V8 m XF d)
      (fun b hb => by
        have hne : b ≠ v6' := fun e => (Finset.mem_sdiff.mp hb).2 (by rw [e]; exact (by decide : v6' ∈ T3))
        exact Function.update_of_ne hne _ _)]
  dsimp only [V9]
  rw [Function.update_of_ne (show v2' ≠ v6' by decide), Function.update_of_ne (show v5' ≠ v6' by decide), Function.update_self]

/-- @main on device `d`'s TensorCore, from what the launch deals it and its pipeline's funded cells: the weight
    transposed and the bias laid as a row, the matmul region, the row numbers laid out, the SparseCore call over the three
    arrays dealt to the SparseCores and gathered again, the first 10000 rows sliced off; every array ends at the final
    valuation. -/
theorem hmain (hreg : RegionRule (F := F) XF) (ht : Tiling tile) (κ : GSem nD τ sig → ℕ) (d : Dev nD) :
    iprop((K (F := F)).ctx EH (PP m XF AG tile) κ ∗ (K (F := F)).tcSt EH d 0 ∗ (K (F := F)).tcRes m ρ d
        ∗ (Pipeline.cellsGhost cfgs EP 0 d ∗ Pipeline.toksInit cfgs EP 0 d))
      ⊢ wp frame (wpE ((K (F := F)).defs (D (F := F))) 𝒱 (SparseCore.T d) none) Set.univ (main d)
          fun _ => iprop((K (F := F)).tcSt EH d 1 ∗ held (SparseCore.T d) (ucRefs τ sig) (V10 m XF AG d)) := by
  unfold SparseCore.Cfg.tcRes
  rw [show (fun b : Ref sig .tc => m ((SparseCore.T d).loc b)) = fun b : Ref sig .tc => V0 m d b from rfl, unscopedBufs_held, tcSt_split]
  simp only [main, fn_pad.body, wp_bind, wp_pure]
  iintro ⟨#Hctx, ⟨HO, Hrest⟩, ⟨Hb, Hheld, -, -⟩, ⟨Hcg, Htk⟩⟩
  iapply (wp_hlo_within 𝒱 (SparseCore.T d) none Set.univ (op := opT) (S := ucRefs τ sig) uT (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opB) (S := ucRefs τ sig) uB (V := (opT (F := F)).result (V0 m d))) $$ [Hb Hheld]
  · isplitl [Hb]; · iexact Hb
    iexact Hheld
  iintro ⟨Hb, Hheld⟩
  rw [wp_ret]; imodintro
  -- the matmul region
  ihave Hlev := (SparseCore.Cfg.ctx_levAts κ) $$ Hctx
  iapply (hreg d (V2 m d) _) $$ [Hlev Hb Hheld HO Hcg Htk Hrest]
  isplitl [Hlev]; · iexact Hlev
  isplitl [Hb]; · iexact Hb
  isplitl [Hheld]; · iexact Hheld
  isplitl [HO]; · iexact HO
  isplitl [Hcg]; · iexact Hcg
  isplitl [Htk]; · iexact Htk
  iintro ⟨Hb, Hheld, HO⟩
  -- the row numbers laid out: 10000 rows of 32, 496 rows of zeros appended, flattened
  iapply (wp_hlo_within 𝒱 (SparseCore.T d) none Set.univ (op := opH) (S := ucRefs τ sig) uH (V := V3 m XF d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := ucRefs τ sig) uC (V := (opH (F := F)).result (V3 m XF d))) $$ [Hb Hheld]
  · isplitl [Hb]; · iexact Hb
    iexact Hheld
  iintro ⟨Hb, Hheld⟩
  rw [wp_ret]; imodintro
  iapply (wp_hlo_within 𝒱 (SparseCore.T d) none Set.univ (op := opCv) (S := ucRefs τ sig) uCv
      (V := (opC (F := F)).result ((opH (F := F)).result (V3 m XF d)))) $$ [Hb Hheld]
  · isplitl [Hb]; · iexact Hb
    iexact Hheld
  iintro ⟨Hb, Hheld⟩
  rw [wp_ret]; imodintro
  iapply (wp_hlo_within 𝒱 (SparseCore.T d) none Set.univ (op := opP) (S := ucRefs τ sig) uP
      (V := (opCv (F := F)).result ((opC (F := F)).result ((opH (F := F)).result (V3 m XF d))))) $$ [Hb Hheld]
  · isplitl [Hb]; · iexact Hb
    iexact Hheld
  iintro ⟨Hb, Hheld⟩
  rw [wp_ret]; imodintro; imodintro
  iapply (wp_hlo_within 𝒱 (SparseCore.T d) none Set.univ (op := opI) (S := ucRefs τ sig) uI
      (V := (opP (F := F)).result ((opCv (F := F)).result ((opC (F := F)).result ((opH (F := F)).result (V3 m XF d)))))) $$ [Hb Hheld]
  · isplitl [Hb]; · iexact Hb
    iexact Hheld
  iintro ⟨Hb, Hheld⟩
  rw [wp_ret]; imodintro
  -- the SparseCore call: the three arrays dealt to the two SparseCores and gathered again
  ihave Hh := (Entails.of_eq (held_sub_split (SparseCore.T d) T3_sub (V8 m XF d))) $$ Hheld
  icases Hh with ⟨H3, Hrst⟩
  ihave H3' := (Entails.of_eq (held_T3 (F := F) d (V8 m XF d))) $$ H3
  ihave Hst := (st_intro (F := F) tile (fxv m XF) (fiv m XF) (fov m XF) (frv m XF AG) ht d) $$ H3'
  icases Hst with ⟨Hst, Hxd, Hid⟩
  iapply ((K (F := F)).wp_run (D (F := F)) 𝒱 (EH := EH) (P := PP m XF AG tile) κ d 0) $$ [HO Hrest Hst Hb Hrst Hxd Hid]
  isplitr; · iexact Hctx
  isplitl [HO Hrest]
  · rw [tcSt_split]; isplitl [HO]; · iexact HO
    iexact Hrest
  isplitl [Hst]; · iexact Hst
  iintro ⟨Hst1, Hdn⟩
  ihave H3 := (dn_elim (F := F) tile (fxv m XF) (fiv m XF) (fov m XF) (frv m XF AG) ht d) $$ [Hdn Hxd Hid]
  · isplitl [Hdn]; · iexact Hdn
    isplitl [Hxd]; · iexact Hxd
    iexact Hid
  ihave Hheld := (Entails.of_eq (held_V9 (F := F) m XF AG d).symm) $$ [H3 Hrst]
  · isplitl [H3]; · iexact H3
    iexact Hrst
  -- the first 10000 rows of the padded output
  iapply (wp_hlo_within 𝒱 (SparseCore.T d) none Set.univ (op := opO) (S := ucRefs τ sig) uO (V := V9 m XF AG d)) $$ [Hb Hheld]
  · isplitl [Hb]; · iexact Hb
    iexact Hheld
  iintro ⟨Hb, Hheld⟩
  rw [wp_ret]; imodintro; imodintro
  isplitl [Hst1]; · iexact Hst1
  iexact Hheld

/-! ## Reading the claim off the final memory -/

abbrev T6 : Finset (DevRef τ sig) := {a0', a1', a2', a3', a4', v7'}
theorem T6_sub : T6 ⊆ ucRefs τ sig := by decide

omit [FloatOps F] in
theorem held_T6 (d : Dev nD) (W : Valuation τ sig (Elt F)) :
    (held (SparseCore.T d) T6 W : sProp 𝕄)
      = iprop(((SparseCore.T d).loc main_arg0 ↦{fullShare} W a0') ∗ ((SparseCore.T d).loc main_arg1 ↦{fullShare} W a1')
          ∗ ((SparseCore.T d).loc main_arg2 ↦{fullShare} W a2') ∗ ((SparseCore.T d).loc main_arg3 ↦{fullShare} W a3')
          ∗ ((SparseCore.T d).loc main_arg4 ↦{fullShare} W a4') ∗ (SparseCore.T d).loc main_v7 ↦{fullShare} W v7') := by
  unfold held T6
  rw [SparseCore.bigSep_insert' (by decide), SparseCore.bigSep_insert' (by decide), SparseCore.bigSep_insert' (by decide),
    SparseCore.bigSep_insert' (by decide), SparseCore.bigSep_insert' (by decide), bigSep_singleton]

/-- What the final memory holds at the five arguments and the result. -/
def fq (W : Dev nD → Valuation τ sig (Elt F)) (d : Dev nD) (s' : Phys nD τ sig (Elt F)) : Prop :=
  s'.mem.mem ((SparseCore.T d).loc main_arg0) = W d a0' ∧ s'.mem.mem ((SparseCore.T d).loc main_arg1) = W d a1'
    ∧ s'.mem.mem ((SparseCore.T d).loc main_arg2) = W d a2' ∧ s'.mem.mem ((SparseCore.T d).loc main_arg3) = W d a3'
    ∧ s'.mem.mem ((SparseCore.T d).loc main_arg4) = W d a4' ∧ s'.mem.mem ((SparseCore.T d).loc main_v7) = W d v7'

set_option maxRecDepth 16384 in
theorem hfin (W : Dev nD → Valuation τ sig (Elt F)) (d : Dev nD) (s' : Phys nD τ sig (Elt F)) :
    iprop(held (SparseCore.T d) (ucRefs τ sig) (W d) ∗ SI s') ⊢ (⌜fq W d s'⌝ : sProp 𝕄) := by
  rw [held_sub_split (SparseCore.T d) T6_sub (W d), held_T6]
  iintro ⟨⟨⟨H0, H1, H2, H3, H4, H7⟩, -⟩, HSI⟩
  ihave H := (persistent_entails_right (SI_pointsTo_agree (st := s') (ℓ := (SparseCore.T d).loc main_arg0) (I := Finset.univ) (q := fullShare) (f := W d a0'))) $$ [HSI H0]
  · isplitl [HSI]; · iexact HSI
    iexact H0
  icases H with ⟨%h0, HSI, -⟩
  ihave H := (persistent_entails_right (SI_pointsTo_agree (st := s') (ℓ := (SparseCore.T d).loc main_arg1) (I := Finset.univ) (q := fullShare) (f := W d a1'))) $$ [HSI H1]
  · isplitl [HSI]; · iexact HSI
    iexact H1
  icases H with ⟨%h1, HSI, -⟩
  ihave H := (persistent_entails_right (SI_pointsTo_agree (st := s') (ℓ := (SparseCore.T d).loc main_arg2) (I := Finset.univ) (q := fullShare) (f := W d a2'))) $$ [HSI H2]
  · isplitl [HSI]; · iexact HSI
    iexact H2
  icases H with ⟨%h2, HSI, -⟩
  ihave H := (persistent_entails_right (SI_pointsTo_agree (st := s') (ℓ := (SparseCore.T d).loc main_arg3) (I := Finset.univ) (q := fullShare) (f := W d a3'))) $$ [HSI H3]
  · isplitl [HSI]; · iexact HSI
    iexact H3
  icases H with ⟨%h3, HSI, -⟩
  ihave H := (persistent_entails_right (SI_pointsTo_agree (st := s') (ℓ := (SparseCore.T d).loc main_arg4) (I := Finset.univ) (q := fullShare) (f := W d a4'))) $$ [HSI H4]
  · isplitl [HSI]; · iexact HSI
    iexact H4
  icases H with ⟨%h4, HSI, -⟩
  ihave H := (SI_pointsTo_agree (st := s') (ℓ := (SparseCore.T d).loc main_v7) (I := Finset.univ) (q := fullShare) (f := W d v7')) $$ [HSI H7]
  · isplitl [HSI]; · iexact HSI
    iexact H7
  icases H with %h7
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h7 i (Finset.mem_univ i)⟩

end Cert.Proof.KB

end
-- ==== Proof.Bits.LaunchElem.lean ====
/-
  The launch element of the ghost state: the handshakes' rounds at their initial positions, the TensorCore
  pipeline's staging cells at theirs, and the transfers' counters empty.  The first goes to the launch theorem, the
  second funds each device's staging cells and their launch tokens, which the matmul region consumes.
-/
import proofs.«219373_g11218454577211_week1_w3_1378_31_alg».proof.Proof.Bits.Pay
import proofs.«219373_g11218454577211_week1_w3_1378_31_alg».proof.Proof.Gen.Kernel.Launch
import Idealize.ShloMosaic.Lib.Pipeline.Sound

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

def u₀ : UU :=
  (initOf (K (F := F)).hsCells (K (F := F)).hsToks,
    (initOf (Pipeline.cells (nD := nD) (τ := τ) cfgs cellOf_inj) (Pipeline.launchToks (nD := nD) (τ := τ) cfgs cellOf_inj), (1 : Counters)))

/-- What the matmul region on device `d` starts from: its staging cells' ghost state and launch tokens. -/
abbrev GG (d : Dev nD) : sProp 𝕄 := iprop(Pipeline.cellsGhost cfgs (EP (F := F)) 0 d ∗ Pipeline.toksInit cfgs (EP (F := F)) 0 d)

theorem EP_eq : (EP (F := F)) = (Emb.inl : Emb UP (UP × Counters)).trans (embR (A := UH) (B := UP × Counters)) := rfl

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : P.x = fun _ _ => iprop(emp)) :
    (ownU (u₀ (F := F)) : sProp 𝕄)
      ⊢ |={Set.univ}=> iprop(BI.own (EH (initOf (K (F := F)).hsCells (K (F := F)).hsToks)) ∗ (bigSep Finset.univ fun d : Dev nD => GG (F := F) d)
          ∗ bigSep Finset.univ fun thr : Thread nD τ => bigSep Finset.univ fun q : Fin 1 => P.x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)) : UP × Counters)) $$ Hu
  icases H with ⟨HH, HR⟩
  ihave H2 := (own_pair_emb (embR (A := UH) (B := UP × Counters))
    (initOf (Pipeline.cells (nD := nD) (τ := τ) cfgs cellOf_inj) (Pipeline.launchToks (nD := nD) (τ := τ) cfgs cellOf_inj)) (1 : Counters)) $$ HR
  icases H2 with ⟨HP, -⟩
  rw [← EP_eq]
  imod (Pipeline.fund_ghost cfgs (EP (F := F)) cellOf_inj) $$ HP with ⟨Hcg, Htk⟩
  imodintro
  isplitl [HH]; · iexact HH
  isplitl [Hcg Htk]
  · rw [bigSep_sep']
    isplitl [Hcg]
    · iapply (Entails.of_eq (bigSep_congr fun (c : Dev nD) _ => bigSep_univ_of_subsingleton (Φ := fun p : Fin 1 => Pipeline.cellsGhost cfgs (EP (F := F)) p c) (0 : Fin 1))); iexact Hcg
    · iapply (Entails.of_eq (bigSep_congr fun (c : Dev nD) _ => bigSep_univ_of_subsingleton (Φ := fun p : Fin 1 => Pipeline.toksInit cfgs (EP (F := F)) p c) (0 : Fin 1))); iexact Htk
  rw [hx, show (bigSep Finset.univ fun thr : Thread nD τ => bigSep Finset.univ fun q : Fin 1 => (iprop(emp) : sProp 𝕄)) = bigSep Finset.univ fun _ => iprop(emp) from
    bigSep_congr fun _ _ => bigSep_univ_of_subsingleton (0 : Fin 1), bigSep_emp']
  iempintro

end Cert.Proof.KB

end
-- ==== Proof.Bits.RunKI.lean ====
/-
  The program's run, by the SparseCore launch theorem: from the tile's task, the split of a SparseCore's holdings
  among its tiles, the launch element and @main's proof, every weakly fair execution of the thirty-five threads
  terminates without a fault and leaves the five arguments and the result at the final valuation — which at the
  arguments is the launch memory, since no operation writes them.
-/
import proofs.«219373_g11218454577211_week1_w3_1378_31_alg».proof.Proof.Bits.MainTC
import proofs.«219373_g11218454577211_week1_w3_1378_31_alg».proof.Proof.Bits.LaunchElem

noncomputable section

namespace Cert.Proof.KB

open Cert.Kernel

open Idealize.ShloMosaic
open Idealize.ShloMosaic.SparseCore (S V T)
open Idealize.ShloMosaic.SparseCore.Cfg (HIx Pay)
open Idealize.ShloMosaic.StableHlo (held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)
variable (XF : (d : Dev nD) → Valuation τ sig (Elt F) → v2'.ty.Contents (Elt F))
variable (AG : (d : Dev nD) → Buf (Elt F) (xLoc d) → Buf (Elt F) (iLoc d) → Buf (Elt F) (oLoc d))
variable (tile : Fin 2 → Fin 16 → Finset S10240x128.Idx)

/-- Every execution ends with the five arguments and the result at the final valuation. -/
def QC : PUnit × MemSt nD τ sig (Elt F) → Prop := fun r => ∀ c : Dev nD,
  r.2.mem ((SparseCore.T c).loc main_arg0) = V10 m XF AG c a0' ∧ r.2.mem ((SparseCore.T c).loc main_arg1) = V10 m XF AG c a1'
    ∧ r.2.mem ((SparseCore.T c).loc main_arg2) = V10 m XF AG c a2' ∧ r.2.mem ((SparseCore.T c).loc main_arg3) = V10 m XF AG c a3'
    ∧ r.2.mem ((SparseCore.T c).loc main_arg4) = V10 m XF AG c a4' ∧ r.2.mem ((SparseCore.T c).loc main_v7) = V10 m XF AG c v7'

theorem run_main [∀ e, Nonempty (Elt F e)] (hreg : RegionRule (F := F) XF) (ht : Tiling tile)
    (htile : (K (F := F)).TileObl (D (F := F)) 𝒱 (PP m XF AG tile) v₀ 0) :
    θ_run (Cert.Kernel.defs (F := F)) (Cert.Kernel.threads (F := F)) ⟨m, fun _ => 0, ρ⟩ (QC m XF AG) :=
  SparseCore.Cfg.θ_run_sc (K := K (F := F)) (D := D (F := F)) (𝒱 := 𝒱) (EH := EH) (P := PP m XF AG tile) facts v₀
    (fun q hq => match q with | 0 => nomatch hq)
    (fun q _ => match q with | 0 => htile)
    (fun q _ => match q with | 0 => SparseCore.Cfg.VecSplit.of_plain (vecSplit tile (fxv m XF) (fiv m XF) (fov m XF) (frv m XF AG) ht))
    m ρ main (fun d => GG (F := F) d) (fun d => held (SparseCore.T d) (ucRefs τ sig) (V10 m XF AG d)) (u₀ (F := F))
    (sep_elim_left.trans (hu₀ (PP m XF AG tile) rfl))
    (hmain m ρ XF AG tile hreg ht)
    (fq (V10 m XF AG)) (hfin (V10 m XF AG)) (QC m XF AG) (fun _ h => h)

end Cert.Proof.KB

end
-- ==== Proof.Bits.Vals.lean ====
/-
  The valuations of @main read at one array: an array no operation writes ends at its launch contents; the result is
  the first 10000 rows of what the tiles wrote; the row numbers the tiles read are the hyperedge table reshaped,
  padded and flattened; the embeddings they read are the matmul region's output of the launch embeddings, the
  transposed weight and the bias row.
-/
import proofs.«219373_g11218454577211_week1_w3_1378_31_alg».proof.Proof.Bits.RunKI

noncomputable section

namespace Cert.Proof.KB

open Cert.Kernel
open Cert.Kernel.Shapes1.Facts₀ Cert.Kernel.Shapes3.Facts₀
open Idealize.ShloMosaic
open Idealize.ShloMosaic.TcCoe

variable {F : FTy → Type} [FloatOps F]
variable (m : (ℓ : Loc nD τ sig) → Buf (Elt F) ℓ)
variable (XF : (d : Dev nD) → Valuation τ sig (Elt F) → v2'.ty.Contents (Elt F))
variable (AG : (d : Dev nD) → Buf (Elt F) (xLoc d) → Buf (Elt F) (iLoc d) → Buf (Elt F) (oLoc d))

/-- An array none of @main's operations writes ends at its launch contents. -/
theorem V10_keep (d : Dev nD) (b : DevRef τ sig)
    (h : b ∉ ({v0', v1', v2', v3', c', cv', v4', v5', v6', v7'} : Finset (DevRef τ sig))) :
    V10 m XF AG d b = m (d, b) := by
  have hv0 : b ∉ ({v0'} : Finset (DevRef τ sig)) := fun e => h (by rw [Finset.mem_singleton.mp e]; decide)
  have hv1 : b ∉ ({v1'} : Finset (DevRef τ sig)) := fun e => h (by rw [Finset.mem_singleton.mp e]; decide)
  have hv2 : b ≠ v2' := fun e => h (by rw [e]; decide)
  have hv3 : b ∉ ({v3'} : Finset (DevRef τ sig)) := fun e => h (by rw [Finset.mem_singleton.mp e]; decide)
  have hc : b ∉ ({c'} : Finset (DevRef τ sig)) := fun e => h (by rw [Finset.mem_singleton.mp e]; decide)
  have hcv : b ∉ ({cv'} : Finset (DevRef τ sig)) := fun e => h (by rw [Finset.mem_singleton.mp e]; decide)
  have hv4 : b ∉ ({v4'} : Finset (DevRef τ sig)) := fun e => h (by rw [Finset.mem_singleton.mp e]; decide)
  have hv5 : b ∉ ({v5'} : Finset (DevRef τ sig)) := fun e => h (by rw [Finset.mem_singleton.mp e]; decide)
  have hv6 : b ≠ v6' := fun e => h (by rw [e]; decide)
  have hv7 : b ∉ ({v7'} : Finset (DevRef τ sig)) := fun e => h (by rw [Finset.mem_singleton.mp e]; decide)
  unfold V10 V9 V8 V3 V2
  rw [(opO (F := F)).result_of_not_mem _ hv7, Function.update_of_ne hv6, (opI (F := F)).result_of_not_mem _ hv5,
    (opP (F := F)).result_of_not_mem _ hv4, (opCv (F := F)).result_of_not_mem _ hcv, (opC (F := F)).result_of_not_mem _ hc,
    (opH (F := F)).result_of_not_mem _ hv3, Function.update_of_ne hv2, (opB (F := F)).result_of_not_mem _ hv1,
    (opT (F := F)).result_of_not_mem _ hv0]

theorem V10_a0 (d : Dev nD) : V10 m XF AG d a0' = m ((SparseCore.T d).loc main_arg0) := V10_keep m XF AG d a0' (by decide)
theorem V10_a1 (d : Dev nD) : V10 m XF AG d a1' = m ((SparseCore.T d).loc main_arg1) := V10_keep m XF AG d a1' (by decide)
theorem V10_a2 (d : Dev nD) : V10 m XF AG d a2' = m ((SparseCore.T d).loc main_arg2) := V10_keep m XF AG d a2' (by decide)
theorem V10_a3 (d : Dev nD) : V10 m XF AG d a3' = m ((SparseCore.T d).loc main_arg3) := V10_keep m XF AG d a3' (by decide)
theorem V10_a4 (d : Dev nD) : V10 m XF AG d a4' = m ((SparseCore.T d).loc main_arg4) := V10_keep m XF AG d a4' (by decide)

/-- The result array is the first 10000 rows of what the tiles wrote. -/
theorem V10_v7 (d : Dev nD) :
    V10 m XF AG d v7' = extractStridedSlice S10000x128 ![0, 0] (frv m XF AG d) slices_S10240x128_S10000x128_0_0 := by
  unfold V10 V9
  first
  | rfl
  | (simp (disch := decide) only [StableHlo.unary_result', Function.update_self])

/-- The row numbers the tiles read: the hyperedge table as 10000 rows of 32, 496 rows of zeros appended, flattened. -/
theorem fiv_eq (d : Dev nD) :
    fiv m XF d = shapeCast S335872 (pad S10496x32 ![0, 0] ![496, 0] ![0, 0]
      (shapeCast S10000x32 (m ((SparseCore.T d).loc main_arg2)) shapeCasts_S10000x4x8_S10000x32)
      (id (constantI S_ 32 0#32)) pads_S10000x32_S10496x32_04960_000 h_S_) shapeCasts_S10496x32_S335872 := by
  unfold fiv V8 V3 V2
  first
  | rfl
  | (simp (disch := decide) only [StableHlo.unary_result', StableHlo.binary_result', StableHlo.nullary_result', StableHlo.reshape_result',
      StableHlo.unary_result_ne', StableHlo.binary_result_ne', StableHlo.nullary_result_ne', StableHlo.reshape_result_ne',
      Function.update_of_ne, Function.update_self]; rfl)

/-- The embeddings the tiles read are the matmul region's output of what it found. -/
theorem fxv_eq (d : Dev nD) : fxv m XF d = XF d (V2 m d) := by
  unfold fxv V8 V3
  rw [(opI (F := F)).result_of_not_mem _ (show v2' ∉ ({v5'} : Finset (DevRef τ sig)) by decide),
    (opP (F := F)).result_of_not_mem _ (show v2' ∉ ({v4'} : Finset (DevRef τ sig)) by decide),
    (opCv (F := F)).result_of_not_mem _ (show v2' ∉ ({cv'} : Finset (DevRef τ sig)) by decide),
    (opC (F := F)).result_of_not_mem _ (show v2' ∉ ({c'} : Finset (DevRef τ sig)) by decide),
    (opH (F := F)).result_of_not_mem _ (show v2' ∉ ({v3'} : Finset (DevRef τ sig)) by decide), Function.update_self]

/-- What the matmul region finds at its three inputs. -/
theorem V2_a0 (d : Dev nD) : V2 m d a0' = m ((SparseCore.T d).loc main_arg0) := by
  unfold V2
  rw [(opB (F := F)).result_of_not_mem _ (show a0' ∉ ({v1'} : Finset (DevRef τ sig)) by decide),
    (opT (F := F)).result_of_not_mem _ (show a0' ∉ ({v0'} : Finset (DevRef τ sig)) by decide)]
theorem V2_v0 (d : Dev nD) :
    V2 m d v0' = transpose S128x128 [1, 0] (m ((SparseCore.T d).loc main_arg3)) transposes_S128x128_S128x128_1_0 := by
  unfold V2
  rw [(opB (F := F)).result_of_not_mem _ (show v0' ∉ ({v1'} : Finset (DevRef τ sig)) by decide)]
  first
  | rfl
  | (simp (disch := decide) only [StableHlo.unary_result']; rfl)
theorem V2_v1 (d : Dev nD) : V2 m d v1' = shapeCast S1x128 (m ((SparseCore.T d).loc main_arg4)) shapeCasts_S128_S1x128 := by
  unfold V2
  first
  | rfl
  | (simp (disch := decide) only [StableHlo.reshape_result']; rfl)

end Cert.Proof.KB

end
-- ==== Proof.Bits.MmBody.lean ====
/-
  The matmul region's kernel body, once, at a symbolic grid point.

  The TensorCore call tiles the 100000 x 128 embedding array into 50 blocks of 2000 rows; at every grid point
  the body reads the current 2000 x 128 block x, the whole 128 x 128 transposed weight w and the 1 x 128 bias
  row b, and overwrites the whole output block with

      max (x_bf16 · w_bf16 + broadcast b, 0)

  (both factors rounded to bf16, products accumulated in f32 from zero).  The output block is written by ONE
  store through the full rectangle, so what the staging buffer holds after the body is a function of the three
  input blocks alone, whatever it held before.  This module names that function, proves the body's triple, and
  packs it as the pipeline library's proof data: after point t each input buffer still holds its block, the
  output buffer holds the function of the three blocks at t.
-/
import proofs.«219373_g11218454577211_week1_w3_1378_31_alg».proof.Proof.Gen.Kernel.Launch
import proofs.«219373_g11218454577211_week1_w3_1378_31_alg».proof.Proof.Gen.Kernel.Points
import Idealize.ShloMosaic.Lib.Pipeline.FrameBody
import Idealize.ShloMosaic.Lib.SparseCore.Cells
import Idealize.ShloMosaic.Lib.Tactic

set_option maxRecDepth 16384

noncomputable section

namespace Cert.Proof.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]
variable {Name : Type} [DecidableEq Name] {U : Type} [URA U]

local notation "𝕄" => MT nD τ sig (HIx 1) (Elt F) Name U ℕ

/-! ## What the body computes -/

/-- The full rectangle of a 2000 x 128 block, of the weight, of the bias row. -/
abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The block the body stores, from the three values it loads: relu of the bf16 product plus the bias row. -/
def mmPay (v0 : Vec F S2000x128 .f32) (v2 : Vec F S128x128 .f32) (v6 : Vec F S1x128 .f32) : FVec F S2000x128 .f32 :=
  maximumf
    (addf
      (matmul dot_S2000x128_S128x128_S2000x128_1_0_0_1_n_n none
        (truncf .bf16 v0 bitsLt_bf16_f32)
        (truncf .bf16 (shapeCast S128x128 v2 shapeCasts_S128x128_S128x128) bitsLt_bf16_f32)
        (constant S2000x128 .f32 0x00000000#32))
      (broadcastTo S2000x128 (shapeCast S1x128 v6 shapeCasts_S1x128_S1x128) broadcasts_S1x128_S2000x128))
    (broadcast S2000x128 (Scalar.ofBits .f32 0x00000000#32))

/-- What the output window's staging buffer holds after the body, from the input windows' blocks: its one store. -/
def out3 (x0 : Vec F S2000x128 .f32) (x1 : Vec F S128x128 .f32) (x2 : Vec F S1x128 .f32) : Vec F S2000x128 .f32 :=
  View.canon [⟨rX, mmPay (View.ld x0 rX) (View.ld x1 rW) (View.ld x2 rB)⟩]

/-- The one store covers the buffer. -/
theorem cover3 (p0 : Vec F S2000x128 .f32) (y : S2000x128.Idx) :
    ∃ pc ∈ ([⟨rX, p0⟩] : List (View.Piece (Elt F) S2000x128 .f32)), y ∈ pc.1.set :=
  View.cover_of_tiled [⟨rX, p0⟩] S2000x128.size (by rfl) y

/-! ## The body's triple -/

set_option maxHeartbeats 1000000 in
/-- The body on whole staging memrefs: the three inputs' at read contents, the output's at anything; it returns the
    inputs' as they were and the output's at `out3` of the inputs'. -/
theorem mm_kernel (𝒱₀ : Variants) (c : Dev nD) (E : Set Name) (i : grid0.Coords)
    (a1 : Memref sig .tc .vmem S2000x128 .f32) (h1 : a1.IsWhole) (a2 : Memref sig .tc .vmem S128x128 .f32) (h2 : a2.IsWhole)
    (a3 : Memref sig .tc .vmem S1x128 .f32) (h3 : a3.IsWhole) (a4 : Memref sig .tc .vmem S2000x128 .f32) (h4 : a4.IsWhole)
    (x0 : Vec F S2000x128 .f32) (x1 : Vec F S128x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out3 x0 x1 x2)) -∗ K ⟨⟩))
      ⊢ wp frame (wpE (defs₀ (F := F)) 𝒱₀ c none) E (cc0__mm_body i a1 h1 a2 h2 a3 h3 a4 h4) K := by
  unfold cc0__mm_body
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

section Data

/- The TensorCores' unscoped buffers when the region is entered, device by device; what each TensorCore owes the other
    processors throughout the region; a bound on the waits it has recorded. The region reads the first, passes the
    other two through. -/
variable (V : (c : Dev nD) → (b : Ref sig .tc) → Buf (Elt F) ((c : Thread nD τ).loc b))
variable (O : Dev nD → CellTallies nD τ sig (HIx 1)) (R : Dev nD → Set (SemLoc sig × HIx 1))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data on core `c`: the arrays as the region finds them; after the body at point `t` each input's buffer at
    its block and the output's at `out3` of the three input blocks; the invariant is the scoped buffers no window
    stages; full shares; the tallies owed and the bound on recorded waits constant. -/
def dats (_ : Fin 1) (c : Dev nD) : Dat τ (Elt F) (HIx 1) Name U ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.scopedRest (Ix := HIx 1) (Name := Name) (U := U) (Lvl := ℕ) (Val := Elt F) spec0 c
  q _ := fullShare
  owed _ := O c
  recorded _ := R c

theorem A_eq (c : Dev nD) (w : Fin cfg0.W) : (dats (Name := Name) (U := U) V O R 0 c).A w = V c (Pipeline.arrRef spec0 w) := by
  dsimp only [dats]

theorem after0 (c : Dev nD) (t : Fin cfg0.N) : (dats (Name := Name) (U := U) V O R 0 c).after 0 t = iblk V c 0 t := by dsimp only [dats]
theorem after1 (c : Dev nD) (t : Fin cfg0.N) : (dats (Name := Name) (U := U) V O R 0 c).after 1 t = iblk V c 1 t := by dsimp only [dats]
theorem after2 (c : Dev nD) (t : Fin cfg0.N) : (dats (Name := Name) (U := U) V O R 0 c).after 2 t = iblk V c 2 t := by dsimp only [dats]
theorem after3 (c : Dev nD) (t : Fin cfg0.N) :
    (dats (Name := Name) (U := U) V O R 0 c).after 3 t = out3 (iblk V c 0 t) (iblk V c 1 t) (iblk V c 2 t) := by dsimp only [dats]

/-- Each input's current staging buffer holds its block at every point, fetched there or not: an unfetched window's
    block index has not moved since the point that fetched it. -/
theorem before0 (c : Dev nD) (t : Fin cfg0.N) (d) : (dats (Name := Name) (U := U) V O R 0 c).before 0 t d = iblk V c 0 t :=
  ((dats (Name := Name) (U := U) V O R 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats (Name := Name) (U := U) V O R 0 c).before 1 t d = iblk V c 1 t :=
  ((dats (Name := Name) (U := U) V O R 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats (Name := Name) (U := U) V O R 0 c).before 2 t d = iblk V c 2 t :=
  ((dats (Name := Name) (U := U) V O R 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation, at a symbolic point -/

/-- What the body is called with at point `t`, the windows one by one, -/
def bodyPre (c : Dev nD) (t : Fin cfg0.N) : sProp 𝕄 :=
  iprop((dats (Name := Name) (U := U) V O R 0 c).Φ t.castSucc ∗ (dats (Name := Name) (U := U) V O R 0 c).owesAt none t.castSucc
    ∗ (∃ d, owns (c : Thread nD τ) (st0_0 t) fullShare ((dats (Name := Name) (U := U) V O R 0 c).before 0 t d))
    ∗ (∃ d, owns (c : Thread nD τ) (st0_1 t) fullShare ((dats (Name := Name) (U := U) V O R 0 c).before 1 t d))
    ∗ (∃ d, owns (c : Thread nD τ) (st0_2 t) fullShare ((dats (Name := Name) (U := U) V O R 0 c).before 2 t d))
    ∗ (∃ d, owns (c : Thread nD τ) (st0_3 t) fullShare ((dats (Name := Name) (U := U) V O R 0 c).before 3 t d)))

/-- and what it returns. -/
def bodyPost (c : Dev nD) (t : Fin cfg0.N) : sProp 𝕄 :=
  iprop((dats (Name := Name) (U := U) V O R 0 c).Φ t.succ ∗ (dats (Name := Name) (U := U) V O R 0 c).owesAt none t.succ
    ∗ owns (c : Thread nD τ) (st0_0 t) fullShare ((dats (Name := Name) (U := U) V O R 0 c).after 0 t)
    ∗ owns (c : Thread nD τ) (st0_1 t) fullShare ((dats (Name := Name) (U := U) V O R 0 c).after 1 t)
    ∗ owns (c : Thread nD τ) (st0_2 t) fullShare ((dats (Name := Name) (U := U) V O R 0 c).after 2 t)
    ∗ owns (c : Thread nD τ) (st0_3 t) fullShare ((dats (Name := Name) (U := U) V O R 0 c).after 3 t))

/-- The body at any point: the inputs' buffers hold their blocks, so the triple applies; the invariant and what the core
    owes pass through unread. -/
theorem sound_body (𝒱₀ : Variants) (c : Dev nD) (t : Fin cfg0.N) :
    bodyPre (Name := Name) (U := U) V O R c t
      ⊢ wp frame (wpE (defs₀ (F := F)) 𝒱₀ c none) Set.univ (bodyAt0 t) (fun _ => bodyPost (Name := Name) (U := U) V O R c t) := by
  unfold bodyPre bodyPost bodyAt0
  simp only [before0, before1, before2]
  rw [show (dats (Name := Name) (U := U) V O R 0 c).Φ t.succ = (dats (Name := Name) (U := U) V O R 0 c).Φ t.castSucc from rfl,
    show (dats (Name := Name) (U := U) V O R 0 c).owesAt none t.succ = (dats (Name := Name) (U := U) V O R 0 c).owesAt none t.castSucc from rfl,
    after0, after1, after2, after3]
  iintro ⟨HΦ, Ho, ⟨%d0, H0⟩, ⟨%d1, H1⟩, ⟨%d2, H2⟩, ⟨%d3, H3⟩⟩
  iapply (mm_kernel 𝒱₀ c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (𝒱₀ : Variants) (c : Dev nD) :
    BodyObligation (dats (Name := Name) (U := U) V O R 0 c) (defs₀ (F := F)) 𝒱₀ none Set.univ := fun t => by
  rw [bigSep_W0, bigSep_W0]
  exact sound_body V O R 𝒱₀ c t

end Data

end Cert.Proof.Kernel.Region

end
-- ==== Proof.Bits.Region.lean ====
/-
  The TensorCore's matmul region inside the SparseCore program: the one line of @main that enters the pipelined
  call, as a step of the TensorCore thread's weakest precondition.

  Before the line the TensorCore holds its region-boundary holdings (scoped staging buffers at anything, scoped
  semaphores at zero), its unscoped buffers at a valuation `V`, what it owes the SparseCores (start signals, all
  at a call's index, none at the kernels' own index), and the pipeline's staging-cell ghost state.  After the line
  it holds the same, the unscoped buffers at the valuation that differs from `V` at the call's result alone: there
  it is the array the pipeline library computes, block after block, from the body's output term.  The pipeline's
  own waits are at the kernels' index, below everything the TensorCore owes.
-/
import proofs.«219373_g11218454577211_week1_w3_1378_31_alg».proof.Proof.Bits.MmBody
import Idealize.ShloMosaic.Lib.Pipeline.RegionsLoop
import Idealize.ShloMosaic.Lib.SparseCore.Threads

noncomputable section

namespace Cert.Proof.Kernel.Region

open Cert.Kernel Cert.Kernel.Gen
open Idealize.ShloMosaic Idealize.ShloMosaic.TcCoe Idealize.ShloMosaic.Tactic
open Idealize.ShloMosaic.SparseCore (T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

set_option Elab.async false

variable {F : FTy → Type} [FloatOps F]
variable {Name : Type} [DecidableEq Name] [Infinite Name] {U : Type} [URA U]

local notation "𝕄" => MT nD τ sig (HIx 1) (Elt F) Name U ℕ

/-- The prefetched tables' admissible contents: the call has no table. -/
abbrev adm : (p : Fin 1) → (pcfgs (F := F) p).Adm := fun p => (cfgs p).toPCfg_adm

section Seg

variable (EP : Emb (URounds (GSem nD τ sig) Unit) (MT nD τ sig (HIx 1) (Elt F) Name U ℕ))
variable (𝒱₀ : Variants)
variable (lv : GSem nD τ sig → HIx 1 → ℕ) (hlv : (sc (F := F)).Refines lv)
variable (V : (c : Dev nD) → (b : Ref sig .tc) → Buf (Elt F) ((c : Thread nD τ).loc b))
variable (O : Dev nD → CellTallies nD τ sig (HIx 1)) (hO : ∀ c g, O c g none = 0) (b : ℕ)

/-- The waits a TensorCore may have recorded: those at or below level `b`. -/
def recB (c : Dev nD) : Set (SemLoc sig × HIx 1) := {p | (sc (F := F)).lev (T c, p.1) p.2 ≤ b}

/-- What the TensorCore owes, its recorded waits at or below `b`. -/
def owesSt (c : Dev nD) : sProp 𝕄 := iprop(∃ W, ⌜(sc (F := F)).WBelow (T c) W b⌝ ∗ owes (T c) (O c) W)

/-- The call's result after the region: the array the pipeline library computes from the proof data. -/
def XF (c : Dev nD) : Buf (Elt F) ((c : Thread nD τ).loc main_v2) :=
  (dats (Name := Name) (U := U) V O (recB (F := F) b) 0 c).arrAt 3 cfg0.N

/-- The valuation the region leaves: `V` but at the call's result. -/
def Vout (c : Dev nD) : (r : Ref sig .tc) → Buf (Elt F) ((c : Thread nD τ).loc r) :=
  fun r => if h : r = main_v2 then h ▸ XF (Name := Name) (U := U) V O b c else V c r

theorem Vout_result (c : Dev nD) : Vout (Name := Name) (U := U) V O b c main_v2 = XF (Name := Name) (U := U) V O b c := by
  unfold Vout; rw [dif_pos rfl]

theorem Vout_other (c : Dev nD) (r : Ref sig .tc) (h : r ≠ main_v2) : Vout (Name := Name) (U := U) V O b c r = V c r := by
  unfold Vout; rw [dif_neg h]

/-- The proof data at the recorded-waits bound. -/
abbrev rdats : (p : Fin 1) → (c : Dev nD) → Dat τ (Elt F) (HIx 1) Name U ℕ cfg0 c :=
  dats (Name := Name) (U := U) V O (recB (F := F) b)

theorem share_eq (c : Dev nD) (w : Fin cfg0.W) : (rdats (Name := Name) (U := U) V O b 0 c).share w = fullShare :=
  (rdats (Name := Name) (U := U) V O b 0 c).share_full (fun _ => rfl) w

/-- The invariant between the region's ends: the scoped buffers no window stages. -/
theorem Φ_eq (c : Dev nD) (t : Fin (cfg0.N + 1)) :
    (rdats (Name := Name) (U := U) V O b 0 c).Φ t
      = Pipeline.scopedRest (Ix := HIx 1) (Name := Name) (U := U) (Lvl := ℕ) (Val := Elt F) spec0 c := rfl

/-- Windows 0, 1, 2 are inputs, and only window 3's array is the call's result. -/
theorem arrRef_ne : ∀ w : Fin cfg0.W, w ≠ 3 → Pipeline.arrRef spec0 w ≠ main_v2 := by decide
theorem isIn : ∀ w : Fin cfg0.W, w ≠ 3 → (cfg0.win w).isOut = false := by decide

/-- The three input arrays are never written: after the region they are what the region found. -/
theorem arrAt_input (c : Dev nD) (w : Fin cfg0.W) (hw : (cfg0.win w).isOut = false) :
    (rdats (Name := Name) (U := U) V O b 0 c).arrAt w cfg0.N = V c (Pipeline.arrRef spec0 w) :=
  ((rdats (Name := Name) (U := U) V O b 0 c).arrAt_in w hw _).trans (A_eq V O _ c w)

/-- The arrays after the region are the valuation the region leaves, read at the windows' arrays. -/
theorem arrAt_Vout (c : Dev nD) (w : Fin cfg0.W) :
    (rdats (Name := Name) (U := U) V O b 0 c).arrAt w cfg0.N = Vout (Name := Name) (U := U) V O b c (Pipeline.arrRef spec0 w) := by
  by_cases h : w = 3
  · subst h; exact (Vout_result V O b c).symm
  · rw [Vout_other V O b c _ (arrRef_ne w h)]; exact arrAt_input V O b c w (isIn w h)

-- the library's lemmas are stated over the pinned configuration: unifying it with the printed one unfolds plain
-- definitions in a metavariable's type
set_option backward.isDefEq.respectTransparency.types false in
/-- THE REGION as the library's record: the generated layout, no semaphore of the kernel's own, the body obligation,
    the pipeline's waits below what the TensorCore owes; entered from the unscoped buffers at `V` and what the core
    owes, left with the buffers at `Vout` and the same owed. -/
def reg0 : Pipeline.RegionSeg (pcfgs (F := F)) adm (rdats (Name := Name) (U := U) V O b) none defs₀ 𝒱₀ (sc (F := F)).L lv 0 where
  win := launch0.win.to₀
  block_pos := launch0.block_pos
  stage_whole := launch0.stage_whole
  K := PEmpty
  osem := fun k => k.elim
  ho := Pipeline.OwnSemFacts.none _
  hbody c := (body_obligation V O (recB (F := F) b) 𝒱₀ c).loose
  hwaits c := Pipeline.cellsWaits_intro _ _ none 0 c fun w s t =>
    (sc (F := F)).mayWait_none (thr := T c) _ (hO c) lv hlv
  pre c := iprop(unscopedBufs c (V c) ∗ owesSt (Name := Name) (U := U) O b c)
  post c := iprop(unscopedBufs c (Vout (Name := Name) (U := U) V O b c) ∗ owesSt (Name := Name) (U := U) O b c)
  X _ := iprop(emp)
  Y _ := iprop(emp)
  Z c := Pipeline.unscopedRest spec0 c (V c)
  hentry c := by
    have hsplit := Pipeline.arrays_of_unscopedBufs (pcfgs (F := F)) adm (rdats (Name := Name) (U := U) V O b) launch0.win launch0.arr_whole c
      (share_eq V O b c) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesSt Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [Φ_eq]
    iintro ⟨-, -, Hr⟩; iexact Hr
  hout c := by
    unfold Pipeline.ownSems0
    rw [show (Finset.univ : Finset PEmpty) = ∅ from rfl, BI.bigSep_empty, Φ_eq]
    iintro Hr
    isplitr; · iempintro
    isplitr; · iempintro
    iexact Hr
  hexit c := by
    have hjoin := Pipeline.unscopedBufs_of_arrays (pcfgs (F := F)) adm launch0.win launch0.arr_whole c (rdats (Name := Name) (U := U) V O b)
      (share_eq V O b c) (V c) (Vout (Name := Name) (U := U) V O b c) ((rdats (Name := Name) (U := U) V O b 0 c).arrAt · cfg0.N)
      (arrAt_Vout V O b c)
      (fun r hr => Vout_other V O b c r fun e => hr (Finset.mem_image.mpr ⟨3, Finset.mem_univ _, e.symm⟩))
    iintro ⟨Ha, HO, -, HZ⟩
    imodintro
    isplitl [Ha HZ]
    · iapply hjoin; isplitl [Ha] <;> iassumption
    · unfold owesSt Pipeline.Dat.owesAt Pipeline.owesWithin
      icases HO with ⟨%W, %hW, HO⟩; iexists W; isplitr
      · ipureintro
        intro p hp
        rcases hW hp with h | ⟨w, s, rfl⟩
        · exact h
        · exact Nat.zero_le _
      iexact HO

variable [EP.LandsIn (upEmb : UEmb _ (MT nD τ sig (HIx 1) (Elt F) Name U ℕ))]

include hlv hO in
set_option backward.isDefEq.respectTransparency.types false in
/-- THE LINE OF @main THAT ENTERS THE CALL, on TensorCore `d`: from the level facts, the region boundary, the unscoped
    buffers at `V d`, what the core owes, and the pipeline's staging-cell ghost state (consumed: the call is entered
    once), it runs to the boundary, the buffers at `Vout … d` and the same owed. -/
theorem region_wp (d : Dev nD) {Φ : PUnit → sProp 𝕄} :
    iprop(levAts (sc (F := F)).L lv ∗ boundary (T d) ∗ unscopedBufs d (V d) ∗ owesSt (Name := Name) (U := U) O b d
        ∗ Pipeline.cellsGhost cfgs EP 0 d ∗ Pipeline.toksInit cfgs EP 0 d
        ∗ (iprop(boundary (T d) ∗ unscopedBufs d (Vout (Name := Name) (U := U) V O b d) ∗ owesSt (Name := Name) (U := U) O b d) -∗ Φ ⟨⟩))
      ⊢ wp frame (wpE ((sc (F := F)).defs (Pipeline.defs pcfgs defs₀)) 𝒱₀.lift (T d) none) Set.univ
          (Prog.lift (.customCall (SparseCore.inner (Pipeline.entry 0)) ())) Φ := by
  have e : (SparseCore.liftProg (Q := 1) (Prog.lift (TpuEff.customCall (Pipeline.entry (0 : Fin 1)) ()) : Prog (TpuEff nD τ sig (Elt F) (Pipeline.Sig Λ₀ (Fin 1) fun p => (pcfgs (F := F) p).Adm) Proc.tc) PUnit))
      = Prog.lift (.customCall (SparseCore.inner (Pipeline.entry 0)) ()) := rfl
  rw [← e]
  refine BIBase.Entails.trans ?_ ((sc (F := F)).wp_liftProg (Pipeline.defs pcfgs defs₀) 𝒱₀.lift (T d) Set.univ none _ Φ)
  have h := Pipeline.RegionSeg.wp (pcfgs (F := F)) adm (rdats (Name := Name) (U := U) V O b) none cellOf_inj EP defs₀ 𝒱₀ (sc (F := F)).L lv
    (reg0 (Name := Name) (U := U) (𝒱₀ := 𝒱₀) (lv := lv) (hlv := hlv) (V := V) (O := O) (hO := hO) (b := b)) d none (fun _ h => nomatch h)
    (fun x => .ret x) Φ
  dsimp only [reg0] at h
  refine BIBase.Entails.trans ?_ h
  iintro ⟨Hlev, Hbd, Hub, HO, Hg, Ht, Hk⟩
  isplitl [Hk]
  · iintro ⟨Hbd, Hub, HO⟩
    rw [wp_ret]; imodintro; iapply Hk
    isplitl [Hbd]; · iexact Hbd
    isplitl [Hub] <;> iassumption
  isplitl [Hbd]; · iexact Hbd
  isplitl [Hub HO]; · isplitl [Hub] <;> iassumption
  isplitl [Hlev]; · iexact Hlev
  isplitl [Hg] <;> iassumption

/-! ## The same line over a valuation of the device's buffers -/

section Held

variable (W : Dev nD → Valuation τ sig (Elt F))

/-- A device-buffer valuation read at the TensorCore's references. -/
abbrev ofVal (c : Dev nD) : (r : Ref sig .tc) → Buf (Elt F) ((c : Thread nD τ).loc r) := fun r => W c r

/-- The valuation the region leaves: `W d` updated at the call's result. -/
def Wout (c : Dev nD) : Valuation τ sig (Elt F) :=
  Function.update (W c) (Proc.devRef .tc main_v2) (XF (Name := Name) (U := U) (ofVal W) O b c)

theorem Wout_result (c : Dev nD) :
    Wout (Name := Name) (U := U) O b W c (Proc.devRef .tc main_v2) = XF (Name := Name) (U := U) (ofVal W) O b c := by
  unfold Wout; exact Function.update_self _ _ _

theorem Wout_other (c : Dev nD) (r : DevRef τ sig) (h : r ≠ Proc.devRef .tc main_v2) :
    Wout (Name := Name) (U := U) O b W c r = W c r := by
  unfold Wout; exact Function.update_of_ne h _ _

theorem Vout_ofVal (c : Dev nD) :
    Vout (Name := Name) (U := U) (ofVal W) O b c
      = (fun r : Ref sig .tc => Wout (Name := Name) (U := U) O b W c (Proc.devRef .tc r) :
          (r : Ref sig .tc) → Buf (Elt F) ((c : Thread nD τ).loc r)) := by
  funext r
  by_cases h : r = main_v2
  · subst h; rw [Vout_result]; exact (Wout_result O b W c).symm
  · rw [Vout_other _ _ _ _ _ h]; exact (Wout_other O b W c _ (StableHlo.devRef_ne_of_ne h)).symm

include hlv hO in
/-- `region_wp` with the unscoped buffers held as a set at a valuation, the form host operations run over. -/
theorem region_wp_held (d : Dev nD) {Φ : PUnit → sProp 𝕄} :
    iprop(levAts (sc (F := F)).L lv ∗ boundary (T d) ∗ StableHlo.held (T d) (Pipeline.ucRefs τ sig) (W d)
        ∗ owesSt (Name := Name) (U := U) O b d
        ∗ Pipeline.cellsGhost cfgs EP 0 d ∗ Pipeline.toksInit cfgs EP 0 d
        ∗ (iprop(boundary (T d) ∗ StableHlo.held (T d) (Pipeline.ucRefs τ sig) (Wout (Name := Name) (U := U) O b W d)
            ∗ owesSt (Name := Name) (U := U) O b d) -∗ Φ ⟨⟩))
      ⊢ wp frame (wpE ((sc (F := F)).defs (Pipeline.defs pcfgs defs₀)) 𝒱₀.lift (T d) none) Set.univ
          (Prog.lift (.customCall (SparseCore.inner (Pipeline.entry 0)) ())) Φ := by
  rw [← Pipeline.unscopedBufs_held d (W d), ← Pipeline.unscopedBufs_held d (Wout (Name := Name) (U := U) O b W d), ← Vout_ofVal]
  exact region_wp EP 𝒱₀ lv hlv (ofVal W) O hO b d

end Held

end Seg

end Cert.Proof.Kernel.Region

end
-- ==== Proof.Bits.InstRegion.lean ====
/-
  The matmul region's rule, from its proof: the region run from every unscoped array held whole leaves the fourth
  at the pipeline's own name for the output array after the last grid point, a function of the three inputs found.
-/
import proofs.«219373_g11218454577211_week1_w3_1378_31_alg».proof.Proof.Bits.RunKI
import proofs.«219373_g11218454577211_week1_w3_1378_31_alg».proof.Proof.Bits.Region

noncomputable section

namespace Cert.Proof.KB

open Cert.Kernel
open Cert.Proof.Kernel
open Idealize.ShloMosaic
open Idealize.ShloMosaic.TcCoe

variable {F : FTy → Type} [FloatOps F]

/-- The matmul region's output array, as a function of the valuation the region finds. -/
abbrev XFk (d : Dev nD) (W : Valuation τ sig (Elt F)) : v2'.ty.Contents (Elt F) :=
  Region.XF (F := F) (Name := ℕ) (U := UU) (Region.ofVal (fun _ => W)) (fun c => (K (F := F)).Otc c 0) (8 * 0) d

theorem regionRule : RegionRule (F := F) XFk := fun d W _ =>
  Region.region_wp_held (F := F) (Name := ℕ) (U := UU) EP 𝒱₀ (K (F := F)).lev (by sl_refines_lev) (fun c => (K (F := F)).Otc c 0)
    (fun c g => Otc_none c 0 g) (8 * 0) (fun _ => W) d

end Cert.Proof.KB

end
-- ==== Proof.Bits.TileDefs.lean ====
/-
  What one SparseCore tile's body is stated over: the six buffers as the tile's thread addresses them, the block
  of output rows it copies out (448 rows from 640 s + 448 c on SparseCore 0, 192 rows from there on SparseCore 1),
  membership in that block by arithmetic, and the padded output as one function of the table and the index list.
-/
import proofs.«219373_g11218454577211_week1_w3_1378_31_alg».proof.Proof.Bits.Common
import proofs.«219373_g11218454577211_week1_w3_1378_31_alg».proof.Proof.Gen.Kernel.Skeleton
import proofs.«219373_g11218454577211_week1_w3_1378_31_alg».proof.Proof.Agg

noncomputable section

namespace Cert.Proof.TileB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev xV : Memref sig .scVector .hbm S100000x128 .f32 := Memref.whole main_v2_scv
abbrev iV : Memref sig .scVector .hbm S335872 .i32 := Memref.whole main_v5_scv
abbrev oV : Memref sig .scVector .hbm S10240x128 .f32 := Memref.whole main_v6_scv
abbrev sV : Memref sig .scVector .vmem S14336 .i32 := Memref.whole cc1_scratch0
abbrev bV : Memref sig .scVector .vmem S256x128 .f32 := Memref.whole cc1_scratch1
abbrev aV : Memref sig .scVector .vmem S448x128 .f32 := Memref.whole cc1_scratch2

abbrev cV (L : grid1.Coords) : Fin τ.nSC := (L 0).castLE hcore1
abbrev jV (L : grid1.Coords) : Fin τ.nSub := (L 1).castLE hsub1

/-- The block of the output the tile copies out when it is on SparseCore 0: 448 rows from its offset. -/
abbrev oBlk0 (L : grid1.Coords) (h : k1_cond1 L = 1#1) : Memref sig .scVector .hbm S448x128 .f32 :=
  (oV).slice (Rect.unit (s := S10240x128) (k1_off22 L) S448x128.size (k1_off22_inb L h)) (fun _ => rfl)
/-- The block it copies out when it is on SparseCore 1: 192 rows from its offset. -/
abbrev oBlk1 (L : grid1.Coords) (h : k1_cond2 L = 1#1) : Memref sig .scVector .hbm S192x128 .f32 :=
  (oV).slice (Rect.unit (s := S10240x128) (k1_off23 L) S192x128.size (k1_off23_inb L h)) (fun _ => rfl)

/-- The rows of the output a tile writes, as the program slices them. -/
def oSet (L : grid1.Coords) : Finset S10240x128.Idx :=
  if h : k1_cond1 L = 1#1 then (oBlk0 L h).view.set
  else if h' : k1_cond2 L = 1#1 then (oBlk1 L h').view.set else ∅

theorem cond1_iff : ∀ L : grid1.Coords, k1_cond1 L = 1#1 ↔ (L 0).val = 0 := by decide +kernel
theorem cond2_iff : ∀ L : grid1.Coords, k1_cond2 L = 1#1 ↔ (L 0).val = 1 := by decide +kernel

theorem mem_oSet (L : grid1.Coords) (j : S10240x128.Idx) :
    j ∈ oSet L ↔ 640 * (L 1).val + 448 * (L 0).val ≤ (j 0).val
      ∧ (j 0).val < 640 * (L 1).val + 448 * (L 0).val + (448 - 256 * (L 0).val) := by
  have hL0 : (L 0).val < 2 := (L 0).isLt
  have hj1 : (j 1).val < 128 := (j 1).isLt
  unfold oSet
  split
  · rename_i h
    have h0 := (cond1_iff L).mp h
    rw [View.set_slice_whole, Rect.mem_set_unit, k1_off22_eq]
    constructor
    · intro H; have := H 0; simp only [Matrix.cons_val_zero] at this; change _ ∧ _ < _ + 448 at this; omega
    · intro H a
      match a with
      | 0 => simp only [Matrix.cons_val_zero]; change _ ∧ _ < _ + 448; omega
      | 1 => simp only [Matrix.cons_val_one]; change 0 ≤ _ ∧ _ < 0 + 128; omega
  · rename_i h
    split
    · rename_i h'
      have h1 := (cond2_iff L).mp h'
      rw [View.set_slice_whole, Rect.mem_set_unit, k1_off23_eq]
      constructor
      · intro H; have := H 0; simp only [Matrix.cons_val_zero] at this; change _ ∧ _ < _ + 192 at this; omega
      · intro H a
        match a with
        | 0 => simp only [Matrix.cons_val_zero]; change _ ∧ _ < _ + 192; omega
        | 1 => simp only [Matrix.cons_val_one]; change 0 ≤ _ ∧ _ < 0 + 128; omega
    · rename_i h'
      have := (cond1_iff L).not.mp h; have := (cond2_iff L).not.mp h'
      omega

variable [FloatOps F]

/-- Row `a`, lane `e` of the table (both taken modulo the extents: total). -/
def xIx (a e : ℕ) : S100000x128.Idx :=
  fun | 0 => ⟨a % 100000, Nat.mod_lt _ (by decide : 0 < 100000)⟩ | 1 => ⟨e % 128, Nat.mod_lt _ (by decide : 0 < 128)⟩ | ⟨_ + 2, h⟩ => absurd h (Nat.not_lt.2 (Nat.le_add_left _ _))
/-- Word `n` of the flat index list (modulo its length: total). -/
def iIx (n : ℕ) : S335872.Idx :=
  fun | 0 => ⟨n % 335872, Nat.mod_lt _ (by decide : 0 < 335872)⟩ | ⟨_ + 1, h⟩ => absurd h (Nat.not_lt.2 (Nat.le_add_left _ _))

/-- The whole padded output as one function of the table `x` and the flat index list. -/
def AggBuf (d : Dev nD) (fx : Buf (Elt F) (xLoc d)) (fi : Buf (Elt F) (iLoc d)) : Buf (Elt F) (oLoc d) :=
  fun p => Agg.entry (F := F)
    (fun a e => fx (xIx a e)) (fun n => fi (iIx n)) (p 0).val (p 1).val

abbrev xPts (d : Dev nD) (q : PosShare TreeShare) (f : Buf (Elt F) (xLoc d)) : sProp 𝕄 := xLoc d ↦{q} f
abbrev iPts (d : Dev nD) (q : PosShare TreeShare) (f : Buf (Elt F) (iLoc d)) : sProp 𝕄 := iLoc d ↦{q} f
abbrev oPts (d : Dev nD) (L : grid1.Coords) (f : Buf (Elt F) (oLoc d)) : sProp 𝕄 := oLoc d ↦[oSet L]{fullShare} f

end Cert.Proof.TileB

end
-- ==== Proof.Bits.Tiles.lean ====
/-
  The thirty-two tiles' row intervals tile the padded output: tile (c, s) owns rows
  [640 s + 448 c, 640 s + 448 c + (448 − 256 c)), so within a SparseCore the intervals are 640 apart and at most 448
  long, SparseCore 1's interval of a pair follows SparseCore 0's, and row r lies in the pair r / 640, on
  SparseCore 0 exactly when r mod 640 < 448.
-/
import proofs.«219373_g11218454577211_week1_w3_1378_31_alg».proof.Proof.Bits.Pay
import proofs.«219373_g11218454577211_week1_w3_1378_31_alg».proof.Proof.Bits.TileDefs

noncomputable section

namespace Cert.Proof.KB

open Cert.Kernel
open Idealize.ShloMosaic

/-- The grid point of SparseCore `c`, tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- The entries tile (c, s) writes. -/
def tile (c : Fin 2) (s : Fin 16) : Finset S10240x128.Idx := Cert.Proof.TileB.oSet (coordsV c s)

theorem mem_tile (c : Fin 2) (s : Fin 16) (j : S10240x128.Idx) :
    j ∈ tile c s ↔ 640 * s.val + 448 * c.val ≤ (j 0).val ∧ (j 0).val < 640 * s.val + 448 * c.val + (448 - 256 * c.val) :=
  Cert.Proof.TileB.mem_oSet (coordsV c s) j

theorem tiling : Tiling tile where
  tiles_disjoint := fun c i _ j _ hij => Finset.disjoint_left.mpr fun a hi hj => by
    rw [mem_tile] at hi hj
    have hc := c.isLt
    have : i.val ≠ j.val := fun e => hij (Fin.ext e)
    rcases Nat.lt_or_gt_of_ne this with h | h <;> omega
  cores_disjoint := fun c _ c' _ hcc => Finset.disjoint_left.mpr fun a hc hc' => by
    obtain ⟨i, -, hi⟩ := Finset.mem_biUnion.mp hc
    obtain ⟨j, -, hj⟩ := Finset.mem_biUnion.mp hc'
    rw [mem_tile] at hi hj
    have h1 := c.isLt
    have h2 := c'.isLt
    have : c.val ≠ c'.val := fun e => hcc (Fin.ext e)
    rcases Nat.lt_trichotomy i.val j.val with h | h | h <;> omega
  cover := Finset.eq_univ_of_forall fun a => by
    have ha : (a 0).val < 10240 := (a 0).isLt
    by_cases h : (a 0).val % 640 < 448
    · exact Finset.mem_biUnion.mpr ⟨0, Finset.mem_univ _, Finset.mem_biUnion.mpr ⟨⟨(a 0).val / 640, by omega⟩, Finset.mem_univ _, by
        rw [mem_tile]; show 640 * ((a 0).val / 640) + 448 * 0 ≤ _ ∧ _ < 640 * ((a 0).val / 640) + 448 * 0 + (448 - 256 * 0); omega⟩⟩
    · exact Finset.mem_biUnion.mpr ⟨1, Finset.mem_univ _, Finset.mem_biUnion.mpr ⟨⟨(a 0).val / 640, by omega⟩, Finset.mem_univ _, by
        rw [mem_tile]; show 640 * ((a 0).val / 640) + 448 * 1 ≤ _ ∧ _ < 640 * ((a 0).val / 640) + 448 * 1 + (448 - 256 * 1); omega⟩⟩

end Cert.Proof.KB

end
-- ==== Proof.Bits.RunFull.lean ====
/-
  The whole program's run with its result named: under the precondition every word of the flat list of row
  numbers the tiles read is a row number, so the tiles' task is available; the launch then gives a run that ends
  with the result array at the final valuation and the five arguments at their launch contents.
-/
import proofs.«219373_g11218454577211_week1_w3_1378_31_alg».proof.Proof.Bits.Vals
import proofs.«219373_g11218454577211_week1_w3_1378_31_alg».proof.Proof.Bits.InstRegion
import proofs.«219373_g11218454577211_week1_w3_1378_31_alg».proof.Proof.Bits.Tiles
import proofs.«219373_g11218454577211_week1_w3_1378_31_alg».proof.Proof.KBridge
import proofs.«219373_g11218454577211_week1_w3_1378_31_alg».proof.Proof.PreIdx

noncomputable section

namespace Cert.Proof.KB

open Cert.Kernel
open Idealize.ShloMosaic
open Idealize.ShloMosaic.SparseCore (S V T)
open Idealize.ShloMosaic.SparseCore.Cfg (HIx Pay)
open Idealize.SL.Sem
open Idealize.ShloMosaic.TcCoe

variable {F : FTy → Type} [FloatOps F]

/-- The precondition at a memory, spelt out: the input-domain predicate of the five argument arrays is all ones on
    every device. -/
abbrev PreM (m : (ℓ : Loc nD τ sig) → Buf (Elt F) ℓ) : Prop :=
  ∀ c : Dev nD,
    Cert.Pre_input_domain.fn (F := F) (m ((SparseCore.T c).loc main_arg0)) (m ((SparseCore.T c).loc main_arg1))
      (m ((SparseCore.T c).loc main_arg2)) (m ((SparseCore.T c).loc main_arg3)) (m ((SparseCore.T c).loc main_arg4)) = (fun _ => 1#1)

/-- Under the precondition every word of the flat list the tiles read is a row number. -/
theorem fiv_lt (m : (ℓ : Loc nD τ sig) → Buf (Elt F) ℓ) (hpre : PreM m) :
    ∀ d j, (fiv m XFk d j).toNat < 100000 := by
  intro d j
  rw [fiv_eq]
  exact KBridge.flat_lt _ _ (fun _ => rfl) _ _ _ _ (fun i => Pre.idx_lt _ _ _ _ _ (hpre d) i) j

/-- THE RUN: it terminates, nothing faulting; the result array ends at the final valuation, the five arguments at
    their launch contents. The tiles' task is a hypothesis, asked only of memories whose flat list holds row numbers. -/
theorem run_full [∀ e, Nonempty (Elt F e)] (m : (ℓ : Loc nD τ sig) → Buf (Elt F) ℓ) (ρ : Dev nD → PrngReg) (hpre : PreM m)
    (htile : ∀ m : (ℓ : Loc nD τ sig) → Buf (Elt F) ℓ, (∀ d j, (fiv m XFk d j).toNat < 100000) →
      (K (F := F)).TileObl (D (F := F)) 𝒱 (PP m XFk (fun d => TileB.AggBuf d) tile) v₀ 0) :
    θ_run (Cert.Kernel.defs (F := F)) (Cert.Kernel.threads (F := F)) ⟨m, fun _ => 0, ρ⟩ (fun r => ∀ c : Dev Cert.Kernel.nD,
      r.2.mem ((c.tc : Thread Cert.Kernel.nD Cert.Kernel.τ).loc Cert.Kernel.main_v7) = V10 m XFk (fun d => TileB.AggBuf d) c v7'
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)) :=
  (θ_run (Cert.Kernel.defs (F := F)) _ _).mono
    (fun _ h c => ⟨(h c).2.2.2.2.2, (h c).1.trans (V10_a0 m XFk _ c), (h c).2.1.trans (V10_a1 m XFk _ c),
      (h c).2.2.1.trans (V10_a2 m XFk _ c), (h c).2.2.2.1.trans (V10_a3 m XFk _ c), (h c).2.2.2.2.1.trans (V10_a4 m XFk _ c)⟩)
    (run_main m ρ XFk (fun d => TileB.AggBuf d) tile regionRule tiling (htile m (fiv_lt m hpre)))

end Cert.Proof.KB

end
-- ==== Proof.Bits.TileObl.lean ====
/-
  The tile's task as the launch theorem asks for it: the body table's row for a vector subcore is the kernel function
  at the subcore's grid point on the whole arrays and its own scratch, so the task's obligation — from the tile's
  shares and rows to the rows written — is the body's triple at that point.
-/
import proofs.«219373_g11218454577211_week1_w3_1378_31_alg».proof.Proof.Bits.Tiles
import proofs.«219373_g11218454577211_week1_w3_1378_31_alg».proof.Proof.Bits.MainTC

noncomputable section

namespace Cert.Proof.KB

open Cert.Kernel Cert.Kernel.Gen
open Cert.Proof.TileB (xV iV oV sV bV aV cV jV oSet AggBuf xPts iPts oPts)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The body's triple at a grid point: from a read share of the embeddings and of the row numbers (every word a row
    number) and the tile's own output rows, its scratch and semaphores, the body ends with the same and the rows at
    the hyperedge means, its semaphores back at zero, nothing more owed. -/
def TileRule : Prop :=
  ∀ (d : Dev nD) (L : grid1.Coords) (qx qi : PosShare TreeShare)
    (fx : Buf (Elt F) (xLoc d)) (fi : Buf (Elt F) (iLoc d)) (fo : Buf (Elt F) (oLoc d))
    (_ : ∀ j, (fi j).toNat < 100000) (O : CellTallies nD τ sig (HIx 1)) (W : Waits sig (HIx 1)) (_ : ∀ g, O g none = 0),
    iprop(levAts (K (F := F)).L (K (F := F)).lev ∗ emp
        ∗ (xPts (F := F) d qx fx ∗ iPts (F := F) d qi fi ∗ oPts (F := F) d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) iV (Memref.isWhole_whole _) oV (Memref.isWhole_whole _)
            sV (Memref.isWhole_whole _) bV (Memref.isWhole_whole _) aV (Memref.isWhole_whole _)
            cc1_scratch3 cc1_scratch4 cc1_scoped0 cc1_scoped1 cc1_scoped2)
          fun _ => iprop((xPts (F := F) d qx fx ∗ iPts (F := F) d qi fi ∗ oPts (F := F) d L (AggBuf (F := F) d fx fi))
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 ()
      = SparseCore.onTile hcore1 hsub1 (fun c s => cc1__sc_body (coordsV c s)
          xV (Memref.isWhole_whole _) iV (Memref.isWhole_whole _) oV (Memref.isWhole_whole _)
          sV (Memref.isWhole_whole _) bV (Memref.isWhole_whole _) aV (Memref.isWhole_whole _)
          cc1_scratch3 cc1_scratch4 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ)
variable (XF : (d : Dev nD) → Valuation τ sig (Elt F) → v2'.ty.Contents (Elt F))

set_option maxRecDepth 16384 in
theorem tileObl (hbody : TileRule (F := F)) (hidx : ∀ d j, (fiv m XF d j).toNat < 100000) :
    (K (F := F)).TileObl (D (F := F)) 𝒱 (PP m XF (fun d => AggBuf (F := F) d) tile) v₀ 0 := by
  intro d c i O W hO _ _
  simp only [show (PP m XF (fun d => AggBuf (F := F) d) tile).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) _ _ (fxv m XF d) (fiv m XF d) (fov m XF d) (hidx d) O W hO).trans
    (wp_mono frame _ _ fun _ => obl_post)

end Cert.Proof.KB

end
-- ==== Proof.Bits.TileSetup.lean ====
/-
  The resources a tile's thread owns when its body starts, laid out: its five DMA semaphores at zero (the two the
  gathers complete on, the three of the index fetch and the two copy-outs) and its three scratch buffers (the index
  list, the gathered rows, the reduced rows), each beside the rest of what it owns.
-/
import proofs.«219373_g11218454577211_week1_w3_1378_31_alg».proof.Proof.Bits.TileDefs

noncomputable section

namespace Cert.Proof.TileB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Body

variable (d : Dev nD) (L : grid1.Coords)

/-- The tile's thread. -/
abbrev thr : Thread nD τ := V d (cV L) (jV L)

/-- The tile's five DMA semaphores: the two the gathers complete on, the three of the copies. -/
abbrev cellG0 : GSem nD τ sig := (thr d L, .dma cc1_scratch3.sem)
abbrev cellG1 : GSem nD τ sig := (thr d L, .dma cc1_scratch4.sem)
abbrev cellC0 : GSem nD τ sig := (thr d L, .dma cc1_scoped0.sem)
abbrev cellC1 : GSem nD τ sig := (thr d L, .dma cc1_scoped1.sem)
abbrev cellC2 : GSem nD τ sig := (thr d L, .dma cc1_scoped2.sem)

theorem scoped_dma (s : DmaSem sig) (h : (SemLoc.dma s : SemLoc sig).isScoped .scVector = true) :
    ((thr d L, SemLoc.dma s) : GSem nD τ sig) ∈ ownCells (thr d L) := (mem_ownCells (g := (thr d L, SemLoc.dma s))).mpr ⟨rfl, h⟩

/-- The tile's own semaphores at zero: the five it names, and the rest. -/
theorem ownSems0_V :
    (ownSems0 (thr d L) : sProp 𝕄)
      = iprop(semVal (cellG0 d L) 0 ∗ semVal (cellG1 d L) 0 ∗ semVal (cellC0 d L) 0 ∗ semVal (cellC1 d L) 0 ∗ semVal (cellC2 d L) 0
          ∗ bigSep (((((ownCells (thr d L)).erase (cellG0 d L)).erase (cellG1 d L)).erase (cellC0 d L)).erase (cellC1 d L) |>.erase (cellC2 d L)) fun g => semVal g 0) := by
  unfold SparseCore.Cfg.ownSems0
  have ne : ∀ {a b : DmaSem sig}, a ≠ b → ((thr d L, SemLoc.dma a) : GSem nD τ sig) ≠ (thr d L, SemLoc.dma b) := by
    intro a b hab e; exact hab (by injection e with _ e2; injection e2)
  rw [SparseCore.bigSep_erase' (scoped_dma d L cc1_scratch3.sem (by decide)),
    SparseCore.bigSep_erase' (Finset.mem_erase.mpr ⟨ne (by decide), scoped_dma d L cc1_scratch4.sem (by decide)⟩),
    SparseCore.bigSep_erase' (Finset.mem_erase.mpr ⟨ne (by decide), Finset.mem_erase.mpr ⟨ne (by decide), scoped_dma d L cc1_scoped0.sem (by decide)⟩⟩),
    SparseCore.bigSep_erase' (Finset.mem_erase.mpr ⟨ne (by decide), Finset.mem_erase.mpr ⟨ne (by decide), Finset.mem_erase.mpr ⟨ne (by decide), scoped_dma d L cc1_scoped1.sem (by decide)⟩⟩⟩),
    SparseCore.bigSep_erase' (Finset.mem_erase.mpr ⟨ne (by decide), Finset.mem_erase.mpr ⟨ne (by decide), Finset.mem_erase.mpr ⟨ne (by decide), Finset.mem_erase.mpr ⟨ne (by decide), scoped_dma d L cc1_scoped2.sem (by decide)⟩⟩⟩⟩)]

theorem own_ref0 : (Proc.scVector (cV L) (jV L)).devRef cc1_scratch0 ∈ ownRefs (τ := τ) (sig := sig) (.scVector (cV L) (jV L)) :=
  SparseCore.Cfg.mem_ownRefs_of_owner (p := Proc.scVector (cV L) (jV L)) (b := (Proc.scVector (cV L) (jV L)).devRef cc1_scratch0) rfl
theorem own_ref1 : (Proc.scVector (cV L) (jV L)).devRef cc1_scratch1 ∈ ownRefs (τ := τ) (sig := sig) (.scVector (cV L) (jV L)) :=
  SparseCore.Cfg.mem_ownRefs_of_owner (p := Proc.scVector (cV L) (jV L)) (b := (Proc.scVector (cV L) (jV L)).devRef cc1_scratch1) rfl
theorem own_ref2 : (Proc.scVector (cV L) (jV L)).devRef cc1_scratch2 ∈ ownRefs (τ := τ) (sig := sig) (.scVector (cV L) (jV L)) :=
  SparseCore.Cfg.mem_ownRefs_of_owner (p := Proc.scVector (cV L) (jV L)) (b := (Proc.scVector (cV L) (jV L)).devRef cc1_scratch2) rfl

/-- The tile's own buffers: the index scratch, the row buffer, the output scratch, each at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  have ne : ∀ {a b : Ref sig .scVector}, a ≠ b → (Proc.scVector (cV L) (jV L)).devRef a ≠ (Proc.scVector (cV L) (jV L)).devRef b :=
    fun hab e => hab (Proc.devRef_injective _ e)
  refine (SparseCore.bigSep_erase' (own_ref0 L)).trans ?_
  rw [SparseCore.bigSep_erase' (Finset.mem_erase.mpr ⟨ne (by decide), own_ref1 L⟩),
    SparseCore.bigSep_erase' (Finset.mem_erase.mpr ⟨ne (by decide), Finset.mem_erase.mpr ⟨ne (by decide), own_ref2 L⟩⟩)]

end Body

end Cert.Proof.TileB

end
-- ==== Proof.Bits.TripRun.lean ====
/-
  One trip of a tile's loop, run once at a symbolic trip: from the table at two read shares, the index scratch
  at words in range, the row buffer and the output scratch at any contents and the gathers' two semaphores at zero,
  the trip's two gathers, their waits and its sixty-four reductions leave the output scratch at its former contents
  overwritten by sixty-four row pieces — eight rows of eight lane groups — whose values are terms of the table and
  the index words alone (the row buffer's former contents are covered by the two gathers before anything reads it).
  The list of pieces is read off the run, not written down.
-/
import proofs.«219373_g11218454577211_week1_w3_1378_31_alg».proof.Proof.Bits.TileSetup

noncomputable section

namespace Cert.Proof.TileB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-- The two windows of the index scratch a trip's gathers read their row numbers from. -/
abbrev win2 (k : Fin (k1_t1_loop L).trips) : Memref sig .scVector .vmem S128 .i32 :=
  (sV).slice (Rect.unit (s := S14336) (k1_off2 L k) S128.size (k1_off2_inb L k)) (fun _ => rfl)
abbrev win3 (k : Fin (k1_t1_loop L).trips) : Memref sig .scVector .vmem S128 .i32 :=
  (sV).slice (Rect.unit (s := S14336) (k1_off3 L k) S128.size (k1_off3_inb L k)) (fun _ => rfl)

/-- What a trip starts from. -/
abbrev TripPre (qa qb : PosShare TreeShare) (fx : Buf (Elt F) (xLoc d)) (O : CellTallies nD τ sig (HIx 1)) (W' : Waits sig (HIx 1))
    (g : Buf (Elt F) ((sV).view.loc (V d (cV L) (jV L)))) (fb : Buf (Elt F) ((bV).view.loc (V d (cV L) (jV L))))
    (fa : Buf (Elt F) ((aV).view.loc (V d (cV L) (jV L)))) : sProp 𝕄 :=
  iprop(Transfers.MayWaits (V d (cV L) (jV L)) (default : HIx 1) O
      ∗ ((xV).view.loc (V d (cV L) (jV L)) ↦{qa} fx)
      ∗ ((xV).view.loc (V d (cV L) (jV L)) ↦{qb} fx)
      ∗ ((sV).view.loc (V d (cV L) (jV L)) ↦{fullShare} g)
      ∗ ((bV).view.loc (V d (cV L) (jV L)) ↦{fullShare} fb)
      ∗ ((aV).view.loc (V d (cV L) (jV L)) ↦{fullShare} fa)
      ∗ semVal (cellG0 d L) 0 ∗ semVal (cellG1 d L) 0
      ∗ owes (V d (cV L) (jV L)) O W')

/-- What it ends with: the output scratch overwritten by the pieces `P`. -/
abbrev TripPost (qa qb : PosShare TreeShare) (fx : Buf (Elt F) (xLoc d)) (O : CellTallies nD τ sig (HIx 1)) (W' : Waits sig (HIx 1))
    (g : Buf (Elt F) ((sV).view.loc (V d (cV L) (jV L))))
    (fa : Buf (Elt F) ((aV).view.loc (V d (cV L) (jV L)))) (P : List (View.Piece (Elt F) S448x128 .f32)) : sProp 𝕄 :=
  iprop(((xV).view.loc (V d (cV L) (jV L)) ↦{qa} fx)
      ∗ ((xV).view.loc (V d (cV L) (jV L)) ↦{qb} fx)
      ∗ ((sV).view.loc (V d (cV L) (jV L)) ↦{fullShare} g)
      ∗ (∃ f, (bV).view.loc (V d (cV L) (jV L)) ↦{fullShare} f)
      ∗ ((aV).view.loc (V d (cV L) (jV L)) ↦{fullShare} (aV).view.writes (Elt F) fa P)
      ∗ semVal (cellG0 d L) 0 ∗ semVal (cellG1 d L) 0
      ∗ ∃ W'', ⌜∀ p ∈ W'', p ∈ W' ∨ p.2 = none⌝ ∗ owes (V d (cV L) (jV L)) O W'')

set_option maxHeartbeats 4000000 in
/-- The trip's run: the pieces it stores, and the triple. -/
def trip (qa qb : PosShare TreeShare) (fx : Buf (Elt F) (xLoc d)) (O : CellTallies nD τ sig (HIx 1))
    (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000) :
    Σ' P : List (View.Piece (Elt F) S448x128 .f32), ∀ (W' : Waits sig (HIx 1))
      (fb : Buf (Elt F) ((bV).view.loc (V d (cV L) (jV L)))) (fa : Buf (Elt F) ((aV).view.loc (V d (cV L) (jV L)))),
      TripPre d L qa qb fx O W' g fb fa
        ⊢ wp frame (wpE (defs₀ (F := F)) 𝒱₀ (V d (cV L) (jV L)) none) Set.univ
            (k1_t1_body L xV (Memref.isWhole_whole _) iV (Memref.isWhole_whole _) oV (Memref.isWhole_whole _)
              sV (Memref.isWhole_whole _) bV (Memref.isWhole_whole _) aV (Memref.isWhole_whole _)
              cc1_scratch3 cc1_scratch4 cc1_scoped0 cc1_scoped1 cc1_scoped2 k ())
            fun _ => TripPost d L qa qb fx O W' g fa P := by
  refine ⟨?P, fun W' fb fa => ?run⟩
  case run =>
    iintro ⟨#Hmw, HxA, HxB, Hs, Hb, Ha, HsG0, HsG1, HO⟩
    unfold k1_t1_body
    sl_exec_parts
    sl_step
    isplitl [HxA]; · iexact HxA
    isplitl [HxB]; · iexact HxB
    isplitl [Hs]; · iexact Hs
    isplitl [Hb]; · iexists _; iexact Hb
    isplitl [Ha]; · iexact Ha
    isplitl [HsG0]; · iexact HsG0
    isplitl [HsG1]; · iexact HsG1
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp

end Cert.Proof.TileB

end
-- ==== Proof.Bits.TileLeaf.lean ====
/-
  Leaf facts of one SparseCore tile's body: how many chunks it runs, which word of the flat index list lands in
  which word of its index scratch, and which table row each gathered row is.

  Tile (c, s) starts at hyperedge slot off = 640 s + 448 c and runs 56 - 32 c chunks.  It copies words
  [32 off, 32 off + 14336) of the flat list into its scratch, so scratch word j is list word 32 off + j.  In chunk k
  the first gather fills rows 0..127 of the row buffer from the table rows named by scratch words 256 k .. 256 k + 127,
  the second rows 128..255 from the words 256 k + 128 .. 256 k + 255: gathered row x is the table row whose number is
  the scratch word, lane by lane.
-/
import proofs.«219373_g11218454577211_week1_w3_1378_31_alg».proof.Proof.Bits.TileDefs

noncomputable section

namespace Cert.Proof.TileB

open Cert.Kernel Cert.Kernel.Gen Cert.Proof.KB Idealize.ShloMosaic

variable {F : FTy → Type}

/-- Word `n` of the index scratch (modulo its length: total). -/
def sIx (n : ℕ) : S14336.Idx := fun | 0 => ⟨n % 14336, Nat.mod_lt _ (by decide : 0 < 14336)⟩ | ⟨_ + 1, h⟩ => absurd h (Nat.not_lt.2 (Nat.le_add_left _ _))
/-- The first hyperedge slot of the tile at grid coordinates `L`. -/
def off (L : grid1.Coords) : ℕ := 640 * (L 1).val + 448 * (L 0).val

/-- The tile on SparseCore `c` runs `56 - 32 c` chunks. -/
theorem trips_eq : ∀ L : grid1.Coords, (k1_t1_loop L).trips = 56 - 32 * (L 0).val := by decide +kernel

/-- Word `j` of the slice of the flat list the tile copies in is list word `32 off + j`. -/
theorem fetch_eq (L : grid1.Coords) (fi : S335872.Idx → BitVec 32) (j : S14336.Idx) :
    ((iV).slice (Rect.unit (s := S335872) (k1_off1 L) S14336.size (k1_off1_inb L)) (fun _ => rfl)).view.read (Elt F) fi j
      = fi (iIx (32 * off L + (j 0).val)) := by
  have hL0 : (L 0).val < 2 := (L 0).isLt
  have hL1 : (L 1).val < 16 := (L 1).isLt
  have hj : (j 0).val < 14336 := (j 0).isLt
  show fi (((iV).slice (Rect.unit (s := S335872) (k1_off1 L) S14336.size (k1_off1_inb L)) (fun _ => rfl)).view.emb j) = _
  congr 1
  funext a
  apply Fin.ext
  match a with
  | ⟨0, _⟩ =>
    show k1_off1 L 0 + 1 * (j 0).val = (32 * off L + (j 0).val) % 335872
    rw [k1_off1_eq]
    show 20480 * (L 1).val + 14336 * (L 0).val + 1 * (j 0).val = (32 * (640 * (L 1).val + 448 * (L 0).val) + (j 0).val) % 335872
    omega

/-- Row `x 0` of the first gather's destination is the table row whose number is scratch word `256 k + x 0`, lane by lane. -/
theorem gather0_eq (fx : S100000x128.Idx → F .f32) (g : S14336.Idx → BitVec 32) (L : grid1.Coords) (k : Fin (k1_t1_loop L).trips)
    (hin : ∀ x, (((sV).slice (Rect.unit (s := S14336) (k1_off2 L k) S128.size (k1_off2_inb L k)) (fun _ => rfl)).view.read (Elt F) g x).toNat < 100000)
    (x : S128x128.Idx) :
    SparseCore.gatherPayload gathers_S100000x128_S128x128
        (View.read (Elt F) ((xV).slice (Rect.unit (s := S100000x128) ![0, 0] S100000x128.size inb_S100000x128_S100000x128_0_0) (fun _ => rfl)).view fx)
        (SparseCore.rows (View.read (Elt F) ((sV).slice (Rect.unit (s := S14336) (k1_off2 L k) S128.size (k1_off2_inb L k)) (fun _ => rfl)).view g) rfl hin) x
      = fx (xIx (g (sIx (256 * k.val + (x 0).val))).toNat (x 1).val) := by
  have hk : k.val < 56 := lt_of_lt_of_le k.isLt (by rw [trips_eq]; omega)
  have hx0 : (x 0).val < 128 := (x 0).isLt
  have hx1 : (x 1).val < 128 := (x 1).isLt
  -- the scratch word a destination row's offset names
  have hword : ∀ y : S128.Idx, (y 0).val = (x 0).val →
      ((sV).slice (Rect.unit (s := S14336) (k1_off2 L k) S128.size (k1_off2_inb L k)) (fun _ => rfl)).view.read (Elt F) g y
        = g (sIx (256 * k.val + (x 0).val)) := by
    intro y hy
    show g (((sV).slice (Rect.unit (s := S14336) (k1_off2 L k) S128.size (k1_off2_inb L k)) (fun _ => rfl)).view.emb y) = _
    congr 1
    funext a
    apply Fin.ext
    match a with
    | ⟨0, _⟩ =>
      show k1_off2 L k 0 + 1 * (y 0).val = (256 * k.val + (x 0).val) % 14336
      rw [k1_off2_eq, hy]
      show 256 * k.val + 1 * (x 0).val = (256 * k.val + (x 0).val) % 14336
      omega
  have hy0 : ((S128.rowMajor.symm (((x 0).cast (by decide : S128x128.size 0 = S128.numel)))) 0).val = (x 0).val := by
    have := Shape.rowMajor_val_one (S128.rowMajor.symm (((x 0).cast (by decide : S128x128.size 0 = S128.numel))))
    rw [Equiv.apply_symm_apply] at this
    exact this.symm
  have hlt : (g (sIx (256 * k.val + (x 0).val))).toNat < 100000 := by
    have := hin (S128.rowMajor.symm (((x 0).cast (by decide : S128x128.size 0 = S128.numel))))
    rwa [hword _ hy0] at this
  unfold SparseCore.gatherPayload
  show fx (((xV).slice (Rect.unit (s := S100000x128) ![0, 0] S100000x128.size inb_S100000x128_S100000x128_0_0) (fun _ => rfl)).view.emb _) = _
  congr 1
  funext b
  apply Fin.ext
  match b with
  | ⟨0, _⟩ =>
    show 0 + 1 * ((gathers_S100000x128_S128x128.idx _ x) 0).val = (g (sIx (256 * k.val + (x 0).val))).toNat % 100000
    rw [show (gathers_S100000x128_S128x128.idx _ x) 0 = _ from Shape.Gathers.idx_axis gathers_S100000x128_S128x128 _ x]
    show 0 + 1 * (((sV).slice (Rect.unit (s := S14336) (k1_off2 L k) S128.size (k1_off2_inb L k)) (fun _ => rfl)).view.read (Elt F) g
      (S128.rowMajor.symm (((x 0).cast (by decide : S128x128.size 0 = S128.numel))))).toNat = _
    rw [hword _ hy0]
    omega
  | ⟨1, _⟩ =>
    show 0 + 1 * ((gathers_S100000x128_S128x128.idx _ x) 1).val = (x 1).val % 128
    rw [Shape.Gathers.idx_of_ne gathers_S100000x128_S128x128 _ x 1 (by decide)]
    show 0 + 1 * (x 1).val = (x 1).val % 128
    omega

/-- Row `x 0` of the second gather's destination is the table row whose number is scratch word `256 k + 128 + x 0`, lane by lane. -/
theorem gather1_eq (fx : S100000x128.Idx → F .f32) (g : S14336.Idx → BitVec 32) (L : grid1.Coords) (k : Fin (k1_t1_loop L).trips)
    (hin : ∀ x, (((sV).slice (Rect.unit (s := S14336) (k1_off3 L k) S128.size (k1_off3_inb L k)) (fun _ => rfl)).view.read (Elt F) g x).toNat < 100000)
    (x : S128x128.Idx) :
    SparseCore.gatherPayload gathers_S100000x128_S128x128
        (View.read (Elt F) ((xV).slice (Rect.unit (s := S100000x128) ![0, 0] S100000x128.size inb_S100000x128_S100000x128_0_0) (fun _ => rfl)).view fx)
        (SparseCore.rows (View.read (Elt F) ((sV).slice (Rect.unit (s := S14336) (k1_off3 L k) S128.size (k1_off3_inb L k)) (fun _ => rfl)).view g) rfl hin) x
      = fx (xIx (g (sIx (256 * k.val + 128 + (x 0).val))).toNat (x 1).val) := by
  have hk : k.val < 56 := lt_of_lt_of_le k.isLt (by rw [trips_eq]; omega)
  have hx0 : (x 0).val < 128 := (x 0).isLt
  have hx1 : (x 1).val < 128 := (x 1).isLt
  -- the scratch word a destination row's offset names
  have hword : ∀ y : S128.Idx, (y 0).val = (x 0).val →
      ((sV).slice (Rect.unit (s := S14336) (k1_off3 L k) S128.size (k1_off3_inb L k)) (fun _ => rfl)).view.read (Elt F) g y
        = g (sIx (256 * k.val + 128 + (x 0).val)) := by
    intro y hy
    show g (((sV).slice (Rect.unit (s := S14336) (k1_off3 L k) S128.size (k1_off3_inb L k)) (fun _ => rfl)).view.emb y) = _
    congr 1
    funext a
    apply Fin.ext
    match a with
    | ⟨0, _⟩ =>
      show k1_off3 L k 0 + 1 * (y 0).val = (256 * k.val + 128 + (x 0).val) % 14336
      rw [k1_off3_eq, hy]
      show 256 * k.val + 128 + 1 * (x 0).val = (256 * k.val + 128 + (x 0).val) % 14336
      omega
  have hy0 : ((S128.rowMajor.symm (((x 0).cast (by decide : S128x128.size 0 = S128.numel)))) 0).val = (x 0).val := by
    have := Shape.rowMajor_val_one (S128.rowMajor.symm (((x 0).cast (by decide : S128x128.size 0 = S128.numel))))
    rw [Equiv.apply_symm_apply] at this
    exact this.symm
  have hlt : (g (sIx (256 * k.val + 128 + (x 0).val))).toNat < 100000 := by
    have := hin (S128.rowMajor.symm (((x 0).cast (by decide : S128x128.size 0 = S128.numel))))
    rwa [hword _ hy0] at this
  unfold SparseCore.gatherPayload
  show fx (((xV).slice (Rect.unit (s := S100000x128) ![0, 0] S100000x128.size inb_S100000x128_S100000x128_0_0) (fun _ => rfl)).view.emb _) = _
  congr 1
  funext b
  apply Fin.ext
  match b with
  | ⟨0, _⟩ =>
    show 0 + 1 * ((gathers_S100000x128_S128x128.idx _ x) 0).val = (g (sIx (256 * k.val + 128 + (x 0).val))).toNat % 100000
    rw [show (gathers_S100000x128_S128x128.idx _ x) 0 = _ from Shape.Gathers.idx_axis gathers_S100000x128_S128x128 _ x]
    show 0 + 1 * (((sV).slice (Rect.unit (s := S14336) (k1_off3 L k) S128.size (k1_off3_inb L k)) (fun _ => rfl)).view.read (Elt F) g
      (S128.rowMajor.symm (((x 0).cast (by decide : S128x128.size 0 = S128.numel))))).toNat = _
    rw [hword _ hy0]
    omega
  | ⟨1, _⟩ =>
    show 0 + 1 * ((gathers_S100000x128_S128x128.idx _ x) 1).val = (x 1).val % 128
    rw [Shape.Gathers.idx_of_ne gathers_S100000x128_S128x128 _ x 1 (by decide)]
    show 0 + 1 * (x 1).val = (x 1).val % 128
    omega

end Cert.Proof.TileB

end
-- ==== Proof.Bits.TripDefs.lean ====
/-
  Names for what a trip leaves: the row buffer after the trip's two gathers as the run lists it, sixteen lanes of
  one of its rows as a vector, the value an entry of the output must have (the aggregate's entry at the tile's
  offset), and the sixty-four row pieces a trip stores, in the order the run lists them (last stored first).
-/
import proofs.«219373_g11218454577211_week1_w3_1378_31_alg».proof.Proof.Bits.TripRun
import proofs.«219373_g11218454577211_week1_w3_1378_31_alg».proof.Proof.Bits.TileLeaf

noncomputable section

namespace Cert.Proof.TileB

open Cert.Kernel Cert.Kernel.Gen Cert.Proof.KB
open Idealize.ShloMosaic
open Idealize.ShloMosaic.SparseCore (S V T)

variable {F : FTy → Type} [FloatOps F] (d : Dev nD) (L : grid1.Coords)

/-- The row buffer after a trip's two gathers, as the run lists it: rows 128–255, then rows 0–127. -/
abbrev bufPieces (fx : Buf (Elt F) (xLoc d)) (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000) : List (View.Piece (Elt F) S256x128 .f32) :=
  [⟨Rect.unit (s := S256x128) ![128, 0] S128x128.size inb_S256x128_S128x128_128_0, trip.sl.gather1 d L fx k g hin3⟩,
    ⟨Rect.unit (s := S256x128) ![0, 0] S128x128.size inb_S256x128_S128x128_0_0, trip.sl.gather0 d L fx k g hin2⟩]

omit [FloatOps F] in
theorem inb_leaf (ρ c : ℕ) : ∀ a, (![ρ % 256, c % 113] : Fin 2 → ℕ) a + S1x16.size a ≤ S256x128.size a := by
  intro a
  have h1 := Nat.mod_lt ρ (by decide : 0 < 256)
  have h2 := Nat.mod_lt c (by decide : 0 < 113)
  match a with
  | 0 => show ρ % 256 + 1 ≤ 256; omega
  | 1 => show c % 113 + 16 ≤ 128; omega

/-- Lanes `c … c+16` of row `ρ` of the row buffer after the two gathers, as a vector of sixteen (row and first lane
    taken modulo their ranges: total). -/
def leaf (fx : Buf (Elt F) (xLoc d)) (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000) (ρ c : ℕ) : FVec F S16 .f32 :=
  shapeCast S16 ((bV).view.readCov (bufPieces d L fx k g hin2 hin3)
    (Rect.unit (s := S256x128) ![ρ % 256, c % 113] S1x16.size (inb_leaf ρ c)).toLoadRect) shapeCasts_S1x16_S16

/-- Entry (row `j`, lane `e`) of the aggregate of the table along the index list. -/
def ent (fx : Buf (Elt F) (xLoc d)) (fi : Buf (Elt F) (iLoc d)) (j e : ℕ) : F .f32 :=
  Agg.entry (F := F) (fun a e => fx (xIx a e)) (fun n => fi (iIx n)) j e

theorem AggBuf_apply (fx : Buf (Elt F) (xLoc d)) (fi : Buf (Elt F) (iLoc d)) (p : S10240x128.Idx) :
    AggBuf d fx fi p = ent d fx fi (p 0).val (p 1).val := rfl

/-- What row `y 0` of the tile's output scratch must hold: the aggregate's row at the tile's offset. -/
def Gout (fx : Buf (Elt F) (xLoc d)) (fi : Buf (Elt F) (iLoc d)) : S448x128.Idx → F .f32 :=
  fun y => ent d fx fi (off L + (y 0).val) (y 1).val

omit [FloatOps F] in
theorem inb_piece (k : Fin (k1_t1_loop L).trips) (n : ℕ) :
    ∀ a, (![(8 * k.val + n / 8) % 448, 16 * (n % 8)] : Fin 2 → ℕ) a + S1x16.size a ≤ S448x128.size a := by
  intro a
  have h1 := Nat.mod_lt (8 * k.val + n / 8) (by decide : 0 < 448)
  have h2 := Nat.mod_lt n (by decide : 0 < 8)
  match a with
  | 0 => show (8 * k.val + n / 8) % 448 + 1 ≤ 448; omega
  | 1 => show 16 * (n % 8) + 16 ≤ 128; omega

/-- The rectangle of the piece numbered `n = 8 h + dd`: row `8 k + h` of the output scratch, lanes `16 dd … 16 dd + 16`. -/
def pieceRect (k : Fin (k1_t1_loop L).trips) (n : ℕ) : Rect S448x128 :=
  Rect.unit (s := S448x128) ![(8 * k.val + n / 8) % 448, 16 * (n % 8)] S1x16.size (inb_piece L k n)

/-- The sixty-four rectangles in the run's order: the last stored (number 63) first. -/
def rectList (k : Fin (k1_t1_loop L).trips) : List (Rect S448x128) :=
  (List.range 64).reverse.map (pieceRect L k)

end Cert.Proof.TileB

end
-- ==== Proof.Bits.TripRects.lean ====
/-
  The sixty-four rectangles a trip stores through, in closed form: the store of row digit r through the rectangle
  at lane group dd is the piece numbered 8 r + dd (row 8 k + r of the output scratch, lanes 16 dd … 16 dd + 16),
  and the value the output must have there is the aggregate's entry at row (tile offset + 8 k + r).
-/
import proofs.«219373_g11218454577211_week1_w3_1378_31_alg».proof.Proof.Bits.TripDefs

noncomputable section

namespace Cert.Proof.TileB

open Cert.Kernel Cert.Kernel.Gen Cert.Proof.KB
open Idealize.ShloMosaic
open Idealize.ShloMosaic.SparseCore (S V T)

variable {F : FTy → Type} [FloatOps F] (d : Dev nD) (L : grid1.Coords)

omit [FloatOps F] in
theorem rect_unit_congr {s : Shape} {off off' size : Fin s.rank → ℕ} {inb : ∀ a, off a + size a ≤ s.size a}
    {inb' : ∀ a, off' a + size a ≤ s.size a} (e : off = off') : Rect.unit off size inb = Rect.unit off' size inb' := by
  subst e; rfl

omit [FloatOps F] in
theorem rect_off4 (k : Fin (k1_t1_loop L).trips) (r : Fin 8) :
    Rect.unit (s := S448x128) (k1_off4 L k (BitVec.ofNat 32 r.val)) S1x16.size (k1_off4_inb L k r) = pieceRect L k (8 * r.val + 0) := by
  unfold pieceRect
  have hk : k.val < 56 := lt_of_lt_of_le k.isLt (k1_t1_abs L).2.1
  have hr := r.isLt
  have h1 : (8 * r.val + 0) / 8 = r.val := by omega
  have h2 : (8 * r.val + 0) % 8 = 0 := by omega
  have h3 : (8 * k.val + r.val) % 448 = 8 * k.val + r.val := Nat.mod_eq_of_lt (by omega)
  refine rect_unit_congr ?_
  rw [k1_off4_eq L k r, h1, h2, h3]

theorem gout_off4 (fx : Buf (Elt F) (xLoc d)) (fi : Buf (Elt F) (iLoc d)) (k : Fin (k1_t1_loop L).trips) (r : Fin 8) (x : S1x16.Idx) :
    Gout d L fx fi ((Rect.unit (s := S448x128) (k1_off4 L k (BitVec.ofNat 32 r.val)) S1x16.size (k1_off4_inb L k r)).emb x)
      = ent d fx fi (off L + (8 * k.val + r.val)) (16 * 0 + (x 1).val) := by
  unfold Gout
  have h0 : (x 0).val = 0 := by have := (x 0).isLt; change (x 0).val < 1 at this; omega
  rw [Rect.emb_apply, Rect.emb_apply]
  simp only [Rect.off_unit, Rect.stride_unit, k1_off4_eq L k r, Matrix.cons_val_zero, Matrix.cons_val_one, Nat.one_mul, h0, Nat.add_zero]

omit [FloatOps F] in
theorem rect_off5 (k : Fin (k1_t1_loop L).trips) (r : Fin 8) :
    Rect.unit (s := S448x128) (k1_off5 L k (BitVec.ofNat 32 r.val)) S1x16.size (k1_off5_inb L k r) = pieceRect L k (8 * r.val + 1) := by
  unfold pieceRect
  have hk : k.val < 56 := lt_of_lt_of_le k.isLt (k1_t1_abs L).2.1
  have hr := r.isLt
  have h1 : (8 * r.val + 1) / 8 = r.val := by omega
  have h2 : (8 * r.val + 1) % 8 = 1 := by omega
  have h3 : (8 * k.val + r.val) % 448 = 8 * k.val + r.val := Nat.mod_eq_of_lt (by omega)
  refine rect_unit_congr ?_
  rw [k1_off5_eq L k r, h1, h2, h3]

theorem gout_off5 (fx : Buf (Elt F) (xLoc d)) (fi : Buf (Elt F) (iLoc d)) (k : Fin (k1_t1_loop L).trips) (r : Fin 8) (x : S1x16.Idx) :
    Gout d L fx fi ((Rect.unit (s := S448x128) (k1_off5 L k (BitVec.ofNat 32 r.val)) S1x16.size (k1_off5_inb L k r)).emb x)
      = ent d fx fi (off L + (8 * k.val + r.val)) (16 * 1 + (x 1).val) := by
  unfold Gout
  have h0 : (x 0).val = 0 := by have := (x 0).isLt; change (x 0).val < 1 at this; omega
  rw [Rect.emb_apply, Rect.emb_apply]
  simp only [Rect.off_unit, Rect.stride_unit, k1_off5_eq L k r, Matrix.cons_val_zero, Matrix.cons_val_one, Nat.one_mul, h0, Nat.add_zero]

omit [FloatOps F] in
theorem rect_off6 (k : Fin (k1_t1_loop L).trips) (r : Fin 8) :
    Rect.unit (s := S448x128) (k1_off6 L k (BitVec.ofNat 32 r.val)) S1x16.size (k1_off6_inb L k r) = pieceRect L k (8 * r.val + 2) := by
  unfold pieceRect
  have hk : k.val < 56 := lt_of_lt_of_le k.isLt (k1_t1_abs L).2.1
  have hr := r.isLt
  have h1 : (8 * r.val + 2) / 8 = r.val := by omega
  have h2 : (8 * r.val + 2) % 8 = 2 := by omega
  have h3 : (8 * k.val + r.val) % 448 = 8 * k.val + r.val := Nat.mod_eq_of_lt (by omega)
  refine rect_unit_congr ?_
  rw [k1_off6_eq L k r, h1, h2, h3]

theorem gout_off6 (fx : Buf (Elt F) (xLoc d)) (fi : Buf (Elt F) (iLoc d)) (k : Fin (k1_t1_loop L).trips) (r : Fin 8) (x : S1x16.Idx) :
    Gout d L fx fi ((Rect.unit (s := S448x128) (k1_off6 L k (BitVec.ofNat 32 r.val)) S1x16.size (k1_off6_inb L k r)).emb x)
      = ent d fx fi (off L + (8 * k.val + r.val)) (16 * 2 + (x 1).val) := by
  unfold Gout
  have h0 : (x 0).val = 0 := by have := (x 0).isLt; change (x 0).val < 1 at this; omega
  rw [Rect.emb_apply, Rect.emb_apply]
  simp only [Rect.off_unit, Rect.stride_unit, k1_off6_eq L k r, Matrix.cons_val_zero, Matrix.cons_val_one, Nat.one_mul, h0, Nat.add_zero]

omit [FloatOps F] in
theorem rect_off7 (k : Fin (k1_t1_loop L).trips) (r : Fin 8) :
    Rect.unit (s := S448x128) (k1_off7 L k (BitVec.ofNat 32 r.val)) S1x16.size (k1_off7_inb L k r) = pieceRect L k (8 * r.val + 3) := by
  unfold pieceRect
  have hk : k.val < 56 := lt_of_lt_of_le k.isLt (k1_t1_abs L).2.1
  have hr := r.isLt
  have h1 : (8 * r.val + 3) / 8 = r.val := by omega
  have h2 : (8 * r.val + 3) % 8 = 3 := by omega
  have h3 : (8 * k.val + r.val) % 448 = 8 * k.val + r.val := Nat.mod_eq_of_lt (by omega)
  refine rect_unit_congr ?_
  rw [k1_off7_eq L k r, h1, h2, h3]

theorem gout_off7 (fx : Buf (Elt F) (xLoc d)) (fi : Buf (Elt F) (iLoc d)) (k : Fin (k1_t1_loop L).trips) (r : Fin 8) (x : S1x16.Idx) :
    Gout d L fx fi ((Rect.unit (s := S448x128) (k1_off7 L k (BitVec.ofNat 32 r.val)) S1x16.size (k1_off7_inb L k r)).emb x)
      = ent d fx fi (off L + (8 * k.val + r.val)) (16 * 3 + (x 1).val) := by
  unfold Gout
  have h0 : (x 0).val = 0 := by have := (x 0).isLt; change (x 0).val < 1 at this; omega
  rw [Rect.emb_apply, Rect.emb_apply]
  simp only [Rect.off_unit, Rect.stride_unit, k1_off7_eq L k r, Matrix.cons_val_zero, Matrix.cons_val_one, Nat.one_mul, h0, Nat.add_zero]

omit [FloatOps F] in
theorem rect_off8 (k : Fin (k1_t1_loop L).trips) (r : Fin 8) :
    Rect.unit (s := S448x128) (k1_off8 L k (BitVec.ofNat 32 r.val)) S1x16.size (k1_off8_inb L k r) = pieceRect L k (8 * r.val + 4) := by
  unfold pieceRect
  have hk : k.val < 56 := lt_of_lt_of_le k.isLt (k1_t1_abs L).2.1
  have hr := r.isLt
  have h1 : (8 * r.val + 4) / 8 = r.val := by omega
  have h2 : (8 * r.val + 4) % 8 = 4 := by omega
  have h3 : (8 * k.val + r.val) % 448 = 8 * k.val + r.val := Nat.mod_eq_of_lt (by omega)
  refine rect_unit_congr ?_
  rw [k1_off8_eq L k r, h1, h2, h3]

theorem gout_off8 (fx : Buf (Elt F) (xLoc d)) (fi : Buf (Elt F) (iLoc d)) (k : Fin (k1_t1_loop L).trips) (r : Fin 8) (x : S1x16.Idx) :
    Gout d L fx fi ((Rect.unit (s := S448x128) (k1_off8 L k (BitVec.ofNat 32 r.val)) S1x16.size (k1_off8_inb L k r)).emb x)
      = ent d fx fi (off L + (8 * k.val + r.val)) (16 * 4 + (x 1).val) := by
  unfold Gout
  have h0 : (x 0).val = 0 := by have := (x 0).isLt; change (x 0).val < 1 at this; omega
  rw [Rect.emb_apply, Rect.emb_apply]
  simp only [Rect.off_unit, Rect.stride_unit, k1_off8_eq L k r, Matrix.cons_val_zero, Matrix.cons_val_one, Nat.one_mul, h0, Nat.add_zero]

omit [FloatOps F] in
theorem rect_off9 (k : Fin (k1_t1_loop L).trips) (r : Fin 8) :
    Rect.unit (s := S448x128) (k1_off9 L k (BitVec.ofNat 32 r.val)) S1x16.size (k1_off9_inb L k r) = pieceRect L k (8 * r.val + 5) := by
  unfold pieceRect
  have hk : k.val < 56 := lt_of_lt_of_le k.isLt (k1_t1_abs L).2.1
  have hr := r.isLt
  have h1 : (8 * r.val + 5) / 8 = r.val := by omega
  have h2 : (8 * r.val + 5) % 8 = 5 := by omega
  have h3 : (8 * k.val + r.val) % 448 = 8 * k.val + r.val := Nat.mod_eq_of_lt (by omega)
  refine rect_unit_congr ?_
  rw [k1_off9_eq L k r, h1, h2, h3]

theorem gout_off9 (fx : Buf (Elt F) (xLoc d)) (fi : Buf (Elt F) (iLoc d)) (k : Fin (k1_t1_loop L).trips) (r : Fin 8) (x : S1x16.Idx) :
    Gout d L fx fi ((Rect.unit (s := S448x128) (k1_off9 L k (BitVec.ofNat 32 r.val)) S1x16.size (k1_off9_inb L k r)).emb x)
      = ent d fx fi (off L + (8 * k.val + r.val)) (16 * 5 + (x 1).val) := by
  unfold Gout
  have h0 : (x 0).val = 0 := by have := (x 0).isLt; change (x 0).val < 1 at this; omega
  rw [Rect.emb_apply, Rect.emb_apply]
  simp only [Rect.off_unit, Rect.stride_unit, k1_off9_eq L k r, Matrix.cons_val_zero, Matrix.cons_val_one, Nat.one_mul, h0, Nat.add_zero]

omit [FloatOps F] in
theorem rect_off10 (k : Fin (k1_t1_loop L).trips) (r : Fin 8) :
    Rect.unit (s := S448x128) (k1_off10 L k (BitVec.ofNat 32 r.val)) S1x16.size (k1_off10_inb L k r) = pieceRect L k (8 * r.val + 6) := by
  unfold pieceRect
  have hk : k.val < 56 := lt_of_lt_of_le k.isLt (k1_t1_abs L).2.1
  have hr := r.isLt
  have h1 : (8 * r.val + 6) / 8 = r.val := by omega
  have h2 : (8 * r.val + 6) % 8 = 6 := by omega
  have h3 : (8 * k.val + r.val) % 448 = 8 * k.val + r.val := Nat.mod_eq_of_lt (by omega)
  refine rect_unit_congr ?_
  rw [k1_off10_eq L k r, h1, h2, h3]

theorem gout_off10 (fx : Buf (Elt F) (xLoc d)) (fi : Buf (Elt F) (iLoc d)) (k : Fin (k1_t1_loop L).trips) (r : Fin 8) (x : S1x16.Idx) :
    Gout d L fx fi ((Rect.unit (s := S448x128) (k1_off10 L k (BitVec.ofNat 32 r.val)) S1x16.size (k1_off10_inb L k r)).emb x)
      = ent d fx fi (off L + (8 * k.val + r.val)) (16 * 6 + (x 1).val) := by
  unfold Gout
  have h0 : (x 0).val = 0 := by have := (x 0).isLt; change (x 0).val < 1 at this; omega
  rw [Rect.emb_apply, Rect.emb_apply]
  simp only [Rect.off_unit, Rect.stride_unit, k1_off10_eq L k r, Matrix.cons_val_zero, Matrix.cons_val_one, Nat.one_mul, h0, Nat.add_zero]

omit [FloatOps F] in
theorem rect_off11 (k : Fin (k1_t1_loop L).trips) (r : Fin 8) :
    Rect.unit (s := S448x128) (k1_off11 L k (BitVec.ofNat 32 r.val)) S1x16.size (k1_off11_inb L k r) = pieceRect L k (8 * r.val + 7) := by
  unfold pieceRect
  have hk : k.val < 56 := lt_of_lt_of_le k.isLt (k1_t1_abs L).2.1
  have hr := r.isLt
  have h1 : (8 * r.val + 7) / 8 = r.val := by omega
  have h2 : (8 * r.val + 7) % 8 = 7 := by omega
  have h3 : (8 * k.val + r.val) % 448 = 8 * k.val + r.val := Nat.mod_eq_of_lt (by omega)
  refine rect_unit_congr ?_
  rw [k1_off11_eq L k r, h1, h2, h3]

theorem gout_off11 (fx : Buf (Elt F) (xLoc d)) (fi : Buf (Elt F) (iLoc d)) (k : Fin (k1_t1_loop L).trips) (r : Fin 8) (x : S1x16.Idx) :
    Gout d L fx fi ((Rect.unit (s := S448x128) (k1_off11 L k (BitVec.ofNat 32 r.val)) S1x16.size (k1_off11_inb L k r)).emb x)
      = ent d fx fi (off L + (8 * k.val + r.val)) (16 * 7 + (x 1).val) := by
  unfold Gout
  have h0 : (x 0).val = 0 := by have := (x 0).isLt; change (x 0).val < 1 at this; omega
  rw [Rect.emb_apply, Rect.emb_apply]
  simp only [Rect.off_unit, Rect.stride_unit, k1_off11_eq L k r, Matrix.cons_val_zero, Matrix.cons_val_one, Nat.one_mul, h0, Nat.add_zero]

end Cert.Proof.TileB

end
-- ==== Proof.Bits.TripPieces.lean ====
/-
  The pieces a trip stores, read off its run: their rectangles are the sixty-four of the closed form, in order, and
  each piece's value at a lane is the five-level pairwise sum of the thirty-two gathered rows of its group at that
  lane times the scale word — by unfolding the run's named values — hence, given that such a sum is the aggregate's
  entry, each piece is a block of the one function the output scratch must hold.
-/
import proofs.«219373_g11218454577211_week1_w3_1378_31_alg».proof.Proof.Bits.TripRects

set_option maxRecDepth 65536

noncomputable section

namespace Cert.Proof.TileB

open Cert.Kernel Cert.Kernel.Gen Cert.Proof.KB
open Idealize.ShloMosaic
open Idealize.ShloMosaic.SparseCore (S V T)
open Idealize.ShloMosaic.SparseCore.Cfg (HIx)
open Idealize.SL Idealize.SL.RA

variable {F : FTy → Type} [FloatOps F] (d : Dev nD) (L : grid1.Coords)

set_option maxHeartbeats 4000000 in
theorem rects_eq (qa qb : PosShare TreeShare) (fx : Buf (Elt F) (xLoc d)) (O : CellTallies nD τ sig (HIx 1))
    (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000) :
    (trip d L qa qb fx O k g hin2 hin3).1.map (fun p => p.1) = rectList L k := by
  rw [show rectList L k = [pieceRect L k 63, pieceRect L k 62, pieceRect L k 61, pieceRect L k 60, pieceRect L k 59, pieceRect L k 58, pieceRect L k 57, pieceRect L k 56, pieceRect L k 55, pieceRect L k 54, pieceRect L k 53, pieceRect L k 52, pieceRect L k 51, pieceRect L k 50, pieceRect L k 49, pieceRect L k 48, pieceRect L k 47, pieceRect L k 46, pieceRect L k 45, pieceRect L k 44, pieceRect L k 43, pieceRect L k 42, pieceRect L k 41, pieceRect L k 40, pieceRect L k 39, pieceRect L k 38, pieceRect L k 37, pieceRect L k 36, pieceRect L k 35, pieceRect L k 34, pieceRect L k 33, pieceRect L k 32, pieceRect L k 31, pieceRect L k 30, pieceRect L k 29, pieceRect L k 28, pieceRect L k 27, pieceRect L k 26, pieceRect L k 25, pieceRect L k 24, pieceRect L k 23, pieceRect L k 22, pieceRect L k 21, pieceRect L k 20, pieceRect L k 19, pieceRect L k 18, pieceRect L k 17, pieceRect L k 16, pieceRect L k 15, pieceRect L k 14, pieceRect L k 13, pieceRect L k 12, pieceRect L k 11, pieceRect L k 10, pieceRect L k 9, pieceRect L k 8, pieceRect L k 7, pieceRect L k 6, pieceRect L k 5, pieceRect L k 4, pieceRect L k 3, pieceRect L k 2, pieceRect L k 1, pieceRect L k 0] from rfl]
  refine List.cons_eq_cons.mpr ⟨rect_off11 L k ⟨7, by decide⟩, ?_⟩
  refine List.cons_eq_cons.mpr ⟨rect_off10 L k ⟨7, by decide⟩, ?_⟩
  refine List.cons_eq_cons.mpr ⟨rect_off9 L k ⟨7, by decide⟩, ?_⟩
  refine List.cons_eq_cons.mpr ⟨rect_off8 L k ⟨7, by decide⟩, ?_⟩
  refine List.cons_eq_cons.mpr ⟨rect_off7 L k ⟨7, by decide⟩, ?_⟩
  refine List.cons_eq_cons.mpr ⟨rect_off6 L k ⟨7, by decide⟩, ?_⟩
  refine List.cons_eq_cons.mpr ⟨rect_off5 L k ⟨7, by decide⟩, ?_⟩
  refine List.cons_eq_cons.mpr ⟨rect_off4 L k ⟨7, by decide⟩, ?_⟩
  refine List.cons_eq_cons.mpr ⟨rect_off11 L k ⟨6, by decide⟩, ?_⟩
  refine List.cons_eq_cons.mpr ⟨rect_off10 L k ⟨6, by decide⟩, ?_⟩
  refine List.cons_eq_cons.mpr ⟨rect_off9 L k ⟨6, by decide⟩, ?_⟩
  refine List.cons_eq_cons.mpr ⟨rect_off8 L k ⟨6, by decide⟩, ?_⟩
  refine List.cons_eq_cons.mpr ⟨rect_off7 L k ⟨6, by decide⟩, ?_⟩
  refine List.cons_eq_cons.mpr ⟨rect_off6 L k ⟨6, by decide⟩, ?_⟩
  refine List.cons_eq_cons.mpr ⟨rect_off5 L k ⟨6, by decide⟩, ?_⟩
  refine List.cons_eq_cons.mpr ⟨rect_off4 L k ⟨6, by decide⟩, ?_⟩
  refine List.cons_eq_cons.mpr ⟨rect_off11 L k ⟨5, by decide⟩, ?_⟩
  refine List.cons_eq_cons.mpr ⟨rect_off10 L k ⟨5, by decide⟩, ?_⟩
  refine List.cons_eq_cons.mpr ⟨rect_off9 L k ⟨5, by decide⟩, ?_⟩
  refine List.cons_eq_cons.mpr ⟨rect_off8 L k ⟨5, by decide⟩, ?_⟩
  refine List.cons_eq_cons.mpr ⟨rect_off7 L k ⟨5, by decide⟩, ?_⟩
  refine List.cons_eq_cons.mpr ⟨rect_off6 L k ⟨5, by decide⟩, ?_⟩
  refine List.cons_eq_cons.mpr ⟨rect_off5 L k ⟨5, by decide⟩, ?_⟩
  refine List.cons_eq_cons.mpr ⟨rect_off4 L k ⟨5, by decide⟩, ?_⟩
  refine List.cons_eq_cons.mpr ⟨rect_off11 L k ⟨4, by decide⟩, ?_⟩
  refine List.cons_eq_cons.mpr ⟨rect_off10 L k ⟨4, by decide⟩, ?_⟩
  refine List.cons_eq_cons.mpr ⟨rect_off9 L k ⟨4, by decide⟩, ?_⟩
  refine List.cons_eq_cons.mpr ⟨rect_off8 L k ⟨4, by decide⟩, ?_⟩
  refine List.cons_eq_cons.mpr ⟨rect_off7 L k ⟨4, by decide⟩, ?_⟩
  refine List.cons_eq_cons.mpr ⟨rect_off6 L k ⟨4, by decide⟩, ?_⟩
  refine List.cons_eq_cons.mpr ⟨rect_off5 L k ⟨4, by decide⟩, ?_⟩
  refine List.cons_eq_cons.mpr ⟨rect_off4 L k ⟨4, by decide⟩, ?_⟩
  refine List.cons_eq_cons.mpr ⟨rect_off11 L k ⟨3, by decide⟩, ?_⟩
  refine List.cons_eq_cons.mpr ⟨rect_off10 L k ⟨3, by decide⟩, ?_⟩
  refine List.cons_eq_cons.mpr ⟨rect_off9 L k ⟨3, by decide⟩, ?_⟩
  refine List.cons_eq_cons.mpr ⟨rect_off8 L k ⟨3, by decide⟩, ?_⟩
  refine List.cons_eq_cons.mpr ⟨rect_off7 L k ⟨3, by decide⟩, ?_⟩
  refine List.cons_eq_cons.mpr ⟨rect_off6 L k ⟨3, by decide⟩, ?_⟩
  refine List.cons_eq_cons.mpr ⟨rect_off5 L k ⟨3, by decide⟩, ?_⟩
  refine List.cons_eq_cons.mpr ⟨rect_off4 L k ⟨3, by decide⟩, ?_⟩
  refine List.cons_eq_cons.mpr ⟨rect_off11 L k ⟨2, by decide⟩, ?_⟩
  refine List.cons_eq_cons.mpr ⟨rect_off10 L k ⟨2, by decide⟩, ?_⟩
  refine List.cons_eq_cons.mpr ⟨rect_off9 L k ⟨2, by decide⟩, ?_⟩
  refine List.cons_eq_cons.mpr ⟨rect_off8 L k ⟨2, by decide⟩, ?_⟩
  refine List.cons_eq_cons.mpr ⟨rect_off7 L k ⟨2, by decide⟩, ?_⟩
  refine List.cons_eq_cons.mpr ⟨rect_off6 L k ⟨2, by decide⟩, ?_⟩
  refine List.cons_eq_cons.mpr ⟨rect_off5 L k ⟨2, by decide⟩, ?_⟩
  refine List.cons_eq_cons.mpr ⟨rect_off4 L k ⟨2, by decide⟩, ?_⟩
  refine List.cons_eq_cons.mpr ⟨rect_off11 L k ⟨1, by decide⟩, ?_⟩
  refine List.cons_eq_cons.mpr ⟨rect_off10 L k ⟨1, by decide⟩, ?_⟩
  refine List.cons_eq_cons.mpr ⟨rect_off9 L k ⟨1, by decide⟩, ?_⟩
  refine List.cons_eq_cons.mpr ⟨rect_off8 L k ⟨1, by decide⟩, ?_⟩
  refine List.cons_eq_cons.mpr ⟨rect_off7 L k ⟨1, by decide⟩, ?_⟩
  refine List.cons_eq_cons.mpr ⟨rect_off6 L k ⟨1, by decide⟩, ?_⟩
  refine List.cons_eq_cons.mpr ⟨rect_off5 L k ⟨1, by decide⟩, ?_⟩
  refine List.cons_eq_cons.mpr ⟨rect_off4 L k ⟨1, by decide⟩, ?_⟩
  refine List.cons_eq_cons.mpr ⟨rect_off11 L k ⟨0, by decide⟩, ?_⟩
  refine List.cons_eq_cons.mpr ⟨rect_off10 L k ⟨0, by decide⟩, ?_⟩
  refine List.cons_eq_cons.mpr ⟨rect_off9 L k ⟨0, by decide⟩, ?_⟩
  refine List.cons_eq_cons.mpr ⟨rect_off8 L k ⟨0, by decide⟩, ?_⟩
  refine List.cons_eq_cons.mpr ⟨rect_off7 L k ⟨0, by decide⟩, ?_⟩
  refine List.cons_eq_cons.mpr ⟨rect_off6 L k ⟨0, by decide⟩, ?_⟩
  refine List.cons_eq_cons.mpr ⟨rect_off5 L k ⟨0, by decide⟩, ?_⟩
  refine List.cons_eq_cons.mpr ⟨rect_off4 L k ⟨0, by decide⟩, ?_⟩
  rfl

set_option maxHeartbeats 4000000 in
theorem pieces_ok (qa qb : PosShare TreeShare) (fx : Buf (Elt F) (xLoc d)) (fi : Buf (Elt F) (iLoc d)) (O : CellTallies nD τ sig (HIx 1))
    (k : Fin (k1_t1_loop L).trips) (g : Buf (Elt F) ((sV).view.loc (V d (cV L) (jV L))))
    (hin2 : ∀ x, ((win2 L k).view.read (Elt F) g x).toNat < 100000)
    (hin3 : ∀ x, ((win3 L k).view.read (Elt F) g x).toNat < 100000)
    (TL : ∀ (h dd : ℕ), h < 8 → dd < 8 → ∀ x : S1x16.Idx,
      FloatOps.mulf (Agg.tree32 fun r => leaf d L fx k g hin2 hin3 (32 * h + r) (16 * dd) (Shape.reshapeEquiv shapeCasts_S16_S1x16 x)) Agg.scale
        = ent d fx fi (off L + (8 * k.val + h)) (16 * dd + (x 1).val)) :
    ∀ p ∈ (trip d L qa qb fx O k g hin2 hin3).1, ∀ x : p.1.shape.Idx, p.2 x = Gout d L fx fi (p.1.emb x) := by
  intro p hp
  rcases List.mem_cons.mp hp with rfl | hp
  · intro (x : S1x16.Idx)
    exact ((rfl : _ = FloatOps.mulf (Agg.tree32 fun r => leaf d L fx k g hin2 hin3 (32 * 7 + r) (16 * 7) (Shape.reshapeEquiv shapeCasts_S16_S1x16 x)) Agg.scale).trans
      (TL 7 7 (by decide) (by decide) x)).trans (gout_off11 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 6) (Shape.reshapeEquiv shapeCasts_S16_S1x16 x)) Agg.scale).trans
      (TL 7 6 (by decide) (by decide) x)).trans (gout_off10 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 5) (Shape.reshapeEquiv shapeCasts_S16_S1x16 x)) Agg.scale).trans
      (TL 7 5 (by decide) (by decide) x)).trans (gout_off9 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 4) (Shape.reshapeEquiv shapeCasts_S16_S1x16 x)) Agg.scale).trans
      (TL 7 4 (by decide) (by decide) x)).trans (gout_off8 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 3) (Shape.reshapeEquiv shapeCasts_S16_S1x16 x)) Agg.scale).trans
      (TL 7 3 (by decide) (by decide) x)).trans (gout_off7 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 2) (Shape.reshapeEquiv shapeCasts_S16_S1x16 x)) Agg.scale).trans
      (TL 7 2 (by decide) (by decide) x)).trans (gout_off6 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 1) (Shape.reshapeEquiv shapeCasts_S16_S1x16 x)) Agg.scale).trans
      (TL 7 1 (by decide) (by decide) x)).trans (gout_off5 d L fx fi k ⟨7, by decide⟩ x).symm
  rcases List.mem_cons.mp hp with rfl | hp
  · intro (x : S1x16.Idx)
    exact ((rfl : _ = FloatOps.mulf (Agg.tree32 fun r => leaf d L fx k g hin2 hin3 (32 * 7 + r) (16 * 0) (Shape.reshapeEquiv shapeCasts_S16_S1x16 x)) Agg.scale).trans
      (TL 7 0 (by decide) (by decide) x)).trans (gout_off4 d L fx fi k ⟨7, by decide⟩ x).symm
  rcases List.mem_cons.mp hp with rfl | hp
  · intro (x : S1x16.Idx)
    exact ((rfl : _ = FloatOps.mulf (Agg.tree32 fun r => leaf d L fx k g hin2 hin3 (32 * 6 + r) (16 * 7) (Shape.reshapeEquiv shapeCasts_S16_S1x16 x)) Agg.scale).trans
      (TL 6 7 (by decide) (by decide) x)).trans (gout_off11 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 6) (Shape.reshapeEquiv shapeCasts_S16_S1x16 x)) Agg.scale).trans
      (TL 6 6 (by decide) (by decide) x)).trans (gout_off10 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 5) (Shape.reshapeEquiv shapeCasts_S16_S1x16 x)) Agg.scale).trans
      (TL 6 5 (by decide) (by decide) x)).trans (gout_off9 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 4) (Shape.reshapeEquiv shapeCasts_S16_S1x16 x)) Agg.scale).trans
      (TL 6 4 (by decide) (by decide) x)).trans (gout_off8 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 3) (Shape.reshapeEquiv shapeCasts_S16_S1x16 x)) Agg.scale).trans
      (TL 6 3 (by decide) (by decide) x)).trans (gout_off7 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 2) (Shape.reshapeEquiv shapeCasts_S16_S1x16 x)) Agg.scale).trans
      (TL 6 2 (by decide) (by decide) x)).trans (gout_off6 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 1) (Shape.reshapeEquiv shapeCasts_S16_S1x16 x)) Agg.scale).trans
      (TL 6 1 (by decide) (by decide) x)).trans (gout_off5 d L fx fi k ⟨6, by decide⟩ x).symm
  rcases List.mem_cons.mp hp with rfl | hp
  · intro (x : S1x16.Idx)
    exact ((rfl : _ = FloatOps.mulf (Agg.tree32 fun r => leaf d L fx k g hin2 hin3 (32 * 6 + r) (16 * 0) (Shape.reshapeEquiv shapeCasts_S16_S1x16 x)) Agg.scale).trans
      (TL 6 0 (by decide) (by decide) x)).trans (gout_off4 d L fx fi k ⟨6, by decide⟩ x).symm
  rcases List.mem_cons.mp hp with rfl | hp
  · intro (x : S1x16.Idx)
    exact ((rfl : _ = FloatOps.mulf (Agg.tree32 fun r => leaf d L fx k g hin2 hin3 (32 * 5 + r) (16 * 7) (Shape.reshapeEquiv shapeCasts_S16_S1x16 x)) Agg.scale).trans
      (TL 5 7 (by decide) (by decide) x)).trans (gout_off11 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 6) (Shape.reshapeEquiv shapeCasts_S16_S1x16 x)) Agg.scale).trans
      (TL 5 6 (by decide) (by decide) x)).trans (gout_off10 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 5) (Shape.reshapeEquiv shapeCasts_S16_S1x16 x)) Agg.scale).trans
      (TL 5 5 (by decide) (by decide) x)).trans (gout_off9 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 4) (Shape.reshapeEquiv shapeCasts_S16_S1x16 x)) Agg.scale).trans
      (TL 5 4 (by decide) (by decide) x)).trans (gout_off8 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 3) (Shape.reshapeEquiv shapeCasts_S16_S1x16 x)) Agg.scale).trans
      (TL 5 3 (by decide) (by decide) x)).trans (gout_off7 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 2) (Shape.reshapeEquiv shapeCasts_S16_S1x16 x)) Agg.scale).trans
      (TL 5 2 (by decide) (by decide) x)).trans (gout_off6 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 1) (Shape.reshapeEquiv shapeCasts_S16_S1x16 x)) Agg.scale).trans
      (TL 5 1 (by decide) (by decide) x)).trans (gout_off5 d L fx fi k ⟨5, by decide⟩ x).symm
  rcases List.mem_cons.mp hp with rfl | hp
  · intro (x : S1x16.Idx)
    exact ((rfl : _ = FloatOps.mulf (Agg.tree32 fun r => leaf d L fx k g hin2 hin3 (32 * 5 + r) (16 * 0) (Shape.reshapeEquiv shapeCasts_S16_S1x16 x)) Agg.scale).trans
      (TL 5 0 (by decide) (by decide) x)).trans (gout_off4 d L fx fi k ⟨5, by decide⟩ x).symm
  rcases List.mem_cons.mp hp with rfl | hp
  · intro (x : S1x16.Idx)
    exact ((rfl : _ = FloatOps.mulf (Agg.tree32 fun r => leaf d L fx k g hin2 hin3 (32 * 4 + r) (16 * 7) (Shape.reshapeEquiv shapeCasts_S16_S1x16 x)) Agg.scale).trans
      (TL 4 7 (by decide) (by decide) x)).trans (gout_off11 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 6) (Shape.reshapeEquiv shapeCasts_S16_S1x16 x)) Agg.scale).trans
      (TL 4 6 (by decide) (by decide) x)).trans (gout_off10 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 5) (Shape.reshapeEquiv shapeCasts_S16_S1x16 x)) Agg.scale).trans
      (TL 4 5 (by decide) (by decide) x)).trans (gout_off9 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 4) (Shape.reshapeEquiv shapeCasts_S16_S1x16 x)) Agg.scale).trans
      (TL 4 4 (by decide) (by decide) x)).trans (gout_off8 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 3) (Shape.reshapeEquiv shapeCasts_S16_S1x16 x)) Agg.scale).trans
      (TL 4 3 (by decide) (by decide) x)).trans (gout_off7 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 2) (Shape.reshapeEquiv shapeCasts_S16_S1x16 x)) Agg.scale).trans
      (TL 4 2 (by decide) (by decide) x)).trans (gout_off6 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 1) (Shape.reshapeEquiv shapeCasts_S16_S1x16 x)) Agg.scale).trans
      (TL 4 1 (by decide) (by decide) x)).trans (gout_off5 d L fx fi k ⟨4, by decide⟩ x).symm
  rcases List.mem_cons.mp hp with rfl | hp
  · intro (x : S1x16.Idx)
    exact ((rfl : _ = FloatOps.mulf (Agg.tree32 fun r => leaf d L fx k g hin2 hin3 (32 * 4 + r) (16 * 0) (Shape.reshapeEquiv shapeCasts_S16_S1x16 x)) Agg.scale).trans
      (TL 4 0 (by decide) (by decide) x)).trans (gout_off4 d L fx fi k ⟨4, by decide⟩ x).symm
  rcases List.mem_cons.mp hp with rfl | hp
  · intro (x : S1x16.Idx)
    exact ((rfl : _ = FloatOps.mulf (Agg.tree32 fun r => leaf d L fx k g hin2 hin3 (32 * 3 + r) (16 * 7) (Shape.reshapeEquiv shapeCasts_S16_S1x16 x)) Agg.scale).trans
      (TL 3 7 (by decide) (by decide) x)).trans (gout_off11 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 6) (Shape.reshapeEquiv shapeCasts_S16_S1x16 x)) Agg.scale).trans
      (TL 3 6 (by decide) (by decide) x)).trans (gout_off10 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 5) (Shape.reshapeEquiv shapeCasts_S16_S1x16 x)) Agg.scale).trans
      (TL 3 5 (by decide) (by decide) x)).trans (gout_off9 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 4) (Shape.reshapeEquiv shapeCasts_S16_S1x16 x)) Agg.scale).trans
      (TL 3 4 (by decide) (by decide) x)).trans (gout_off8 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 3) (Shape.reshapeEquiv shapeCasts_S16_S1x16 x)) Agg.scale).trans
      (TL 3 3 (by decide) (by decide) x)).trans (gout_off7 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 2) (Shape.reshapeEquiv shapeCasts_S16_S1x16 x)) Agg.scale).trans
      (TL 3 2 (by decide) (by decide) x)).trans (gout_off6 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 1) (Shape.reshapeEquiv shapeCasts_S16_S1x16 x)) Agg.scale).trans
      (TL 3 1 (by decide) (by decide) x)).trans (gout_off5 d L fx fi k ⟨3, by decide⟩ x).symm
  rcases List.mem_cons.mp hp with rfl | hp
  · intro (x : S1x16.Idx)
    exact ((rfl : _ = FloatOps.mulf (Agg.tree32 fun r => leaf d L fx k g hin2 hin3 (32 * 3 + r) (16 * 0) (Shape.reshapeEquiv shapeCasts_S16_S1x16 x)) Agg.scale).trans
      (TL 3 0 (by decide) (by decide) x)).trans (gout_off4 d L fx fi k ⟨3, by decide⟩ x).symm
  rcases List.mem_cons.mp hp with rfl | hp
  · intro (x : S1x16.Idx)
    exact ((rfl : _ = FloatOps.mulf (Agg.tree32 fun r => leaf d L fx k g hin2 hin3 (32 * 2 + r) (16 * 7) (Shape.reshapeEquiv shapeCasts_S16_S1x16 x)) Agg.scale).trans
      (TL 2 7 (by decide) (by decide) x)).trans (gout_off11 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 6) (Shape.reshapeEquiv shapeCasts_S16_S1x16 x)) Agg.scale).trans
      (TL 2 6 (by decide) (by decide) x)).trans (gout_off10 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 5) (Shape.reshapeEquiv shapeCasts_S16_S1x16 x)) Agg.scale).trans
      (TL 2 5 (by decide) (by decide) x)).trans (gout_off9 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 4) (Shape.reshapeEquiv shapeCasts_S16_S1x16 x)) Agg.scale).trans
      (TL 2 4 (by decide) (by decide) x)).trans (gout_off8 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 3) (Shape.reshapeEquiv shapeCasts_S16_S1x16 x)) Agg.scale).trans
      (TL 2 3 (by decide) (by decide) x)).trans (gout_off7 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 2) (Shape.reshapeEquiv shapeCasts_S16_S1x16 x)) Agg.scale).trans
      (TL 2 2 (by decide) (by decide) x)).trans (gout_off6 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 1) (Shape.reshapeEquiv shapeCasts_S16_S1x16 x)) Agg.scale).trans
      (TL 2 1 (by decide) (by decide) x)).trans (gout_off5 d L fx fi k ⟨2, by decide⟩ x).symm
  rcases List.mem_cons.mp hp with rfl | hp
  · intro (x : S1x16.Idx)
    exact ((rfl : _ = FloatOps.mulf (Agg.tree32 fun r => leaf d L fx k g hin2 hin3 (32 * 2 + r) (16 * 0) (Shape.reshapeEquiv shapeCasts_S16_S1x16 x)) Agg.scale).trans
      (TL 2 0 (by decide) (by decide) x)).trans (gout_off4 d L fx fi k ⟨2, by decide⟩ x).symm
  rcases List.mem_cons.mp hp with rfl | hp
  · intro (x : S1x16.Idx)
    exact ((rfl : _ = FloatOps.mulf (Agg.tree32 fun r => leaf d L fx k g hin2 hin3 (32 * 1 + r) (16 * 7) (Shape.reshapeEquiv shapeCasts_S16_S1x16 x)) Agg.scale).trans
      (TL 1 7 (by decide) (by decide) x)).trans (gout_off11 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 6) (Shape.reshapeEquiv shapeCasts_S16_S1x16 x)) Agg.scale).trans
      (TL 1 6 (by decide) (by decide) x)).trans (gout_off10 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 5) (Shape.reshapeEquiv shapeCasts_S16_S1x16 x)) Agg.scale).trans
      (TL 1 5 (by decide) (by decide) x)).trans (gout_off9 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 4) (Shape.reshapeEquiv shapeCasts_S16_S1x16 x)) Agg.scale).trans
      (TL 1 4 (by decide) (by decide) x)).trans (gout_off8 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 3) (Shape.reshapeEquiv shapeCasts_S16_S1x16 x)) Agg.scale).trans
      (TL 1 3 (by decide) (by decide) x)).trans (gout_off7 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 2) (Shape.reshapeEquiv shapeCasts_S16_S1x16 x)) Agg.scale).trans
      (TL 1 2 (by decide) (by decide) x)).trans (gout_off6 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 1) (Shape.reshapeEquiv shapeCasts_S16_S1x16 x)) Agg.scale).trans
      (TL 1 1 (by decide) (by decide) x)).trans (gout_off5 d L fx fi k ⟨1, by decide⟩ x).symm
  rcases List.mem_cons.mp hp with rfl | hp
  · intro (x : S1x16.Idx)
    exact ((rfl : _ = FloatOps.mulf (Agg.tree32 fun r => leaf d L fx k g hin2 hin3 (32 * 1 + r) (16 * 0) (Shape.reshapeEquiv shapeCasts_S16_S1x16 x)) Agg.scale).trans
      (TL 1 0 (by decide) (by decide) x)).trans (gout_off4 d L fx fi k ⟨1, by decide⟩ x).symm
  rcases List.mem_cons.mp hp with rfl | hp
  · intro (x : S1x16.Idx)
    exact ((rfl : _ = FloatOps.mulf (Agg.tree32 fun r => leaf d L fx k g hin2 hin3 (32 * 0 + r) (16 * 7) (Shape.reshapeEquiv shapeCasts_S16_S1x16 x)) Agg.scale).trans
      (TL 0 7 (by decide) (by decide) x)).trans (gout_off11 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 6) (Shape.reshapeEquiv shapeCasts_S16_S1x16 x)) Agg.scale).trans
      (TL 0 6 (by decide) (by decide) x)).trans (gout_off10 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 5) (Shape.reshapeEquiv shapeCasts_S16_S1x16 x)) Agg.scale).trans
      (TL 0 5 (by decide) (by decide) x)).trans (gout_off9 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 4) (Shape.reshapeEquiv shapeCasts_S16_S1x16 x)) Agg.scale).trans
      (TL 0 4 (by decide) (by decide) x)).trans (gout_off8 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 3) (Shape.reshapeEquiv shapeCasts_S16_S1x16 x)) Agg.scale).trans
      (TL 0 3 (by decide) (by decide) x)).trans (gout_off7 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 2) (Shape.reshapeEquiv shapeCasts_S16_S1x16 x)) Agg.scale).trans
      (TL 0 2 (by decide) (by decide) x)).trans (gout_off6 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 1) (Shape.reshapeEquiv shapeCasts_S16_S1x16 x)) Agg.scale).trans
      (TL 0 1 (by decide) (by decide) x)).trans (gout_off5 d L fx fi k ⟨0, by decide⟩ x).symm
  rcases List.mem_cons.mp hp with rfl | hp
  · intro (x : S1x16.Idx)
    exact ((rfl : _ = FloatOps.mulf (Agg.tree32 fun r => leaf d L fx k g hin2 hin3 (32 * 0 + r) (16 * 0) (Shape.reshapeEquiv shapeCasts_S16_S1x16 x)) Agg.scale).trans
      (TL 0 0 (by decide) (by decide) x)).trans (gout_off4 d L fx fi k ⟨0, by decide⟩ x).symm
  exact absurd hp List.not_mem_nil

end Cert.Proof.TileB

end
-- ==== Proof.Bits.TripValue.lean ====
/-
  What a trip's stores hold, as values: one stored group of sixteen lanes is the aggregate's entry, and the
  sixty-four stores of a trip read back as rows of one function.

  After a trip's two gathers, row ρ of the row buffer is the table row whose number is scratch word 256 k + ρ, lane by
  lane.  The group stored at row 8 k + h, lanes 16 dd .. 16 dd + 16 is the pairwise sum over r < 32 of the buffer's rows
  32 h + r at those lanes, times the scale word; the scratch holds words 32 off .. of the flat list, so these are the
  thirty-two table rows that hyperedge slot off + 8 k + h names: the aggregate's entry there.
-/
import proofs.«219373_g11218454577211_week1_w3_1378_31_alg».proof.Proof.Bits.TripDefs

noncomputable section

namespace Cert.Proof.TileB

open Cert.Kernel Cert.Kernel.Gen Cert.Proof.KB
open Idealize.ShloMosaic
open Idealize.ShloMosaic.SparseCore (S V T)

variable {F : FTy → Type} [FloatOps F] (d : Dev nD) (L : grid1.Coords)

/-! ## The pairwise sum reads its thirty-two arguments only -/

theorem lvl_congr {v v' : ℕ → F .f32} {n : ℕ} (h : ∀ i < 2 * n, v i = v' i) : ∀ i < n, Agg.lvl v i = Agg.lvl v' i := by
  intro i hi
  unfold Agg.lvl
  rw [h (2 * i) (by omega), h (2 * i + 1) (by omega)]

theorem tree32_congr {v v' : ℕ → F .f32} (h : ∀ r < 32, v r = v' r) : Agg.tree32 v = Agg.tree32 v' := by
  unfold Agg.tree32
  exact lvl_congr (n := 1) (lvl_congr (n := 2) (lvl_congr (n := 4) (lvl_congr (n := 8) (lvl_congr (n := 16) h)))) 0 Nat.one_pos

/-! ## The row buffer after a trip's two gathers -/

/-- Row `y 0`, lane `y 1` of the row buffer after trip `k`'s gathers: the table row scratch word `256 k + y 0` names. -/
def bufG (fx : Buf (Elt F) (xLoc d)) (k : Fin (k1_t1_loop L).trips) (g : Buf (Elt F) ((sV).view.loc (V d (cV L) (jV L)))) :
    S256x128.Idx → F .f32 :=
  fun y => fx (xIx (g (sIx (256 * k.val + (y 0).val))).toNat (y 1).val)

theorem bufPieces_agree (fx : Buf (Elt F) (xLoc d)) (k : Fin (k1_t1_loop L).trips) (g : Buf (Elt F) ((sV).view.loc (V d (cV L) (jV L))))
    (hin2 : ∀ x, ((win2 L k).view.read (Elt F) g x).toNat < 100000) (hin3 : ∀ x, ((win3 L k).view.read (Elt F) g x).toNat < 100000) :
    ∀ p ∈ bufPieces d L fx k g hin2 hin3, ∀ x : p.1.shape.Idx, p.2 x = bufG d L fx k g (p.1.emb x) := by
  intro p hp
  rcases List.mem_cons.mp hp with rfl | hp
  · intro (x : S128x128.Idx)
    show trip.sl.gather1 d L fx k g hin3 x = _
    refine (gather1_eq fx g L k hin3 x).trans ?_
    show _ = fx (xIx (g (sIx (256 * k.val + (128 + 1 * (x 0).val)))).toNat (0 + 1 * (x 1).val))
    rw [show 256 * k.val + (128 + 1 * (x 0).val) = 256 * k.val + 128 + (x 0).val from by omega,
      show 0 + 1 * (x 1).val = (x 1).val from by omega]
  · rcases List.mem_cons.mp hp with rfl | hp
    · intro (x : S128x128.Idx)
      show trip.sl.gather0 d L fx k g hin2 x = _
      refine (gather0_eq fx g L k hin2 x).trans ?_
      show _ = fx (xIx (g (sIx (256 * k.val + (0 + 1 * (x 0).val)))).toNat (0 + 1 * (x 1).val))
      rw [show 256 * k.val + (0 + 1 * (x 0).val) = 256 * k.val + (x 0).val from by omega,
        show 0 + 1 * (x 1).val = (x 1).val from by omega]
    · exact absurd hp List.not_mem_nil

/-- Sixteen lanes of a row of the row buffer after the gathers, lane by lane: the named table row's. -/
theorem leaf_apply (fx : Buf (Elt F) (xLoc d)) (k : Fin (k1_t1_loop L).trips) (g : Buf (Elt F) ((sV).view.loc (V d (cV L) (jV L))))
    (hin2 : ∀ x, ((win2 L k).view.read (Elt F) g x).toNat < 100000) (hin3 : ∀ x, ((win3 L k).view.read (Elt F) g x).toNat < 100000)
    (ρ c : ℕ) (hρ : ρ < 256) (hc : c < 113) (x : S1x16.Idx) :
    leaf d L fx k g hin2 hin3 ρ c (Shape.reshapeEquiv shapeCasts_S16_S1x16 x)
      = fx (xIx (g (sIx (256 * k.val + ρ))).toNat (c + (x 1).val)) := by
  have hx0 : (x 0).val < 1 := (x 0).isLt
  have hx1 : (x 1).val < 16 := (x 1).isLt
  unfold leaf shapeCast
  rw [Shape.reshapeEquiv_reshapeEquiv, Shape.reshapeEquiv_self]
  unfold View.readCov
  rw [View.readAt_apply]
  have hρm : ρ % 256 = ρ := Nat.mod_eq_of_lt hρ
  have hcm : c % 113 = c := Nat.mod_eq_of_lt hc
  have hy0 : ((Rect.unit (s := S256x128) ![ρ % 256, c % 113] S1x16.size (inb_leaf ρ c)).idx x 0).val = ρ := by
    show ρ % 256 + 1 * (x 0).val = ρ; omega
  have hy1 : ((Rect.unit (s := S256x128) ![ρ % 256, c % 113] S1x16.size (inb_leaf ρ c)).idx x 1).val = c + (x 1).val := by
    show c % 113 + 1 * (x 1).val = c + (x 1).val; omega
  have hcover : ∃ p ∈ bufPieces d L fx k g hin2 hin3,
      (Rect.unit (s := S256x128) ![ρ % 256, c % 113] S1x16.size (inb_leaf ρ c)).idx x ∈ p.1.set := by
    by_cases hlo : ρ < 128
    · refine ⟨_, List.mem_cons_of_mem _ List.mem_cons_self, ?_⟩
      rw [Rect.mem_set_unit]
      intro a
      match a with
      | ⟨0, _⟩ => show 0 ≤ ρ % 256 + 1 * (x 0).val ∧ ρ % 256 + 1 * (x 0).val < 0 + 128; omega
      | ⟨1, _⟩ => show 0 ≤ c % 113 + 1 * (x 1).val ∧ c % 113 + 1 * (x 1).val < 0 + 128; omega
    · refine ⟨_, List.mem_cons_self, ?_⟩
      rw [Rect.mem_set_unit]
      intro a
      match a with
      | ⟨0, _⟩ => show 128 ≤ ρ % 256 + 1 * (x 0).val ∧ ρ % 256 + 1 * (x 0).val < 128 + 128; omega
      | ⟨1, _⟩ => show 0 ≤ c % 113 + 1 * (x 1).val ∧ c % 113 + 1 * (x 1).val < 0 + 128; omega
  refine (View.read_writes_apply_of_pieces _ _ (bufG d L fx k g) _ (bufPieces_agree d L fx k g hin2 hin3) _ hcover).trans ?_
  unfold bufG
  rw [hy0, hy1]

/-- THE VALUE OF ONE STORED GROUP: the scaled pairwise sum over the thirty-two buffer rows `32 h + r`, at lanes
    `16 dd ..`, is the aggregate's entry at hyperedge slot `off + 8 k + h`, the scratch holding list words `32 off ..`. -/
theorem tree_leaf_eq (fx : Buf (Elt F) (xLoc d)) (fi : Buf (Elt F) (iLoc d)) (k : Fin (k1_t1_loop L).trips)
    (g : Buf (Elt F) ((sV).view.loc (V d (cV L) (jV L))))
    (hin2 : ∀ x, ((win2 L k).view.read (Elt F) g x).toNat < 100000) (hin3 : ∀ x, ((win3 L k).view.read (Elt F) g x).toNat < 100000)
    (hgv : ∀ j : S14336.Idx, g j = fi (iIx (32 * off L + (j 0).val)))
    (h dd : ℕ) (hh : h < 8) (hd : dd < 8) (x : S1x16.Idx) :
    FloatOps.mulf (Agg.tree32 fun r => leaf d L fx k g hin2 hin3 (32 * h + r) (16 * dd) (Shape.reshapeEquiv shapeCasts_S16_S1x16 x)) Agg.scale
      = ent d fx fi (off L + (8 * k.val + h)) (16 * dd + (x 1).val) := by
  have hk : k.val < 56 := lt_of_lt_of_le k.isLt (k1_t1_abs L).2.1
  unfold ent Agg.entry
  refine congrArg (fun t => FloatOps.mulf t Agg.scale) (tree32_congr fun r hr => ?_)
  rw [leaf_apply d L fx k g hin2 hin3 (32 * h + r) (16 * dd) (by omega) (by omega) x, hgv]
  have e : 32 * off L + ((sIx (256 * k.val + (32 * h + r))) 0).val = 32 * (off L + (8 * k.val + h)) + r := by
    show 32 * off L + (256 * k.val + (32 * h + r)) % 14336 = _
    omega
  rw [e]

/-! ## Sixty-four stores read back as rows of one function -/

/-- SIXTY-FOUR STORES READ BACK AS ONE FUNCTION: a list of pieces on the trip's sixty-four rectangles whose payloads
    are `Gout` there, written over contents that are `Gout` below row `8 k`, leaves `Gout` below row `8 (k + 1)`. -/
theorem writes_value (fx : Buf (Elt F) (xLoc d)) (fi : Buf (Elt F) (iLoc d)) (k : Fin (k1_t1_loop L).trips) (hk : k.val < 56)
    (P : List (View.Piece (Elt F) S448x128 .f32)) (hrect : P.map (fun p => p.1) = rectList L k)
    (hpay : ∀ p ∈ P, ∀ x : p.1.shape.Idx, p.2 x = Gout d L fx fi (p.1.emb x))
    (fa : S448x128.Idx → F .f32) (hfa : ∀ y : S448x128.Idx, (y 0).val < 8 * k.val → fa y = Gout d L fx fi y) :
    ∀ y : S448x128.Idx, (y 0).val < 8 * (k.val + 1) → (aV).view.writes (Elt F) fa P y = Gout d L fx fi y := by
  intro y hy
  have hy1 : (y 1).val < 128 := (y 1).isLt
  -- every piece sits on one of the sixty-four rectangles
  have hrects : ∀ p ∈ P, ∃ n, n < 64 ∧ p.1 = pieceRect L k n := by
    intro p hp
    have hm : p.1 ∈ rectList L k := hrect ▸ List.mem_map_of_mem (f := fun p : View.Piece (Elt F) S448x128 .f32 => p.1) hp
    unfold rectList at hm
    obtain ⟨n, hn, e⟩ := List.mem_map.mp hm
    exact ⟨n, List.mem_range.mp (List.mem_reverse.mp hn), e.symm⟩
  show (aV).view.read (Elt F) ((aV).view.writes (Elt F) fa P) y = _
  by_cases hlo : (y 0).val < 8 * k.val
  · rw [View.read_writes_apply_of_forall_not_mem _ _ y P ?_]
    · exact hfa y hlo
    · intro p hp hmem
      obtain ⟨n, hn, e⟩ := hrects p hp
      rw [e] at hmem
      unfold pieceRect at hmem
      rw [Rect.mem_set_unit] at hmem
      have h0 := hmem 0
      change (8 * k.val + n / 8) % 448 ≤ (y 0).val ∧ (y 0).val < (8 * k.val + n / 8) % 448 + 1 at h0
      omega
  · obtain ⟨n, hnd⟩ : ∃ n, n = 8 * ((y 0).val - 8 * k.val) + (y 1).val / 16 := ⟨_, rfl⟩
    have hn : n < 64 := by omega
    have hmemR : pieceRect L k n ∈ rectList L k := by
      unfold rectList
      exact List.mem_map.mpr ⟨n, List.mem_reverse.mpr (List.mem_range.mpr hn), rfl⟩
    rw [← hrect] at hmemR
    obtain ⟨p, hp, e⟩ := List.mem_map.mp hmemR
    refine View.read_writes_apply_of_pieces _ _ (Gout d L fx fi) P hpay y ⟨p, hp, ?_⟩
    rw [e]
    unfold pieceRect
    rw [Rect.mem_set_unit]
    intro a
    match a with
    | ⟨0, _⟩ =>
      show (8 * k.val + n / 8) % 448 ≤ (y 0).val ∧ (y 0).val < (8 * k.val + n / 8) % 448 + 1
      omega
    | ⟨1, _⟩ =>
      show 16 * (n % 8) ≤ (y 1).val ∧ (y 1).val < 16 * (n % 8) + 16
      omega

end Cert.Proof.TileB

end
-- ==== Proof.Bits.CopyoutValue.lean ====
/-
  What the tile's copy-out leaves in its block of the padded output: the aggregate's rows.

  The output scratch holds, row y, the aggregate's row off + y (`Gout`).  On SparseCore 0 the whole scratch (448 rows)
  is copied to output rows off .. off + 448, on SparseCore 1 its first 192 rows to rows off .. off + 192: row off + y of
  the output then holds the aggregate's row off + y, which is what the padded output must hold everywhere.
-/
import proofs.«219373_g11218454577211_week1_w3_1378_31_alg».proof.Proof.Bits.TripDefs
import Idealize.ShloMosaic.Lib.Pipeline.Value

noncomputable section

namespace Cert.Proof.TileB

open Cert.Kernel Cert.Kernel.Gen Cert.Proof.KB
open Idealize.ShloMosaic
open Idealize.ShloMosaic.SparseCore (S V T)

variable {F : FTy → Type} [FloatOps F] (d : Dev nD) (L : grid1.Coords)

/-- On SparseCore 0: the whole scratch copied onto the tile's 448 output rows. -/
theorem copyout0_value (h1 : k1_cond1 L = 1#1) (fx : Buf (Elt F) (xLoc d)) (fi : Buf (Elt F) (iLoc d)) (fo : Buf (Elt F) (oLoc d))
    (fa2 : S448x128.Idx → F .f32) (hfa2 : ∀ y : S448x128.Idx, fa2 y = Gout d L fx fi y) :
    ∀ i ∈ (oBlk0 L h1).view.set,
      ((oBlk0 L h1).view.writes (Elt F) fo [⟨Rect.whole S448x128, (aV).view.read (Elt F) fa2⟩]) i = AggBuf d fx fi i := by
  intro i hi
  obtain ⟨x, rfl⟩ := View.exists_emb_of_mem_set (oBlk0 L h1).view hi
  have hw := View.read_writes_cons_emb (oBlk0 L h1).view fo (Rect.whole S448x128) ((aV).view.read (Elt F) fa2) [] x
  rw [Rect.emb_whole_apply] at hw
  refine Eq.trans ?_ (hw.trans ?_)
  · rw [View.read_apply]; rfl
  show fa2 x = _
  rw [hfa2, AggBuf_apply]
  unfold Gout
  have e0 : ((oBlk0 L h1).view.emb x 0).val = off L + (x 0).val := by
    show k1_off22 L 0 + 1 * (x 0).val = 640 * (L 1).val + 448 * (L 0).val + (x 0).val
    rw [k1_off22_eq]
    show 640 * (L 1).val + 448 * (L 0).val + 1 * (x 0).val = _
    omega
  have e1 : ((oBlk0 L h1).view.emb x 1).val = (x 1).val := by
    show k1_off22 L 1 + 1 * (x 1).val = (x 1).val
    rw [k1_off22_eq]
    show 0 + 1 * (x 1).val = _
    omega
  rw [e0, e1]

/-- On SparseCore 1: the scratch's first 192 rows copied onto the tile's 192 output rows. -/
theorem copyout1_value (h2 : k1_cond2 L = 1#1) (fx : Buf (Elt F) (xLoc d)) (fi : Buf (Elt F) (iLoc d)) (fo : Buf (Elt F) (oLoc d))
    (fa2 : S448x128.Idx → F .f32) (hfa2 : ∀ y : S448x128.Idx, (y 0).val < 192 → fa2 y = Gout d L fx fi y) :
    ∀ i ∈ (oBlk1 L h2).view.set,
      ((oBlk1 L h2).view.writes (Elt F) fo [⟨Rect.whole S192x128, ((aV).slice (Rect.unit (s := S448x128) ![0, 0] S192x128.size inb_S448x128_S192x128_0_0) (fun _ => rfl)).view.read (Elt F) fa2⟩]) i = AggBuf d fx fi i := by
  intro i hi
  obtain ⟨x, rfl⟩ := View.exists_emb_of_mem_set (oBlk1 L h2).view hi
  have hx0 : (x 0).val < 192 := (x 0).isLt
  have hw := View.read_writes_cons_emb (oBlk1 L h2).view fo (Rect.whole S192x128) (((aV).slice (Rect.unit (s := S448x128) ![0, 0] S192x128.size inb_S448x128_S192x128_0_0) (fun _ => rfl)).view.read (Elt F) fa2) [] x
  rw [Rect.emb_whole_apply] at hw
  refine Eq.trans ?_ (hw.trans ?_)
  · rw [View.read_apply]; rfl
  show fa2 (((aV).slice (Rect.unit (s := S448x128) ![0, 0] S192x128.size inb_S448x128_S192x128_0_0) (fun _ => rfl)).view.emb x) = _
  have ey0 : ((((aV).slice (Rect.unit (s := S448x128) ![0, 0] S192x128.size inb_S448x128_S192x128_0_0) (fun _ => rfl)).view.emb x) 0).val = (x 0).val := by
    show 0 + 1 * (x 0).val = _; omega
  have ey1 : ((((aV).slice (Rect.unit (s := S448x128) ![0, 0] S192x128.size inb_S448x128_S192x128_0_0) (fun _ => rfl)).view.emb x) 1).val = (x 1).val := by
    show 0 + 1 * (x 1).val = _; omega
  rw [hfa2 _ (by rw [ey0]; exact hx0), AggBuf_apply]
  unfold Gout
  have e0 : ((oBlk1 L h2).view.emb x 0).val = off L + (x 0).val := by
    show k1_off23 L 0 + 1 * (x 0).val = 640 * (L 1).val + 448 * (L 0).val + (x 0).val
    rw [k1_off23_eq]
    show 640 * (L 1).val + 448 * (L 0).val + 1 * (x 0).val = _
    omega
  have e1 : ((oBlk1 L h2).view.emb x 1).val = (x 1).val := by
    show k1_off23 L 1 + 1 * (x 1).val = (x 1).val
    rw [k1_off23_eq]
    show 0 + 1 * (x 1).val = _
    omega
  rw [e0, e1, ey0, ey1]

end Cert.Proof.TileB

end
-- ==== Proof.Bits.Tile.lean ====
/-
  One SparseCore tile's body, at a symbolic tile and for any float instance: it runs to its end, faults nowhere,
  waits for nothing that does not come, and gives back what it was handed — the table and the index list unchanged
  at the shares they came with, its block of the output at some contents, its scratch buffers and semaphores as it
  found them. The index words are in range (below 100000), so every row the two gathers of a trip name exists; the
  two gathers are in flight together on two different semaphores and each is waited for before the row buffer is
  read; the remainder loop has no trip; exactly one of the two copy-outs runs (448 rows on SparseCore 0, 192 on
  SparseCore 1).
-/
import proofs.«219373_g11218454577211_week1_w3_1378_31_alg».proof.Proof.Bits.TileSetup

noncomputable section

namespace Cert.Proof.TileB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-- An index word read through a window of the index scratch is one of the scratch's words. -/
theorem read_lt (r : Rect S14336) (hr : ∀ a, r.stride a = 1) (g : S14336.Idx → BitVec 32)
    (hg : ∀ j, (g j).toNat < 100000) : ∀ x, (((sV).slice r hr).view.read (Elt F) g x).toNat < 100000 := by
  intro x
  rw [View.read_apply]
  exact (cast_eq _ _).symm ▸ hg _

/-- A word of the index list read through a window of it is one of its words. -/
theorem readI_lt (r : Rect S335872) (hr : ∀ a, r.stride a = 1) (fi : S335872.Idx → BitVec 32)
    (hidx : ∀ j, (fi j).toNat < 100000) : ∀ x, (((iV).slice r hr).view.read (Elt F) fi x).toNat < 100000 := by
  intro x
  rw [View.read_apply]
  exact (cast_eq _ _).symm ▸ hidx _

/-- The index scratch overwritten whole holds what was written. -/
theorem write_univ_lt (fs pay : S14336.Idx → BitVec 32) (h : ∀ j, (pay j).toNat < 100000) :
    ∀ j, ((View.write (Elt F) (sV).view fs pay Finset.univ) j).toNat < 100000 := by
  intro j
  have e : View.write (Elt F) (sV).view fs pay Finset.univ = pay :=
    View.write_whole_univ (Val := Elt F) cc1_scratch0 fs pay
  rw [e]; exact h j

/-- The tile's share of the output, as the copy-out on SparseCore 0 addresses it. -/
theorem oPts_blk0 (h1 : k1_cond1 L = 1#1) (f : Buf (Elt F) (oLoc d)) :
    (oPts d L f : sProp 𝕄) = ((oBlk0 L h1).view.loc (V d (cV L) (jV L)) ↦[(oBlk0 L h1).view.set]{fullShare} f) := by
  show (oLoc d ↦[oSet L]{fullShare} f : sProp 𝕄) = _
  unfold oSet; rw [dif_pos h1]
/-- The tile's share of the output, as the copy-out on SparseCore 1 addresses it. -/
theorem oPts_blk1 (h1 : ¬ k1_cond1 L = 1#1) (h2 : k1_cond2 L = 1#1) (f : Buf (Elt F) (oLoc d)) :
    (oPts d L f : sProp 𝕄) = ((oBlk1 L h2).view.loc (V d (cV L) (jV L)) ↦[(oBlk1 L h2).view.set]{fullShare} f) := by
  show (oLoc d ↦[oSet L]{fullShare} f : sProp 𝕄) = _
  unfold oSet; rw [dif_neg h1, dif_pos h2]

/-- What every trip of the loop starts from and ends with: the table at two read shares (one per gather in flight),
    the index scratch at words all in range, the row buffer and the output scratch at some contents, the gathers'
    two semaphores at zero, and the thread's account. -/
def inv (qx : PosShare TreeShare) (fx : Buf (Elt F) (xLoc d)) (O : CellTallies nD τ sig (HIx 1)) (W : Waits sig (HIx 1))
    (_ : Nat) (_ : Unit) : sProp 𝕄 :=
  iprop(Transfers.MayWaits (V d (cV L) (jV L)) (default : HIx 1) O
    ∗ ((xV).view.loc (V d (cV L) (jV L)) ↦{qx.left} fx)
    ∗ ((xV).view.loc (V d (cV L) (jV L)) ↦{qx.right} fx)
    ∗ (∃ g, ⌜∀ j, (g j).toNat < 100000⌝ ∗ (sV).view.loc (V d (cV L) (jV L)) ↦{fullShare} g)
    ∗ (∃ f, (bV).view.loc (V d (cV L) (jV L)) ↦{fullShare} f)
    ∗ (∃ f, (aV).view.loc (V d (cV L) (jV L)) ↦{fullShare} f)
    ∗ semVal (cellG0 d L) 0 ∗ semVal (cellG1 d L) 0
    ∗ ∃ W', ⌜∀ p ∈ W', p ∈ W ∨ p.2 = none⌝ ∗ owes (V d (cV L) (jV L)) O W')

set_option maxHeartbeats 4000000 in
theorem tile_frame (qx qi : PosShare TreeShare)
    (fx : Buf (Elt F) (xLoc d)) (fi : Buf (Elt F) (iLoc d)) (fo : Buf (Elt F) (oLoc d))
    (hidx : ∀ j, (fi j).toNat < 100000) (hF : (K (F := F)).Facts)
    (O : CellTallies nD τ sig (HIx 1)) (W : Waits sig (HIx 1)) (hO : ∀ g, O g none = 0) :
    iprop(levAts (K (F := F)).L (K (F := F)).lev ∗ emp
        ∗ (xPts d qx fx ∗ iPts d qi fi ∗ oPts d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) iV (Memref.isWhole_whole _) oV (Memref.isWhole_whole _)
            sV (Memref.isWhole_whole _) bV (Memref.isWhole_whole _) aV (Memref.isWhole_whole _)
            cc1_scratch3 cc1_scratch4 cc1_scoped0 cc1_scoped1 cc1_scoped2)
          fun _ => iprop((xPts d qx fx ∗ iPts d qi fi ∗ ∃ f, oPts d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fb, Hb⟩, ⟨%fa, Ha⟩, Hbufs⟩, ⟨HsG0, HsG1, HsC0, HsC1, HsC2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xPts d qx fx : sProp 𝕄) = ((xV).view.loc (V d (cV L) (jV L)) ↦{qx} fx) from rfl)) $$ Hx
  ihave Hi' := (Entails.of_eq (show (iPts d qi fi : sProp 𝕄) = ((iV).view.loc (V d (cV L) (jV L)) ↦{qi} fi) from rfl)) $$ Hi
  ihave Hs' := (Entails.of_eq (show ((V d (cV L) (jV L)).loc cc1_scratch0 ↦{fullShare} fs : sProp 𝕄) = ((sV).view.loc (V d (cV L) (jV L)) ↦{fullShare} fs) from rfl)) $$ Hs
  ihave Hb' := (Entails.of_eq (show ((V d (cV L) (jV L)).loc cc1_scratch1 ↦{fullShare} fb : sProp 𝕄) = ((bV).view.loc (V d (cV L) (jV L)) ↦{fullShare} fb) from rfl)) $$ Hb
  ihave Ha' := (Entails.of_eq (show ((V d (cV L) (jV L)).loc cc1_scratch2 ↦{fullShare} fa : sProp 𝕄) = ((aV).view.loc (V d (cV L) (jV L)) ↦{fullShare} fa) from rfl)) $$ Ha
  sl_exec_parts
  ihave Hx2 := (pointsTo_share (PosShare.mem_left_op_right qx)).1 $$ Hx'
  icases Hx2 with ⟨HxA, HxB⟩
  sl_for (inv d L qx fx O W) $$ [Hmw HxA HxB Hs' Hb' Ha' HsG0 HsG1 HO]
  case region =>
    intro k _
    unfold inv
    iintro ⟨Hmw, HxA, HxB, ⟨%g, %hg, Hs⟩, ⟨%fb', Hb⟩, ⟨%fa', Ha⟩, HsG0, HsG1, %W', %hW', HO⟩
    have hin2 := read_lt (F := F) (Rect.unit (s := S14336) (k1_off2 L k) S128.size (k1_off2_inb L k)) (fun _ => rfl) g hg
    have hin3 := read_lt (F := F) (Rect.unit (s := S14336) (k1_off3 L k) S128.size (k1_off3_inb L k)) (fun _ => rfl) g hg
    sl_exec_parts
    sl_step
    isplitl [Hmw]; · iexact Hmw
    isplitl [HxA]; · iexact HxA
    isplitl [HxB]; · iexact HxB
    isplitl [Hs]
    · iexists g; isplitr
      · ipureintro; exact hg
      · iexact Hs
    isplitl [Hb]; · iexists _; iexact Hb
    isplitl [Ha]; · iexists _; iexact Ha
    isplitl [HsG0]; · iexact HsG0
    isplitl [HsG1]; · iexact HsG1
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [HxA]; · iexact HxA
    isplitl [HxB]; · iexact HxB
    isplitl [Hs']
    · iexists _; isplitr
      swap; · iexact Hs'
      ipureintro; intro j
      exact write_univ_lt (F := F) _ _
        (readI_lt (F := F) (Rect.unit (s := S335872) (k1_off1 L) S14336.size (k1_off1_inb L)) (fun _ => rfl) fi hidx) j
    isplitl [Hb']; · iexists _; iexact Hb'
    isplitl [Ha']; · iexists _; iexact Ha'
    isplitl [HsG0]; · iexact HsG0
    isplitl [HsG1]; · iexact HsG1
    iexists _; isplitr
    swap; · iexact HO
    ipureintro; intro p hp
    rcases Finset.mem_insert.mp hp with hp | hp; · exact .inr (hp ▸ rfl)
    exact .inl hp
  iintro %_ HI
  unfold inv
  icases HI with ⟨-, HxA, HxB, ⟨%g, %hg, Hs⟩, ⟨%fb', Hb⟩, ⟨%fa', Ha⟩, HsG0, HsG1, %W', %hW', HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv d L qx fx O W) $$ [Hmw HxA HxB Hs Hb Ha HsG0 HsG1 HO]
  case region =>
    intro k _
    exact absurd k.isLt (Nat.not_lt.2 (Nat.le_trans (k1_t2_abs L).2.1 (Nat.zero_le _)))
  · unfold inv
    isplitl [Hmw]; · iexact Hmw
    isplitl [HxA]; · iexact HxA
    isplitl [HxB]; · iexact HxB
    isplitl [Hs]
    · iexists g; isplitr
      · ipureintro; exact hg
      · iexact Hs
    isplitl [Hb]; · iexists _; iexact Hb
    isplitl [Ha]; · iexists _; iexact Ha
    isplitl [HsG0]; · iexact HsG0
    isplitl [HsG1]; · iexact HsG1
    iexists _; isplitr
    swap; · iexact HO
    ipureintro; exact hW'
  iintro %_ HI
  unfold inv
  icases HI with ⟨-, HxA, HxB, ⟨%g2, %hg2, Hs⟩, ⟨%fb2, Hb⟩, ⟨%fa2, Ha⟩, HsG0, HsG1, %W2, %hW2, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  by_cases h1 : k1_cond1 L = 1#1
  · have h2 : ¬ k1_cond2 L = 1#1 := fun h => by
      have := (cond1_iff L).mp h1; have := (cond2_iff L).mp h; omega
    ihave Ho' := (Entails.of_eq (oPts_blk0 (F := F) d L h1 fo)) $$ Ho
    sl_exec
    sl_step
    ihave Hx := (pointsTo_share (PosShare.mem_left_op_right qx)).2 $$ [HxA HxB]
    · isplitl [HxA] <;> iassumption
    isplitl [Hx Hi' Ho']
    · isplitl [Hx]; · iexact Hx
      isplitl [Hi']; · iexact Hi'
      iexists _; iapply (Entails.of_eq (oPts_blk0 (F := F) d L h1 _).symm); iexact Ho'
    isplitl [Hs Hb Ha Hbufs]
    · isplitl [Hs]; · iexists _; iexact Hs
      isplitl [Hb]; · iexists _; iexact Hb
      isplitl [Ha]; · iexists _; iexact Ha
      iexact Hbufs
    isplitl [HsG0 HsG1 HsC0 HsC1 HsC2 Hsems]
    · isplitl [HsG0]; · iexact HsG0
      isplitl [HsG1]; · iexact HsG1
      isplitl [HsC0]; · iexact HsC0
      isplitl [HsC1]; · iexact HsC1
      isplitl [HsC2]; · iexact HsC2
      iexact Hsems
    iexists _; isplitr
    swap; · iexact HO
    ipureintro; intro p hp
    rcases Finset.mem_insert.mp hp with hp | hp; · exact .inr (hp ▸ rfl)
    exact hW2 p hp
  · have h2 : k1_cond2 L = 1#1 := (cond2_iff L).mpr (by
      have := (cond1_iff L).not.mp h1; have := (L 0).isLt; change (L 0).val < 2 at this; omega)
    ihave Ho' := (Entails.of_eq (oPts_blk1 (F := F) d L h1 h2 fo)) $$ Ho
    sl_exec
    sl_step
    ihave Hx := (pointsTo_share (PosShare.mem_left_op_right qx)).2 $$ [HxA HxB]
    · isplitl [HxA] <;> iassumption
    isplitl [Hx Hi' Ho']
    · isplitl [Hx]; · iexact Hx
      isplitl [Hi']; · iexact Hi'
      iexists _; iapply (Entails.of_eq (oPts_blk1 (F := F) d L h1 h2 _).symm); iexact Ho'
    isplitl [Hs Hb Ha Hbufs]
    · isplitl [Hs]; · iexists _; iexact Hs
      isplitl [Hb]; · iexists _; iexact Hb
      isplitl [Ha]; · iexists _; iexact Ha
      iexact Hbufs
    isplitl [HsG0 HsG1 HsC0 HsC1 HsC2 Hsems]
    · isplitl [HsG0]; · iexact HsG0
      isplitl [HsG1]; · iexact HsG1
      isplitl [HsC0]; · iexact HsC0
      isplitl [HsC1]; · iexact HsC1
      isplitl [HsC2]; · iexact HsC2
      iexact Hsems
    iexists _; isplitr
    swap; · iexact HO
    ipureintro; intro p hp
    rcases Finset.mem_insert.mp hp with hp | hp; · exact .inr (hp ▸ rfl)
    exact hW2 p hp

end Cert.Proof.TileB

end
-- ==== Proof.Bits.TileBody.lean ====
/-
  One SparseCore tile's body with its value, at a symbolic tile and for any float instance: besides running to its
  end and giving back what it was handed, it leaves in its block of the padded output the aggregate of the table
  along the index list — entry (row j, lane e) is the five-level pairwise sum over r < 32 of the table at
  (row idx[32 j + r], lane e), times the scale word. The index fetch lands the tile's 14336 words of the list in
  its index scratch (word n of the scratch is word 32·offset + n of the list); trip k's two gathers bring rows
  idx[32·offset + 256 k + ρ], ρ < 256, of the table into the row buffer, and its sixty-four stores write rows
  8 k … 8 k + 7 of the output scratch with the aggregate's rows offset + 8 k + h; so before trip k the rows below
  8 k hold the aggregate's rows, and after the last trip (56 on SparseCore 0, 24 on SparseCore 1) every row that
  is copied out does. The copy-out then writes exactly the tile's block.
-/
import proofs.«219373_g11218454577211_week1_w3_1378_31_alg».proof.Proof.Bits.TripPieces
import proofs.«219373_g11218454577211_week1_w3_1378_31_alg».proof.Proof.Bits.TripValue
import proofs.«219373_g11218454577211_week1_w3_1378_31_alg».proof.Proof.Bits.CopyoutValue
import proofs.«219373_g11218454577211_week1_w3_1378_31_alg».proof.Proof.Bits.Tile

noncomputable section

namespace Cert.Proof.TileB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

/-- The loop's invariant with the values: as the frame's, and the index scratch holds the tile's 14336 words of the
    list, and the rows of the output scratch below the bound hold the aggregate's rows at the tile's offset. -/
def invV (qx : PosShare TreeShare) (fx : Buf (Elt F) (xLoc d)) (fi : Buf (Elt F) (iLoc d))
    (O : CellTallies nD τ sig (HIx 1)) (W : Waits sig (HIx 1)) (B : ℕ → ℕ)
    (kk : Nat) (_ : Unit) : sProp 𝕄 :=
  iprop(Transfers.MayWaits (V d (cV L) (jV L)) (default : HIx 1) O
    ∗ ((xV).view.loc (V d (cV L) (jV L)) ↦{qx.left} fx)
    ∗ ((xV).view.loc (V d (cV L) (jV L)) ↦{qx.right} fx)
    ∗ (∃ g, ⌜∀ j : S14336.Idx, g j = fi (iIx (32 * off L + (j 0).val))⌝ ∗ (sV).view.loc (V d (cV L) (jV L)) ↦{fullShare} g)
    ∗ (∃ f, (bV).view.loc (V d (cV L) (jV L)) ↦{fullShare} f)
    ∗ (∃ f, ⌜∀ y : S448x128.Idx, (y 0).val < B kk → f y = Gout d L fx fi y⌝ ∗ (aV).view.loc (V d (cV L) (jV L)) ↦{fullShare} f)
    ∗ semVal (cellG0 d L) 0 ∗ semVal (cellG1 d L) 0
    ∗ ∃ W', ⌜∀ p ∈ W', p ∈ W ∨ p.2 = none⌝ ∗ owes (V d (cV L) (jV L)) O W')

set_option maxHeartbeats 4000000 in
theorem tile_body (qx qi : PosShare TreeShare)
    (fx : Buf (Elt F) (xLoc d)) (fi : Buf (Elt F) (iLoc d)) (fo : Buf (Elt F) (oLoc d))
    (hidx : ∀ j, (fi j).toNat < 100000) (hF : (K (F := F)).Facts)
    (O : CellTallies nD τ sig (HIx 1)) (W : Waits sig (HIx 1)) (hO : ∀ g, O g none = 0) :
    iprop(levAts (K (F := F)).L (K (F := F)).lev ∗ emp
        ∗ (xPts d qx fx ∗ iPts d qi fi ∗ oPts d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) iV (Memref.isWhole_whole _) oV (Memref.isWhole_whole _)
            sV (Memref.isWhole_whole _) bV (Memref.isWhole_whole _) aV (Memref.isWhole_whole _)
            cc1_scratch3 cc1_scratch4 cc1_scoped0 cc1_scoped1 cc1_scoped2)
          fun _ => iprop((xPts d qx fx ∗ iPts d qi fi ∗ oPts d L (AggBuf d fx fi))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fb, Hb⟩, ⟨%fa, Ha⟩, Hbufs⟩, ⟨HsG0, HsG1, HsC0, HsC1, HsC2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xPts d qx fx : sProp 𝕄) = ((xV).view.loc (V d (cV L) (jV L)) ↦{qx} fx) from rfl)) $$ Hx
  ihave Hi' := (Entails.of_eq (show (iPts d qi fi : sProp 𝕄) = ((iV).view.loc (V d (cV L) (jV L)) ↦{qi} fi) from rfl)) $$ Hi
  ihave Hs' := (Entails.of_eq (show ((V d (cV L) (jV L)).loc cc1_scratch0 ↦{fullShare} fs : sProp 𝕄) = ((sV).view.loc (V d (cV L) (jV L)) ↦{fullShare} fs) from rfl)) $$ Hs
  ihave Hb' := (Entails.of_eq (show ((V d (cV L) (jV L)).loc cc1_scratch1 ↦{fullShare} fb : sProp 𝕄) = ((bV).view.loc (V d (cV L) (jV L)) ↦{fullShare} fb) from rfl)) $$ Hb
  ihave Ha' := (Entails.of_eq (show ((V d (cV L) (jV L)).loc cc1_scratch2 ↦{fullShare} fa : sProp 𝕄) = ((aV).view.loc (V d (cV L) (jV L)) ↦{fullShare} fa) from rfl)) $$ Ha
  sl_exec_parts
  ihave Hx2 := (pointsTo_share (PosShare.mem_left_op_right qx)).1 $$ Hx'
  icases Hx2 with ⟨HxA, HxB⟩
  sl_for (invV d L qx fx fi O W (fun kk => 8 * kk)) $$ [Hmw HxA HxB Hs' Hb' Ha' HsG0 HsG1 HO]
  case region =>
    intro k acc
    unfold invV
    iintro ⟨#Hmw, HxA, HxB, ⟨%g, %hgv, Hs⟩, ⟨%fb', Hb⟩, ⟨%fa', %hfa, Ha⟩, HsG0, HsG1, %W', %hW', HO⟩
    have hk56 : k.val < 56 := lt_of_lt_of_le k.isLt (k1_t1_abs L).2.1
    have hg : ∀ j, (g j).toNat < 100000 := fun j => by rw [hgv j]; exact hidx _
    have hin2 : ∀ x, ((win2 L k).view.read (Elt F) g x).toNat < 100000 :=
      read_lt (F := F) (Rect.unit (s := S14336) (k1_off2 L k) S128.size (k1_off2_inb L k)) (fun _ => rfl) g hg
    have hin3 : ∀ x, ((win3 L k).view.read (Elt F) g x).toNat < 100000 :=
      read_lt (F := F) (Rect.unit (s := S14336) (k1_off3 L k) S128.size (k1_off3_inb L k)) (fun _ => rfl) g hg
    ihave H := ((trip d L qx.left qx.right fx O k g hin2 hin3).2 W' fb' fa') $$ [HxA HxB Hs Hb Ha HsG0 HsG1 HO]
    · isplitl []; · iexact Hmw
      isplitl [HxA]; · iexact HxA
      isplitl [HxB]; · iexact HxB
      isplitl [Hs]; · iexact Hs
      isplitl [Hb]; · iexact Hb
      isplitl [Ha]; · iexact Ha
      isplitl [HsG0]; · iexact HsG0
      isplitl [HsG1]; · iexact HsG1
      iexact HO
    iapply (wp_wand frame _ _) $$ [H]
    · iexact H
    iintro %a HP
    icases HP with ⟨HxA, HxB, Hs, ⟨%fb2, Hb⟩, Ha, HsG0, HsG1, %W2, %hW2, HO⟩
    isplitl []; · iexact Hmw
    isplitl [HxA]; · iexact HxA
    isplitl [HxB]; · iexact HxB
    isplitl [Hs]
    · iexists g; isplitr
      · ipureintro; exact hgv
      · iexact Hs
    isplitl [Hb]; · iexists _; iexact Hb
    isplitl [Ha]
    · iexists _; isplitr
      swap; · iexact Ha
      ipureintro
      exact writes_value d L fx fi k hk56 _ (rects_eq d L qx.left qx.right fx O k g hin2 hin3)
        (pieces_ok d L qx.left qx.right fx fi O k g hin2 hin3 (tree_leaf_eq d L fx fi k g hin2 hin3 hgv)) fa' hfa
    isplitl [HsG0]; · iexact HsG0
    isplitl [HsG1]; · iexact HsG1
    iexists W2; isplitr
    · ipureintro; intro p hp
      rcases hW2 p hp with h | h
      · exact hW' p h
      · exact .inr h
    · iexact HO
  · unfold invV
    isplitl [Hmw]; · iexact Hmw
    isplitl [HxA]; · iexact HxA
    isplitl [HxB]; · iexact HxB
    isplitl [Hs']
    · iexists _; isplitr
      swap; · iexact Hs'
      ipureintro; intro j
      exact (congrFun (View.write_whole_univ (Val := Elt F) cc1_scratch0 fs _) j).trans (fetch_eq (F := F) L fi j)
    isplitl [Hb']; · iexists _; iexact Hb'
    isplitl [Ha']
    · iexists _; isplitr
      swap; · iexact Ha'
      ipureintro; intro y hy; exact absurd hy (Nat.not_lt_zero _)
    isplitl [HsG0]; · iexact HsG0
    isplitl [HsG1]; · iexact HsG1
    iexists _; isplitr
    swap; · iexact HO
    ipureintro; intro p hp
    rcases Finset.mem_insert.mp hp with hp | hp; · exact .inr (hp ▸ rfl)
    exact .inl hp
  iintro %_ HI
  unfold invV
  icases HI with ⟨-, HxA, HxB, ⟨%g, %hgv, Hs⟩, ⟨%fb', Hb⟩, ⟨%fa', %hfa, Ha⟩, HsG0, HsG1, %W', %hW', HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (invV d L qx fx fi O W (fun _ => 8 * (k1_t1_loop L).trips)) $$ [Hmw HxA HxB Hs Hb Ha HsG0 HsG1 HO]
  case region =>
    intro k _
    exact absurd k.isLt (Nat.not_lt.2 (Nat.le_trans (k1_t2_abs L).2.1 (Nat.zero_le _)))
  · unfold invV
    isplitl [Hmw]; · iexact Hmw
    isplitl [HxA]; · iexact HxA
    isplitl [HxB]; · iexact HxB
    isplitl [Hs]
    · iexists g; isplitr
      · ipureintro; exact hgv
      · iexact Hs
    isplitl [Hb]; · iexists _; iexact Hb
    isplitl [Ha]
    · iexists fa'; isplitr
      · ipureintro; exact hfa
      · iexact Ha
    isplitl [HsG0]; · iexact HsG0
    isplitl [HsG1]; · iexact HsG1
    iexists _; isplitr
    swap; · iexact HO
    ipureintro; exact hW'
  iintro %_ HI
  unfold invV
  icases HI with ⟨-, HxA, HxB, ⟨%g2, %hgv2, Hs⟩, ⟨%fb2, Hb⟩, ⟨%fa2, %hfa2, Ha⟩, HsG0, HsG1, %W2, %hW2, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  by_cases h1 : k1_cond1 L = 1#1
  · have h2 : ¬ k1_cond2 L = 1#1 := fun h => by
      have := (cond1_iff L).mp h1; have := (cond2_iff L).mp h; omega
    ihave Ho' := (Entails.of_eq (oPts_blk0 (F := F) d L h1 fo)) $$ Ho
    have hall : ∀ y : S448x128.Idx, fa2 y = Gout d L fx fi y := fun y => hfa2 y (by
      have := (trips_eq L).trans (by rw [(cond1_iff L).mp h1] : 56 - 32 * (L 0).val = 56)
      have hy := (y 0).isLt; change (y 0).val < 448 at hy
      show (y 0).val < 8 * (k1_t1_loop L).trips; omega)
    sl_exec
    sl_step
    ihave Hx := (pointsTo_share (PosShare.mem_left_op_right qx)).2 $$ [HxA HxB]
    · isplitl [HxA] <;> iassumption
    isplitl [Hx Hi' Ho']
    · isplitl [Hx]; · iexact Hx
      isplitl [Hi']; · iexact Hi'
      iapply (Entails.of_eq (oPts_blk0 (F := F) d L h1 _).symm)
      iapply (Entails.of_eq (pointsTo_congr (copyout0_value d L h1 fx fi fo fa2 hall))); iexact Ho'
    isplitl [Hs Hb Ha Hbufs]
    · isplitl [Hs]; · iexists _; iexact Hs
      isplitl [Hb]; · iexists _; iexact Hb
      isplitl [Ha]; · iexists _; iexact Ha
      iexact Hbufs
    isplitl [HsG0 HsG1 HsC0 HsC1 HsC2 Hsems]
    · isplitl [HsG0]; · iexact HsG0
      isplitl [HsG1]; · iexact HsG1
      isplitl [HsC0]; · iexact HsC0
      isplitl [HsC1]; · iexact HsC1
      isplitl [HsC2]; · iexact HsC2
      iexact Hsems
    iexists _; isplitr
    swap; · iexact HO
    ipureintro; intro p hp
    rcases Finset.mem_insert.mp hp with hp | hp; · exact .inr (hp ▸ rfl)
    exact hW2 p hp
  · have h2 : k1_cond2 L = 1#1 := (cond2_iff L).mpr (by
      have := (cond1_iff L).not.mp h1; have := (L 0).isLt; change (L 0).val < 2 at this; omega)
    ihave Ho' := (Entails.of_eq (oPts_blk1 (F := F) d L h1 h2 fo)) $$ Ho
    have h192 : ∀ y : S448x128.Idx, (y 0).val < 192 → fa2 y = Gout d L fx fi y := fun y hy => hfa2 y (by
      have := (trips_eq L).trans (by rw [(cond2_iff L).mp h2] : 56 - 32 * (L 0).val = 24)
      show (y 0).val < 8 * (k1_t1_loop L).trips; omega)
    sl_exec
    sl_step
    ihave Hx := (pointsTo_share (PosShare.mem_left_op_right qx)).2 $$ [HxA HxB]
    · isplitl [HxA] <;> iassumption
    isplitl [Hx Hi' Ho']
    · isplitl [Hx]; · iexact Hx
      isplitl [Hi']; · iexact Hi'
      iapply (Entails.of_eq (oPts_blk1 (F := F) d L h1 h2 _).symm)
      iapply (Entails.of_eq (pointsTo_congr (copyout1_value d L h2 fx fi fo fa2 h192))); iexact Ho'
    isplitl [Hs Hb Ha Hbufs]
    · isplitl [Hs]; · iexists _; iexact Hs
      isplitl [Hb]; · iexists _; iexact Hb
      isplitl [Ha]; · iexists _; iexact Ha
      iexact Hbufs
    isplitl [HsG0 HsG1 HsC0 HsC1 HsC2 Hsems]
    · isplitl [HsG0]; · iexact HsG0
      isplitl [HsG1]; · iexact HsG1
      isplitl [HsC0]; · iexact HsC0
      isplitl [HsC1]; · iexact HsC1
      isplitl [HsC2]; · iexact HsC2
      iexact Hsems
    iexists _; isplitr
    swap; · iexact HO
    ipureintro; intro p hp
    rcases Finset.mem_insert.mp hp with hp | hp; · exact .inr (hp ▸ rfl)
    exact hW2 p hp

/-- The same, with the program's facts supplied: the form the launch's per-tile obligation is stated in. -/
theorem tile_rule (qx qi : PosShare TreeShare)
    (fx : Buf (Elt F) (xLoc d)) (fi : Buf (Elt F) (iLoc d)) (fo : Buf (Elt F) (oLoc d))
    (hidx : ∀ j, (fi j).toNat < 100000)
    (O : CellTallies nD τ sig (HIx 1)) (W : Waits sig (HIx 1)) (hO : ∀ g, O g none = 0) :
    iprop(levAts (K (F := F)).L (K (F := F)).lev ∗ emp
        ∗ (xPts d qx fx ∗ iPts d qi fi ∗ oPts d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) iV (Memref.isWhole_whole _) oV (Memref.isWhole_whole _)
            sV (Memref.isWhole_whole _) bV (Memref.isWhole_whole _) aV (Memref.isWhole_whole _)
            cc1_scratch3 cc1_scratch4 cc1_scoped0 cc1_scoped1 cc1_scoped2)
          fun _ => iprop((xPts d qx fx ∗ iPts d qi fi ∗ oPts d L (AggBuf d fx fi))
            ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body d L qx qi fx fi fo hidx (facts (F := F)) O W hO

end Cert.Proof.TileB

end
-- ==== Proof.Bits.InstTile.lean ====
/-
  The tile rule, from the body's proof at a symbolic tile.
-/
import proofs.«219373_g11218454577211_week1_w3_1378_31_alg».proof.Proof.Bits.TileObl
import proofs.«219373_g11218454577211_week1_w3_1378_31_alg».proof.Proof.Bits.TileBody

noncomputable section

namespace Cert.Proof.KB

open Cert.Kernel
open Idealize.ShloMosaic

variable {F : FTy → Type} [FloatOps F]

theorem tileRule : TileRule (F := F) := fun d L qx qi fx fi fo hidx O W hO =>
  Cert.Proof.TileB.tile_body d L qx qi fx fi fo hidx facts O W hO

end Cert.Proof.KB

end
-- ==== Proof.Bits.FrameK.lean ====
/-
  The word-level program's frame: its run, by the same launch with the same body, region and tiling read at the
  word-level instance, with the value dropped.
-/
import proofs.«219373_g11218454577211_week1_w3_1378_31_alg».proof.Defs
import proofs.«219373_g11218454577211_week1_w3_1378_31_alg».proof.Proof.Bits.RunFull
import proofs.«219373_g11218454577211_week1_w3_1378_31_alg».proof.Proof.Bits.InstTile

noncomputable section

namespace Cert.Proof.KB

open Idealize.ShloMosaic Idealize.SL.Sem

theorem frame_k : Cert.frame_Kernel := fun m ρ hpre =>
  (θ_run Cert.Kernel.defs _ _).mono (fun _ h c => (h c).2)
    (run_full (F := Bits) m ρ hpre (fun m hidx => tileObl m XFk tileRule hidx))

end Cert.Proof.KB

end
-- ==== Proof.lean ====
/-
  The five claims.  The kernel transforms the node embeddings by a matmul with the transposed weight, a bias and a
  clamp at zero on the TensorCore, and on the two SparseCores' thirty-two tiles gathers, for each hyperedge, the 32
  transformed rows its table names and writes their mean — a pairwise tree sum times 1/32; the reference takes the
  same rows and averages first over the 8 nodes of a group, then over the 4 groups.  Over the extended reals the two
  agree where the transformed rows are finite, which the precondition's finite inputs give: the tree sum is the sum,
  and (Σ_g (Σ_s x)/8)/4 = (Σ x)·(1/32) on reals.  The frames are the programs' runs with the values dropped: the
  kernel's by the SparseCore launch theorem from the tile's body, the matmul region and @main's host operations, once
  for each instance; the reference's by running its host operations in order.  No operation was rewritten by the
  ideal pass, so the idealization claim is trivial.
-/
import proofs.«219373_g11218454577211_week1_w3_1378_31_alg».proof.Defs
import proofs.«219373_g11218454577211_week1_w3_1378_31_alg».proof.Proof.ClaimsKI
import proofs.«219373_g11218454577211_week1_w3_1378_31_alg».proof.Proof.InstTile
import proofs.«219373_g11218454577211_week1_w3_1378_31_alg».proof.Proof.Bits.FrameK
import proofs.«219373_g11218454577211_week1_w3_1378_31_alg».proof.Proof.RefG
import proofs.«219373_g11218454577211_week1_w3_1378_31_alg».proof.Proof.Gen.Kernel
import proofs.«219373_g11218454577211_week1_w3_1378_31_alg».proof.Proof.Gen.KernelIdeal
import proofs.«219373_g11218454577211_week1_w3_1378_31_alg».proof.Proof.Gen.ReferenceIdeal
import proofs.«219373_g11218454577211_week1_w3_1378_31_alg».proof.Proof.Gen.Pre_input_domain
import Idealize.ShloMosaic.Adequacy
import Idealize.ShloMosaic.Init

noncomputable section

namespace Cert.Proof

open Idealize.ShloMosaic Idealize.SL.Sem

/-- The tile's task at the ideal instance, for every launch memory whose row numbers name rows. -/
theorem tileHyp : Cert.Proof.KI.TileHyp := fun m hidx => Cert.Proof.KI.tileObl m Cert.Proof.KI.XFk Cert.Proof.KI.tileRule hidx

theorem claim : Cert.Claim := ⟨Cert.Kernel.Gen.facts, Cert.KernelIdeal.Gen.facts, Cert.ReferenceIdeal.Gen.facts, Cert.Pre_input_domain.Gen.facts,
  Cert.Proof.KB.frame_k, Cert.Proof.KI.frame_ki tileHyp, fun m g hpre => Cert.Proof.RefG.frame m g hpre, trivial,
  Cert.Proof.KI.algebraic_ki tileHyp⟩

end Cert.Proof

end
